-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v202)) (v1 : (c : Dev Cert.KernelIdeal.nD) → Buf (Elt Ideal) ((c.tc : Thread Cert.KernelIdeal.nD Cert.KernelIdeal.τ).loc Cert.KernelIdeal.main_v101)) (v2 : (c : Dev Cert.KernelIdeal.nD) → Buf (Elt Ideal) ((c.tc : Thread Cert.KernelIdeal.nD Cert.KernelIdeal.τ).loc Cert.KernelIdeal.main_v205)) (v3 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_v205) = v2 c
          ∧ r.2.mem ((c.tc : Thread Cert.KernelIdeal.nD Cert.KernelIdeal.τ).loc Cert.KernelIdeal.main_v199) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_v409) = v2 c
          ∧ r.2.mem ((c.tc : Thread Cert.ReferenceIdeal.nD Cert.ReferenceIdeal.τ).loc Cert.ReferenceIdeal.main_v403) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x4096 : Shape := ⟨2, ![8192, 4096]⟩
abbrev S4096x128 : Shape := ⟨2, ![4096, 128]⟩
abbrev S8192x128 : Shape := ⟨2, ![8192, 128]⟩
abbrev S4x128x128 : Shape := ⟨3, ![4, 128, 128]⟩
abbrev S4x128 : Shape := ⟨2, ![4, 128]⟩
abbrev S2x256x128 : Shape := ⟨3, ![2, 256, 128]⟩
abbrev S2x128 : Shape := ⟨2, ![2, 128]⟩
abbrev S6x128x128 : Shape := ⟨3, ![6, 128, 128]⟩
abbrev S6x128 : Shape := ⟨2, ![6, 128]⟩
abbrev S4x256x128 : Shape := ⟨3, ![4, 256, 128]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S8192x128 : S_.BroadcastsInDim S8192x128 (![] : Fin 0 → Fin S8192x128.rank)
  reducesTo_S8192x128_S_d0_1 : S8192x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S4x256x128 : S_.BroadcastsInDim S4x256x128 (![] : Fin 0 → Fin S4x256x128.rank)
  reducesTo_S4x256x128_S_d0_1_2 : S4x256x128.ReducesTo [0, 1, 2] S_

variable [Facts]

def fn_part6 {F : FTy → Type} [FloatOps F] (main_arg21 : FVec F S6x128 .f32) (main_arg22 : FVec F S4x256x128 .f32) (main_arg23 : FVec F S4x128 .f32) (main_v98 : IVec S_ 1) (main_v101 : IVec S6x128x128 1) (main_c_39 : IVec S_ 1) : IVec S_ 1 :=
  let main_v102 : IVec S_ 1 := (fun x v => Host.reduce IntOp.andi x v reducesTo_S6x128x128_S_d0_1_2 h_S_) main_v101 main_c_39
  let main_v103 : IVec S_ 1 := andi main_v98 main_v102
  let main_v104 : FVec F S6x128 .f32 := Host.absf main_arg21
  let main_cst_40 : FVec F S_ .f32 := constant S_ .f32 0x7F800000#32
  let main_v105 : FVec F S6x128 .f32 := broadcastInDim S6x128 ![] bcast_S_S6x128 main_cst_40
  let main_v106 : IVec S6x128 1 := cmpf .olt main_v104 main_v105
  let main_c_41 : IVec S_ 1 := constantI S_ 1 1#1
  let main_v107 : IVec S_ 1 := (fun x v => Host.reduce IntOp.andi x v reducesTo_S6x128_S_d0_1 h_S_) main_v106 main_c_41
  let main_v108 : IVec S_ 1 := andi main_v103 main_v107
  let main_v109 : FVec F S4x256x128 .f32 := Host.absf main_arg22
  let main_cst_42 : FVec F S_ .f32 := constant S_ .f32 0x7F800000#32
  let main_v110 : FVec F S4x256x128 .f32 := broadcastInDim S4x256x128 ![] bcast_S_S4x256x128 main_cst_42
  let main_v111 : IVec S4x256x128 1 := cmpf .olt main_v109 main_v110
  let main_c_43 : IVec S_ 1 := constantI S_ 1 1#1
  let main_v112 : IVec S_ 1 := (fun x v => Host.reduce IntOp.andi x v reducesTo_S4x256x128_S_d0_1_2 h_S_) main_v111 main_c_43
  let main_v113 : IVec S_ 1 := andi main_v108 main_v112
  let main_v114 : FVec F S4x128 .f32 := Host.absf main_arg23
  let main_cst_44 : FVec F S_ .f32 := constant S_ .f32 0x7F800000#32
  let main_v115 : FVec F S4x128 .f32 := broadcastInDim S4x128 ![] bcast_S_S4x128 main_cst_44
  let main_v116 : IVec S4x128 1 := cmpf .olt main_v114 main_v115
  let main_c_45 : IVec S_ 1 := constantI S_ 1 1#1
  let main_v117 : IVec S_ 1 := (fun x v => Host.reduce IntOp.andi x v reducesTo_S4x128_S_d0_1 h_S_) main_v116 main_c_45
  let main_v118 : IVec S_ 1 := andi main_v113 main_v117
  main_v118

def fn_part5 {F : FTy → Type} [FloatOps F] (main_arg18 : FVec F S2x256x128 .f32) (main_arg19 : FVec F S2x128 .f32) (main_arg20 : FVec F S6x128x128 .f32) (main_arg21 : FVec F S6x128 .f32) (main_arg22 : FVec F S4x256x128 .f32) (main_arg23 : FVec F S4x128 .f32) (main_v83 : IVec S_ 1) (main_v84 : FVec F S4x128 .f32) (main_cst_32 : FVec F S_ .f32) : IVec S_ 1 :=
  let main_v85 : FVec F S4x128 .f32 := broadcastInDim S4x128 ![] bcast_S_S4x128 main_cst_32
  let main_v86 : IVec S4x128 1 := cmpf .olt main_v84 main_v85
  let main_c_33 : IVec S_ 1 := constantI S_ 1 1#1
  let main_v87 : IVec S_ 1 := (fun x v => Host.reduce IntOp.andi x v reducesTo_S4x128_S_d0_1 h_S_) main_v86 main_c_33
  let main_v88 : IVec S_ 1 := andi main_v83 main_v87
  let main_v89 : FVec F S2x256x128 .f32 := Host.absf main_arg18
  let main_cst_34 : FVec F S_ .f32 := constant S_ .f32 0x7F800000#32
  let main_v90 : FVec F S2x256x128 .f32 := broadcastInDim S2x256x128 ![] bcast_S_S2x256x128 main_cst_34
  let main_v91 : IVec S2x256x128 1 := cmpf .olt main_v89 main_v90
  let main_c_35 : IVec S_ 1 := constantI S_ 1 1#1
  let main_v92 : IVec S_ 1 := (fun x v => Host.reduce IntOp.andi x v reducesTo_S2x256x128_S_d0_1_2 h_S_) main_v91 main_c_35
  let main_v93 : IVec S_ 1 := andi main_v88 main_v92
  let main_v94 : FVec F S2x128 .f32 := Host.absf main_arg19
  let main_cst_36 : FVec F S_ .f32 := constant S_ .f32 0x7F800000#32
  let main_v95 : FVec F S2x128 .f32 := broadcastInDim S2x128 ![] bcast_S_S2x128 main_cst_36
  let main_v96 : IVec S2x128 1 := cmpf .olt main_v94 main_v95
  let main_c_37 : IVec S_ 1 := constantI S_ 1 1#1
  let main_v97 : IVec S_ 1 := (fun x v => Host.reduce IntOp.andi x v reducesTo_S2x128_S_d0_1 h_S_) main_v96 main_c_37
  let main_v98 : IVec S_ 1 := andi main_v93 main_v97
  let main_v99 : FVec F S6x128x128 .f32 := Host.absf main_arg20
  let main_cst_38 : FVec F S_ .f32 := constant S_ .f32 0x7F800000#32
  let main_v100 : FVec F S6x128x128 .f32 := broadcastInDim S6x128x128 ![] bcast_S_S6x128x128 main_cst_38
  let main_v101 : IVec S6x128x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S4x256x128 .f32) (main_arg15 : FVec F S4x128 .f32) (main_arg16 : FVec F S4x128x128 .f32) (main_arg17 : FVec F S4x128 .f32) (main_arg18 : FVec F S2x256x128 .f32) (main_arg19 : FVec F S2x128 .f32) (main_arg20 : FVec F S6x128x128 .f32) (main_arg21 : FVec F S6x128 .f32) (main_arg22 : FVec F S4x256x128 .f32) (main_arg23 : FVec F S4x128 .f32) (main_v63 : IVec S_ 1) (main_v67 : IVec S_ 1) : IVec S_ 1 :=
  let main_v68 : IVec S_ 1 := andi main_v63 main_v67
  let main_v69 : FVec F S4x256x128 .f32 := Host.absf main_arg14
  let main_cst_26 : FVec F S_ .f32 := constant S_ .f32 0x7F800000#32
  let main_v70 : FVec F S4x256x128 .f32 := broadcastInDim S4x256x128 ![] bcast_S_S4x256x128 main_cst_26
  let main_v71 : IVec S4x256x128 1 := cmpf .olt main_v69 main_v70
  let main_c_27 : IVec S_ 1 := constantI S_ 1 1#1
  let main_v72 : IVec S_ 1 := (fun x v => Host.reduce IntOp.andi x v reducesTo_S4x256x128_S_d0_1_2 h_S_) main_v71 main_c_27
  let main_v73 : IVec S_ 1 := andi main_v68 main_v72
  let main_v74 : FVec F S4x128 .f32 := Host.absf main_arg15
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S4x128x128 .f32 := Host.absf main_arg16
  let main_cst_30 : FVec F S_ .f32 := constant S_ .f32 0x7F800000#32
  let main_v80 : FVec F S4x128x128 .f32 := broadcastInDim S4x128x128 ![] bcast_S_S4x128x128 main_cst_30
  let main_v81 : IVec S4x128x128 1 := cmpf .olt main_v79 main_v80
  let main_c_31 : IVec S_ 1 := constantI S_ 1 1#1
  let main_v82 : IVec S_ 1 := (fun x v => Host.reduce IntOp.andi x v reducesTo_S4x128x128_S_d0_1_2 h_S_) main_v81 main_c_31
  let main_v83 : IVec S_ 1 := andi main_v78 main_v82
  let main_v84 : FVec F S4x128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S2x128 .f32) (main_arg12 : FVec F S6x128x128 .f32) (main_arg13 : FVec F S6x128 .f32) (main_arg14 : FVec F S4x256x128 .f32) (main_arg15 : FVec F S4x128 .f32) (main_arg16 : FVec F S4x128x128 .f32) (main_arg17 : FVec F S4x128 .f32) (main_arg18 : FVec F S2x256x128 .f32) (main_arg19 : FVec F S2x128 .f32) (main_arg20 : FVec F S6x128x128 .f32) (main_arg21 : FVec F S6x128 .f32) (main_arg22 : FVec F S4x256x128 .f32) (main_arg23 : FVec F S4x128 .f32) (main_v48 : IVec S_ 1) (main_v49 : FVec F S2x256x128 .f32) (main_v50 : FVec F S2x256x128 .f32) : IVec S_ 1 :=
  let main_v51 : IVec S2x256x128 1 := cmpf .olt main_v49 main_v50
  let main_c_19 : IVec S_ 1 := constantI S_ 1 1#1
  let main_v52 : IVec S_ 1 := (fun x v => Host.reduce IntOp.andi x v reducesTo_S2x256x128_S_d0_1_2 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S6x128x128 .f32 := Host.absf main_arg12
  let main_cst_22 : FVec F S_ .f32 := constant S_ .f32 0x7F800000#32
  let main_v60 : FVec F S6x128x128 .f32 := broadcastInDim S6x128x128 ![] bcast_S_S6x128x128 main_cst_22
  let main_v61 : IVec S6x128x128 1 := cmpf .olt main_v59 main_v60
  let main_c_23 : IVec S_ 1 := constantI S_ 1 1#1
  let main_v62 : IVec S_ 1 := (fun x v => Host.reduce IntOp.andi x v reducesTo_S6x128x128_S_d0_1_2 h_S_) main_v61 main_c_23
  let main_v63 : IVec S_ 1 := andi main_v58 main_v62
  let main_v64 : FVec F S6x128 .f32 := Host.absf main_arg13
  let main_cst_24 : FVec F S_ .f32 := constant S_ .f32 0x7F800000#32
  let main_v65 : FVec F S6x128 .f32 := broadcastInDim S6x128 ![] bcast_S_S6x128 main_cst_24
  let main_v66 : IVec S6x128 1 := cmpf .olt main_v64 main_v65
  let main_c_25 : IVec S_ 1 := constantI S_ 1 1#1
  let main_v67 : IVec S_ 1 := (fun x v => Host.reduce IntOp.andi x v reducesTo_S6x128_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S8192x128 .f32) (main_arg8 : FVec F S4x128x128 .f32) (main_arg9 : FVec F S4x128 .f32) (main_arg10 : FVec F S2x256x128 .f32) (main_arg11 : FVec F S2x128 .f32) (main_arg12 : FVec F S6x128x128 .f32) (main_arg13 : FVec F S6x128 .f32) (main_arg14 : FVec F S4x256x128 .f32) (main_arg15 : FVec F S4x128 .f32) (main_arg16 : FVec F S4x128x128 .f32) (main_arg17 : FVec F S4x128 .f32) (main_arg18 : FVec F S2x256x128 .f32) (main_arg19 : FVec F S2x128 .f32) (main_arg20 : FVec F S6x128x128 .f32) (main_arg21 : FVec F S6x128 .f32) (main_arg22 : FVec F S4x256x128 .f32) (main_arg23 : FVec F S4x128 .f32) (main_v33 : IVec S_ 1) : IVec S_ 1 :=
  let main_v34 : FVec F S8192x128 .f32 := Host.absf main_arg7
  let main_cst_12 : FVec F S_ .f32 := constant S_ .f32 0x7F800000#32
  let main_v35 : FVec F S8192x128 .f32 := broadcastInDim S8192x128 ![] bcast_S_S8192x128 main_cst_12
  let main_v36 : IVec S8192x128 1 := cmpf .olt main_v34 main_v35
  let main_c_13 : IVec S_ 1 := constantI S_ 1 1#1
  let main_v37 : IVec S_ 1 := (fun x v => Host.reduce IntOp.andi x v reducesTo_S8192x128_S_d0_1 h_S_) main_v36 main_c_13
  let main_v38 : IVec S_ 1 := andi main_v33 main_v37
  let main_v39 : FVec F S4x128x128 .f32 := Host.absf main_arg8
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S2x256x128 .f32 := Host.absf main_arg10
  let main_cst_18 : FVec F S_ .f32 := constant S_ .f32 0x7F800000#32
  let main_v50 : FVec F S2x256x128 .f32 := broadcastInDim S2x256x128 ![] bcast_S_S2x256x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S4096x128 .f32) (main_arg5 : FVec F S8192x128 .f32) (main_arg6 : FVec F S4096x128 .f32) (main_arg7 : FVec F S8192x128 .f32) (main_arg8 : FVec F S4x128x128 .f32) (main_arg9 : FVec F S4x128 .f32) (main_arg10 : FVec F S2x256x128 .f32) (main_arg11 : FVec F S2x128 .f32) (main_arg12 : FVec F S6x128x128 .f32) (main_arg13 : FVec F S6x128 .f32) (main_arg14 : FVec F S4x256x128 .f32) (main_arg15 : FVec F S4x128 .f32) (main_arg16 : FVec F S4x128x128 .f32) (main_arg17 : FVec F S4x128 .f32) (main_arg18 : FVec F S2x256x128 .f32) (main_arg19 : FVec F S2x128 .f32) (main_arg20 : FVec F S6x128x128 .f32) (main_arg21 : FVec F S6x128 .f32) (main_arg22 : FVec F S4x256x128 .f32) (main_arg23 : FVec F S4x128 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S8192x128 .f32 := Host.absf main_arg5
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  let main_v29 : FVec F S4096x128 .f32 := Host.absf main_arg6
  let main_cst_10 : FVec F S_ .f32 := constant S_ .f32 0x7F800000#32
  let main_v30 : FVec F S4096x128 .f32 := broadcastInDim S4096x128 ![] bcast_S_S4096x128 main_cst_10
  let main_v31 : IVec S4096x128 1 := cmpf .olt main_v29 main_v30
  let main_c_11 : IVec S_ 1 := constantI S_ 1 1#1
  let main_v32 : IVec S_ 1 := (fun x v => Host.reduce IntOp.andi x v reducesTo_S4096x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S4096x8192 .f32) (main_arg1 : FVec F S8192x4096 .f32) (main_arg2 : FVec F S4096x8192 .f32) (main_arg3 : FVec F S8192x4096 .f32) (main_arg4 : FVec F S4096x128 .f32) (main_arg5 : FVec F S8192x128 .f32) (main_arg6 : FVec F S4096x128 .f32) (main_arg7 : FVec F S8192x128 .f32) (main_arg8 : FVec F S4x128x128 .f32) (main_arg9 : FVec F S4x128 .f32) (main_arg10 : FVec F S2x256x128 .f32) (main_arg11 : FVec F S2x128 .f32) (main_arg12 : FVec F S6x128x128 .f32) (main_arg13 : FVec F S6x128 .f32) (main_arg14 : FVec F S4x256x128 .f32) (main_arg15 : FVec F S4x128 .f32) (main_arg16 : FVec F S4x128x128 .f32) (main_arg17 : FVec F S4x128 .f32) (main_arg18 : FVec F S2x256x128 .f32) (main_arg19 : FVec F S2x128 .f32) (main_arg20 : FVec F S6x128x128 .f32) (main_arg21 : FVec F S6x128 .f32) (main_arg22 : FVec F S4x256x128 .f32) (main_arg23 : FVec F S4x128 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S4096x8192 : Shape := ⟨2, ![4096, 8192]⟩
abbrev S8192x4096 : Shape := ⟨2, ![8192, 4096]⟩
abbrev S4096x128 : Shape := ⟨2, ![4096, 128]⟩
abbrev S8192x128 : Shape := ⟨2, ![8192, 128]⟩
abbrev S4x128x128 : Shape := ⟨3, ![4, 128, 128]⟩
abbrev S4x128 : Shape := ⟨2, ![4, 128]⟩
abbrev S2x256x128 : Shape := ⟨3, ![2, 256, 128]⟩
abbrev S2x128 : Shape := ⟨2, ![2, 128]⟩
abbrev S6x128x128 : Shape := ⟨3, ![6, 128, 128]⟩
abbrev S6x128 : Shape := ⟨2, ![6, 128]⟩
abbrev S4x256x128 : Shape := ⟨3, ![4, 256, 128]⟩
abbrev S1x128x128 : Shape := ⟨3, ![1, 128, 128]⟩
abbrev S128x128 : Shape := ⟨2, ![128, 128]⟩
abbrev S512x128 : Shape := ⟨2, ![512, 128]⟩
abbrev S1x128 : Shape := ⟨2, ![1, 128]⟩
abbrev S128 : Shape := ⟨1, ![128]⟩
abbrev S512x4096 : Shape := ⟨2, ![512, 4096]⟩
abbrev S512x8192 : Shape := ⟨2, ![512, 8192]⟩
abbrev S1x256x128 : Shape := ⟨3, ![1, 256, 128]⟩
abbrev S256x128 : Shape := ⟨2, ![256, 128]⟩
abbrev S4096x256 : Shape := ⟨2, ![4096, 256]⟩
abbrev S8192x256 : Shape := ⟨2, ![8192, 256]⟩
abbrev S2048x256 : Shape := ⟨2, ![2048, 256]⟩

abbrev nBuf : Space → Nat
  | .hbm => 230
  | .vmem => 184
  | .smem => 0
  | _ => 0

abbrev hbmTy0_0 (i : Nat) : BufTy := match i % 128 with
  | 0 => ⟨S4096x8192, .f32⟩
  | 1 => ⟨S8192x4096, .f32⟩
  | 2 => ⟨S4096x8192, .f32⟩
  | 3 => ⟨S8192x4096, .f32⟩
  | 4 => ⟨S4096x128, .f32⟩
  | 5 => ⟨S8192x128, .f32⟩
  | 6 => ⟨S4096x128, .f32⟩
  | 7 => ⟨S8192x128, .f32⟩
  | 8 => ⟨S4x128x128, .f32⟩
  | 9 => ⟨S4x128, .f32⟩
  | 10 => ⟨S2x256x128, .f32⟩
  | 11 => ⟨S2x128, .f32⟩
  | 12 => ⟨S6x128x128, .f32⟩
  | 13 => ⟨S6x128, .f32⟩
  | 14 => ⟨S4x256x128, .f32⟩
  | 15 => ⟨S4x128, .f32⟩
  | 16 => ⟨S4x128x128, .f32⟩
  | 17 => ⟨S4x128, .f32⟩
  | 18 => ⟨S2x256x128, .f32⟩
  | 19 => ⟨S2x128, .f32⟩
  | 20 => ⟨S6x128x128, .f32⟩
  | 21 => ⟨S6x128, .f32⟩
  | 22 => ⟨S4x256x128, .f32⟩
  | 23 => ⟨S4x128, .f32⟩
  | 24 => ⟨S4096x8192, .bf16⟩
  | 25 => ⟨S8192x4096, .bf16⟩
  | 26 => ⟨S4096x8192, .bf16⟩
  | 27 => ⟨S8192x4096, .bf16⟩
  | 28 => ⟨S4096x128, .bf16⟩
  | 29 => ⟨S8192x128, .bf16⟩
  | 30 => ⟨S4x128x128, .bf16⟩
  | 31 => ⟨S2x256x128, .bf16⟩
  | 32 => ⟨S6x128x128, .bf16⟩
  | 33 => ⟨S4x256x128, .bf16⟩
  | 34 => ⟨S1x128x128, .bf16⟩
  | 35 => ⟨S128x128, .bf16⟩
  | 36 => ⟨S4096x128, .bf16⟩
  | 37 => ⟨S1x128x128, .bf16⟩
  | 38 => ⟨S128x128, .bf16⟩
  | 39 => ⟨S8192x128, .bf16⟩
  | 40 => ⟨S1x128, .f32⟩
  | 41 => ⟨S128, .f32⟩
  | 42 => ⟨S1x128x128, .bf16⟩
  | 43 => ⟨S128x128, .bf16⟩
  | 44 => ⟨S1x128, .f32⟩
  | 45 => ⟨S8192x128, .bf16⟩
  | 46 => ⟨S1x128, .f32⟩
  | 47 => ⟨S128, .f32⟩
  | 48 => ⟨S1x128x128, .bf16⟩
  | 49 => ⟨S128x128, .bf16⟩
  | 50 => ⟨S1x128, .f32⟩
  | 51 => ⟨S4096x128, .bf16⟩
  | 52 => ⟨S1x128, .f32⟩
  | 53 => ⟨S128, .f32⟩
  | 54 => ⟨S1x256x128, .bf16⟩
  | 55 => ⟨S256x128, .bf16⟩
  | 56 => ⟨S128x128, .bf16⟩
  | 57 => ⟨S1x256x128, .bf16⟩
  | 58 => ⟨S256x128, .bf16⟩
  | 59 => ⟨S128x128, .bf16⟩
  | 60 => ⟨S1x128, .f32⟩
  | 61 => ⟨S128, .f32⟩
  | 62 => ⟨S1x128, .f32⟩
  | 63 => ⟨S1x128, .f32⟩
  | 64 => ⟨S4096x128, .f32⟩
  | 65 => ⟨S1x128, .f32⟩
  | 66 => ⟨S128, .f32⟩
  | 67 => ⟨S1x256x128, .bf16⟩
  | 68 => ⟨S256x128, .bf16⟩
  | 69 => ⟨S128x128, .bf16⟩
  | 70 => ⟨S1x256x128, .bf16⟩
  | 71 => ⟨S256x128, .bf16⟩
  | 72 => ⟨S128x128, .bf16⟩
  | 73 => ⟨S1x128, .f32⟩
  | 74 => ⟨S128, .f32⟩
  | 75 => ⟨S1x128, .f32⟩
  | 76 => ⟨S1x128, .f32⟩
  | 77 => ⟨S8192x128, .f32⟩
  | 78 => ⟨S4096x128, .bf16⟩
  | 79 => ⟨S8192x128, .bf16⟩
  | 80 => ⟨S1x128x128, .bf16⟩
  | 81 => ⟨S128x128, .bf16⟩
  | 82 => ⟨S4096x128, .bf16⟩
  | 83 => ⟨S1x128x128, .bf16⟩
  | 84 => ⟨S128x128, .bf16⟩
  | 85 => ⟨S8192x128, .bf16⟩
  | 86 => ⟨S1x128, .f32⟩
  | 87 => ⟨S128, .f32⟩
  | 88 => ⟨S1x128x128, .bf16⟩
  | 89 => ⟨S128x128, .bf16⟩
  | 90 => ⟨S1x128, .f32⟩
  | 91 => ⟨S8192x128, .bf16⟩
  | 92 => ⟨S1x128, .f32⟩
  | 93 => ⟨S128, .f32⟩
  | 94 => ⟨S1x128x128, .bf16⟩
  | 95 => ⟨S128x128, .bf16⟩
  | 96 => ⟨S1x128, .f32⟩
  | 97 => ⟨S4096x128, .bf16⟩
  | 98 => ⟨S1x128, .f32⟩
  | 99 => ⟨S128, .f32⟩
  | 100 => ⟨S1x256x128, .bf16⟩
  | 101 => ⟨S256x128, .bf16⟩
  | 102 => ⟨S128x128, .bf16⟩
  | 103 => ⟨S1x256x128, .bf16⟩
  | 104 => ⟨S256x128, .bf16⟩
  | 105 => ⟨S128x128, .bf16⟩
  | 106 => ⟨S1x128, .f32⟩
  | 107 => ⟨S128, .f32⟩
  | 108 => ⟨S1x128, .f32⟩
  | 109 => ⟨S1x128, .f32⟩
  | 110 => ⟨S4096x128, .f32⟩
  | 111 => ⟨S1x128, .f32⟩
  | 112 => ⟨S128, .f32⟩
  | 113 => ⟨S1x256x128, .bf16⟩
  | 114 => ⟨S256x128, .bf16⟩
  | 115 => ⟨S128x128, .bf16⟩
  | 116 => ⟨S1x256x128, .bf16⟩
  | 117 => ⟨S256x128, .bf16⟩
  | 118 => ⟨S128x128, .bf16⟩
  | 119 => ⟨S1x128, .f32⟩
  | 120 => ⟨S128, .f32⟩
  | 121 => ⟨S1x128, .f32⟩
  | 122 => ⟨S1x128, .f32⟩
  | 123 => ⟨S8192x128, .f32⟩
  | 124 => ⟨S4096x256, .f32⟩
  | 125 => ⟨S8192x256, .f32⟩
  | 126 => ⟨S4096x128, .bf16⟩
  | 127 => ⟨S8192x128, .bf16⟩
  | _ => ⟨S4096x8192, .f32⟩

abbrev hbmTy0_1 (i : Nat) : BufTy := match i % 128 with
  | 0 => ⟨S4x128x128, .bf16⟩
  | 1 => ⟨S2x256x128, .bf16⟩
  | 2 => ⟨S6x128x128, .bf16⟩
  | 3 => ⟨S4x256x128, .bf16⟩
  | 4 => ⟨S1x128x128, .bf16⟩
  | 5 => ⟨S128x128, .bf16⟩
  | 6 => ⟨S4096x128, .bf16⟩
  | 7 => ⟨S1x128x128, .bf16⟩
  | 8 => ⟨S128x128, .bf16⟩
  | 9 => ⟨S8192x128, .bf16⟩
  | 10 => ⟨S1x128, .f32⟩
  | 11 => ⟨S128, .f32⟩
  | 12 => ⟨S1x128x128, .bf16⟩
  | 13 => ⟨S128x128, .bf16⟩
  | 14 => ⟨S1x128, .f32⟩
  | 15 => ⟨S8192x128, .bf16⟩
  | 16 => ⟨S1x128, .f32⟩
  | 17 => ⟨S128, .f32⟩
  | 18 => ⟨S1x128x128, .bf16⟩
  | 19 => ⟨S128x128, .bf16⟩
  | 20 => ⟨S1x128, .f32⟩
  | 21 => ⟨S4096x128, .bf16⟩
  | 22 => ⟨S1x128, .f32⟩
  | 23 => ⟨S128, .f32⟩
  | 24 => ⟨S1x256x128, .bf16⟩
  | 25 => ⟨S256x128, .bf16⟩
  | 26 => ⟨S128x128, .bf16⟩
  | 27 => ⟨S1x256x128, .bf16⟩
  | 28 => ⟨S256x128, .bf16⟩
  | 29 => ⟨S128x128, .bf16⟩
  | 30 => ⟨S1x128, .f32⟩
  | 31 => ⟨S128, .f32⟩
  | 32 => ⟨S1x128, .f32⟩
  | 33 => ⟨S1x128, .f32⟩
  | 34 => ⟨S4096x128, .f32⟩
  | 35 => ⟨S1x128, .f32⟩
  | 36 => ⟨S128, .f32⟩
  | 37 => ⟨S1x256x128, .bf16⟩
  | 38 => ⟨S256x128, .bf16⟩
  | 39 => ⟨S128x128, .bf16⟩
  | 40 => ⟨S1x256x128, .bf16⟩
  | 41 => ⟨S256x128, .bf16⟩
  | 42 => ⟨S128x128, .bf16⟩
  | 43 => ⟨S1x128, .f32⟩
  | 44 => ⟨S128, .f32⟩
  | 45 => ⟨S1x128, .f32⟩
  | 46 => ⟨S1x128, .f32⟩
  | 47 => ⟨S8192x128, .f32⟩
  | 48 => ⟨S4096x128, .bf16⟩
  | 49 => ⟨S8192x128, .bf16⟩
  | 50 => ⟨S1x128x128, .bf16⟩
  | 51 => ⟨S128x128, .bf16⟩
  | 52 => ⟨S4096x128, .bf16⟩
  | 53 => ⟨S1x128x128, .bf16⟩
  | 54 => ⟨S128x128, .bf16⟩
  | 55 => ⟨S8192x128, .bf16⟩
  | 56 => ⟨S1x128, .f32⟩
  | 57 => ⟨S128, .f32⟩
  | 58 => ⟨S1x128x128, .bf16⟩
  | 59 => ⟨S128x128, .bf16⟩
  | 60 => ⟨S1x128, .f32⟩
  | 61 => ⟨S8192x128, .bf16⟩
  | 62 => ⟨S1x128, .f32⟩
  | 63 => ⟨S128, .f32⟩
  | 64 => ⟨S1x128x128, .bf16⟩
  | 65 => ⟨S128x128, .bf16⟩
  | 66 => ⟨S1x128, .f32⟩
  | 67 => ⟨S4096x128, .bf16⟩
  | 68 => ⟨S1x128, .f32⟩
  | 69 => ⟨S128, .f32⟩
  | 70 => ⟨S1x256x128, .bf16⟩
  | 71 => ⟨S256x128, .bf16⟩
  | 72 => ⟨S128x128, .bf16⟩
  | 73 => ⟨S1x256x128, .bf16⟩
  | 74 => ⟨S256x128, .bf16⟩
  | 75 => ⟨S128x128, .bf16⟩
  | 76 => ⟨S1x128, .f32⟩
  | 77 => ⟨S128, .f32⟩
  | 78 => ⟨S1x128, .f32⟩
  | 79 => ⟨S1x128, .f32⟩
  | 80 => ⟨S4096x128, .f32⟩
  | 81 => ⟨S1x128, .f32⟩
  | 82 => ⟨S128, .f32⟩
  | 83 => ⟨S1x256x128, .bf16⟩
  | 84 => ⟨S256x128, .bf16⟩
  | 85 => ⟨S128x128, .bf16⟩
  | 86 => ⟨S1x256x128, .bf16⟩
  | 87 => ⟨S256x128, .bf16⟩
  | 88 => ⟨S128x128, .bf16⟩
  | 89 => ⟨S1x128, .f32⟩
  | 90 => ⟨S128, .f32⟩
  | 91 => ⟨S1x128, .f32⟩
  | 92 => ⟨S1x128, .f32⟩
  | 93 => ⟨S8192x128, .f32⟩
  | 94 => ⟨S4096x256, .f32⟩
  | 95 => ⟨S8192x256, .f32⟩
  | 96 => ⟨S2048x256, .f32⟩
  | 97 => ⟨S2048x256, .f32⟩
  | 98 => ⟨S4096x256, .f32⟩
  | 99 => ⟨S2048x256, .f32⟩
  | 100 => ⟨S2048x256, .f32⟩
  | 101 => ⟨S4096x256, .f32⟩
  | _ => ⟨S4096x8192, .f32⟩

abbrev hbmTy (i : Nat) : BufTy := match i / 128 with
  | 0 => hbmTy0_0 i
  | 1 => hbmTy0_1 i
  | _ => ⟨S4096x8192, .f32⟩

abbrev vmemTy0_0 (i : Nat) : BufTy := match i % 128 with
  | 0 => ⟨S512x128, .bf16⟩
  | 1 => ⟨S512x128, .bf16⟩
  | 2 => ⟨S128x128, .bf16⟩
  | 3 => ⟨S512x128, .bf16⟩
  | 4 => ⟨S512x128, .bf16⟩
  | 5 => ⟨S512x128, .bf16⟩
  | 6 => ⟨S512x128, .bf16⟩
  | 7 => ⟨S128x128, .bf16⟩
  | 8 => ⟨S512x128, .bf16⟩
  | 9 => ⟨S512x128, .bf16⟩
  | 10 => ⟨S512x4096, .bf16⟩
  | 11 => ⟨S512x4096, .bf16⟩
  | 12 => ⟨S4096x128, .bf16⟩
  | 13 => ⟨S1x128, .f32⟩
  | 14 => ⟨S128x128, .bf16⟩
  | 15 => ⟨S512x128, .bf16⟩
  | 16 => ⟨S512x128, .bf16⟩
  | 17 => ⟨S512x8192, .bf16⟩
  | 18 => ⟨S512x8192, .bf16⟩
  | 19 => ⟨S8192x128, .bf16⟩
  | 20 => ⟨S1x128, .f32⟩
  | 21 => ⟨S128x128, .bf16⟩
  | 22 => ⟨S512x128, .bf16⟩
  | 23 => ⟨S512x128, .bf16⟩
  | 24 => ⟨S512x8192, .bf16⟩
  | 25 => ⟨S512x8192, .bf16⟩
  | 26 => ⟨S8192x128, .bf16⟩
  | 27 => ⟨S1x128, .f32⟩
  | 28 => ⟨S128x128, .bf16⟩
  | 29 => ⟨S512x128, .bf16⟩
  | 30 => ⟨S512x128, .bf16⟩
  | 31 => ⟨S128x128, .bf16⟩
  | 32 => ⟨S1x128, .f32⟩
  | 33 => ⟨S512x128, .f32⟩
  | 34 => ⟨S512x128, .f32⟩
  | 35 => ⟨S512x4096, .bf16⟩
  | 36 => ⟨S512x4096, .bf16⟩
  | 37 => ⟨S4096x128, .bf16⟩
  | 38 => ⟨S1x128, .f32⟩
  | 39 => ⟨S128x128, .bf16⟩
  | 40 => ⟨S512x128, .bf16⟩
  | 41 => ⟨S512x128, .bf16⟩
  | 42 => ⟨S128x128, .bf16⟩
  | 43 => ⟨S1x128, .f32⟩
  | 44 => ⟨S512x128, .f32⟩
  | 45 => ⟨S512x128, .f32⟩
  | 46 => ⟨S512x128, .bf16⟩
  | 47 => ⟨S512x128, .bf16⟩
  | 48 => ⟨S128x128, .bf16⟩
  | 49 => ⟨S512x128, .bf16⟩
  | 50 => ⟨S512x128, .bf16⟩
  | 51 => ⟨S512x128, .bf16⟩
  | 52 => ⟨S512x128, .bf16⟩
  | 53 => ⟨S128x128, .bf16⟩
  | 54 => ⟨S512x128, .bf16⟩
  | 55 => ⟨S512x128, .bf16⟩
  | 56 => ⟨S512x4096, .bf16⟩
  | 57 => ⟨S512x4096, .bf16⟩
  | 58 => ⟨S4096x128, .bf16⟩
  | 59 => ⟨S1x128, .f32⟩
  | 60 => ⟨S128x128, .bf16⟩
  | 61 => ⟨S512x128, .bf16⟩
  | 62 => ⟨S512x128, .bf16⟩
  | 63 => ⟨S512x8192, .bf16⟩
  | 64 => ⟨S512x8192, .bf16⟩
  | 65 => ⟨S8192x128, .bf16⟩
  | 66 => ⟨S1x128, .f32⟩
  | 67 => ⟨S128x128, .bf16⟩
  | 68 => ⟨S512x128, .bf16⟩
  | 69 => ⟨S512x128, .bf16⟩
  | 70 => ⟨S512x8192, .bf16⟩
  | 71 => ⟨S512x8192, .bf16⟩
  | 72 => ⟨S8192x128, .bf16⟩
  | 73 => ⟨S1x128, .f32⟩
  | 74 => ⟨S128x128, .bf16⟩
  | 75 => ⟨S512x128, .bf16⟩
  | 76 => ⟨S512x128, .bf16⟩
  | 77 => ⟨S128x128, .bf16⟩
  | 78 => ⟨S1x128, .f32⟩
  | 79 => ⟨S512x128, .f32⟩
  | 80 => ⟨S512x128, .f32⟩
  | 81 => ⟨S512x4096, .bf16⟩
  | 82 => ⟨S512x4096, .bf16⟩
  | 83 => ⟨S4096x128, .bf16⟩
  | 84 => ⟨S1x128, .f32⟩
  | 85 => ⟨S128x128, .bf16⟩
  | 86 => ⟨S512x128, .bf16⟩
  | 87 => ⟨S512x128, .bf16⟩
  | 88 => ⟨S128x128, .bf16⟩
  | 89 => ⟨S1x128, .f32⟩
  | 90 => ⟨S512x128, .f32⟩
  | 91 => ⟨S512x128, .f32⟩
  | 92 => ⟨S512x128, .bf16⟩
  | 93 => ⟨S512x128, .bf16⟩
  | 94 => ⟨S128x128, .bf16⟩
  | 95 => ⟨S512x128, .bf16⟩
  | 96 => ⟨S512x128, .bf16⟩
  | 97 => ⟨S512x128, .bf16⟩
  | 98 => ⟨S512x128, .bf16⟩
  | 99 => ⟨S128x128, .bf16⟩
  | 100 => ⟨S512x128, .bf16⟩
  | 101 => ⟨S512x128, .bf16⟩
  | 102 => ⟨S512x4096, .bf16⟩
  | 103 => ⟨S512x4096, .bf16⟩
  | 104 => ⟨S4096x128, .bf16⟩
  | 105 => ⟨S1x128, .f32⟩
  | 106 => ⟨S128x128, .bf16⟩
  | 107 => ⟨S512x128, .bf16⟩
  | 108 => ⟨S512x128, .bf16⟩
  | 109 => ⟨S512x8192, .bf16⟩
  | 110 => ⟨S512x8192, .bf16⟩
  | 111 => ⟨S8192x128, .bf16⟩
  | 112 => ⟨S1x128, .f32⟩
  | 113 => ⟨S128x128, .bf16⟩
  | 114 => ⟨S512x128, .bf16⟩
  | 115 => ⟨S512x128, .bf16⟩
  | 116 => ⟨S512x8192, .bf16⟩
  | 117 => ⟨S512x8192, .bf16⟩
  | 118 => ⟨S8192x128, .bf16⟩
  | 119 => ⟨S1x128, .f32⟩
  | 120 => ⟨S128x128, .bf16⟩
  | 121 => ⟨S512x128, .bf16⟩
  | 122 => ⟨S512x128, .bf16⟩
  | 123 => ⟨S128x128, .bf16⟩
  | 124 => ⟨S1x128, .f32⟩
  | 125 => ⟨S512x128, .f32⟩
  | 126 => ⟨S512x128, .f32⟩
  | 127 => ⟨S512x4096, .bf16⟩
  | _ => ⟨S4096x8192, .f32⟩

abbrev vmemTy0_1 (i : Nat) : BufTy := match i % 128 with
  | 0 => ⟨S512x4096, .bf16⟩
  | 1 => ⟨S4096x128, .bf16⟩
  | 2 => ⟨S1x128, .f32⟩
  | 3 => ⟨S128x128, .bf16⟩
  | 4 => ⟨S512x128, .bf16⟩
  | 5 => ⟨S512x128, .bf16⟩
  | 6 => ⟨S128x128, .bf16⟩
  | 7 => ⟨S1x128, .f32⟩
  | 8 => ⟨S512x128, .f32⟩
  | 9 => ⟨S512x128, .f32⟩
  | 10 => ⟨S512x128, .bf16⟩
  | 11 => ⟨S512x128, .bf16⟩
  | 12 => ⟨S128x128, .bf16⟩
  | 13 => ⟨S512x128, .bf16⟩
  | 14 => ⟨S512x128, .bf16⟩
  | 15 => ⟨S512x128, .bf16⟩
  | 16 => ⟨S512x128, .bf16⟩
  | 17 => ⟨S128x128, .bf16⟩
  | 18 => ⟨S512x128, .bf16⟩
  | 19 => ⟨S512x128, .bf16⟩
  | 20 => ⟨S512x4096, .bf16⟩
  | 21 => ⟨S512x4096, .bf16⟩
  | 22 => ⟨S4096x128, .bf16⟩
  | 23 => ⟨S1x128, .f32⟩
  | 24 => ⟨S128x128, .bf16⟩
  | 25 => ⟨S512x128, .bf16⟩
  | 26 => ⟨S512x128, .bf16⟩
  | 27 => ⟨S512x8192, .bf16⟩
  | 28 => ⟨S512x8192, .bf16⟩
  | 29 => ⟨S8192x128, .bf16⟩
  | 30 => ⟨S1x128, .f32⟩
  | 31 => ⟨S128x128, .bf16⟩
  | 32 => ⟨S512x128, .bf16⟩
  | 33 => ⟨S512x128, .bf16⟩
  | 34 => ⟨S512x8192, .bf16⟩
  | 35 => ⟨S512x8192, .bf16⟩
  | 36 => ⟨S8192x128, .bf16⟩
  | 37 => ⟨S1x128, .f32⟩
  | 38 => ⟨S128x128, .bf16⟩
  | 39 => ⟨S512x128, .bf16⟩
  | 40 => ⟨S512x128, .bf16⟩
  | 41 => ⟨S128x128, .bf16⟩
  | 42 => ⟨S1x128, .f32⟩
  | 43 => ⟨S512x128, .f32⟩
  | 44 => ⟨S512x128, .f32⟩
  | 45 => ⟨S512x4096, .bf16⟩
  | 46 => ⟨S512x4096, .bf16⟩
  | 47 => ⟨S4096x128, .bf16⟩
  | 48 => ⟨S1x128, .f32⟩
  | 49 => ⟨S128x128, .bf16⟩
  | 50 => ⟨S512x128, .bf16⟩
  | 51 => ⟨S512x128, .bf16⟩
  | 52 => ⟨S128x128, .bf16⟩
  | 53 => ⟨S1x128, .f32⟩
  | 54 => ⟨S512x128, .f32⟩
  | 55 => ⟨S512x128, .f32⟩
  | _ => ⟨S4096x8192, .f32⟩

abbrev vmemTy (i : Nat) : BufTy := match i / 128 with
  | 0 => vmemTy0_0 i
  | 1 => vmemTy0_1 i
  | _ => ⟨S4096x8192, .f32⟩

abbrev bufTy : (tb : Table) → Fin (tcTables nBuf tb) → BufTy
  | .hbm, ⟨i, _⟩ => hbmTy i
  | .local _ .vmem, ⟨i, _⟩ => vmemTy i
  | _, _ => ⟨S4096x8192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 184 → Bool
  | ⟨i, _⟩ => dmaSemScopedAt i

abbrev sig : RefSig :=
  ofTc nBuf bufTy 0 184 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg7_0 : Ref sig .tc := ⟨.vmem, 33, rfl⟩
abbrev cc4_stg7_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg7_0 : Ref sig .tc := ⟨.vmem, 44, rfl⟩
abbrev cc5_stg7_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg4_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg3_0 : Ref sig .tc := ⟨.vmem, 74, rfl⟩
abbrev cc10_stg4_0 : Ref sig .tc := ⟨.vmem, 75, rfl⟩
abbrev cc10_stg4_1 : Ref sig .tc := ⟨.vmem, 76, rfl⟩
abbrev cc10_stg5_0 : Ref sig .tc := ⟨.vmem, 77, rfl⟩
abbrev cc10_stg6_0 : Ref sig .tc := ⟨.vmem, 78, rfl⟩
abbrev cc10_stg7_0 : Ref sig .tc := ⟨.vmem, 79, rfl⟩
abbrev cc10_stg7_1 : Ref sig .tc := ⟨.vmem, 80, rfl⟩
abbrev cc11_stg0_0 : Ref sig .tc := ⟨.vmem, 81, rfl⟩
abbrev cc11_stg0_1 : Ref sig .tc := ⟨.vmem, 82, rfl⟩
abbrev cc11_stg1_0 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg4_1 : Ref sig .tc := ⟨.vmem, 87, rfl⟩
abbrev cc11_stg5_0 : Ref sig .tc := ⟨.vmem, 88, rfl⟩
abbrev cc11_stg6_0 : Ref sig .tc := ⟨.vmem, 89, rfl⟩
abbrev cc11_stg7_0 : Ref sig .tc := ⟨.vmem, 90, rfl⟩
abbrev cc11_stg7_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg2_0 : Ref sig .tc := ⟨.vmem, 95, rfl⟩
abbrev cc12_stg2_1 : Ref sig .tc := ⟨.vmem, 96, rfl⟩
abbrev cc13_stg0_0 : Ref sig .tc := ⟨.vmem, 97, rfl⟩
abbrev cc13_stg0_1 : Ref sig .tc := ⟨.vmem, 98, rfl⟩
abbrev cc13_stg1_0 : Ref sig .tc := ⟨.vmem, 99, rfl⟩
abbrev cc13_stg2_0 : Ref sig .tc := ⟨.vmem, 100, rfl⟩
abbrev cc13_stg2_1 : Ref sig .tc := ⟨.vmem, 101, rfl⟩
abbrev cc14_stg0_0 : Ref sig .tc := ⟨.vmem, 102, rfl⟩
abbrev cc14_stg0_1 : Ref sig .tc := ⟨.vmem, 103, rfl⟩
abbrev cc14_stg1_0 : Ref sig .tc := ⟨.vmem, 104, rfl⟩
abbrev cc14_stg2_0 : Ref sig .tc := ⟨.vmem, 105, rfl⟩
abbrev cc14_stg3_0 : Ref sig .tc := ⟨.vmem, 106, rfl⟩
abbrev cc14_stg4_0 : Ref sig .tc := ⟨.vmem, 107, rfl⟩
abbrev cc14_stg4_1 : Ref sig .tc := ⟨.vmem, 108, rfl⟩
abbrev cc15_stg0_0 : Ref sig .tc := ⟨.vmem, 109, rfl⟩
abbrev cc15_stg0_1 : Ref sig .tc := ⟨.vmem, 110, rfl⟩
abbrev cc15_stg1_0 : Ref sig .tc := ⟨.vmem, 111, rfl⟩
abbrev cc15_stg2_0 : Ref sig .tc := ⟨.vmem, 112, rfl⟩
abbrev cc15_stg3_0 : Ref sig .tc := ⟨.vmem, 113, rfl⟩
abbrev cc15_stg4_0 : Ref sig .tc := ⟨.vmem, 114, rfl⟩
abbrev cc15_stg4_1 : Ref sig .tc := ⟨.vmem, 115, rfl⟩
abbrev cc16_stg0_0 : Ref sig .tc := ⟨.vmem, 116, rfl⟩
abbrev cc16_stg0_1 : Ref sig .tc := ⟨.vmem, 117, rfl⟩
abbrev cc16_stg1_0 : Ref sig .tc := ⟨.vmem, 118, rfl⟩
abbrev cc16_stg2_0 : Ref sig .tc := ⟨.vmem, 119, rfl⟩
abbrev cc16_stg3_0 : Ref sig .tc := ⟨.vmem, 120, rfl⟩
abbrev cc16_stg4_0 : Ref sig .tc := ⟨.vmem, 121, rfl⟩
abbrev cc16_stg4_1 : Ref sig .tc := ⟨.vmem, 122, rfl⟩
abbrev cc16_stg5_0 : Ref sig .tc := ⟨.vmem, 123, rfl⟩
abbrev cc16_stg6_0 : Ref sig .tc := ⟨.vmem, 124, rfl⟩
abbrev cc16_stg7_0 : Ref sig .tc := ⟨.vmem, 125, rfl⟩
abbrev cc16_stg7_1 : Ref sig .tc := ⟨.vmem, 126, rfl⟩
abbrev cc17_stg0_0 : Ref sig .tc := ⟨.vmem, 127, rfl⟩
abbrev cc17_stg0_1 : Ref sig .tc := ⟨.vmem, 128, rfl⟩
abbrev cc17_stg1_0 : Ref sig .tc := ⟨.vmem, 129, rfl⟩
abbrev cc17_stg2_0 : Ref sig .tc := ⟨.vmem, 130, rfl⟩
abbrev cc17_stg3_0 : Ref sig .tc := ⟨.vmem, 131, rfl⟩
abbrev cc17_stg4_0 : Ref sig .tc := ⟨.vmem, 132, rfl⟩
abbrev cc17_stg4_1 : Ref sig .tc := ⟨.vmem, 133, rfl⟩
abbrev cc17_stg5_0 : Ref sig .tc := ⟨.vmem, 134, rfl⟩
abbrev cc17_stg6_0 : Ref sig .tc := ⟨.vmem, 135, rfl⟩
abbrev cc17_stg7_0 : Ref sig .tc := ⟨.vmem, 136, rfl⟩
abbrev cc17_stg7_1 : Ref sig .tc := ⟨.vmem, 137, rfl⟩
abbrev cc18_stg0_0 : Ref sig .tc := ⟨.vmem, 138, rfl⟩
abbrev cc18_stg0_1 : Ref sig .tc := ⟨.vmem, 139, rfl⟩
abbrev cc18_stg1_0 : Ref sig .tc := ⟨.vmem, 140, rfl⟩
abbrev cc18_stg2_0 : Ref sig .tc := ⟨.vmem, 141, rfl⟩
abbrev cc18_stg2_1 : Ref sig .tc := ⟨.vmem, 142, rfl⟩
abbrev cc19_stg0_0 : Ref sig .tc := ⟨.vmem, 143, rfl⟩
abbrev cc19_stg0_1 : Ref sig .tc := ⟨.vmem, 144, rfl⟩
abbrev cc19_stg1_0 : Ref sig .tc := ⟨.vmem, 145, rfl⟩
abbrev cc19_stg2_0 : Ref sig .tc := ⟨.vmem, 146, rfl⟩
abbrev cc19_stg2_1 : Ref sig .tc := ⟨.vmem, 147, rfl⟩
abbrev cc20_stg0_0 : Ref sig .tc := ⟨.vmem, 148, rfl⟩
abbrev cc20_stg0_1 : Ref sig .tc := ⟨.vmem, 149, rfl⟩
abbrev cc20_stg1_0 : Ref sig .tc := ⟨.vmem, 150, rfl⟩
abbrev cc20_stg2_0 : Ref sig .tc := ⟨.vmem, 151, rfl⟩
abbrev cc20_stg3_0 : Ref sig .tc := ⟨.vmem, 152, rfl⟩
abbrev cc20_stg4_0 : Ref sig .tc := ⟨.vmem, 153, rfl⟩
abbrev cc20_stg4_1 : Ref sig .tc := ⟨.vmem, 154, rfl⟩
abbrev cc21_stg0_0 : Ref sig .tc := ⟨.vmem, 155, rfl⟩
abbrev cc21_stg0_1 : Ref sig .tc := ⟨.vmem, 156, rfl⟩
abbrev cc21_stg1_0 : Ref sig .tc := ⟨.vmem, 157, rfl⟩
abbrev cc21_stg2_0 : Ref sig .tc := ⟨.vmem, 158, rfl⟩
abbrev cc21_stg3_0 : Ref sig .tc := ⟨.vmem, 159, rfl⟩
abbrev cc21_stg4_0 : Ref sig .tc := ⟨.vmem, 160, rfl⟩
abbrev cc21_stg4_1 : Ref sig .tc := ⟨.vmem, 161, rfl⟩
abbrev cc22_stg0_0 : Ref sig .tc := ⟨.vmem, 162, rfl⟩
abbrev cc22_stg0_1 : Ref sig .tc := ⟨.vmem, 163, rfl⟩
abbrev cc22_stg1_0 : Ref sig .tc := ⟨.vmem, 164, rfl⟩
abbrev cc22_stg2_0 : Ref sig .tc := ⟨.vmem, 165, rfl⟩
abbrev cc22_stg3_0 : Ref sig .tc := ⟨.vmem, 166, rfl⟩
abbrev cc22_stg4_0 : Ref sig .tc := ⟨.vmem, 167, rfl⟩
abbrev cc22_stg4_1 : Ref sig .tc := ⟨.vmem, 168, rfl⟩
abbrev cc22_stg5_0 : Ref sig .tc := ⟨.vmem, 169, rfl⟩
abbrev cc22_stg6_0 : Ref sig .tc := ⟨.vmem, 170, rfl⟩
abbrev cc22_stg7_0 : Ref sig .tc := ⟨.vmem, 171, rfl⟩
abbrev cc22_stg7_1 : Ref sig .tc := ⟨.vmem, 172, rfl⟩
abbrev cc23_stg0_0 : Ref sig .tc := ⟨.vmem, 173, rfl⟩
abbrev cc23_stg0_1 : Ref sig .tc := ⟨.vmem, 174, rfl⟩
abbrev cc23_stg1_0 : Ref sig .tc := ⟨.vmem, 175, rfl⟩
abbrev cc23_stg2_0 : Ref sig .tc := ⟨.vmem, 176, rfl⟩
abbrev cc23_stg3_0 : Ref sig .tc := ⟨.vmem, 177, rfl⟩
abbrev cc23_stg4_0 : Ref sig .tc := ⟨.vmem, 178, rfl⟩
abbrev cc23_stg4_1 : Ref sig .tc := ⟨.vmem, 179, rfl⟩
abbrev cc23_stg5_0 : Ref sig .tc := ⟨.vmem, 180, rfl⟩
abbrev cc23_stg6_0 : Ref sig .tc := ⟨.vmem, 181, rfl⟩
abbrev cc23_stg7_0 : Ref sig .tc := ⟨.vmem, 182, rfl⟩
abbrev cc23_stg7_1 : Ref sig .tc := ⟨.vmem, 183, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30
abbrev cc4_sem5_0 : DmaSem sig := 31
abbrev cc4_sem6_0 : DmaSem sig := 32
abbrev cc4_sem7_0 : DmaSem sig := 33
abbrev cc4_sem7_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc5_sem5_0 : DmaSem sig := 42
abbrev cc5_sem6_0 : DmaSem sig := 43
abbrev cc5_sem7_0 : DmaSem sig := 44
abbrev cc5_sem7_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem4_1 : DmaSem sig := 62
abbrev cc9_sem0_0 : DmaSem sig := 63
abbrev cc9_sem0_1 : DmaSem sig := 64
abbrev cc9_sem1_0 : DmaSem sig := 65
abbrev cc9_sem2_0 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem3_0 : DmaSem sig := 74
abbrev cc10_sem4_0 : DmaSem sig := 75
abbrev cc10_sem4_1 : DmaSem sig := 76
abbrev cc10_sem5_0 : DmaSem sig := 77
abbrev cc10_sem6_0 : DmaSem sig := 78
abbrev cc10_sem7_0 : DmaSem sig := 79
abbrev cc10_sem7_1 : DmaSem sig := 80
abbrev cc11_sem0_0 : DmaSem sig := 81
abbrev cc11_sem0_1 : DmaSem sig := 82
abbrev cc11_sem1_0 : DmaSem sig := 83
abbrev cc11_sem2_0 : DmaSem sig := 84
abbrev cc11_sem3_0 : DmaSem sig := 85
abbrev cc11_sem4_0 : DmaSem sig := 86
abbrev cc11_sem4_1 : DmaSem sig := 87
abbrev cc11_sem5_0 : DmaSem sig := 88
abbrev cc11_sem6_0 : DmaSem sig := 89
abbrev cc11_sem7_0 : DmaSem sig := 90
abbrev cc11_sem7_1 : DmaSem sig := 91
abbrev cc12_sem0_0 : DmaSem sig := 92
abbrev cc12_sem0_1 : DmaSem sig := 93
abbrev cc12_sem1_0 : DmaSem sig := 94
abbrev cc12_sem2_0 : DmaSem sig := 95
abbrev cc12_sem2_1 : DmaSem sig := 96
abbrev cc13_sem0_0 : DmaSem sig := 97
abbrev cc13_sem0_1 : DmaSem sig := 98
abbrev cc13_sem1_0 : DmaSem sig := 99
abbrev cc13_sem2_0 : DmaSem sig := 100
abbrev cc13_sem2_1 : DmaSem sig := 101
abbrev cc14_sem0_0 : DmaSem sig := 102
abbrev cc14_sem0_1 : DmaSem sig := 103
abbrev cc14_sem1_0 : DmaSem sig := 104
abbrev cc14_sem2_0 : DmaSem sig := 105
abbrev cc14_sem3_0 : DmaSem sig := 106
abbrev cc14_sem4_0 : DmaSem sig := 107
abbrev cc14_sem4_1 : DmaSem sig := 108
abbrev cc15_sem0_0 : DmaSem sig := 109
abbrev cc15_sem0_1 : DmaSem sig := 110
abbrev cc15_sem1_0 : DmaSem sig := 111
abbrev cc15_sem2_0 : DmaSem sig := 112
abbrev cc15_sem3_0 : DmaSem sig := 113
abbrev cc15_sem4_0 : DmaSem sig := 114
abbrev cc15_sem4_1 : DmaSem sig := 115
abbrev cc16_sem0_0 : DmaSem sig := 116
abbrev cc16_sem0_1 : DmaSem sig := 117
abbrev cc16_sem1_0 : DmaSem sig := 118
abbrev cc16_sem2_0 : DmaSem sig := 119
abbrev cc16_sem3_0 : DmaSem sig := 120
abbrev cc16_sem4_0 : DmaSem sig := 121
abbrev cc16_sem4_1 : DmaSem sig := 122
abbrev cc16_sem5_0 : DmaSem sig := 123
abbrev cc16_sem6_0 : DmaSem sig := 124
abbrev cc16_sem7_0 : DmaSem sig := 125
abbrev cc16_sem7_1 : DmaSem sig := 126
abbrev cc17_sem0_0 : DmaSem sig := 127
abbrev cc17_sem0_1 : DmaSem sig := 128
abbrev cc17_sem1_0 : DmaSem sig := 129
abbrev cc17_sem2_0 : DmaSem sig := 130
abbrev cc17_sem3_0 : DmaSem sig := 131
abbrev cc17_sem4_0 : DmaSem sig := 132
abbrev cc17_sem4_1 : DmaSem sig := 133
abbrev cc17_sem5_0 : DmaSem sig := 134
abbrev cc17_sem6_0 : DmaSem sig := 135
abbrev cc17_sem7_0 : DmaSem sig := 136
abbrev cc17_sem7_1 : DmaSem sig := 137
abbrev cc18_sem0_0 : DmaSem sig := 138
abbrev cc18_sem0_1 : DmaSem sig := 139
abbrev cc18_sem1_0 : DmaSem sig := 140
abbrev cc18_sem2_0 : DmaSem sig := 141
abbrev cc18_sem2_1 : DmaSem sig := 142
abbrev cc19_sem0_0 : DmaSem sig := 143
abbrev cc19_sem0_1 : DmaSem sig := 144
abbrev cc19_sem1_0 : DmaSem sig := 145
abbrev cc19_sem2_0 : DmaSem sig := 146
abbrev cc19_sem2_1 : DmaSem sig := 147
abbrev cc20_sem0_0 : DmaSem sig := 148
abbrev cc20_sem0_1 : DmaSem sig := 149
abbrev cc20_sem1_0 : DmaSem sig := 150
abbrev cc20_sem2_0 : DmaSem sig := 151
abbrev cc20_sem3_0 : DmaSem sig := 152
abbrev cc20_sem4_0 : DmaSem sig := 153
abbrev cc20_sem4_1 : DmaSem sig := 154
abbrev cc21_sem0_0 : DmaSem sig := 155
abbrev cc21_sem0_1 : DmaSem sig := 156
abbrev cc21_sem1_0 : DmaSem sig := 157
abbrev cc21_sem2_0 : DmaSem sig := 158
abbrev cc21_sem3_0 : DmaSem sig := 159
abbrev cc21_sem4_0 : DmaSem sig := 160
abbrev cc21_sem4_1 : DmaSem sig := 161
abbrev cc22_sem0_0 : DmaSem sig := 162
abbrev cc22_sem0_1 : DmaSem sig := 163
abbrev cc22_sem1_0 : DmaSem sig := 164
abbrev cc22_sem2_0 : DmaSem sig := 165
abbrev cc22_sem3_0 : DmaSem sig := 166
abbrev cc22_sem4_0 : DmaSem sig := 167
abbrev cc22_sem4_1 : DmaSem sig := 168
abbrev cc22_sem5_0 : DmaSem sig := 169
abbrev cc22_sem6_0 : DmaSem sig := 170
abbrev cc22_sem7_0 : DmaSem sig := 171
abbrev cc22_sem7_1 : DmaSem sig := 172
abbrev cc23_sem0_0 : DmaSem sig := 173
abbrev cc23_sem0_1 : DmaSem sig := 174
abbrev cc23_sem1_0 : DmaSem sig := 175
abbrev cc23_sem2_0 : DmaSem sig := 176
abbrev cc23_sem3_0 : DmaSem sig := 177
abbrev cc23_sem4_0 : DmaSem sig := 178
abbrev cc23_sem4_1 : DmaSem sig := 179
abbrev cc23_sem5_0 : DmaSem sig := 180
abbrev cc23_sem6_0 : DmaSem sig := 181
abbrev cc23_sem7_0 : DmaSem sig := 182
abbrev cc23_sem7_1 : DmaSem sig := 183

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S128x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S512x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S4096x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S512x128 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x8192 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S8192x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S512x128 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x8192 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S8192x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S512x128 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S128x128 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S512x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S4096x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S512x128 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S128x128 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S512x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S512x128 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![16], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x128 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x128 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![16], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S512x4096 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S4096x128 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x128 .bf16 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S512x128 .bf16 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![8], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S512x8192 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S8192x128 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x128 .bf16 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S512x128 .bf16 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![8], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S512x8192 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S8192x128 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x128 .bf16 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S512x128 .bf16 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 1 → Memref sig .tc .vmem S128x128 .bf16 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x128 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 2 → Memref sig .tc .vmem S512x128 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

abbrev grid17 : Pipeline.Grid := ⟨1, ![16], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_7 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S512x4096 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S4096x128 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S128x128 .bf16 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 2 → Memref sig .tc .vmem S512x128 .bf16 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev stage17_5 : Fin 1 → Memref sig .tc .vmem S128x128 .bf16 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 1 → Memref sig .tc .vmem S1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![false]

abbrev stage17_7 : Fin 2 → Memref sig .tc .vmem S512x128 .f32 := fun | 0 => Memref.whole cc17_stg7_0 | 1 => Memref.whole cc17_stg7_1 | ⟨_ + 2, h⟩ => absurd h (Nat.not_lt.2 (Nat.le_add_left _ _))
abbrev sem17_7 : Fin 2 → DmaSem sig := fun | 0 => cc17_sem7_0 | 1 => cc17_sem7_1 | ⟨_ + 2, h⟩ => absurd h (Nat.not_lt.2 (Nat.le_add_left _ _))
abbrev reads17_7 : Fin grid17.rank → Bool := ![true]

abbrev grid18 : Pipeline.Grid := ⟨1, ![8], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S512x128 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S128x128 .bf16 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S512x128 .bf16 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![16], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S512x128 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S128x128 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S512x128 .bf16 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![16], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S512x4096 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S4096x128 .bf16 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S128x128 .bf16 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S512x128 .bf16 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev grid21 : Pipeline.Grid := ⟨1, ![8], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S512x8192 .bf16 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S8192x128 .bf16 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S128x128 .bf16 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 2 → Memref sig .tc .vmem S512x128 .bf16 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![true]

abbrev grid22 : Pipeline.Grid := ⟨1, ![8], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_7 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S512x8192 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S8192x128 .bf16 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S128x128 .bf16 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 2 → Memref sig .tc .vmem S512x128 .bf16 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev stage22_5 : Fin 1 → Memref sig .tc .vmem S128x128 .bf16 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 1 → Memref sig .tc .vmem S1x128 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))
abbrev reads22_6 : Fin grid22.rank → Bool := ![false]

abbrev stage22_7 : Fin 2 → Memref sig .tc .vmem S512x128 .f32 := fun | 0 => Memref.whole cc22_stg7_0 | 1 => Memref.whole cc22_stg7_1 | ⟨_ + 2, h⟩ => absurd h (Nat.not_lt.2 (Nat.le_add_left _ _))
abbrev sem22_7 : Fin 2 → DmaSem sig := fun | 0 => cc22_sem7_0 | 1 => cc22_sem7_1 | ⟨_ + 2, h⟩ => absurd h (Nat.not_lt.2 (Nat.le_add_left _ _))
abbrev reads22_7 : Fin grid22.rank → Bool := ![true]

abbrev grid23 : Pipeline.Grid := ⟨1, ![16], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_5 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_6 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_7 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S512x4096 .bf16 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S4096x128 .bf16 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S128x128 .bf16 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 2 → Memref sig .tc .vmem S512x128 .bf16 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true]

abbrev stage23_5 : Fin 1 → Memref sig .tc .vmem S128x128 .bf16 := fun | 0 => Memref.whole cc23_stg5_0 | ⟨_ + 1, h⟩ => absurd h (Nat.not_lt.2 (Nat.le_add_left _ _))
abbrev sem23_5 : Fin 1 → DmaSem sig := fun | 0 => cc23_sem5_0 | ⟨_ + 1, h⟩ => absurd h (Nat.not_lt.2 (Nat.le_add_left _ _))
abbrev reads23_5 : Fin grid23.rank → Bool := ![false]

abbrev stage23_6 : Fin 1 → Memref sig .tc .vmem S1x128 .f32 := fun | 0 => Memref.whole cc23_stg6_0 | ⟨_ + 1, h⟩ => absurd h (Nat.not_lt.2 (Nat.le_add_left _ _))
abbrev sem23_6 : Fin 1 → DmaSem sig := fun | 0 => cc23_sem6_0 | ⟨_ + 1, h⟩ => absurd h (Nat.not_lt.2 (Nat.le_add_left _ _))
abbrev reads23_6 : Fin grid23.rank → Bool := ![false]

abbrev stage23_7 : Fin 2 → Memref sig .tc .vmem S512x128 .f32 := fun | 0 => Memref.whole cc23_stg7_0 | 1 => Memref.whole cc23_stg7_1 | ⟨_ + 2, h⟩ => absurd h (Nat.not_lt.2 (Nat.le_add_left _ _))
abbrev sem23_7 : Fin 2 → DmaSem sig := fun | 0 => cc23_sem7_0 | 1 => cc23_sem7_1 | ⟨_ + 2, h⟩ => absurd h (Nat.not_lt.2 (Nat.le_add_left _ _))
abbrev reads23_7 : Fin grid23.rank → Bool := ![true]

class Facts₀ : Prop where
  bitsLt_bf16_f32 : FTy.bits .bf16 < FTy.bits .f32
  slices_S4x128x128_S1x128x128_0_0_0 : S4x128x128.Slices ![0, 0, 0] S1x128x128
  shapeCasts_S1x128x128_S128x128 : S1x128x128.ShapeCasts S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S512x128_S512x128_0_0 : (Rect.unit (s := S512x128) ![0, 0] S512x128.size inb_S512x128_S512x128_0_0).PackedRows (EltTy.packing .bf16)
  slices_S4x128x128_S1x128x128_1_0_0 : S4x128x128.Slices ![1, 0, 0] S1x128x128
  slices_S4x128_S1x128_0_0 : S4x128.Slices ![0, 0] S1x128
  shapeCasts_S1x128_S128 : S1x128.ShapeCasts S128
  slices_S4x128x128_S1x128x128_2_0_0 : S4x128x128.Slices ![2, 0, 0] S1x128x128
  shapeCasts_S128_S1x128 : S128.ShapeCasts S1x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S4x128_S1x128_1_0 : S4x128.Slices ![1, 0] S1x128
  slices_S4x128x128_S1x128x128_3_0_0 : S4x128x128.Slices ![3, 0, 0] S1x128x128
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S4x128_S1x128_2_0 : S4x128.Slices ![2, 0] S1x128
  slices_S2x256x128_S1x256x128_0_0_0 : S2x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  slices_S2x128_S1x128_0_0 : S2x128.Slices ![0, 0] S1x128
  slices_S4x128_S1x128_3_0 : S4x128.Slices ![3, 0] S1x128
  slices_S2x256x128_S1x256x128_1_0_0 : S2x256x128.Slices ![1, 0, 0] S1x256x128
  slices_S2x128_S1x128_1_0 : S2x128.Slices ![1, 0] S1x128
  slices_S6x128x128_S1x128x128_0_0_0 : S6x128x128.Slices ![0, 0, 0] S1x128x128
  slices_S6x128x128_S1x128x128_1_0_0 : S6x128x128.Slices ![1, 0, 0] S1x128x128
  slices_S6x128_S1x128_0_0 : S6x128.Slices ![0, 0] S1x128
  slices_S6x128x128_S1x128x128_2_0_0 : S6x128x128.Slices ![2, 0, 0] S1x128x128
  slices_S6x128_S1x128_1_0 : S6x128.Slices ![1, 0] S1x128
  slices_S6x128x128_S1x128x128_4_0_0 : S6x128x128.Slices ![4, 0, 0] S1x128x128
  slices_S6x128_S1x128_2_0 : S6x128.Slices ![2, 0] S1x128
  slices_S4x256x128_S1x256x128_0_0_0 : S4x256x128.Slices ![0, 0, 0] S1x256x128
  slices_S6x128_S1x128_4_0 : S6x128.Slices ![4, 0] S1x128
  slices_S4x256x128_S1x256x128_2_0_0 : S4x256x128.Slices ![2, 0, 0] S1x256x128
  concatenates_S4096x128_S4096x128_S4096x256_d1 : Shape.Concatenates [S4096x128, S4096x128] S4096x256 1
  concatenates_S8192x128_S8192x128_S8192x256_d1 : Shape.Concatenates [S8192x128, S8192x128] S8192x256 1
  slices_S4096x256_S2048x256_0_0 : S4096x256.Slices ![0, 0] S2048x256
  slices_S4096x256_S2048x256_2048_0 : S4096x256.Slices ![2048, 0] S2048x256
  concatenates_S2048x256_S2048x256_S4096x256_d0 : Shape.Concatenates [S2048x256, S2048x256] S4096x256 0
  dot_S512x128_S128x128_S512x128_1_0_0_1_n_n_wf : DotDims.WF S512x128 S128x128 S512x128 [1] [0] [0] [1] [] []
  dot_S512x4096_S4096x128_S512x128_1_0_0_1_n_n_wf : DotDims.WF S512x4096 S4096x128 S512x128 [1] [0] [0] [1] [] []
  dot_S512x8192_S8192x128_S512x128_1_0_0_1_n_n_wf : DotDims.WF S512x8192 S8192x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .bf16 = 32 ∨ (Rect.block (s := S4096x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .bf16 = 32 ∨ (Rect.block (s := S8192x128) S512x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .bf16 = 32 ∨ (Rect.block (s := S8192x128) S512x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S8192x128.size a
  hwx2_4 : ∀ i : grid2.Coords, EltTy.bits .bf16 = 32 ∨ (Rect.block (s := S8192x128) S512x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S4096x8192.size a
  hwx3_0 : ∀ i : grid3.Coords, EltTy.bits .bf16 = 32 ∨ (Rect.block (s := S4096x8192) S512x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .bf16 = 32 ∨ (Rect.block (s := S8192x128) S8192x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S4096x128.size a
  hwx3_4 : ∀ i : grid3.Coords, EltTy.bits .bf16 = 32 ∨ (Rect.block (s := S4096x128) S512x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x8192.size a ≤ S4096x8192.size a
  hwx4_0 : ∀ i : grid4.Coords, EltTy.bits .bf16 = 32 ∨ (Rect.block (s := S4096x8192) S512x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S8192x128.size a
  hwx4_1 : ∀ i : grid4.Coords, EltTy.bits .bf16 = 32 ∨ (Rect.block (s := S8192x128) S8192x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x128.size a ≤ S4096x128.size a
  hwx4_4 : ∀ i : grid4.Coords, EltTy.bits .bf16 = 32 ∨ (Rect.block (s := S4096x128) S512x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x128.size a ≤ S4096x128.size a
  hwx4_7 : ∀ i : grid4.Coords, EltTy.bits .f32 = 32 ∨ (Rect.block (s := S4096x128) S512x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S8192x4096.size a
  hwx5_0 : ∀ i : grid5.Coords, EltTy.bits .bf16 = 32 ∨ (Rect.block (s := S8192x4096) S512x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S4096x128.size a
  hwx5_1 : ∀ i : grid5.Coords, EltTy.bits .bf16 = 32 ∨ (Rect.block (s := S4096x128) S4096x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x128.size a ≤ S8192x128.size a
  hwx5_4 : ∀ i : grid5.Coords, EltTy.bits .bf16 = 32 ∨ (Rect.block (s := S8192x128) S512x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .bf16 = 32 ∨ (Rect.block (s := S128x128) S128x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x128.size a ≤ S8192x128.size a
  hwx5_7 : ∀ i : grid5.Coords, EltTy.bits .f32 = 32 ∨ (Rect.block (s := S8192x128) S512x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S4096x128.size a
  hwx6_0 : ∀ i : grid6.Coords, EltTy.bits .bf16 = 32 ∨ (Rect.block (s := S4096x128) S512x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S4096x128.size a
  hwx6_2 : ∀ i : grid6.Coords, EltTy.bits .bf16 = 32 ∨ (Rect.block (s := S4096x128) S512x128.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S8192x128.size a
  hwx7_0 : ∀ i : grid7.Coords, EltTy.bits .bf16 = 32 ∨ (Rect.block (s := S8192x128) S512x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .bf16 = 32 ∨ (Rect.block (s := S128x128) S128x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S8192x128.size a
  hwx7_2 : ∀ i : grid7.Coords, EltTy.bits .bf16 = 32 ∨ (Rect.block (s := S8192x128) S512x128.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x4096.size a ≤ S8192x4096.size a
  hwx8_0 : ∀ i : grid8.Coords, EltTy.bits .bf16 = 32 ∨ (Rect.block (s := S8192x4096) S512x4096.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S4096x128.size a
  hwx8_1 : ∀ i : grid8.Coords, EltTy.bits .bf16 = 32 ∨ (Rect.block (s := S4096x128) S4096x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .bf16 = 32 ∨ (Rect.block (s := S128x128) S128x128.size (cc8_transform_3 i) (hinb8_3 i)).WholeWords (EltTy.packing .bf16)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S512x128.size a ≤ S8192x128.size a
  hwx8_4 : ∀ i : grid8.Coords, EltTy.bits .bf16 = 32 ∨ (Rect.block (s := S8192x128) S512x128.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x8192.size a ≤ S4096x8192.size a
  hwx9_0 : ∀ i : grid9.Coords, EltTy.bits .bf16 = 32 ∨ (Rect.block (s := S4096x8192) S512x8192.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S8192x128.size a ≤ S8192x128.size a
  hwx9_1 : ∀ i : grid9.Coords, EltTy.bits .bf16 = 32 ∨ (Rect.block (s := S8192x128) S8192x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .bf16 = 32 ∨ (Rect.block (s := S128x128) S128x128.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S512x128.size a ≤ S4096x128.size a
  hwx9_4 : ∀ i : grid9.Coords, EltTy.bits .bf16 = 32 ∨ (Rect.block (s := S4096x128) S512x128.size (cc9_transform_4 i) (hinb9_4 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x8192.size a ≤ S4096x8192.size a
  hwx10_0 : ∀ i : grid10.Coords, EltTy.bits .bf16 = 32 ∨ (Rect.block (s := S4096x8192) S512x8192.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S8192x128.size a ≤ S8192x128.size a
  hwx10_1 : ∀ i : grid10.Coords, EltTy.bits .bf16 = 32 ∨ (Rect.block (s := S8192x128) S8192x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .bf16 = 32 ∨ (Rect.block (s := S128x128) S128x128.size (cc10_transform_3 i) (hinb10_3 i)).WholeWords (EltTy.packing .bf16)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S512x128.size a ≤ S4096x128.size a
  hwx10_4 : ∀ i : grid10.Coords, EltTy.bits .bf16 = 32 ∨ (Rect.block (s := S4096x128) S512x128.size (cc10_transform_4 i) (hinb10_4 i)).WholeWords (EltTy.packing .bf16)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .bf16 = 32 ∨ (Rect.block (s := S128x128) S128x128.size (cc10_transform_5 i) (hinb10_5 i)).WholeWords (EltTy.packing .bf16)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S512x128.size a ≤ S4096x128.size a
  hwx10_7 : ∀ i : grid10.Coords, EltTy.bits .f32 = 32 ∨ (Rect.block (s := S4096x128) S512x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x4096.size a ≤ S8192x4096.size a
  hwx11_0 : ∀ i : grid11.Coords, EltTy.bits .bf16 = 32 ∨ (Rect.block (s := S8192x4096) S512x4096.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S4096x128.size a ≤ S4096x128.size a
  hwx11_1 : ∀ i : grid11.Coords, EltTy.bits .bf16 = 32 ∨ (Rect.block (s := S4096x128) S4096x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .bf16 = 32 ∨ (Rect.block (s := S128x128) S128x128.size (cc11_transform_3 i) (hinb11_3 i)).WholeWords (EltTy.packing .bf16)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S512x128.size a ≤ S8192x128.size a
  hwx11_4 : ∀ i : grid11.Coords, EltTy.bits .bf16 = 32 ∨ (Rect.block (s := S8192x128) S512x128.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .bf16 = 32 ∨ (Rect.block (s := S128x128) S128x128.size (cc11_transform_5 i) (hinb11_5 i)).WholeWords (EltTy.packing .bf16)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S512x128.size a ≤ S8192x128.size a
  hwx11_7 : ∀ i : grid11.Coords, EltTy.bits .f32 = 32 ∨ (Rect.block (s := S8192x128) S512x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x128.size a ≤ S4096x128.size a
  hwx12_0 : ∀ i : grid12.Coords, EltTy.bits .bf16 = 32 ∨ (Rect.block (s := S4096x128) S512x128.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .bf16 = 32 ∨ (Rect.block (s := S128x128) S128x128.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S512x128.size a ≤ S4096x128.size a
  hwx12_2 : ∀ i : grid12.Coords, EltTy.bits .bf16 = 32 ∨ (Rect.block (s := S4096x128) S512x128.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S512x128.size a ≤ S8192x128.size a
  hwx13_0 : ∀ i : grid13.Coords, EltTy.bits .bf16 = 32 ∨ (Rect.block (s := S8192x128) S512x128.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .bf16 = 32 ∨ (Rect.block (s := S128x128) S128x128.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S512x128.size a ≤ S8192x128.size a
  hwx13_2 : ∀ i : grid13.Coords, EltTy.bits .bf16 = 32 ∨ (Rect.block (s := S8192x128) S512x128.size (cc13_transform_2 i) (hinb13_2 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x4096.size a ≤ S8192x4096.size a
  hwx14_0 : ∀ i : grid14.Coords, EltTy.bits .bf16 = 32 ∨ (Rect.block (s := S8192x4096) S512x4096.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S4096x128.size a ≤ S4096x128.size a
  hwx14_1 : ∀ i : grid14.Coords, EltTy.bits .bf16 = 32 ∨ (Rect.block (s := S4096x128) S4096x128.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .bf16 = 32 ∨ (Rect.block (s := S128x128) S128x128.size (cc14_transform_3 i) (hinb14_3 i)).WholeWords (EltTy.packing .bf16)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S512x128.size a ≤ S8192x128.size a
  hwx14_4 : ∀ i : grid14.Coords, EltTy.bits .bf16 = 32 ∨ (Rect.block (s := S8192x128) S512x128.size (cc14_transform_4 i) (hinb14_4 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S512x8192.size a ≤ S4096x8192.size a
  hwx15_0 : ∀ i : grid15.Coords, EltTy.bits .bf16 = 32 ∨ (Rect.block (s := S4096x8192) S512x8192.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S8192x128.size a ≤ S8192x128.size a
  hwx15_1 : ∀ i : grid15.Coords, EltTy.bits .bf16 = 32 ∨ (Rect.block (s := S8192x128) S8192x128.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S128x128.size a ≤ S128x128.size a
  hwx15_3 : ∀ i : grid15.Coords, EltTy.bits .bf16 = 32 ∨ (Rect.block (s := S128x128) S128x128.size (cc15_transform_3 i) (hinb15_3 i)).WholeWords (EltTy.packing .bf16)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S512x128.size a ≤ S4096x128.size a
  hwx15_4 : ∀ i : grid15.Coords, EltTy.bits .bf16 = 32 ∨ (Rect.block (s := S4096x128) S512x128.size (cc15_transform_4 i) (hinb15_4 i)).WholeWords (EltTy.packing .bf16)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S512x8192.size a ≤ S4096x8192.size a
  hwx16_0 : ∀ i : grid16.Coords, EltTy.bits .bf16 = 32 ∨ (Rect.block (s := S4096x8192) S512x8192.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S8192x128.size a ≤ S8192x128.size a
  hwx16_1 : ∀ i : grid16.Coords, EltTy.bits .bf16 = 32 ∨ (Rect.block (s := S8192x128) S8192x128.size (cc16_transform_1 i) (hinb16_1 i)).WholeWords (EltTy.packing .bf16)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .bf16 = 32 ∨ (Rect.block (s := S128x128) S128x128.size (cc16_transform_3 i) (hinb16_3 i)).WholeWords (EltTy.packing .bf16)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S512x128.size a ≤ S4096x128.size a
  hwx16_4 : ∀ i : grid16.Coords, EltTy.bits .bf16 = 32 ∨ (Rect.block (s := S4096x128) S512x128.size (cc16_transform_4 i) (hinb16_4 i)).WholeWords (EltTy.packing .bf16)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S128x128.size a ≤ S128x128.size a
  hwx16_5 : ∀ i : grid16.Coords, EltTy.bits .bf16 = 32 ∨ (Rect.block (s := S128x128) S128x128.size (cc16_transform_5 i) (hinb16_5 i)).WholeWords (EltTy.packing .bf16)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x128.size a ≤ S1x128.size a
  hwx16_6 : ∀ i : grid16.Coords, EltTy.bits .f32 = 32 ∨ (Rect.block (s := S1x128) S1x128.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S512x128.size a ≤ S4096x128.size a
  hwx16_7 : ∀ i : grid16.Coords, EltTy.bits .f32 = 32 ∨ (Rect.block (s := S4096x128) S512x128.size (cc16_transform_7 i) (hinb16_7 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S512x4096.size a ≤ S8192x4096.size a
  hwx17_0 : ∀ i : grid17.Coords, EltTy.bits .bf16 = 32 ∨ (Rect.block (s := S8192x4096) S512x4096.size (cc17_transform_0 i) (hinb17_0 i)).WholeWords (EltTy.packing .bf16)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S4096x128.size a ≤ S4096x128.size a
  hwx17_1 : ∀ i : grid17.Coords, EltTy.bits .bf16 = 32 ∨ (Rect.block (s := S4096x128) S4096x128.size (cc17_transform_1 i) (hinb17_1 i)).WholeWords (EltTy.packing .bf16)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S128x128.size a ≤ S128x128.size a
  hwx17_3 : ∀ i : grid17.Coords, EltTy.bits .bf16 = 32 ∨ (Rect.block (s := S128x128) S128x128.size (cc17_transform_3 i) (hinb17_3 i)).WholeWords (EltTy.packing .bf16)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S512x128.size a ≤ S8192x128.size a
  hwx17_4 : ∀ i : grid17.Coords, EltTy.bits .bf16 = 32 ∨ (Rect.block (s := S8192x128) S512x128.size (cc17_transform_4 i) (hinb17_4 i)).WholeWords (EltTy.packing .bf16)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S128x128.size a ≤ S128x128.size a
  hwx17_5 : ∀ i : grid17.Coords, EltTy.bits .bf16 = 32 ∨ (Rect.block (s := S128x128) S128x128.size (cc17_transform_5 i) (hinb17_5 i)).WholeWords (EltTy.packing .bf16)
  hstage17_6 : ∀ j, (stage17_6 j).IsWhole
  nbuf17_6 : grid17.bufCount reads17_6 true = 1
  hreads17_6 : ∀ i i' : grid17.Coords, (∀ a, reads17_6 a = true → i a = i' a) → cc17_transform_6 i = cc17_transform_6 i'
  hinb17_6 : ∀ (i : grid17.Coords) a, (cc17_transform_6 i a + 1) * S1x128.size a ≤ S1x128.size a
  hwx17_6 : ∀ i : grid17.Coords, EltTy.bits .f32 = 32 ∨ (Rect.block (s := S1x128) S1x128.size (cc17_transform_6 i) (hinb17_6 i)).WholeWords (EltTy.packing .f32)
  hstage17_7 : ∀ j, (stage17_7 j).IsWhole
  nbuf17_7 : grid17.bufCount reads17_7 false = 2
  hreads17_7 : ∀ i i' : grid17.Coords, (∀ a, reads17_7 a = true → i a = i' a) → cc17_transform_7 i = cc17_transform_7 i'
  hinb17_7 : ∀ (i : grid17.Coords) a, (cc17_transform_7 i a + 1) * S512x128.size a ≤ S8192x128.size a
  hwx17_7 : ∀ i : grid17.Coords, EltTy.bits .f32 = 32 ∨ (Rect.block (s := S8192x128) S512x128.size (cc17_transform_7 i) (hinb17_7 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S512x128.size a ≤ S4096x128.size a
  hwx18_0 : ∀ i : grid18.Coords, EltTy.bits .bf16 = 32 ∨ (Rect.block (s := S4096x128) S512x128.size (cc18_transform_0 i) (hinb18_0 i)).WholeWords (EltTy.packing .bf16)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x128.size a ≤ S128x128.size a
  hwx18_1 : ∀ i : grid18.Coords, EltTy.bits .bf16 = 32 ∨ (Rect.block (s := S128x128) S128x128.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S512x128.size a ≤ S4096x128.size a
  hwx18_2 : ∀ i : grid18.Coords, EltTy.bits .bf16 = 32 ∨ (Rect.block (s := S4096x128) S512x128.size (cc18_transform_2 i) (hinb18_2 i)).WholeWords (EltTy.packing .bf16)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S512x128.size a ≤ S8192x128.size a
  hwx19_0 : ∀ i : grid19.Coords, EltTy.bits .bf16 = 32 ∨ (Rect.block (s := S8192x128) S512x128.size (cc19_transform_0 i) (hinb19_0 i)).WholeWords (EltTy.packing .bf16)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S128x128.size a ≤ S128x128.size a
  hwx19_1 : ∀ i : grid19.Coords, EltTy.bits .bf16 = 32 ∨ (Rect.block (s := S128x128) S128x128.size (cc19_transform_1 i) (hinb19_1 i)).WholeWords (EltTy.packing .bf16)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S512x128.size a ≤ S8192x128.size a
  hwx19_2 : ∀ i : grid19.Coords, EltTy.bits .bf16 = 32 ∨ (Rect.block (s := S8192x128) S512x128.size (cc19_transform_2 i) (hinb19_2 i)).WholeWords (EltTy.packing .bf16)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S512x4096.size a ≤ S8192x4096.size a
  hwx20_0 : ∀ i : grid20.Coords, EltTy.bits .bf16 = 32 ∨ (Rect.block (s := S8192x4096) S512x4096.size (cc20_transform_0 i) (hinb20_0 i)).WholeWords (EltTy.packing .bf16)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S4096x128.size a ≤ S4096x128.size a
  hwx20_1 : ∀ i : grid20.Coords, EltTy.bits .bf16 = 32 ∨ (Rect.block (s := S4096x128) S4096x128.size (cc20_transform_1 i) (hinb20_1 i)).WholeWords (EltTy.packing .bf16)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S128x128.size a ≤ S128x128.size a
  hwx20_3 : ∀ i : grid20.Coords, EltTy.bits .bf16 = 32 ∨ (Rect.block (s := S128x128) S128x128.size (cc20_transform_3 i) (hinb20_3 i)).WholeWords (EltTy.packing .bf16)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S512x128.size a ≤ S8192x128.size a
  hwx20_4 : ∀ i : grid20.Coords, EltTy.bits .bf16 = 32 ∨ (Rect.block (s := S8192x128) S512x128.size (cc20_transform_4 i) (hinb20_4 i)).WholeWords (EltTy.packing .bf16)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S512x8192.size a ≤ S4096x8192.size a
  hwx21_0 : ∀ i : grid21.Coords, EltTy.bits .bf16 = 32 ∨ (Rect.block (s := S4096x8192) S512x8192.size (cc21_transform_0 i) (hinb21_0 i)).WholeWords (EltTy.packing .bf16)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S8192x128.size a ≤ S8192x128.size a
  hwx21_1 : ∀ i : grid21.Coords, EltTy.bits .bf16 = 32 ∨ (Rect.block (s := S8192x128) S8192x128.size (cc21_transform_1 i) (hinb21_1 i)).WholeWords (EltTy.packing .bf16)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S128x128.size a ≤ S128x128.size a
  hwx21_3 : ∀ i : grid21.Coords, EltTy.bits .bf16 = 32 ∨ (Rect.block (s := S128x128) S128x128.size (cc21_transform_3 i) (hinb21_3 i)).WholeWords (EltTy.packing .bf16)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S512x128.size a ≤ S4096x128.size a
  hwx21_4 : ∀ i : grid21.Coords, EltTy.bits .bf16 = 32 ∨ (Rect.block (s := S4096x128) S512x128.size (cc21_transform_4 i) (hinb21_4 i)).WholeWords (EltTy.packing .bf16)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S512x8192.size a ≤ S4096x8192.size a
  hwx22_0 : ∀ i : grid22.Coords, EltTy.bits .bf16 = 32 ∨ (Rect.block (s := S4096x8192) S512x8192.size (cc22_transform_0 i) (hinb22_0 i)).WholeWords (EltTy.packing .bf16)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S8192x128.size a ≤ S8192x128.size a
  hwx22_1 : ∀ i : grid22.Coords, EltTy.bits .bf16 = 32 ∨ (Rect.block (s := S8192x128) S8192x128.size (cc22_transform_1 i) (hinb22_1 i)).WholeWords (EltTy.packing .bf16)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x128.size a ≤ S1x128.size a
  hwx22_2 : ∀ i : grid22.Coords, EltTy.bits .f32 = 32 ∨ (Rect.block (s := S1x128) S1x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S128x128.size a ≤ S128x128.size a
  hwx22_3 : ∀ i : grid22.Coords, EltTy.bits .bf16 = 32 ∨ (Rect.block (s := S128x128) S128x128.size (cc22_transform_3 i) (hinb22_3 i)).WholeWords (EltTy.packing .bf16)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S512x128.size a ≤ S4096x128.size a
  hwx22_4 : ∀ i : grid22.Coords, EltTy.bits .bf16 = 32 ∨ (Rect.block (s := S4096x128) S512x128.size (cc22_transform_4 i) (hinb22_4 i)).WholeWords (EltTy.packing .bf16)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S128x128.size a ≤ S128x128.size a
  hwx22_5 : ∀ i : grid22.Coords, EltTy.bits .bf16 = 32 ∨ (Rect.block (s := S128x128) S128x128.size (cc22_transform_5 i) (hinb22_5 i)).WholeWords (EltTy.packing .bf16)
  hstage22_6 : ∀ j, (stage22_6 j).IsWhole
  nbuf22_6 : grid22.bufCount reads22_6 true = 1
  hreads22_6 : ∀ i i' : grid22.Coords, (∀ a, reads22_6 a = true → i a = i' a) → cc22_transform_6 i = cc22_transform_6 i'
  hinb22_6 : ∀ (i : grid22.Coords) a, (cc22_transform_6 i a + 1) * S1x128.size a ≤ S1x128.size a
  hwx22_6 : ∀ i : grid22.Coords, EltTy.bits .f32 = 32 ∨ (Rect.block (s := S1x128) S1x128.size (cc22_transform_6 i) (hinb22_6 i)).WholeWords (EltTy.packing .f32)
  hstage22_7 : ∀ j, (stage22_7 j).IsWhole
  nbuf22_7 : grid22.bufCount reads22_7 false = 2
  hreads22_7 : ∀ i i' : grid22.Coords, (∀ a, reads22_7 a = true → i a = i' a) → cc22_transform_7 i = cc22_transform_7 i'
  hinb22_7 : ∀ (i : grid22.Coords) a, (cc22_transform_7 i a + 1) * S512x128.size a ≤ S4096x128.size a
  hwx22_7 : ∀ i : grid22.Coords, EltTy.bits .f32 = 32 ∨ (Rect.block (s := S4096x128) S512x128.size (cc22_transform_7 i) (hinb22_7 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S512x4096.size a ≤ S8192x4096.size a
  hwx23_0 : ∀ i : grid23.Coords, EltTy.bits .bf16 = 32 ∨ (Rect.block (s := S8192x4096) S512x4096.size (cc23_transform_0 i) (hinb23_0 i)).WholeWords (EltTy.packing .bf16)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S4096x128.size a ≤ S4096x128.size a
  hwx23_1 : ∀ i : grid23.Coords, EltTy.bits .bf16 = 32 ∨ (Rect.block (s := S4096x128) S4096x128.size (cc23_transform_1 i) (hinb23_1 i)).WholeWords (EltTy.packing .bf16)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S128x128.size a ≤ S128x128.size a
  hwx23_3 : ∀ i : grid23.Coords, EltTy.bits .bf16 = 32 ∨ (Rect.block (s := S128x128) S128x128.size (cc23_transform_3 i) (hinb23_3 i)).WholeWords (EltTy.packing .bf16)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S512x128.size a ≤ S8192x128.size a
  hwx23_4 : ∀ i : grid23.Coords, EltTy.bits .bf16 = 32 ∨ (Rect.block (s := S8192x128) S512x128.size (cc23_transform_4 i) (hinb23_4 i)).WholeWords (EltTy.packing .bf16)
  hstage23_5 : ∀ j, (stage23_5 j).IsWhole
  nbuf23_5 : grid23.bufCount reads23_5 true = 1
  hreads23_5 : ∀ i i' : grid23.Coords, (∀ a, reads23_5 a = true → i a = i' a) → cc23_transform_5 i = cc23_transform_5 i'
  hinb23_5 : ∀ (i : grid23.Coords) a, (cc23_transform_5 i a + 1) * S128x128.size a ≤ S128x128.size a
  hwx23_5 : ∀ i : grid23.Coords, EltTy.bits .bf16 = 32 ∨ (Rect.block (s := S128x128) S128x128.size (cc23_transform_5 i) (hinb23_5 i)).WholeWords (EltTy.packing .bf16)
  hstage23_6 : ∀ j, (stage23_6 j).IsWhole
  nbuf23_6 : grid23.bufCount reads23_6 true = 1
  hreads23_6 : ∀ i i' : grid23.Coords, (∀ a, reads23_6 a = true → i a = i' a) → cc23_transform_6 i = cc23_transform_6 i'
  hinb23_6 : ∀ (i : grid23.Coords) a, (cc23_transform_6 i a + 1) * S1x128.size a ≤ S1x128.size a
  hwx23_6 : ∀ i : grid23.Coords, EltTy.bits .f32 = 32 ∨ (Rect.block (s := S1x128) S1x128.size (cc23_transform_6 i) (hinb23_6 i)).WholeWords (EltTy.packing .f32)
  hstage23_7 : ∀ j, (stage23_7 j).IsWhole
  nbuf23_7 : grid23.bufCount reads23_7 false = 2
  hreads23_7 : ∀ i i' : grid23.Coords, (∀ a, reads23_7 a = true → i a = i' a) → cc23_transform_7 i = cc23_transform_7 i'
  hinb23_7 : ∀ (i : grid23.Coords) a, (cc23_transform_7 i a + 1) * S512x128.size a ≤ S8192x128.size a
  hwx23_7 : ∀ i : grid23.Coords, EltTy.bits .f32 = 32 ∨ (Rect.block (s := S8192x128) S512x128.size (cc23_transform_7 i) (hinb23_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf

abbrev win0_0 : Pipeline.Window sig grid0 :=
  Pipeline.Window.ofSpec (Memref.whole main_v4) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S512x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v0) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S512x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v0) S512x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S8192x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v4) S512x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v35) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v39) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v40) S512x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v1) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S4096x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v5) S512x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v48) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v52) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v53) S512x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v54) S512x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v57) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v58) S512x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v55) S512x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v61) S512x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v1) S512x4096.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v58) S4096x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v66) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v65) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v67) S512x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v0) S512x8192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v61) S8192x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v72) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v71) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v73) S512x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v0) S512x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v67) S8192x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v84) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v78) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v54) S512x128.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v81) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v85) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v86) S512x128.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v1) S512x4096.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v73) S4096x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v97) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v91) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v55) S512x128.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v94) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v98) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v99) S512x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v102) S512x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v109) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v110) S512x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v103) S512x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v112) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v113) S512x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v3) S512x4096.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v110) S4096x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v118) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v117) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v119) S512x128.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v2) S512x8192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v113) S8192x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v124) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v123) S128x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v125) S512x128.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v2) S512x8192.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v119) S8192x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v136) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v130) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v102) S512x128.size cc16_transform_4 reads16_4 false false 2 stage16_4 sem16_4
    hrank16 hreads16_4 hinb16_4 nbuf16_4 (Memref.isWhole_whole _) hwx16_4 hstage16_4

abbrev win16_5 : Pipeline.Window sig grid16 :=
  Pipeline.Window.ofSpec (Memref.whole main_v133) S128x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v137) S1x128.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v138) S512x128.size cc16_transform_7 reads16_7 true false 2 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

abbrev win17_0 : Pipeline.Window sig grid17 :=
  Pipeline.Window.ofSpec (Memref.whole main_v3) S512x4096.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v125) S4096x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v149) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v143) S128x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v103) S512x128.size cc17_transform_4 reads17_4 false false 2 stage17_4 sem17_4
    hrank17 hreads17_4 hinb17_4 nbuf17_4 (Memref.isWhole_whole _) hwx17_4 hstage17_4

abbrev win17_5 : Pipeline.Window sig grid17 :=
  Pipeline.Window.ofSpec (Memref.whole main_v146) S128x128.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v150) S1x128.size cc17_transform_6 reads17_6 false true 1 stage17_6 sem17_6
    hrank17 hreads17_6 hinb17_6 nbuf17_6 (Memref.isWhole_whole _) hwx17_6 hstage17_6

abbrev win17_7 : Pipeline.Window sig grid17 :=
  Pipeline.Window.ofSpec (Memref.whole main_v151) S512x128.size cc17_transform_7 reads17_7 true false 2 stage17_7 sem17_7
    hrank17 hreads17_7 hinb17_7 nbuf17_7 (Memref.isWhole_whole _) hwx17_7 hstage17_7

abbrev win17 : Fin 8 → Pipeline.Window sig grid17 := fun | 0 => win17_0 | 1 => win17_1 | 2 => win17_2 | 3 => win17_3 | 4 => win17_4 | 5 => win17_5 | 6 => win17_6 | 7 => win17_7 | ⟨_ + 8, h⟩ => absurd h (Nat.not_lt.2 (Nat.le_add_left _ _))
abbrev spec17 : Fin 8 → Pipeline.WinSpec sig grid17.rank := fun w => (win17 w).toWinSpec

abbrev win18_0 : Pipeline.Window sig grid18 :=
  Pipeline.Window.ofSpec (Memref.whole main_v152) S512x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v155) S128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v156) S512x128.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v153) S512x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v158) S128x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v159) S512x128.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v3) S512x4096.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v156) S4096x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v164) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v163) S128x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v165) S512x128.size cc20_transform_4 reads20_4 true false 2 stage20_4 sem20_4
    hrank20 hreads20_4 hinb20_4 nbuf20_4 (Memref.isWhole_whole _) hwx20_4 hstage20_4

abbrev win20 : Fin 5 → Pipeline.Window sig grid20 := fun | 0 => win20_0 | 1 => win20_1 | 2 => win20_2 | 3 => win20_3 | 4 => win20_4 | ⟨_ + 5, h⟩ => absurd h (Nat.not_lt.2 (Nat.le_add_left _ _))
abbrev spec20 : Fin 5 → Pipeline.WinSpec sig grid20.rank := fun w => (win20 w).toWinSpec

abbrev win21_0 : Pipeline.Window sig grid21 :=
  Pipeline.Window.ofSpec (Memref.whole main_v2) S512x8192.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v159) S8192x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v170) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v169) S128x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v171) S512x128.size cc21_transform_4 reads21_4 true false 2 stage21_4 sem21_4
    hrank21 hreads21_4 hinb21_4 nbuf21_4 (Memref.isWhole_whole _) hwx21_4 hstage21_4

abbrev win21 : Fin 5 → Pipeline.Window sig grid21 := fun | 0 => win21_0 | 1 => win21_1 | 2 => win21_2 | 3 => win21_3 | 4 => win21_4 | ⟨_ + 5, h⟩ => absurd h (Nat.not_lt.2 (Nat.le_add_left _ _))
abbrev spec21 : Fin 5 → Pipeline.WinSpec sig grid21.rank := fun w => (win21 w).toWinSpec

abbrev win22_0 : Pipeline.Window sig grid22 :=
  Pipeline.Window.ofSpec (Memref.whole main_v2) S512x8192.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v165) S8192x128.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v182) S1x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v176) S128x128.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v152) S512x128.size cc22_transform_4 reads22_4 false false 2 stage22_4 sem22_4
    hrank22 hreads22_4 hinb22_4 nbuf22_4 (Memref.isWhole_whole _) hwx22_4 hstage22_4

abbrev win22_5 : Pipeline.Window sig grid22 :=
  Pipeline.Window.ofSpec (Memref.whole main_v179) S128x128.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v183) S1x128.size cc22_transform_6 reads22_6 false true 1 stage22_6 sem22_6
    hrank22 hreads22_6 hinb22_6 nbuf22_6 (Memref.isWhole_whole _) hwx22_6 hstage22_6

abbrev win22_7 : Pipeline.Window sig grid22 :=
  Pipeline.Window.ofSpec (Memref.whole main_v184) S512x128.size cc22_transform_7 reads22_7 true false 2 stage22_7 sem22_7
    hrank22 hreads22_7 hinb22_7 nbuf22_7 (Memref.isWhole_whole _) hwx22_7 hstage22_7

abbrev win22 : Fin 8 → Pipeline.Window sig grid22 := fun | 0 => win22_0 | 1 => win22_1 | 2 => win22_2 | 3 => win22_3 | 4 => win22_4 | 5 => win22_5 | 6 => win22_6 | 7 => win22_7 | ⟨_ + 8, h⟩ => absurd h (Nat.not_lt.2 (Nat.le_add_left _ _))
abbrev spec22 : Fin 8 → Pipeline.WinSpec sig grid22.rank := fun w => (win22 w).toWinSpec

abbrev win23_0 : Pipeline.Window sig grid23 :=
  Pipeline.Window.ofSpec (Memref.whole main_v3) S512x4096.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v171) S4096x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v195) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v189) S128x128.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v153) S512x128.size cc23_transform_4 reads23_4 false false 2 stage23_4 sem23_4
    hrank23 hreads23_4 hinb23_4 nbuf23_4 (Memref.isWhole_whole _) hwx23_4 hstage23_4

abbrev win23_5 : Pipeline.Window sig grid23 :=
  Pipeline.Window.ofSpec (Memref.whole main_v192) S128x128.size cc23_transform_5 reads23_5 false true 1 stage23_5 sem23_5
    hrank23 hreads23_5 hinb23_5 nbuf23_5 (Memref.isWhole_whole _) hwx23_5 hstage23_5

abbrev win23_6 : Pipeline.Window sig grid23 :=
  Pipeline.Window.ofSpec (Memref.whole main_v196) S1x128.size cc23_transform_6 reads23_6 false true 1 stage23_6 sem23_6
    hrank23 hreads23_6 hinb23_6 nbuf23_6 (Memref.isWhole_whole _) hwx23_6 hstage23_6

abbrev win23_7 : Pipeline.Window sig grid23 :=
  Pipeline.Window.ofSpec (Memref.whole main_v197) S512x128.size cc23_transform_7 reads23_7 true false 2 stage23_7 sem23_7
    hrank23 hreads23_7 hinb23_7 nbuf23_7 (Memref.isWhole_whole _) hwx23_7 hstage23_7

abbrev win23 : Fin 8 → Pipeline.Window sig grid23 := fun | 0 => win23_0 | 1 => win23_1 | 2 => win23_2 | 3 => win23_3 | 4 => win23_4 | 5 => win23_5 | 6 => win23_6 | 7 => win23_7 | ⟨_ + 8, h⟩ => absurd h (Nat.not_lt.2 (Nat.le_add_left _ _))
abbrev spec23 : Fin 8 → Pipeline.WinSpec sig grid23.rank := fun w => (win23 w).toWinSpec

class Facts : Prop extends Facts₀ where

variable [Facts]
-- ==== ReferenceIdeal.lean ====
abbrev S4096x8192 : Shape := ⟨2, ![4096, 8192]⟩
abbrev S8192x4096 : Shape := ⟨2, ![8192, 4096]⟩
abbrev S4096x128 : Shape := ⟨2, ![4096, 128]⟩
abbrev S8192x128 : Shape := ⟨2, ![8192, 128]⟩
abbrev S4x128x128 : Shape := ⟨3, ![4, 128, 128]⟩
abbrev S4x128 : Shape := ⟨2, ![4, 128]⟩
abbrev S2x256x128 : Shape := ⟨3, ![2, 256, 128]⟩
abbrev S2x128 : Shape := ⟨2, ![2, 128]⟩
abbrev S6x128x128 : Shape := ⟨3, ![6, 128, 128]⟩
abbrev S6x128 : Shape := ⟨2, ![6, 128]⟩
abbrev S4x256x128 : Shape := ⟨3, ![4, 256, 128]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S8192 : Shape := ⟨1, ![8192]⟩
abbrev S8192x1 : Shape := ⟨2, ![8192, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4096x256 : Shape := ⟨2, ![4096, 256]⟩
abbrev S1x256x128 : Shape := ⟨3, ![1, 256, 128]⟩
abbrev S256x128 : Shape := ⟨2, ![256, 128]⟩
abbrev S8192x256 : Shape := ⟨2, ![8192, 256]⟩
abbrev S2048x256 : Shape := ⟨2, ![2048, 256]⟩

abbrev nBuf : Space → Nat
  | .hbm => 570
  | .vmem => 0
  | .smem => 0
  | _ => 0

abbrev hbmTy0_0 (i : Nat) : BufTy := match i % 128 with
  | 0 => ⟨S4096x8192, .f32⟩
  | 1 => ⟨S8192x4096, .f32⟩
  | 2 => ⟨S4096x8192, .f32⟩
  | 3 => ⟨S8192x4096, .f32⟩
  | 4 => ⟨S4096x128, .f32⟩
  | 5 => ⟨S8192x128, .f32⟩
  | 6 => ⟨S4096x128, .f32⟩
  | 7 => ⟨S8192x128, .f32⟩
  | 8 => ⟨S4x128x128, .f32⟩
  | 9 => ⟨S4x128, .f32⟩
  | 10 => ⟨S2x256x128, .f32⟩
  | 11 => ⟨S2x128, .f32⟩
  | 12 => ⟨S6x128x128, .f32⟩
  | 13 => ⟨S6x128, .f32⟩
  | 14 => ⟨S4x256x128, .f32⟩
  | 15 => ⟨S4x128, .f32⟩
  | 16 => ⟨S4x128x128, .f32⟩
  | 17 => ⟨S4x128, .f32⟩
  | 18 => ⟨S2x256x128, .f32⟩
  | 19 => ⟨S2x128, .f32⟩
  | 20 => ⟨S6x128x128, .f32⟩
  | 21 => ⟨S6x128, .f32⟩
  | 22 => ⟨S4x256x128, .f32⟩
  | 23 => ⟨S4x128, .f32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S1, .i32⟩
  | 34 => ⟨S_, .i32⟩
  | 35 => ⟨S4096x1, .i32⟩
  | 36 => ⟨S4096x1, .i1⟩
  | 37 => ⟨S1x1, .i32⟩
  | 38 => ⟨S4096x1, .i32⟩
  | 39 => ⟨S4096x1, .i1⟩
  | 40 => ⟨S4096x1, .i1⟩
  | 41 => ⟨S_, .i1⟩
  | 42 => ⟨S4096, .i1⟩
  | 43 => ⟨S4096x128, .f32⟩
  | 44 => ⟨S4096x128, .i1⟩
  | 45 => ⟨S_, .f32⟩
  | 46 => ⟨S4096x128, .f32⟩
  | 47 => ⟨S4096x128, .f32⟩
  | 48 => ⟨S8192, .i32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S1, .i32⟩
  | 58 => ⟨S_, .i32⟩
  | 59 => ⟨S8192x1, .i32⟩
  | 60 => ⟨S8192x1, .i1⟩
  | 61 => ⟨S1x1, .i32⟩
  | 62 => ⟨S8192x1, .i32⟩
  | 63 => ⟨S8192x1, .i1⟩
  | 64 => ⟨S8192x1, .i1⟩
  | 65 => ⟨S_, .i1⟩
  | 66 => ⟨S8192, .i1⟩
  | 67 => ⟨S8192x128, .f32⟩
  | 68 => ⟨S8192x128, .i1⟩
  | 69 => ⟨S_, .f32⟩
  | 70 => ⟨S8192x128, .f32⟩
  | 71 => ⟨S8192x128, .f32⟩
  | 72 => ⟨S4096, .i32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S1, .i32⟩
  | 82 => ⟨S_, .i32⟩
  | 83 => ⟨S4096x1, .i32⟩
  | 84 => ⟨S4096x1, .i1⟩
  | 85 => ⟨S1x1, .i32⟩
  | 86 => ⟨S4096x1, .i32⟩
  | 87 => ⟨S4096x1, .i1⟩
  | 88 => ⟨S4096x1, .i1⟩
  | 89 => ⟨S_, .i1⟩
  | 90 => ⟨S4096, .i1⟩
  | 91 => ⟨S4096x128, .f32⟩
  | 92 => ⟨S4096x128, .i1⟩
  | 93 => ⟨S_, .f32⟩
  | 94 => ⟨S4096x128, .f32⟩
  | 95 => ⟨S4096x128, .f32⟩
  | 96 => ⟨S8192, .i32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S1, .i32⟩
  | 106 => ⟨S_, .i32⟩
  | 107 => ⟨S8192x1, .i32⟩
  | 108 => ⟨S8192x1, .i1⟩
  | 109 => ⟨S1x1, .i32⟩
  | 110 => ⟨S8192x1, .i32⟩
  | 111 => ⟨S8192x1, .i1⟩
  | 112 => ⟨S8192x1, .i1⟩
  | 113 => ⟨S_, .i1⟩
  | 114 => ⟨S8192, .i1⟩
  | 115 => ⟨S8192x128, .f32⟩
  | 116 => ⟨S8192x128, .i1⟩
  | 117 => ⟨S_, .f32⟩
  | 118 => ⟨S8192x128, .f32⟩
  | 119 => ⟨S8192x128, .f32⟩
  | 120 => ⟨S1x128x128, .f32⟩
  | 121 => ⟨S128x128, .f32⟩
  | 122 => ⟨S1x128, .f32⟩
  | 123 => ⟨S128, .f32⟩
  | 124 => ⟨S4096x128, .f32⟩
  | 125 => ⟨S8192x128, .f32⟩
  | 126 => ⟨S1x128, .f32⟩
  | 127 => ⟨S8192x128, .f32⟩
  | _ => ⟨S4096x8192, .f32⟩

abbrev hbmTy0_1 (i : Nat) : BufTy := match i % 128 with
  | 0 => ⟨S8192x128, .f32⟩
  | 1 => ⟨S_, .f32⟩
  | 2 => ⟨S8192x128, .f32⟩
  | 3 => ⟨S8192x128, .i1⟩
  | 4 => ⟨S_, .f32⟩
  | 5 => ⟨S8192x128, .f32⟩
  | 6 => ⟨S8192x128, .f32⟩
  | 7 => ⟨S8192x128, .f32⟩
  | 8 => ⟨S1x128x128, .f32⟩
  | 9 => ⟨S128x128, .f32⟩
  | 10 => ⟨S1x128, .f32⟩
  | 11 => ⟨S128, .f32⟩
  | 12 => ⟨S8192x128, .f32⟩
  | 13 => ⟨S4096x128, .f32⟩
  | 14 => ⟨S1x128, .f32⟩
  | 15 => ⟨S4096x128, .f32⟩
  | 16 => ⟨S4096x128, .f32⟩
  | 17 => ⟨S_, .f32⟩
  | 18 => ⟨S4096x128, .f32⟩
  | 19 => ⟨S4096x128, .i1⟩
  | 20 => ⟨S_, .f32⟩
  | 21 => ⟨S4096x128, .f32⟩
  | 22 => ⟨S4096x128, .f32⟩
  | 23 => ⟨S4096x128, .f32⟩
  | 24 => ⟨S1x128x128, .f32⟩
  | 25 => ⟨S128x128, .f32⟩
  | 26 => ⟨S1x128, .f32⟩
  | 27 => ⟨S128, .f32⟩
  | 28 => ⟨S8192x128, .f32⟩
  | 29 => ⟨S4096x128, .f32⟩
  | 30 => ⟨S1x128, .f32⟩
  | 31 => ⟨S4096x128, .f32⟩
  | 32 => ⟨S4096x128, .f32⟩
  | 33 => ⟨S_, .f32⟩
  | 34 => ⟨S4096x128, .f32⟩
  | 35 => ⟨S4096x128, .i1⟩
  | 36 => ⟨S_, .f32⟩
  | 37 => ⟨S4096x128, .f32⟩
  | 38 => ⟨S4096x128, .f32⟩
  | 39 => ⟨S4096x128, .f32⟩
  | 40 => ⟨S1x128x128, .f32⟩
  | 41 => ⟨S128x128, .f32⟩
  | 42 => ⟨S1x128, .f32⟩
  | 43 => ⟨S128, .f32⟩
  | 44 => ⟨S4096x128, .f32⟩
  | 45 => ⟨S8192x128, .f32⟩
  | 46 => ⟨S1x128, .f32⟩
  | 47 => ⟨S8192x128, .f32⟩
  | 48 => ⟨S8192x128, .f32⟩
  | 49 => ⟨S_, .f32⟩
  | 50 => ⟨S8192x128, .f32⟩
  | 51 => ⟨S8192x128, .i1⟩
  | 52 => ⟨S_, .f32⟩
  | 53 => ⟨S8192x128, .f32⟩
  | 54 => ⟨S8192x128, .f32⟩
  | 55 => ⟨S8192x128, .f32⟩
  | 56 => ⟨S4096x256, .f32⟩
  | 57 => ⟨S1x256x128, .f32⟩
  | 58 => ⟨S256x128, .f32⟩
  | 59 => ⟨S4096x128, .f32⟩
  | 60 => ⟨S1x128, .f32⟩
  | 61 => ⟨S128, .f32⟩
  | 62 => ⟨S1x128, .f32⟩
  | 63 => ⟨S4096x128, .f32⟩
  | 64 => ⟨S4096x128, .f32⟩
  | 65 => ⟨S8192x256, .f32⟩
  | 66 => ⟨S1x256x128, .f32⟩
  | 67 => ⟨S256x128, .f32⟩
  | 68 => ⟨S8192x128, .f32⟩
  | 69 => ⟨S1x128, .f32⟩
  | 70 => ⟨S128, .f32⟩
  | 71 => ⟨S1x128, .f32⟩
  | 72 => ⟨S8192x128, .f32⟩
  | 73 => ⟨S8192x128, .f32⟩
  | 74 => ⟨S_, .f32⟩
  | 75 => ⟨S4096x128, .f32⟩
  | 76 => ⟨S4096x128, .f32⟩
  | 77 => ⟨S_, .f32⟩
  | 78 => ⟨S8192x128, .f32⟩
  | 79 => ⟨S8192x128, .f32⟩
  | 80 => ⟨S1x128x128, .f32⟩
  | 81 => ⟨S128x128, .f32⟩
  | 82 => ⟨S1x128, .f32⟩
  | 83 => ⟨S128, .f32⟩
  | 84 => ⟨S4096x128, .f32⟩
  | 85 => ⟨S8192x128, .f32⟩
  | 86 => ⟨S1x128, .f32⟩
  | 87 => ⟨S8192x128, .f32⟩
  | 88 => ⟨S8192x128, .f32⟩
  | 89 => ⟨S_, .f32⟩
  | 90 => ⟨S8192x128, .f32⟩
  | 91 => ⟨S8192x128, .i1⟩
  | 92 => ⟨S_, .f32⟩
  | 93 => ⟨S8192x128, .f32⟩
  | 94 => ⟨S8192x128, .f32⟩
  | 95 => ⟨S8192x128, .f32⟩
  | 96 => ⟨S1x128x128, .f32⟩
  | 97 => ⟨S128x128, .f32⟩
  | 98 => ⟨S1x128, .f32⟩
  | 99 => ⟨S128, .f32⟩
  | 100 => ⟨S8192x128, .f32⟩
  | 101 => ⟨S4096x128, .f32⟩
  | 102 => ⟨S1x128, .f32⟩
  | 103 => ⟨S4096x128, .f32⟩
  | 104 => ⟨S4096x128, .f32⟩
  | 105 => ⟨S_, .f32⟩
  | 106 => ⟨S4096x128, .f32⟩
  | 107 => ⟨S4096x128, .i1⟩
  | 108 => ⟨S_, .f32⟩
  | 109 => ⟨S4096x128, .f32⟩
  | 110 => ⟨S4096x128, .f32⟩
  | 111 => ⟨S4096x128, .f32⟩
  | 112 => ⟨S1x128x128, .f32⟩
  | 113 => ⟨S128x128, .f32⟩
  | 114 => ⟨S1x128, .f32⟩
  | 115 => ⟨S128, .f32⟩
  | 116 => ⟨S8192x128, .f32⟩
  | 117 => ⟨S4096x128, .f32⟩
  | 118 => ⟨S1x128, .f32⟩
  | 119 => ⟨S4096x128, .f32⟩
  | 120 => ⟨S4096x128, .f32⟩
  | 121 => ⟨S_, .f32⟩
  | 122 => ⟨S4096x128, .f32⟩
  | 123 => ⟨S4096x128, .i1⟩
  | 124 => ⟨S_, .f32⟩
  | 125 => ⟨S4096x128, .f32⟩
  | 126 => ⟨S4096x128, .f32⟩
  | 127 => ⟨S4096x128, .f32⟩
  | _ => ⟨S4096x8192, .f32⟩

abbrev hbmTy0_2 (i : Nat) : BufTy := match i % 128 with
  | 0 => ⟨S4096x256, .f32⟩
  | 1 => ⟨S1x256x128, .f32⟩
  | 2 => ⟨S256x128, .f32⟩
  | 3 => ⟨S4096x128, .f32⟩
  | 4 => ⟨S1x128, .f32⟩
  | 5 => ⟨S128, .f32⟩
  | 6 => ⟨S1x128, .f32⟩
  | 7 => ⟨S4096x128, .f32⟩
  | 8 => ⟨S4096x128, .f32⟩
  | 9 => ⟨S1x128x128, .f32⟩
  | 10 => ⟨S128x128, .f32⟩
  | 11 => ⟨S1x128, .f32⟩
  | 12 => ⟨S128, .f32⟩
  | 13 => ⟨S8192x128, .f32⟩
  | 14 => ⟨S4096x128, .f32⟩
  | 15 => ⟨S1x128, .f32⟩
  | 16 => ⟨S4096x128, .f32⟩
  | 17 => ⟨S4096x128, .f32⟩
  | 18 => ⟨S_, .f32⟩
  | 19 => ⟨S4096x128, .f32⟩
  | 20 => ⟨S4096x128, .i1⟩
  | 21 => ⟨S_, .f32⟩
  | 22 => ⟨S4096x128, .f32⟩
  | 23 => ⟨S4096x128, .f32⟩
  | 24 => ⟨S4096x128, .f32⟩
  | 25 => ⟨S4096x256, .f32⟩
  | 26 => ⟨S1x256x128, .f32⟩
  | 27 => ⟨S256x128, .f32⟩
  | 28 => ⟨S4096x128, .f32⟩
  | 29 => ⟨S1x128, .f32⟩
  | 30 => ⟨S128, .f32⟩
  | 31 => ⟨S1x128, .f32⟩
  | 32 => ⟨S4096x128, .f32⟩
  | 33 => ⟨S4096x128, .f32⟩
  | 34 => ⟨S1x128x128, .f32⟩
  | 35 => ⟨S128x128, .f32⟩
  | 36 => ⟨S1x128, .f32⟩
  | 37 => ⟨S128, .f32⟩
  | 38 => ⟨S4096x128, .f32⟩
  | 39 => ⟨S8192x128, .f32⟩
  | 40 => ⟨S1x128, .f32⟩
  | 41 => ⟨S8192x128, .f32⟩
  | 42 => ⟨S8192x128, .f32⟩
  | 43 => ⟨S_, .f32⟩
  | 44 => ⟨S8192x128, .f32⟩
  | 45 => ⟨S8192x128, .i1⟩
  | 46 => ⟨S_, .f32⟩
  | 47 => ⟨S8192x128, .f32⟩
  | 48 => ⟨S8192x128, .f32⟩
  | 49 => ⟨S8192x128, .f32⟩
  | 50 => ⟨S8192x256, .f32⟩
  | 51 => ⟨S1x256x128, .f32⟩
  | 52 => ⟨S256x128, .f32⟩
  | 53 => ⟨S8192x128, .f32⟩
  | 54 => ⟨S1x128, .f32⟩
  | 55 => ⟨S128, .f32⟩
  | 56 => ⟨S1x128, .f32⟩
  | 57 => ⟨S8192x128, .f32⟩
  | 58 => ⟨S8192x128, .f32⟩
  | 59 => ⟨S1x128x128, .f32⟩
  | 60 => ⟨S128x128, .f32⟩
  | 61 => ⟨S1x128, .f32⟩
  | 62 => ⟨S128, .f32⟩
  | 63 => ⟨S4096x128, .f32⟩
  | 64 => ⟨S8192x128, .f32⟩
  | 65 => ⟨S1x128, .f32⟩
  | 66 => ⟨S8192x128, .f32⟩
  | 67 => ⟨S8192x128, .f32⟩
  | 68 => ⟨S_, .f32⟩
  | 69 => ⟨S8192x128, .f32⟩
  | 70 => ⟨S8192x128, .i1⟩
  | 71 => ⟨S_, .f32⟩
  | 72 => ⟨S8192x128, .f32⟩
  | 73 => ⟨S8192x128, .f32⟩
  | 74 => ⟨S8192x128, .f32⟩
  | 75 => ⟨S8192x256, .f32⟩
  | 76 => ⟨S1x256x128, .f32⟩
  | 77 => ⟨S256x128, .f32⟩
  | 78 => ⟨S8192x128, .f32⟩
  | 79 => ⟨S1x128, .f32⟩
  | 80 => ⟨S128, .f32⟩
  | 81 => ⟨S1x128, .f32⟩
  | 82 => ⟨S8192x128, .f32⟩
  | 83 => ⟨S8192x128, .f32⟩
  | 84 => ⟨S4096x256, .f32⟩
  | 85 => ⟨S8192x256, .f32⟩
  | 86 => ⟨S1x128x128, .f32⟩
  | 87 => ⟨S128x128, .f32⟩
  | 88 => ⟨S1x128, .f32⟩
  | 89 => ⟨S128, .f32⟩
  | 90 => ⟨S4096x128, .f32⟩
  | 91 => ⟨S8192x128, .f32⟩
  | 92 => ⟨S1x128, .f32⟩
  | 93 => ⟨S8192x128, .f32⟩
  | 94 => ⟨S8192x128, .f32⟩
  | 95 => ⟨S_, .f32⟩
  | 96 => ⟨S8192x128, .f32⟩
  | 97 => ⟨S8192x128, .i1⟩
  | 98 => ⟨S_, .f32⟩
  | 99 => ⟨S8192x128, .f32⟩
  | 100 => ⟨S8192x128, .f32⟩
  | 101 => ⟨S8192x128, .f32⟩
  | 102 => ⟨S1x128x128, .f32⟩
  | 103 => ⟨S128x128, .f32⟩
  | 104 => ⟨S1x128, .f32⟩
  | 105 => ⟨S128, .f32⟩
  | 106 => ⟨S8192x128, .f32⟩
  | 107 => ⟨S4096x128, .f32⟩
  | 108 => ⟨S1x128, .f32⟩
  | 109 => ⟨S4096x128, .f32⟩
  | 110 => ⟨S4096x128, .f32⟩
  | 111 => ⟨S_, .f32⟩
  | 112 => ⟨S4096x128, .f32⟩
  | 113 => ⟨S4096x128, .i1⟩
  | 114 => ⟨S_, .f32⟩
  | 115 => ⟨S4096x128, .f32⟩
  | 116 => ⟨S4096x128, .f32⟩
  | 117 => ⟨S4096x128, .f32⟩
  | 118 => ⟨S1x128x128, .f32⟩
  | 119 => ⟨S128x128, .f32⟩
  | 120 => ⟨S1x128, .f32⟩
  | 121 => ⟨S128, .f32⟩
  | 122 => ⟨S8192x128, .f32⟩
  | 123 => ⟨S4096x128, .f32⟩
  | 124 => ⟨S1x128, .f32⟩
  | 125 => ⟨S4096x128, .f32⟩
  | 126 => ⟨S4096x128, .f32⟩
  | 127 => ⟨S_, .f32⟩
  | _ => ⟨S4096x8192, .f32⟩

abbrev hbmTy0_3 (i : Nat) : BufTy := match i % 128 with
  | 0 => ⟨S4096x128, .f32⟩
  | 1 => ⟨S4096x128, .i1⟩
  | 2 => ⟨S_, .f32⟩
  | 3 => ⟨S4096x128, .f32⟩
  | 4 => ⟨S4096x128, .f32⟩
  | 5 => ⟨S4096x128, .f32⟩
  | 6 => ⟨S1x128x128, .f32⟩
  | 7 => ⟨S128x128, .f32⟩
  | 8 => ⟨S1x128, .f32⟩
  | 9 => ⟨S128, .f32⟩
  | 10 => ⟨S4096x128, .f32⟩
  | 11 => ⟨S8192x128, .f32⟩
  | 12 => ⟨S1x128, .f32⟩
  | 13 => ⟨S8192x128, .f32⟩
  | 14 => ⟨S8192x128, .f32⟩
  | 15 => ⟨S_, .f32⟩
  | 16 => ⟨S8192x128, .f32⟩
  | 17 => ⟨S8192x128, .i1⟩
  | 18 => ⟨S_, .f32⟩
  | 19 => ⟨S8192x128, .f32⟩
  | 20 => ⟨S8192x128, .f32⟩
  | 21 => ⟨S8192x128, .f32⟩
  | 22 => ⟨S4096x256, .f32⟩
  | 23 => ⟨S1x256x128, .f32⟩
  | 24 => ⟨S256x128, .f32⟩
  | 25 => ⟨S4096x128, .f32⟩
  | 26 => ⟨S1x128, .f32⟩
  | 27 => ⟨S128, .f32⟩
  | 28 => ⟨S1x128, .f32⟩
  | 29 => ⟨S4096x128, .f32⟩
  | 30 => ⟨S4096x128, .f32⟩
  | 31 => ⟨S8192x256, .f32⟩
  | 32 => ⟨S1x256x128, .f32⟩
  | 33 => ⟨S256x128, .f32⟩
  | 34 => ⟨S8192x128, .f32⟩
  | 35 => ⟨S1x128, .f32⟩
  | 36 => ⟨S128, .f32⟩
  | 37 => ⟨S1x128, .f32⟩
  | 38 => ⟨S8192x128, .f32⟩
  | 39 => ⟨S8192x128, .f32⟩
  | 40 => ⟨S_, .f32⟩
  | 41 => ⟨S4096x128, .f32⟩
  | 42 => ⟨S4096x128, .f32⟩
  | 43 => ⟨S_, .f32⟩
  | 44 => ⟨S8192x128, .f32⟩
  | 45 => ⟨S8192x128, .f32⟩
  | 46 => ⟨S1x128x128, .f32⟩
  | 47 => ⟨S128x128, .f32⟩
  | 48 => ⟨S1x128, .f32⟩
  | 49 => ⟨S128, .f32⟩
  | 50 => ⟨S4096x128, .f32⟩
  | 51 => ⟨S8192x128, .f32⟩
  | 52 => ⟨S1x128, .f32⟩
  | 53 => ⟨S8192x128, .f32⟩
  | 54 => ⟨S8192x128, .f32⟩
  | 55 => ⟨S_, .f32⟩
  | 56 => ⟨S8192x128, .f32⟩
  | 57 => ⟨S8192x128, .i1⟩
  | 58 => ⟨S_, .f32⟩
  | 59 => ⟨S8192x128, .f32⟩
  | 60 => ⟨S8192x128, .f32⟩
  | 61 => ⟨S8192x128, .f32⟩
  | 62 => ⟨S1x128x128, .f32⟩
  | 63 => ⟨S128x128, .f32⟩
  | 64 => ⟨S1x128, .f32⟩
  | 65 => ⟨S128, .f32⟩
  | 66 => ⟨S8192x128, .f32⟩
  | 67 => ⟨S4096x128, .f32⟩
  | 68 => ⟨S1x128, .f32⟩
  | 69 => ⟨S4096x128, .f32⟩
  | 70 => ⟨S4096x128, .f32⟩
  | 71 => ⟨S_, .f32⟩
  | 72 => ⟨S4096x128, .f32⟩
  | 73 => ⟨S4096x128, .i1⟩
  | 74 => ⟨S_, .f32⟩
  | 75 => ⟨S4096x128, .f32⟩
  | 76 => ⟨S4096x128, .f32⟩
  | 77 => ⟨S4096x128, .f32⟩
  | 78 => ⟨S1x128x128, .f32⟩
  | 79 => ⟨S128x128, .f32⟩
  | 80 => ⟨S1x128, .f32⟩
  | 81 => ⟨S128, .f32⟩
  | 82 => ⟨S8192x128, .f32⟩
  | 83 => ⟨S4096x128, .f32⟩
  | 84 => ⟨S1x128, .f32⟩
  | 85 => ⟨S4096x128, .f32⟩
  | 86 => ⟨S4096x128, .f32⟩
  | 87 => ⟨S_, .f32⟩
  | 88 => ⟨S4096x128, .f32⟩
  | 89 => ⟨S4096x128, .i1⟩
  | 90 => ⟨S_, .f32⟩
  | 91 => ⟨S4096x128, .f32⟩
  | 92 => ⟨S4096x128, .f32⟩
  | 93 => ⟨S4096x128, .f32⟩
  | 94 => ⟨S4096x256, .f32⟩
  | 95 => ⟨S1x256x128, .f32⟩
  | 96 => ⟨S256x128, .f32⟩
  | 97 => ⟨S4096x128, .f32⟩
  | 98 => ⟨S1x128, .f32⟩
  | 99 => ⟨S128, .f32⟩
  | 100 => ⟨S1x128, .f32⟩
  | 101 => ⟨S4096x128, .f32⟩
  | 102 => ⟨S4096x128, .f32⟩
  | 103 => ⟨S1x128x128, .f32⟩
  | 104 => ⟨S128x128, .f32⟩
  | 105 => ⟨S1x128, .f32⟩
  | 106 => ⟨S128, .f32⟩
  | 107 => ⟨S8192x128, .f32⟩
  | 108 => ⟨S4096x128, .f32⟩
  | 109 => ⟨S1x128, .f32⟩
  | 110 => ⟨S4096x128, .f32⟩
  | 111 => ⟨S4096x128, .f32⟩
  | 112 => ⟨S_, .f32⟩
  | 113 => ⟨S4096x128, .f32⟩
  | 114 => ⟨S4096x128, .i1⟩
  | 115 => ⟨S_, .f32⟩
  | 116 => ⟨S4096x128, .f32⟩
  | 117 => ⟨S4096x128, .f32⟩
  | 118 => ⟨S4096x128, .f32⟩
  | 119 => ⟨S4096x256, .f32⟩
  | 120 => ⟨S1x256x128, .f32⟩
  | 121 => ⟨S256x128, .f32⟩
  | 122 => ⟨S4096x128, .f32⟩
  | 123 => ⟨S1x128, .f32⟩
  | 124 => ⟨S128, .f32⟩
  | 125 => ⟨S1x128, .f32⟩
  | 126 => ⟨S4096x128, .f32⟩
  | 127 => ⟨S4096x128, .f32⟩
  | _ => ⟨S4096x8192, .f32⟩

abbrev hbmTy0_4 (i : Nat) : BufTy := match i % 128 with
  | 0 => ⟨S1x128x128, .f32⟩
  | 1 => ⟨S128x128, .f32⟩
  | 2 => ⟨S1x128, .f32⟩
  | 3 => ⟨S128, .f32⟩
  | 4 => ⟨S4096x128, .f32⟩
  | 5 => ⟨S8192x128, .f32⟩
  | 6 => ⟨S1x128, .f32⟩
  | 7 => ⟨S8192x128, .f32⟩
  | 8 => ⟨S8192x128, .f32⟩
  | 9 => ⟨S_, .f32⟩
  | 10 => ⟨S8192x128, .f32⟩
  | 11 => ⟨S8192x128, .i1⟩
  | 12 => ⟨S_, .f32⟩
  | 13 => ⟨S8192x128, .f32⟩
  | 14 => ⟨S8192x128, .f32⟩
  | 15 => ⟨S8192x128, .f32⟩
  | 16 => ⟨S8192x256, .f32⟩
  | 17 => ⟨S1x256x128, .f32⟩
  | 18 => ⟨S256x128, .f32⟩
  | 19 => ⟨S8192x128, .f32⟩
  | 20 => ⟨S1x128, .f32⟩
  | 21 => ⟨S128, .f32⟩
  | 22 => ⟨S1x128, .f32⟩
  | 23 => ⟨S8192x128, .f32⟩
  | 24 => ⟨S8192x128, .f32⟩
  | 25 => ⟨S1x128x128, .f32⟩
  | 26 => ⟨S128x128, .f32⟩
  | 27 => ⟨S1x128, .f32⟩
  | 28 => ⟨S128, .f32⟩
  | 29 => ⟨S4096x128, .f32⟩
  | 30 => ⟨S8192x128, .f32⟩
  | 31 => ⟨S1x128, .f32⟩
  | 32 => ⟨S8192x128, .f32⟩
  | 33 => ⟨S8192x128, .f32⟩
  | 34 => ⟨S_, .f32⟩
  | 35 => ⟨S8192x128, .f32⟩
  | 36 => ⟨S8192x128, .i1⟩
  | 37 => ⟨S_, .f32⟩
  | 38 => ⟨S8192x128, .f32⟩
  | 39 => ⟨S8192x128, .f32⟩
  | 40 => ⟨S8192x128, .f32⟩
  | 41 => ⟨S8192x256, .f32⟩
  | 42 => ⟨S1x256x128, .f32⟩
  | 43 => ⟨S256x128, .f32⟩
  | 44 => ⟨S8192x128, .f32⟩
  | 45 => ⟨S1x128, .f32⟩
  | 46 => ⟨S128, .f32⟩
  | 47 => ⟨S1x128, .f32⟩
  | 48 => ⟨S8192x128, .f32⟩
  | 49 => ⟨S8192x128, .f32⟩
  | 50 => ⟨S4096x256, .f32⟩
  | 51 => ⟨S8192x256, .f32⟩
  | 52 => ⟨S2048x256, .f32⟩
  | 53 => ⟨S2048x256, .f32⟩
  | 54 => ⟨S4096x256, .f32⟩
  | 55 => ⟨S2048x256, .f32⟩
  | 56 => ⟨S2048x256, .f32⟩
  | 57 => ⟨S4096x256, .f32⟩
  | _ => ⟨S4096x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v1 : Ref sig .tc := ⟨.hbm, 47, rfl⟩
abbrev main_v2 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v3 : Ref sig .tc := ⟨.hbm, 71, rfl⟩
abbrev main_v4 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v5 : Ref sig .tc := ⟨.hbm, 95, rfl⟩
abbrev main_v6 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v7 : Ref sig .tc := ⟨.hbm, 119, rfl⟩
abbrev main_v8 : Ref sig .tc := ⟨.hbm, 120, rfl⟩
abbrev main_v9 : Ref sig .tc := ⟨.hbm, 121, rfl⟩
abbrev main_v10 : Ref sig .tc := ⟨.hbm, 122, rfl⟩
abbrev main_v11 : Ref sig .tc := ⟨.hbm, 123, rfl⟩
abbrev main_v12 : Ref sig .tc := ⟨.hbm, 124, rfl⟩
abbrev main_v13 : Ref sig .tc := ⟨.hbm, 125, rfl⟩
abbrev main_v14 : Ref sig .tc := ⟨.hbm, 126, rfl⟩
abbrev main_v15 : Ref sig .tc := ⟨.hbm, 127, rfl⟩
abbrev main_v16 : Ref sig .tc := ⟨.hbm, 128, rfl⟩
abbrev main_cst : Ref sig .tc := ⟨.hbm, 129, rfl⟩
abbrev main_v17 : Ref sig .tc := ⟨.hbm, 130, rfl⟩
abbrev main_v18 : Ref sig .tc := ⟨.hbm, 131, rfl⟩
abbrev main_cst_0 : Ref sig .tc := ⟨.hbm, 132, rfl⟩
abbrev main_v19 : Ref sig .tc := ⟨.hbm, 133, rfl⟩
abbrev main_v20 : Ref sig .tc := ⟨.hbm, 134, rfl⟩
abbrev main_v21 : Ref sig .tc := ⟨.hbm, 135, rfl⟩
abbrev main_v22 : Ref sig .tc := ⟨.hbm, 136, rfl⟩
abbrev main_v23 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_cst_1 : Ref sig .tc := ⟨.hbm, 145, rfl⟩
abbrev main_v31 : Ref sig .tc := ⟨.hbm, 146, rfl⟩
abbrev main_v32 : Ref sig .tc := ⟨.hbm, 147, rfl⟩
abbrev main_cst_2 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_cst_3 : Ref sig .tc := ⟨.hbm, 161, rfl⟩
abbrev main_v45 : Ref sig .tc := ⟨.hbm, 162, rfl⟩
abbrev main_v46 : Ref sig .tc := ⟨.hbm, 163, rfl⟩
abbrev main_cst_4 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_cst_5 : Ref sig .tc := ⟨.hbm, 177, rfl⟩
abbrev main_v59 : Ref sig .tc := ⟨.hbm, 178, rfl⟩
abbrev main_v60 : Ref sig .tc := ⟨.hbm, 179, rfl⟩
abbrev main_cst_6 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_call8_cst : Ref sig .tc := ⟨.hbm, 202, rfl⟩
abbrev main_call8_v0 : Ref sig .tc := ⟨.hbm, 203, rfl⟩
abbrev main_v82 : Ref sig .tc := ⟨.hbm, 204, rfl⟩
abbrev main_call9_cst : Ref sig .tc := ⟨.hbm, 205, rfl⟩
abbrev main_call9_v0 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_cst_7 : Ref sig .tc := ⟨.hbm, 217, rfl⟩
abbrev main_v93 : Ref sig .tc := ⟨.hbm, 218, rfl⟩
abbrev main_v94 : Ref sig .tc := ⟨.hbm, 219, rfl⟩
abbrev main_cst_8 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_cst_9 : Ref sig .tc := ⟨.hbm, 233, rfl⟩
abbrev main_v107 : Ref sig .tc := ⟨.hbm, 234, rfl⟩
abbrev main_v108 : Ref sig .tc := ⟨.hbm, 235, rfl⟩
abbrev main_cst_10 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_cst_11 : Ref sig .tc := ⟨.hbm, 249, rfl⟩
abbrev main_v121 : Ref sig .tc := ⟨.hbm, 250, rfl⟩
abbrev main_v122 : Ref sig .tc := ⟨.hbm, 251, rfl⟩
abbrev main_cst_12 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_v142 : Ref sig .tc := ⟨.hbm, 272, rfl⟩
abbrev main_v143 : Ref sig .tc := ⟨.hbm, 273, rfl⟩
abbrev main_cst_13 : Ref sig .tc := ⟨.hbm, 274, rfl⟩
abbrev main_v144 : Ref sig .tc := ⟨.hbm, 275, rfl⟩
abbrev main_v145 : Ref sig .tc := ⟨.hbm, 276, rfl⟩
abbrev main_cst_14 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_cst_15 : Ref sig .tc := ⟨.hbm, 299, rfl⟩
abbrev main_v167 : Ref sig .tc := ⟨.hbm, 300, rfl⟩
abbrev main_v168 : Ref sig .tc := ⟨.hbm, 301, rfl⟩
abbrev main_cst_16 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_cst_17 : Ref sig .tc := ⟨.hbm, 324, rfl⟩
abbrev main_v190 : Ref sig .tc := ⟨.hbm, 325, rfl⟩
abbrev main_v191 : Ref sig .tc := ⟨.hbm, 326, rfl⟩
abbrev main_cst_18 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_cst_19 : Ref sig .tc := ⟨.hbm, 351, rfl⟩
abbrev main_v215 : Ref sig .tc := ⟨.hbm, 352, rfl⟩
abbrev main_v216 : Ref sig .tc := ⟨.hbm, 353, rfl⟩
abbrev main_cst_20 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_cst_21 : Ref sig .tc := ⟨.hbm, 367, rfl⟩
abbrev main_v229 : Ref sig .tc := ⟨.hbm, 368, rfl⟩
abbrev main_v230 : Ref sig .tc := ⟨.hbm, 369, rfl⟩
abbrev main_cst_22 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_cst_23 : Ref sig .tc := ⟨.hbm, 383, rfl⟩
abbrev main_v243 : Ref sig .tc := ⟨.hbm, 384, rfl⟩
abbrev main_v244 : Ref sig .tc := ⟨.hbm, 385, rfl⟩
abbrev main_cst_24 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_cst_25 : Ref sig .tc := ⟨.hbm, 399, rfl⟩
abbrev main_v257 : Ref sig .tc := ⟨.hbm, 400, rfl⟩
abbrev main_v258 : Ref sig .tc := ⟨.hbm, 401, rfl⟩
abbrev main_cst_26 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_v273 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_call20_cst : Ref sig .tc := ⟨.hbm, 424, rfl⟩
abbrev main_call20_v0 : Ref sig .tc := ⟨.hbm, 425, rfl⟩
abbrev main_v280 : Ref sig .tc := ⟨.hbm, 426, rfl⟩
abbrev main_call21_cst : Ref sig .tc := ⟨.hbm, 427, rfl⟩
abbrev main_call21_v0 : Ref sig .tc := ⟨.hbm, 428, rfl⟩
abbrev main_v281 : Ref sig .tc := ⟨.hbm, 429, rfl⟩
abbrev main_v282 : Ref sig .tc := ⟨.hbm, 430, rfl⟩
abbrev main_v283 : Ref sig .tc := ⟨.hbm, 431, rfl⟩
abbrev main_v284 : Ref sig .tc := ⟨.hbm, 432, rfl⟩
abbrev main_v285 : Ref sig .tc := ⟨.hbm, 433, rfl⟩
abbrev main_v286 : Ref sig .tc := ⟨.hbm, 434, rfl⟩
abbrev main_v287 : Ref sig .tc := ⟨.hbm, 435, rfl⟩
abbrev main_v288 : Ref sig .tc := ⟨.hbm, 436, rfl⟩
abbrev main_v289 : Ref sig .tc := ⟨.hbm, 437, rfl⟩
abbrev main_v290 : Ref sig .tc := ⟨.hbm, 438, rfl⟩
abbrev main_cst_27 : Ref sig .tc := ⟨.hbm, 439, rfl⟩
abbrev main_v291 : Ref sig .tc := ⟨.hbm, 440, rfl⟩
abbrev main_v292 : Ref sig .tc := ⟨.hbm, 441, rfl⟩
abbrev main_cst_28 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_v296 : Ref sig .tc := ⟨.hbm, 446, rfl⟩
abbrev main_v297 : Ref sig .tc := ⟨.hbm, 447, rfl⟩
abbrev main_v298 : Ref sig .tc := ⟨.hbm, 448, rfl⟩
abbrev main_v299 : Ref sig .tc := ⟨.hbm, 449, rfl⟩
abbrev main_v300 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_cst_29 : Ref sig .tc := ⟨.hbm, 455, rfl⟩
abbrev main_v305 : Ref sig .tc := ⟨.hbm, 456, rfl⟩
abbrev main_v306 : Ref sig .tc := ⟨.hbm, 457, rfl⟩
abbrev main_cst_30 : Ref sig .tc := ⟨.hbm, 458, rfl⟩
abbrev main_v307 : Ref sig .tc := ⟨.hbm, 459, rfl⟩
abbrev main_v308 : Ref sig .tc := ⟨.hbm, 460, rfl⟩
abbrev main_v309 : Ref sig .tc := ⟨.hbm, 461, rfl⟩
abbrev main_v310 : Ref sig .tc := ⟨.hbm, 462, rfl⟩
abbrev main_v311 : Ref sig .tc := ⟨.hbm, 463, rfl⟩
abbrev main_v312 : Ref sig .tc := ⟨.hbm, 464, rfl⟩
abbrev main_v313 : Ref sig .tc := ⟨.hbm, 465, rfl⟩
abbrev main_v314 : Ref sig .tc := ⟨.hbm, 466, rfl⟩
abbrev main_v315 : Ref sig .tc := ⟨.hbm, 467, rfl⟩
abbrev main_v316 : Ref sig .tc := ⟨.hbm, 468, rfl⟩
abbrev main_v317 : Ref sig .tc := ⟨.hbm, 469, rfl⟩
abbrev main_v318 : Ref sig .tc := ⟨.hbm, 470, rfl⟩
abbrev main_cst_31 : Ref sig .tc := ⟨.hbm, 471, rfl⟩
abbrev main_v319 : Ref sig .tc := ⟨.hbm, 472, rfl⟩
abbrev main_v320 : Ref sig .tc := ⟨.hbm, 473, rfl⟩
abbrev main_cst_32 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_v324 : Ref sig .tc := ⟨.hbm, 478, rfl⟩
abbrev main_v325 : Ref sig .tc := ⟨.hbm, 479, rfl⟩
abbrev main_v326 : Ref sig .tc := ⟨.hbm, 480, rfl⟩
abbrev main_v327 : Ref sig .tc := ⟨.hbm, 481, rfl⟩
abbrev main_v328 : Ref sig .tc := ⟨.hbm, 482, rfl⟩
abbrev main_v329 : Ref sig .tc := ⟨.hbm, 483, rfl⟩
abbrev main_v330 : Ref sig .tc := ⟨.hbm, 484, rfl⟩
abbrev main_v331 : Ref sig .tc := ⟨.hbm, 485, rfl⟩
abbrev main_v332 : Ref sig .tc := ⟨.hbm, 486, rfl⟩
abbrev main_v333 : Ref sig .tc := ⟨.hbm, 487, rfl⟩
abbrev main_v334 : Ref sig .tc := ⟨.hbm, 488, rfl⟩
abbrev main_v335 : Ref sig .tc := ⟨.hbm, 489, rfl⟩
abbrev main_v336 : Ref sig .tc := ⟨.hbm, 490, rfl⟩
abbrev main_v337 : Ref sig .tc := ⟨.hbm, 491, rfl⟩
abbrev main_v338 : Ref sig .tc := ⟨.hbm, 492, rfl⟩
abbrev main_v339 : Ref sig .tc := ⟨.hbm, 493, rfl⟩
abbrev main_v340 : Ref sig .tc := ⟨.hbm, 494, rfl⟩
abbrev main_v341 : Ref sig .tc := ⟨.hbm, 495, rfl⟩
abbrev main_cst_33 : Ref sig .tc := ⟨.hbm, 496, rfl⟩
abbrev main_v342 : Ref sig .tc := ⟨.hbm, 497, rfl⟩
abbrev main_v343 : Ref sig .tc := ⟨.hbm, 498, rfl⟩
abbrev main_cst_34 : Ref sig .tc := ⟨.hbm, 499, rfl⟩
abbrev main_v344 : Ref sig .tc := ⟨.hbm, 500, rfl⟩
abbrev main_v345 : Ref sig .tc := ⟨.hbm, 501, rfl⟩
abbrev main_v346 : Ref sig .tc := ⟨.hbm, 502, rfl⟩
abbrev main_v347 : Ref sig .tc := ⟨.hbm, 503, rfl⟩
abbrev main_v348 : Ref sig .tc := ⟨.hbm, 504, rfl⟩
abbrev main_v349 : Ref sig .tc := ⟨.hbm, 505, rfl⟩
abbrev main_v350 : Ref sig .tc := ⟨.hbm, 506, rfl⟩
abbrev main_v351 : Ref sig .tc := ⟨.hbm, 507, rfl⟩
abbrev main_v352 : Ref sig .tc := ⟨.hbm, 508, rfl⟩
abbrev main_v353 : Ref sig .tc := ⟨.hbm, 509, rfl⟩
abbrev main_v354 : Ref sig .tc := ⟨.hbm, 510, rfl⟩
abbrev main_v355 : Ref sig .tc := ⟨.hbm, 511, rfl⟩
abbrev main_v356 : Ref sig .tc := ⟨.hbm, 512, rfl⟩
abbrev main_v357 : Ref sig .tc := ⟨.hbm, 513, rfl⟩
abbrev main_v358 : Ref sig .tc := ⟨.hbm, 514, rfl⟩
abbrev main_v359 : Ref sig .tc := ⟨.hbm, 515, rfl⟩
abbrev main_v360 : Ref sig .tc := ⟨.hbm, 516, rfl⟩
abbrev main_v361 : Ref sig .tc := ⟨.hbm, 517, rfl⟩
abbrev main_v362 : Ref sig .tc := ⟨.hbm, 518, rfl⟩
abbrev main_v363 : Ref sig .tc := ⟨.hbm, 519, rfl⟩
abbrev main_v364 : Ref sig .tc := ⟨.hbm, 520, rfl⟩
abbrev main_cst_35 : Ref sig .tc := ⟨.hbm, 521, rfl⟩
abbrev main_v365 : Ref sig .tc := ⟨.hbm, 522, rfl⟩
abbrev main_v366 : Ref sig .tc := ⟨.hbm, 523, rfl⟩
abbrev main_cst_36 : Ref sig .tc := ⟨.hbm, 524, rfl⟩
abbrev main_v367 : Ref sig .tc := ⟨.hbm, 525, rfl⟩
abbrev main_v368 : Ref sig .tc := ⟨.hbm, 526, rfl⟩
abbrev main_v369 : Ref sig .tc := ⟨.hbm, 527, rfl⟩
abbrev main_v370 : Ref sig .tc := ⟨.hbm, 528, rfl⟩
abbrev main_v371 : Ref sig .tc := ⟨.hbm, 529, rfl⟩
abbrev main_v372 : Ref sig .tc := ⟨.hbm, 530, rfl⟩
abbrev main_v373 : Ref sig .tc := ⟨.hbm, 531, rfl⟩
abbrev main_v374 : Ref sig .tc := ⟨.hbm, 532, rfl⟩
abbrev main_v375 : Ref sig .tc := ⟨.hbm, 533, rfl⟩
abbrev main_v376 : Ref sig .tc := ⟨.hbm, 534, rfl⟩
abbrev main_v377 : Ref sig .tc := ⟨.hbm, 535, rfl⟩
abbrev main_v378 : Ref sig .tc := ⟨.hbm, 536, rfl⟩
abbrev main_v379 : Ref sig .tc := ⟨.hbm, 537, rfl⟩
abbrev main_v380 : Ref sig .tc := ⟨.hbm, 538, rfl⟩
abbrev main_v381 : Ref sig .tc := ⟨.hbm, 539, rfl⟩
abbrev main_v382 : Ref sig .tc := ⟨.hbm, 540, rfl⟩
abbrev main_v383 : Ref sig .tc := ⟨.hbm, 541, rfl⟩
abbrev main_v384 : Ref sig .tc := ⟨.hbm, 542, rfl⟩
abbrev main_v385 : Ref sig .tc := ⟨.hbm, 543, rfl⟩
abbrev main_v386 : Ref sig .tc := ⟨.hbm, 544, rfl⟩
abbrev main_v387 : Ref sig .tc := ⟨.hbm, 545, rfl⟩
abbrev main_cst_37 : Ref sig .tc := ⟨.hbm, 546, rfl⟩
abbrev main_v388 : Ref sig .tc := ⟨.hbm, 547, rfl⟩
abbrev main_v389 : Ref sig .tc := ⟨.hbm, 548, rfl⟩
abbrev main_cst_38 : Ref sig .tc := ⟨.hbm, 549, rfl⟩
abbrev main_v390 : Ref sig .tc := ⟨.hbm, 550, rfl⟩
abbrev main_v391 : Ref sig .tc := ⟨.hbm, 551, rfl⟩
abbrev main_v392 : Ref sig .tc := ⟨.hbm, 552, rfl⟩
abbrev main_v393 : Ref sig .tc := ⟨.hbm, 553, rfl⟩
abbrev main_v394 : Ref sig .tc := ⟨.hbm, 554, rfl⟩
abbrev main_v395 : Ref sig .tc := ⟨.hbm, 555, rfl⟩
abbrev main_v396 : Ref sig .tc := ⟨.hbm, 556, rfl⟩
abbrev main_v397 : Ref sig .tc := ⟨.hbm, 557, rfl⟩
abbrev main_v398 : Ref sig .tc := ⟨.hbm, 558, rfl⟩
abbrev main_v399 : Ref sig .tc := ⟨.hbm, 559, rfl⟩
abbrev main_v400 : Ref sig .tc := ⟨.hbm, 560, rfl⟩
abbrev main_v401 : Ref sig .tc := ⟨.hbm, 561, rfl⟩
abbrev main_v402 : Ref sig .tc := ⟨.hbm, 562, rfl⟩
abbrev main_v403 : Ref sig .tc := ⟨.hbm, 563, rfl⟩
abbrev main_v404 : Ref sig .tc := ⟨.hbm, 564, rfl⟩
abbrev main_v405 : Ref sig .tc := ⟨.hbm, 565, rfl⟩
abbrev main_v406 : Ref sig .tc := ⟨.hbm, 566, rfl⟩
abbrev main_v407 : Ref sig .tc := ⟨.hbm, 567, rfl⟩
abbrev main_v408 : Ref sig .tc := ⟨.hbm, 568, rfl⟩
abbrev main_v409 : Ref sig .tc := ⟨.hbm, 569, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x128_0 : S8192.BroadcastsInDim S8192x128 (![0] : Fin 1 → Fin S8192x128.rank)
  bcast_S_S8192x128 : S_.BroadcastsInDim S8192x128 (![] : Fin 0 → Fin S8192x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  slices_S4x128x128_S1x128x128_1_0_0 : S4x128x128.Slices ![1, 0, 0] S1x128x128
  slices_S4x128_S1x128_1_0 : S4x128.Slices ![1, 0] S1x128
  bcast_S1x128_S4096x128_0_1 : S1x128.BroadcastsInDim S4096x128 (![0, 1] : Fin 2 → Fin S4096x128.rank)
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S4096x128_S4096x128_S4096x256_d1 : Shape.Concatenates [S4096x128, S4096x128] S4096x256 1
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  concatenates_S8192x128_S8192x128_S8192x256_d1 : Shape.Concatenates [S8192x128, S8192x128] S8192x256 1
  slices_S2x256x128_S1x256x128_1_0_0 : S2x256x128.Slices ![1, 0, 0] S1x256x128
  slices_S2x128_S1x128_1_0 : S2x128.Slices ![1, 0] S1x128
  slices_S6x128x128_S1x128x128_0_0_0 : S6x128x128.Slices ![0, 0, 0] S1x128x128
  slices_S6x128_S1x128_0_0 : S6x128.Slices ![0, 0] S1x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S4x256x128_S1x256x128_0_0_0 : S4x256x128.Slices ![0, 0, 0] S1x256x128
  slices_S6x128x128_S1x128x128_3_0_0 : S6x128x128.Slices ![3, 0, 0] S1x128x128
  slices_S6x128_S1x128_3_0 : S6x128.Slices ![3, 0] S1x128
  slices_S4x256x128_S1x256x128_1_0_0 : S4x256x128.Slices ![1, 0, 0] S1x256x128
  slices_S6x128x128_S1x128x128_4_0_0 : S6x128x128.Slices ![4, 0, 0] S1x128x128
  slices_S6x128_S1x128_4_0 : S6x128.Slices ![4, 0] S1x128
  slices_S4x256x128_S1x256x128_2_0_0 : S4x256x128.Slices ![2, 0, 0] S1x256x128
  slices_S6x128x128_S1x128x128_5_0_0 : S6x128x128.Slices ![5, 0, 0] S1x128x128
  slices_S6x128_S1x128_5_0 : S6x128.Slices ![5, 0] S1x128
  slices_S4x256x128_S1x256x128_3_0_0 : S4x256x128.Slices ![3, 0, 0] S1x256x128
  slices_S4096x256_S2048x256_0_0 : S4096x256.Slices ![0, 0] S2048x256
  slices_S4096x256_S2048x256_2048_0 : S4096x256.Slices ![2048, 0] S2048x256
  concatenates_S2048x256_S2048x256_S4096x256_d0 : Shape.Concatenates [S2048x256, S2048x256] S4096x256 0
  gather_S4096x128_S4096x1_S4096x128_1_0_n_n_0_1_1128_wf : GatherDims.WF S4096x128 S4096x1 S4096x128 [1] [0] [] [0] [] 1 ![1, 128]
  gather_S8192x128_S8192x1_S8192x128_1_0_n_n_0_1_1128_wf : GatherDims.WF S8192x128 S8192x1 S8192x128 [1] [0] [] [0] [] 1 ![1, 128]
  dot_S4096x128_S128x128_S4096x128_1_0_0_1_n_n_wf : DotDims.WF S4096x128 S128x128 S4096x128 [1] [0] [0] [1] [] []
  dot_S8192x4096_S4096x128_S8192x128_1_0_0_1_n_n_wf : DotDims.WF S8192x4096 S4096x128 S8192x128 [1] [0] [0] [1] [] []
  dot_S8192x128_S128x128_S8192x128_1_0_0_1_n_n_wf : DotDims.WF S8192x128 S128x128 S8192x128 [1] [0] [0] [1] [] []
  dot_S4096x8192_S8192x128_S4096x128_1_0_0_1_n_n_wf : DotDims.WF S4096x8192 S8192x128 S4096x128 [1] [0] [0] [1] [] []
  dot_S4096x256_S256x128_S4096x128_1_0_0_1_n_n_wf : DotDims.WF S4096x256 S256x128 S4096x128 [1] [0] [0] [1] [] []
  dot_S8192x256_S256x128_S8192x128_1_0_0_1_n_n_wf : DotDims.WF S8192x256 S256x128 S8192x128 [1] [0] [0] [1] [] []

variable [Facts₀]

def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

class Facts : Prop extends Facts₀ where

variable [Facts]
-- ==== Proof.KernelRun.lean ====
/-
  The idealized kernel program's run with its four result arrays named.

  @main is 24 TensorCore regions among 25 stretches of host operations. The contents of every unscoped buffer at each
  of the 49 segment boundaries are a fold from the launch memory: a host stretch rewrites the buffers its operations
  write, a region rewrites its windows' arrays to what its write-backs leave. Every weakly fair execution terminates
  without a fault in a state whose unscoped buffers hold the last boundary's contents; read at the four result buffers
  this names the results, and read at the 24 argument buffers it gives back the launch contents, since no operation and
  no region writes an argument.
-/
import proofs.«177232_g71837622993359_cont_sun_m_41_3_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with each
    result buffer at the last segment boundary's contents and each argument buffer as launched. -/
theorem run_results : θ_run defs (onTc (τ := τ) (main (F := F))) ⟨m, fun _ => 0, ρ⟩ (fun r => ∀ c : Dev nD,
      r.2.mem ((c.tc : Thread nD τ).loc main_v202) = W49 m ρ c (Proc.devRef .tc main_v202)
      ∧ r.2.mem ((c.tc : Thread nD τ).loc main_v101) = W49 m ρ c (Proc.devRef .tc main_v101)
      ∧ r.2.mem ((c.tc : Thread nD τ).loc main_v205) = W49 m ρ c (Proc.devRef .tc main_v205)
      ∧ r.2.mem ((c.tc : Thread nD τ).loc main_v199) = W49 m ρ c (Proc.devRef .tc main_v199)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W49 m ρ c b)
    (hfin := fun c s' => by
      iintro ⟨⟨Hh, -⟩, HSI⟩
      unfold StableHlo.held
      imodintro
      iapply (pointsTo_read_all (Pipeline.ucRefs τ sig) (fun b => (((c : Thread nD τ)).1, b)) (W49 m ρ c) s')
      isplitl [Hh] <;> iassumption)
    (hQ := fun s h c =>
      ⟨h c _ (mem_uc main_v202 (by decide)),
       h c _ (mem_uc main_v101 (by decide)),
       h c _ (mem_uc main_v205 (by decide)),
       h c _ (mem_uc main_v199 (by decide)),
       (h c _ (mem_uc main_arg0 (by decide))).trans (W49_main_arg0 m ρ c),
       (h c _ (mem_uc main_arg1 (by decide))).trans (W49_main_arg1 m ρ c),
       (h c _ (mem_uc main_arg2 (by decide))).trans (W49_main_arg2 m ρ c),
       (h c _ (mem_uc main_arg3 (by decide))).trans (W49_main_arg3 m ρ c),
       (h c _ (mem_uc main_arg4 (by decide))).trans (W49_main_arg4 m ρ c),
       (h c _ (mem_uc main_arg5 (by decide))).trans (W49_main_arg5 m ρ c),
       (h c _ (mem_uc main_arg6 (by decide))).trans (W49_main_arg6 m ρ c),
       (h c _ (mem_uc main_arg7 (by decide))).trans (W49_main_arg7 m ρ c),
       (h c _ (mem_uc main_arg8 (by decide))).trans (W49_main_arg8 m ρ c),
       (h c _ (mem_uc main_arg9 (by decide))).trans (W49_main_arg9 m ρ c),
       (h c _ (mem_uc main_arg10 (by decide))).trans (W49_main_arg10 m ρ c),
       (h c _ (mem_uc main_arg11 (by decide))).trans (W49_main_arg11 m ρ c),
       (h c _ (mem_uc main_arg12 (by decide))).trans (W49_main_arg12 m ρ c),
       (h c _ (mem_uc main_arg13 (by decide))).trans (W49_main_arg13 m ρ c),
       (h c _ (mem_uc main_arg14 (by decide))).trans (W49_main_arg14 m ρ c),
       (h c _ (mem_uc main_arg15 (by decide))).trans (W49_main_arg15 m ρ c),
       (h c _ (mem_uc main_arg16 (by decide))).trans (W49_main_arg16 m ρ c),
       (h c _ (mem_uc main_arg17 (by decide))).trans (W49_main_arg17 m ρ c),
       (h c _ (mem_uc main_arg18 (by decide))).trans (W49_main_arg18 m ρ c),
       (h c _ (mem_uc main_arg19 (by decide))).trans (W49_main_arg19 m ρ c),
       (h c _ (mem_uc main_arg20 (by decide))).trans (W49_main_arg20 m ρ c),
       (h c _ (mem_uc main_arg21 (by decide))).trans (W49_main_arg21 m ρ c),
       (h c _ (mem_uc main_arg22 (by decide))).trans (W49_main_arg22 m ρ c),
       (h c _ (mem_uc main_arg23 (by decide))).trans (W49_main_arg23 m ρ c)⟩)

end Cert.KernelIdeal.RunValue

end
-- ==== Proof.RefOps0.lean ====
/-
  The idealized reference's @main, statements 1 … 60 of 451, as a list of its 148 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60, in order. -/
abbrev ops_part0 : List (HloOp τ sig (Elt F)) :=
  [ StableHlo.nullary main_v0 (iotaInDim S4096 32 0),
    StableHlo.TRef.nullary main_call0.c (constantI S_ 32 0#32),
    StableHlo.TRef.unary main_call0.c main_call0.v0 (broadcastInDim S4096 ![] bcast_S_S4096),
    StableHlo.TRef.binary (.of main_v0) main_call0.v0 main_call0.v1 (cmpi .slt),
    StableHlo.TRef.nullary main_call0.c_0 (constantI S_ 32 4096#32),
    StableHlo.TRef.unary main_call0.c_0 main_call0.v2 (broadcastInDim S4096 ![] bcast_S_S4096),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S4096x1 ![0] bcast_S4096_S4096x1_0),
    StableHlo.TRef.nullary main_call0.c_1 (constantI S1 32 4095#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg4) main_call0.v5 main_call0.v13 (fun x i => Host.gather gather_S4096x128_S4096x1_S4096x128_1_0_n_n_0_1_1128 x i),
    StableHlo.TRef.unary main_call0.v12 main_call0.v14 (broadcastInDim S4096x128 ![0] bcast_S4096_S4096x128_0),
    StableHlo.TRef.nullary main_call0.cst (constant S_ .f32 0x7FC00000#32),
    StableHlo.TRef.unary main_call0.cst main_call0.v15 (broadcastInDim S4096x128 ![] bcast_S_S4096x128),
    StableHlo.TRef.ternary main_call0.v14 main_call0.v13 main_call0.v15 main_call0.v16 select,
    StableHlo.nullary main_v2 (iotaInDim S8192 32 0),
    StableHlo.TRef.nullary main_call1.c (constantI S_ 32 0#32),
    StableHlo.TRef.unary main_call1.c main_call1.v0 (broadcastInDim S8192 ![] bcast_S_S8192),
    StableHlo.TRef.binary (.of main_v2) main_call1.v0 main_call1.v1 (cmpi .slt),
    StableHlo.TRef.nullary main_call1.c_0 (constantI S_ 32 8192#32),
    StableHlo.TRef.unary main_call1.c_0 main_call1.v2 (broadcastInDim S8192 ![] bcast_S_S8192),
    StableHlo.TRef.binary (.of main_v2) main_call1.v2 main_call1.v3 addi,
    StableHlo.TRef.ternary main_call1.v1 main_call1.v3 (.of main_v2) main_call1.call0.v0 select,
    StableHlo.TRef.unary main_call1.call0.v0 main_call1.v5 (broadcastInDim S8192x1 ![0] bcast_S8192_S8192x1_0),
    StableHlo.TRef.nullary main_call1.c_1 (constantI S1 32 8191#32),
    StableHlo.TRef.nullary main_call1.c_2 (constantI S_ 32 0#32),
    StableHlo.TRef.unary main_call1.c_2 main_call1.v6 (broadcastInDim S8192x1 ![] bcast_S_S8192x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S8192x1 ![0, 1] bcast_S1x1_S8192x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8192x1_S8192_d1 h_S_),
    StableHlo.TRef.binary (.of main_arg5) main_call1.v5 main_call1.v13 (fun x i => Host.gather gather_S8192x128_S8192x1_S8192x128_1_0_n_n_0_1_1128 x i),
    StableHlo.TRef.unary main_call1.v12 main_call1.v14 (broadcastInDim S8192x128 ![0] bcast_S8192_S8192x128_0),
    StableHlo.TRef.nullary main_call1.cst (constant S_ .f32 0x7FC00000#32),
    StableHlo.TRef.unary main_call1.cst main_call1.v15 (broadcastInDim S8192x128 ![] bcast_S_S8192x128),
    StableHlo.TRef.ternary main_call1.v14 main_call1.v13 main_call1.v15 main_call1.v16 select,
    StableHlo.nullary main_v4 (iotaInDim S4096 32 0),
    StableHlo.TRef.nullary main_call2.c (constantI S_ 32 0#32),
    StableHlo.TRef.unary main_call2.c main_call2.v0 (broadcastInDim S4096 ![] bcast_S_S4096),
    StableHlo.TRef.binary (.of main_v4) main_call2.v0 main_call2.v1 (cmpi .slt),
    StableHlo.TRef.nullary main_call2.c_0 (constantI S_ 32 4096#32),
    StableHlo.TRef.unary main_call2.c_0 main_call2.v2 (broadcastInDim S4096 ![] bcast_S_S4096),
    StableHlo.TRef.binary (.of main_v4) main_call2.v2 main_call2.v3 addi,
    StableHlo.TRef.ternary main_call2.v1 main_call2.v3 (.of main_v4) main_call2.call0.v0 select,
    StableHlo.TRef.unary main_call2.call0.v0 main_call2.v5 (broadcastInDim S4096x1 ![0] bcast_S4096_S4096x1_0),
    StableHlo.TRef.nullary main_call2.c_1 (constantI S1 32 4095#32),
    StableHlo.TRef.nullary main_call2.c_2 (constantI S_ 32 0#32),
    StableHlo.TRef.unary main_call2.c_2 main_call2.v6 (broadcastInDim S4096x1 ![] bcast_S_S4096x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S4096x1 ![0, 1] bcast_S1x1_S4096x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x1_S4096_d1 h_S_),
    StableHlo.TRef.binary (.of main_arg6) main_call2.v5 main_call2.v13 (fun x i => Host.gather gather_S4096x128_S4096x1_S4096x128_1_0_n_n_0_1_1128 x i),
    StableHlo.TRef.unary main_call2.v12 main_call2.v14 (broadcastInDim S4096x128 ![0] bcast_S4096_S4096x128_0),
    StableHlo.TRef.nullary main_call2.cst (constant S_ .f32 0x7FC00000#32),
    StableHlo.TRef.unary main_call2.cst main_call2.v15 (broadcastInDim S4096x128 ![] bcast_S_S4096x128),
    StableHlo.TRef.ternary main_call2.v14 main_call2.v13 main_call2.v15 main_call2.v16 select,
    StableHlo.nullary main_v6 (iotaInDim S8192 32 0),
    StableHlo.TRef.nullary main_call3.c (constantI S_ 32 0#32),
    StableHlo.TRef.unary main_call3.c main_call3.v0 (broadcastInDim S8192 ![] bcast_S_S8192),
    StableHlo.TRef.binary (.of main_v6) main_call3.v0 main_call3.v1 (cmpi .slt),
    StableHlo.TRef.nullary main_call3.c_0 (constantI S_ 32 8192#32),
    StableHlo.TRef.unary main_call3.c_0 main_call3.v2 (broadcastInDim S8192 ![] bcast_S_S8192),
    StableHlo.TRef.binary (.of main_v6) main_call3.v2 main_call3.v3 addi,
    StableHlo.TRef.ternary main_call3.v1 main_call3.v3 (.of main_v6) main_call3.call0.v0 select,
    StableHlo.TRef.unary main_call3.call0.v0 main_call3.v5 (broadcastInDim S8192x1 ![0] bcast_S8192_S8192x1_0),
    StableHlo.TRef.nullary main_call3.c_1 (constantI S1 32 8191#32),
    StableHlo.TRef.nullary main_call3.c_2 (constantI S_ 32 0#32),
    StableHlo.TRef.unary main_call3.c_2 main_call3.v6 (broadcastInDim S8192x1 ![] bcast_S_S8192x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S8192x1 ![0, 1] bcast_S1x1_S8192x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S8192x1_S8192_d1 h_S_),
    StableHlo.TRef.binary (.of main_arg7) main_call3.v5 main_call3.v13 (fun x i => Host.gather gather_S8192x128_S8192x1_S8192x128_1_0_n_n_0_1_1128 x i),
    StableHlo.TRef.unary main_call3.v12 main_call3.v14 (broadcastInDim S8192x128 ![0] bcast_S8192_S8192x128_0),
    StableHlo.TRef.nullary main_call3.cst (constant S_ .f32 0x7FC00000#32),
    StableHlo.TRef.unary main_call3.cst main_call3.v15 (broadcastInDim S8192x128 ![] bcast_S_S8192x128),
    StableHlo.TRef.ternary main_call3.v14 main_call3.v13 main_call3.v15 main_call3.v16 select,
    StableHlo.unary main_arg8 main_v8 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v8 main_v9 rfl shapeCasts_S1x128x128_S128x128,
    StableHlo.unary main_arg9 main_v10 ((extractStridedSlice S1x128 ![0, 0] · slices_S4x128_S1x128_0_0) : (⟨S4x128, .f32⟩ : BufTy).Contents (Elt F) → (⟨S1x128, .f32⟩ : BufTy).Contents (Elt F)),
    StableHlo.reshape main_v10 main_v11 rfl shapeCasts_S1x128_S128,
    StableHlo.binary main_v1 main_v9 main_v12 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v12 main_v13 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v11 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S8192x128 ![0, 1] bcast_S1x128_S8192x128_0_1 : (⟨S1x128, .f32⟩ : BufTy).Contents (Elt F) → (⟨S8192x128, .f32⟩ : BufTy).Contents (Elt F)),
    StableHlo.binary main_v13 main_v15 main_v16 (addf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.unary main_cst main_v17 (broadcastInDim S8192x128 ![] bcast_S_S8192x128 : (⟨S_, .f32⟩ : BufTy).Contents (Elt F) → (⟨S8192x128, .f32⟩ : BufTy).Contents (Elt F)),
    StableHlo.binary main_v16 main_v17 main_v18 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_0 (constant S_ .f32 0x3DCCCCCD#32),
    StableHlo.unary main_cst_0 main_v19 (broadcastInDim S8192x128 ![] bcast_S_S8192x128 : (⟨S_, .f32⟩ : BufTy).Contents (Elt F) → (⟨S8192x128, .f32⟩ : BufTy).Contents (Elt F)),
    StableHlo.binary main_v19 main_v16 main_v20 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v18) (.of main_v16) (.of main_v20) main_call4.v0 select,
    StableHlo.unary main_arg8 main_v22 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v22 main_v23 rfl shapeCasts_S1x128x128_S128x128,
    StableHlo.unary main_arg9 main_v24 ((extractStridedSlice S1x128 ![1, 0] · slices_S4x128_S1x128_1_0) : (⟨S4x128, .f32⟩ : BufTy).Contents (Elt F) → (⟨S1x128, .f32⟩ : BufTy).Contents (Elt F)),
    StableHlo.reshape main_v24 main_v25 rfl shapeCasts_S1x128_S128,
    StableHlo.binary main_v3 main_v23 main_v26 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v26 main_v27 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v25 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S4096x128 ![0, 1] bcast_S1x128_S4096x128_0_1 : (⟨S1x128, .f32⟩ : BufTy).Contents (Elt F) → (⟨S4096x128, .f32⟩ : BufTy).Contents (Elt F)),
    StableHlo.binary main_v27 main_v29 main_v30 (addf : (⟨S4096x128, .f32⟩ : BufTy).Contents (Elt F) → (⟨S4096x128, .f32⟩ : BufTy).Contents (Elt F) → (⟨S4096x128, .f32⟩ : BufTy).Contents (Elt F)),
    StableHlo.nullary main_cst_1 (constant S_ .f32 0x00000000#32),
    StableHlo.unary main_cst_1 main_v31 (broadcastInDim S4096x128 ![] bcast_S_S4096x128 : (⟨S_, .f32⟩ : BufTy).Contents (Elt F) → (⟨S4096x128, .f32⟩ : BufTy).Contents (Elt F)),
    StableHlo.binary main_v30 main_v31 main_v32 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_2 (constant S_ .f32 0x3DCCCCCD#32),
    StableHlo.unary main_cst_2 main_v33 (broadcastInDim S4096x128 ![] bcast_S_S4096x128 : (⟨S_, .f32⟩ : BufTy).Contents (Elt F) → (⟨S4096x128, .f32⟩ : BufTy).Contents (Elt F)),
    StableHlo.binary main_v33 main_v30 main_v34 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v32) (.of main_v30) (.of main_v34) main_call5.v0 select,
    StableHlo.unary main_arg8 main_v36 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v36 main_v37 rfl shapeCasts_S1x128x128_S128x128,
    StableHlo.unary main_arg9 main_v38 ((extractStridedSlice S1x128 ![2, 0] · slices_S4x128_S1x128_2_0) : (⟨S4x128, .f32⟩ : BufTy).Contents (Elt F) → (⟨S1x128, .f32⟩ : BufTy).Contents (Elt F)),
    StableHlo.reshape main_v38 main_v39 rfl shapeCasts_S1x128_S128,
    StableHlo.binary main_v21 main_v37 main_v40 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v40 main_v41 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v39 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S4096x128 ![0, 1] bcast_S1x128_S4096x128_0_1 : (⟨S1x128, .f32⟩ : BufTy).Contents (Elt F) → (⟨S4096x128, .f32⟩ : BufTy).Contents (Elt F)),
    StableHlo.binary main_v41 main_v43 main_v44 (addf : (⟨S4096x128, .f32⟩ : BufTy).Contents (Elt F) → (⟨S4096x128, .f32⟩ : BufTy).Contents (Elt F) → (⟨S4096x128, .f32⟩ : BufTy).Contents (Elt F)),
    StableHlo.nullary main_cst_3 (constant S_ .f32 0x00000000#32),
    StableHlo.unary main_cst_3 main_v45 (broadcastInDim S4096x128 ![] bcast_S_S4096x128 : (⟨S_, .f32⟩ : BufTy).Contents (Elt F) → (⟨S4096x128, .f32⟩ : BufTy).Contents (Elt F)),
    StableHlo.binary main_v44 main_v45 main_v46 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_4 (constant S_ .f32 0x3DCCCCCD#32),
    StableHlo.unary main_cst_4 main_v47 (broadcastInDim S4096x128 ![] bcast_S_S4096x128 : (⟨S_, .f32⟩ : BufTy).Contents (Elt F) → (⟨S4096x128, .f32⟩ : BufTy).Contents (Elt F)),
    StableHlo.binary main_v47 main_v44 main_v48 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v46) (.of main_v44) (.of main_v48) main_call6.v0 select,
    StableHlo.unary main_arg8 main_v50 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v50 main_v51 rfl shapeCasts_S1x128x128_S128x128,
    StableHlo.unary main_arg9 main_v52 ((extractStridedSlice S1x128 ![3, 0] · slices_S4x128_S1x128_3_0) : (⟨S4x128, .f32⟩ : BufTy).Contents (Elt F) → (⟨S1x128, .f32⟩ : BufTy).Contents (Elt F)),
    StableHlo.reshape main_v52 main_v53 rfl shapeCasts_S1x128_S128 ]

set_option maxRecDepth 8192 in
/-- The statements ARE the list run in order: the callees unfolded at their calls, the sequencing reassociated. -/
theorem main_part0_eq (c : Dev nD) : main_part0 (F := F) c = seq ops_part0 := by
  simp only [main_part0, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part0_sub : (ops_part0 : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., reshape_bufs_sub ..,
    unary_bufs_sub .., reshape_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., reshape_bufs_sub .., unary_bufs_sub .., reshape_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., reshape_bufs_sub .., unary_bufs_sub .., reshape_bufs_sub ..⟩

/-- No operation allocates a buffer. -/
theorem ops_part0_fresh : (ops_part0 : List (HloOp τ sig (Elt F))).Forall fun op => op.fresh = ∅ := by
  simp only [List.Forall]; repeat' constructor

/-- The buffers the operations write, in program order. -/
abbrev ops_part0_W : List (Ref sig .tc) :=
  [ main_v0, main_call0.c.ref, main_call0.v0.ref, main_call0.v1.ref, main_call0.c_0.ref, main_call0.v2.ref, main_call0.v3.ref, main_call0.call0.v0.ref,
    main_call0.v5.ref, main_call0.c_1.ref, main_call0.c_2.ref, main_call0.v6.ref, main_call0.v7.ref, main_call0.v8.ref, main_call0.v9.ref, main_call0.v10.ref,
    main_call0.v11.ref, main_call0.c_3.ref, main_call0.v12.ref, main_call0.v13.ref, main_call0.v14.ref, main_call0.cst.ref, main_call0.v15.ref, main_call0.v16.ref,
    main_v2, main_call1.c.ref, main_call1.v0.ref, main_call1.v1.ref, main_call1.c_0.ref, main_call1.v2.ref, main_call1.v3.ref, main_call1.call0.v0.ref,
    main_call1.v5.ref, main_call1.c_1.ref, main_call1.c_2.ref, main_call1.v6.ref, main_call1.v7.ref, main_call1.v8.ref, main_call1.v9.ref, main_call1.v10.ref,
    main_call1.v11.ref, main_call1.c_3.ref, main_call1.v12.ref, main_call1.v13.ref, main_call1.v14.ref, main_call1.cst.ref, main_call1.v15.ref, main_call1.v16.ref,
    main_v4, main_call2.c.ref, main_call2.v0.ref, main_call2.v1.ref, main_call2.c_0.ref, main_call2.v2.ref, main_call2.v3.ref, main_call2.call0.v0.ref,
    main_call2.v5.ref, main_call2.c_1.ref, main_call2.c_2.ref, main_call2.v6.ref, main_call2.v7.ref, main_call2.v8.ref, main_call2.v9.ref, main_call2.v10.ref,
    main_call2.v11.ref, main_call2.c_3.ref, main_call2.v12.ref, main_call2.v13.ref, main_call2.v14.ref, main_call2.cst.ref, main_call2.v15.ref, main_call2.v16.ref,
    main_v6, main_call3.c.ref, main_call3.v0.ref, main_call3.v1.ref, main_call3.c_0.ref, main_call3.v2.ref, main_call3.v3.ref, main_call3.call0.v0.ref,
    main_call3.v5.ref, main_call3.c_1.ref, main_call3.c_2.ref, main_call3.v6.ref, main_call3.v7.ref, main_call3.v8.ref, main_call3.v9.ref, main_call3.v10.ref,
    main_call3.v11.ref, main_call3.c_3.ref, main_call3.v12.ref, main_call3.v13.ref, main_call3.v14.ref, main_call3.cst.ref, main_call3.v15.ref, main_call3.v16.ref,
    main_v8, main_v9, main_v10, main_v11, main_v12, main_v13, main_v14, main_v15,
    main_v16, main_cst, main_v17, main_v18, main_cst_0, main_v19, main_v20, main_call4.v0.ref,
    main_v22, main_v23, main_v24, main_v25, main_v26, main_v27, main_v28, main_v29,
    main_v30, main_cst_1, main_v31, main_v32, main_cst_2, main_v33, main_v34, main_call5.v0.ref,
    main_v36, main_v37, main_v38, main_v39, main_v40, main_v41, main_v42, main_v43,
    main_v44, main_cst_3, main_v45, main_v46, main_cst_4, main_v47, main_v48, main_call6.v0.ref,
    main_v50, main_v51, main_v52, main_v53 ]

/-- Each operation writes only its own result buffer, which the list holds. -/
theorem ops_part0_writes : (ops_part0 : List (HloOp τ sig (Elt F))).Forall fun op =>
    op.writes ⊆ (ops_part0_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part0 (V : Valuation τ sig (Elt F)) (r : Ref sig .tc) (h : r ∉ ops_part0_W) :
    after ops_part0 V (Proc.devRef .tc r) = V (Proc.devRef .tc r) :=
  after_of_writes_sub ops_part0 V ops_part0_writes h

end Cert.ReferenceIdeal.RunValue

end
-- ==== Proof.RefOps1.lean ====
/-
  The idealized reference's @main, statements 61 … 120 of 451, as a list of its 64 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 61 … 120, in order. -/
abbrev ops_part1 : List (HloOp τ sig (Elt F)) :=
  [ StableHlo.binary main_v35 main_v51 main_v54 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v54 main_v55 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v53 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S8192x128 ![0, 1] bcast_S1x128_S8192x128_0_1 : (⟨S1x128, .f32⟩ : BufTy).Contents (Elt F) → (⟨S8192x128, .f32⟩ : BufTy).Contents (Elt F)),
    StableHlo.binary main_v55 main_v57 main_v58 (addf : (⟨S8192x128, .f32⟩ : BufTy).Contents (Elt F) → (⟨S8192x128, .f32⟩ : BufTy).Contents (Elt F) → (⟨S8192x128, .f32⟩ : BufTy).Contents (Elt F)),
    StableHlo.nullary main_cst_5 (constant S_ .f32 0x00000000#32),
    StableHlo.unary main_cst_5 main_v59 (broadcastInDim S8192x128 ![] bcast_S_S8192x128 : (⟨S_, .f32⟩ : BufTy).Contents (Elt F) → (⟨S8192x128, .f32⟩ : BufTy).Contents (Elt F)),
    StableHlo.binary main_v58 main_v59 main_v60 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_6 (constant S_ .f32 0x3DCCCCCD#32),
    StableHlo.unary main_cst_6 main_v61 (broadcastInDim S8192x128 ![] bcast_S_S8192x128 : (⟨S_, .f32⟩ : BufTy).Contents (Elt F) → (⟨S8192x128, .f32⟩ : BufTy).Contents (Elt F)),
    StableHlo.binary main_v61 main_v58 main_v62 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v60) (.of main_v58) (.of main_v62) main_call7.v0 select,
    StableHlo.binary main_v49 main_v1 main_v64 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg10 main_v65 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v65 main_v66 rfl shapeCasts_S1x256x128_S256x128,
    StableHlo.binary main_v64 main_v66 main_v67 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg11 main_v68 ((extractStridedSlice S1x128 ![0, 0] · slices_S2x128_S1x128_0_0) : (⟨S2x128, .f32⟩ : BufTy).Contents (Elt F) → (⟨S1x128, .f32⟩ : BufTy).Contents (Elt F)),
    StableHlo.reshape main_v68 main_v69 rfl shapeCasts_S1x128_S128,
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S4096x128 ![0, 1] bcast_S1x128_S4096x128_0_1 : (⟨S1x128, .f32⟩ : BufTy).Contents (Elt F) → (⟨S4096x128, .f32⟩ : BufTy).Contents (Elt F)),
    StableHlo.binary main_v67 main_v71 main_v72 (addf : (⟨S4096x128, .f32⟩ : BufTy).Contents (Elt F) → (⟨S4096x128, .f32⟩ : BufTy).Contents (Elt F) → (⟨S4096x128, .f32⟩ : BufTy).Contents (Elt F)),
    StableHlo.binary main_v63 main_v3 main_v73 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg10 main_v74 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v74 main_v75 rfl shapeCasts_S1x256x128_S256x128,
    StableHlo.binary main_v73 main_v75 main_v76 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg11 main_v77 ((extractStridedSlice S1x128 ![1, 0] · slices_S2x128_S1x128_1_0) : (⟨S2x128, .f32⟩ : BufTy).Contents (Elt F) → (⟨S1x128, .f32⟩ : BufTy).Contents (Elt F)),
    StableHlo.reshape main_v77 main_v78 rfl shapeCasts_S1x128_S128,
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S8192x128 ![0, 1] bcast_S1x128_S8192x128_0_1 : (⟨S1x128, .f32⟩ : BufTy).Contents (Elt F) → (⟨S8192x128, .f32⟩ : BufTy).Contents (Elt F)),
    StableHlo.binary main_v76 main_v80 main_v81 (addf : (⟨S8192x128, .f32⟩ : BufTy).Contents (Elt F) → (⟨S8192x128, .f32⟩ : BufTy).Contents (Elt F) → (⟨S8192x128, .f32⟩ : BufTy).Contents (Elt F)),
    StableHlo.TRef.nullary main_call8.cst (constant S_ .f32 0x00000000#32),
    StableHlo.TRef.unary main_call8.cst main_call8.v0 (broadcastInDim S4096x128 ![] bcast_S_S4096x128),
    StableHlo.TRef.binary (.of main_v72) main_call8.v0 main_call8.v1 maximumf,
    StableHlo.TRef.nullary main_call9.cst (constant S_ .f32 0x00000000#32),
    StableHlo.TRef.unary main_call9.cst main_call9.v0 (broadcastInDim S8192x128 ![] bcast_S_S8192x128),
    StableHlo.TRef.binary (.of main_v81) main_call9.v0 main_call9.v1 maximumf,
    StableHlo.unary main_arg12 main_v84 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v84 main_v85 rfl shapeCasts_S1x128x128_S128x128,
    StableHlo.unary main_arg13 main_v86 ((extractStridedSlice S1x128 ![0, 0] · slices_S6x128_S1x128_0_0) : (⟨S6x128, .f32⟩ : BufTy).Contents (Elt F) → (⟨S1x128, .f32⟩ : BufTy).Contents (Elt F)),
    StableHlo.reshape main_v86 main_v87 rfl shapeCasts_S1x128_S128,
    StableHlo.binary main_v82 main_v85 main_v88 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v88 main_v89 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v87 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S8192x128 ![0, 1] bcast_S1x128_S8192x128_0_1 : (⟨S1x128, .f32⟩ : BufTy).Contents (Elt F) → (⟨S8192x128, .f32⟩ : BufTy).Contents (Elt F)),
    StableHlo.binary main_v89 main_v91 main_v92 (addf : (⟨S8192x128, .f32⟩ : BufTy).Contents (Elt F) → (⟨S8192x128, .f32⟩ : BufTy).Contents (Elt F) → (⟨S8192x128, .f32⟩ : BufTy).Contents (Elt F)),
    StableHlo.nullary main_cst_7 (constant S_ .f32 0x00000000#32),
    StableHlo.unary main_cst_7 main_v93 (broadcastInDim S8192x128 ![] bcast_S_S8192x128 : (⟨S_, .f32⟩ : BufTy).Contents (Elt F) → (⟨S8192x128, .f32⟩ : BufTy).Contents (Elt F)),
    StableHlo.binary main_v92 main_v93 main_v94 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_8 (constant S_ .f32 0x3DCCCCCD#32),
    StableHlo.unary main_cst_8 main_v95 (broadcastInDim S8192x128 ![] bcast_S_S8192x128 : (⟨S_, .f32⟩ : BufTy).Contents (Elt F) → (⟨S8192x128, .f32⟩ : BufTy).Contents (Elt F)),
    StableHlo.binary main_v95 main_v92 main_v96 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v94) (.of main_v92) (.of main_v96) main_call10.v0 select,
    StableHlo.unary main_arg12 main_v98 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v98 main_v99 rfl shapeCasts_S1x128x128_S128x128,
    StableHlo.unary main_arg13 main_v100 ((extractStridedSlice S1x128 ![1, 0] · slices_S6x128_S1x128_1_0) : (⟨S6x128, .f32⟩ : BufTy).Contents (Elt F) → (⟨S1x128, .f32⟩ : BufTy).Contents (Elt F)),
    StableHlo.reshape main_v100 main_v101 rfl shapeCasts_S1x128_S128,
    StableHlo.binary main_v83 main_v99 main_v102 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v102 main_v103 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v101 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S4096x128 ![0, 1] bcast_S1x128_S4096x128_0_1 : (⟨S1x128, .f32⟩ : BufTy).Contents (Elt F) → (⟨S4096x128, .f32⟩ : BufTy).Contents (Elt F)),
    StableHlo.binary main_v103 main_v105 main_v106 (addf : (⟨S4096x128, .f32⟩ : BufTy).Contents (Elt F) → (⟨S4096x128, .f32⟩ : BufTy).Contents (Elt F) → (⟨S4096x128, .f32⟩ : BufTy).Contents (Elt F)),
    StableHlo.nullary main_cst_9 (constant S_ .f32 0x00000000#32),
    StableHlo.unary main_cst_9 main_v107 (broadcastInDim S4096x128 ![] bcast_S_S4096x128 : (⟨S_, .f32⟩ : BufTy).Contents (Elt F) → (⟨S4096x128, .f32⟩ : BufTy).Contents (Elt F)),
    StableHlo.binary main_v106 main_v107 main_v108 (cmpf .ogt : (⟨S4096x128, .f32⟩ : BufTy).Contents (Elt F) → (⟨S4096x128, .f32⟩ : BufTy).Contents (Elt F) → (⟨S4096x128, .i1⟩ : BufTy).Contents (Elt F)) ]

set_option maxRecDepth 8192 in
/-- The statements ARE the list run in order: the callees unfolded at their calls, the sequencing reassociated. -/
theorem main_part1_eq (c : Dev nD) : main_part1 (F := F) c = seq ops_part1 := by
  simp only [main_part1, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part1_sub : (ops_part1 : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., nullary_bufs_sub .., unary_bufs_sub .., binary_bufs_sub ..,
    unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., reshape_bufs_sub ..,
    unary_bufs_sub .., reshape_bufs_sub .., binary_bufs_sub .., binary_bufs_sub .., unary_bufs_sub .., unary_bufs_sub ..,
    binary_bufs_sub .., nullary_bufs_sub .., unary_bufs_sub .., binary_bufs_sub ..⟩

/-- No operation allocates a buffer. -/
theorem ops_part1_fresh : (ops_part1 : List (HloOp τ sig (Elt F))).Forall fun op => op.fresh = ∅ := by
  simp only [List.Forall]; repeat' constructor

/-- The buffers the operations write, in program order. -/
abbrev ops_part1_W : List (Ref sig .tc) :=
  [ main_v54, main_v55, main_v56, main_v57, main_v58, main_cst_5, main_v59, main_v60,
    main_cst_6, main_v61, main_v62, main_call7.v0.ref, main_v64, main_v65, main_v66, main_v67,
    main_v68, main_v69, main_v70, main_v71, main_v72, main_v73, main_v74, main_v75,
    main_v76, main_v77, main_v78, main_v79, main_v80, main_v81, main_call8.cst.ref, main_call8.v0.ref,
    main_call8.v1.ref, main_call9.cst.ref, main_call9.v0.ref, main_call9.v1.ref, main_v84, main_v85, main_v86, main_v87,
    main_v88, main_v89, main_v90, main_v91, main_v92, main_cst_7, main_v93, main_v94,
    main_cst_8, main_v95, main_v96, main_call10.v0.ref, main_v98, main_v99, main_v100, main_v101,
    main_v102, main_v103, main_v104, main_v105, main_v106, main_cst_9, main_v107, main_v108 ]

/-- Each operation writes only its own result buffer, which the list holds. -/
theorem ops_part1_writes : (ops_part1 : List (HloOp τ sig (Elt F))).Forall fun op =>
    op.writes ⊆ (ops_part1_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part1 (V : Valuation τ sig (Elt F)) (r : Ref sig .tc) (h : r ∉ ops_part1_W) :
    after ops_part1 V (Proc.devRef .tc r) = V (Proc.devRef .tc r) :=
  after_of_writes_sub ops_part1 V ops_part1_writes h

end Cert.ReferenceIdeal.RunValue

end
-- ==== Proof.RefOps2.lean ====
/-
  The idealized reference's @main, statements 121 … 180 of 451, as a list of its 60 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 121 … 180, in order. -/
abbrev ops_part2 : List (HloOp τ sig (Elt F)) :=
  [ StableHlo.nullary main_cst_10 (constant S_ .f32 0x3DCCCCCD#32),
    StableHlo.unary main_cst_10 main_v109 (broadcastInDim S4096x128 ![] bcast_S_S4096x128 : (⟨S_, .f32⟩ : BufTy).Contents (Elt F) → (⟨S4096x128, .f32⟩ : BufTy).Contents (Elt F)),
    StableHlo.binary main_v109 main_v106 main_v110 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v108) (.of main_v106) (.of main_v110) main_call11.v0 select,
    StableHlo.unary main_arg12 main_v112 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v112 main_v113 rfl shapeCasts_S1x128x128_S128x128,
    StableHlo.unary main_arg13 main_v114 ((extractStridedSlice S1x128 ![2, 0] · slices_S6x128_S1x128_2_0) : (⟨S6x128, .f32⟩ : BufTy).Contents (Elt F) → (⟨S1x128, .f32⟩ : BufTy).Contents (Elt F)),
    StableHlo.reshape main_v114 main_v115 rfl shapeCasts_S1x128_S128,
    StableHlo.binary main_v97 main_v113 main_v116 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v116 main_v117 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v115 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S4096x128 ![0, 1] bcast_S1x128_S4096x128_0_1 : (⟨S1x128, .f32⟩ : BufTy).Contents (Elt F) → (⟨S4096x128, .f32⟩ : BufTy).Contents (Elt F)),
    StableHlo.binary main_v117 main_v119 main_v120 (addf : (⟨S4096x128, .f32⟩ : BufTy).Contents (Elt F) → (⟨S4096x128, .f32⟩ : BufTy).Contents (Elt F) → (⟨S4096x128, .f32⟩ : BufTy).Contents (Elt F)),
    StableHlo.nullary main_cst_11 (constant S_ .f32 0x00000000#32),
    StableHlo.unary main_cst_11 main_v121 (broadcastInDim S4096x128 ![] bcast_S_S4096x128 : (⟨S_, .f32⟩ : BufTy).Contents (Elt F) → (⟨S4096x128, .f32⟩ : BufTy).Contents (Elt F)),
    StableHlo.binary main_v120 main_v121 main_v122 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_12 (constant S_ .f32 0x3DCCCCCD#32),
    StableHlo.unary main_cst_12 main_v123 (broadcastInDim S4096x128 ![] bcast_S_S4096x128 : (⟨S_, .f32⟩ : BufTy).Contents (Elt F) → (⟨S4096x128, .f32⟩ : BufTy).Contents (Elt F)),
    StableHlo.binary main_v123 main_v120 main_v124 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v122) (.of main_v120) (.of main_v124) main_call12.v0 select,
    StableHlo.binary main_v125 main_v82 main_v126 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg14 main_v127 ((extractStridedSlice S1x256x128 ![0, 0, 0] · slices_S4x256x128_S1x256x128_0_0_0) : (⟨S4x256x128, .f32⟩ : BufTy).Contents (Elt F) → (⟨S1x256x128, .f32⟩ : BufTy).Contents (Elt F)),
    StableHlo.reshape main_v127 main_v128 rfl shapeCasts_S1x256x128_S256x128,
    StableHlo.binary main_v126 main_v128 main_v129 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg15 main_v130 ((extractStridedSlice S1x128 ![0, 0] · slices_S4x128_S1x128_0_0) : (⟨S4x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S4096x128 ![0, 1] bcast_S1x128_S4096x128_0_1 : (⟨S1x128, .f32⟩ : BufTy).Contents (Elt F) → (⟨S4096x128, .f32⟩ : BufTy).Contents (Elt F)),
    StableHlo.binary main_v129 main_v133 main_v134 (addf : (⟨S4096x128, .f32⟩ : BufTy).Contents (Elt F) → (⟨S4096x128, .f32⟩ : BufTy).Contents (Elt F) → (⟨S4096x128, .f32⟩ : BufTy).Contents (Elt F)),
    StableHlo.unary main_arg12 main_v135 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v135 main_v136 rfl shapeCasts_S1x128x128_S128x128,
    StableHlo.unary main_arg13 main_v137 ((extractStridedSlice S1x128 ![3, 0] · slices_S6x128_S1x128_3_0) : (⟨S6x128, .f32⟩ : BufTy).Contents (Elt F) → (⟨S1x128, .f32⟩ : BufTy).Contents (Elt F)),
    StableHlo.reshape main_v137 main_v138 rfl shapeCasts_S1x128_S128,
    StableHlo.binary main_v97 main_v136 main_v139 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v139 main_v140 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v138 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S4096x128 ![0, 1] bcast_S1x128_S4096x128_0_1 : (⟨S1x128, .f32⟩ : BufTy).Contents (Elt F) → (⟨S4096x128, .f32⟩ : BufTy).Contents (Elt F)),
    StableHlo.binary main_v140 main_v142 main_v143 (addf : (⟨S4096x128, .f32⟩ : BufTy).Contents (Elt F) → (⟨S4096x128, .f32⟩ : BufTy).Contents (Elt F) → (⟨S4096x128, .f32⟩ : BufTy).Contents (Elt F)),
    StableHlo.nullary main_cst_13 (constant S_ .f32 0x00000000#32),
    StableHlo.unary main_cst_13 main_v144 (broadcastInDim S4096x128 ![] bcast_S_S4096x128 : (⟨S_, .f32⟩ : BufTy).Contents (Elt F) → (⟨S4096x128, .f32⟩ : BufTy).Contents (Elt F)),
    StableHlo.binary main_v143 main_v144 main_v145 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_14 (constant S_ .f32 0x3DCCCCCD#32),
    StableHlo.unary main_cst_14 main_v146 (broadcastInDim S4096x128 ![] bcast_S_S4096x128 : (⟨S_, .f32⟩ : BufTy).Contents (Elt F) → (⟨S4096x128, .f32⟩ : BufTy).Contents (Elt F)),
    StableHlo.binary main_v146 main_v143 main_v147 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v145) (.of main_v143) (.of main_v147) main_call13.v0 select,
    StableHlo.binary main_v148 main_v82 main_v149 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg14 main_v150 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v150 main_v151 rfl shapeCasts_S1x256x128_S256x128,
    StableHlo.binary main_v149 main_v151 main_v152 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg15 main_v153 ((extractStridedSlice S1x128 ![1, 0] · slices_S4x128_S1x128_1_0) : (⟨S4x128, .f32⟩ : BufTy).Contents (Elt F) → (⟨S1x128, .f32⟩ : BufTy).Contents (Elt F)),
    StableHlo.reshape main_v153 main_v154 rfl shapeCasts_S1x128_S128,
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S4096x128 ![0, 1] bcast_S1x128_S4096x128_0_1 : (⟨S1x128, .f32⟩ : BufTy).Contents (Elt F) → (⟨S4096x128, .f32⟩ : BufTy).Contents (Elt F)),
    StableHlo.binary main_v152 main_v156 main_v157 (addf : (⟨S4096x128, .f32⟩ : BufTy).Contents (Elt F) → (⟨S4096x128, .f32⟩ : BufTy).Contents (Elt F) → (⟨S4096x128, .f32⟩ : BufTy).Contents (Elt F)),
    StableHlo.unary main_arg12 main_v158 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v158 main_v159 rfl shapeCasts_S1x128x128_S128x128,
    StableHlo.unary main_arg13 main_v160 ((extractStridedSlice S1x128 ![4, 0] · slices_S6x128_S1x128_4_0) : (⟨S6x128, .f32⟩ : BufTy).Contents (Elt F) → (⟨S1x128, .f32⟩ : BufTy).Contents (Elt F)),
    StableHlo.reshape main_v160 main_v161 rfl shapeCasts_S1x128_S128,
    StableHlo.binary main_v111 main_v159 main_v162 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v162 main_v163 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)) ]

set_option maxRecDepth 8192 in
/-- The statements ARE the list run in order: the callees unfolded at their calls, the sequencing reassociated. -/
theorem main_part2_eq (c : Dev nD) : main_part2 (F := F) c = seq ops_part2 := by
  simp only [main_part2, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part2_sub : (ops_part2 : List (HloOp τ sig (Elt F))).Forall fun op => op.bufs ⊆ tcRefs τ sig :=
  ⟨nullary_bufs_sub .., unary_bufs_sub .., binary_bufs_sub .., ternary_bufs_sub .., unary_bufs_sub .., reshape_bufs_sub ..,
    unary_bufs_sub .., reshape_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., binary_bufs_sub .., binary_bufs_sub ..⟩

/-- No operation allocates a buffer. -/
theorem ops_part2_fresh : (ops_part2 : List (HloOp τ sig (Elt F))).Forall fun op => op.fresh = ∅ := by
  simp only [List.Forall]; repeat' constructor

/-- The buffers the operations write, in program order. -/
abbrev ops_part2_W : List (Ref sig .tc) :=
  [ main_cst_10, main_v109, main_v110, main_call11.v0.ref, main_v112, main_v113, main_v114, main_v115,
    main_v116, main_v117, main_v118, main_v119, main_v120, main_cst_11, main_v121, main_v122,
    main_cst_12, main_v123, main_v124, main_call12.v0.ref, main_v126, main_v127, main_v128, main_v129,
    main_v130, main_v131, main_v132, main_v133, main_v134, main_v135, main_v136, main_v137,
    main_v138, main_v139, main_v140, main_v141, main_v142, main_v143, main_cst_13, main_v144,
    main_v145, main_cst_14, main_v146, main_v147, main_call13.v0.ref, main_v149, main_v150, main_v151,
    main_v152, main_v153, main_v154, main_v155, main_v156, main_v157, main_v158, main_v159,
    main_v160, main_v161, main_v162, main_v163 ]

/-- Each operation writes only its own result buffer, which the list holds. -/
theorem ops_part2_writes : (ops_part2 : List (HloOp τ sig (Elt F))).Forall fun op =>
    op.writes ⊆ (ops_part2_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part2 (V : Valuation τ sig (Elt F)) (r : Ref sig .tc) (h : r ∉ ops_part2_W) :
    after ops_part2 V (Proc.devRef .tc r) = V (Proc.devRef .tc r) :=
  after_of_writes_sub ops_part2 V ops_part2_writes h

end Cert.ReferenceIdeal.RunValue

end
-- ==== Proof.RefOps3.lean ====
/-
  The idealized reference's @main, statements 181 … 240 of 451, as a list of its 60 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 181 … 240, in order. -/
abbrev ops_part3 : List (HloOp τ sig (Elt F)) :=
  [ StableHlo.unary main_v161 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S8192x128 ![0, 1] bcast_S1x128_S8192x128_0_1 : (⟨S1x128, .f32⟩ : BufTy).Contents (Elt F) → (⟨S8192x128, .f32⟩ : BufTy).Contents (Elt F)),
    StableHlo.binary main_v163 main_v165 main_v166 (addf : (⟨S8192x128, .f32⟩ : BufTy).Contents (Elt F) → (⟨S8192x128, .f32⟩ : BufTy).Contents (Elt F) → (⟨S8192x128, .f32⟩ : BufTy).Contents (Elt F)),
    StableHlo.nullary main_cst_15 (constant S_ .f32 0x00000000#32),
    StableHlo.unary main_cst_15 main_v167 (broadcastInDim S8192x128 ![] bcast_S_S8192x128 : (⟨S_, .f32⟩ : BufTy).Contents (Elt F) → (⟨S8192x128, .f32⟩ : BufTy).Contents (Elt F)),
    StableHlo.binary main_v166 main_v167 main_v168 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_16 (constant S_ .f32 0x3DCCCCCD#32),
    StableHlo.unary main_cst_16 main_v169 (broadcastInDim S8192x128 ![] bcast_S_S8192x128 : (⟨S_, .f32⟩ : BufTy).Contents (Elt F) → (⟨S8192x128, .f32⟩ : BufTy).Contents (Elt F)),
    StableHlo.binary main_v169 main_v166 main_v170 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v168) (.of main_v166) (.of main_v170) main_call14.v0 select,
    StableHlo.binary main_v171 main_v83 main_v172 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg14 main_v173 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v173 main_v174 rfl shapeCasts_S1x256x128_S256x128,
    StableHlo.binary main_v172 main_v174 main_v175 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg15 main_v176 ((extractStridedSlice S1x128 ![2, 0] · slices_S4x128_S1x128_2_0) : (⟨S4x128, .f32⟩ : BufTy).Contents (Elt F) → (⟨S1x128, .f32⟩ : BufTy).Contents (Elt F)),
    StableHlo.reshape main_v176 main_v177 rfl shapeCasts_S1x128_S128,
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S8192x128 ![0, 1] bcast_S1x128_S8192x128_0_1 : (⟨S1x128, .f32⟩ : BufTy).Contents (Elt F) → (⟨S8192x128, .f32⟩ : BufTy).Contents (Elt F)),
    StableHlo.binary main_v175 main_v179 main_v180 (addf : (⟨S8192x128, .f32⟩ : BufTy).Contents (Elt F) → (⟨S8192x128, .f32⟩ : BufTy).Contents (Elt F) → (⟨S8192x128, .f32⟩ : BufTy).Contents (Elt F)),
    StableHlo.unary main_arg12 main_v181 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v181 main_v182 rfl shapeCasts_S1x128x128_S128x128,
    StableHlo.unary main_arg13 main_v183 ((extractStridedSlice S1x128 ![5, 0] · slices_S6x128_S1x128_5_0) : (⟨S6x128, .f32⟩ : BufTy).Contents (Elt F) → (⟨S1x128, .f32⟩ : BufTy).Contents (Elt F)),
    StableHlo.reshape main_v183 main_v184 rfl shapeCasts_S1x128_S128,
    StableHlo.binary main_v111 main_v182 main_v185 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v185 main_v186 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v184 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S8192x128 ![0, 1] bcast_S1x128_S8192x128_0_1 : (⟨S1x128, .f32⟩ : BufTy).Contents (Elt F) → (⟨S8192x128, .f32⟩ : BufTy).Contents (Elt F)),
    StableHlo.binary main_v186 main_v188 main_v189 (addf : (⟨S8192x128, .f32⟩ : BufTy).Contents (Elt F) → (⟨S8192x128, .f32⟩ : BufTy).Contents (Elt F) → (⟨S8192x128, .f32⟩ : BufTy).Contents (Elt F)),
    StableHlo.nullary main_cst_17 (constant S_ .f32 0x00000000#32),
    StableHlo.unary main_cst_17 main_v190 (broadcastInDim S8192x128 ![] bcast_S_S8192x128 : (⟨S_, .f32⟩ : BufTy).Contents (Elt F) → (⟨S8192x128, .f32⟩ : BufTy).Contents (Elt F)),
    StableHlo.binary main_v189 main_v190 main_v191 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_18 (constant S_ .f32 0x3DCCCCCD#32),
    StableHlo.unary main_cst_18 main_v192 (broadcastInDim S8192x128 ![] bcast_S_S8192x128 : (⟨S_, .f32⟩ : BufTy).Contents (Elt F) → (⟨S8192x128, .f32⟩ : BufTy).Contents (Elt F)),
    StableHlo.binary main_v192 main_v189 main_v193 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v191) (.of main_v189) (.of main_v193) main_call15.v0 select,
    StableHlo.binary main_v194 main_v83 main_v195 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg14 main_v196 ((extractStridedSlice S1x256x128 ![3, 0, 0] · slices_S4x256x128_S1x256x128_3_0_0) : (⟨S4x256x128, .f32⟩ : BufTy).Contents (Elt F) → (⟨S1x256x128, .f32⟩ : BufTy).Contents (Elt F)),
    StableHlo.reshape main_v196 main_v197 rfl shapeCasts_S1x256x128_S256x128,
    StableHlo.binary main_v195 main_v197 main_v198 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg15 main_v199 ((extractStridedSlice S1x128 ![3, 0] · slices_S4x128_S1x128_3_0) : (⟨S4x128, .f32⟩ : BufTy).Contents (Elt F) → (⟨S1x128, .f32⟩ : BufTy).Contents (Elt F)),
    StableHlo.reshape main_v199 main_v200 rfl shapeCasts_S1x128_S128,
    StableHlo.unary main_v200 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S8192x128 ![0, 1] bcast_S1x128_S8192x128_0_1 : (⟨S1x128, .f32⟩ : BufTy).Contents (Elt F) → (⟨S8192x128, .f32⟩ : BufTy).Contents (Elt F)),
    StableHlo.binary main_v198 main_v202 main_v203 (addf : (⟨S8192x128, .f32⟩ : BufTy).Contents (Elt F) → (⟨S8192x128, .f32⟩ : BufTy).Contents (Elt F) → (⟨S8192x128, .f32⟩ : BufTy).Contents (Elt F)),
    StableHlo.binary main_v82 main_v134 main_v204 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.binary main_v83 main_v180 main_v205 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg16 main_v206 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v206 main_v207 rfl shapeCasts_S1x128x128_S128x128,
    StableHlo.unary main_arg17 main_v208 ((extractStridedSlice S1x128 ![0, 0] · slices_S4x128_S1x128_0_0) : (⟨S4x128, .f32⟩ : BufTy).Contents (Elt F) → (⟨S1x128, .f32⟩ : BufTy).Contents (Elt F)),
    StableHlo.reshape main_v208 main_v209 rfl shapeCasts_S1x128_S128,
    StableHlo.binary main_v5 main_v207 main_v210 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v210 main_v211 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v209 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S8192x128 ![0, 1] bcast_S1x128_S8192x128_0_1 : (⟨S1x128, .f32⟩ : BufTy).Contents (Elt F) → (⟨S8192x128, .f32⟩ : BufTy).Contents (Elt F)),
    StableHlo.binary main_v211 main_v213 main_v214 (addf : (⟨S8192x128, .f32⟩ : BufTy).Contents (Elt F) → (⟨S8192x128, .f32⟩ : BufTy).Contents (Elt F) → (⟨S8192x128, .f32⟩ : BufTy).Contents (Elt F)),
    StableHlo.nullary main_cst_19 (constant S_ .f32 0x00000000#32),
    StableHlo.unary main_cst_19 main_v215 (broadcastInDim S8192x128 ![] bcast_S_S8192x128 : (⟨S_, .f32⟩ : BufTy).Contents (Elt F) → (⟨S8192x128, .f32⟩ : BufTy).Contents (Elt F)),
    StableHlo.binary main_v214 main_v215 main_v216 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_20 (constant S_ .f32 0x3DCCCCCD#32),
    StableHlo.unary main_cst_20 main_v217 (broadcastInDim S8192x128 ![] bcast_S_S8192x128 : (⟨S_, .f32⟩ : BufTy).Contents (Elt F) → (⟨S8192x128, .f32⟩ : BufTy).Contents (Elt F)) ]

set_option maxRecDepth 8192 in
/-- The statements ARE the list run in order: the callees unfolded at their calls, the sequencing reassociated. -/
theorem main_part3_eq (c : Dev nD) : main_part3 (F := F) c = seq ops_part3 := by
  simp only [main_part3, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part3_sub : (ops_part3 : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., binary_bufs_sub .., binary_bufs_sub .., unary_bufs_sub .., reshape_bufs_sub ..,
    unary_bufs_sub .., reshape_bufs_sub .., binary_bufs_sub .., binary_bufs_sub .., unary_bufs_sub .., unary_bufs_sub ..,
    binary_bufs_sub .., nullary_bufs_sub .., unary_bufs_sub .., binary_bufs_sub .., nullary_bufs_sub .., unary_bufs_sub ..⟩

/-- No operation allocates a buffer. -/
theorem ops_part3_fresh : (ops_part3 : List (HloOp τ sig (Elt F))).Forall fun op => op.fresh = ∅ := by
  simp only [List.Forall]; repeat' constructor

/-- The buffers the operations write, in program order. -/
abbrev ops_part3_W : List (Ref sig .tc) :=
  [ main_v164, main_v165, main_v166, main_cst_15, main_v167, main_v168, main_cst_16, main_v169,
    main_v170, main_call14.v0.ref, main_v172, main_v173, main_v174, main_v175, main_v176, main_v177,
    main_v178, main_v179, main_v180, main_v181, main_v182, main_v183, main_v184, main_v185,
    main_v186, main_v187, main_v188, main_v189, main_cst_17, main_v190, main_v191, main_cst_18,
    main_v192, main_v193, main_call15.v0.ref, main_v195, main_v196, main_v197, main_v198, main_v199,
    main_v200, main_v201, main_v202, main_v203, main_v204, main_v205, main_v206, main_v207,
    main_v208, main_v209, main_v210, main_v211, main_v212, main_v213, main_v214, main_cst_19,
    main_v215, main_v216, main_cst_20, main_v217 ]

/-- Each operation writes only its own result buffer, which the list holds. -/
theorem ops_part3_writes : (ops_part3 : List (HloOp τ sig (Elt F))).Forall fun op =>
    op.writes ⊆ (ops_part3_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part3 (V : Valuation τ sig (Elt F)) (r : Ref sig .tc) (h : r ∉ ops_part3_W) :
    after ops_part3 V (Proc.devRef .tc r) = V (Proc.devRef .tc r) :=
  after_of_writes_sub ops_part3 V ops_part3_writes h

end Cert.ReferenceIdeal.RunValue

end
-- ==== Proof.RefOps4.lean ====
/-
  The idealized reference's @main, statements 241 … 300 of 451, as a list of its 60 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 241 … 300, in order. -/
abbrev ops_part4 : List (HloOp τ sig (Elt F)) :=
  [ StableHlo.binary main_v217 main_v214 main_v218 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v216) (.of main_v214) (.of main_v218) main_call16.v0 select,
    StableHlo.unary main_arg16 main_v220 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v220 main_v221 rfl shapeCasts_S1x128x128_S128x128,
    StableHlo.unary main_arg17 main_v222 ((extractStridedSlice S1x128 ![1, 0] · slices_S4x128_S1x128_1_0) : (⟨S4x128, .f32⟩ : BufTy).Contents (Elt F) → (⟨S1x128, .f32⟩ : BufTy).Contents (Elt F)),
    StableHlo.reshape main_v222 main_v223 rfl shapeCasts_S1x128_S128,
    StableHlo.binary main_v7 main_v221 main_v224 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v224 main_v225 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v223 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S4096x128 ![0, 1] bcast_S1x128_S4096x128_0_1 : (⟨S1x128, .f32⟩ : BufTy).Contents (Elt F) → (⟨S4096x128, .f32⟩ : BufTy).Contents (Elt F)),
    StableHlo.binary main_v225 main_v227 main_v228 (addf : (⟨S4096x128, .f32⟩ : BufTy).Contents (Elt F) → (⟨S4096x128, .f32⟩ : BufTy).Contents (Elt F) → (⟨S4096x128, .f32⟩ : BufTy).Contents (Elt F)),
    StableHlo.nullary main_cst_21 (constant S_ .f32 0x00000000#32),
    StableHlo.unary main_cst_21 main_v229 (broadcastInDim S4096x128 ![] bcast_S_S4096x128 : (⟨S_, .f32⟩ : BufTy).Contents (Elt F) → (⟨S4096x128, .f32⟩ : BufTy).Contents (Elt F)),
    StableHlo.binary main_v228 main_v229 main_v230 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_22 (constant S_ .f32 0x3DCCCCCD#32),
    StableHlo.unary main_cst_22 main_v231 (broadcastInDim S4096x128 ![] bcast_S_S4096x128 : (⟨S_, .f32⟩ : BufTy).Contents (Elt F) → (⟨S4096x128, .f32⟩ : BufTy).Contents (Elt F)),
    StableHlo.binary main_v231 main_v228 main_v232 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v230) (.of main_v228) (.of main_v232) main_call17.v0 select,
    StableHlo.unary main_arg16 main_v234 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v234 main_v235 rfl shapeCasts_S1x128x128_S128x128,
    StableHlo.unary main_arg17 main_v236 ((extractStridedSlice S1x128 ![2, 0] · slices_S4x128_S1x128_2_0) : (⟨S4x128, .f32⟩ : BufTy).Contents (Elt F) → (⟨S1x128, .f32⟩ : BufTy).Contents (Elt F)),
    StableHlo.reshape main_v236 main_v237 rfl shapeCasts_S1x128_S128,
    StableHlo.binary main_v219 main_v235 main_v238 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v238 main_v239 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v237 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S4096x128 ![0, 1] bcast_S1x128_S4096x128_0_1 : (⟨S1x128, .f32⟩ : BufTy).Contents (Elt F) → (⟨S4096x128, .f32⟩ : BufTy).Contents (Elt F)),
    StableHlo.binary main_v239 main_v241 main_v242 (addf : (⟨S4096x128, .f32⟩ : BufTy).Contents (Elt F) → (⟨S4096x128, .f32⟩ : BufTy).Contents (Elt F) → (⟨S4096x128, .f32⟩ : BufTy).Contents (Elt F)),
    StableHlo.nullary main_cst_23 (constant S_ .f32 0x00000000#32),
    StableHlo.unary main_cst_23 main_v243 (broadcastInDim S4096x128 ![] bcast_S_S4096x128 : (⟨S_, .f32⟩ : BufTy).Contents (Elt F) → (⟨S4096x128, .f32⟩ : BufTy).Contents (Elt F)),
    StableHlo.binary main_v242 main_v243 main_v244 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_24 (constant S_ .f32 0x3DCCCCCD#32),
    StableHlo.unary main_cst_24 main_v245 (broadcastInDim S4096x128 ![] bcast_S_S4096x128 : (⟨S_, .f32⟩ : BufTy).Contents (Elt F) → (⟨S4096x128, .f32⟩ : BufTy).Contents (Elt F)),
    StableHlo.binary main_v245 main_v242 main_v246 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v244) (.of main_v242) (.of main_v246) main_call18.v0 select,
    StableHlo.unary main_arg16 main_v248 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v248 main_v249 rfl shapeCasts_S1x128x128_S128x128,
    StableHlo.unary main_arg17 main_v250 ((extractStridedSlice S1x128 ![3, 0] · slices_S4x128_S1x128_3_0) : (⟨S4x128, .f32⟩ : BufTy).Contents (Elt F) → (⟨S1x128, .f32⟩ : BufTy).Contents (Elt F)),
    StableHlo.reshape main_v250 main_v251 rfl shapeCasts_S1x128_S128,
    StableHlo.binary main_v233 main_v249 main_v252 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v252 main_v253 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v251 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S8192x128 ![0, 1] bcast_S1x128_S8192x128_0_1 : (⟨S1x128, .f32⟩ : BufTy).Contents (Elt F) → (⟨S8192x128, .f32⟩ : BufTy).Contents (Elt F)),
    StableHlo.binary main_v253 main_v255 main_v256 (addf : (⟨S8192x128, .f32⟩ : BufTy).Contents (Elt F) → (⟨S8192x128, .f32⟩ : BufTy).Contents (Elt F) → (⟨S8192x128, .f32⟩ : BufTy).Contents (Elt F)),
    StableHlo.nullary main_cst_25 (constant S_ .f32 0x00000000#32),
    StableHlo.unary main_cst_25 main_v257 (broadcastInDim S8192x128 ![] bcast_S_S8192x128 : (⟨S_, .f32⟩ : BufTy).Contents (Elt F) → (⟨S8192x128, .f32⟩ : BufTy).Contents (Elt F)),
    StableHlo.binary main_v256 main_v257 main_v258 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_26 (constant S_ .f32 0x3DCCCCCD#32),
    StableHlo.unary main_cst_26 main_v259 (broadcastInDim S8192x128 ![] bcast_S_S8192x128 : (⟨S_, .f32⟩ : BufTy).Contents (Elt F) → (⟨S8192x128, .f32⟩ : BufTy).Contents (Elt F)),
    StableHlo.binary main_v259 main_v256 main_v260 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v258) (.of main_v256) (.of main_v260) main_call19.v0 select,
    StableHlo.binary main_v247 main_v5 main_v262 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg18 main_v263 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v263 main_v264 rfl shapeCasts_S1x256x128_S256x128,
    StableHlo.binary main_v262 main_v264 main_v265 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg19 main_v266 ((extractStridedSlice S1x128 ![0, 0] · slices_S2x128_S1x128_0_0) : (⟨S2x128, .f32⟩ : BufTy).Contents (Elt F) → (⟨S1x128, .f32⟩ : BufTy).Contents (Elt F)),
    StableHlo.reshape main_v266 main_v267 rfl shapeCasts_S1x128_S128,
    StableHlo.unary main_v267 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S4096x128 ![0, 1] bcast_S1x128_S4096x128_0_1 : (⟨S1x128, .f32⟩ : BufTy).Contents (Elt F) → (⟨S4096x128, .f32⟩ : BufTy).Contents (Elt F)),
    StableHlo.binary main_v265 main_v269 main_v270 (addf : (⟨S4096x128, .f32⟩ : BufTy).Contents (Elt F) → (⟨S4096x128, .f32⟩ : BufTy).Contents (Elt F) → (⟨S4096x128, .f32⟩ : BufTy).Contents (Elt F)),
    StableHlo.binary main_v261 main_v7 main_v271 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)) ]

set_option maxRecDepth 8192 in
/-- The statements ARE the list run in order: the callees unfolded at their calls, the sequencing reassociated. -/
theorem main_part4_eq (c : Dev nD) : main_part4 (F := F) c = seq ops_part4 := by
  simp only [main_part4, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part4_sub : (ops_part4 : List (HloOp τ sig (Elt F))).Forall fun op => op.bufs ⊆ tcRefs τ sig :=
  ⟨binary_bufs_sub .., ternary_bufs_sub .., unary_bufs_sub .., reshape_bufs_sub .., unary_bufs_sub .., reshape_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., reshape_bufs_sub ..,
    unary_bufs_sub .., reshape_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., binary_bufs_sub ..⟩

/-- No operation allocates a buffer. -/
theorem ops_part4_fresh : (ops_part4 : List (HloOp τ sig (Elt F))).Forall fun op => op.fresh = ∅ := by
  simp only [List.Forall]; repeat' constructor

/-- The buffers the operations write, in program order. -/
abbrev ops_part4_W : List (Ref sig .tc) :=
  [ main_v218, main_call16.v0.ref, main_v220, main_v221, main_v222, main_v223, main_v224, main_v225,
    main_v226, main_v227, main_v228, main_cst_21, main_v229, main_v230, main_cst_22, main_v231,
    main_v232, main_call17.v0.ref, main_v234, main_v235, main_v236, main_v237, main_v238, main_v239,
    main_v240, main_v241, main_v242, main_cst_23, main_v243, main_v244, main_cst_24, main_v245,
    main_v246, main_call18.v0.ref, main_v248, main_v249, main_v250, main_v251, main_v252, main_v253,
    main_v254, main_v255, main_v256, main_cst_25, main_v257, main_v258, main_cst_26, main_v259,
    main_v260, main_call19.v0.ref, main_v262, main_v263, main_v264, main_v265, main_v266, main_v267,
    main_v268, main_v269, main_v270, main_v271 ]

/-- Each operation writes only its own result buffer, which the list holds. -/
theorem ops_part4_writes : (ops_part4 : List (HloOp τ sig (Elt F))).Forall fun op =>
    op.writes ⊆ (ops_part4_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part4 (V : Valuation τ sig (Elt F)) (r : Ref sig .tc) (h : r ∉ ops_part4_W) :
    after ops_part4 V (Proc.devRef .tc r) = V (Proc.devRef .tc r) :=
  after_of_writes_sub ops_part4 V ops_part4_writes h

end Cert.ReferenceIdeal.RunValue

end
-- ==== Proof.RefOps5.lean ====
/-
  The idealized reference's @main, statements 301 … 360 of 451, as a list of its 64 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 301 … 360, in order. -/
abbrev ops_part5 : List (HloOp τ sig (Elt F)) :=
  [ StableHlo.unary main_arg18 main_v272 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v272 main_v273 rfl shapeCasts_S1x256x128_S256x128,
    StableHlo.binary main_v271 main_v273 main_v274 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg19 main_v275 ((extractStridedSlice S1x128 ![1, 0] · slices_S2x128_S1x128_1_0) : (⟨S2x128, .f32⟩ : BufTy).Contents (Elt F) → (⟨S1x128, .f32⟩ : BufTy).Contents (Elt F)),
    StableHlo.reshape main_v275 main_v276 rfl shapeCasts_S1x128_S128,
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S8192x128 ![0, 1] bcast_S1x128_S8192x128_0_1 : (⟨S1x128, .f32⟩ : BufTy).Contents (Elt F) → (⟨S8192x128, .f32⟩ : BufTy).Contents (Elt F)),
    StableHlo.binary main_v274 main_v278 main_v279 (addf : (⟨S8192x128, .f32⟩ : BufTy).Contents (Elt F) → (⟨S8192x128, .f32⟩ : BufTy).Contents (Elt F) → (⟨S8192x128, .f32⟩ : BufTy).Contents (Elt F)),
    StableHlo.TRef.nullary main_call20.cst (constant S_ .f32 0x00000000#32),
    StableHlo.TRef.unary main_call20.cst main_call20.v0 (broadcastInDim S4096x128 ![] bcast_S_S4096x128),
    StableHlo.TRef.binary (.of main_v270) main_call20.v0 main_call20.v1 maximumf,
    StableHlo.TRef.nullary main_call21.cst (constant S_ .f32 0x00000000#32),
    StableHlo.TRef.unary main_call21.cst main_call21.v0 (broadcastInDim S8192x128 ![] bcast_S_S8192x128),
    StableHlo.TRef.binary (.of main_v279) main_call21.v0 main_call21.v1 maximumf,
    StableHlo.unary main_arg20 main_v282 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v282 main_v283 rfl shapeCasts_S1x128x128_S128x128,
    StableHlo.unary main_arg21 main_v284 ((extractStridedSlice S1x128 ![0, 0] · slices_S6x128_S1x128_0_0) : (⟨S6x128, .f32⟩ : BufTy).Contents (Elt F) → (⟨S1x128, .f32⟩ : BufTy).Contents (Elt F)),
    StableHlo.reshape main_v284 main_v285 rfl shapeCasts_S1x128_S128,
    StableHlo.binary main_v280 main_v283 main_v286 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v286 main_v287 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v285 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S8192x128 ![0, 1] bcast_S1x128_S8192x128_0_1 : (⟨S1x128, .f32⟩ : BufTy).Contents (Elt F) → (⟨S8192x128, .f32⟩ : BufTy).Contents (Elt F)),
    StableHlo.binary main_v287 main_v289 main_v290 (addf : (⟨S8192x128, .f32⟩ : BufTy).Contents (Elt F) → (⟨S8192x128, .f32⟩ : BufTy).Contents (Elt F) → (⟨S8192x128, .f32⟩ : BufTy).Contents (Elt F)),
    StableHlo.nullary main_cst_27 (constant S_ .f32 0x00000000#32),
    StableHlo.unary main_cst_27 main_v291 (broadcastInDim S8192x128 ![] bcast_S_S8192x128 : (⟨S_, .f32⟩ : BufTy).Contents (Elt F) → (⟨S8192x128, .f32⟩ : BufTy).Contents (Elt F)),
    StableHlo.binary main_v290 main_v291 main_v292 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_28 (constant S_ .f32 0x3DCCCCCD#32),
    StableHlo.unary main_cst_28 main_v293 (broadcastInDim S8192x128 ![] bcast_S_S8192x128 : (⟨S_, .f32⟩ : BufTy).Contents (Elt F) → (⟨S8192x128, .f32⟩ : BufTy).Contents (Elt F)),
    StableHlo.binary main_v293 main_v290 main_v294 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v292) (.of main_v290) (.of main_v294) main_call22.v0 select,
    StableHlo.unary main_arg20 main_v296 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v296 main_v297 rfl shapeCasts_S1x128x128_S128x128,
    StableHlo.unary main_arg21 main_v298 ((extractStridedSlice S1x128 ![1, 0] · slices_S6x128_S1x128_1_0) : (⟨S6x128, .f32⟩ : BufTy).Contents (Elt F) → (⟨S1x128, .f32⟩ : BufTy).Contents (Elt F)),
    StableHlo.reshape main_v298 main_v299 rfl shapeCasts_S1x128_S128,
    StableHlo.binary main_v281 main_v297 main_v300 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v300 main_v301 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v299 main_v302 (broadcastInDim S1x128 ![1] bcast_S128_S1x128_1 : (⟨S128, .f32⟩ : BufTy).Contents (Elt F) → (⟨S1x128, .f32⟩ : BufTy).Contents (Elt F)),
    StableHlo.unary main_v302 main_v303 (broadcastInDim S4096x128 ![0, 1] bcast_S1x128_S4096x128_0_1 : (⟨S1x128, .f32⟩ : BufTy).Contents (Elt F) → (⟨S4096x128, .f32⟩ : BufTy).Contents (Elt F)),
    StableHlo.binary main_v301 main_v303 main_v304 (addf : (⟨S4096x128, .f32⟩ : BufTy).Contents (Elt F) → (⟨S4096x128, .f32⟩ : BufTy).Contents (Elt F) → (⟨S4096x128, .f32⟩ : BufTy).Contents (Elt F)),
    StableHlo.nullary main_cst_29 (constant S_ .f32 0x00000000#32),
    StableHlo.unary main_cst_29 main_v305 (broadcastInDim S4096x128 ![] bcast_S_S4096x128 : (⟨S_, .f32⟩ : BufTy).Contents (Elt F) → (⟨S4096x128, .f32⟩ : BufTy).Contents (Elt F)),
    StableHlo.binary main_v304 main_v305 main_v306 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_30 (constant S_ .f32 0x3DCCCCCD#32),
    StableHlo.unary main_cst_30 main_v307 (broadcastInDim S4096x128 ![] bcast_S_S4096x128 : (⟨S_, .f32⟩ : BufTy).Contents (Elt F) → (⟨S4096x128, .f32⟩ : BufTy).Contents (Elt F)),
    StableHlo.binary main_v307 main_v304 main_v308 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v306) (.of main_v304) (.of main_v308) main_call23.v0 select,
    StableHlo.unary main_arg20 main_v310 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v310 main_v311 rfl shapeCasts_S1x128x128_S128x128,
    StableHlo.unary main_arg21 main_v312 ((extractStridedSlice S1x128 ![2, 0] · slices_S6x128_S1x128_2_0) : (⟨S6x128, .f32⟩ : BufTy).Contents (Elt F) → (⟨S1x128, .f32⟩ : BufTy).Contents (Elt F)),
    StableHlo.reshape main_v312 main_v313 rfl shapeCasts_S1x128_S128,
    StableHlo.binary main_v295 main_v311 main_v314 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v314 main_v315 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v313 main_v316 (broadcastInDim S1x128 ![1] bcast_S128_S1x128_1 : (⟨S128, .f32⟩ : BufTy).Contents (Elt F) → (⟨S1x128, .f32⟩ : BufTy).Contents (Elt F)),
    StableHlo.unary main_v316 main_v317 (broadcastInDim S4096x128 ![0, 1] bcast_S1x128_S4096x128_0_1 : (⟨S1x128, .f32⟩ : BufTy).Contents (Elt F) → (⟨S4096x128, .f32⟩ : BufTy).Contents (Elt F)),
    StableHlo.binary main_v315 main_v317 main_v318 (addf : (⟨S4096x128, .f32⟩ : BufTy).Contents (Elt F) → (⟨S4096x128, .f32⟩ : BufTy).Contents (Elt F) → (⟨S4096x128, .f32⟩ : BufTy).Contents (Elt F)),
    StableHlo.nullary main_cst_31 (constant S_ .f32 0x00000000#32),
    StableHlo.unary main_cst_31 main_v319 (broadcastInDim S4096x128 ![] bcast_S_S4096x128 : (⟨S_, .f32⟩ : BufTy).Contents (Elt F) → (⟨S4096x128, .f32⟩ : BufTy).Contents (Elt F)),
    StableHlo.binary main_v318 main_v319 main_v320 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_32 (constant S_ .f32 0x3DCCCCCD#32),
    StableHlo.unary main_cst_32 main_v321 (broadcastInDim S4096x128 ![] bcast_S_S4096x128 : (⟨S_, .f32⟩ : BufTy).Contents (Elt F) → (⟨S4096x128, .f32⟩ : BufTy).Contents (Elt F)),
    StableHlo.binary main_v321 main_v318 main_v322 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v320) (.of main_v318) (.of main_v322) main_call24.v0 select,
    StableHlo.binary main_v323 main_v280 main_v324 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg22 main_v325 ((extractStridedSlice S1x256x128 ![0, 0, 0] · slices_S4x256x128_S1x256x128_0_0_0) : (⟨S4x256x128, .f32⟩ : BufTy).Contents (Elt F) → (⟨S1x256x128, .f32⟩ : BufTy).Contents (Elt F)) ]

set_option maxRecDepth 8192 in
/-- The statements ARE the list run in order: the callees unfolded at their calls, the sequencing reassociated. -/
theorem main_part5_eq (c : Dev nD) : main_part5 (F := F) c = seq ops_part5 := by
  simp only [main_part5, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part5_sub : (ops_part5 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., unary_bufs_sub .., reshape_bufs_sub .., unary_bufs_sub .., reshape_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., reshape_bufs_sub ..,
    unary_bufs_sub .., reshape_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub ..⟩

/-- No operation allocates a buffer. -/
theorem ops_part5_fresh : (ops_part5 : List (HloOp τ sig (Elt F))).Forall fun op => op.fresh = ∅ := by
  simp only [List.Forall]; repeat' constructor

/-- The buffers the operations write, in program order. -/
abbrev ops_part5_W : List (Ref sig .tc) :=
  [ main_v272, main_v273, main_v274, main_v275, main_v276, main_v277, main_v278, main_v279,
    main_call20.cst.ref, main_call20.v0.ref, main_call20.v1.ref, main_call21.cst.ref, main_call21.v0.ref, main_call21.v1.ref, main_v282, main_v283,
    main_v284, main_v285, main_v286, main_v287, main_v288, main_v289, main_v290, main_cst_27,
    main_v291, main_v292, main_cst_28, main_v293, main_v294, main_call22.v0.ref, main_v296, main_v297,
    main_v298, main_v299, main_v300, main_v301, main_v302, main_v303, main_v304, main_cst_29,
    main_v305, main_v306, main_cst_30, main_v307, main_v308, main_call23.v0.ref, main_v310, main_v311,
    main_v312, main_v313, main_v314, main_v315, main_v316, main_v317, main_v318, main_cst_31,
    main_v319, main_v320, main_cst_32, main_v321, main_v322, main_call24.v0.ref, main_v324, main_v325 ]

/-- Each operation writes only its own result buffer, which the list holds. -/
theorem ops_part5_writes : (ops_part5 : List (HloOp τ sig (Elt F))).Forall fun op =>
    op.writes ⊆ (ops_part5_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part5 (V : Valuation τ sig (Elt F)) (r : Ref sig .tc) (h : r ∉ ops_part5_W) :
    after ops_part5 V (Proc.devRef .tc r) = V (Proc.devRef .tc r) :=
  after_of_writes_sub ops_part5 V ops_part5_writes h

end Cert.ReferenceIdeal.RunValue

end
-- ==== Proof.RefOps6.lean ====
/-
  The idealized reference's @main, statements 361 … 420 of 451, as a list of its 60 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 361 … 420, in order. -/
abbrev ops_part6 : List (HloOp τ sig (Elt F)) :=
  [ StableHlo.reshape main_v325 main_v326 rfl shapeCasts_S1x256x128_S256x128,
    StableHlo.binary main_v324 main_v326 main_v327 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg23 main_v328 ((extractStridedSlice S1x128 ![0, 0] · slices_S4x128_S1x128_0_0) : (⟨S4x128, .f32⟩ : BufTy).Contents (Elt F) → (⟨S1x128, .f32⟩ : BufTy).Contents (Elt F)),
    StableHlo.reshape main_v328 main_v329 rfl shapeCasts_S1x128_S128,
    StableHlo.unary main_v329 main_v330 (broadcastInDim S1x128 ![1] bcast_S128_S1x128_1 : (⟨S128, .f32⟩ : BufTy).Contents (Elt F) → (⟨S1x128, .f32⟩ : BufTy).Contents (Elt F)),
    StableHlo.unary main_v330 main_v331 (broadcastInDim S4096x128 ![0, 1] bcast_S1x128_S4096x128_0_1 : (⟨S1x128, .f32⟩ : BufTy).Contents (Elt F) → (⟨S4096x128, .f32⟩ : BufTy).Contents (Elt F)),
    StableHlo.binary main_v327 main_v331 main_v332 (addf : (⟨S4096x128, .f32⟩ : BufTy).Contents (Elt F) → (⟨S4096x128, .f32⟩ : BufTy).Contents (Elt F) → (⟨S4096x128, .f32⟩ : BufTy).Contents (Elt F)),
    StableHlo.unary main_arg20 main_v333 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v333 main_v334 rfl shapeCasts_S1x128x128_S128x128,
    StableHlo.unary main_arg21 main_v335 ((extractStridedSlice S1x128 ![3, 0] · slices_S6x128_S1x128_3_0) : (⟨S6x128, .f32⟩ : BufTy).Contents (Elt F) → (⟨S1x128, .f32⟩ : BufTy).Contents (Elt F)),
    StableHlo.reshape main_v335 main_v336 rfl shapeCasts_S1x128_S128,
    StableHlo.binary main_v295 main_v334 main_v337 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v337 main_v338 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v336 main_v339 (broadcastInDim S1x128 ![1] bcast_S128_S1x128_1 : (⟨S128, .f32⟩ : BufTy).Contents (Elt F) → (⟨S1x128, .f32⟩ : BufTy).Contents (Elt F)),
    StableHlo.unary main_v339 main_v340 (broadcastInDim S4096x128 ![0, 1] bcast_S1x128_S4096x128_0_1 : (⟨S1x128, .f32⟩ : BufTy).Contents (Elt F) → (⟨S4096x128, .f32⟩ : BufTy).Contents (Elt F)),
    StableHlo.binary main_v338 main_v340 main_v341 (addf : (⟨S4096x128, .f32⟩ : BufTy).Contents (Elt F) → (⟨S4096x128, .f32⟩ : BufTy).Contents (Elt F) → (⟨S4096x128, .f32⟩ : BufTy).Contents (Elt F)),
    StableHlo.nullary main_cst_33 (constant S_ .f32 0x00000000#32),
    StableHlo.unary main_cst_33 main_v342 (broadcastInDim S4096x128 ![] bcast_S_S4096x128 : (⟨S_, .f32⟩ : BufTy).Contents (Elt F) → (⟨S4096x128, .f32⟩ : BufTy).Contents (Elt F)),
    StableHlo.binary main_v341 main_v342 main_v343 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_34 (constant S_ .f32 0x3DCCCCCD#32),
    StableHlo.unary main_cst_34 main_v344 (broadcastInDim S4096x128 ![] bcast_S_S4096x128 : (⟨S_, .f32⟩ : BufTy).Contents (Elt F) → (⟨S4096x128, .f32⟩ : BufTy).Contents (Elt F)),
    StableHlo.binary main_v344 main_v341 main_v345 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v343) (.of main_v341) (.of main_v345) main_call25.v0 select,
    StableHlo.binary main_v346 main_v280 main_v347 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg22 main_v348 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v348 main_v349 rfl shapeCasts_S1x256x128_S256x128,
    StableHlo.binary main_v347 main_v349 main_v350 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg23 main_v351 ((extractStridedSlice S1x128 ![1, 0] · slices_S4x128_S1x128_1_0) : (⟨S4x128, .f32⟩ : BufTy).Contents (Elt F) → (⟨S1x128, .f32⟩ : BufTy).Contents (Elt F)),
    StableHlo.reshape main_v351 main_v352 rfl shapeCasts_S1x128_S128,
    StableHlo.unary main_v352 main_v353 (broadcastInDim S1x128 ![1] bcast_S128_S1x128_1 : (⟨S128, .f32⟩ : BufTy).Contents (Elt F) → (⟨S1x128, .f32⟩ : BufTy).Contents (Elt F)),
    StableHlo.unary main_v353 main_v354 (broadcastInDim S4096x128 ![0, 1] bcast_S1x128_S4096x128_0_1 : (⟨S1x128, .f32⟩ : BufTy).Contents (Elt F) → (⟨S4096x128, .f32⟩ : BufTy).Contents (Elt F)),
    StableHlo.binary main_v350 main_v354 main_v355 (addf : (⟨S4096x128, .f32⟩ : BufTy).Contents (Elt F) → (⟨S4096x128, .f32⟩ : BufTy).Contents (Elt F) → (⟨S4096x128, .f32⟩ : BufTy).Contents (Elt F)),
    StableHlo.unary main_arg20 main_v356 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v356 main_v357 rfl shapeCasts_S1x128x128_S128x128,
    StableHlo.unary main_arg21 main_v358 ((extractStridedSlice S1x128 ![4, 0] · slices_S6x128_S1x128_4_0) : (⟨S6x128, .f32⟩ : BufTy).Contents (Elt F) → (⟨S1x128, .f32⟩ : BufTy).Contents (Elt F)),
    StableHlo.reshape main_v358 main_v359 rfl shapeCasts_S1x128_S128,
    StableHlo.binary main_v309 main_v357 main_v360 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v360 main_v361 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v359 main_v362 (broadcastInDim S1x128 ![1] bcast_S128_S1x128_1 : (⟨S128, .f32⟩ : BufTy).Contents (Elt F) → (⟨S1x128, .f32⟩ : BufTy).Contents (Elt F)),
    StableHlo.unary main_v362 main_v363 (broadcastInDim S8192x128 ![0, 1] bcast_S1x128_S8192x128_0_1 : (⟨S1x128, .f32⟩ : BufTy).Contents (Elt F) → (⟨S8192x128, .f32⟩ : BufTy).Contents (Elt F)),
    StableHlo.binary main_v361 main_v363 main_v364 (addf : (⟨S8192x128, .f32⟩ : BufTy).Contents (Elt F) → (⟨S8192x128, .f32⟩ : BufTy).Contents (Elt F) → (⟨S8192x128, .f32⟩ : BufTy).Contents (Elt F)),
    StableHlo.nullary main_cst_35 (constant S_ .f32 0x00000000#32),
    StableHlo.unary main_cst_35 main_v365 (broadcastInDim S8192x128 ![] bcast_S_S8192x128 : (⟨S_, .f32⟩ : BufTy).Contents (Elt F) → (⟨S8192x128, .f32⟩ : BufTy).Contents (Elt F)),
    StableHlo.binary main_v364 main_v365 main_v366 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_36 (constant S_ .f32 0x3DCCCCCD#32),
    StableHlo.unary main_cst_36 main_v367 (broadcastInDim S8192x128 ![] bcast_S_S8192x128 : (⟨S_, .f32⟩ : BufTy).Contents (Elt F) → (⟨S8192x128, .f32⟩ : BufTy).Contents (Elt F)),
    StableHlo.binary main_v367 main_v364 main_v368 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v366) (.of main_v364) (.of main_v368) main_call26.v0 select,
    StableHlo.binary main_v369 main_v281 main_v370 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg22 main_v371 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v371 main_v372 rfl shapeCasts_S1x256x128_S256x128,
    StableHlo.binary main_v370 main_v372 main_v373 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg23 main_v374 ((extractStridedSlice S1x128 ![2, 0] · slices_S4x128_S1x128_2_0) : (⟨S4x128, .f32⟩ : BufTy).Contents (Elt F) → (⟨S1x128, .f32⟩ : BufTy).Contents (Elt F)),
    StableHlo.reshape main_v374 main_v375 rfl shapeCasts_S1x128_S128,
    StableHlo.unary main_v375 main_v376 (broadcastInDim S1x128 ![1] bcast_S128_S1x128_1 : (⟨S128, .f32⟩ : BufTy).Contents (Elt F) → (⟨S1x128, .f32⟩ : BufTy).Contents (Elt F)),
    StableHlo.unary main_v376 main_v377 (broadcastInDim S8192x128 ![0, 1] bcast_S1x128_S8192x128_0_1 : (⟨S1x128, .f32⟩ : BufTy).Contents (Elt F) → (⟨S8192x128, .f32⟩ : BufTy).Contents (Elt F)),
    StableHlo.binary main_v373 main_v377 main_v378 (addf : (⟨S8192x128, .f32⟩ : BufTy).Contents (Elt F) → (⟨S8192x128, .f32⟩ : BufTy).Contents (Elt F) → (⟨S8192x128, .f32⟩ : BufTy).Contents (Elt F)),
    StableHlo.unary main_arg20 main_v379 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v379 main_v380 rfl shapeCasts_S1x128x128_S128x128,
    StableHlo.unary main_arg21 main_v381 ((extractStridedSlice S1x128 ![5, 0] · slices_S6x128_S1x128_5_0) : (⟨S6x128, .f32⟩ : BufTy).Contents (Elt F) → (⟨S1x128, .f32⟩ : BufTy).Contents (Elt F)) ]

set_option maxRecDepth 8192 in
/-- The statements ARE the list run in order: the callees unfolded at their calls, the sequencing reassociated. -/
theorem main_part6_eq (c : Dev nD) : main_part6 (F := F) c = seq ops_part6 := by
  simp only [main_part6, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part6_sub : (ops_part6 : List (HloOp τ sig (Elt F))).Forall fun op => op.bufs ⊆ tcRefs τ sig :=
  ⟨reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..⟩

/-- No operation allocates a buffer. -/
theorem ops_part6_fresh : (ops_part6 : List (HloOp τ sig (Elt F))).Forall fun op => op.fresh = ∅ := by
  simp only [List.Forall]; repeat' constructor

/-- The buffers the operations write, in program order. -/
abbrev ops_part6_W : List (Ref sig .tc) :=
  [ main_v326, main_v327, main_v328, main_v329, main_v330, main_v331, main_v332, main_v333,
    main_v334, main_v335, main_v336, main_v337, main_v338, main_v339, main_v340, main_v341,
    main_cst_33, main_v342, main_v343, main_cst_34, main_v344, main_v345, main_call25.v0.ref, main_v347,
    main_v348, main_v349, main_v350, main_v351, main_v352, main_v353, main_v354, main_v355,
    main_v356, main_v357, main_v358, main_v359, main_v360, main_v361, main_v362, main_v363,
    main_v364, main_cst_35, main_v365, main_v366, main_cst_36, main_v367, main_v368, main_call26.v0.ref,
    main_v370, main_v371, main_v372, main_v373, main_v374, main_v375, main_v376, main_v377,
    main_v378, main_v379, main_v380, main_v381 ]

/-- Each operation writes only its own result buffer, which the list holds. -/
theorem ops_part6_writes : (ops_part6 : List (HloOp τ sig (Elt F))).Forall fun op =>
    op.writes ⊆ (ops_part6_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part6 (V : Valuation τ sig (Elt F)) (r : Ref sig .tc) (h : r ∉ ops_part6_W) :
    after ops_part6 V (Proc.devRef .tc r) = V (Proc.devRef .tc r) :=
  after_of_writes_sub ops_part6 V ops_part6_writes h

end Cert.ReferenceIdeal.RunValue

end
-- ==== Proof.RefOps7.lean ====
/-
  The idealized reference's @main, statements 421 … 451 of 451, as a list of its 30 host operations in program
  order. A call of an outlined function (the row lookup `take` with its index normalisation `where`, the selections
  `where`, the `relu`s) contributes the callee's own operations at the call site, over that call's buffers and with the
  call's operands in place of the callee's parameters. Running the statements is running the list; every operation
  touches TensorCore buffers only, and none allocates.
-/
import proofs.«177232_g71837622993359_cont_sun_m_41_3_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 421 … 451, in order. -/
abbrev ops_part7 : List (HloOp τ sig (Elt F)) :=
  [ StableHlo.reshape main_v381 main_v382 rfl shapeCasts_S1x128_S128,
    StableHlo.binary main_v309 main_v380 main_v383 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v383 main_v384 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v382 main_v385 (broadcastInDim S1x128 ![1] bcast_S128_S1x128_1 : (⟨S128, .f32⟩ : BufTy).Contents (Elt F) → (⟨S1x128, .f32⟩ : BufTy).Contents (Elt F)),
    StableHlo.unary main_v385 main_v386 (broadcastInDim S8192x128 ![0, 1] bcast_S1x128_S8192x128_0_1 : (⟨S1x128, .f32⟩ : BufTy).Contents (Elt F) → (⟨S8192x128, .f32⟩ : BufTy).Contents (Elt F)),
    StableHlo.binary main_v384 main_v386 main_v387 (addf : (⟨S8192x128, .f32⟩ : BufTy).Contents (Elt F) → (⟨S8192x128, .f32⟩ : BufTy).Contents (Elt F) → (⟨S8192x128, .f32⟩ : BufTy).Contents (Elt F)),
    StableHlo.nullary main_cst_37 (constant S_ .f32 0x00000000#32),
    StableHlo.unary main_cst_37 main_v388 (broadcastInDim S8192x128 ![] bcast_S_S8192x128 : (⟨S_, .f32⟩ : BufTy).Contents (Elt F) → (⟨S8192x128, .f32⟩ : BufTy).Contents (Elt F)),
    StableHlo.binary main_v387 main_v388 main_v389 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_38 (constant S_ .f32 0x3DCCCCCD#32),
    StableHlo.unary main_cst_38 main_v390 (broadcastInDim S8192x128 ![] bcast_S_S8192x128 : (⟨S_, .f32⟩ : BufTy).Contents (Elt F) → (⟨S8192x128, .f32⟩ : BufTy).Contents (Elt F)),
    StableHlo.binary main_v390 main_v387 main_v391 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v389) (.of main_v387) (.of main_v391) main_call27.v0 select,
    StableHlo.binary main_v392 main_v281 main_v393 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg22 main_v394 ((extractStridedSlice S1x256x128 ![3, 0, 0] · slices_S4x256x128_S1x256x128_3_0_0) : (⟨S4x256x128, .f32⟩ : BufTy).Contents (Elt F) → (⟨S1x256x128, .f32⟩ : BufTy).Contents (Elt F)),
    StableHlo.reshape main_v394 main_v395 rfl shapeCasts_S1x256x128_S256x128,
    StableHlo.binary main_v393 main_v395 main_v396 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg23 main_v397 ((extractStridedSlice S1x128 ![3, 0] · slices_S4x128_S1x128_3_0) : (⟨S4x128, .f32⟩ : BufTy).Contents (Elt F) → (⟨S1x128, .f32⟩ : BufTy).Contents (Elt F)),
    StableHlo.reshape main_v397 main_v398 rfl shapeCasts_S1x128_S128,
    StableHlo.unary main_v398 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S8192x128 ![0, 1] bcast_S1x128_S8192x128_0_1 : (⟨S1x128, .f32⟩ : BufTy).Contents (Elt F) → (⟨S8192x128, .f32⟩ : BufTy).Contents (Elt F)),
    StableHlo.binary main_v396 main_v400 main_v401 (addf : (⟨S8192x128, .f32⟩ : BufTy).Contents (Elt F) → (⟨S8192x128, .f32⟩ : BufTy).Contents (Elt F) → (⟨S8192x128, .f32⟩ : BufTy).Contents (Elt F)),
    StableHlo.binary main_v280 main_v332 main_v402 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.binary main_v281 main_v378 main_v403 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_v402 main_v404 ((extractStridedSlice S2048x256 ![0, 0] · slices_S4096x256_S2048x256_0_0) : (⟨S4096x256, .f32⟩ : BufTy).Contents (Elt F) → (⟨S2048x256, .f32⟩ : BufTy).Contents (Elt F)),
    StableHlo.unary main_v204 main_v405 ((extractStridedSlice S2048x256 ![2048, 0] · slices_S4096x256_S2048x256_2048_0) : (⟨S4096x256, .f32⟩ : BufTy).Contents (Elt F) → (⟨S2048x256, .f32⟩ : BufTy).Contents (Elt F)),
    StableHlo.binary main_v404 main_v405 main_v406 ((fun a b => concatenate S4096x256 0 [⟨S2048x256, a⟩, ⟨S2048x256, b⟩] concatenates_S2048x256_S2048x256_S4096x256_d0) : (⟨S2048x256, .f32⟩ : BufTy).Contents (Elt F) → (⟨S2048x256, .f32⟩ : BufTy).Contents (Elt F) → (⟨S4096x256, .f32⟩ : BufTy).Contents (Elt F)),
    StableHlo.unary main_v204 main_v407 ((extractStridedSlice S2048x256 ![0, 0] · slices_S4096x256_S2048x256_0_0) : (⟨S4096x256, .f32⟩ : BufTy).Contents (Elt F) → (⟨S2048x256, .f32⟩ : BufTy).Contents (Elt F)),
    StableHlo.unary main_v402 main_v408 ((extractStridedSlice S2048x256 ![2048, 0] · slices_S4096x256_S2048x256_2048_0) : (⟨S4096x256, .f32⟩ : BufTy).Contents (Elt F) → (⟨S2048x256, .f32⟩ : BufTy).Contents (Elt F)),
    StableHlo.binary main_v407 main_v408 main_v409 ((fun a b => concatenate S4096x256 0 [⟨S2048x256, a⟩, ⟨S2048x256, b⟩] concatenates_S2048x256_S2048x256_S4096x256_d0) : (⟨S2048x256, .f32⟩ : BufTy).Contents (Elt F) → (⟨S2048x256, .f32⟩ : BufTy).Contents (Elt F) → (⟨S4096x256, .f32⟩ : BufTy).Contents (Elt F)) ]

set_option maxRecDepth 8192 in
/-- The statements ARE the list run in order: the callees unfolded at their calls, the sequencing reassociated. -/
theorem main_part7_eq (c : Dev nD) : main_part7 (F := F) c = seq ops_part7 := by
  simp only [main_part7, fn_where.body, fn_take.body, fn_where_1.body, fn_take_0.body, fn_where_2.body, fn_where_3.body,
    fn_relu.body, fn_relu_4.body, seq, bind_assoc, pure_bind] <;> rfl

/-- Every operation reads and writes TensorCore buffers only. -/
theorem ops_part7_sub : (ops_part7 : List (HloOp τ sig (Elt F))).Forall fun op => op.bufs ⊆ tcRefs τ sig :=
  ⟨reshape_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., binary_bufs_sub .., binary_bufs_sub ..,
    unary_bufs_sub .., unary_bufs_sub .., binary_bufs_sub .., unary_bufs_sub .., unary_bufs_sub .., binary_bufs_sub ..⟩

/-- No operation allocates a buffer. -/
theorem ops_part7_fresh : (ops_part7 : List (HloOp τ sig (Elt F))).Forall fun op => op.fresh = ∅ := by
  simp only [List.Forall]; repeat' constructor

/-- The buffers the operations write, in program order. -/
abbrev ops_part7_W : List (Ref sig .tc) :=
  [ main_v382, main_v383, main_v384, main_v385, main_v386, main_v387, main_cst_37, main_v388,
    main_v389, main_cst_38, main_v390, main_v391, main_call27.v0.ref, main_v393, main_v394, main_v395,
    main_v396, main_v397, main_v398, main_v399, main_v400, main_v401, main_v402, main_v403,
    main_v404, main_v405, main_v406, main_v407, main_v408, main_v409 ]

/-- Each operation writes only its own result buffer, which the list holds. -/
theorem ops_part7_writes : (ops_part7 : List (HloOp τ sig (Elt F))).Forall fun op =>
    op.writes ⊆ (ops_part7_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer outside that list keeps its contents through these operations. -/
theorem keep_part7 (V : Valuation τ sig (Elt F)) (r : Ref sig .tc) (h : r ∉ ops_part7_W) :
    after ops_part7 V (Proc.devRef .tc r) = V (Proc.devRef .tc r) :=
  after_of_writes_sub ops_part7 V ops_part7_writes h

end Cert.ReferenceIdeal.RunValue

end
-- ==== Proof.RefRun.lean ====
/-
  The idealized reference's run. @main's 451 statements are 546 host operations in a straight line (eight consecutive
  windows); the device's buffer contents after them are the fold of the operations' results over the launch contents,
  window after window. Every weakly fair execution terminates, nothing faulting, with every TensorCore buffer at that
  fold; no operation writes an argument buffer, so the 24 arguments end as launched, and the four results are the fold
  read at their buffers.
-/
import proofs.«177232_g71837622993359_cont_sun_m_41_3_alg».proof.Proof.RefOps0
import proofs.«177232_g71837622993359_cont_sun_m_41_3_alg».proof.Proof.RefOps1
import proofs.«177232_g71837622993359_cont_sun_m_41_3_alg».proof.Proof.RefOps2
import proofs.«177232_g71837622993359_cont_sun_m_41_3_alg».proof.Proof.RefOps3
import proofs.«177232_g71837622993359_cont_sun_m_41_3_alg».proof.Proof.RefOps4
import proofs.«177232_g71837622993359_cont_sun_m_41_3_alg».proof.Proof.RefOps5
import proofs.«177232_g71837622993359_cont_sun_m_41_3_alg».proof.Proof.RefOps6
import proofs.«177232_g71837622993359_cont_sun_m_41_3_alg».proof.Proof.RefOps7

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- @main's 546 operations, in order. -/
abbrev ops : List (HloOp τ sig (Elt F)) :=
  ops_part0 ++ (ops_part1 ++ (ops_part2 ++ (ops_part3 ++ (ops_part4 ++ (ops_part5 ++ (ops_part6 ++ (ops_part7)))))))

set_option maxRecDepth 8192 in
/-- @main runs its windows one after the other, and each window is its list run in order. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops_part0_sub op h,
      List.forall_iff_forall_mem.mp ops_part1_sub op h,
      List.forall_iff_forall_mem.mp ops_part2_sub op h,
      List.forall_iff_forall_mem.mp ops_part3_sub op h,
      List.forall_iff_forall_mem.mp ops_part4_sub op h,
      List.forall_iff_forall_mem.mp ops_part5_sub op h,
      List.forall_iff_forall_mem.mp ops_part6_sub op h,
      List.forall_iff_forall_mem.mp ops_part7_sub op h]

/-- No operation allocates a buffer. -/
theorem ops_fresh : ∀ op ∈ (ops : List (HloOp τ sig (Elt F))), op.fresh = ∅ := fun op h => by
  simp only [ops, List.mem_append] at h
  rcases h with h | h | h | h | h | h | h | h
  exacts [List.forall_iff_forall_mem.mp ops_part0_fresh op h,
    List.forall_iff_forall_mem.mp ops_part1_fresh op h,
    List.forall_iff_forall_mem.mp ops_part2_fresh op h,
    List.forall_iff_forall_mem.mp ops_part3_fresh op h,
    List.forall_iff_forall_mem.mp ops_part4_fresh op h,
    List.forall_iff_forall_mem.mp ops_part5_fresh op h,
    List.forall_iff_forall_mem.mp ops_part6_fresh op h,
    List.forall_iff_forall_mem.mp ops_part7_fresh op h]

/-- The contents after two lines run one after the other: the second's fold over the first's. -/
theorem after_append_lines : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append_lines l₁ l₂]

/-- The contents after @main: the eight windows' folds, one over the other. -/
theorem after_ops (V : Valuation τ sig (Elt F)) :
    after ops V = after ops_part7 (after ops_part6 (after ops_part5 (after ops_part4 (after ops_part3 (after ops_part2 (after ops_part1 (after ops_part0 (V)))))))) := by
  simp only [ops, after_append_lines]

/-- A buffer that no window writes keeps its launch contents. -/
theorem keep_all (V : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) :
    after ops V (Proc.devRef .tc r) = V (Proc.devRef .tc r) := by
  rw [after_ops, keep_part7 _ r h7, keep_part6 _ r h6, keep_part5 _ r h5, keep_part4 _ r h4, keep_part3 _ r h3, keep_part2 _ r h2, keep_part1 _ r h1, keep_part0 _ r h0]

/-- From any memory with zero counters every weakly fair execution of @main terminates with each TensorCore buffer at
    the operations' fold over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same run read at the four results and the 24 arguments: the results at the fold, the arguments as launched. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v406) = after ops (launchContents m c) (Proc.devRef .tc main_v406)
      ∧ r.2.mem ((c.tc : Thread nD τ).loc main_v205) = after ops (launchContents m c) (Proc.devRef .tc main_v205)
      ∧ r.2.mem ((c.tc : Thread nD τ).loc main_v409) = after ops (launchContents m c) (Proc.devRef .tc main_v409)
      ∧ r.2.mem ((c.tc : Thread nD τ).loc main_v403) = after ops (launchContents m c) (Proc.devRef .tc main_v403)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨h c main_v406,
     h c main_v205,
     h c main_v409,
     h c main_v403,
     (h c main_arg0).trans (keep_all _ main_arg0 (by decide) (by decide) (by decide) (by decide) (by decide) (by decide) (by decide) (by decide)),
     (h c main_arg1).trans (keep_all _ main_arg1 (by decide) (by decide) (by decide) (by decide) (by decide) (by decide) (by decide) (by decide)),
     (h c main_arg2).trans (keep_all _ main_arg2 (by decide) (by decide) (by decide) (by decide) (by decide) (by decide) (by decide) (by decide)),
     (h c main_arg3).trans (keep_all _ main_arg3 (by decide) (by decide) (by decide) (by decide) (by decide) (by decide) (by decide) (by decide)),
     (h c main_arg4).trans (keep_all _ main_arg4 (by decide) (by decide) (by decide) (by decide) (by decide) (by decide) (by decide) (by decide)),
     (h c main_arg5).trans (keep_all _ main_arg5 (by decide) (by decide) (by decide) (by decide) (by decide) (by decide) (by decide) (by decide)),
     (h c main_arg6).trans (keep_all _ main_arg6 (by decide) (by decide) (by decide) (by decide) (by decide) (by decide) (by decide) (by decide)),
     (h c main_arg7).trans (keep_all _ main_arg7 (by decide) (by decide) (by decide) (by decide) (by decide) (by decide) (by decide) (by decide)),
     (h c main_arg8).trans (keep_all _ main_arg8 (by decide) (by decide) (by decide) (by decide) (by decide) (by decide) (by decide) (by decide)),
     (h c main_arg9).trans (keep_all _ main_arg9 (by decide) (by decide) (by decide) (by decide) (by decide) (by decide) (by decide) (by decide)),
     (h c main_arg10).trans (keep_all _ main_arg10 (by decide) (by decide) (by decide) (by decide) (by decide) (by decide) (by decide) (by decide)),
     (h c main_arg11).trans (keep_all _ main_arg11 (by decide) (by decide) (by decide) (by decide) (by decide) (by decide) (by decide) (by decide)),
     (h c main_arg12).trans (keep_all _ main_arg12 (by decide) (by decide) (by decide) (by decide) (by decide) (by decide) (by decide) (by decide)),
     (h c main_arg13).trans (keep_all _ main_arg13 (by decide) (by decide) (by decide) (by decide) (by decide) (by decide) (by decide) (by decide)),
     (h c main_arg14).trans (keep_all _ main_arg14 (by decide) (by decide) (by decide) (by decide) (by decide) (by decide) (by decide) (by decide)),
     (h c main_arg15).trans (keep_all _ main_arg15 (by decide) (by decide) (by decide) (by decide) (by decide) (by decide) (by decide) (by decide)),
     (h c main_arg16).trans (keep_all _ main_arg16 (by decide) (by decide) (by decide) (by decide) (by decide) (by decide) (by decide) (by decide)),
     (h c main_arg17).trans (keep_all _ main_arg17 (by decide) (by decide) (by decide) (by decide) (by decide) (by decide) (by decide) (by decide)),
     (h c main_arg18).trans (keep_all _ main_arg18 (by decide) (by decide) (by decide) (by decide) (by decide) (by decide) (by decide) (by decide)),
     (h c main_arg19).trans (keep_all _ main_arg19 (by decide) (by decide) (by decide) (by decide) (by decide) (by decide) (by decide) (by decide)),
     (h c main_arg20).trans (keep_all _ main_arg20 (by decide) (by decide) (by decide) (by decide) (by decide) (by decide) (by decide) (by decide)),
     (h c main_arg21).trans (keep_all _ main_arg21 (by decide) (by decide) (by decide) (by decide) (by decide) (by decide) (by decide) (by decide)),
     (h c main_arg22).trans (keep_all _ main_arg22 (by decide) (by decide) (by decide) (by decide) (by decide) (by decide) (by decide) (by decide)),
     (h c main_arg23).trans (keep_all _ main_arg23 (by decide) (by decide) (by decide) (by decide) (by decide) (by decide) (by decide) (by decide))⟩)
    (run_main m ρ)

end Cert.ReferenceIdeal.RunValue

end
-- ==== Proof.Spec.lean ====
/-
  The mathematics both programs compute, index by index on the extended reals.

  One encoder stage is a matrix product `x · w` (entry (i, j) the sum over l of x (i, l) · w (l, j)); a graph
  convolution step `act (adj · y + b)` with the bias added along rows and the activation the leaky rectifier
  `z ↦ z` for `z > 0`, `z ↦ 0.1 · z` otherwise (0.1 the single-precision literal both programs carry); and a union
  projection `z · wa + x · wb + ub`, which is what multiplying the row-wise concatenation `[z | x]` by the stacked
  weight `[wa ; wb]` gives, because a sum over the 2·F columns is the sum over the first F plus the sum over the last F.
  Nothing here needs the entries to be finite: only sums are regrouped, never distributed over.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- An a × b array of extended reals, indexed as the programs index it. -/
abbrev Mat (a b : Nat) := (⟨2, ![a, b]⟩ : Shape).Idx → EReal

/-- The row coordinate of an index, as a number below the row count. -/
def row {a b : Nat} (i : (⟨2, ![a, b]⟩ : Shape).Idx) : Fin a := ⟨(i 0).val, (i 0).isLt⟩
/-- The column coordinate of an index. -/
def col {a b : Nat} (i : (⟨2, ![a, b]⟩ : Shape).Idx) : Fin b := ⟨(i 1).val, (i 1).isLt⟩

theorem row_ix2 {a b : Nat} (p : Fin a) (q : Fin b) : row (ix2 p q) = p := rfl
theorem col_ix2 {a b : Nat} (p : Fin a) (q : Fin b) : col (ix2 p q) = q := rfl

/-- The literal zero and the literal 0.1 of single precision, as the extended reals they denote. -/
abbrev zeroE : EReal := Ideal.ofBits .f32 0x00000000#32
abbrev tenthE : EReal := Ideal.ofBits .f32 0x3DCCCCCD#32

/-- The leaky rectifier: `z` where `z > 0`, else `0.1 · z`. -/
def leaky (z : EReal) : EReal :=
  Scalar.select (FloatOps.cmpf (F := Ideal) (φ := .f32) .ogt z zeroE) z (tenthE * z)

/-- The matrix product. -/
def mm {M K N : Nat} (x : Mat M K) (w : Mat K N) : Mat M N :=
  fun i => ∑ l : Fin K, x (ix2 (row i) l) * w (ix2 l (col i))

/-- One graph convolution step: the leaky rectifier of `adj · y` plus the bias of the column. -/
def gcn {M K N : Nat} (adj : Mat M K) (y : Mat K N) (b : Fin N → EReal) : Mat M N :=
  fun i => leaky (mm adj y i + b (col i))

/-- The union projection before its activation: `z · wa + x · wb` plus the bias of the column. -/
def union {M A B N : Nat} (z : Mat M A) (wa : Mat A N) (x : Mat M B) (wb : Mat B N) (ub : Fin N → EReal) : Mat M N :=
  fun i => mm z wa i + mm x wb i + ub (col i)

/-- The rectifier. -/
def relu (z : EReal) : EReal := max z zeroE

theorem mm_ix2 {M K N : Nat} (x : Mat M K) (w : Mat K N) (p : Fin M) (q : Fin N) :
    mm x w (ix2 p q) = ∑ l : Fin K, x (ix2 p l) * w (ix2 l q) := rfl

/-- A sum over the columns of a row-wise concatenation against a stacked weight splits into the two blocks' sums. -/
theorem sum_concat_split {A B : Nat} (f : Fin (A + B) → EReal) :
    ∑ l : Fin (A + B), f l = ∑ l : Fin A, f (Fin.castAdd B l) + ∑ l : Fin B, f (Fin.natAdd A l) :=
  Fin.sum_univ_add f

/-! ## Pieces of the parameter arrays -/

/-- A stack of n matrices, a × b each. -/
abbrev Stack (n a b : Nat) := (⟨3, ![n, a, b]⟩ : Shape).Idx → EReal

/-- The k-th matrix of a stack. -/
def slab {n a b : Nat} (k : Fin n) (W : Stack n a b) : Mat a b := fun i => W (ix3 k (row i) (col i))

/-- The k-th row of a table. -/
def rowOf {n b : Nat} (k : Fin n) (B : Mat n b) : Fin b → EReal := fun q => B (ix2 k q)

/-- The k-th row of a table, laid out as a one-row matrix. -/
def rowMat {n b : Nat} (k : Fin n) (B : Mat n b) : Mat 1 b := fun i => B (ix2 k (col i))

/-- The first a rows of a matrix of a + b rows, and the last b. -/
def top {a b n : Nat} (w : Mat (a + b) n) : Mat a n := fun i => w (ix2 (Fin.castAdd b (row i)) (col i))
def bot {a b n : Nat} (w : Mat (a + b) n) : Mat b n := fun i => w (ix2 (Fin.natAdd a (row i)) (col i))

/-- Two matrices with the same rows side by side. -/
def hcat {m a b : Nat} (x : Mat m a) (y : Mat m b) : Mat m (a + b) :=
  fun i => Fin.addCases (fun l => x (ix2 (row i) l)) (fun l => y (ix2 (row i) l)) (col i)

/-- The side-by-side pair read in its left block and in its right block. -/
theorem hcat_left {m a b : Nat} (x : Mat m a) (y : Mat m b) (p : Fin m) (l : Fin a) :
    hcat x y (ix2 p (Fin.castAdd b l)) = x (ix2 p l) := by
  simp only [hcat, col_ix2, row_ix2, Fin.addCases_left]
theorem hcat_right {m a b : Nat} (x : Mat m a) (y : Mat m b) (p : Fin m) (l : Fin b) :
    hcat x y (ix2 p (Fin.natAdd a l)) = y (ix2 p l) := by
  simp only [hcat, col_ix2, row_ix2, Fin.addCases_right]

/-- Multiplying the side-by-side pair [z | x] by a weight of a + b rows is z times its first a rows plus x times its last b. -/
theorem mm_hcat {m a b n : Nat} (z : Mat m a) (x : Mat m b) (w : Mat (a + b) n) (i : (⟨2, ![m, n]⟩ : Shape).Idx) :
    mm (hcat z x) w i = mm z (top w) i + mm x (bot w) i := by
  unfold mm
  rw [Fin.sum_univ_add]
  congr 1
  · exact Finset.sum_congr rfl fun l _ => by rw [hcat_left]; rfl
  · exact Finset.sum_congr rfl fun l _ => by rw [hcat_right]; rfl

/-! ## One domain's encoder -/

/-- The twelve arrays of one domain: the two adjacencies (users × items and items × users), the two embedding tables and
    the eight parameter arrays. -/
structure Dom (NU NI : Nat) where
  UV : Mat NU NI
  VU : Mat NI NU
  xu : Mat NU 128
  xv : Mat NI 128
  dW : Stack 4 128 128
  db : Mat 4 128
  uW : Stack 2 (128 + 128) 128
  ub : Mat 2 128
  lW : Stack 6 128 128
  lb : Mat 6 128
  luW : Stack 4 (128 + 128) 128
  lub : Mat 4 128

namespace Dom

variable {NU NI : Nat} (d : Dom NU NI)

/-- First layer: the feature transforms of the two embedding tables. -/
def y0 : Mat NU 128 := mm d.xu (slab 0 d.dW)
def y1 : Mat NI 128 := mm d.xv (slab 1 d.dW)
/-- The first propagation step followed by the next feature transform. -/
def p1 : Mat NI 128 := mm (gcn d.VU d.y0 (rowOf 0 d.db)) (slab 2 d.dW)
def p2 : Mat NU 128 := mm (gcn d.UV d.y1 (rowOf 1 d.db)) (slab 3 d.dW)
/-- The second propagation step joined with the embeddings by the union projection, rectified. -/
def u1 : Mat NU 128 := fun i => relu (union (gcn d.UV d.p1 (rowOf 2 d.db)) (top (slab 0 d.uW)) d.xu (bot (slab 0 d.uW)) (rowOf 0 d.ub) i)
def v1 : Mat NI 128 := fun i => relu (union (gcn d.VU d.p2 (rowOf 3 d.db)) (top (slab 1 d.uW)) d.xv (bot (slab 1 d.uW)) (rowOf 1 d.ub) i)
/-- Last layer (the mean branch): the same chain from the first layer's outputs, with the last layer's parameters. -/
def y2 : Mat NU 128 := mm d.u1 (slab 0 d.lW)
def y3 : Mat NI 128 := mm d.v1 (slab 1 d.lW)
def q1 : Mat NI 128 := mm (gcn d.VU d.y2 (rowOf 0 d.lb)) (slab 2 d.lW)
def q2 : Mat NU 128 := mm (gcn d.UV d.y3 (rowOf 1 d.lb)) (slab 4 d.lW)
def u2 : Mat NU 128 := union (gcn d.UV d.q1 (rowOf 2 d.lb)) (top (slab 0 d.luW)) d.u1 (bot (slab 0 d.luW)) (rowOf 0 d.lub)
def v2 : Mat NI 128 := union (gcn d.VU d.q2 (rowOf 4 d.lb)) (top (slab 2 d.luW)) d.v1 (bot (slab 2 d.luW)) (rowOf 2 d.lub)
/-- The domain's two outputs: first- and last-layer features side by side. -/
def user : Mat NU (128 + 128) := hcat d.u1 d.u2
def item : Mat NI (128 + 128) := hcat d.v1 d.v2

end Dom

end Cert.Spec

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«177232_g71837622993359_cont_sun_m_41_3_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.LibConcat3.lean ====
/-
  Matrices with the same rows joined along their columns, read block by block.

  A concatenation along axis 1 of two or three matrices [a, b1], [a, b2] (, [a, b3]) into [a, n] reads, at row p and a
  column inside the k-th block, the k-th matrix at row p and the column less the widths of the blocks before it. The
  column is given as it comes out of a sum cut into blocks: l, b1 + l, b1 + b2 + l with l below the block's width. All
  extents are variables; each reading is the library's piece-by-piece reading of a concatenation at one piece.
-/
import Idealize.ShloMosaic.Lib.Pipeline.Value
import Idealize.ShloMosaic.Lib.ValueIdx

noncomputable section

namespace Idealize.ShloMosaic.ConcatBlocks

open Idealize.ShloMosaic Idealize.ShloMosaic.ValueIdx

variable {α : Type} {a b1 b2 b3 n : Nat}

/-- Two matrices joined along their columns: a column l of the first block reads the first matrix at (p, l). -/
theorem concat2_first (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, n]⟩ : Shape) 1)
    (p : Fin a) (l : Fin b1) (hl : l.val < n) :
    concatenate (⟨2, ![a, n]⟩ : Shape) 1 [⟨(⟨2, ![a, b1]⟩ : Shape), x⟩, ⟨(⟨2, ![a, b2]⟩ : Shape), y⟩] h (ix2 p ⟨l.val, hl⟩)
      = x (ix2 p l) :=
  concatenate_apply_piece (t := (⟨2, ![a, n]⟩ : Shape)) 1
    [⟨(⟨2, ![a, b1]⟩ : Shape), x⟩, ⟨(⟨2, ![a, b2]⟩ : Shape), y⟩] h (ix2 p ⟨l.val, hl⟩) 0 (by simp) _ x rfl rfl 0 rfl (ix2 p l)
    (fun b hb => match b, hb with
      | ⟨0, _⟩, _ => rfl
      | ⟨1, _⟩, hb => absurd rfl hb)
    (Nat.zero_add _)

/-- Two matrices joined along their columns: column b1 + l reads the second matrix at (p, l). -/
theorem concat2_second (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, n]⟩ : Shape) 1)
    (p : Fin a) (l : Fin b2) (hl : b1 + l.val < n) :
    concatenate (⟨2, ![a, n]⟩ : Shape) 1 [⟨(⟨2, ![a, b1]⟩ : Shape), x⟩, ⟨(⟨2, ![a, b2]⟩ : Shape), y⟩] h (ix2 p ⟨b1 + l.val, hl⟩)
      = y (ix2 p l) :=
  concatenate_apply_piece (t := (⟨2, ![a, n]⟩ : Shape)) 1
    [⟨(⟨2, ![a, b1]⟩ : Shape), x⟩, ⟨(⟨2, ![a, b2]⟩ : Shape), y⟩] h (ix2 p ⟨b1 + l.val, hl⟩) 1 (by simp) _ y rfl rfl b1 (by simp)
    (ix2 p l)
    (fun b hb => match b, hb with
      | ⟨0, _⟩, _ => rfl
      | ⟨1, _⟩, hb => absurd rfl hb)
    rfl

/-- Three matrices joined along their columns: a column l of the first block reads the first matrix at (p, l). -/
theorem concat3_first (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b1) (hl : l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h (ix2 p ⟨l.val, hl⟩)
      = x (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨l.val, hl⟩) 0 (by simp) _ x rfl rfl 0 rfl (ix2 p l)
    (fun b hb => match b, hb with
      | ⟨0, _⟩, _ => rfl
      | ⟨1, _⟩, hb => absurd rfl hb)
    (Nat.zero_add _)

/-- Three matrices joined along their columns: column b1 + l reads the second matrix at (p, l). -/
theorem concat3_second (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b2) (hl : b1 + l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h (ix2 p ⟨b1 + l.val, hl⟩)
      = y (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨b1 + l.val, hl⟩) 1 (by simp) _ y rfl rfl b1 (by simp) (ix2 p l)
    (fun b hb => match b, hb with
      | ⟨0, _⟩, _ => rfl
      | ⟨1, _⟩, hb => absurd rfl hb)
    rfl

/-- Three matrices joined along their columns: column b1 + b2 + l reads the third matrix at (p, l). -/
theorem concat3_third (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b3) (hl : b1 + b2 + l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h
        (ix2 p ⟨b1 + b2 + l.val, hl⟩)
      = z (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨b1 + b2 + l.val, hl⟩) 2 (by simp) _ z rfl rfl (b1 + b2) (by simp) (ix2 p l)
    (fun b hb => match b, hb with
      | ⟨0, _⟩, _ => rfl
      | ⟨1, _⟩, hb => absurd rfl hb)
    rfl

end Idealize.ShloMosaic.ConcatBlocks

end
-- ==== Proof.HostForms.lean ====
/-
  The reference's host operations read as the specification's functions, for any extents.

  A `dot_general` with the plain M×K by K×N dimension numbers is the matrix product. A weight stack [n, a, b] sliced at
  its k-th matrix and reshaped to [a, b] is that matrix; a bias table [n, b] sliced at its k-th row, reshaped to [b],
  laid out as one row and broadcast over M rows reads, at (p, q), the table's entry (k, q). The selection between z and
  0.1 · z by the comparison z > 0, every constant a broadcast scalar, is the leaky rectifier entry by entry; the maximum
  against the broadcast zero is the rectifier.
-/
import Idealize.ShloMosaic.PureOps.Ideal.Laws
import Idealize.ShloMosaic.Lib.ValueIdx
import Idealize.ShloMosaic.Lib.ValueLayout
import Idealize.ShloMosaic.Lib.Pipeline.Value
import proofs.«177232_g71837622993359_cont_sun_m_41_3_alg».proof.Proof.Spec
import proofs.«177232_g71837622993359_cont_sun_m_41_3_alg».proof.Proof.LibPlainMatmul
import proofs.«177232_g71837622993359_cont_sun_m_41_3_alg».proof.Proof.LibConcat3

noncomputable section

namespace Cert.HostForms

open Idealize.ShloMosaic Idealize.ShloMosaic.ValueIdx Cert.Spec

/-- The host's product with the plain dimension numbers is the matrix product. -/
theorem dotGeneral_eq_mm {M K N : Nat} {φ₁ φ₂ : FTy}
    (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) :
    Host.dotGeneral D none l r = mm l r := by
  subst hD
  funext i
  obtain ⟨p, q, rfl⟩ : ∃ (p : Fin M) (q : Fin N), i = ix2 p q := ⟨i 0, i 1, eq_ix2 i⟩
  exact PlainMatmul.plain_dotGeneral_apply M K N none .single l r p q

/-- A stack sliced at its k-th matrix and reshaped to that matrix's shape is the k-th matrix. -/
theorem slice_reshape_eq_slab {n a b : Nat} (k : Nat) (hk : k < n) (W : Stack n a b)
    (hs : (⟨3, ![n, a, b]⟩ : Shape).Slices ![k, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![k, 0, 0] W hs) hc = slab ⟨k, hk⟩ W := by
  funext i
  obtain ⟨p, q, rfl⟩ : ∃ (p : Fin a) (q : Fin b), i = ix2 p q := ⟨i 0, i 1, eq_ix2 i⟩
  rw [shapeCast_1ab_ab_apply]
  refine extractStridedSlice_apply _ W hs _ (ix3 (⟨k, hk⟩ : Fin n) p q) fun ax => ?_
  match ax with
  | ⟨0, _⟩ => show k = k + 0; rfl
  | ⟨1, _⟩ => show p.val = 0 + p.val; exact (Nat.zero_add _).symm
  | ⟨2, _⟩ => show q.val = 0 + q.val; exact (Nat.zero_add _).symm

/-- A table [n, b] sliced at its k-th row and reshaped to [b] reads, at q, the table's entry (k, q). -/
theorem slice_reshape_row_apply {n b : Nat} (k : Nat) (hk : k < n) (B : Mat n b)
    (hs : (⟨2, ![n, b]⟩ : Shape).Slices ![k, 0] ⟨2, ![1, b]⟩)
    (hc : (⟨2, ![1, b]⟩ : Shape).ShapeCasts ⟨1, ![b]⟩) (q : Fin b) :
    shapeCast ⟨1, ![b]⟩ (extractStridedSlice ⟨2, ![1, b]⟩ ![k, 0] B hs) hc (ix1 q) = rowOf ⟨k, hk⟩ B q := by
  rw [shapeCast_1a_a_apply]
  refine extractStridedSlice_apply _ B hs _ (ix2 (⟨k, hk⟩ : Fin n) q) fun ax => ?_
  match ax with
  | ⟨0, _⟩ => show k = k + 0; rfl
  | ⟨1, _⟩ => show q.val = 0 + q.val; exact (Nat.zero_add _).symm

/-- A vector [b] laid out as one row and broadcast over M rows reads, at (p, q), the vector's entry q. -/
theorem broadcast_row_apply {M b : Nat} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![M, b]⟩ ![0, 1]) (p : Fin M) (q : Fin b) :
    broadcastInDim ⟨2, ![M, b]⟩ ![0, 1] h2 (broadcastInDim ⟨2, ![1, b]⟩ ![1] h1 v) (ix2 p q) = v (ix1 q) := by
  rw [broadcastInDim_apply ![0, 1] h2 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply ![1] h1 v (ix2 (0 : Fin 1) q) (ix1 q) (fun ax => by
    match ax with
    | ⟨0, _⟩ =>
      show q.val = if b = 1 then 0 else q.val
      split
      · have := q.isLt; omega
      · rfl)

/-- A scalar broadcast to any shape reads the scalar everywhere. -/
theorem broadcast_scalar_apply {t : Shape} (x : (⟨0, ![]⟩ : Shape).Idx → EReal)
    (h : (⟨0, ![]⟩ : Shape).BroadcastsInDim t ![]) (j : t.Idx) :
    broadcastInDim t ![] h x j = x ix0 :=
  broadcastInDim_apply ![] h x j ix0 (fun ax => ax.elim0)

/-- One graph convolution step as the host spells it: with z = adj · y + bias, the selection of z where z > 0 and of
    0.1 · z elsewhere, the two constants arrays that hold the literal everywhere. -/
theorem gcn_host {M K N n : Nat} {φ₁ φ₂ : FTy}
    (D : DotDims ⟨2, ![M, K]⟩ ⟨2, ![K, N]⟩ ⟨2, ![M, N]⟩) (hD : D = DotDims.plain M K N)
    (adj : FVec Ideal ⟨2, ![M, K]⟩ φ₁) (y : FVec Ideal ⟨2, ![K, N]⟩ φ₂) (Bt : Mat n N) (k : Fin n)
    (bias Z T : FVec Ideal ⟨2, ![M, N]⟩ .f32)
    (hbias : ∀ (p : Fin M) (q : Fin N), bias (ix2 p q) = rowOf k Bt q)
    (hZ : ∀ i, Z i = zeroE) (hT : ∀ i, T i = tenthE) :
    select (cmpf .ogt (addf (Host.dotGeneral D none adj y) bias) Z) (addf (Host.dotGeneral D none adj y) bias)
        (mulf T (addf (Host.dotGeneral D none adj y) bias))
      = gcn adj y (rowOf k Bt) := by
  funext i
  obtain ⟨p, q, rfl⟩ : ∃ (p : Fin M) (q : Fin N), i = ix2 p q := ⟨i 0, i 1, eq_ix2 i⟩
  show Scalar.select (FloatOps.cmpf .ogt (Host.dotGeneral D none adj y (ix2 p q) + bias (ix2 p q)) (Z (ix2 p q)))
      (Host.dotGeneral D none adj y (ix2 p q) + bias (ix2 p q))
      (T (ix2 p q) * (Host.dotGeneral D none adj y (ix2 p q) + bias (ix2 p q))) = _
  rw [hZ, hT, hbias, dotGeneral_eq_mm D hD]
  rfl

/-- Two matrices joined along their columns are the side-by-side pair. -/
theorem concat_cols_eq_hcat {m a b : Nat} (x : Mat m a) (y : Mat m b)
    (h : Shape.Concatenates [(⟨2, ![m, a]⟩ : Shape), (⟨2, ![m, b]⟩ : Shape)] (⟨2, ![m, a + b]⟩ : Shape) 1) :
    concatenate (⟨2, ![m, a + b]⟩ : Shape) 1 [⟨(⟨2, ![m, a]⟩ : Shape), x⟩, ⟨(⟨2, ![m, b]⟩ : Shape), y⟩] h = hcat x y := by
  funext i
  obtain ⟨p, q, rfl⟩ : ∃ (p : Fin m) (q : Fin (a + b)), i = ix2 p q := ⟨i 0, i 1, eq_ix2 i⟩
  refine Fin.addCases (fun l => ?_) (fun l => ?_) q
  · exact (ConcatBlocks.concat2_first x y h p l (Fin.castAdd b l).isLt).trans (hcat_left x y p l).symm
  · exact (ConcatBlocks.concat2_second x y h p l (Fin.natAdd a l).isLt).trans (hcat_right x y p l).symm

/-- The union projection as the host spells it: the side-by-side pair [z | x] times the stacked weight, plus the bias. -/
theorem union_host {M A B N n : Nat} {φ : FTy}
    (D : DotDims ⟨2, ![M, A + B]⟩ ⟨2, ![A + B, N]⟩ ⟨2, ![M, N]⟩) (hD : D = DotDims.plain M (A + B) N)
    (zx : FVec Ideal ⟨2, ![M, A + B]⟩ .f32) (z : Mat M A) (x : Mat M B) (hzx : zx = hcat z x)
    (w : FVec Ideal ⟨2, ![A + B, N]⟩ φ) (Bt : Mat n N) (k : Fin n) (bias : FVec Ideal ⟨2, ![M, N]⟩ .f32)
    (hbias : ∀ (p : Fin M) (q : Fin N), bias (ix2 p q) = rowOf k Bt q) :
    addf (Host.dotGeneral D none zx w) bias = union z (top w) x (bot w) (rowOf k Bt) := by
  funext i
  obtain ⟨p, q, rfl⟩ : ∃ (p : Fin M) (q : Fin N), i = ix2 p q := ⟨i 0, i 1, eq_ix2 i⟩
  show Host.dotGeneral D none zx w (ix2 p q) + bias (ix2 p q) = _
  rw [hbias, dotGeneral_eq_mm D hD, hzx, mm_hcat]
  rfl

/-- The rectifier as the host spells it: the maximum against an array that holds zero everywhere. -/
theorem relu_host {t : Shape} (x Z : FVec Ideal t .f32) (hZ : ∀ i, Z i = zeroE) :
    maximumf x Z = fun i => relu (x i) := by
  funext i
  show max (x i) (Z i) = _
  rw [hZ]; rfl

/-! ## The kernel program's host forms -/

/-- The first a rows of a matrix of a + b rows, sliced out with all columns. -/
theorem slice_top {a b n : Nat} (w : Mat (a + b) n)
    (hs : (⟨2, ![a + b, n]⟩ : Shape).Slices ![0, 0] ⟨2, ![a, n]⟩) :
    extractStridedSlice ⟨2, ![a, n]⟩ ![0, 0] w hs = top w := by
  funext i
  obtain ⟨p, q, rfl⟩ : ∃ (p : Fin a) (q : Fin n), i = ix2 p q := ⟨i 0, i 1, eq_ix2 i⟩
  refine extractStridedSlice_apply _ w hs _ (ix2 (Fin.castAdd b p) q) fun ax => ?_
  match ax with
  | ⟨0, _⟩ => show p.val = 0 + p.val; exact (Nat.zero_add _).symm
  | ⟨1, _⟩ => show q.val = 0 + q.val; exact (Nat.zero_add _).symm

/-- The last b rows of a matrix of a + b rows, sliced out with all columns. -/
theorem slice_bot {a b n : Nat} (w : Mat (a + b) n)
    (hs : (⟨2, ![a + b, n]⟩ : Shape).Slices ![a, 0] ⟨2, ![b, n]⟩) :
    extractStridedSlice ⟨2, ![b, n]⟩ ![a, 0] w hs = bot w := by
  funext i
  obtain ⟨p, q, rfl⟩ : ∃ (p : Fin b) (q : Fin n), i = ix2 p q := ⟨i 0, i 1, eq_ix2 i⟩
  refine extractStridedSlice_apply _ w hs _ (ix2 (Fin.natAdd a p) q) fun ax => ?_
  match ax with
  | ⟨0, _⟩ => show a + p.val = a + p.val; rfl
  | ⟨1, _⟩ => show q.val = 0 + q.val; exact (Nat.zero_add _).symm

/-- A table [n, b] sliced at its k-th row, reshaped to [b] and laid out again as one row [1, b] reads, at (0, q),
    the table's entry (k, q). -/
theorem slice_reshape_rowmat_apply {n b : Nat} (k : Nat) (hk : k < n) (B : Mat n b)
    (hs : (⟨2, ![n, b]⟩ : Shape).Slices ![k, 0] ⟨2, ![1, b]⟩)
    (hc : (⟨2, ![1, b]⟩ : Shape).ShapeCasts ⟨1, ![b]⟩) (hc' : (⟨1, ![b]⟩ : Shape).ShapeCasts ⟨2, ![1, b]⟩) (q : Fin b) :
    shapeCast ⟨2, ![1, b]⟩ (shapeCast ⟨1, ![b]⟩ (extractStridedSlice ⟨2, ![1, b]⟩ ![k, 0] B hs) hc) hc' (ix2 (0 : Fin 1) q)
      = rowOf ⟨k, hk⟩ B q := by
  rw [shapeCast_a_1a_apply]
  exact slice_reshape_row_apply k hk B hs hc q

/-- The same, as an array: the k-th row of the table laid out as a one-row matrix. -/
theorem slice_reshape_rowmat_eq {n b : Nat} (k : Nat) (hk : k < n) (B : Mat n b)
    (hs : (⟨2, ![n, b]⟩ : Shape).Slices ![k, 0] ⟨2, ![1, b]⟩)
    (hc : (⟨2, ![1, b]⟩ : Shape).ShapeCasts ⟨1, ![b]⟩) (hc' : (⟨1, ![b]⟩ : Shape).ShapeCasts ⟨2, ![1, b]⟩) :
    shapeCast ⟨2, ![1, b]⟩ (shapeCast ⟨1, ![b]⟩ (extractStridedSlice ⟨2, ![1, b]⟩ ![k, 0] B hs) hc) hc'
      = rowMat ⟨k, hk⟩ B := by
  funext i
  obtain ⟨u, q, rfl⟩ : ∃ (u : Fin 1) (q : Fin b), i = ix2 u q := ⟨i 0, i 1, eq_ix2 i⟩
  rw [shapeCast_a_1a_apply]
  exact slice_reshape_row_apply k hk B hs hc q

/-! ## Whole stages -/

/-- A graph convolution stage as the reference spells it, from the operands: the weight stack's k₁-th matrix, the product
    x · w, the product adj · (x · w), the bias table's k₂-th row broadcast over the rows, the sum z, and the selection
    of z where z > 0 and 0.1 · z elsewhere. -/
theorem gcn_stage {M K K0 N n nW : Nat} {φ₁ φ₂ φ₃ : FTy}
    (D1 : DotDims ⟨2, ![K, K0]⟩ ⟨2, ![K0, N]⟩ ⟨2, ![K, N]⟩) (hD1 : D1 = DotDims.plain K K0 N)
    (D2 : DotDims ⟨2, ![M, K]⟩ ⟨2, ![K, N]⟩ ⟨2, ![M, N]⟩) (hD2 : D2 = DotDims.plain M K N)
    (adj : FVec Ideal ⟨2, ![M, K]⟩ φ₁) (x : FVec Ideal ⟨2, ![K, K0]⟩ φ₂)
    (W : Stack nW K0 N) (k1 : Nat) (hk1 : k1 < nW)
    (hs1 : (⟨3, ![nW, K0, N]⟩ : Shape).Slices ![k1, 0, 0] ⟨3, ![1, K0, N]⟩)
    (hc1 : (⟨3, ![1, K0, N]⟩ : Shape).ShapeCasts ⟨2, ![K0, N]⟩)
    (Bt : Mat n N) (k2 : Nat) (hk2 : k2 < n)
    (hs2 : (⟨2, ![n, N]⟩ : Shape).Slices ![k2, 0] ⟨2, ![1, N]⟩)
    (hc2 : (⟨2, ![1, N]⟩ : Shape).ShapeCasts ⟨1, ![N]⟩)
    (h1 : (⟨1, ![N]⟩ : Shape).BroadcastsInDim ⟨2, ![1, N]⟩ ![1])
    (h2 : (⟨2, ![1, N]⟩ : Shape).BroadcastsInDim ⟨2, ![M, N]⟩ ![0, 1])
    (Z T : FVec Ideal ⟨2, ![M, N]⟩ .f32) (hZ : ∀ i, Z i = zeroE) (hT : ∀ i, T i = tenthE) :
    select
        (cmpf .ogt
          (addf (Host.dotGeneral D2 none adj (Host.dotGeneral D1 none x
              (shapeCast ⟨2, ![K0, N]⟩ (extractStridedSlice ⟨3, ![1, K0, N]⟩ ![k1, 0, 0] W hs1) hc1 : FVec Ideal ⟨2, ![K0, N]⟩ φ₃)))
            (broadcastInDim ⟨2, ![M, N]⟩ ![0, 1] h2 (broadcastInDim ⟨2, ![1, N]⟩ ![1] h1
              (shapeCast ⟨1, ![N]⟩ (extractStridedSlice ⟨2, ![1, N]⟩ ![k2, 0] Bt hs2) hc2)))) Z)
        (addf (Host.dotGeneral D2 none adj (Host.dotGeneral D1 none x
            (shapeCast ⟨2, ![K0, N]⟩ (extractStridedSlice ⟨3, ![1, K0, N]⟩ ![k1, 0, 0] W hs1) hc1 : FVec Ideal ⟨2, ![K0, N]⟩ φ₃)))
          (broadcastInDim ⟨2, ![M, N]⟩ ![0, 1] h2 (broadcastInDim ⟨2, ![1, N]⟩ ![1] h1
            (shapeCast ⟨1, ![N]⟩ (extractStridedSlice ⟨2, ![1, N]⟩ ![k2, 0] Bt hs2) hc2))))
        (mulf T
          (addf (Host.dotGeneral D2 none adj (Host.dotGeneral D1 none x
              (shapeCast ⟨2, ![K0, N]⟩ (extractStridedSlice ⟨3, ![1, K0, N]⟩ ![k1, 0, 0] W hs1) hc1 : FVec Ideal ⟨2, ![K0, N]⟩ φ₃)))
            (broadcastInDim ⟨2, ![M, N]⟩ ![0, 1] h2 (broadcastInDim ⟨2, ![1, N]⟩ ![1] h1
              (shapeCast ⟨1, ![N]⟩ (extractStridedSlice ⟨2, ![1, N]⟩ ![k2, 0] Bt hs2) hc2)))))
      = gcn adj (mm x (slab ⟨k1, hk1⟩ W)) (rowOf ⟨k2, hk2⟩ Bt) := by
  rw [slice_reshape_eq_slab k1 hk1, dotGeneral_eq_mm D1 hD1]
  exact gcn_host D2 hD2 adj _ Bt ⟨k2, hk2⟩ _ Z T
    (fun p q => (broadcast_row_apply _ h1 h2 p q).trans (slice_reshape_row_apply k2 hk2 Bt hs2 hc2 q)) hZ hT

/-- A union stage as the reference spells it: the pair [z | x] joined along the columns, the stacked weight's k₁-th
    matrix, their product, and the bias table's k₂-th row broadcast over the rows. -/
theorem union_stage {M A B N n nW : Nat} {φ : FTy}
    (D : DotDims ⟨2, ![M, A + B]⟩ ⟨2, ![A + B, N]⟩ ⟨2, ![M, N]⟩) (hD : D = DotDims.plain M (A + B) N)
    (z : Mat M A) (x : Mat M B)
    (hcat : Shape.Concatenates [(⟨2, ![M, A]⟩ : Shape), (⟨2, ![M, B]⟩ : Shape)] (⟨2, ![M, A + B]⟩ : Shape) 1)
    (W : Stack nW (A + B) N) (k1 : Nat) (hk1 : k1 < nW)
    (hs1 : (⟨3, ![nW, A + B, N]⟩ : Shape).Slices ![k1, 0, 0] ⟨3, ![1, A + B, N]⟩)
    (hc1 : (⟨3, ![1, A + B, N]⟩ : Shape).ShapeCasts ⟨2, ![A + B, N]⟩)
    (Bt : Mat n N) (k2 : Nat) (hk2 : k2 < n)
    (hs2 : (⟨2, ![n, N]⟩ : Shape).Slices ![k2, 0] ⟨2, ![1, N]⟩)
    (hc2 : (⟨2, ![1, N]⟩ : Shape).ShapeCasts ⟨1, ![N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf
        (Host.dotGeneral D none
          (concatenate (⟨2, ![M, A + B]⟩ : Shape) 1 [⟨(⟨2, ![M, A]⟩ : Shape), z⟩, ⟨(⟨2, ![M, B]⟩ : Shape), x⟩] hcat : FVec Ideal ⟨2, ![M, A + B]⟩ .f32)
          (shapeCast ⟨2, ![A + B, N]⟩ (extractStridedSlice ⟨3, ![1, A + B, N]⟩ ![k1, 0, 0] W hs1) hc1 : FVec Ideal ⟨2, ![A + B, N]⟩ φ))
        (broadcastInDim ⟨2, ![M, N]⟩ ![0, 1] h2 (broadcastInDim ⟨2, ![1, N]⟩ ![1] h1
          (shapeCast ⟨1, ![N]⟩ (extractStridedSlice ⟨2, ![1, N]⟩ ![k2, 0] Bt hs2) hc2)))
      = union z (top (slab ⟨k1, hk1⟩ W)) x (bot (slab ⟨k1, hk1⟩ W)) (rowOf ⟨k2, hk2⟩ Bt) := by
  rw [slice_reshape_eq_slab k1 hk1]
  exact union_host D hD _ z x (concat_cols_eq_hcat z x hcat) _ Bt ⟨k2, hk2⟩ _
    (fun p q => (broadcast_row_apply _ h1 h2 p q).trans (slice_reshape_row_apply k2 hk2 Bt hs2 hc2 q))

/-- The two halves of a stacked weight's k-th matrix, as the kernel program slices them out. -/
theorem slab_top_eq {a b n nW : Nat} (W : Stack nW (a + b) n) (k : Nat) (hk : k < nW)
    (hs : (⟨3, ![nW, a + b, n]⟩ : Shape).Slices ![k, 0, 0] ⟨3, ![1, a + b, n]⟩)
    (hc : (⟨3, ![1, a + b, n]⟩ : Shape).ShapeCasts ⟨2, ![a + b, n]⟩)
    (hs' : (⟨2, ![a + b, n]⟩ : Shape).Slices ![0, 0] ⟨2, ![a, n]⟩) :
    extractStridedSlice ⟨2, ![a, n]⟩ ![0, 0]
        (shapeCast ⟨2, ![a + b, n]⟩ (extractStridedSlice ⟨3, ![1, a + b, n]⟩ ![k, 0, 0] W hs) hc) hs'
      = top (slab ⟨k, hk⟩ W) := by
  rw [slice_reshape_eq_slab k hk]; exact slice_top _ hs'
theorem slab_bot_eq {a b n nW : Nat} (W : Stack nW (a + b) n) (k : Nat) (hk : k < nW)
    (hs : (⟨3, ![nW, a + b, n]⟩ : Shape).Slices ![k, 0, 0] ⟨3, ![1, a + b, n]⟩)
    (hc : (⟨3, ![1, a + b, n]⟩ : Shape).ShapeCasts ⟨2, ![a + b, n]⟩)
    (hs' : (⟨2, ![a + b, n]⟩ : Shape).Slices ![a, 0] ⟨2, ![b, n]⟩) :
    extractStridedSlice ⟨2, ![b, n]⟩ ![a, 0]
        (shapeCast ⟨2, ![a + b, n]⟩ (extractStridedSlice ⟨3, ![1, a + b, n]⟩ ![k, 0, 0] W hs) hc) hs'
      = bot (slab ⟨k, hk⟩ W) := by
  rw [slice_reshape_eq_slab k hk]; exact slice_bot _ hs'

end Cert.HostForms

end
-- ==== Proof.KChainBase.lean ====
/-
  The idealized kernel program's buffer contents at each segment boundary, as the encoder model's values.

  A buffer's contents are fixed where it is produced — by a host operation of a stretch, or by a region's write-backs —
  and unchanged across every later stretch that does not write it and every later region that does not own it. Produced
  by host operations: the casts to the narrower float format (the identity on extended reals), the slabs of the weight
  stacks, the two halves of a stacked union weight, the bias rows. Produced by regions: the model's twelve values per domain.
-/
import proofs.«177232_g71837622993359_cont_sun_m_41_3_alg».proof.Proof.Gen.KernelIdeal.Frame
import proofs.«177232_g71837622993359_cont_sun_m_41_3_alg».proof.Proof.Spec
import proofs.«177232_g71837622993359_cont_sun_m_41_3_alg».proof.Proof.HostForms

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Cert.Spec Cert.HostForms

variable (m : (ℓ : Loc nD τ sig) → Buf (Elt Ideal) ℓ) (ρ : Dev nD → PrngReg)

/-- The source domain's twelve arrays, as launched on device `c`. -/
def domS (c : Dev nD) : Dom 4096 8192 where
  UV := m ((c : Thread nD τ).loc main_arg0)
  VU := m ((c : Thread nD τ).loc main_arg1)
  xu := m ((c : Thread nD τ).loc main_arg4)
  xv := m ((c : Thread nD τ).loc main_arg5)
  dW := m ((c : Thread nD τ).loc main_arg8)
  db := m ((c : Thread nD τ).loc main_arg9)
  uW := m ((c : Thread nD τ).loc main_arg10)
  ub := m ((c : Thread nD τ).loc main_arg11)
  lW := m ((c : Thread nD τ).loc main_arg12)
  lb := m ((c : Thread nD τ).loc main_arg13)
  luW := m ((c : Thread nD τ).loc main_arg14)
  lub := m ((c : Thread nD τ).loc main_arg15)

/-- The target domain's twelve arrays, as launched on device `c`. -/
def domT (c : Dev nD) : Dom 4096 8192 where
  UV := m ((c : Thread nD τ).loc main_arg2)
  VU := m ((c : Thread nD τ).loc main_arg3)
  xu := m ((c : Thread nD τ).loc main_arg6)
  xv := m ((c : Thread nD τ).loc main_arg7)
  dW := m ((c : Thread nD τ).loc main_arg16)
  db := m ((c : Thread nD τ).loc main_arg17)
  uW := m ((c : Thread nD τ).loc main_arg18)
  ub := m ((c : Thread nD τ).loc main_arg19)
  lW := m ((c : Thread nD τ).loc main_arg20)
  lb := m ((c : Thread nD τ).loc main_arg21)
  luW := m ((c : Thread nD τ).loc main_arg22)
  lub := m ((c : Thread nD τ).loc main_arg23)

/-- The buffers stretch 0's operations write. -/
abbrev hostOps0_W : List (Ref sig .tc) := [main_v0, main_v1, main_v2, main_v3, main_v4, main_v5, main_v6, main_v7, main_v8, main_v9, main_v10, main_v11]
theorem hostOps0_writes : (hostOps0 : List (HloOp τ sig (Elt Ideal))).Forall fun op =>
    op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 0. -/
theorem keepH0 (V : Valuation τ sig (Elt Ideal)) (r : Ref sig .tc) (h : r ∉ hostOps0_W) :
    StableHlo.after hostOps0 V (Proc.devRef .tc r) = V (Proc.devRef .tc r) :=
  StableHlo.after_of_writes_sub hostOps0 V hostOps0_writes h

/-- The buffers stretch 1's operations write. -/
abbrev hostOps1_W : List (Ref sig .tc) := [main_v13, main_v14]
theorem hostOps1_writes : (hostOps1 : List (HloOp τ sig (Elt Ideal))).Forall fun op =>
    op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 1. -/
theorem keepH1 (V : Valuation τ sig (Elt Ideal)) (r : Ref sig .tc) (h : r ∉ hostOps1_W) :
    StableHlo.after hostOps1 V (Proc.devRef .tc r) = V (Proc.devRef .tc r) :=
  StableHlo.after_of_writes_sub hostOps1 V hostOps1_writes h

/-- The buffers stretch 2's operations write. -/
abbrev hostOps2_W : List (Ref sig .tc) := [main_v16, main_v17, main_v18, main_v19, main_v20]
theorem hostOps2_writes : (hostOps2 : List (HloOp τ sig (Elt Ideal))).Forall fun op =>
    op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 2. -/
theorem keepH2 (V : Valuation τ sig (Elt Ideal)) (r : Ref sig .tc) (h : r ∉ hostOps2_W) :
    StableHlo.after hostOps2 V (Proc.devRef .tc r) = V (Proc.devRef .tc r) :=
  StableHlo.after_of_writes_sub hostOps2 V hostOps2_writes h

/-- The buffers stretch 3's operations write. -/
abbrev hostOps3_W : List (Ref sig .tc) := [main_v22, main_v23, main_v24, main_v25, main_v26]
theorem hostOps3_writes : (hostOps3 : List (HloOp τ sig (Elt Ideal))).Forall fun op =>
    op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 3. -/
theorem keepH3 (V : Valuation τ sig (Elt Ideal)) (r : Ref sig .tc) (h : r ∉ hostOps3_W) :
    StableHlo.after hostOps3 V (Proc.devRef .tc r) = V (Proc.devRef .tc r) :=
  StableHlo.after_of_writes_sub hostOps3 V hostOps3_writes h

/-- The buffers stretch 4's operations write. -/
abbrev hostOps4_W : List (Ref sig .tc) := [main_v28, main_v29, main_v30, main_v31, main_v32, main_v33, main_v34, main_v35, main_v36, main_v37, main_v38, main_v39]
theorem hostOps4_writes : (hostOps4 : List (HloOp τ sig (Elt Ideal))).Forall fun op =>
    op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 4. -/
theorem keepH4 (V : Valuation τ sig (Elt Ideal)) (r : Ref sig .tc) (h : r ∉ hostOps4_W) :
    StableHlo.after hostOps4 V (Proc.devRef .tc r) = V (Proc.devRef .tc r) :=
  StableHlo.after_of_writes_sub hostOps4 V hostOps4_writes h

/-- The buffers stretch 5's operations write. -/
abbrev hostOps5_W : List (Ref sig .tc) := [main_v41, main_v42, main_v43, main_v44, main_v45, main_v46, main_v47, main_v48, main_v49, main_v50, main_v51, main_v52]
theorem hostOps5_writes : (hostOps5 : List (HloOp τ sig (Elt Ideal))).Forall fun op =>
    op.writes ⊆ (hostOps5_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 5. -/
theorem keepH5 (V : Valuation τ sig (Elt Ideal)) (r : Ref sig .tc) (h : r ∉ hostOps5_W) :
    StableHlo.after hostOps5 V (Proc.devRef .tc r) = V (Proc.devRef .tc r) :=
  StableHlo.after_of_writes_sub hostOps5 V hostOps5_writes h

/-- The buffers stretch 6's operations write. -/
abbrev hostOps6_W : List (Ref sig .tc) := [main_v54, main_v55, main_v56, main_v57]
theorem hostOps6_writes : (hostOps6 : List (HloOp τ sig (Elt Ideal))).Forall fun op =>
    op.writes ⊆ (hostOps6_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 6. -/
theorem keepH6 (V : Valuation τ sig (Elt Ideal)) (r : Ref sig .tc) (h : r ∉ hostOps6_W) :
    StableHlo.after hostOps6 V (Proc.devRef .tc r) = V (Proc.devRef .tc r) :=
  StableHlo.after_of_writes_sub hostOps6 V hostOps6_writes h

/-- The buffers stretch 7's operations write. -/
abbrev hostOps7_W : List (Ref sig .tc) := [main_v59, main_v60]
theorem hostOps7_writes : (hostOps7 : List (HloOp τ sig (Elt Ideal))).Forall fun op =>
    op.writes ⊆ (hostOps7_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 7. -/
theorem keepH7 (V : Valuation τ sig (Elt Ideal)) (r : Ref sig .tc) (h : r ∉ hostOps7_W) :
    StableHlo.after hostOps7 V (Proc.devRef .tc r) = V (Proc.devRef .tc r) :=
  StableHlo.after_of_writes_sub hostOps7 V hostOps7_writes h

/-- The buffers stretch 8's operations write. -/
abbrev hostOps8_W : List (Ref sig .tc) := [main_v62, main_v63, main_v64, main_v65, main_v66]
theorem hostOps8_writes : (hostOps8 : List (HloOp τ sig (Elt Ideal))).Forall fun op =>
    op.writes ⊆ (hostOps8_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 8. -/
theorem keepH8 (V : Valuation τ sig (Elt Ideal)) (r : Ref sig .tc) (h : r ∉ hostOps8_W) :
    StableHlo.after hostOps8 V (Proc.devRef .tc r) = V (Proc.devRef .tc r) :=
  StableHlo.after_of_writes_sub hostOps8 V hostOps8_writes h

/-- The buffers stretch 9's operations write. -/
abbrev hostOps9_W : List (Ref sig .tc) := [main_v68, main_v69, main_v70, main_v71, main_v72]
theorem hostOps9_writes : (hostOps9 : List (HloOp τ sig (Elt Ideal))).Forall fun op =>
    op.writes ⊆ (hostOps9_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 9. -/
theorem keepH9 (V : Valuation τ sig (Elt Ideal)) (r : Ref sig .tc) (h : r ∉ hostOps9_W) :
    StableHlo.after hostOps9 V (Proc.devRef .tc r) = V (Proc.devRef .tc r) :=
  StableHlo.after_of_writes_sub hostOps9 V hostOps9_writes h

/-- The buffers stretch 10's operations write. -/
abbrev hostOps10_W : List (Ref sig .tc) := [main_v74, main_v75, main_v76, main_v77, main_v78, main_v79, main_v80, main_v81, main_v82, main_v83, main_v84, main_v85]
theorem hostOps10_writes : (hostOps10 : List (HloOp τ sig (Elt Ideal))).Forall fun op =>
    op.writes ⊆ (hostOps10_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 10. -/
theorem keepH10 (V : Valuation τ sig (Elt Ideal)) (r : Ref sig .tc) (h : r ∉ hostOps10_W) :
    StableHlo.after hostOps10 V (Proc.devRef .tc r) = V (Proc.devRef .tc r) :=
  StableHlo.after_of_writes_sub hostOps10 V hostOps10_writes h

/-- The buffers stretch 11's operations write. -/
abbrev hostOps11_W : List (Ref sig .tc) := [main_v87, main_v88, main_v89, main_v90, main_v91, main_v92, main_v93, main_v94, main_v95, main_v96, main_v97, main_v98]
theorem hostOps11_writes : (hostOps11 : List (HloOp τ sig (Elt Ideal))).Forall fun op =>
    op.writes ⊆ (hostOps11_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 11. -/
theorem keepH11 (V : Valuation τ sig (Elt Ideal)) (r : Ref sig .tc) (h : r ∉ hostOps11_W) :
    StableHlo.after hostOps11 V (Proc.devRef .tc r) = V (Proc.devRef .tc r) :=
  StableHlo.after_of_writes_sub hostOps11 V hostOps11_writes h

/-- The buffers stretch 12's operations write. -/
abbrev hostOps12_W : List (Ref sig .tc) := [main_v100, main_v101, main_v102, main_v103, main_v104, main_v105, main_v106, main_v107, main_v108, main_v109]
theorem hostOps12_writes : (hostOps12 : List (HloOp τ sig (Elt Ideal))).Forall fun op =>
    op.writes ⊆ (hostOps12_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 12. -/
theorem keepH12 (V : Valuation τ sig (Elt Ideal)) (r : Ref sig .tc) (h : r ∉ hostOps12_W) :
    StableHlo.after hostOps12 V (Proc.devRef .tc r) = V (Proc.devRef .tc r) :=
  StableHlo.after_of_writes_sub hostOps12 V hostOps12_writes h

/-- The buffers stretch 13's operations write. -/
abbrev hostOps13_W : List (Ref sig .tc) := [main_v111, main_v112]
theorem hostOps13_writes : (hostOps13 : List (HloOp τ sig (Elt Ideal))).Forall fun op =>
    op.writes ⊆ (hostOps13_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 13. -/
theorem keepH13 (V : Valuation τ sig (Elt Ideal)) (r : Ref sig .tc) (h : r ∉ hostOps13_W) :
    StableHlo.after hostOps13 V (Proc.devRef .tc r) = V (Proc.devRef .tc r) :=
  StableHlo.after_of_writes_sub hostOps13 V hostOps13_writes h

/-- The buffers stretch 14's operations write. -/
abbrev hostOps14_W : List (Ref sig .tc) := [main_v114, main_v115, main_v116, main_v117, main_v118]
theorem hostOps14_writes : (hostOps14 : List (HloOp τ sig (Elt Ideal))).Forall fun op =>
    op.writes ⊆ (hostOps14_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 14. -/
theorem keepH14 (V : Valuation τ sig (Elt Ideal)) (r : Ref sig .tc) (h : r ∉ hostOps14_W) :
    StableHlo.after hostOps14 V (Proc.devRef .tc r) = V (Proc.devRef .tc r) :=
  StableHlo.after_of_writes_sub hostOps14 V hostOps14_writes h

/-- The buffers stretch 15's operations write. -/
abbrev hostOps15_W : List (Ref sig .tc) := [main_v120, main_v121, main_v122, main_v123, main_v124]
theorem hostOps15_writes : (hostOps15 : List (HloOp τ sig (Elt Ideal))).Forall fun op =>
    op.writes ⊆ (hostOps15_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 15. -/
theorem keepH15 (V : Valuation τ sig (Elt Ideal)) (r : Ref sig .tc) (h : r ∉ hostOps15_W) :
    StableHlo.after hostOps15 V (Proc.devRef .tc r) = V (Proc.devRef .tc r) :=
  StableHlo.after_of_writes_sub hostOps15 V hostOps15_writes h

/-- The buffers stretch 16's operations write. -/
abbrev hostOps16_W : List (Ref sig .tc) := [main_v126, main_v127, main_v128, main_v129, main_v130, main_v131, main_v132, main_v133, main_v134, main_v135, main_v136, main_v137]
theorem hostOps16_writes : (hostOps16 : List (HloOp τ sig (Elt Ideal))).Forall fun op =>
    op.writes ⊆ (hostOps16_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 16. -/
theorem keepH16 (V : Valuation τ sig (Elt Ideal)) (r : Ref sig .tc) (h : r ∉ hostOps16_W) :
    StableHlo.after hostOps16 V (Proc.devRef .tc r) = V (Proc.devRef .tc r) :=
  StableHlo.after_of_writes_sub hostOps16 V hostOps16_writes h

/-- The buffers stretch 17's operations write. -/
abbrev hostOps17_W : List (Ref sig .tc) := [main_v139, main_v140, main_v141, main_v142, main_v143, main_v144, main_v145, main_v146, main_v147, main_v148, main_v149, main_v150]
theorem hostOps17_writes : (hostOps17 : List (HloOp τ sig (Elt Ideal))).Forall fun op =>
    op.writes ⊆ (hostOps17_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 17. -/
theorem keepH17 (V : Valuation τ sig (Elt Ideal)) (r : Ref sig .tc) (h : r ∉ hostOps17_W) :
    StableHlo.after hostOps17 V (Proc.devRef .tc r) = V (Proc.devRef .tc r) :=
  StableHlo.after_of_writes_sub hostOps17 V hostOps17_writes h

/-- The buffers stretch 18's operations write. -/
abbrev hostOps18_W : List (Ref sig .tc) := [main_v152, main_v153, main_v154, main_v155]
theorem hostOps18_writes : (hostOps18 : List (HloOp τ sig (Elt Ideal))).Forall fun op =>
    op.writes ⊆ (hostOps18_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 18. -/
theorem keepH18 (V : Valuation τ sig (Elt Ideal)) (r : Ref sig .tc) (h : r ∉ hostOps18_W) :
    StableHlo.after hostOps18 V (Proc.devRef .tc r) = V (Proc.devRef .tc r) :=
  StableHlo.after_of_writes_sub hostOps18 V hostOps18_writes h

/-- The buffers stretch 19's operations write. -/
abbrev hostOps19_W : List (Ref sig .tc) := [main_v157, main_v158]
theorem hostOps19_writes : (hostOps19 : List (HloOp τ sig (Elt Ideal))).Forall fun op =>
    op.writes ⊆ (hostOps19_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 19. -/
theorem keepH19 (V : Valuation τ sig (Elt Ideal)) (r : Ref sig .tc) (h : r ∉ hostOps19_W) :
    StableHlo.after hostOps19 V (Proc.devRef .tc r) = V (Proc.devRef .tc r) :=
  StableHlo.after_of_writes_sub hostOps19 V hostOps19_writes h

/-- The buffers stretch 20's operations write. -/
abbrev hostOps20_W : List (Ref sig .tc) := [main_v160, main_v161, main_v162, main_v163, main_v164]
theorem hostOps20_writes : (hostOps20 : List (HloOp τ sig (Elt Ideal))).Forall fun op =>
    op.writes ⊆ (hostOps20_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 20. -/
theorem keepH20 (V : Valuation τ sig (Elt Ideal)) (r : Ref sig .tc) (h : r ∉ hostOps20_W) :
    StableHlo.after hostOps20 V (Proc.devRef .tc r) = V (Proc.devRef .tc r) :=
  StableHlo.after_of_writes_sub hostOps20 V hostOps20_writes h

/-- The buffers stretch 21's operations write. -/
abbrev hostOps21_W : List (Ref sig .tc) := [main_v166, main_v167, main_v168, main_v169, main_v170]
theorem hostOps21_writes : (hostOps21 : List (HloOp τ sig (Elt Ideal))).Forall fun op =>
    op.writes ⊆ (hostOps21_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 21. -/
theorem keepH21 (V : Valuation τ sig (Elt Ideal)) (r : Ref sig .tc) (h : r ∉ hostOps21_W) :
    StableHlo.after hostOps21 V (Proc.devRef .tc r) = V (Proc.devRef .tc r) :=
  StableHlo.after_of_writes_sub hostOps21 V hostOps21_writes h

/-- The buffers stretch 22's operations write. -/
abbrev hostOps22_W : List (Ref sig .tc) := [main_v172, main_v173, main_v174, main_v175, main_v176, main_v177, main_v178, main_v179, main_v180, main_v181, main_v182, main_v183]
theorem hostOps22_writes : (hostOps22 : List (HloOp τ sig (Elt Ideal))).Forall fun op =>
    op.writes ⊆ (hostOps22_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 22. -/
theorem keepH22 (V : Valuation τ sig (Elt Ideal)) (r : Ref sig .tc) (h : r ∉ hostOps22_W) :
    StableHlo.after hostOps22 V (Proc.devRef .tc r) = V (Proc.devRef .tc r) :=
  StableHlo.after_of_writes_sub hostOps22 V hostOps22_writes h

/-- The buffers stretch 23's operations write. -/
abbrev hostOps23_W : List (Ref sig .tc) := [main_v185, main_v186, main_v187, main_v188, main_v189, main_v190, main_v191, main_v192, main_v193, main_v194, main_v195, main_v196]
theorem hostOps23_writes : (hostOps23 : List (HloOp τ sig (Elt Ideal))).Forall fun op =>
    op.writes ⊆ (hostOps23_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 23. -/
theorem keepH23 (V : Valuation τ sig (Elt Ideal)) (r : Ref sig .tc) (h : r ∉ hostOps23_W) :
    StableHlo.after hostOps23 V (Proc.devRef .tc r) = V (Proc.devRef .tc r) :=
  StableHlo.after_of_writes_sub hostOps23 V hostOps23_writes h

/-- The buffers stretch 24's operations write. -/
abbrev hostOps24_W : List (Ref sig .tc) := [main_v198, main_v199, main_v200, main_v201, main_v202, main_v203, main_v204, main_v205]
theorem hostOps24_writes : (hostOps24 : List (HloOp τ sig (Elt Ideal))).Forall fun op =>
    op.writes ⊆ (hostOps24_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list keeps its contents through stretch 24. -/
theorem keepH24 (V : Valuation τ sig (Elt Ideal)) (r : Ref sig .tc) (h : r ∉ hostOps24_W) :
    StableHlo.after hostOps24 V (Proc.devRef .tc r) = V (Proc.devRef .tc r) :=
  StableHlo.after_of_writes_sub hostOps24 V hostOps24_writes h

end Cert.KernelIdeal.Chain

end
-- ==== Proof.KBlocks.lean ====
/-
  The three kinds of block a grid point of the encoder computes, each read at an entry as the mathematics it is.

  Every pallas kernel of the program stores one 512×128 block per grid point. There are three kinds. The plain product:
  the 512×128 row block times a 128×128 weight. The graph convolution step followed by a projection: with
  h (p, l) the leaky rectifier of ∑ k, adj (p, k) · y (k, l) + b (l), the block is ∑ l, h (p, l) · w (l, q). The union
  projection: ∑ l, h (p, l) · wa (l, q) + ∑ l, x (p, l) · wb (l, q) + ub (q), with or without a final maximum against
  zero. The contracted extent of the graph convolution is 4096 or 8192; everything else is 512 and 128. Changes of
  number format are the identity on extended reals, and a product into the zero accumulator is the plain sum of
  products, so each block's entry is the stated sum exactly.
-/
import proofs.«177232_g71837622993359_cont_sun_m_41_3_alg».proof.Proof.Gen.KernelIdeal.Skeleton
import proofs.«177232_g71837622993359_cont_sun_m_41_3_alg».proof.Proof.Spec
import proofs.«177232_g71837622993359_cont_sun_m_41_3_alg».proof.Proof.LibPlainMatmul
import Idealize.ShloMosaic.Lib.ValueLayout

set_option maxRecDepth 16384

noncomputable section

namespace Cert.KernelIdeal.RegionValue

open Cert.KernelIdeal Cert.KernelIdeal.Gen Idealize.ShloMosaic
open Idealize.ShloMosaic.ValueIdx

/-- The zero offsets of a whole-buffer access, as the constant function. -/
theorem zeros2 : (![0, 0] : Fin 2 → Nat) = fun _ => 0 := funext fun a => by fin_cases a <;> rfl

/-! ## The plain product -/

/-- A 512×128 row block times a 128×128 weight. -/
def mmBlock (x0 : FVec Ideal S512x128 .bf16) (x1 : FVec Ideal S128x128 .bf16) : FVec Ideal S512x128 .bf16 :=
  truncf .bf16 (matmul dot_S512x128_S128x128_S512x128_1_0_0_1_n_n none
    (shapeCast S512x128 x0 shapeCasts_S512x128_S512x128) (shapeCast S128x128 x1 shapeCasts_S128x128_S128x128)
    (constant S512x128 .f32 0x00000000#32)) bitsLt_bf16_f32

/-- At (p, q) it is the sum over l of the row block's (p, l) times the weight's (l, q). -/
theorem mmBlock_apply (x0 : FVec Ideal S512x128 .bf16) (x1 : FVec Ideal S128x128 .bf16) (p : Fin 512) (q : Fin 128) :
    mmBlock x0 x1 (ix2 p q) = ∑ l : Fin 128, x0 (ix2 p l) * x1 (ix2 l q) := by
  unfold mmBlock
  rw [truncf_apply, shapeCast_self, shapeCast_self]
  exact PlainMatmul.plain_matmul_zero_apply 512 128 128 none x0 x1 p q

/-- A block of the plain product is the block of rows of the whole arrays' product, when each loaded block reads its
    array where the output's rows say: entry i of the whole, for the block entry (p, q) that lies at i. -/
theorem mm_entry {M : Nat} (x0 : FVec Ideal S512x128 .bf16) (x1 : FVec Ideal S128x128 .bf16)
    (A : Spec.Mat M 128) (W : Spec.Mat 128 128) (i : (⟨2, ![M, 128]⟩ : Shape).Idx) (p : Fin 512) (q : Fin 128)
    (h0 : ∀ l : Fin 128, x0 (ix2 p l) = A (ix2 (Spec.row i) l))
    (h1 : ∀ l : Fin 128, x1 (ix2 l q) = W (ix2 l (Spec.col i))) :
    mmBlock x0 x1 (ix2 p q) = Spec.mm A W i := by
  rw [mmBlock_apply]
  exact Finset.sum_congr rfl fun l _ => by rw [h0 l, h1 l]

/-! ## The rectified union projection -/

/-- The final maximum against zero, entry by entry. -/
theorem relu_apply (v : FVec Ideal S512x128 .f32) (i : S512x128.Idx) :
    maximumf v (broadcast S512x128 (Scalar.ofBits .f32 0x00000000#32)) i = Spec.relu (v i) := rfl

/-! ## The graph convolution step, its projection and the union projection, contracted over 4096 -/

/-- One graph convolution step on a block of 512 rows, contracted over 4096: the leaky rectifier of the row block times
    the whole right factor, plus the bias row; the value the two later products take as their left factor. -/
def hid4096 (x0 : FVec Ideal S512x4096 .bf16) (x1 : FVec Ideal S4096x128 .bf16) (x2 : FVec Ideal S1x128 .f32) : FVec Ideal S512x128 .bf16 :=
  have v8 : FVec Ideal S512x128 .f32 := addf
    (matmul dot_S512x4096_S4096x128_S512x128_1_0_0_1_n_n none (shapeCast S512x4096 x0 shapeCasts_S512x4096_S512x4096)
      (shapeCast S4096x128 x1 shapeCasts_S4096x128_S4096x128) (constant S512x128 .f32 0x00000000#32))
    (broadcastTo S512x128 (shapeCast S1x128 x2 shapeCasts_S1x128_S1x128) broadcasts_S1x128_S512x128)
  truncf .bf16 (select (cmpf .ogt v8 (broadcast S512x128 (Scalar.ofBits .f32 0x00000000#32))) v8
    (mulf (broadcast S512x128 (Scalar.ofBits .f32 0x3DCCCCCD#32)) v8)) bitsLt_bf16_f32

/-- At (p, l) it is the leaky rectifier of the sum over k of left (p, k) · right (k, l), plus bias (0, l). -/
theorem hid4096_apply (x0 : FVec Ideal S512x4096 .bf16) (x1 : FVec Ideal S4096x128 .bf16) (x2 : FVec Ideal S1x128 .f32)
    (p : Fin 512) (l : Fin 128) :
    hid4096 x0 x1 x2 (ix2 p l) = Spec.leaky ((∑ k : Fin 4096, x0 (ix2 p k) * x1 (ix2 k l)) + x2 (ix2 (0 : Fin 1) l)) := by
  have hA : matmul dot_S512x4096_S4096x128_S512x128_1_0_0_1_n_n none (shapeCast S512x4096 x0 shapeCasts_S512x4096_S512x4096)
      (shapeCast S4096x128 x1 shapeCasts_S4096x128_S4096x128) (constant S512x128 .f32 0x00000000#32) (ix2 p l)
      = ∑ k : Fin 4096, x0 (ix2 p k) * x1 (ix2 k l) := by
    rw [shapeCast_self, shapeCast_self]
    exact PlainMatmul.plain_matmul_zero_apply 512 4096 128 none x0 x1 p l
  have hB : broadcastTo S512x128 (shapeCast S1x128 x2 shapeCasts_S1x128_S1x128) broadcasts_S1x128_S512x128 (ix2 p l)
      = x2 (ix2 (0 : Fin 1) l) := by
    rw [shapeCast_self]
    exact broadcastTo_1b_ab_apply x2 _ p l
  have e : hid4096 x0 x1 x2 (ix2 p l) = Spec.leaky
      (matmul dot_S512x4096_S4096x128_S512x128_1_0_0_1_n_n none (shapeCast S512x4096 x0 shapeCasts_S512x4096_S512x4096)
          (shapeCast S4096x128 x1 shapeCasts_S4096x128_S4096x128) (constant S512x128 .f32 0x00000000#32) (ix2 p l)
        + broadcastTo S512x128 (shapeCast S1x128 x2 shapeCasts_S1x128_S1x128) broadcasts_S1x128_S512x128 (ix2 p l)) := rfl
  rw [e, hA, hB]

/-- A graph convolution step followed by a projection, on a block of 512 rows contracted over 4096: the step's block
    times the 128×128 projection weight. -/
def postBlock4096 (x0 : FVec Ideal S512x4096 .bf16) (x1 : FVec Ideal S4096x128 .bf16) (x2 : FVec Ideal S1x128 .f32)
    (x3 : FVec Ideal S128x128 .bf16) : FVec Ideal S512x128 .bf16 :=
  truncf .bf16 (matmul dot_S512x128_S128x128_S512x128_1_0_0_1_n_n none (hid4096 x0 x1 x2)
    (shapeCast S128x128 x3 shapeCasts_S128x128_S128x128) (constant S512x128 .f32 0x00000000#32)) bitsLt_bf16_f32

/-- At (p, q) it is the sum over l of the step's (p, l) times the weight's (l, q). -/
theorem postBlock4096_apply (x0 : FVec Ideal S512x4096 .bf16) (x1 : FVec Ideal S4096x128 .bf16) (x2 : FVec Ideal S1x128 .f32)
    (x3 : FVec Ideal S128x128 .bf16) (p : Fin 512) (q : Fin 128) :
    postBlock4096 x0 x1 x2 x3 (ix2 p q)
      = ∑ l : Fin 128, Spec.leaky ((∑ k : Fin 4096, x0 (ix2 p k) * x1 (ix2 k l)) + x2 (ix2 (0 : Fin 1) l)) * x3 (ix2 l q) := by
  unfold postBlock4096
  rw [truncf_apply, shapeCast_self]
  refine (PlainMatmul.plain_matmul_zero_apply 512 128 128 none (hid4096 x0 x1 x2) x3 p q).trans ?_
  exact Finset.sum_congr rfl fun l _ => by rw [hid4096_apply]

/-- The union projection on a block of 512 rows, before its activation: the step's block times the first weight, plus
    the second row block times the second weight, plus the bias row. -/
def unionBlock4096 (x0 : FVec Ideal S512x4096 .bf16) (x1 : FVec Ideal S4096x128 .bf16) (x2 : FVec Ideal S1x128 .f32)
    (x3 : FVec Ideal S128x128 .bf16) (x4 : FVec Ideal S512x128 .bf16) (x5 : FVec Ideal S128x128 .bf16) (x6 : FVec Ideal S1x128 .f32) :
    FVec Ideal S512x128 .f32 :=
  addf (addf
      (matmul dot_S512x128_S128x128_S512x128_1_0_0_1_n_n none (hid4096 x0 x1 x2)
        (shapeCast S128x128 x3 shapeCasts_S128x128_S128x128) (constant S512x128 .f32 0x00000000#32))
      (matmul dot_S512x128_S128x128_S512x128_1_0_0_1_n_n none (shapeCast S512x128 x4 shapeCasts_S512x128_S512x128)
        (shapeCast S128x128 x5 shapeCasts_S128x128_S128x128) (constant S512x128 .f32 0x00000000#32)))
    (broadcastTo S512x128 (shapeCast S1x128 x6 shapeCasts_S1x128_S1x128) broadcasts_S1x128_S512x128)

/-- At (p, q): the two sums over l, plus bias (0, q). -/
theorem unionBlock4096_apply (x0 : FVec Ideal S512x4096 .bf16) (x1 : FVec Ideal S4096x128 .bf16) (x2 : FVec Ideal S1x128 .f32)
    (x3 : FVec Ideal S128x128 .bf16) (x4 : FVec Ideal S512x128 .bf16) (x5 : FVec Ideal S128x128 .bf16) (x6 : FVec Ideal S1x128 .f32)
    (p : Fin 512) (q : Fin 128) :
    unionBlock4096 x0 x1 x2 x3 x4 x5 x6 (ix2 p q)
      = (∑ l : Fin 128, Spec.leaky ((∑ k : Fin 4096, x0 (ix2 p k) * x1 (ix2 k l)) + x2 (ix2 (0 : Fin 1) l)) * x3 (ix2 l q))
        + (∑ l : Fin 128, x4 (ix2 p l) * x5 (ix2 l q)) + x6 (ix2 (0 : Fin 1) q) := by
  have h1 : matmul dot_S512x128_S128x128_S512x128_1_0_0_1_n_n none (hid4096 x0 x1 x2)
      (shapeCast S128x128 x3 shapeCasts_S128x128_S128x128) (constant S512x128 .f32 0x00000000#32) (ix2 p q)
      = ∑ l : Fin 128, Spec.leaky ((∑ k : Fin 4096, x0 (ix2 p k) * x1 (ix2 k l)) + x2 (ix2 (0 : Fin 1) l)) * x3 (ix2 l q) := by
    rw [shapeCast_self]
    refine (PlainMatmul.plain_matmul_zero_apply 512 128 128 none (hid4096 x0 x1 x2) x3 p q).trans ?_
    exact Finset.sum_congr rfl fun l _ => by rw [hid4096_apply]
  have h2 : matmul dot_S512x128_S128x128_S512x128_1_0_0_1_n_n none (shapeCast S512x128 x4 shapeCasts_S512x128_S512x128)
      (shapeCast S128x128 x5 shapeCasts_S128x128_S128x128) (constant S512x128 .f32 0x00000000#32) (ix2 p q)
      = ∑ l : Fin 128, x4 (ix2 p l) * x5 (ix2 l q) := by
    rw [shapeCast_self, shapeCast_self]
    exact PlainMatmul.plain_matmul_zero_apply 512 128 128 none x4 x5 p q
  have h3 : broadcastTo S512x128 (shapeCast S1x128 x6 shapeCasts_S1x128_S1x128) broadcasts_S1x128_S512x128 (ix2 p q)
      = x6 (ix2 (0 : Fin 1) q) := by
    rw [shapeCast_self]
    exact broadcastTo_1b_ab_apply x6 _ p q
  unfold unionBlock4096
  rw [addf_apply, addf_apply, h1, h2, h3]

/-- A block of the projected step is the block of rows of the whole arrays' projected step, when each loaded block reads
    its array where the output's rows say: entry i of the whole, for the block entry (p, q) that lies at i. -/
theorem post_entry4096 {M : Nat} (x0 : FVec Ideal S512x4096 .bf16) (x1 : FVec Ideal S4096x128 .bf16) (x2 : FVec Ideal S1x128 .f32)
    (x3 : FVec Ideal S128x128 .bf16) (A : Spec.Mat M 4096) (Y : Spec.Mat 4096 128) (B : Spec.Mat 1 128) (PW : Spec.Mat 128 128)
    (i : (⟨2, ![M, 128]⟩ : Shape).Idx) (p : Fin 512) (q : Fin 128)
    (h0 : ∀ k : Fin 4096, x0 (ix2 p k) = A (ix2 (Spec.row i) k))
    (h1 : ∀ (k : Fin 4096) (l : Fin 128), x1 (ix2 k l) = Y (ix2 k l))
    (h2 : ∀ l : Fin 128, x2 (ix2 (0 : Fin 1) l) = B (ix2 (0 : Fin 1) l))
    (h3 : ∀ l : Fin 128, x3 (ix2 l q) = PW (ix2 l (Spec.col i))) :
    postBlock4096 x0 x1 x2 x3 (ix2 p q) = Spec.mm (Spec.gcn A Y (fun q => B (ix2 (0 : Fin 1) q))) PW i := by
  rw [postBlock4096_apply]
  refine Finset.sum_congr rfl fun l _ => ?_
  have hs : (∑ k : Fin 4096, x0 (ix2 p k) * x1 (ix2 k l)) = ∑ k : Fin 4096, A (ix2 (Spec.row i) k) * Y (ix2 k l) :=
    Finset.sum_congr rfl fun k _ => by rw [h0 k, h1 k l]
  rw [hs, h2 l, h3 l]
  rfl

/-- The same for the union projection before its activation. -/
theorem union_entry4096 {M : Nat} (x0 : FVec Ideal S512x4096 .bf16) (x1 : FVec Ideal S4096x128 .bf16) (x2 : FVec Ideal S1x128 .f32)
    (x3 : FVec Ideal S128x128 .bf16) (x4 : FVec Ideal S512x128 .bf16) (x5 : FVec Ideal S128x128 .bf16) (x6 : FVec Ideal S1x128 .f32)
    (A : Spec.Mat M 4096) (Y : Spec.Mat 4096 128) (B : Spec.Mat 1 128) (WA : Spec.Mat 128 128) (X : Spec.Mat M 128)
    (WB : Spec.Mat 128 128) (UB : Spec.Mat 1 128)
    (i : (⟨2, ![M, 128]⟩ : Shape).Idx) (p : Fin 512) (q : Fin 128)
    (h0 : ∀ k : Fin 4096, x0 (ix2 p k) = A (ix2 (Spec.row i) k))
    (h1 : ∀ (k : Fin 4096) (l : Fin 128), x1 (ix2 k l) = Y (ix2 k l))
    (h2 : ∀ l : Fin 128, x2 (ix2 (0 : Fin 1) l) = B (ix2 (0 : Fin 1) l))
    (h3 : ∀ l : Fin 128, x3 (ix2 l q) = WA (ix2 l (Spec.col i)))
    (h4 : ∀ l : Fin 128, x4 (ix2 p l) = X (ix2 (Spec.row i) l))
    (h5 : ∀ l : Fin 128, x5 (ix2 l q) = WB (ix2 l (Spec.col i)))
    (h6 : x6 (ix2 (0 : Fin 1) q) = UB (ix2 (0 : Fin 1) (Spec.col i))) :
    unionBlock4096 x0 x1 x2 x3 x4 x5 x6 (ix2 p q)
      = Spec.union (Spec.gcn A Y (fun q => B (ix2 (0 : Fin 1) q))) WA X WB (fun q => UB (ix2 (0 : Fin 1) q)) i := by
  rw [unionBlock4096_apply]
  have hs : ∀ l : Fin 128, (∑ k : Fin 4096, x0 (ix2 p k) * x1 (ix2 k l)) = ∑ k : Fin 4096, A (ix2 (Spec.row i) k) * Y (ix2 k l) :=
    fun l => Finset.sum_congr rfl fun k _ => by rw [h0 k, h1 k l]
  have e1 : (∑ l : Fin 128, Spec.leaky ((∑ k : Fin 4096, x0 (ix2 p k) * x1 (ix2 k l)) + x2 (ix2 (0 : Fin 1) l)) * x3 (ix2 l q))
      = Spec.mm (Spec.gcn A Y (fun q => B (ix2 (0 : Fin 1) q))) WA i := by
    refine Finset.sum_congr rfl fun l _ => ?_
    rw [hs l, h2 l, h3 l]
    rfl
  have e2 : (∑ l : Fin 128, x4 (ix2 p l) * x5 (ix2 l q)) = Spec.mm X WB i :=
    Finset.sum_congr rfl fun l _ => by rw [h4 l, h5 l]
  rw [e1, e2, h6]
  rfl

/-- The same for the rectified union projection: the block's final maximum against zero is the rectifier. -/
theorem union_relu_entry4096 {M : Nat} (x0 : FVec Ideal S512x4096 .bf16) (x1 : FVec Ideal S4096x128 .bf16) (x2 : FVec Ideal S1x128 .f32)
    (x3 : FVec Ideal S128x128 .bf16) (x4 : FVec Ideal S512x128 .bf16) (x5 : FVec Ideal S128x128 .bf16) (x6 : FVec Ideal S1x128 .f32)
    (A : Spec.Mat M 4096) (Y : Spec.Mat 4096 128) (B : Spec.Mat 1 128) (WA : Spec.Mat 128 128) (X : Spec.Mat M 128)
    (WB : Spec.Mat 128 128) (UB : Spec.Mat 1 128)
    (i : (⟨2, ![M, 128]⟩ : Shape).Idx) (p : Fin 512) (q : Fin 128)
    (h0 : ∀ k : Fin 4096, x0 (ix2 p k) = A (ix2 (Spec.row i) k))
    (h1 : ∀ (k : Fin 4096) (l : Fin 128), x1 (ix2 k l) = Y (ix2 k l))
    (h2 : ∀ l : Fin 128, x2 (ix2 (0 : Fin 1) l) = B (ix2 (0 : Fin 1) l))
    (h3 : ∀ l : Fin 128, x3 (ix2 l q) = WA (ix2 l (Spec.col i)))
    (h4 : ∀ l : Fin 128, x4 (ix2 p l) = X (ix2 (Spec.row i) l))
    (h5 : ∀ l : Fin 128, x5 (ix2 l q) = WB (ix2 l (Spec.col i)))
    (h6 : x6 (ix2 (0 : Fin 1) q) = UB (ix2 (0 : Fin 1) (Spec.col i))) :
    maximumf (unionBlock4096 x0 x1 x2 x3 x4 x5 x6) (broadcast S512x128 (Scalar.ofBits .f32 0x00000000#32)) (ix2 p q)
      = Spec.relu (Spec.union (Spec.gcn A Y (fun q => B (ix2 (0 : Fin 1) q))) WA X WB (fun q => UB (ix2 (0 : Fin 1) q)) i) :=
  (relu_apply _ _).trans (congrArg Spec.relu (union_entry4096 x0 x1 x2 x3 x4 x5 x6 A Y B WA X WB UB i p q h0 h1 h2 h3 h4 h5 h6))

/-! ## The same, contracted over 8192 -/

/-- One graph convolution step on a block of 512 rows, contracted over 8192: the leaky rectifier of the row block times
    the whole right factor, plus the bias row; the value the two later products take as their left factor. -/
def hid8192 (x0 : FVec Ideal S512x8192 .bf16) (x1 : FVec Ideal S8192x128 .bf16) (x2 : FVec Ideal S1x128 .f32) : FVec Ideal S512x128 .bf16 :=
  have v8 : FVec Ideal S512x128 .f32 := addf
    (matmul dot_S512x8192_S8192x128_S512x128_1_0_0_1_n_n none (shapeCast S512x8192 x0 shapeCasts_S512x8192_S512x8192)
      (shapeCast S8192x128 x1 shapeCasts_S8192x128_S8192x128) (constant S512x128 .f32 0x00000000#32))
    (broadcastTo S512x128 (shapeCast S1x128 x2 shapeCasts_S1x128_S1x128) broadcasts_S1x128_S512x128)
  truncf .bf16 (select (cmpf .ogt v8 (broadcast S512x128 (Scalar.ofBits .f32 0x00000000#32))) v8
    (mulf (broadcast S512x128 (Scalar.ofBits .f32 0x3DCCCCCD#32)) v8)) bitsLt_bf16_f32

/-- At (p, l) it is the leaky rectifier of the sum over k of left (p, k) · right (k, l), plus bias (0, l). -/
theorem hid8192_apply (x0 : FVec Ideal S512x8192 .bf16) (x1 : FVec Ideal S8192x128 .bf16) (x2 : FVec Ideal S1x128 .f32)
    (p : Fin 512) (l : Fin 128) :
    hid8192 x0 x1 x2 (ix2 p l) = Spec.leaky ((∑ k : Fin 8192, x0 (ix2 p k) * x1 (ix2 k l)) + x2 (ix2 (0 : Fin 1) l)) := by
  have hA : matmul dot_S512x8192_S8192x128_S512x128_1_0_0_1_n_n none (shapeCast S512x8192 x0 shapeCasts_S512x8192_S512x8192)
      (shapeCast S8192x128 x1 shapeCasts_S8192x128_S8192x128) (constant S512x128 .f32 0x00000000#32) (ix2 p l)
      = ∑ k : Fin 8192, x0 (ix2 p k) * x1 (ix2 k l) := by
    rw [shapeCast_self, shapeCast_self]
    exact PlainMatmul.plain_matmul_zero_apply 512 8192 128 none x0 x1 p l
  have hB : broadcastTo S512x128 (shapeCast S1x128 x2 shapeCasts_S1x128_S1x128) broadcasts_S1x128_S512x128 (ix2 p l)
      = x2 (ix2 (0 : Fin 1) l) := by
    rw [shapeCast_self]
    exact broadcastTo_1b_ab_apply x2 _ p l
  have e : hid8192 x0 x1 x2 (ix2 p l) = Spec.leaky
      (matmul dot_S512x8192_S8192x128_S512x128_1_0_0_1_n_n none (shapeCast S512x8192 x0 shapeCasts_S512x8192_S512x8192)
          (shapeCast S8192x128 x1 shapeCasts_S8192x128_S8192x128) (constant S512x128 .f32 0x00000000#32) (ix2 p l)
        + broadcastTo S512x128 (shapeCast S1x128 x2 shapeCasts_S1x128_S1x128) broadcasts_S1x128_S512x128 (ix2 p l)) := rfl
  rw [e, hA, hB]

/-- A graph convolution step followed by a projection, on a block of 512 rows contracted over 8192: the step's block
    times the 128×128 projection weight. -/
def postBlock8192 (x0 : FVec Ideal S512x8192 .bf16) (x1 : FVec Ideal S8192x128 .bf16) (x2 : FVec Ideal S1x128 .f32)
    (x3 : FVec Ideal S128x128 .bf16) : FVec Ideal S512x128 .bf16 :=
  truncf .bf16 (matmul dot_S512x128_S128x128_S512x128_1_0_0_1_n_n none (hid8192 x0 x1 x2)
    (shapeCast S128x128 x3 shapeCasts_S128x128_S128x128) (constant S512x128 .f32 0x00000000#32)) bitsLt_bf16_f32

/-- At (p, q) it is the sum over l of the step's (p, l) times the weight's (l, q). -/
theorem postBlock8192_apply (x0 : FVec Ideal S512x8192 .bf16) (x1 : FVec Ideal S8192x128 .bf16) (x2 : FVec Ideal S1x128 .f32)
    (x3 : FVec Ideal S128x128 .bf16) (p : Fin 512) (q : Fin 128) :
    postBlock8192 x0 x1 x2 x3 (ix2 p q)
      = ∑ l : Fin 128, Spec.leaky ((∑ k : Fin 8192, x0 (ix2 p k) * x1 (ix2 k l)) + x2 (ix2 (0 : Fin 1) l)) * x3 (ix2 l q) := by
  unfold postBlock8192
  rw [truncf_apply, shapeCast_self]
  refine (PlainMatmul.plain_matmul_zero_apply 512 128 128 none (hid8192 x0 x1 x2) x3 p q).trans ?_
  exact Finset.sum_congr rfl fun l _ => by rw [hid8192_apply]

/-- The union projection on a block of 512 rows, before its activation: the step's block times the first weight, plus
    the second row block times the second weight, plus the bias row. -/
def unionBlock8192 (x0 : FVec Ideal S512x8192 .bf16) (x1 : FVec Ideal S8192x128 .bf16) (x2 : FVec Ideal S1x128 .f32)
    (x3 : FVec Ideal S128x128 .bf16) (x4 : FVec Ideal S512x128 .bf16) (x5 : FVec Ideal S128x128 .bf16) (x6 : FVec Ideal S1x128 .f32) :
    FVec Ideal S512x128 .f32 :=
  addf (addf
      (matmul dot_S512x128_S128x128_S512x128_1_0_0_1_n_n none (hid8192 x0 x1 x2)
        (shapeCast S128x128 x3 shapeCasts_S128x128_S128x128) (constant S512x128 .f32 0x00000000#32))
      (matmul dot_S512x128_S128x128_S512x128_1_0_0_1_n_n none (shapeCast S512x128 x4 shapeCasts_S512x128_S512x128)
        (shapeCast S128x128 x5 shapeCasts_S128x128_S128x128) (constant S512x128 .f32 0x00000000#32)))
    (broadcastTo S512x128 (shapeCast S1x128 x6 shapeCasts_S1x128_S1x128) broadcasts_S1x128_S512x128)

/-- At (p, q): the two sums over l, plus bias (0, q). -/
theorem unionBlock8192_apply (x0 : FVec Ideal S512x8192 .bf16) (x1 : FVec Ideal S8192x128 .bf16) (x2 : FVec Ideal S1x128 .f32)
    (x3 : FVec Ideal S128x128 .bf16) (x4 : FVec Ideal S512x128 .bf16) (x5 : FVec Ideal S128x128 .bf16) (x6 : FVec Ideal S1x128 .f32)
    (p : Fin 512) (q : Fin 128) :
    unionBlock8192 x0 x1 x2 x3 x4 x5 x6 (ix2 p q)
      = (∑ l : Fin 128, Spec.leaky ((∑ k : Fin 8192, x0 (ix2 p k) * x1 (ix2 k l)) + x2 (ix2 (0 : Fin 1) l)) * x3 (ix2 l q))
        + (∑ l : Fin 128, x4 (ix2 p l) * x5 (ix2 l q)) + x6 (ix2 (0 : Fin 1) q) := by
  have h1 : matmul dot_S512x128_S128x128_S512x128_1_0_0_1_n_n none (hid8192 x0 x1 x2)
      (shapeCast S128x128 x3 shapeCasts_S128x128_S128x128) (constant S512x128 .f32 0x00000000#32) (ix2 p q)
      = ∑ l : Fin 128, Spec.leaky ((∑ k : Fin 8192, x0 (ix2 p k) * x1 (ix2 k l)) + x2 (ix2 (0 : Fin 1) l)) * x3 (ix2 l q) := by
    rw [shapeCast_self]
    refine (PlainMatmul.plain_matmul_zero_apply 512 128 128 none (hid8192 x0 x1 x2) x3 p q).trans ?_
    exact Finset.sum_congr rfl fun l _ => by rw [hid8192_apply]
  have h2 : matmul dot_S512x128_S128x128_S512x128_1_0_0_1_n_n none (shapeCast S512x128 x4 shapeCasts_S512x128_S512x128)
      (shapeCast S128x128 x5 shapeCasts_S128x128_S128x128) (constant S512x128 .f32 0x00000000#32) (ix2 p q)
      = ∑ l : Fin 128, x4 (ix2 p l) * x5 (ix2 l q) := by
    rw [shapeCast_self, shapeCast_self]
    exact PlainMatmul.plain_matmul_zero_apply 512 128 128 none x4 x5 p q
  have h3 : broadcastTo S512x128 (shapeCast S1x128 x6 shapeCasts_S1x128_S1x128) broadcasts_S1x128_S512x128 (ix2 p q)
      = x6 (ix2 (0 : Fin 1) q) := by
    rw [shapeCast_self]
    exact broadcastTo_1b_ab_apply x6 _ p q
  unfold unionBlock8192
  rw [addf_apply, addf_apply, h1, h2, h3]

/-- A block of the projected step is the block of rows of the whole arrays' projected step, when each loaded block reads
    its array where the output's rows say: entry i of the whole, for the block entry (p, q) that lies at i. -/
theorem post_entry8192 {M : Nat} (x0 : FVec Ideal S512x8192 .bf16) (x1 : FVec Ideal S8192x128 .bf16) (x2 : FVec Ideal S1x128 .f32)
    (x3 : FVec Ideal S128x128 .bf16) (A : Spec.Mat M 8192) (Y : Spec.Mat 8192 128) (B : Spec.Mat 1 128) (PW : Spec.Mat 128 128)
    (i : (⟨2, ![M, 128]⟩ : Shape).Idx) (p : Fin 512) (q : Fin 128)
    (h0 : ∀ k : Fin 8192, x0 (ix2 p k) = A (ix2 (Spec.row i) k))
    (h1 : ∀ (k : Fin 8192) (l : Fin 128), x1 (ix2 k l) = Y (ix2 k l))
    (h2 : ∀ l : Fin 128, x2 (ix2 (0 : Fin 1) l) = B (ix2 (0 : Fin 1) l))
    (h3 : ∀ l : Fin 128, x3 (ix2 l q) = PW (ix2 l (Spec.col i))) :
    postBlock8192 x0 x1 x2 x3 (ix2 p q) = Spec.mm (Spec.gcn A Y (fun q => B (ix2 (0 : Fin 1) q))) PW i := by
  rw [postBlock8192_apply]
  refine Finset.sum_congr rfl fun l _ => ?_
  have hs : (∑ k : Fin 8192, x0 (ix2 p k) * x1 (ix2 k l)) = ∑ k : Fin 8192, A (ix2 (Spec.row i) k) * Y (ix2 k l) :=
    Finset.sum_congr rfl fun k _ => by rw [h0 k, h1 k l]
  rw [hs, h2 l, h3 l]
  rfl

/-- The same for the union projection before its activation. -/
theorem union_entry8192 {M : Nat} (x0 : FVec Ideal S512x8192 .bf16) (x1 : FVec Ideal S8192x128 .bf16) (x2 : FVec Ideal S1x128 .f32)
    (x3 : FVec Ideal S128x128 .bf16) (x4 : FVec Ideal S512x128 .bf16) (x5 : FVec Ideal S128x128 .bf16) (x6 : FVec Ideal S1x128 .f32)
    (A : Spec.Mat M 8192) (Y : Spec.Mat 8192 128) (B : Spec.Mat 1 128) (WA : Spec.Mat 128 128) (X : Spec.Mat M 128)
    (WB : Spec.Mat 128 128) (UB : Spec.Mat 1 128)
    (i : (⟨2, ![M, 128]⟩ : Shape).Idx) (p : Fin 512) (q : Fin 128)
    (h0 : ∀ k : Fin 8192, x0 (ix2 p k) = A (ix2 (Spec.row i) k))
    (h1 : ∀ (k : Fin 8192) (l : Fin 128), x1 (ix2 k l) = Y (ix2 k l))
    (h2 : ∀ l : Fin 128, x2 (ix2 (0 : Fin 1) l) = B (ix2 (0 : Fin 1) l))
    (h3 : ∀ l : Fin 128, x3 (ix2 l q) = WA (ix2 l (Spec.col i)))
    (h4 : ∀ l : Fin 128, x4 (ix2 p l) = X (ix2 (Spec.row i) l))
    (h5 : ∀ l : Fin 128, x5 (ix2 l q) = WB (ix2 l (Spec.col i)))
    (h6 : x6 (ix2 (0 : Fin 1) q) = UB (ix2 (0 : Fin 1) (Spec.col i))) :
    unionBlock8192 x0 x1 x2 x3 x4 x5 x6 (ix2 p q)
      = Spec.union (Spec.gcn A Y (fun q => B (ix2 (0 : Fin 1) q))) WA X WB (fun q => UB (ix2 (0 : Fin 1) q)) i := by
  rw [unionBlock8192_apply]
  have hs : ∀ l : Fin 128, (∑ k : Fin 8192, x0 (ix2 p k) * x1 (ix2 k l)) = ∑ k : Fin 8192, A (ix2 (Spec.row i) k) * Y (ix2 k l) :=
    fun l => Finset.sum_congr rfl fun k _ => by rw [h0 k, h1 k l]
  have e1 : (∑ l : Fin 128, Spec.leaky ((∑ k : Fin 8192, x0 (ix2 p k) * x1 (ix2 k l)) + x2 (ix2 (0 : Fin 1) l)) * x3 (ix2 l q))
      = Spec.mm (Spec.gcn A Y (fun q => B (ix2 (0 : Fin 1) q))) WA i := by
    refine Finset.sum_congr rfl fun l _ => ?_
    rw [hs l, h2 l, h3 l]
    rfl
  have e2 : (∑ l : Fin 128, x4 (ix2 p l) * x5 (ix2 l q)) = Spec.mm X WB i :=
    Finset.sum_congr rfl fun l _ => by rw [h4 l, h5 l]
  rw [e1, e2, h6]
  rfl

/-- The same for the rectified union projection: the block's final maximum against zero is the rectifier. -/
theorem union_relu_entry8192 {M : Nat} (x0 : FVec Ideal S512x8192 .bf16) (x1 : FVec Ideal S8192x128 .bf16) (x2 : FVec Ideal S1x128 .f32)
    (x3 : FVec Ideal S128x128 .bf16) (x4 : FVec Ideal S512x128 .bf16) (x5 : FVec Ideal S128x128 .bf16) (x6 : FVec Ideal S1x128 .f32)
    (A : Spec.Mat M 8192) (Y : Spec.Mat 8192 128) (B : Spec.Mat 1 128) (WA : Spec.Mat 128 128) (X : Spec.Mat M 128)
    (WB : Spec.Mat 128 128) (UB : Spec.Mat 1 128)
    (i : (⟨2, ![M, 128]⟩ : Shape).Idx) (p : Fin 512) (q : Fin 128)
    (h0 : ∀ k : Fin 8192, x0 (ix2 p k) = A (ix2 (Spec.row i) k))
    (h1 : ∀ (k : Fin 8192) (l : Fin 128), x1 (ix2 k l) = Y (ix2 k l))
    (h2 : ∀ l : Fin 128, x2 (ix2 (0 : Fin 1) l) = B (ix2 (0 : Fin 1) l))
    (h3 : ∀ l : Fin 128, x3 (ix2 l q) = WA (ix2 l (Spec.col i)))
    (h4 : ∀ l : Fin 128, x4 (ix2 p l) = X (ix2 (Spec.row i) l))
    (h5 : ∀ l : Fin 128, x5 (ix2 l q) = WB (ix2 l (Spec.col i)))
    (h6 : x6 (ix2 (0 : Fin 1) q) = UB (ix2 (0 : Fin 1) (Spec.col i))) :
    maximumf (unionBlock8192 x0 x1 x2 x3 x4 x5 x6) (broadcast S512x128 (Scalar.ofBits .f32 0x00000000#32)) (ix2 p q)
      = Spec.relu (Spec.union (Spec.gcn A Y (fun q => B (ix2 (0 : Fin 1) q))) WA X WB (fun q => UB (ix2 (0 : Fin 1) q)) i) :=
  (relu_apply _ _).trans (congrArg Spec.relu (union_entry8192 x0 x1 x2 x3 x4 x5 x6 A Y B WA X WB UB i p q h0 h1 h2 h3 h4 h5 h6))

end Cert.KernelIdeal.RegionValue

end
-- ==== Proof.KReg0.lean ====
/-
  Region 0 of the kernel program, read as mathematics: the array it leaves is the matrix product of the two arrays it
  finds.

  The region runs over 8 grid points; point t loads rows 512·t … 512·t + 511 of the left array and the whole 128×128
  weight, and stores the product of the two, a 512×128 block, to the same rows of the output. Entry (p, q) of that block
  is the sum over l of left (512·t + p, l) · weight (l, q), which is entry (512·t + p, q) of the product of the whole
  arrays; the 8 blocks are the 8 row blocks of the 4096×128 output, so together they are the whole product.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 0: a plain product, 4096×128 by 128×128, in 8 blocks of 512 rows -/

/-- The index maps over the grid: a row-blocked input window moves with the output's, every other input block is its
    whole array, and the output's blocks are the 8 row blocks. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- What a point writes back is its block of the product of the arrays as the region finds them. -/
theorem flushed0_eq (c : Dev nD) (t : Fin cfg0.N) :
    (dat0 V c).flushed 2 t = ((cfg0.win 2).blk t).view.read (Elt Ideal)
      (Spec.mm (M := 4096) (K := 128) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero zeros2]
  simp only [View.ld_unit_zero (S := S512x128) zeros2, View.ld_unit_zero (S := S128x128) zeros2]
  obtain ⟨e0, e1, e2, e3, e4, e5⟩ := idx_facts0 t
  funext j
  obtain ⟨p, q, rfl⟩ : ∃ (p : Fin 512) (q : Fin 128), j = ix2 p q := ⟨j 0, j 1, eq_ix2 (n0 := 512) (n1 := 128) j⟩
  show k0_pay1 (iblk0 V c 0 t) (iblk0 V c 1 t) (ix2 p q)
    = (Spec.mm (M := 4096) (K := 128) (N := 128) (V c (Pipeline.arrRef spec0 0)) (V c (Pipeline.arrRef spec0 1))) (((cfg0.win 2).blk t).view.emb (ix2 p q))
  refine mm_entry (M := 4096) (iblk0 V c 0 t) (iblk0 V c 1 t) (V c (Pipeline.arrRef spec0 0)) (V c (Pipeline.arrRef spec0 1)) (((cfg0.win 2).blk t).view.emb (ix2 p q)) p q ?_ ?_
  · intro l
    show V c (Pipeline.arrRef spec0 0) (((cfg0.win 0).blk t).view.emb (ix2 p l)) = _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 128 + 1 * l.val = l.val; omega
  · intro l
    show V c (Pipeline.arrRef spec0 1) (((cfg0.win 1).blk t).view.emb (ix2 l q)) = _
    refine congrArg _ (funext fun a => Fin.ext ?_)
    match a with
    | ⟨0, _⟩ => show win0_1.index t (0 : Fin 2) * 128 + 1 * l.val = l.val; omega
    | ⟨1, _⟩ => show win0_1.index t (1 : Fin 2) * 128 + 1 * q.val = win0_2.index t (1 : Fin 2) * 128 + 1 * q.val; omega

/-- Every row block is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- An index of the output array is in a point's block iff each coordinate is in the block's range on its axis. -/
theorem mem_blk0 (t : Fin cfg0.N) (i : S4096x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v12).slice (win0_2.rect t)).set ↔ _
  rw [View.set_slice_whole, Rect.mem_set_unit]
  exact Iff.rfl

/-- The row blocks cover the output array: row i lies in block i / 512. -/
theorem cover0 (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- The output array after the region, as one function of the arrays the region finds. -/
theorem final0 (c : Dev nD) : (dat0 V c).arrAt 2 cfg0.N
    = Spec.mm (M := 4096) (K := 128) (N := 128) (V c (Pipeline.arrRef spec0 0)) (V c (Pipeline.arrRef spec0 1)) :=
  (dat0 V c).arrAt_eq_of_cover 2 _ (fun t _ => flushed0_eq V c t) (cover0)

end Cert.KernelIdeal.RegionValue

end
-- ==== Proof.KReg2.lean ====
/-
  Region 2 of the kernel program, read as mathematics: a graph convolution step followed by a projection.

  Point t loads rows 512·t … 512·t + 511 of the adjacency array and the whole right factor, bias row and projection
  weight. It forms h (p, l), the leaky rectifier of ∑ k, adj (512·t + p, k) · y (k, l) + b (l), and stores
  ∑ l, h (p, l) · w (l, q) to the same rows of the output. That is entry (512·t + p, q) of the product of the whole
  step by the weight; the row blocks fill the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 2: a graph convolution step (8192×4096 by 4096×128) and its projection, in 16 blocks of 512 rows -/

/-- The index maps over the grid: a row-blocked input window moves with the output's, every other input block is its
    whole array, and the output's blocks are the 16 row blocks. -/
theorem idx_facts2 : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 15 :=
  (by decide +kernel : ∀ t : Fin grid2.N, _)

set_option maxHeartbeats 800000 in
/-- What a point writes back is its block of the projected step of the arrays as the region finds them. -/
theorem flushed2_eq (c : Dev nD) (t : Fin cfg2.N) :
    (dat2 V c).flushed 4 t = ((cfg2.win 4).blk t).view.read (Elt Ideal)
      (Spec.mm (M := 8192) (K := 128) (N := 128) (Spec.gcn (M := 8192) (K := 4096) (N := 128) (V c (Pipeline.arrRef spec2 0)) (V c (Pipeline.arrRef spec2 1)) (fun q => (V c (Pipeline.arrRef spec2 2)) (ix2 (0 : Fin 1) q))) (V c (Pipeline.arrRef spec2 3))) := by
  show (cfg2.win 4).cut (grid2.coords t) ((dat2 V c).after 4 t) = _
  rw [after2_4]
  unfold out2_4
  rw [View.canon_unit_zero zeros2]
  simp only [View.ld_unit_zero (S := S512x4096) zeros2, View.ld_unit_zero (S := S4096x128) zeros2, View.ld_unit_zero (S := S1x128) zeros2, View.ld_unit_zero (S := S128x128) zeros2]
  obtain ⟨e0, e1, e2, e3, e4, e5, e6, e7, e8, e9⟩ := idx_facts2 t
  funext j
  obtain ⟨p, q, rfl⟩ : ∃ (p : Fin 512) (q : Fin 128), j = ix2 p q := ⟨j 0, j 1, eq_ix2 (n0 := 512) (n1 := 128) j⟩
  show k2_pay1 (iblk2 V c 0 t) (iblk2 V c 1 t) (iblk2 V c 2 t) (iblk2 V c 3 t) (ix2 p q)
    = (Spec.mm (M := 8192) (K := 128) (N := 128) (Spec.gcn (M := 8192) (K := 4096) (N := 128) (V c (Pipeline.arrRef spec2 0)) (V c (Pipeline.arrRef spec2 1)) (fun q => (V c (Pipeline.arrRef spec2 2)) (ix2 (0 : Fin 1) q))) (V c (Pipeline.arrRef spec2 3))) (((cfg2.win 4).blk t).view.emb (ix2 p q))
  refine post_entry4096 (M := 8192) (iblk2 V c 0 t) (iblk2 V c 1 t) (iblk2 V c 2 t) (iblk2 V c 3 t) (V c (Pipeline.arrRef spec2 0)) (V c (Pipeline.arrRef spec2 1)) (V c (Pipeline.arrRef spec2 2)) (V c (Pipeline.arrRef spec2 3)) (((cfg2.win 4).blk t).view.emb (ix2 p q)) p q ?_ ?_ ?_ ?_
  · intro k
    show V c (Pipeline.arrRef spec2 0) (((cfg2.win 0).blk t).view.emb (ix2 p k)) = _
    refine congrArg _ (funext fun a => Fin.ext ?_)
    match a with
    | ⟨0, _⟩ => show win2_0.index t (0 : Fin 2) * 512 + 1 * p.val = win2_4.index t (0 : Fin 2) * 512 + 1 * p.val; omega
    | ⟨1, _⟩ => show win2_0.index t (1 : Fin 2) * 4096 + 1 * k.val = k.val; omega
  · intro k l
    show V c (Pipeline.arrRef spec2 1) (((cfg2.win 1).blk t).view.emb (ix2 k l)) = _
    refine congrArg _ (funext fun a => Fin.ext ?_)
    match a with
    | ⟨0, _⟩ => show win2_1.index t (0 : Fin 2) * 4096 + 1 * k.val = k.val; omega
    | ⟨1, _⟩ => show win2_1.index t (1 : Fin 2) * 128 + 1 * l.val = l.val; omega
  · intro l
    show V c (Pipeline.arrRef spec2 2) (((cfg2.win 2).blk t).view.emb (ix2 (0 : Fin 1) l)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * l.val = l.val; omega
  · intro l
    show V c (Pipeline.arrRef spec2 3) (((cfg2.win 3).blk t).view.emb (ix2 l q)) = _
    refine congrArg _ (funext fun a => Fin.ext ?_)
    match a with
    | ⟨0, _⟩ => show win2_3.index t (0 : Fin 2) * 128 + 1 * l.val = l.val; omega
    | ⟨1, _⟩ => show win2_3.index t (1 : Fin 2) * 128 + 1 * q.val = win2_4.index t (1 : Fin 2) * 128 + 1 * q.val; omega

/-- Every row block is some point's. -/
theorem idx_onto2 : ∀ q0 : Fin 16, ∃ t : Fin cfg2.N, win2_4.index t = ![q0.val, 0] :=
  (by decide +kernel : ∀ q0 : Fin 16, ∃ t : Fin grid2.N, win2_4.index t = ![q0.val, 0])

/-- An index of the output array is in a point's block iff each coordinate is in the block's range on its axis. -/
theorem mem_blk2 (t : Fin cfg2.N) (i : S8192x128.Idx) :
    i ∈ ((cfg2.win 4).blk t).view.set ↔ ∀ a : Fin 2, win2_4.index t a * S512x128.size a ≤ (i a).val
      ∧ (i a).val < win2_4.index t a * S512x128.size a + S512x128.size a := by
  show i ∈ ((View.whole main_v21).slice (win2_4.rect t)).set ↔ _
  rw [View.set_slice_whole, Rect.mem_set_unit]
  exact Iff.rfl

/-- The row blocks cover the output array: row i lies in block i / 512. -/
theorem cover2 (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  obtain ⟨t, ht⟩ := idx_onto2 ⟨(i 0).val / 512, by omega⟩
  have q0 : win2_4.index t (0 : Fin 2) = (i 0).val / 512 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 128 ≤ (i 1).val ∧ (i 1).val < win2_4.index t (1 : Fin 2) * 128 + 128; omega

/-- The output array after the region, as one function of the arrays the region finds. -/
theorem final2 (c : Dev nD) : (dat2 V c).arrAt 4 cfg2.N
    = Spec.mm (M := 8192) (K := 128) (N := 128) (Spec.gcn (M := 8192) (K := 4096) (N := 128) (V c (Pipeline.arrRef spec2 0)) (V c (Pipeline.arrRef spec2 1)) (fun q => (V c (Pipeline.arrRef spec2 2)) (ix2 (0 : Fin 1) q))) (V c (Pipeline.arrRef spec2 3)) :=
  (dat2 V c).arrAt_eq_of_cover 4 _ (fun t _ => flushed2_eq V c t) (cover2)

end Cert.KernelIdeal.RegionValue

end
-- ==== Proof.KReg4.lean ====
/-
  Region 4 of the kernel program, read as mathematics: a graph convolution step followed by the rectified union
  projection.

  Point t loads rows 512·t … 512·t + 511 of the adjacency array and of the second input, and the whole right factor, two
  weights and two bias rows. With h (p, l) the leaky rectifier of ∑ k, adj (512·t + p, k) · y (k, l) + b (l), it stores
  the maximum of 0 and ∑ l, h (p, l) · wa (l, q) + ∑ l, x (512·t + p, l) · wb (l, q) + ub (q) to the same rows of the
  output: entry (512·t + p, q) of the rectified union projection of the whole arrays. The row blocks fill the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 4: a graph convolution step (4096×8192 by 8192×128) and the union projection, rectified, in 8 blocks of 512 rows -/

/-- The index maps over the grid: a row-blocked input window moves with the output's, every other input block is its
    whole array, and the output's blocks are the 8 row blocks. -/
theorem idx_facts4 : ∀ t : Fin cfg4.N, win4_0.index t (0 : Fin 2) = win4_7.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = win4_7.index t (0 : Fin 2)
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (1 : Fin 2) = 0
    ∧ win4_7.index t (0 : Fin 2) ≤ 7 :=
  (by decide +kernel : ∀ t : Fin grid4.N, _)

set_option maxHeartbeats 800000 in
/-- What a point writes back is its block of the union projection of the arrays as the region finds them. -/
theorem flushed4_eq (c : Dev nD) (t : Fin cfg4.N) :
    (dat4 V c).flushed 7 t = ((cfg4.win 7).blk t).view.read (Elt Ideal)
      (fun i => Spec.relu (Spec.union (M := 4096) (A := 128) (B := 128) (N := 128) (Spec.gcn (M := 4096) (K := 8192) (N := 128) (V c (Pipeline.arrRef spec4 0)) (V c (Pipeline.arrRef spec4 1)) (fun q => (V c (Pipeline.arrRef spec4 2)) (ix2 (0 : Fin 1) q))) (V c (Pipeline.arrRef spec4 3)) (V c (Pipeline.arrRef spec4 4)) (V c (Pipeline.arrRef spec4 5)) (fun q => (V c (Pipeline.arrRef spec4 6)) (ix2 (0 : Fin 1) q)) i)) := by
  show (cfg4.win 7).cut (grid4.coords t) ((dat4 V c).after 7 t) = _
  rw [after4_7]
  unfold out4_7
  rw [View.canon_unit_zero zeros2]
  simp only [View.ld_unit_zero (S := S512x8192) zeros2, View.ld_unit_zero (S := S8192x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts4 t
  funext j
  obtain ⟨p, q, rfl⟩ : ∃ (p : Fin 512) (q : Fin 128), j = ix2 p q := ⟨j 0, j 1, eq_ix2 (n0 := 512) (n1 := 128) j⟩
  show k4_pay1 (iblk4 V c 0 t) (iblk4 V c 1 t) (iblk4 V c 2 t) (iblk4 V c 3 t) (iblk4 V c 4 t) (iblk4 V c 5 t) (iblk4 V c 6 t) (ix2 p q)
    = (fun i => Spec.relu (Spec.union (M := 4096) (A := 128) (B := 128) (N := 128) (Spec.gcn (M := 4096) (K := 8192) (N := 128) (V c (Pipeline.arrRef spec4 0)) (V c (Pipeline.arrRef spec4 1)) (fun q => (V c (Pipeline.arrRef spec4 2)) (ix2 (0 : Fin 1) q))) (V c (Pipeline.arrRef spec4 3)) (V c (Pipeline.arrRef spec4 4)) (V c (Pipeline.arrRef spec4 5)) (fun q => (V c (Pipeline.arrRef spec4 6)) (ix2 (0 : Fin 1) q)) i)) (((cfg4.win 7).blk t).view.emb (ix2 p q))
  refine union_relu_entry8192 (M := 4096) (iblk4 V c 0 t) (iblk4 V c 1 t) (iblk4 V c 2 t) (iblk4 V c 3 t) (iblk4 V c 4 t) (iblk4 V c 5 t) (iblk4 V c 6 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (((cfg4.win 7).blk t).view.emb (ix2 p q)) p q ?_ ?_ ?_ ?_ ?_ ?_ ?_
  · intro k
    show V c (Pipeline.arrRef spec4 0) (((cfg4.win 0).blk t).view.emb (ix2 p k)) = _
    refine congrArg _ (funext fun a => Fin.ext ?_)
    match a with
    | ⟨0, _⟩ => show win4_0.index t (0 : Fin 2) * 512 + 1 * p.val = win4_7.index t (0 : Fin 2) * 512 + 1 * p.val; omega
    | ⟨1, _⟩ => show win4_0.index t (1 : Fin 2) * 8192 + 1 * k.val = k.val; omega
  · intro k l
    show V c (Pipeline.arrRef spec4 1) (((cfg4.win 1).blk t).view.emb (ix2 k l)) = _
    refine congrArg _ (funext fun a => Fin.ext ?_)
    match a with
    | ⟨0, _⟩ => show win4_1.index t (0 : Fin 2) * 8192 + 1 * k.val = k.val; omega
    | ⟨1, _⟩ => show win4_1.index t (1 : Fin 2) * 128 + 1 * l.val = l.val; omega
  · intro l
    show V c (Pipeline.arrRef spec4 2) (((cfg4.win 2).blk t).view.emb (ix2 (0 : Fin 1) l)) = _
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * l.val = l.val; omega
  · intro l
    show V c (Pipeline.arrRef spec4 3) (((cfg4.win 3).blk t).view.emb (ix2 l q)) = _
    refine congrArg _ (funext fun a => Fin.ext ?_)
    match a with
    | ⟨0, _⟩ => show win4_3.index t (0 : Fin 2) * 128 + 1 * l.val = l.val; omega
    | ⟨1, _⟩ => show win4_3.index t (1 : Fin 2) * 128 + 1 * q.val = win4_7.index t (1 : Fin 2) * 128 + 1 * q.val; omega
  · intro l
    show V c (Pipeline.arrRef spec4 4) (((cfg4.win 4).blk t).view.emb (ix2 p l)) = _
    refine congrArg _ (funext fun a => Fin.ext ?_)
    match a with
    | ⟨0, _⟩ => show win4_4.index t (0 : Fin 2) * 512 + 1 * p.val = win4_7.index t (0 : Fin 2) * 512 + 1 * p.val; omega
    | ⟨1, _⟩ => show win4_4.index t (1 : Fin 2) * 128 + 1 * l.val = l.val; omega
  · intro l
    show V c (Pipeline.arrRef spec4 5) (((cfg4.win 5).blk t).view.emb (ix2 l q)) = _
    refine congrArg _ (funext fun a => Fin.ext ?_)
    match a with
    | ⟨0, _⟩ => show win4_5.index t (0 : Fin 2) * 128 + 1 * l.val = l.val; omega
    | ⟨1, _⟩ => show win4_5.index t (1 : Fin 2) * 128 + 1 * q.val = win4_7.index t (1 : Fin 2) * 128 + 1 * q.val; omega
  · show V c (Pipeline.arrRef spec4 6) (((cfg4.win 6).blk t).view.emb (ix2 (0 : Fin 1) q)) = _
    refine congrArg _ (funext fun a => Fin.ext ?_)
    match a with
    | ⟨0, _⟩ => show win4_6.index t (0 : Fin 2) * 1 + 1 * 0 = 0; omega
    | ⟨1, _⟩ => show win4_6.index t (1 : Fin 2) * 128 + 1 * q.val = win4_7.index t (1 : Fin 2) * 128 + 1 * q.val; omega

/-- Every row block is some point's. -/
theorem idx_onto4 : ∀ q0 : Fin 8, ∃ t : Fin cfg4.N, win4_7.index t = ![q0.val, 0] :=
  (by decide +kernel : ∀ q0 : Fin 8, ∃ t : Fin grid4.N, win4_7.index t = ![q0.val, 0])

/-- An index of the output array is in a point's block iff each coordinate is in the block's range on its axis. -/
theorem mem_blk4 (t : Fin cfg4.N) (i : S4096x128.Idx) :
    i ∈ ((cfg4.win 7).blk t).view.set ↔ ∀ a : Fin 2, win4_7.index t a * S512x128.size a ≤ (i a).val
      ∧ (i a).val < win4_7.index t a * S512x128.size a + S512x128.size a := by
  show i ∈ ((View.whole main_v40).slice (win4_7.rect t)).set ↔ _
  rw [View.set_slice_whole, Rect.mem_set_unit]
  exact Iff.rfl

/-- The row blocks cover the output array: row i lies in block i / 512. -/
theorem cover4 (i : S4096x128.Idx) :
    ∃ t : Fin cfg4.N, (cfg4.win 7).flush t = true ∧ i ∈ ((cfg4.win 7).blk t).view.set := by
  have hi0 : (i 0).val < 4096 := (i 0).isLt
  have hi1 : (i 1).val < 128 := (i 1).isLt
  obtain ⟨t, ht⟩ := idx_onto4 ⟨(i 0).val / 512, by omega⟩
  have q0 : win4_7.index t (0 : Fin 2) = (i 0).val / 512 := congrFun ht 0
  have q1 : win4_7.index t (1 : Fin 2) = 0 := congrFun ht 1
  refine ⟨t, flush4_7 t, ?_⟩
  rw [mem_blk4]
  intro a
  match a with
  | ⟨0, _⟩ => show win4_7.index t (0 : Fin 2) * 512 ≤ (i 0).val ∧ (i 0).val < win4_7.index t (0 : Fin 2) * 512 + 512; omega
  | ⟨1, _⟩ => show win4_7.index t (1 : Fin 2) * 128 ≤ (i 1).val ∧ (i 1).val < win4_7.index t (1 : Fin 2) * 128 + 128; omega

/-- The output array after the region, as one function of the arrays the region finds. -/
theorem final4 (c : Dev nD) : (dat4 V c).arrAt 7 cfg4.N
    = fun i => Spec.relu (Spec.union (M := 4096) (A := 128) (B := 128) (N := 128) (Spec.gcn (M := 4096) (K := 8192) (N := 128) (V c (Pipeline.arrRef spec4 0)) (V c (Pipeline.arrRef spec4 1)) (fun q => (V c (Pipeline.arrRef spec4 2)) (ix2 (0 : Fin 1) q))) (V c (Pipeline.arrRef spec4 3)) (V c (Pipeline.arrRef spec4 4)) (V c (Pipeline.arrRef spec4 5)) (fun q => (V c (Pipeline.arrRef spec4 6)) (ix2 (0 : Fin 1) q)) i) :=
  (dat4 V c).arrAt_eq_of_cover 7 _ (fun t _ => flushed4_eq V c t) (cover4)

end Cert.KernelIdeal.RegionValue

end
-- ==== Proof.KRegs_mm_1.lean ====
/-
  Regions 1, 6, 7, 12 of the kernel program, read as mathematics: each leaves the product of the two arrays it finds.

  Point t of such a region loads rows 512·t … 512·t + 511 of the left array and the whole 128×128 weight and stores their
  product to the same rows of the output: entry (512·t + p, q) of the product of the whole arrays. The row blocks fill the
  output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 1: a plain product, 8192×128 by 128×128, in 16 blocks of 512 rows -/

/-- The index maps over the grid: a row-blocked input window moves with the output's, every other input block is its
    whole array, and the output's blocks are the 16 row blocks. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 15 :=
  (by decide +kernel : ∀ t : Fin grid1.N, _)

/-- What a point writes back is its block of the product of the arrays as the region finds them. -/
theorem flushed1_eq (c : Dev nD) (t : Fin cfg1.N) :
    (dat1 V c).flushed 2 t = ((cfg1.win 2).blk t).view.read (Elt Ideal)
      (Spec.mm (M := 8192) (K := 128) (N := 128) (V c (Pipeline.arrRef spec1 0)) (V c (Pipeline.arrRef spec1 1))) := by
  show (cfg1.win 2).cut (grid1.coords t) ((dat1 V c).after 2 t) = _
  rw [after1_2]
  unfold out1_2
  rw [View.canon_unit_zero zeros2]
  simp only [View.ld_unit_zero (S := S512x128) zeros2, View.ld_unit_zero (S := S128x128) zeros2]
  obtain ⟨e0, e1, e2, e3, e4, e5⟩ := idx_facts1 t
  funext j
  obtain ⟨p, q, rfl⟩ : ∃ (p : Fin 512) (q : Fin 128), j = ix2 p q := ⟨j 0, j 1, eq_ix2 (n0 := 512) (n1 := 128) j⟩
  show k1_pay1 (iblk1 V c 0 t) (iblk1 V c 1 t) (ix2 p q)
    = (Spec.mm (M := 8192) (K := 128) (N := 128) (V c (Pipeline.arrRef spec1 0)) (V c (Pipeline.arrRef spec1 1))) (((cfg1.win 2).blk t).view.emb (ix2 p q))
  refine mm_entry (M := 8192) (iblk1 V c 0 t) (iblk1 V c 1 t) (V c (Pipeline.arrRef spec1 0)) (V c (Pipeline.arrRef spec1 1)) (((cfg1.win 2).blk t).view.emb (ix2 p q)) p q ?_ ?_
  · intro l
    show V c (Pipeline.arrRef spec1 0) (((cfg1.win 0).blk t).view.emb (ix2 p l)) = _
    refine congrArg _ (funext fun a => Fin.ext ?_)
    match a with
    | ⟨0, _⟩ => show win1_0.index t (0 : Fin 2) * 512 + 1 * p.val = win1_2.index t (0 : Fin 2) * 512 + 1 * p.val; omega
    | ⟨1, _⟩ => show win1_0.index t (1 : Fin 2) * 128 + 1 * l.val = l.val; omega
  · intro l
    show V c (Pipeline.arrRef spec1 1) (((cfg1.win 1).blk t).view.emb (ix2 l q)) = _
    refine congrArg _ (funext fun a => Fin.ext ?_)
    match a with
    | ⟨0, _⟩ => show win1_1.index t (0 : Fin 2) * 128 + 1 * l.val = l.val; omega
    | ⟨1, _⟩ => show win1_1.index t (1 : Fin 2) * 128 + 1 * q.val = win1_2.index t (1 : Fin 2) * 128 + 1 * q.val; omega

/-- Every row block is some point's. -/
theorem idx_onto1 : ∀ q0 : Fin 16, ∃ t : Fin cfg1.N, win1_2.index t = ![q0.val, 0] :=
  (by decide +kernel : ∀ q0 : Fin 16, ∃ t : Fin grid1.N, win1_2.index t = ![q0.val, 0])

/-- An index of the output array is in a point's block iff each coordinate is in the block's range on its axis. -/
theorem mem_blk1 (t : Fin cfg1.N) (i : S8192x128.Idx) :
    i ∈ ((cfg1.win 2).blk t).view.set ↔ ∀ a : Fin 2, win1_2.index t a * S512x128.size a ≤ (i a).val
      ∧ (i a).val < win1_2.index t a * S512x128.size a + S512x128.size a := by
  show i ∈ ((View.whole main_v15).slice (win1_2.rect t)).set ↔ _
  rw [View.set_slice_whole, Rect.mem_set_unit]
  exact Iff.rfl

/-- The row blocks cover the output array: row i lies in block i / 512. -/
theorem cover1 (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ := idx_onto1 ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 128 ≤ (i 1).val ∧ (i 1).val < win1_2.index t (1 : Fin 2) * 128 + 128; omega

/-- The output array after the region, as one function of the arrays the region finds. -/
theorem final1 (c : Dev nD) : (dat1 V c).arrAt 2 cfg1.N
    = Spec.mm (M := 8192) (K := 128) (N := 128) (V c (Pipeline.arrRef spec1 0)) (V c (Pipeline.arrRef spec1 1)) :=
  (dat1 V c).arrAt_eq_of_cover 2 _ (fun t _ => flushed1_eq V c t) (cover1)

/-! ## Region 6: a plain product, 4096×128 by 128×128, in 8 blocks of 512 rows -/

/-- The index maps over the grid: a row-blocked input window moves with the output's, every other input block is its
    whole array, and the output's blocks are the 8 row blocks. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 7 :=
  (by decide +kernel : ∀ t : Fin grid6.N, _)

/-- What a point writes back is its block of the product of the arrays as the region finds them. -/
theorem flushed6_eq (c : Dev nD) (t : Fin cfg6.N) :
    (dat6 V c).flushed 2 t = ((cfg6.win 2).blk t).view.read (Elt Ideal)
      (Spec.mm (M := 4096) (K := 128) (N := 128) (V c (Pipeline.arrRef spec6 0)) (V c (Pipeline.arrRef spec6 1))) := by
  show (cfg6.win 2).cut (grid6.coords t) ((dat6 V c).after 2 t) = _
  rw [after6_2]
  unfold out6_2
  rw [View.canon_unit_zero zeros2]
  simp only [View.ld_unit_zero (S := S512x128) zeros2, View.ld_unit_zero (S := S128x128) zeros2]
  obtain ⟨e0, e1, e2, e3, e4, e5⟩ := idx_facts6 t
  funext j
  obtain ⟨p, q, rfl⟩ : ∃ (p : Fin 512) (q : Fin 128), j = ix2 p q := ⟨j 0, j 1, eq_ix2 (n0 := 512) (n1 := 128) j⟩
  show k6_pay1 (iblk6 V c 0 t) (iblk6 V c 1 t) (ix2 p q)
    = (Spec.mm (M := 4096) (K := 128) (N := 128) (V c (Pipeline.arrRef spec6 0)) (V c (Pipeline.arrRef spec6 1))) (((cfg6.win 2).blk t).view.emb (ix2 p q))
  refine mm_entry (M := 4096) (iblk6 V c 0 t) (iblk6 V c 1 t) (V c (Pipeline.arrRef spec6 0)) (V c (Pipeline.arrRef spec6 1)) (((cfg6.win 2).blk t).view.emb (ix2 p q)) p q ?_ ?_
  · intro l
    show V c (Pipeline.arrRef spec6 0) (((cfg6.win 0).blk t).view.emb (ix2 p l)) = _
    refine congrArg _ (funext fun a => Fin.ext ?_)
    match a with
    | ⟨0, _⟩ => show win6_0.index t (0 : Fin 2) * 512 + 1 * p.val = win6_2.index t (0 : Fin 2) * 512 + 1 * p.val; omega
    | ⟨1, _⟩ => show win6_0.index t (1 : Fin 2) * 128 + 1 * l.val = l.val; omega
  · intro l
    show V c (Pipeline.arrRef spec6 1) (((cfg6.win 1).blk t).view.emb (ix2 l q)) = _
    refine congrArg _ (funext fun a => Fin.ext ?_)
    match a with
    | ⟨0, _⟩ => show win6_1.index t (0 : Fin 2) * 128 + 1 * l.val = l.val; omega
    | ⟨1, _⟩ => show win6_1.index t (1 : Fin 2) * 128 + 1 * q.val = win6_2.index t (1 : Fin 2) * 128 + 1 * q.val; omega

/-- Every row block is some point's. -/
theorem idx_onto6 : ∀ q0 : Fin 8, ∃ t : Fin cfg6.N, win6_2.index t = ![q0.val, 0] :=
  (by decide +kernel : ∀ q0 : Fin 8, ∃ t : Fin grid6.N, win6_2.index t = ![q0.val, 0])

/-- An index of the output array is in a point's block iff each coordinate is in the block's range on its axis. -/
theorem mem_blk6 (t : Fin cfg6.N) (i : S4096x128.Idx) :
    i ∈ ((cfg6.win 2).blk t).view.set ↔ ∀ a : Fin 2, win6_2.index t a * S512x128.size a ≤ (i a).val
      ∧ (i a).val < win6_2.index t a * S512x128.size a + S512x128.size a := by
  show i ∈ ((View.whole main_v58).slice (win6_2.rect t)).set ↔ _
  rw [View.set_slice_whole, Rect.mem_set_unit]
  exact Iff.rfl

/-- The row blocks cover the output array: row i lies in block i / 512. -/
theorem cover6 (i : S4096x128.Idx) :
    ∃ t : Fin cfg6.N, (cfg6.win 2).flush t = true ∧ i ∈ ((cfg6.win 2).blk t).view.set := by
  have hi0 : (i 0).val < 4096 := (i 0).isLt
  have hi1 : (i 1).val < 128 := (i 1).isLt
  obtain ⟨t, ht⟩ := idx_onto6 ⟨(i 0).val / 512, by omega⟩
  have q0 : win6_2.index t (0 : Fin 2) = (i 0).val / 512 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 512 ≤ (i 0).val ∧ (i 0).val < win6_2.index t (0 : Fin 2) * 512 + 512; omega
  | ⟨1, _⟩ => show win6_2.index t (1 : Fin 2) * 128 ≤ (i 1).val ∧ (i 1).val < win6_2.index t (1 : Fin 2) * 128 + 128; omega

/-- The output array after the region, as one function of the arrays the region finds. -/
theorem final6 (c : Dev nD) : (dat6 V c).arrAt 2 cfg6.N
    = Spec.mm (M := 4096) (K := 128) (N := 128) (V c (Pipeline.arrRef spec6 0)) (V c (Pipeline.arrRef spec6 1)) :=
  (dat6 V c).arrAt_eq_of_cover 2 _ (fun t _ => flushed6_eq V c t) (cover6)

/-! ## Region 7: a plain product, 8192×128 by 128×128, in 16 blocks of 512 rows -/

/-- The index maps over the grid: a row-blocked input window moves with the output's, every other input block is its
    whole array, and the output's blocks are the 16 row blocks. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) ≤ 15 :=
  (by decide +kernel : ∀ t : Fin grid7.N, _)

/-- What a point writes back is its block of the product of the arrays as the region finds them. -/
theorem flushed7_eq (c : Dev nD) (t : Fin cfg7.N) :
    (dat7 V c).flushed 2 t = ((cfg7.win 2).blk t).view.read (Elt Ideal)
      (Spec.mm (M := 8192) (K := 128) (N := 128) (V c (Pipeline.arrRef spec7 0)) (V c (Pipeline.arrRef spec7 1))) := by
  show (cfg7.win 2).cut (grid7.coords t) ((dat7 V c).after 2 t) = _
  rw [after7_2]
  unfold out7_2
  rw [View.canon_unit_zero zeros2]
  simp only [View.ld_unit_zero (S := S512x128) zeros2, View.ld_unit_zero (S := S128x128) zeros2]
  obtain ⟨e0, e1, e2, e3, e4, e5⟩ := idx_facts7 t
  funext j
  obtain ⟨p, q, rfl⟩ : ∃ (p : Fin 512) (q : Fin 128), j = ix2 p q := ⟨j 0, j 1, eq_ix2 (n0 := 512) (n1 := 128) j⟩
  show k7_pay1 (iblk7 V c 0 t) (iblk7 V c 1 t) (ix2 p q)
    = (Spec.mm (M := 8192) (K := 128) (N := 128) (V c (Pipeline.arrRef spec7 0)) (V c (Pipeline.arrRef spec7 1))) (((cfg7.win 2).blk t).view.emb (ix2 p q))
  refine mm_entry (M := 8192) (iblk7 V c 0 t) (iblk7 V c 1 t) (V c (Pipeline.arrRef spec7 0)) (V c (Pipeline.arrRef spec7 1)) (((cfg7.win 2).blk t).view.emb (ix2 p q)) p q ?_ ?_
  · intro l
    show V c (Pipeline.arrRef spec7 0) (((cfg7.win 0).blk t).view.emb (ix2 p l)) = _
    refine congrArg _ (funext fun a => Fin.ext ?_)
    match a with
    | ⟨0, _⟩ => show win7_0.index t (0 : Fin 2) * 512 + 1 * p.val = win7_2.index t (0 : Fin 2) * 512 + 1 * p.val; omega
    | ⟨1, _⟩ => show win7_0.index t (1 : Fin 2) * 128 + 1 * l.val = l.val; omega
  · intro l
    show V c (Pipeline.arrRef spec7 1) (((cfg7.win 1).blk t).view.emb (ix2 l q)) = _
    refine congrArg _ (funext fun a => Fin.ext ?_)
    match a with
    | ⟨0, _⟩ => show win7_1.index t (0 : Fin 2) * 128 + 1 * l.val = l.val; omega
    | ⟨1, _⟩ => show win7_1.index t (1 : Fin 2) * 128 + 1 * q.val = win7_2.index t (1 : Fin 2) * 128 + 1 * q.val; omega

/-- Every row block is some point's. -/
theorem idx_onto7 : ∀ q0 : Fin 16, ∃ t : Fin cfg7.N, win7_2.index t = ![q0.val, 0] :=
  (by decide +kernel : ∀ q0 : Fin 16, ∃ t : Fin grid7.N, win7_2.index t = ![q0.val, 0])

/-- An index of the output array is in a point's block iff each coordinate is in the block's range on its axis. -/
theorem mem_blk7 (t : Fin cfg7.N) (i : S8192x128.Idx) :
    i ∈ ((cfg7.win 2).blk t).view.set ↔ ∀ a : Fin 2, win7_2.index t a * S512x128.size a ≤ (i a).val
      ∧ (i a).val < win7_2.index t a * S512x128.size a + S512x128.size a := by
  show i ∈ ((View.whole main_v61).slice (win7_2.rect t)).set ↔ _
  rw [View.set_slice_whole, Rect.mem_set_unit]
  exact Iff.rfl

/-- The row blocks cover the output array: row i lies in block i / 512. -/
theorem cover7 (i : S8192x128.Idx) :
    ∃ t : Fin cfg7.N, (cfg7.win 2).flush t = true ∧ i ∈ ((cfg7.win 2).blk t).view.set := by
  have hi0 : (i 0).val < 8192 := (i 0).isLt
  have hi1 : (i 1).val < 128 := (i 1).isLt
  obtain ⟨t, ht⟩ := idx_onto7 ⟨(i 0).val / 512, by omega⟩
  have q0 : win7_2.index t (0 : Fin 2) = (i 0).val / 512 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 512 ≤ (i 0).val ∧ (i 0).val < win7_2.index t (0 : Fin 2) * 512 + 512; omega
  | ⟨1, _⟩ => show win7_2.index t (1 : Fin 2) * 128 ≤ (i 1).val ∧ (i 1).val < win7_2.index t (1 : Fin 2) * 128 + 128; omega

/-- The output array after the region, as one function of the arrays the region finds. -/
theorem final7 (c : Dev nD) : (dat7 V c).arrAt 2 cfg7.N
    = Spec.mm (M := 8192) (K := 128) (N := 128) (V c (Pipeline.arrRef spec7 0)) (V c (Pipeline.arrRef spec7 1)) :=
  (dat7 V c).arrAt_eq_of_cover 2 _ (fun t _ => flushed7_eq V c t) (cover7)

/-! ## Region 12: a plain product, 4096×128 by 128×128, in 8 blocks of 512 rows -/

/-- The index maps over the grid: a row-blocked input window moves with the output's, every other input block is its
    whole array, and the output's blocks are the 8 row blocks. -/
theorem idx_facts12 : ∀ t : Fin cfg12.N, win12_0.index t (0 : Fin 2) = win12_2.index t (0 : Fin 2)
    ∧ win12_0.index t (1 : Fin 2) = 0
    ∧ win12_1.index t (0 : Fin 2) = 0
    ∧ win12_1.index t (1 : Fin 2) = 0
    ∧ win12_2.index t (1 : Fin 2) = 0
    ∧ win12_2.index t (0 : Fin 2) ≤ 7 :=
  (by decide +kernel : ∀ t : Fin grid12.N, _)

/-- What a point writes back is its block of the product of the arrays as the region finds them. -/
theorem flushed12_eq (c : Dev nD) (t : Fin cfg12.N) :
    (dat12 V c).flushed 2 t = ((cfg12.win 2).blk t).view.read (Elt Ideal)
      (Spec.mm (M := 4096) (K := 128) (N := 128) (V c (Pipeline.arrRef spec12 0)) (V c (Pipeline.arrRef spec12 1))) := by
  show (cfg12.win 2).cut (grid12.coords t) ((dat12 V c).after 2 t) = _
  rw [after12_2]
  unfold out12_2
  rw [View.canon_unit_zero zeros2]
  simp only [View.ld_unit_zero (S := S512x128) zeros2, View.ld_unit_zero (S := S128x128) zeros2]
  obtain ⟨e0, e1, e2, e3, e4, e5⟩ := idx_facts12 t
  funext j
  obtain ⟨p, q, rfl⟩ : ∃ (p : Fin 512) (q : Fin 128), j = ix2 p q := ⟨j 0, j 1, eq_ix2 (n0 := 512) (n1 := 128) j⟩
  show k12_pay1 (iblk12 V c 0 t) (iblk12 V c 1 t) (ix2 p q)
    = (Spec.mm (M := 4096) (K := 128) (N := 128) (V c (Pipeline.arrRef spec12 0)) (V c (Pipeline.arrRef spec12 1))) (((cfg12.win 2).blk t).view.emb (ix2 p q))
  refine mm_entry (M := 4096) (iblk12 V c 0 t) (iblk12 V c 1 t) (V c (Pipeline.arrRef spec12 0)) (V c (Pipeline.arrRef spec12 1)) (((cfg12.win 2).blk t).view.emb (ix2 p q)) p q ?_ ?_
  · intro l
    show V c (Pipeline.arrRef spec12 0) (((cfg12.win 0).blk t).view.emb (ix2 p l)) = _
    refine congrArg _ (funext fun a => Fin.ext ?_)
    match a with
    | ⟨0, _⟩ => show win12_0.index t (0 : Fin 2) * 512 + 1 * p.val = win12_2.index t (0 : Fin 2) * 512 + 1 * p.val; omega
    | ⟨1, _⟩ => show win12_0.index t (1 : Fin 2) * 128 + 1 * l.val = l.val; omega
  · intro l
    show V c (Pipeline.arrRef spec12 1) (((cfg12.win 1).blk t).view.emb (ix2 l q)) = _
    refine congrArg _ (funext fun a => Fin.ext ?_)
    match a with
    | ⟨0, _⟩ => show win12_1.index t (0 : Fin 2) * 128 + 1 * l.val = l.val; omega
    | ⟨1, _⟩ => show win12_1.index t (1 : Fin 2) * 128 + 1 * q.val = win12_2.index t (1 : Fin 2) * 128 + 1 * q.val; omega

/-- Every row block is some point's. -/
theorem idx_onto12 : ∀ q0 : Fin 8, ∃ t : Fin cfg12.N, win12_2.index t = ![q0.val, 0] :=
  (by decide +kernel : ∀ q0 : Fin 8, ∃ t : Fin grid12.N, win12_2.index t = ![q0.val, 0])

/-- An index of the output array is in a point's block iff each coordinate is in the block's range on its axis. -/
theorem mem_blk12 (t : Fin cfg12.N) (i : S4096x128.Idx) :
    i ∈ ((cfg12.win 2).blk t).view.set ↔ ∀ a : Fin 2, win12_2.index t a * S512x128.size a ≤ (i a).val
      ∧ (i a).val < win12_2.index t a * S512x128.size a + S512x128.size a := by
  show i ∈ ((View.whole main_v110).slice (win12_2.rect t)).set ↔ _
  rw [View.set_slice_whole, Rect.mem_set_unit]
  exact Iff.rfl

/-- The row blocks cover the output array: row i lies in block i / 512. -/
theorem cover12 (i : S4096x128.Idx) :
    ∃ t : Fin cfg12.N, (cfg12.win 2).flush t = true ∧ i ∈ ((cfg12.win 2).blk t).view.set := by
  have hi0 : (i 0).val < 4096 := (i 0).isLt
  have hi1 : (i 1).val < 128 := (i 1).isLt
  obtain ⟨t, ht⟩ := idx_onto12 ⟨(i 0).val / 512, by omega⟩
  have q0 : win12_2.index t (0 : Fin 2) = (i 0).val / 512 := congrFun ht 0
  have q1 : win12_2.index t (1 : Fin 2) = 0 := congrFun ht 1
  refine ⟨t, flush12_2 t, ?_⟩
  rw [mem_blk12]
  intro a
  match a with
  | ⟨0, _⟩ => show win12_2.index t (0 : Fin 2) * 512 ≤ (i 0).val ∧ (i 0).val < win12_2.index t (0 : Fin 2) * 512 + 512; omega
  | ⟨1, _⟩ => show win12_2.index t (1 : Fin 2) * 128 ≤ (i 1).val ∧ (i 1).val < win12_2.index t (1 : Fin 2) * 128 + 128; omega

/-- The output array after the region, as one function of the arrays the region finds. -/
theorem final12 (c : Dev nD) : (dat12 V c).arrAt 2 cfg12.N
    = Spec.mm (M := 4096) (K := 128) (N := 128) (V c (Pipeline.arrRef spec12 0)) (V c (Pipeline.arrRef spec12 1)) :=
  (dat12 V c).arrAt_eq_of_cover 2 _ (fun t _ => flushed12_eq V c t) (cover12)

end Cert.KernelIdeal.RegionValue

end
-- ==== Proof.KRegs_mm_2.lean ====
/-
  Regions 13, 18, 19 of the kernel program, read as mathematics: each leaves the product of the two arrays it finds.

  Point t of such a region loads rows 512·t … 512·t + 511 of the left array and the whole 128×128 weight and stores their
  product to the same rows of the output: entry (512·t + p, q) of the product of the whole arrays. The row blocks fill the
  output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 13: a plain product, 8192×128 by 128×128, in 16 blocks of 512 rows -/

/-- The index maps over the grid: a row-blocked input window moves with the output's, every other input block is its
    whole array, and the output's blocks are the 16 row blocks. -/
theorem idx_facts13 : ∀ t : Fin cfg13.N, win13_0.index t (0 : Fin 2) = win13_2.index t (0 : Fin 2)
    ∧ win13_0.index t (1 : Fin 2) = 0
    ∧ win13_1.index t (0 : Fin 2) = 0
    ∧ win13_1.index t (1 : Fin 2) = 0
    ∧ win13_2.index t (1 : Fin 2) = 0
    ∧ win13_2.index t (0 : Fin 2) ≤ 15 :=
  (by decide +kernel : ∀ t : Fin grid13.N, _)

/-- What a point writes back is its block of the product of the arrays as the region finds them. -/
theorem flushed13_eq (c : Dev nD) (t : Fin cfg13.N) :
    (dat13 V c).flushed 2 t = ((cfg13.win 2).blk t).view.read (Elt Ideal)
      (Spec.mm (M := 8192) (K := 128) (N := 128) (V c (Pipeline.arrRef spec13 0)) (V c (Pipeline.arrRef spec13 1))) := by
  show (cfg13.win 2).cut (grid13.coords t) ((dat13 V c).after 2 t) = _
  rw [after13_2]
  unfold out13_2
  rw [View.canon_unit_zero zeros2]
  simp only [View.ld_unit_zero (S := S512x128) zeros2, View.ld_unit_zero (S := S128x128) zeros2]
  obtain ⟨e0, e1, e2, e3, e4, e5⟩ := idx_facts13 t
  funext j
  obtain ⟨p, q, rfl⟩ : ∃ (p : Fin 512) (q : Fin 128), j = ix2 p q := ⟨j 0, j 1, eq_ix2 (n0 := 512) (n1 := 128) j⟩
  show k13_pay1 (iblk13 V c 0 t) (iblk13 V c 1 t) (ix2 p q)
    = (Spec.mm (M := 8192) (K := 128) (N := 128) (V c (Pipeline.arrRef spec13 0)) (V c (Pipeline.arrRef spec13 1))) (((cfg13.win 2).blk t).view.emb (ix2 p q))
  refine mm_entry (M := 8192) (iblk13 V c 0 t) (iblk13 V c 1 t) (V c (Pipeline.arrRef spec13 0)) (V c (Pipeline.arrRef spec13 1)) (((cfg13.win 2).blk t).view.emb (ix2 p q)) p q ?_ ?_
  · intro l
    show V c (Pipeline.arrRef spec13 0) (((cfg13.win 0).blk t).view.emb (ix2 p l)) = _
    refine congrArg _ (funext fun a => Fin.ext ?_)
    match a with
    | ⟨0, _⟩ => show win13_0.index t (0 : Fin 2) * 512 + 1 * p.val = win13_2.index t (0 : Fin 2) * 512 + 1 * p.val; omega
    | ⟨1, _⟩ => show win13_0.index t (1 : Fin 2) * 128 + 1 * l.val = l.val; omega
  · intro l
    show V c (Pipeline.arrRef spec13 1) (((cfg13.win 1).blk t).view.emb (ix2 l q)) = _
    refine congrArg _ (funext fun a => Fin.ext ?_)
    match a with
    | ⟨0, _⟩ => show win13_1.index t (0 : Fin 2) * 128 + 1 * l.val = l.val; omega
    | ⟨1, _⟩ => show win13_1.index t (1 : Fin 2) * 128 + 1 * q.val = win13_2.index t (1 : Fin 2) * 128 + 1 * q.val; omega

/-- Every row block is some point's. -/
theorem idx_onto13 : ∀ q0 : Fin 16, ∃ t : Fin cfg13.N, win13_2.index t = ![q0.val, 0] :=
  (by decide +kernel : ∀ q0 : Fin 16, ∃ t : Fin grid13.N, win13_2.index t = ![q0.val, 0])

/-- An index of the output array is in a point's block iff each coordinate is in the block's range on its axis. -/
theorem mem_blk13 (t : Fin cfg13.N) (i : S8192x128.Idx) :
    i ∈ ((cfg13.win 2).blk t).view.set ↔ ∀ a : Fin 2, win13_2.index t a * S512x128.size a ≤ (i a).val
      ∧ (i a).val < win13_2.index t a * S512x128.size a + S512x128.size a := by
  show i ∈ ((View.whole main_v113).slice (win13_2.rect t)).set ↔ _
  rw [View.set_slice_whole, Rect.mem_set_unit]
  exact Iff.rfl

/-- The row blocks cover the output array: row i lies in block i / 512. -/
theorem cover13 (i : S8192x128.Idx) :
    ∃ t : Fin cfg13.N, (cfg13.win 2).flush t = true ∧ i ∈ ((cfg13.win 2).blk t).view.set := by
  have hi0 : (i 0).val < 8192 := (i 0).isLt
  have hi1 : (i 1).val < 128 := (i 1).isLt
  obtain ⟨t, ht⟩ := idx_onto13 ⟨(i 0).val / 512, by omega⟩
  have q0 : win13_2.index t (0 : Fin 2) = (i 0).val / 512 := congrFun ht 0
  have q1 : win13_2.index t (1 : Fin 2) = 0 := congrFun ht 1
  refine ⟨t, flush13_2 t, ?_⟩
  rw [mem_blk13]
  intro a
  match a with
  | ⟨0, _⟩ => show win13_2.index t (0 : Fin 2) * 512 ≤ (i 0).val ∧ (i 0).val < win13_2.index t (0 : Fin 2) * 512 + 512; omega
  | ⟨1, _⟩ => show win13_2.index t (1 : Fin 2) * 128 ≤ (i 1).val ∧ (i 1).val < win13_2.index t (1 : Fin 2) * 128 + 128; omega

/-- The output array after the region, as one function of the arrays the region finds. -/
theorem final13 (c : Dev nD) : (dat13 V c).arrAt 2 cfg13.N
    = Spec.mm (M := 8192) (K := 128) (N := 128) (V c (Pipeline.arrRef spec13 0)) (V c (Pipeline.arrRef spec13 1)) :=
  (dat13 V c).arrAt_eq_of_cover 2 _ (fun t _ => flushed13_eq V c t) (cover13)

/-! ## Region 18: a plain product, 4096×128 by 128×128, in 8 blocks of 512 rows -/

/-- The index maps over the grid: a row-blocked input window moves with the output's, every other input block is its
    whole array, and the output's blocks are the 8 row blocks. -/
theorem idx_facts18 : ∀ t : Fin cfg18.N, win18_0.index t (0 : Fin 2) = win18_2.index t (0 : Fin 2)
    ∧ win18_0.index t (1 : Fin 2) = 0
    ∧ win18_1.index t (0 : Fin 2) = 0
    ∧ win18_1.index t (1 : Fin 2) = 0
    ∧ win18_2.index t (1 : Fin 2) = 0
    ∧ win18_2.index t (0 : Fin 2) ≤ 7 :=
  (by decide +kernel : ∀ t : Fin grid18.N, _)

/-- What a point writes back is its block of the product of the arrays as the region finds them. -/
theorem flushed18_eq (c : Dev nD) (t : Fin cfg18.N) :
    (dat18 V c).flushed 2 t = ((cfg18.win 2).blk t).view.read (Elt Ideal)
      (Spec.mm (M := 4096) (K := 128) (N := 128) (V c (Pipeline.arrRef spec18 0)) (V c (Pipeline.arrRef spec18 1))) := by
  show (cfg18.win 2).cut (grid18.coords t) ((dat18 V c).after 2 t) = _
  rw [after18_2]
  unfold out18_2
  rw [View.canon_unit_zero zeros2]
  simp only [View.ld_unit_zero (S := S512x128) zeros2, View.ld_unit_zero (S := S128x128) zeros2]
  obtain ⟨e0, e1, e2, e3, e4, e5⟩ := idx_facts18 t
  funext j
  obtain ⟨p, q, rfl⟩ : ∃ (p : Fin 512) (q : Fin 128), j = ix2 p q := ⟨j 0, j 1, eq_ix2 (n0 := 512) (n1 := 128) j⟩
  show k18_pay1 (iblk18 V c 0 t) (iblk18 V c 1 t) (ix2 p q)
    = (Spec.mm (M := 4096) (K := 128) (N := 128) (V c (Pipeline.arrRef spec18 0)) (V c (Pipeline.arrRef spec18 1))) (((cfg18.win 2).blk t).view.emb (ix2 p q))
  refine mm_entry (M := 4096) (iblk18 V c 0 t) (iblk18 V c 1 t) (V c (Pipeline.arrRef spec18 0)) (V c (Pipeline.arrRef spec18 1)) (((cfg18.win 2).blk t).view.emb (ix2 p q)) p q ?_ ?_
  · intro l
    show V c (Pipeline.arrRef spec18 0) (((cfg18.win 0).blk t).view.emb (ix2 p l)) = _
    refine congrArg _ (funext fun a => Fin.ext ?_)
    match a with
    | ⟨0, _⟩ => show win18_0.index t (0 : Fin 2) * 512 + 1 * p.val = win18_2.index t (0 : Fin 2) * 512 + 1 * p.val; omega
    | ⟨1, _⟩ => show win18_0.index t (1 : Fin 2) * 128 + 1 * l.val = l.val; omega
  · intro l
    show V c (Pipeline.arrRef spec18 1) (((cfg18.win 1).blk t).view.emb (ix2 l q)) = _
    refine congrArg _ (funext fun a => Fin.ext ?_)
    match a with
    | ⟨0, _⟩ => show win18_1.index t (0 : Fin 2) * 128 + 1 * l.val = l.val; omega
    | ⟨1, _⟩ => show win18_1.index t (1 : Fin 2) * 128 + 1 * q.val = win18_2.index t (1 : Fin 2) * 128 + 1 * q.val; omega

/-- Every row block is some point's. -/
theorem idx_onto18 : ∀ q0 : Fin 8, ∃ t : Fin cfg18.N, win18_2.index t = ![q0.val, 0] :=
  (by decide +kernel : ∀ q0 : Fin 8, ∃ t : Fin grid18.N, win18_2.index t = ![q0.val, 0])

/-- An index of the output array is in a point's block iff each coordinate is in the block's range on its axis. -/
theorem mem_blk18 (t : Fin cfg18.N) (i : S4096x128.Idx) :
    i ∈ ((cfg18.win 2).blk t).view.set ↔ ∀ a : Fin 2, win18_2.index t a * S512x128.size a ≤ (i a).val
      ∧ (i a).val < win18_2.index t a * S512x128.size a + S512x128.size a := by
  show i ∈ ((View.whole main_v156).slice (win18_2.rect t)).set ↔ _
  rw [View.set_slice_whole, Rect.mem_set_unit]
  exact Iff.rfl

/-- The row blocks cover the output array: row i lies in block i / 512. -/
theorem cover18 (i : S4096x128.Idx) :
    ∃ t : Fin cfg18.N, (cfg18.win 2).flush t = true ∧ i ∈ ((cfg18.win 2).blk t).view.set := by
  have hi0 : (i 0).val < 4096 := (i 0).isLt
  have hi1 : (i 1).val < 128 := (i 1).isLt
  obtain ⟨t, ht⟩ := idx_onto18 ⟨(i 0).val / 512, by omega⟩
  have q0 : win18_2.index t (0 : Fin 2) = (i 0).val / 512 := congrFun ht 0
  have q1 : win18_2.index t (1 : Fin 2) = 0 := congrFun ht 1
  refine ⟨t, flush18_2 t, ?_⟩
  rw [mem_blk18]
  intro a
  match a with
  | ⟨0, _⟩ => show win18_2.index t (0 : Fin 2) * 512 ≤ (i 0).val ∧ (i 0).val < win18_2.index t (0 : Fin 2) * 512 + 512; omega
  | ⟨1, _⟩ => show win18_2.index t (1 : Fin 2) * 128 ≤ (i 1).val ∧ (i 1).val < win18_2.index t (1 : Fin 2) * 128 + 128; omega

/-- The output array after the region, as one function of the arrays the region finds. -/
theorem final18 (c : Dev nD) : (dat18 V c).arrAt 2 cfg18.N
    = Spec.mm (M := 4096) (K := 128) (N := 128) (V c (Pipeline.arrRef spec18 0)) (V c (Pipeline.arrRef spec18 1)) :=
  (dat18 V c).arrAt_eq_of_cover 2 _ (fun t _ => flushed18_eq V c t) (cover18)

/-! ## Region 19: a plain product, 8192×128 by 128×128, in 16 blocks of 512 rows -/

/-- The index maps over the grid: a row-blocked input window moves with the output's, every other input block is its
    whole array, and the output's blocks are the 16 row blocks. -/
theorem idx_facts19 : ∀ t : Fin cfg19.N, win19_0.index t (0 : Fin 2) = win19_2.index t (0 : Fin 2)
    ∧ win19_0.index t (1 : Fin 2) = 0
    ∧ win19_1.index t (0 : Fin 2) = 0
    ∧ win19_1.index t (1 : Fin 2) = 0
    ∧ win19_2.index t (1 : Fin 2) = 0
    ∧ win19_2.index t (0 : Fin 2) ≤ 15 :=
  (by decide +kernel : ∀ t : Fin grid19.N, _)

/-- What a point writes back is its block of the product of the arrays as the region finds them. -/
theorem flushed19_eq (c : Dev nD) (t : Fin cfg19.N) :
    (dat19 V c).flushed 2 t = ((cfg19.win 2).blk t).view.read (Elt Ideal)
      (Spec.mm (M := 8192) (K := 128) (N := 128) (V c (Pipeline.arrRef spec19 0)) (V c (Pipeline.arrRef spec19 1))) := by
  show (cfg19.win 2).cut (grid19.coords t) ((dat19 V c).after 2 t) = _
  rw [after19_2]
  unfold out19_2
  rw [View.canon_unit_zero zeros2]
  simp only [View.ld_unit_zero (S := S512x128) zeros2, View.ld_unit_zero (S := S128x128) zeros2]
  obtain ⟨e0, e1, e2, e3, e4, e5⟩ := idx_facts19 t
  funext j
  obtain ⟨p, q, rfl⟩ : ∃ (p : Fin 512) (q : Fin 128), j = ix2 p q := ⟨j 0, j 1, eq_ix2 (n0 := 512) (n1 := 128) j⟩
  show k19_pay1 (iblk19 V c 0 t) (iblk19 V c 1 t) (ix2 p q)
    = (Spec.mm (M := 8192) (K := 128) (N := 128) (V c (Pipeline.arrRef spec19 0)) (V c (Pipeline.arrRef spec19 1))) (((cfg19.win 2).blk t).view.emb (ix2 p q))
  refine mm_entry (M := 8192) (iblk19 V c 0 t) (iblk19 V c 1 t) (V c (Pipeline.arrRef spec19 0)) (V c (Pipeline.arrRef spec19 1)) (((cfg19.win 2).blk t).view.emb (ix2 p q)) p q ?_ ?_
  · intro l
    show V c (Pipeline.arrRef spec19 0) (((cfg19.win 0).blk t).view.emb (ix2 p l)) = _
    refine congrArg _ (funext fun a => Fin.ext ?_)
    match a with
    | ⟨0, _⟩ => show win19_0.index t (0 : Fin 2) * 512 + 1 * p.val = win19_2.index t (0 : Fin 2) * 512 + 1 * p.val; omega
    | ⟨1, _⟩ => show win19_0.index t (1 : Fin 2) * 128 + 1 * l.val = l.val; omega
  · intro l
    show V c (Pipeline.arrRef spec19 1) (((cfg19.win 1).blk t).view.emb (ix2 l q)) = _
    refine congrArg _ (funext fun a => Fin.ext ?_)
    match a with
    | ⟨0, _⟩ => show win19_1.index t (0 : Fin 2) * 128 + 1 * l.val = l.val; omega
    | ⟨1, _⟩ => show win19_1.index t (1 : Fin 2) * 128 + 1 * q.val = win19_2.index t (1 : Fin 2) * 128 + 1 * q.val; omega

/-- Every row block is some point's. -/
theorem idx_onto19 : ∀ q0 : Fin 16, ∃ t : Fin cfg19.N, win19_2.index t = ![q0.val, 0] :=
  (by decide +kernel : ∀ q0 : Fin 16, ∃ t : Fin grid19.N, win19_2.index t = ![q0.val, 0])

/-- An index of the output array is in a point's block iff each coordinate is in the block's range on its axis. -/
theorem mem_blk19 (t : Fin cfg19.N) (i : S8192x128.Idx) :
    i ∈ ((cfg19.win 2).blk t).view.set ↔ ∀ a : Fin 2, win19_2.index t a * S512x128.size a ≤ (i a).val
      ∧ (i a).val < win19_2.index t a * S512x128.size a + S512x128.size a := by
  show i ∈ ((View.whole main_v159).slice (win19_2.rect t)).set ↔ _
  rw [View.set_slice_whole, Rect.mem_set_unit]
  exact Iff.rfl

/-- The row blocks cover the output array: row i lies in block i / 512. -/
theorem cover19 (i : S8192x128.Idx) :
    ∃ t : Fin cfg19.N, (cfg19.win 2).flush t = true ∧ i ∈ ((cfg19.win 2).blk t).view.set := by
  have hi0 : (i 0).val < 8192 := (i 0).isLt
  have hi1 : (i 1).val < 128 := (i 1).isLt
  obtain ⟨t, ht⟩ := idx_onto19 ⟨(i 0).val / 512, by omega⟩
  have q0 : win19_2.index t (0 : Fin 2) = (i 0).val / 512 := congrFun ht 0
  have q1 : win19_2.index t (1 : Fin 2) = 0 := congrFun ht 1
  refine ⟨t, flush19_2 t, ?_⟩
  rw [mem_blk19]
  intro a
  match a with
  | ⟨0, _⟩ => show win19_2.index t (0 : Fin 2) * 512 ≤ (i 0).val ∧ (i 0).val < win19_2.index t (0 : Fin 2) * 512 + 512; omega
  | ⟨1, _⟩ => show win19_2.index t (1 : Fin 2) * 128 ≤ (i 1).val ∧ (i 1).val < win19_2.index t (1 : Fin 2) * 128 + 128; omega

/-- The output array after the region, as one function of the arrays the region finds. -/
theorem final19 (c : Dev nD) : (dat19 V c).arrAt 2 cfg19.N
    = Spec.mm (M := 8192) (K := 128) (N := 128) (V c (Pipeline.arrRef spec19 0)) (V c (Pipeline.arrRef spec19 1)) :=
  (dat19 V c).arrAt_eq_of_cover 2 _ (fun t _ => flushed19_eq V c t) (cover19)

end Cert.KernelIdeal.RegionValue

end
-- ==== Proof.KRegs_post_1.lean ====
/-
  Regions 3, 8, 9 of the kernel program, read as mathematics: a graph convolution step followed by a projection.

  Point t loads rows 512·t … 512·t + 511 of the adjacency array and the whole right factor, bias row and projection
  weight. With h (p, l) the leaky rectifier of ∑ k, adj (512·t + p, k) · y (k, l) + b (l), it stores ∑ l, h (p, l) · w (l, q)
  to the same rows of the output: entry (512·t + p, q) of the product of the whole step by the weight. The row blocks fill
  the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 3: a graph convolution step (4096×8192 by 8192×128) and its projection, in 8 blocks of 512 rows -/

/-- The index maps over the grid: a row-blocked input window moves with the output's, every other input block is its
    whole array, and the output's blocks are the 8 row blocks. -/
theorem idx_facts3 : ∀ t : Fin cfg3.N, win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 7 :=
  (by decide +kernel : ∀ t : Fin grid3.N, _)

set_option maxHeartbeats 800000 in
/-- What a point writes back is its block of the projected step of the arrays as the region finds them. -/
theorem flushed3_eq (c : Dev nD) (t : Fin cfg3.N) :
    (dat3 V c).flushed 4 t = ((cfg3.win 4).blk t).view.read (Elt Ideal)
      (Spec.mm (M := 4096) (K := 128) (N := 128) (Spec.gcn (M := 4096) (K := 8192) (N := 128) (V c (Pipeline.arrRef spec3 0)) (V c (Pipeline.arrRef spec3 1)) (fun q => (V c (Pipeline.arrRef spec3 2)) (ix2 (0 : Fin 1) q))) (V c (Pipeline.arrRef spec3 3))) := by
  show (cfg3.win 4).cut (grid3.coords t) ((dat3 V c).after 4 t) = _
  rw [after3_4]
  unfold out3_4
  rw [View.canon_unit_zero zeros2]
  simp only [View.ld_unit_zero (S := S512x8192) zeros2, View.ld_unit_zero (S := S8192x128) zeros2, View.ld_unit_zero (S := S1x128) zeros2, View.ld_unit_zero (S := S128x128) zeros2]
  obtain ⟨e0, e1, e2, e3, e4, e5, e6, e7, e8, e9⟩ := idx_facts3 t
  funext j
  obtain ⟨p, q, rfl⟩ : ∃ (p : Fin 512) (q : Fin 128), j = ix2 p q := ⟨j 0, j 1, eq_ix2 (n0 := 512) (n1 := 128) j⟩
  show k3_pay1 (iblk3 V c 0 t) (iblk3 V c 1 t) (iblk3 V c 2 t) (iblk3 V c 3 t) (ix2 p q)
    = (Spec.mm (M := 4096) (K := 128) (N := 128) (Spec.gcn (M := 4096) (K := 8192) (N := 128) (V c (Pipeline.arrRef spec3 0)) (V c (Pipeline.arrRef spec3 1)) (fun q => (V c (Pipeline.arrRef spec3 2)) (ix2 (0 : Fin 1) q))) (V c (Pipeline.arrRef spec3 3))) (((cfg3.win 4).blk t).view.emb (ix2 p q))
  refine post_entry8192 (M := 4096) (iblk3 V c 0 t) (iblk3 V c 1 t) (iblk3 V c 2 t) (iblk3 V c 3 t) (V c (Pipeline.arrRef spec3 0)) (V c (Pipeline.arrRef spec3 1)) (V c (Pipeline.arrRef spec3 2)) (V c (Pipeline.arrRef spec3 3)) (((cfg3.win 4).blk t).view.emb (ix2 p q)) p q ?_ ?_ ?_ ?_
  · intro k
    show V c (Pipeline.arrRef spec3 0) (((cfg3.win 0).blk t).view.emb (ix2 p k)) = _
    refine congrArg _ (funext fun a => Fin.ext ?_)
    match a with
    | ⟨0, _⟩ => show win3_0.index t (0 : Fin 2) * 512 + 1 * p.val = win3_4.index t (0 : Fin 2) * 512 + 1 * p.val; omega
    | ⟨1, _⟩ => show win3_0.index t (1 : Fin 2) * 8192 + 1 * k.val = k.val; omega
  · intro k l
    show V c (Pipeline.arrRef spec3 1) (((cfg3.win 1).blk t).view.emb (ix2 k l)) = _
    refine congrArg _ (funext fun a => Fin.ext ?_)
    match a with
    | ⟨0, _⟩ => show win3_1.index t (0 : Fin 2) * 8192 + 1 * k.val = k.val; omega
    | ⟨1, _⟩ => show win3_1.index t (1 : Fin 2) * 128 + 1 * l.val = l.val; omega
  · intro l
    show V c (Pipeline.arrRef spec3 2) (((cfg3.win 2).blk t).view.emb (ix2 (0 : Fin 1) l)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * l.val = l.val; omega
  · intro l
    show V c (Pipeline.arrRef spec3 3) (((cfg3.win 3).blk t).view.emb (ix2 l q)) = _
    refine congrArg _ (funext fun a => Fin.ext ?_)
    match a with
    | ⟨0, _⟩ => show win3_3.index t (0 : Fin 2) * 128 + 1 * l.val = l.val; omega
    | ⟨1, _⟩ => show win3_3.index t (1 : Fin 2) * 128 + 1 * q.val = win3_4.index t (1 : Fin 2) * 128 + 1 * q.val; omega

/-- Every row block is some point's. -/
theorem idx_onto3 : ∀ q0 : Fin 8, ∃ t : Fin cfg3.N, win3_4.index t = ![q0.val, 0] :=
  (by decide +kernel : ∀ q0 : Fin 8, ∃ t : Fin grid3.N, win3_4.index t = ![q0.val, 0])

/-- An index of the output array is in a point's block iff each coordinate is in the block's range on its axis. -/
theorem mem_blk3 (t : Fin cfg3.N) (i : S4096x128.Idx) :
    i ∈ ((cfg3.win 4).blk t).view.set ↔ ∀ a : Fin 2, win3_4.index t a * S512x128.size a ≤ (i a).val
      ∧ (i a).val < win3_4.index t a * S512x128.size a + S512x128.size a := by
  show i ∈ ((View.whole main_v27).slice (win3_4.rect t)).set ↔ _
  rw [View.set_slice_whole, Rect.mem_set_unit]
  exact Iff.rfl

/-- The row blocks cover the output array: row i lies in block i / 512. -/
theorem cover3 (i : S4096x128.Idx) :
    ∃ t : Fin cfg3.N, (cfg3.win 4).flush t = true ∧ i ∈ ((cfg3.win 4).blk t).view.set := by
  have hi0 : (i 0).val < 4096 := (i 0).isLt
  have hi1 : (i 1).val < 128 := (i 1).isLt
  obtain ⟨t, ht⟩ := idx_onto3 ⟨(i 0).val / 512, by omega⟩
  have q0 : win3_4.index t (0 : Fin 2) = (i 0).val / 512 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 512 ≤ (i 0).val ∧ (i 0).val < win3_4.index t (0 : Fin 2) * 512 + 512; omega
  | ⟨1, _⟩ => show win3_4.index t (1 : Fin 2) * 128 ≤ (i 1).val ∧ (i 1).val < win3_4.index t (1 : Fin 2) * 128 + 128; omega

/-- The output array after the region, as one function of the arrays the region finds. -/
theorem final3 (c : Dev nD) : (dat3 V c).arrAt 4 cfg3.N
    = Spec.mm (M := 4096) (K := 128) (N := 128) (Spec.gcn (M := 4096) (K := 8192) (N := 128) (V c (Pipeline.arrRef spec3 0)) (V c (Pipeline.arrRef spec3 1)) (fun q => (V c (Pipeline.arrRef spec3 2)) (ix2 (0 : Fin 1) q))) (V c (Pipeline.arrRef spec3 3)) :=
  (dat3 V c).arrAt_eq_of_cover 4 _ (fun t _ => flushed3_eq V c t) (cover3)

/-! ## Region 8: a graph convolution step (8192×4096 by 4096×128) and its projection, in 16 blocks of 512 rows -/

/-- The index maps over the grid: a row-blocked input window moves with the output's, every other input block is its
    whole array, and the output's blocks are the 16 row blocks. -/
theorem idx_facts8 : ∀ t : Fin cfg8.N, win8_0.index t (0 : Fin 2) = win8_4.index t (0 : Fin 2)
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (1 : Fin 2) = 0
    ∧ win8_4.index t (0 : Fin 2) ≤ 15 :=
  (by decide +kernel : ∀ t : Fin grid8.N, _)

set_option maxHeartbeats 800000 in
/-- What a point writes back is its block of the projected step of the arrays as the region finds them. -/
theorem flushed8_eq (c : Dev nD) (t : Fin cfg8.N) :
    (dat8 V c).flushed 4 t = ((cfg8.win 4).blk t).view.read (Elt Ideal)
      (Spec.mm (M := 8192) (K := 128) (N := 128) (Spec.gcn (M := 8192) (K := 4096) (N := 128) (V c (Pipeline.arrRef spec8 0)) (V c (Pipeline.arrRef spec8 1)) (fun q => (V c (Pipeline.arrRef spec8 2)) (ix2 (0 : Fin 1) q))) (V c (Pipeline.arrRef spec8 3))) := by
  show (cfg8.win 4).cut (grid8.coords t) ((dat8 V c).after 4 t) = _
  rw [after8_4]
  unfold out8_4
  rw [View.canon_unit_zero zeros2]
  simp only [View.ld_unit_zero (S := S512x4096) zeros2, View.ld_unit_zero (S := S4096x128) zeros2, View.ld_unit_zero (S := S1x128) zeros2, View.ld_unit_zero (S := S128x128) zeros2]
  obtain ⟨e0, e1, e2, e3, e4, e5, e6, e7, e8, e9⟩ := idx_facts8 t
  funext j
  obtain ⟨p, q, rfl⟩ : ∃ (p : Fin 512) (q : Fin 128), j = ix2 p q := ⟨j 0, j 1, eq_ix2 (n0 := 512) (n1 := 128) j⟩
  show k8_pay1 (iblk8 V c 0 t) (iblk8 V c 1 t) (iblk8 V c 2 t) (iblk8 V c 3 t) (ix2 p q)
    = (Spec.mm (M := 8192) (K := 128) (N := 128) (Spec.gcn (M := 8192) (K := 4096) (N := 128) (V c (Pipeline.arrRef spec8 0)) (V c (Pipeline.arrRef spec8 1)) (fun q => (V c (Pipeline.arrRef spec8 2)) (ix2 (0 : Fin 1) q))) (V c (Pipeline.arrRef spec8 3))) (((cfg8.win 4).blk t).view.emb (ix2 p q))
  refine post_entry4096 (M := 8192) (iblk8 V c 0 t) (iblk8 V c 1 t) (iblk8 V c 2 t) (iblk8 V c 3 t) (V c (Pipeline.arrRef spec8 0)) (V c (Pipeline.arrRef spec8 1)) (V c (Pipeline.arrRef spec8 2)) (V c (Pipeline.arrRef spec8 3)) (((cfg8.win 4).blk t).view.emb (ix2 p q)) p q ?_ ?_ ?_ ?_
  · intro k
    show V c (Pipeline.arrRef spec8 0) (((cfg8.win 0).blk t).view.emb (ix2 p k)) = _
    refine congrArg _ (funext fun a => Fin.ext ?_)
    match a with
    | ⟨0, _⟩ => show win8_0.index t (0 : Fin 2) * 512 + 1 * p.val = win8_4.index t (0 : Fin 2) * 512 + 1 * p.val; omega
    | ⟨1, _⟩ => show win8_0.index t (1 : Fin 2) * 4096 + 1 * k.val = k.val; omega
  · intro k l
    show V c (Pipeline.arrRef spec8 1) (((cfg8.win 1).blk t).view.emb (ix2 k l)) = _
    refine congrArg _ (funext fun a => Fin.ext ?_)
    match a with
    | ⟨0, _⟩ => show win8_1.index t (0 : Fin 2) * 4096 + 1 * k.val = k.val; omega
    | ⟨1, _⟩ => show win8_1.index t (1 : Fin 2) * 128 + 1 * l.val = l.val; omega
  · intro l
    show V c (Pipeline.arrRef spec8 2) (((cfg8.win 2).blk t).view.emb (ix2 (0 : Fin 1) l)) = _
    refine congrArg _ (funext fun a => Fin.ext ?_)
    match a with
    | ⟨0, _⟩ => show win8_2.index t (0 : Fin 2) * 1 + 1 * 0 = 0; omega
    | ⟨1, _⟩ => show win8_2.index t (1 : Fin 2) * 128 + 1 * l.val = l.val; omega
  · intro l
    show V c (Pipeline.arrRef spec8 3) (((cfg8.win 3).blk t).view.emb (ix2 l q)) = _
    refine congrArg _ (funext fun a => Fin.ext ?_)
    match a with
    | ⟨0, _⟩ => show win8_3.index t (0 : Fin 2) * 128 + 1 * l.val = l.val; omega
    | ⟨1, _⟩ => show win8_3.index t (1 : Fin 2) * 128 + 1 * q.val = win8_4.index t (1 : Fin 2) * 128 + 1 * q.val; omega

/-- Every row block is some point's. -/
theorem idx_onto8 : ∀ q0 : Fin 16, ∃ t : Fin cfg8.N, win8_4.index t = ![q0.val, 0] :=
  (by decide +kernel : ∀ q0 : Fin 16, ∃ t : Fin grid8.N, win8_4.index t = ![q0.val, 0])

/-- An index of the output array is in a point's block iff each coordinate is in the block's range on its axis. -/
theorem mem_blk8 (t : Fin cfg8.N) (i : S8192x128.Idx) :
    i ∈ ((cfg8.win 4).blk t).view.set ↔ ∀ a : Fin 2, win8_4.index t a * S512x128.size a ≤ (i a).val
      ∧ (i a).val < win8_4.index t a * S512x128.size a + S512x128.size a := by
  show i ∈ ((View.whole main_v67).slice (win8_4.rect t)).set ↔ _
  rw [View.set_slice_whole, Rect.mem_set_unit]
  exact Iff.rfl

/-- The row blocks cover the output array: row i lies in block i / 512. -/
theorem cover8 (i : S8192x128.Idx) :
    ∃ t : Fin cfg8.N, (cfg8.win 4).flush t = true ∧ i ∈ ((cfg8.win 4).blk t).view.set := by
  have hi0 : (i 0).val < 8192 := (i 0).isLt
  have hi1 : (i 1).val < 128 := (i 1).isLt
  obtain ⟨t, ht⟩ := idx_onto8 ⟨(i 0).val / 512, by omega⟩
  have q0 : win8_4.index t (0 : Fin 2) = (i 0).val / 512 := congrFun ht 0
  have q1 : win8_4.index t (1 : Fin 2) = 0 := congrFun ht 1
  refine ⟨t, flush8_4 t, ?_⟩
  rw [mem_blk8]
  intro a
  match a with
  | ⟨0, _⟩ => show win8_4.index t (0 : Fin 2) * 512 ≤ (i 0).val ∧ (i 0).val < win8_4.index t (0 : Fin 2) * 512 + 512; omega
  | ⟨1, _⟩ => show win8_4.index t (1 : Fin 2) * 128 ≤ (i 1).val ∧ (i 1).val < win8_4.index t (1 : Fin 2) * 128 + 128; omega

/-- The output array after the region, as one function of the arrays the region finds. -/
theorem final8 (c : Dev nD) : (dat8 V c).arrAt 4 cfg8.N
    = Spec.mm (M := 8192) (K := 128) (N := 128) (Spec.gcn (M := 8192) (K := 4096) (N := 128) (V c (Pipeline.arrRef spec8 0)) (V c (Pipeline.arrRef spec8 1)) (fun q => (V c (Pipeline.arrRef spec8 2)) (ix2 (0 : Fin 1) q))) (V c (Pipeline.arrRef spec8 3)) :=
  (dat8 V c).arrAt_eq_of_cover 4 _ (fun t _ => flushed8_eq V c t) (cover8)

/-! ## Region 9: a graph convolution step (4096×8192 by 8192×128) and its projection, in 8 blocks of 512 rows -/

/-- The index maps over the grid: a row-blocked input window moves with the output's, every other input block is its
    whole array, and the output's blocks are the 8 row blocks. -/
theorem idx_facts9 : ∀ t : Fin cfg9.N, win9_0.index t (0 : Fin 2) = win9_4.index t (0 : Fin 2)
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (1 : Fin 2) = 0
    ∧ win9_4.index t (0 : Fin 2) ≤ 7 :=
  (by decide +kernel : ∀ t : Fin grid9.N, _)

set_option maxHeartbeats 800000 in
/-- What a point writes back is its block of the projected step of the arrays as the region finds them. -/
theorem flushed9_eq (c : Dev nD) (t : Fin cfg9.N) :
    (dat9 V c).flushed 4 t = ((cfg9.win 4).blk t).view.read (Elt Ideal)
      (Spec.mm (M := 4096) (K := 128) (N := 128) (Spec.gcn (M := 4096) (K := 8192) (N := 128) (V c (Pipeline.arrRef spec9 0)) (V c (Pipeline.arrRef spec9 1)) (fun q => (V c (Pipeline.arrRef spec9 2)) (ix2 (0 : Fin 1) q))) (V c (Pipeline.arrRef spec9 3))) := by
  show (cfg9.win 4).cut (grid9.coords t) ((dat9 V c).after 4 t) = _
  rw [after9_4]
  unfold out9_4
  rw [View.canon_unit_zero zeros2]
  simp only [View.ld_unit_zero (S := S512x8192) zeros2, View.ld_unit_zero (S := S8192x128) zeros2, View.ld_unit_zero (S := S1x128) zeros2, View.ld_unit_zero (S := S128x128) zeros2]
  obtain ⟨e0, e1, e2, e3, e4, e5, e6, e7, e8, e9⟩ := idx_facts9 t
  funext j
  obtain ⟨p, q, rfl⟩ : ∃ (p : Fin 512) (q : Fin 128), j = ix2 p q := ⟨j 0, j 1, eq_ix2 (n0 := 512) (n1 := 128) j⟩
  show k9_pay1 (iblk9 V c 0 t) (iblk9 V c 1 t) (iblk9 V c 2 t) (iblk9 V c 3 t) (ix2 p q)
    = (Spec.mm (M := 4096) (K := 128) (N := 128) (Spec.gcn (M := 4096) (K := 8192) (N := 128) (V c (Pipeline.arrRef spec9 0)) (V c (Pipeline.arrRef spec9 1)) (fun q => (V c (Pipeline.arrRef spec9 2)) (ix2 (0 : Fin 1) q))) (V c (Pipeline.arrRef spec9 3))) (((cfg9.win 4).blk t).view.emb (ix2 p q))
  refine post_entry8192 (M := 4096) (iblk9 V c 0 t) (iblk9 V c 1 t) (iblk9 V c 2 t) (iblk9 V c 3 t) (V c (Pipeline.arrRef spec9 0)) (V c (Pipeline.arrRef spec9 1)) (V c (Pipeline.arrRef spec9 2)) (V c (Pipeline.arrRef spec9 3)) (((cfg9.win 4).blk t).view.emb (ix2 p q)) p q ?_ ?_ ?_ ?_
  · intro k
    show V c (Pipeline.arrRef spec9 0) (((cfg9.win 0).blk t).view.emb (ix2 p k)) = _
    refine congrArg _ (funext fun a => Fin.ext ?_)
    match a with
    | ⟨0, _⟩ => show win9_0.index t (0 : Fin 2) * 512 + 1 * p.val = win9_4.index t (0 : Fin 2) * 512 + 1 * p.val; omega
    | ⟨1, _⟩ => show win9_0.index t (1 : Fin 2) * 8192 + 1 * k.val = k.val; omega
  · intro k l
    show V c (Pipeline.arrRef spec9 1) (((cfg9.win 1).blk t).view.emb (ix2 k l)) = _
    refine congrArg _ (funext fun a => Fin.ext ?_)
    match a with
    | ⟨0, _⟩ => show win9_1.index t (0 : Fin 2) * 8192 + 1 * k.val = k.val; omega
    | ⟨1, _⟩ => show win9_1.index t (1 : Fin 2) * 128 + 1 * l.val = l.val; omega
  · intro l
    show V c (Pipeline.arrRef spec9 2) (((cfg9.win 2).blk t).view.emb (ix2 (0 : Fin 1) l)) = _
    refine congrArg _ (funext fun a => Fin.ext ?_)
    match a with
    | ⟨0, _⟩ => show win9_2.index t (0 : Fin 2) * 1 + 1 * 0 = 0; omega
    | ⟨1, _⟩ => show win9_2.index t (1 : Fin 2) * 128 + 1 * l.val = l.val; omega
  · intro l
    show V c (Pipeline.arrRef spec9 3) (((cfg9.win 3).blk t).view.emb (ix2 l q)) = _
    refine congrArg _ (funext fun a => Fin.ext ?_)
    match a with
    | ⟨0, _⟩ => show win9_3.index t (0 : Fin 2) * 128 + 1 * l.val = l.val; omega
    | ⟨1, _⟩ => show win9_3.index t (1 : Fin 2) * 128 + 1 * q.val = win9_4.index t (1 : Fin 2) * 128 + 1 * q.val; omega

/-- Every row block is some point's. -/
theorem idx_onto9 : ∀ q0 : Fin 8, ∃ t : Fin cfg9.N, win9_4.index t = ![q0.val, 0] :=
  (by decide +kernel : ∀ q0 : Fin 8, ∃ t : Fin grid9.N, win9_4.index t = ![q0.val, 0])

/-- An index of the output array is in a point's block iff each coordinate is in the block's range on its axis. -/
theorem mem_blk9 (t : Fin cfg9.N) (i : S4096x128.Idx) :
    i ∈ ((cfg9.win 4).blk t).view.set ↔ ∀ a : Fin 2, win9_4.index t a * S512x128.size a ≤ (i a).val
      ∧ (i a).val < win9_4.index t a * S512x128.size a + S512x128.size a := by
  show i ∈ ((View.whole main_v73).slice (win9_4.rect t)).set ↔ _
  rw [View.set_slice_whole, Rect.mem_set_unit]
  exact Iff.rfl

/-- The row blocks cover the output array: row i lies in block i / 512. -/
theorem cover9 (i : S4096x128.Idx) :
    ∃ t : Fin cfg9.N, (cfg9.win 4).flush t = true ∧ i ∈ ((cfg9.win 4).blk t).view.set := by
  have hi0 : (i 0).val < 4096 := (i 0).isLt
  have hi1 : (i 1).val < 128 := (i 1).isLt
  obtain ⟨t, ht⟩ := idx_onto9 ⟨(i 0).val / 512, by omega⟩
  have q0 : win9_4.index t (0 : Fin 2) = (i 0).val / 512 := congrFun ht 0
  have q1 : win9_4.index t (1 : Fin 2) = 0 := congrFun ht 1
  refine ⟨t, flush9_4 t, ?_⟩
  rw [mem_blk9]
  intro a
  match a with
  | ⟨0, _⟩ => show win9_4.index t (0 : Fin 2) * 512 ≤ (i 0).val ∧ (i 0).val < win9_4.index t (0 : Fin 2) * 512 + 512; omega
  | ⟨1, _⟩ => show win9_4.index t (1 : Fin 2) * 128 ≤ (i 1).val ∧ (i 1).val < win9_4.index t (1 : Fin 2) * 128 + 128; omega

/-- The output array after the region, as one function of the arrays the region finds. -/
theorem final9 (c : Dev nD) : (dat9 V c).arrAt 4 cfg9.N
    = Spec.mm (M := 4096) (K := 128) (N := 128) (Spec.gcn (M := 4096) (K := 8192) (N := 128) (V c (Pipeline.arrRef spec9 0)) (V c (Pipeline.arrRef spec9 1)) (fun q => (V c (Pipeline.arrRef spec9 2)) (ix2 (0 : Fin 1) q))) (V c (Pipeline.arrRef spec9 3)) :=
  (dat9 V c).arrAt_eq_of_cover 4 _ (fun t _ => flushed9_eq V c t) (cover9)

end Cert.KernelIdeal.RegionValue

end
-- ==== Proof.KRegs_post_2.lean ====
/-
  Regions 14, 15, 20 of the kernel program, read as mathematics: a graph convolution step followed by a projection.

  Point t loads rows 512·t … 512·t + 511 of the adjacency array and the whole right factor, bias row and projection
  weight. With h (p, l) the leaky rectifier of ∑ k, adj (512·t + p, k) · y (k, l) + b (l), it stores ∑ l, h (p, l) · w (l, q)
  to the same rows of the output: entry (512·t + p, q) of the product of the whole step by the weight. The row blocks fill
  the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 14: a graph convolution step (8192×4096 by 4096×128) and its projection, in 16 blocks of 512 rows -/

/-- The index maps over the grid: a row-blocked input window moves with the output's, every other input block is its
    whole array, and the output's blocks are the 16 row blocks. -/
theorem idx_facts14 : ∀ t : Fin cfg14.N, win14_0.index t (0 : Fin 2) = win14_4.index t (0 : Fin 2)
    ∧ win14_0.index t (1 : Fin 2) = 0
    ∧ win14_1.index t (0 : Fin 2) = 0
    ∧ win14_1.index t (1 : Fin 2) = 0
    ∧ win14_2.index t (0 : Fin 2) = 0
    ∧ win14_2.index t (1 : Fin 2) = 0
    ∧ win14_3.index t (0 : Fin 2) = 0
    ∧ win14_3.index t (1 : Fin 2) = 0
    ∧ win14_4.index t (1 : Fin 2) = 0
    ∧ win14_4.index t (0 : Fin 2) ≤ 15 :=
  (by decide +kernel : ∀ t : Fin grid14.N, _)

set_option maxHeartbeats 800000 in
/-- What a point writes back is its block of the projected step of the arrays as the region finds them. -/
theorem flushed14_eq (c : Dev nD) (t : Fin cfg14.N) :
    (dat14 V c).flushed 4 t = ((cfg14.win 4).blk t).view.read (Elt Ideal)
      (Spec.mm (M := 8192) (K := 128) (N := 128) (Spec.gcn (M := 8192) (K := 4096) (N := 128) (V c (Pipeline.arrRef spec14 0)) (V c (Pipeline.arrRef spec14 1)) (fun q => (V c (Pipeline.arrRef spec14 2)) (ix2 (0 : Fin 1) q))) (V c (Pipeline.arrRef spec14 3))) := by
  show (cfg14.win 4).cut (grid14.coords t) ((dat14 V c).after 4 t) = _
  rw [after14_4]
  unfold out14_4
  rw [View.canon_unit_zero zeros2]
  simp only [View.ld_unit_zero (S := S512x4096) zeros2, View.ld_unit_zero (S := S4096x128) zeros2, View.ld_unit_zero (S := S1x128) zeros2, View.ld_unit_zero (S := S128x128) zeros2]
  obtain ⟨e0, e1, e2, e3, e4, e5, e6, e7, e8, e9⟩ := idx_facts14 t
  funext j
  obtain ⟨p, q, rfl⟩ : ∃ (p : Fin 512) (q : Fin 128), j = ix2 p q := ⟨j 0, j 1, eq_ix2 (n0 := 512) (n1 := 128) j⟩
  show k14_pay1 (iblk14 V c 0 t) (iblk14 V c 1 t) (iblk14 V c 2 t) (iblk14 V c 3 t) (ix2 p q)
    = (Spec.mm (M := 8192) (K := 128) (N := 128) (Spec.gcn (M := 8192) (K := 4096) (N := 128) (V c (Pipeline.arrRef spec14 0)) (V c (Pipeline.arrRef spec14 1)) (fun q => (V c (Pipeline.arrRef spec14 2)) (ix2 (0 : Fin 1) q))) (V c (Pipeline.arrRef spec14 3))) (((cfg14.win 4).blk t).view.emb (ix2 p q))
  refine post_entry4096 (M := 8192) (iblk14 V c 0 t) (iblk14 V c 1 t) (iblk14 V c 2 t) (iblk14 V c 3 t) (V c (Pipeline.arrRef spec14 0)) (V c (Pipeline.arrRef spec14 1)) (V c (Pipeline.arrRef spec14 2)) (V c (Pipeline.arrRef spec14 3)) (((cfg14.win 4).blk t).view.emb (ix2 p q)) p q ?_ ?_ ?_ ?_
  · intro k
    show V c (Pipeline.arrRef spec14 0) (((cfg14.win 0).blk t).view.emb (ix2 p k)) = _
    refine congrArg _ (funext fun a => Fin.ext ?_)
    match a with
    | ⟨0, _⟩ => show win14_0.index t (0 : Fin 2) * 512 + 1 * p.val = win14_4.index t (0 : Fin 2) * 512 + 1 * p.val; omega
    | ⟨1, _⟩ => show win14_0.index t (1 : Fin 2) * 4096 + 1 * k.val = k.val; omega
  · intro k l
    show V c (Pipeline.arrRef spec14 1) (((cfg14.win 1).blk t).view.emb (ix2 k l)) = _
    refine congrArg _ (funext fun a => Fin.ext ?_)
    match a with
    | ⟨0, _⟩ => show win14_1.index t (0 : Fin 2) * 4096 + 1 * k.val = k.val; omega
    | ⟨1, _⟩ => show win14_1.index t (1 : Fin 2) * 128 + 1 * l.val = l.val; omega
  · intro l
    show V c (Pipeline.arrRef spec14 2) (((cfg14.win 2).blk t).view.emb (ix2 (0 : Fin 1) l)) = _
    refine congrArg _ (funext fun a => Fin.ext ?_)
    match a with
    | ⟨0, _⟩ => show win14_2.index t (0 : Fin 2) * 1 + 1 * 0 = 0; omega
    | ⟨1, _⟩ => show win14_2.index t (1 : Fin 2) * 128 + 1 * l.val = l.val; omega
  · intro l
    show V c (Pipeline.arrRef spec14 3) (((cfg14.win 3).blk t).view.emb (ix2 l q)) = _
    refine congrArg _ (funext fun a => Fin.ext ?_)
    match a with
    | ⟨0, _⟩ => show win14_3.index t (0 : Fin 2) * 128 + 1 * l.val = l.val; omega
    | ⟨1, _⟩ => show win14_3.index t (1 : Fin 2) * 128 + 1 * q.val = win14_4.index t (1 : Fin 2) * 128 + 1 * q.val; omega

/-- Every row block is some point's. -/
theorem idx_onto14 : ∀ q0 : Fin 16, ∃ t : Fin cfg14.N, win14_4.index t = ![q0.val, 0] :=
  (by decide +kernel : ∀ q0 : Fin 16, ∃ t : Fin grid14.N, win14_4.index t = ![q0.val, 0])

/-- An index of the output array is in a point's block iff each coordinate is in the block's range on its axis. -/
theorem mem_blk14 (t : Fin cfg14.N) (i : S8192x128.Idx) :
    i ∈ ((cfg14.win 4).blk t).view.set ↔ ∀ a : Fin 2, win14_4.index t a * S512x128.size a ≤ (i a).val
      ∧ (i a).val < win14_4.index t a * S512x128.size a + S512x128.size a := by
  show i ∈ ((View.whole main_v119).slice (win14_4.rect t)).set ↔ _
  rw [View.set_slice_whole, Rect.mem_set_unit]
  exact Iff.rfl

/-- The row blocks cover the output array: row i lies in block i / 512. -/
theorem cover14 (i : S8192x128.Idx) :
    ∃ t : Fin cfg14.N, (cfg14.win 4).flush t = true ∧ i ∈ ((cfg14.win 4).blk t).view.set := by
  have hi0 : (i 0).val < 8192 := (i 0).isLt
  have hi1 : (i 1).val < 128 := (i 1).isLt
  obtain ⟨t, ht⟩ := idx_onto14 ⟨(i 0).val / 512, by omega⟩
  have q0 : win14_4.index t (0 : Fin 2) = (i 0).val / 512 := congrFun ht 0
  have q1 : win14_4.index t (1 : Fin 2) = 0 := congrFun ht 1
  refine ⟨t, flush14_4 t, ?_⟩
  rw [mem_blk14]
  intro a
  match a with
  | ⟨0, _⟩ => show win14_4.index t (0 : Fin 2) * 512 ≤ (i 0).val ∧ (i 0).val < win14_4.index t (0 : Fin 2) * 512 + 512; omega
  | ⟨1, _⟩ => show win14_4.index t (1 : Fin 2) * 128 ≤ (i 1).val ∧ (i 1).val < win14_4.index t (1 : Fin 2) * 128 + 128; omega

/-- The output array after the region, as one function of the arrays the region finds. -/
theorem final14 (c : Dev nD) : (dat14 V c).arrAt 4 cfg14.N
    = Spec.mm (M := 8192) (K := 128) (N := 128) (Spec.gcn (M := 8192) (K := 4096) (N := 128) (V c (Pipeline.arrRef spec14 0)) (V c (Pipeline.arrRef spec14 1)) (fun q => (V c (Pipeline.arrRef spec14 2)) (ix2 (0 : Fin 1) q))) (V c (Pipeline.arrRef spec14 3)) :=
  (dat14 V c).arrAt_eq_of_cover 4 _ (fun t _ => flushed14_eq V c t) (cover14)

/-! ## Region 15: a graph convolution step (4096×8192 by 8192×128) and its projection, in 8 blocks of 512 rows -/

/-- The index maps over the grid: a row-blocked input window moves with the output's, every other input block is its
    whole array, and the output's blocks are the 8 row blocks. -/
theorem idx_facts15 : ∀ t : Fin cfg15.N, win15_0.index t (0 : Fin 2) = win15_4.index t (0 : Fin 2)
    ∧ win15_0.index t (1 : Fin 2) = 0
    ∧ win15_1.index t (0 : Fin 2) = 0
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (1 : Fin 2) = 0
    ∧ win15_4.index t (0 : Fin 2) ≤ 7 :=
  (by decide +kernel : ∀ t : Fin grid15.N, _)

set_option maxHeartbeats 800000 in
/-- What a point writes back is its block of the projected step of the arrays as the region finds them. -/
theorem flushed15_eq (c : Dev nD) (t : Fin cfg15.N) :
    (dat15 V c).flushed 4 t = ((cfg15.win 4).blk t).view.read (Elt Ideal)
      (Spec.mm (M := 4096) (K := 128) (N := 128) (Spec.gcn (M := 4096) (K := 8192) (N := 128) (V c (Pipeline.arrRef spec15 0)) (V c (Pipeline.arrRef spec15 1)) (fun q => (V c (Pipeline.arrRef spec15 2)) (ix2 (0 : Fin 1) q))) (V c (Pipeline.arrRef spec15 3))) := by
  show (cfg15.win 4).cut (grid15.coords t) ((dat15 V c).after 4 t) = _
  rw [after15_4]
  unfold out15_4
  rw [View.canon_unit_zero zeros2]
  simp only [View.ld_unit_zero (S := S512x8192) zeros2, View.ld_unit_zero (S := S8192x128) zeros2, View.ld_unit_zero (S := S1x128) zeros2, View.ld_unit_zero (S := S128x128) zeros2]
  obtain ⟨e0, e1, e2, e3, e4, e5, e6, e7, e8, e9⟩ := idx_facts15 t
  funext j
  obtain ⟨p, q, rfl⟩ : ∃ (p : Fin 512) (q : Fin 128), j = ix2 p q := ⟨j 0, j 1, eq_ix2 (n0 := 512) (n1 := 128) j⟩
  show k15_pay1 (iblk15 V c 0 t) (iblk15 V c 1 t) (iblk15 V c 2 t) (iblk15 V c 3 t) (ix2 p q)
    = (Spec.mm (M := 4096) (K := 128) (N := 128) (Spec.gcn (M := 4096) (K := 8192) (N := 128) (V c (Pipeline.arrRef spec15 0)) (V c (Pipeline.arrRef spec15 1)) (fun q => (V c (Pipeline.arrRef spec15 2)) (ix2 (0 : Fin 1) q))) (V c (Pipeline.arrRef spec15 3))) (((cfg15.win 4).blk t).view.emb (ix2 p q))
  refine post_entry8192 (M := 4096) (iblk15 V c 0 t) (iblk15 V c 1 t) (iblk15 V c 2 t) (iblk15 V c 3 t) (V c (Pipeline.arrRef spec15 0)) (V c (Pipeline.arrRef spec15 1)) (V c (Pipeline.arrRef spec15 2)) (V c (Pipeline.arrRef spec15 3)) (((cfg15.win 4).blk t).view.emb (ix2 p q)) p q ?_ ?_ ?_ ?_
  · intro k
    show V c (Pipeline.arrRef spec15 0) (((cfg15.win 0).blk t).view.emb (ix2 p k)) = _
    refine congrArg _ (funext fun a => Fin.ext ?_)
    match a with
    | ⟨0, _⟩ => show win15_0.index t (0 : Fin 2) * 512 + 1 * p.val = win15_4.index t (0 : Fin 2) * 512 + 1 * p.val; omega
    | ⟨1, _⟩ => show win15_0.index t (1 : Fin 2) * 8192 + 1 * k.val = k.val; omega
  · intro k l
    show V c (Pipeline.arrRef spec15 1) (((cfg15.win 1).blk t).view.emb (ix2 k l)) = _
    refine congrArg _ (funext fun a => Fin.ext ?_)
    match a with
    | ⟨0, _⟩ => show win15_1.index t (0 : Fin 2) * 8192 + 1 * k.val = k.val; omega
    | ⟨1, _⟩ => show win15_1.index t (1 : Fin 2) * 128 + 1 * l.val = l.val; omega
  · intro l
    show V c (Pipeline.arrRef spec15 2) (((cfg15.win 2).blk t).view.emb (ix2 (0 : Fin 1) l)) = _
    refine congrArg _ (funext fun a => Fin.ext ?_)
    match a with
    | ⟨0, _⟩ => show win15_2.index t (0 : Fin 2) * 1 + 1 * 0 = 0; omega
    | ⟨1, _⟩ => show win15_2.index t (1 : Fin 2) * 128 + 1 * l.val = l.val; omega
  · intro l
    show V c (Pipeline.arrRef spec15 3) (((cfg15.win 3).blk t).view.emb (ix2 l q)) = _
    refine congrArg _ (funext fun a => Fin.ext ?_)
    match a with
    | ⟨0, _⟩ => show win15_3.index t (0 : Fin 2) * 128 + 1 * l.val = l.val; omega
    | ⟨1, _⟩ => show win15_3.index t (1 : Fin 2) * 128 + 1 * q.val = win15_4.index t (1 : Fin 2) * 128 + 1 * q.val; omega

/-- Every row block is some point's. -/
theorem idx_onto15 : ∀ q0 : Fin 8, ∃ t : Fin cfg15.N, win15_4.index t = ![q0.val, 0] :=
  (by decide +kernel : ∀ q0 : Fin 8, ∃ t : Fin grid15.N, win15_4.index t = ![q0.val, 0])

/-- An index of the output array is in a point's block iff each coordinate is in the block's range on its axis. -/
theorem mem_blk15 (t : Fin cfg15.N) (i : S4096x128.Idx) :
    i ∈ ((cfg15.win 4).blk t).view.set ↔ ∀ a : Fin 2, win15_4.index t a * S512x128.size a ≤ (i a).val
      ∧ (i a).val < win15_4.index t a * S512x128.size a + S512x128.size a := by
  show i ∈ ((View.whole main_v125).slice (win15_4.rect t)).set ↔ _
  rw [View.set_slice_whole, Rect.mem_set_unit]
  exact Iff.rfl

/-- The row blocks cover the output array: row i lies in block i / 512. -/
theorem cover15 (i : S4096x128.Idx) :
    ∃ t : Fin cfg15.N, (cfg15.win 4).flush t = true ∧ i ∈ ((cfg15.win 4).blk t).view.set := by
  have hi0 : (i 0).val < 4096 := (i 0).isLt
  have hi1 : (i 1).val < 128 := (i 1).isLt
  obtain ⟨t, ht⟩ := idx_onto15 ⟨(i 0).val / 512, by omega⟩
  have q0 : win15_4.index t (0 : Fin 2) = (i 0).val / 512 := congrFun ht 0
  have q1 : win15_4.index t (1 : Fin 2) = 0 := congrFun ht 1
  refine ⟨t, flush15_4 t, ?_⟩
  rw [mem_blk15]
  intro a
  match a with
  | ⟨0, _⟩ => show win15_4.index t (0 : Fin 2) * 512 ≤ (i 0).val ∧ (i 0).val < win15_4.index t (0 : Fin 2) * 512 + 512; omega
  | ⟨1, _⟩ => show win15_4.index t (1 : Fin 2) * 128 ≤ (i 1).val ∧ (i 1).val < win15_4.index t (1 : Fin 2) * 128 + 128; omega

/-- The output array after the region, as one function of the arrays the region finds. -/
theorem final15 (c : Dev nD) : (dat15 V c).arrAt 4 cfg15.N
    = Spec.mm (M := 4096) (K := 128) (N := 128) (Spec.gcn (M := 4096) (K := 8192) (N := 128) (V c (Pipeline.arrRef spec15 0)) (V c (Pipeline.arrRef spec15 1)) (fun q => (V c (Pipeline.arrRef spec15 2)) (ix2 (0 : Fin 1) q))) (V c (Pipeline.arrRef spec15 3)) :=
  (dat15 V c).arrAt_eq_of_cover 4 _ (fun t _ => flushed15_eq V c t) (cover15)

/-! ## Region 20: a graph convolution step (8192×4096 by 4096×128) and its projection, in 16 blocks of 512 rows -/

/-- The index maps over the grid: a row-blocked input window moves with the output's, every other input block is its
    whole array, and the output's blocks are the 16 row blocks. -/
theorem idx_facts20 : ∀ t : Fin cfg20.N, win20_0.index t (0 : Fin 2) = win20_4.index t (0 : Fin 2)
    ∧ win20_0.index t (1 : Fin 2) = 0
    ∧ win20_1.index t (0 : Fin 2) = 0
    ∧ win20_1.index t (1 : Fin 2) = 0
    ∧ win20_2.index t (0 : Fin 2) = 0
    ∧ win20_2.index t (1 : Fin 2) = 0
    ∧ win20_3.index t (0 : Fin 2) = 0
    ∧ win20_3.index t (1 : Fin 2) = 0
    ∧ win20_4.index t (1 : Fin 2) = 0
    ∧ win20_4.index t (0 : Fin 2) ≤ 15 :=
  (by decide +kernel : ∀ t : Fin grid20.N, _)

set_option maxHeartbeats 800000 in
/-- What a point writes back is its block of the projected step of the arrays as the region finds them. -/
theorem flushed20_eq (c : Dev nD) (t : Fin cfg20.N) :
    (dat20 V c).flushed 4 t = ((cfg20.win 4).blk t).view.read (Elt Ideal)
      (Spec.mm (M := 8192) (K := 128) (N := 128) (Spec.gcn (M := 8192) (K := 4096) (N := 128) (V c (Pipeline.arrRef spec20 0)) (V c (Pipeline.arrRef spec20 1)) (fun q => (V c (Pipeline.arrRef spec20 2)) (ix2 (0 : Fin 1) q))) (V c (Pipeline.arrRef spec20 3))) := by
  show (cfg20.win 4).cut (grid20.coords t) ((dat20 V c).after 4 t) = _
  rw [after20_4]
  unfold out20_4
  rw [View.canon_unit_zero zeros2]
  simp only [View.ld_unit_zero (S := S512x4096) zeros2, View.ld_unit_zero (S := S4096x128) zeros2, View.ld_unit_zero (S := S1x128) zeros2, View.ld_unit_zero (S := S128x128) zeros2]
  obtain ⟨e0, e1, e2, e3, e4, e5, e6, e7, e8, e9⟩ := idx_facts20 t
  funext j
  obtain ⟨p, q, rfl⟩ : ∃ (p : Fin 512) (q : Fin 128), j = ix2 p q := ⟨j 0, j 1, eq_ix2 (n0 := 512) (n1 := 128) j⟩
  show k20_pay1 (iblk20 V c 0 t) (iblk20 V c 1 t) (iblk20 V c 2 t) (iblk20 V c 3 t) (ix2 p q)
    = (Spec.mm (M := 8192) (K := 128) (N := 128) (Spec.gcn (M := 8192) (K := 4096) (N := 128) (V c (Pipeline.arrRef spec20 0)) (V c (Pipeline.arrRef spec20 1)) (fun q => (V c (Pipeline.arrRef spec20 2)) (ix2 (0 : Fin 1) q))) (V c (Pipeline.arrRef spec20 3))) (((cfg20.win 4).blk t).view.emb (ix2 p q))
  refine post_entry4096 (M := 8192) (iblk20 V c 0 t) (iblk20 V c 1 t) (iblk20 V c 2 t) (iblk20 V c 3 t) (V c (Pipeline.arrRef spec20 0)) (V c (Pipeline.arrRef spec20 1)) (V c (Pipeline.arrRef spec20 2)) (V c (Pipeline.arrRef spec20 3)) (((cfg20.win 4).blk t).view.emb (ix2 p q)) p q ?_ ?_ ?_ ?_
  · intro k
    show V c (Pipeline.arrRef spec20 0) (((cfg20.win 0).blk t).view.emb (ix2 p k)) = _
    refine congrArg _ (funext fun a => Fin.ext ?_)
    match a with
    | ⟨0, _⟩ => show win20_0.index t (0 : Fin 2) * 512 + 1 * p.val = win20_4.index t (0 : Fin 2) * 512 + 1 * p.val; omega
    | ⟨1, _⟩ => show win20_0.index t (1 : Fin 2) * 4096 + 1 * k.val = k.val; omega
  · intro k l
    show V c (Pipeline.arrRef spec20 1) (((cfg20.win 1).blk t).view.emb (ix2 k l)) = _
    refine congrArg _ (funext fun a => Fin.ext ?_)
    match a with
    | ⟨0, _⟩ => show win20_1.index t (0 : Fin 2) * 4096 + 1 * k.val = k.val; omega
    | ⟨1, _⟩ => show win20_1.index t (1 : Fin 2) * 128 + 1 * l.val = l.val; omega
  · intro l
    show V c (Pipeline.arrRef spec20 2) (((cfg20.win 2).blk t).view.emb (ix2 (0 : Fin 1) l)) = _
    refine congrArg _ (funext fun a => Fin.ext ?_)
    match a with
    | ⟨0, _⟩ => show win20_2.index t (0 : Fin 2) * 1 + 1 * 0 = 0; omega
    | ⟨1, _⟩ => show win20_2.index t (1 : Fin 2) * 128 + 1 * l.val = l.val; omega
  · intro l
    show V c (Pipeline.arrRef spec20 3) (((cfg20.win 3).blk t).view.emb (ix2 l q)) = _
    refine congrArg _ (funext fun a => Fin.ext ?_)
    match a with
    | ⟨0, _⟩ => show win20_3.index t (0 : Fin 2) * 128 + 1 * l.val = l.val; omega
    | ⟨1, _⟩ => show win20_3.index t (1 : Fin 2) * 128 + 1 * q.val = win20_4.index t (1 : Fin 2) * 128 + 1 * q.val; omega

/-- Every row block is some point's. -/
theorem idx_onto20 : ∀ q0 : Fin 16, ∃ t : Fin cfg20.N, win20_4.index t = ![q0.val, 0] :=
  (by decide +kernel : ∀ q0 : Fin 16, ∃ t : Fin grid20.N, win20_4.index t = ![q0.val, 0])

/-- An index of the output array is in a point's block iff each coordinate is in the block's range on its axis. -/
theorem mem_blk20 (t : Fin cfg20.N) (i : S8192x128.Idx) :
    i ∈ ((cfg20.win 4).blk t).view.set ↔ ∀ a : Fin 2, win20_4.index t a * S512x128.size a ≤ (i a).val
      ∧ (i a).val < win20_4.index t a * S512x128.size a + S512x128.size a := by
  show i ∈ ((View.whole main_v165).slice (win20_4.rect t)).set ↔ _
  rw [View.set_slice_whole, Rect.mem_set_unit]
  exact Iff.rfl

/-- The row blocks cover the output array: row i lies in block i / 512. -/
theorem cover20 (i : S8192x128.Idx) :
    ∃ t : Fin cfg20.N, (cfg20.win 4).flush t = true ∧ i ∈ ((cfg20.win 4).blk t).view.set := by
  have hi0 : (i 0).val < 8192 := (i 0).isLt
  have hi1 : (i 1).val < 128 := (i 1).isLt
  obtain ⟨t, ht⟩ := idx_onto20 ⟨(i 0).val / 512, by omega⟩
  have q0 : win20_4.index t (0 : Fin 2) = (i 0).val / 512 := congrFun ht 0
  have q1 : win20_4.index t (1 : Fin 2) = 0 := congrFun ht 1
  refine ⟨t, flush20_4 t, ?_⟩
  rw [mem_blk20]
  intro a
  match a with
  | ⟨0, _⟩ => show win20_4.index t (0 : Fin 2) * 512 ≤ (i 0).val ∧ (i 0).val < win20_4.index t (0 : Fin 2) * 512 + 512; omega
  | ⟨1, _⟩ => show win20_4.index t (1 : Fin 2) * 128 ≤ (i 1).val ∧ (i 1).val < win20_4.index t (1 : Fin 2) * 128 + 128; omega

/-- The output array after the region, as one function of the arrays the region finds. -/
theorem final20 (c : Dev nD) : (dat20 V c).arrAt 4 cfg20.N
    = Spec.mm (M := 8192) (K := 128) (N := 128) (Spec.gcn (M := 8192) (K := 4096) (N := 128) (V c (Pipeline.arrRef spec20 0)) (V c (Pipeline.arrRef spec20 1)) (fun q => (V c (Pipeline.arrRef spec20 2)) (ix2 (0 : Fin 1) q))) (V c (Pipeline.arrRef spec20 3)) :=
  (dat20 V c).arrAt_eq_of_cover 4 _ (fun t _ => flushed20_eq V c t) (cover20)

end Cert.KernelIdeal.RegionValue

end
-- ==== Proof.KRegs_post_3.lean ====
/-
  Regions 21 of the kernel program, read as mathematics: a graph convolution step followed by a projection.

  Point t loads rows 512·t … 512·t + 511 of the adjacency array and the whole right factor, bias row and projection
  weight. With h (p, l) the leaky rectifier of ∑ k, adj (512·t + p, k) · y (k, l) + b (l), it stores ∑ l, h (p, l) · w (l, q)
  to the same rows of the output: entry (512·t + p, q) of the product of the whole step by the weight. The row blocks fill
  the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 21: a graph convolution step (4096×8192 by 8192×128) and its projection, in 8 blocks of 512 rows -/

/-- The index maps over the grid: a row-blocked input window moves with the output's, every other input block is its
    whole array, and the output's blocks are the 8 row blocks. -/
theorem idx_facts21 : ∀ t : Fin cfg21.N, win21_0.index t (0 : Fin 2) = win21_4.index t (0 : Fin 2)
    ∧ win21_0.index t (1 : Fin 2) = 0
    ∧ win21_1.index t (0 : Fin 2) = 0
    ∧ win21_1.index t (1 : Fin 2) = 0
    ∧ win21_2.index t (0 : Fin 2) = 0
    ∧ win21_2.index t (1 : Fin 2) = 0
    ∧ win21_3.index t (0 : Fin 2) = 0
    ∧ win21_3.index t (1 : Fin 2) = 0
    ∧ win21_4.index t (1 : Fin 2) = 0
    ∧ win21_4.index t (0 : Fin 2) ≤ 7 :=
  (by decide +kernel : ∀ t : Fin grid21.N, _)

set_option maxHeartbeats 800000 in
/-- What a point writes back is its block of the projected step of the arrays as the region finds them. -/
theorem flushed21_eq (c : Dev nD) (t : Fin cfg21.N) :
    (dat21 V c).flushed 4 t = ((cfg21.win 4).blk t).view.read (Elt Ideal)
      (Spec.mm (M := 4096) (K := 128) (N := 128) (Spec.gcn (M := 4096) (K := 8192) (N := 128) (V c (Pipeline.arrRef spec21 0)) (V c (Pipeline.arrRef spec21 1)) (fun q => (V c (Pipeline.arrRef spec21 2)) (ix2 (0 : Fin 1) q))) (V c (Pipeline.arrRef spec21 3))) := by
  show (cfg21.win 4).cut (grid21.coords t) ((dat21 V c).after 4 t) = _
  rw [after21_4]
  unfold out21_4
  rw [View.canon_unit_zero zeros2]
  simp only [View.ld_unit_zero (S := S512x8192) zeros2, View.ld_unit_zero (S := S8192x128) zeros2, View.ld_unit_zero (S := S1x128) zeros2, View.ld_unit_zero (S := S128x128) zeros2]
  obtain ⟨e0, e1, e2, e3, e4, e5, e6, e7, e8, e9⟩ := idx_facts21 t
  funext j
  obtain ⟨p, q, rfl⟩ : ∃ (p : Fin 512) (q : Fin 128), j = ix2 p q := ⟨j 0, j 1, eq_ix2 (n0 := 512) (n1 := 128) j⟩
  show k21_pay1 (iblk21 V c 0 t) (iblk21 V c 1 t) (iblk21 V c 2 t) (iblk21 V c 3 t) (ix2 p q)
    = (Spec.mm (M := 4096) (K := 128) (N := 128) (Spec.gcn (M := 4096) (K := 8192) (N := 128) (V c (Pipeline.arrRef spec21 0)) (V c (Pipeline.arrRef spec21 1)) (fun q => (V c (Pipeline.arrRef spec21 2)) (ix2 (0 : Fin 1) q))) (V c (Pipeline.arrRef spec21 3))) (((cfg21.win 4).blk t).view.emb (ix2 p q))
  refine post_entry8192 (M := 4096) (iblk21 V c 0 t) (iblk21 V c 1 t) (iblk21 V c 2 t) (iblk21 V c 3 t) (V c (Pipeline.arrRef spec21 0)) (V c (Pipeline.arrRef spec21 1)) (V c (Pipeline.arrRef spec21 2)) (V c (Pipeline.arrRef spec21 3)) (((cfg21.win 4).blk t).view.emb (ix2 p q)) p q ?_ ?_ ?_ ?_
  · intro k
    show V c (Pipeline.arrRef spec21 0) (((cfg21.win 0).blk t).view.emb (ix2 p k)) = _
    refine congrArg _ (funext fun a => Fin.ext ?_)
    match a with
    | ⟨0, _⟩ => show win21_0.index t (0 : Fin 2) * 512 + 1 * p.val = win21_4.index t (0 : Fin 2) * 512 + 1 * p.val; omega
    | ⟨1, _⟩ => show win21_0.index t (1 : Fin 2) * 8192 + 1 * k.val = k.val; omega
  · intro k l
    show V c (Pipeline.arrRef spec21 1) (((cfg21.win 1).blk t).view.emb (ix2 k l)) = _
    refine congrArg _ (funext fun a => Fin.ext ?_)
    match a with
    | ⟨0, _⟩ => show win21_1.index t (0 : Fin 2) * 8192 + 1 * k.val = k.val; omega
    | ⟨1, _⟩ => show win21_1.index t (1 : Fin 2) * 128 + 1 * l.val = l.val; omega
  · intro l
    show V c (Pipeline.arrRef spec21 2) (((cfg21.win 2).blk t).view.emb (ix2 (0 : Fin 1) l)) = _
    refine congrArg _ (funext fun a => Fin.ext ?_)
    match a with
    | ⟨0, _⟩ => show win21_2.index t (0 : Fin 2) * 1 + 1 * 0 = 0; omega
    | ⟨1, _⟩ => show win21_2.index t (1 : Fin 2) * 128 + 1 * l.val = l.val; omega
  · intro l
    show V c (Pipeline.arrRef spec21 3) (((cfg21.win 3).blk t).view.emb (ix2 l q)) = _
    refine congrArg _ (funext fun a => Fin.ext ?_)
    match a with
    | ⟨0, _⟩ => show win21_3.index t (0 : Fin 2) * 128 + 1 * l.val = l.val; omega
    | ⟨1, _⟩ => show win21_3.index t (1 : Fin 2) * 128 + 1 * q.val = win21_4.index t (1 : Fin 2) * 128 + 1 * q.val; omega

/-- Every row block is some point's. -/
theorem idx_onto21 : ∀ q0 : Fin 8, ∃ t : Fin cfg21.N, win21_4.index t = ![q0.val, 0] :=
  (by decide +kernel : ∀ q0 : Fin 8, ∃ t : Fin grid21.N, win21_4.index t = ![q0.val, 0])

/-- An index of the output array is in a point's block iff each coordinate is in the block's range on its axis. -/
theorem mem_blk21 (t : Fin cfg21.N) (i : S4096x128.Idx) :
    i ∈ ((cfg21.win 4).blk t).view.set ↔ ∀ a : Fin 2, win21_4.index t a * S512x128.size a ≤ (i a).val
      ∧ (i a).val < win21_4.index t a * S512x128.size a + S512x128.size a := by
  show i ∈ ((View.whole main_v171).slice (win21_4.rect t)).set ↔ _
  rw [View.set_slice_whole, Rect.mem_set_unit]
  exact Iff.rfl

/-- The row blocks cover the output array: row i lies in block i / 512. -/
theorem cover21 (i : S4096x128.Idx) :
    ∃ t : Fin cfg21.N, (cfg21.win 4).flush t = true ∧ i ∈ ((cfg21.win 4).blk t).view.set := by
  have hi0 : (i 0).val < 4096 := (i 0).isLt
  have hi1 : (i 1).val < 128 := (i 1).isLt
  obtain ⟨t, ht⟩ := idx_onto21 ⟨(i 0).val / 512, by omega⟩
  have q0 : win21_4.index t (0 : Fin 2) = (i 0).val / 512 := congrFun ht 0
  have q1 : win21_4.index t (1 : Fin 2) = 0 := congrFun ht 1
  refine ⟨t, flush21_4 t, ?_⟩
  rw [mem_blk21]
  intro a
  match a with
  | ⟨0, _⟩ => show win21_4.index t (0 : Fin 2) * 512 ≤ (i 0).val ∧ (i 0).val < win21_4.index t (0 : Fin 2) * 512 + 512; omega
  | ⟨1, _⟩ => show win21_4.index t (1 : Fin 2) * 128 ≤ (i 1).val ∧ (i 1).val < win21_4.index t (1 : Fin 2) * 128 + 128; omega

/-- The output array after the region, as one function of the arrays the region finds. -/
theorem final21 (c : Dev nD) : (dat21 V c).arrAt 4 cfg21.N
    = Spec.mm (M := 4096) (K := 128) (N := 128) (Spec.gcn (M := 4096) (K := 8192) (N := 128) (V c (Pipeline.arrRef spec21 0)) (V c (Pipeline.arrRef spec21 1)) (fun q => (V c (Pipeline.arrRef spec21 2)) (ix2 (0 : Fin 1) q))) (V c (Pipeline.arrRef spec21 3)) :=
  (dat21 V c).arrAt_eq_of_cover 4 _ (fun t _ => flushed21_eq V c t) (cover21)

end Cert.KernelIdeal.RegionValue

end
-- ==== Proof.KRegs_union_1.lean ====
/-
  Regions 5, 10 of the kernel program, read as mathematics: a graph convolution step followed by the union
  projection, rectified where the kernel ends in a maximum against zero.

  Point t loads rows 512·t … 512·t + 511 of the adjacency array and of the second input, and the whole right factor, two
  weights and two bias rows. With h (p, l) the leaky rectifier of ∑ k, adj (512·t + p, k) · y (k, l) + b (l), it stores
  ∑ l, h (p, l) · wa (l, q) + ∑ l, x (512·t + p, l) · wb (l, q) + ub (q) (its maximum with 0 in the rectified regions) to the same rows of the
  output: entry (512·t + p, q) of the union projection of the whole arrays. The row blocks fill the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 5: a graph convolution step (8192×4096 by 4096×128) and the union projection, rectified, in 16 blocks of 512 rows -/

/-- The index maps over the grid: a row-blocked input window moves with the output's, every other input block is its
    whole array, and the output's blocks are the 16 row blocks. -/
theorem idx_facts5 : ∀ t : Fin cfg5.N, win5_0.index t (0 : Fin 2) = win5_7.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = win5_7.index t (0 : Fin 2)
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (1 : Fin 2) = 0
    ∧ win5_7.index t (0 : Fin 2) ≤ 15 :=
  (by decide +kernel : ∀ t : Fin grid5.N, _)

set_option maxHeartbeats 800000 in
/-- What a point writes back is its block of the union projection of the arrays as the region finds them. -/
theorem flushed5_eq (c : Dev nD) (t : Fin cfg5.N) :
    (dat5 V c).flushed 7 t = ((cfg5.win 7).blk t).view.read (Elt Ideal)
      (fun i => Spec.relu (Spec.union (M := 8192) (A := 128) (B := 128) (N := 128) (Spec.gcn (M := 8192) (K := 4096) (N := 128) (V c (Pipeline.arrRef spec5 0)) (V c (Pipeline.arrRef spec5 1)) (fun q => (V c (Pipeline.arrRef spec5 2)) (ix2 (0 : Fin 1) q))) (V c (Pipeline.arrRef spec5 3)) (V c (Pipeline.arrRef spec5 4)) (V c (Pipeline.arrRef spec5 5)) (fun q => (V c (Pipeline.arrRef spec5 6)) (ix2 (0 : Fin 1) q)) i)) := by
  show (cfg5.win 7).cut (grid5.coords t) ((dat5 V c).after 7 t) = _
  rw [after5_7]
  unfold out5_7
  rw [View.canon_unit_zero zeros2]
  simp only [View.ld_unit_zero (S := S512x4096) zeros2, View.ld_unit_zero (S := S4096x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts5 t
  funext j
  obtain ⟨p, q, rfl⟩ : ∃ (p : Fin 512) (q : Fin 128), j = ix2 p q := ⟨j 0, j 1, eq_ix2 (n0 := 512) (n1 := 128) j⟩
  show k5_pay1 (iblk5 V c 0 t) (iblk5 V c 1 t) (iblk5 V c 2 t) (iblk5 V c 3 t) (iblk5 V c 4 t) (iblk5 V c 5 t) (iblk5 V c 6 t) (ix2 p q)
    = (fun i => Spec.relu (Spec.union (M := 8192) (A := 128) (B := 128) (N := 128) (Spec.gcn (M := 8192) (K := 4096) (N := 128) (V c (Pipeline.arrRef spec5 0)) (V c (Pipeline.arrRef spec5 1)) (fun q => (V c (Pipeline.arrRef spec5 2)) (ix2 (0 : Fin 1) q))) (V c (Pipeline.arrRef spec5 3)) (V c (Pipeline.arrRef spec5 4)) (V c (Pipeline.arrRef spec5 5)) (fun q => (V c (Pipeline.arrRef spec5 6)) (ix2 (0 : Fin 1) q)) i)) (((cfg5.win 7).blk t).view.emb (ix2 p q))
  refine union_relu_entry4096 (M := 8192) (iblk5 V c 0 t) (iblk5 V c 1 t) (iblk5 V c 2 t) (iblk5 V c 3 t) (iblk5 V c 4 t) (iblk5 V c 5 t) (iblk5 V c 6 t) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (((cfg5.win 7).blk t).view.emb (ix2 p q)) p q ?_ ?_ ?_ ?_ ?_ ?_ ?_
  · intro k
    show V c (Pipeline.arrRef spec5 0) (((cfg5.win 0).blk t).view.emb (ix2 p k)) = _
    refine congrArg _ (funext fun a => Fin.ext ?_)
    match a with
    | ⟨0, _⟩ => show win5_0.index t (0 : Fin 2) * 512 + 1 * p.val = win5_7.index t (0 : Fin 2) * 512 + 1 * p.val; omega
    | ⟨1, _⟩ => show win5_0.index t (1 : Fin 2) * 4096 + 1 * k.val = k.val; omega
  · intro k l
    show V c (Pipeline.arrRef spec5 1) (((cfg5.win 1).blk t).view.emb (ix2 k l)) = _
    refine congrArg _ (funext fun a => Fin.ext ?_)
    match a with
    | ⟨0, _⟩ => show win5_1.index t (0 : Fin 2) * 4096 + 1 * k.val = k.val; omega
    | ⟨1, _⟩ => show win5_1.index t (1 : Fin 2) * 128 + 1 * l.val = l.val; omega
  · intro l
    show V c (Pipeline.arrRef spec5 2) (((cfg5.win 2).blk t).view.emb (ix2 (0 : Fin 1) l)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * l.val = l.val; omega
  · intro l
    show V c (Pipeline.arrRef spec5 3) (((cfg5.win 3).blk t).view.emb (ix2 l q)) = _
    refine congrArg _ (funext fun a => Fin.ext ?_)
    match a with
    | ⟨0, _⟩ => show win5_3.index t (0 : Fin 2) * 128 + 1 * l.val = l.val; omega
    | ⟨1, _⟩ => show win5_3.index t (1 : Fin 2) * 128 + 1 * q.val = win5_7.index t (1 : Fin 2) * 128 + 1 * q.val; omega
  · intro l
    show V c (Pipeline.arrRef spec5 4) (((cfg5.win 4).blk t).view.emb (ix2 p l)) = _
    refine congrArg _ (funext fun a => Fin.ext ?_)
    match a with
    | ⟨0, _⟩ => show win5_4.index t (0 : Fin 2) * 512 + 1 * p.val = win5_7.index t (0 : Fin 2) * 512 + 1 * p.val; omega
    | ⟨1, _⟩ => show win5_4.index t (1 : Fin 2) * 128 + 1 * l.val = l.val; omega
  · intro l
    show V c (Pipeline.arrRef spec5 5) (((cfg5.win 5).blk t).view.emb (ix2 l q)) = _
    refine congrArg _ (funext fun a => Fin.ext ?_)
    match a with
    | ⟨0, _⟩ => show win5_5.index t (0 : Fin 2) * 128 + 1 * l.val = l.val; omega
    | ⟨1, _⟩ => show win5_5.index t (1 : Fin 2) * 128 + 1 * q.val = win5_7.index t (1 : Fin 2) * 128 + 1 * q.val; omega
  · show V c (Pipeline.arrRef spec5 6) (((cfg5.win 6).blk t).view.emb (ix2 (0 : Fin 1) q)) = _
    refine congrArg _ (funext fun a => Fin.ext ?_)
    match a with
    | ⟨0, _⟩ => show win5_6.index t (0 : Fin 2) * 1 + 1 * 0 = 0; omega
    | ⟨1, _⟩ => show win5_6.index t (1 : Fin 2) * 128 + 1 * q.val = win5_7.index t (1 : Fin 2) * 128 + 1 * q.val; omega

/-- Every row block is some point's. -/
theorem idx_onto5 : ∀ q0 : Fin 16, ∃ t : Fin cfg5.N, win5_7.index t = ![q0.val, 0] :=
  (by decide +kernel : ∀ q0 : Fin 16, ∃ t : Fin grid5.N, win5_7.index t = ![q0.val, 0])

/-- An index of the output array is in a point's block iff each coordinate is in the block's range on its axis. -/
theorem mem_blk5 (t : Fin cfg5.N) (i : S8192x128.Idx) :
    i ∈ ((cfg5.win 7).blk t).view.set ↔ ∀ a : Fin 2, win5_7.index t a * S512x128.size a ≤ (i a).val
      ∧ (i a).val < win5_7.index t a * S512x128.size a + S512x128.size a := by
  show i ∈ ((View.whole main_v53).slice (win5_7.rect t)).set ↔ _
  rw [View.set_slice_whole, Rect.mem_set_unit]
  exact Iff.rfl

/-- The row blocks cover the output array: row i lies in block i / 512. -/
theorem cover5 (i : S8192x128.Idx) :
    ∃ t : Fin cfg5.N, (cfg5.win 7).flush t = true ∧ i ∈ ((cfg5.win 7).blk t).view.set := by
  have hi0 : (i 0).val < 8192 := (i 0).isLt
  have hi1 : (i 1).val < 128 := (i 1).isLt
  obtain ⟨t, ht⟩ := idx_onto5 ⟨(i 0).val / 512, by omega⟩
  have q0 : win5_7.index t (0 : Fin 2) = (i 0).val / 512 := congrFun ht 0
  have q1 : win5_7.index t (1 : Fin 2) = 0 := congrFun ht 1
  refine ⟨t, flush5_7 t, ?_⟩
  rw [mem_blk5]
  intro a
  match a with
  | ⟨0, _⟩ => show win5_7.index t (0 : Fin 2) * 512 ≤ (i 0).val ∧ (i 0).val < win5_7.index t (0 : Fin 2) * 512 + 512; omega
  | ⟨1, _⟩ => show win5_7.index t (1 : Fin 2) * 128 ≤ (i 1).val ∧ (i 1).val < win5_7.index t (1 : Fin 2) * 128 + 128; omega

/-- The output array after the region, as one function of the arrays the region finds. -/
theorem final5 (c : Dev nD) : (dat5 V c).arrAt 7 cfg5.N
    = fun i => Spec.relu (Spec.union (M := 8192) (A := 128) (B := 128) (N := 128) (Spec.gcn (M := 8192) (K := 4096) (N := 128) (V c (Pipeline.arrRef spec5 0)) (V c (Pipeline.arrRef spec5 1)) (fun q => (V c (Pipeline.arrRef spec5 2)) (ix2 (0 : Fin 1) q))) (V c (Pipeline.arrRef spec5 3)) (V c (Pipeline.arrRef spec5 4)) (V c (Pipeline.arrRef spec5 5)) (fun q => (V c (Pipeline.arrRef spec5 6)) (ix2 (0 : Fin 1) q)) i) :=
  (dat5 V c).arrAt_eq_of_cover 7 _ (fun t _ => flushed5_eq V c t) (cover5)

/-! ## Region 10: a graph convolution step (4096×8192 by 8192×128) and the union projection, in 8 blocks of 512 rows -/

/-- The index maps over the grid: a row-blocked input window moves with the output's, every other input block is its
    whole array, and the output's blocks are the 8 row blocks. -/
theorem idx_facts10 : ∀ t : Fin cfg10.N, win10_0.index t (0 : Fin 2) = win10_7.index t (0 : Fin 2)
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = win10_7.index t (0 : Fin 2)
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0
    ∧ win10_7.index t (1 : Fin 2) = 0
    ∧ win10_7.index t (0 : Fin 2) ≤ 7 :=
  (by decide +kernel : ∀ t : Fin grid10.N, _)

set_option maxHeartbeats 800000 in
/-- What a point writes back is its block of the union projection of the arrays as the region finds them. -/
theorem flushed10_eq (c : Dev nD) (t : Fin cfg10.N) :
    (dat10 V c).flushed 7 t = ((cfg10.win 7).blk t).view.read (Elt Ideal)
      (Spec.union (M := 4096) (A := 128) (B := 128) (N := 128) (Spec.gcn (M := 4096) (K := 8192) (N := 128) (V c (Pipeline.arrRef spec10 0)) (V c (Pipeline.arrRef spec10 1)) (fun q => (V c (Pipeline.arrRef spec10 2)) (ix2 (0 : Fin 1) q))) (V c (Pipeline.arrRef spec10 3)) (V c (Pipeline.arrRef spec10 4)) (V c (Pipeline.arrRef spec10 5)) (fun q => (V c (Pipeline.arrRef spec10 6)) (ix2 (0 : Fin 1) q))) := by
  show (cfg10.win 7).cut (grid10.coords t) ((dat10 V c).after 7 t) = _
  rw [after10_7]
  unfold out10_7
  rw [View.canon_unit_zero zeros2]
  simp only [View.ld_unit_zero (S := S512x8192) zeros2, View.ld_unit_zero (S := S8192x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts10 t
  funext j
  obtain ⟨p, q, rfl⟩ : ∃ (p : Fin 512) (q : Fin 128), j = ix2 p q := ⟨j 0, j 1, eq_ix2 (n0 := 512) (n1 := 128) j⟩
  show k10_pay1 (iblk10 V c 0 t) (iblk10 V c 1 t) (iblk10 V c 2 t) (iblk10 V c 3 t) (iblk10 V c 4 t) (iblk10 V c 5 t) (iblk10 V c 6 t) (ix2 p q)
    = (Spec.union (M := 4096) (A := 128) (B := 128) (N := 128) (Spec.gcn (M := 4096) (K := 8192) (N := 128) (V c (Pipeline.arrRef spec10 0)) (V c (Pipeline.arrRef spec10 1)) (fun q => (V c (Pipeline.arrRef spec10 2)) (ix2 (0 : Fin 1) q))) (V c (Pipeline.arrRef spec10 3)) (V c (Pipeline.arrRef spec10 4)) (V c (Pipeline.arrRef spec10 5)) (fun q => (V c (Pipeline.arrRef spec10 6)) (ix2 (0 : Fin 1) q))) (((cfg10.win 7).blk t).view.emb (ix2 p q))
  refine union_entry8192 (M := 4096) (iblk10 V c 0 t) (iblk10 V c 1 t) (iblk10 V c 2 t) (iblk10 V c 3 t) (iblk10 V c 4 t) (iblk10 V c 5 t) (iblk10 V c 6 t) (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) (((cfg10.win 7).blk t).view.emb (ix2 p q)) p q ?_ ?_ ?_ ?_ ?_ ?_ ?_
  · intro k
    show V c (Pipeline.arrRef spec10 0) (((cfg10.win 0).blk t).view.emb (ix2 p k)) = _
    refine congrArg _ (funext fun a => Fin.ext ?_)
    match a with
    | ⟨0, _⟩ => show win10_0.index t (0 : Fin 2) * 512 + 1 * p.val = win10_7.index t (0 : Fin 2) * 512 + 1 * p.val; omega
    | ⟨1, _⟩ => show win10_0.index t (1 : Fin 2) * 8192 + 1 * k.val = k.val; omega
  · intro k l
    show V c (Pipeline.arrRef spec10 1) (((cfg10.win 1).blk t).view.emb (ix2 k l)) = _
    refine congrArg _ (funext fun a => Fin.ext ?_)
    match a with
    | ⟨0, _⟩ => show win10_1.index t (0 : Fin 2) * 8192 + 1 * k.val = k.val; omega
    | ⟨1, _⟩ => show win10_1.index t (1 : Fin 2) * 128 + 1 * l.val = l.val; omega
  · intro l
    show V c (Pipeline.arrRef spec10 2) (((cfg10.win 2).blk t).view.emb (ix2 (0 : Fin 1) l)) = _
    refine congrArg _ (funext fun a => Fin.ext ?_)
    match a with
    | ⟨0, _⟩ => show win10_2.index t (0 : Fin 2) * 1 + 1 * 0 = 0; omega
    | ⟨1, _⟩ => show win10_2.index t (1 : Fin 2) * 128 + 1 * l.val = l.val; omega
  · intro l
    show V c (Pipeline.arrRef spec10 3) (((cfg10.win 3).blk t).view.emb (ix2 l q)) = _
    refine congrArg _ (funext fun a => Fin.ext ?_)
    match a with
    | ⟨0, _⟩ => show win10_3.index t (0 : Fin 2) * 128 + 1 * l.val = l.val; omega
    | ⟨1, _⟩ => show win10_3.index t (1 : Fin 2) * 128 + 1 * q.val = win10_7.index t (1 : Fin 2) * 128 + 1 * q.val; omega
  · intro l
    show V c (Pipeline.arrRef spec10 4) (((cfg10.win 4).blk t).view.emb (ix2 p l)) = _
    refine congrArg _ (funext fun a => Fin.ext ?_)
    match a with
    | ⟨0, _⟩ => show win10_4.index t (0 : Fin 2) * 512 + 1 * p.val = win10_7.index t (0 : Fin 2) * 512 + 1 * p.val; omega
    | ⟨1, _⟩ => show win10_4.index t (1 : Fin 2) * 128 + 1 * l.val = l.val; omega
  · intro l
    show V c (Pipeline.arrRef spec10 5) (((cfg10.win 5).blk t).view.emb (ix2 l q)) = _
    refine congrArg _ (funext fun a => Fin.ext ?_)
    match a with
    | ⟨0, _⟩ => show win10_5.index t (0 : Fin 2) * 128 + 1 * l.val = l.val; omega
    | ⟨1, _⟩ => show win10_5.index t (1 : Fin 2) * 128 + 1 * q.val = win10_7.index t (1 : Fin 2) * 128 + 1 * q.val; omega
  · show V c (Pipeline.arrRef spec10 6) (((cfg10.win 6).blk t).view.emb (ix2 (0 : Fin 1) q)) = _
    refine congrArg _ (funext fun a => Fin.ext ?_)
    match a with
    | ⟨0, _⟩ => show win10_6.index t (0 : Fin 2) * 1 + 1 * 0 = 0; omega
    | ⟨1, _⟩ => show win10_6.index t (1 : Fin 2) * 128 + 1 * q.val = win10_7.index t (1 : Fin 2) * 128 + 1 * q.val; omega

/-- Every row block is some point's. -/
theorem idx_onto10 : ∀ q0 : Fin 8, ∃ t : Fin cfg10.N, win10_7.index t = ![q0.val, 0] :=
  (by decide +kernel : ∀ q0 : Fin 8, ∃ t : Fin grid10.N, win10_7.index t = ![q0.val, 0])

/-- An index of the output array is in a point's block iff each coordinate is in the block's range on its axis. -/
theorem mem_blk10 (t : Fin cfg10.N) (i : S4096x128.Idx) :
    i ∈ ((cfg10.win 7).blk t).view.set ↔ ∀ a : Fin 2, win10_7.index t a * S512x128.size a ≤ (i a).val
      ∧ (i a).val < win10_7.index t a * S512x128.size a + S512x128.size a := by
  show i ∈ ((View.whole main_v86).slice (win10_7.rect t)).set ↔ _
  rw [View.set_slice_whole, Rect.mem_set_unit]
  exact Iff.rfl

/-- The row blocks cover the output array: row i lies in block i / 512. -/
theorem cover10 (i : S4096x128.Idx) :
    ∃ t : Fin cfg10.N, (cfg10.win 7).flush t = true ∧ i ∈ ((cfg10.win 7).blk t).view.set := by
  have hi0 : (i 0).val < 4096 := (i 0).isLt
  have hi1 : (i 1).val < 128 := (i 1).isLt
  obtain ⟨t, ht⟩ := idx_onto10 ⟨(i 0).val / 512, by omega⟩
  have q0 : win10_7.index t (0 : Fin 2) = (i 0).val / 512 := congrFun ht 0
  have q1 : win10_7.index t (1 : Fin 2) = 0 := congrFun ht 1
  refine ⟨t, flush10_7 t, ?_⟩
  rw [mem_blk10]
  intro a
  match a with
  | ⟨0, _⟩ => show win10_7.index t (0 : Fin 2) * 512 ≤ (i 0).val ∧ (i 0).val < win10_7.index t (0 : Fin 2) * 512 + 512; omega
  | ⟨1, _⟩ => show win10_7.index t (1 : Fin 2) * 128 ≤ (i 1).val ∧ (i 1).val < win10_7.index t (1 : Fin 2) * 128 + 128; omega

/-- The output array after the region, as one function of the arrays the region finds. -/
theorem final10 (c : Dev nD) : (dat10 V c).arrAt 7 cfg10.N
    = Spec.union (M := 4096) (A := 128) (B := 128) (N := 128) (Spec.gcn (M := 4096) (K := 8192) (N := 128) (V c (Pipeline.arrRef spec10 0)) (V c (Pipeline.arrRef spec10 1)) (fun q => (V c (Pipeline.arrRef spec10 2)) (ix2 (0 : Fin 1) q))) (V c (Pipeline.arrRef spec10 3)) (V c (Pipeline.arrRef spec10 4)) (V c (Pipeline.arrRef spec10 5)) (fun q => (V c (Pipeline.arrRef spec10 6)) (ix2 (0 : Fin 1) q)) :=
  (dat10 V c).arrAt_eq_of_cover 7 _ (fun t _ => flushed10_eq V c t) (cover10)

end Cert.KernelIdeal.RegionValue

end
-- ==== Proof.KRegs_union_2.lean ====
/-
  Regions 11, 16 of the kernel program, read as mathematics: a graph convolution step followed by the union
  projection, rectified where the kernel ends in a maximum against zero.

  Point t loads rows 512·t … 512·t + 511 of the adjacency array and of the second input, and the whole right factor, two
  weights and two bias rows. With h (p, l) the leaky rectifier of ∑ k, adj (512·t + p, k) · y (k, l) + b (l), it stores
  ∑ l, h (p, l) · wa (l, q) + ∑ l, x (512·t + p, l) · wb (l, q) + ub (q) (its maximum with 0 in the rectified regions) to the same rows of the
  output: entry (512·t + p, q) of the union projection of the whole arrays. The row blocks fill the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 11: a graph convolution step (8192×4096 by 4096×128) and the union projection, in 16 blocks of 512 rows -/

/-- The index maps over the grid: a row-blocked input window moves with the output's, every other input block is its
    whole array, and the output's blocks are the 16 row blocks. -/
theorem idx_facts11 : ∀ t : Fin cfg11.N, win11_0.index t (0 : Fin 2) = win11_7.index t (0 : Fin 2)
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = win11_7.index t (0 : Fin 2)
    ∧ win11_4.index t (1 : Fin 2) = 0
    ∧ win11_5.index t (0 : Fin 2) = 0
    ∧ win11_5.index t (1 : Fin 2) = 0
    ∧ win11_6.index t (0 : Fin 2) = 0
    ∧ win11_6.index t (1 : Fin 2) = 0
    ∧ win11_7.index t (1 : Fin 2) = 0
    ∧ win11_7.index t (0 : Fin 2) ≤ 15 :=
  (by decide +kernel : ∀ t : Fin grid11.N, _)

set_option maxHeartbeats 800000 in
/-- What a point writes back is its block of the union projection of the arrays as the region finds them. -/
theorem flushed11_eq (c : Dev nD) (t : Fin cfg11.N) :
    (dat11 V c).flushed 7 t = ((cfg11.win 7).blk t).view.read (Elt Ideal)
      (Spec.union (M := 8192) (A := 128) (B := 128) (N := 128) (Spec.gcn (M := 8192) (K := 4096) (N := 128) (V c (Pipeline.arrRef spec11 0)) (V c (Pipeline.arrRef spec11 1)) (fun q => (V c (Pipeline.arrRef spec11 2)) (ix2 (0 : Fin 1) q))) (V c (Pipeline.arrRef spec11 3)) (V c (Pipeline.arrRef spec11 4)) (V c (Pipeline.arrRef spec11 5)) (fun q => (V c (Pipeline.arrRef spec11 6)) (ix2 (0 : Fin 1) q))) := by
  show (cfg11.win 7).cut (grid11.coords t) ((dat11 V c).after 7 t) = _
  rw [after11_7]
  unfold out11_7
  rw [View.canon_unit_zero zeros2]
  simp only [View.ld_unit_zero (S := S512x4096) zeros2, View.ld_unit_zero (S := S4096x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts11 t
  funext j
  obtain ⟨p, q, rfl⟩ : ∃ (p : Fin 512) (q : Fin 128), j = ix2 p q := ⟨j 0, j 1, eq_ix2 (n0 := 512) (n1 := 128) j⟩
  show k11_pay1 (iblk11 V c 0 t) (iblk11 V c 1 t) (iblk11 V c 2 t) (iblk11 V c 3 t) (iblk11 V c 4 t) (iblk11 V c 5 t) (iblk11 V c 6 t) (ix2 p q)
    = (Spec.union (M := 8192) (A := 128) (B := 128) (N := 128) (Spec.gcn (M := 8192) (K := 4096) (N := 128) (V c (Pipeline.arrRef spec11 0)) (V c (Pipeline.arrRef spec11 1)) (fun q => (V c (Pipeline.arrRef spec11 2)) (ix2 (0 : Fin 1) q))) (V c (Pipeline.arrRef spec11 3)) (V c (Pipeline.arrRef spec11 4)) (V c (Pipeline.arrRef spec11 5)) (fun q => (V c (Pipeline.arrRef spec11 6)) (ix2 (0 : Fin 1) q))) (((cfg11.win 7).blk t).view.emb (ix2 p q))
  refine union_entry4096 (M := 8192) (iblk11 V c 0 t) (iblk11 V c 1 t) (iblk11 V c 2 t) (iblk11 V c 3 t) (iblk11 V c 4 t) (iblk11 V c 5 t) (iblk11 V c 6 t) (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (((cfg11.win 7).blk t).view.emb (ix2 p q)) p q ?_ ?_ ?_ ?_ ?_ ?_ ?_
  · intro k
    show V c (Pipeline.arrRef spec11 0) (((cfg11.win 0).blk t).view.emb (ix2 p k)) = _
    refine congrArg _ (funext fun a => Fin.ext ?_)
    match a with
    | ⟨0, _⟩ => show win11_0.index t (0 : Fin 2) * 512 + 1 * p.val = win11_7.index t (0 : Fin 2) * 512 + 1 * p.val; omega
    | ⟨1, _⟩ => show win11_0.index t (1 : Fin 2) * 4096 + 1 * k.val = k.val; omega
  · intro k l
    show V c (Pipeline.arrRef spec11 1) (((cfg11.win 1).blk t).view.emb (ix2 k l)) = _
    refine congrArg _ (funext fun a => Fin.ext ?_)
    match a with
    | ⟨0, _⟩ => show win11_1.index t (0 : Fin 2) * 4096 + 1 * k.val = k.val; omega
    | ⟨1, _⟩ => show win11_1.index t (1 : Fin 2) * 128 + 1 * l.val = l.val; omega
  · intro l
    show V c (Pipeline.arrRef spec11 2) (((cfg11.win 2).blk t).view.emb (ix2 (0 : Fin 1) l)) = _
    refine congrArg _ (funext fun a => Fin.ext ?_)
    match a with
    | ⟨0, _⟩ => show win11_2.index t (0 : Fin 2) * 1 + 1 * 0 = 0; omega
    | ⟨1, _⟩ => show win11_2.index t (1 : Fin 2) * 128 + 1 * l.val = l.val; omega
  · intro l
    show V c (Pipeline.arrRef spec11 3) (((cfg11.win 3).blk t).view.emb (ix2 l q)) = _
    refine congrArg _ (funext fun a => Fin.ext ?_)
    match a with
    | ⟨0, _⟩ => show win11_3.index t (0 : Fin 2) * 128 + 1 * l.val = l.val; omega
    | ⟨1, _⟩ => show win11_3.index t (1 : Fin 2) * 128 + 1 * q.val = win11_7.index t (1 : Fin 2) * 128 + 1 * q.val; omega
  · intro l
    show V c (Pipeline.arrRef spec11 4) (((cfg11.win 4).blk t).view.emb (ix2 p l)) = _
    refine congrArg _ (funext fun a => Fin.ext ?_)
    match a with
    | ⟨0, _⟩ => show win11_4.index t (0 : Fin 2) * 512 + 1 * p.val = win11_7.index t (0 : Fin 2) * 512 + 1 * p.val; omega
    | ⟨1, _⟩ => show win11_4.index t (1 : Fin 2) * 128 + 1 * l.val = l.val; omega
  · intro l
    show V c (Pipeline.arrRef spec11 5) (((cfg11.win 5).blk t).view.emb (ix2 l q)) = _
    refine congrArg _ (funext fun a => Fin.ext ?_)
    match a with
    | ⟨0, _⟩ => show win11_5.index t (0 : Fin 2) * 128 + 1 * l.val = l.val; omega
    | ⟨1, _⟩ => show win11_5.index t (1 : Fin 2) * 128 + 1 * q.val = win11_7.index t (1 : Fin 2) * 128 + 1 * q.val; omega
  · show V c (Pipeline.arrRef spec11 6) (((cfg11.win 6).blk t).view.emb (ix2 (0 : Fin 1) q)) = _
    refine congrArg _ (funext fun a => Fin.ext ?_)
    match a with
    | ⟨0, _⟩ => show win11_6.index t (0 : Fin 2) * 1 + 1 * 0 = 0; omega
    | ⟨1, _⟩ => show win11_6.index t (1 : Fin 2) * 128 + 1 * q.val = win11_7.index t (1 : Fin 2) * 128 + 1 * q.val; omega

/-- Every row block is some point's. -/
theorem idx_onto11 : ∀ q0 : Fin 16, ∃ t : Fin cfg11.N, win11_7.index t = ![q0.val, 0] :=
  (by decide +kernel : ∀ q0 : Fin 16, ∃ t : Fin grid11.N, win11_7.index t = ![q0.val, 0])

/-- An index of the output array is in a point's block iff each coordinate is in the block's range on its axis. -/
theorem mem_blk11 (t : Fin cfg11.N) (i : S8192x128.Idx) :
    i ∈ ((cfg11.win 7).blk t).view.set ↔ ∀ a : Fin 2, win11_7.index t a * S512x128.size a ≤ (i a).val
      ∧ (i a).val < win11_7.index t a * S512x128.size a + S512x128.size a := by
  show i ∈ ((View.whole main_v99).slice (win11_7.rect t)).set ↔ _
  rw [View.set_slice_whole, Rect.mem_set_unit]
  exact Iff.rfl

/-- The row blocks cover the output array: row i lies in block i / 512. -/
theorem cover11 (i : S8192x128.Idx) :
    ∃ t : Fin cfg11.N, (cfg11.win 7).flush t = true ∧ i ∈ ((cfg11.win 7).blk t).view.set := by
  have hi0 : (i 0).val < 8192 := (i 0).isLt
  have hi1 : (i 1).val < 128 := (i 1).isLt
  obtain ⟨t, ht⟩ := idx_onto11 ⟨(i 0).val / 512, by omega⟩
  have q0 : win11_7.index t (0 : Fin 2) = (i 0).val / 512 := congrFun ht 0
  have q1 : win11_7.index t (1 : Fin 2) = 0 := congrFun ht 1
  refine ⟨t, flush11_7 t, ?_⟩
  rw [mem_blk11]
  intro a
  match a with
  | ⟨0, _⟩ => show win11_7.index t (0 : Fin 2) * 512 ≤ (i 0).val ∧ (i 0).val < win11_7.index t (0 : Fin 2) * 512 + 512; omega
  | ⟨1, _⟩ => show win11_7.index t (1 : Fin 2) * 128 ≤ (i 1).val ∧ (i 1).val < win11_7.index t (1 : Fin 2) * 128 + 128; omega

/-- The output array after the region, as one function of the arrays the region finds. -/
theorem final11 (c : Dev nD) : (dat11 V c).arrAt 7 cfg11.N
    = Spec.union (M := 8192) (A := 128) (B := 128) (N := 128) (Spec.gcn (M := 8192) (K := 4096) (N := 128) (V c (Pipeline.arrRef spec11 0)) (V c (Pipeline.arrRef spec11 1)) (fun q => (V c (Pipeline.arrRef spec11 2)) (ix2 (0 : Fin 1) q))) (V c (Pipeline.arrRef spec11 3)) (V c (Pipeline.arrRef spec11 4)) (V c (Pipeline.arrRef spec11 5)) (fun q => (V c (Pipeline.arrRef spec11 6)) (ix2 (0 : Fin 1) q)) :=
  (dat11 V c).arrAt_eq_of_cover 7 _ (fun t _ => flushed11_eq V c t) (cover11)

/-! ## Region 16: a graph convolution step (4096×8192 by 8192×128) and the union projection, rectified, in 8 blocks of 512 rows -/

/-- The index maps over the grid: a row-blocked input window moves with the output's, every other input block is its
    whole array, and the output's blocks are the 8 row blocks. -/
theorem idx_facts16 : ∀ t : Fin cfg16.N, win16_0.index t (0 : Fin 2) = win16_7.index t (0 : Fin 2)
    ∧ win16_0.index t (1 : Fin 2) = 0
    ∧ win16_1.index t (0 : Fin 2) = 0
    ∧ win16_1.index t (1 : Fin 2) = 0
    ∧ win16_2.index t (0 : Fin 2) = 0
    ∧ win16_2.index t (1 : Fin 2) = 0
    ∧ win16_3.index t (0 : Fin 2) = 0
    ∧ win16_3.index t (1 : Fin 2) = 0
    ∧ win16_4.index t (0 : Fin 2) = win16_7.index t (0 : Fin 2)
    ∧ win16_4.index t (1 : Fin 2) = 0
    ∧ win16_5.index t (0 : Fin 2) = 0
    ∧ win16_5.index t (1 : Fin 2) = 0
    ∧ win16_6.index t (0 : Fin 2) = 0
    ∧ win16_6.index t (1 : Fin 2) = 0
    ∧ win16_7.index t (1 : Fin 2) = 0
    ∧ win16_7.index t (0 : Fin 2) ≤ 7 :=
  (by decide +kernel : ∀ t : Fin grid16.N, _)

set_option maxHeartbeats 800000 in
/-- What a point writes back is its block of the union projection of the arrays as the region finds them. -/
theorem flushed16_eq (c : Dev nD) (t : Fin cfg16.N) :
    (dat16 V c).flushed 7 t = ((cfg16.win 7).blk t).view.read (Elt Ideal)
      (fun i => Spec.relu (Spec.union (M := 4096) (A := 128) (B := 128) (N := 128) (Spec.gcn (M := 4096) (K := 8192) (N := 128) (V c (Pipeline.arrRef spec16 0)) (V c (Pipeline.arrRef spec16 1)) (fun q => (V c (Pipeline.arrRef spec16 2)) (ix2 (0 : Fin 1) q))) (V c (Pipeline.arrRef spec16 3)) (V c (Pipeline.arrRef spec16 4)) (V c (Pipeline.arrRef spec16 5)) (fun q => (V c (Pipeline.arrRef spec16 6)) (ix2 (0 : Fin 1) q)) i)) := by
  show (cfg16.win 7).cut (grid16.coords t) ((dat16 V c).after 7 t) = _
  rw [after16_7]
  unfold out16_7
  rw [View.canon_unit_zero zeros2]
  simp only [View.ld_unit_zero (S := S512x8192) zeros2, View.ld_unit_zero (S := S8192x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts16 t
  funext j
  obtain ⟨p, q, rfl⟩ : ∃ (p : Fin 512) (q : Fin 128), j = ix2 p q := ⟨j 0, j 1, eq_ix2 (n0 := 512) (n1 := 128) j⟩
  show k16_pay1 (iblk16 V c 0 t) (iblk16 V c 1 t) (iblk16 V c 2 t) (iblk16 V c 3 t) (iblk16 V c 4 t) (iblk16 V c 5 t) (iblk16 V c 6 t) (ix2 p q)
    = (fun i => Spec.relu (Spec.union (M := 4096) (A := 128) (B := 128) (N := 128) (Spec.gcn (M := 4096) (K := 8192) (N := 128) (V c (Pipeline.arrRef spec16 0)) (V c (Pipeline.arrRef spec16 1)) (fun q => (V c (Pipeline.arrRef spec16 2)) (ix2 (0 : Fin 1) q))) (V c (Pipeline.arrRef spec16 3)) (V c (Pipeline.arrRef spec16 4)) (V c (Pipeline.arrRef spec16 5)) (fun q => (V c (Pipeline.arrRef spec16 6)) (ix2 (0 : Fin 1) q)) i)) (((cfg16.win 7).blk t).view.emb (ix2 p q))
  refine union_relu_entry8192 (M := 4096) (iblk16 V c 0 t) (iblk16 V c 1 t) (iblk16 V c 2 t) (iblk16 V c 3 t) (iblk16 V c 4 t) (iblk16 V c 5 t) (iblk16 V c 6 t) (V c (Pipeline.arrRef spec16 0)) (V c (Pipeline.arrRef spec16 1)) (V c (Pipeline.arrRef spec16 2)) (V c (Pipeline.arrRef spec16 3)) (V c (Pipeline.arrRef spec16 4)) (V c (Pipeline.arrRef spec16 5)) (V c (Pipeline.arrRef spec16 6)) (((cfg16.win 7).blk t).view.emb (ix2 p q)) p q ?_ ?_ ?_ ?_ ?_ ?_ ?_
  · intro k
    show V c (Pipeline.arrRef spec16 0) (((cfg16.win 0).blk t).view.emb (ix2 p k)) = _
    refine congrArg _ (funext fun a => Fin.ext ?_)
    match a with
    | ⟨0, _⟩ => show win16_0.index t (0 : Fin 2) * 512 + 1 * p.val = win16_7.index t (0 : Fin 2) * 512 + 1 * p.val; omega
    | ⟨1, _⟩ => show win16_0.index t (1 : Fin 2) * 8192 + 1 * k.val = k.val; omega
  · intro k l
    show V c (Pipeline.arrRef spec16 1) (((cfg16.win 1).blk t).view.emb (ix2 k l)) = _
    refine congrArg _ (funext fun a => Fin.ext ?_)
    match a with
    | ⟨0, _⟩ => show win16_1.index t (0 : Fin 2) * 8192 + 1 * k.val = k.val; omega
    | ⟨1, _⟩ => show win16_1.index t (1 : Fin 2) * 128 + 1 * l.val = l.val; omega
  · intro l
    show V c (Pipeline.arrRef spec16 2) (((cfg16.win 2).blk t).view.emb (ix2 (0 : Fin 1) l)) = _
    refine congrArg _ (funext fun a => Fin.ext ?_)
    match a with
    | ⟨0, _⟩ => show win16_2.index t (0 : Fin 2) * 1 + 1 * 0 = 0; omega
    | ⟨1, _⟩ => show win16_2.index t (1 : Fin 2) * 128 + 1 * l.val = l.val; omega
  · intro l
    show V c (Pipeline.arrRef spec16 3) (((cfg16.win 3).blk t).view.emb (ix2 l q)) = _
    refine congrArg _ (funext fun a => Fin.ext ?_)
    match a with
    | ⟨0, _⟩ => show win16_3.index t (0 : Fin 2) * 128 + 1 * l.val = l.val; omega
    | ⟨1, _⟩ => show win16_3.index t (1 : Fin 2) * 128 + 1 * q.val = win16_7.index t (1 : Fin 2) * 128 + 1 * q.val; omega
  · intro l
    show V c (Pipeline.arrRef spec16 4) (((cfg16.win 4).blk t).view.emb (ix2 p l)) = _
    refine congrArg _ (funext fun a => Fin.ext ?_)
    match a with
    | ⟨0, _⟩ => show win16_4.index t (0 : Fin 2) * 512 + 1 * p.val = win16_7.index t (0 : Fin 2) * 512 + 1 * p.val; omega
    | ⟨1, _⟩ => show win16_4.index t (1 : Fin 2) * 128 + 1 * l.val = l.val; omega
  · intro l
    show V c (Pipeline.arrRef spec16 5) (((cfg16.win 5).blk t).view.emb (ix2 l q)) = _
    refine congrArg _ (funext fun a => Fin.ext ?_)
    match a with
    | ⟨0, _⟩ => show win16_5.index t (0 : Fin 2) * 128 + 1 * l.val = l.val; omega
    | ⟨1, _⟩ => show win16_5.index t (1 : Fin 2) * 128 + 1 * q.val = win16_7.index t (1 : Fin 2) * 128 + 1 * q.val; omega
  · show V c (Pipeline.arrRef spec16 6) (((cfg16.win 6).blk t).view.emb (ix2 (0 : Fin 1) q)) = _
    refine congrArg _ (funext fun a => Fin.ext ?_)
    match a with
    | ⟨0, _⟩ => show win16_6.index t (0 : Fin 2) * 1 + 1 * 0 = 0; omega
    | ⟨1, _⟩ => show win16_6.index t (1 : Fin 2) * 128 + 1 * q.val = win16_7.index t (1 : Fin 2) * 128 + 1 * q.val; omega

/-- Every row block is some point's. -/
theorem idx_onto16 : ∀ q0 : Fin 8, ∃ t : Fin cfg16.N, win16_7.index t = ![q0.val, 0] :=
  (by decide +kernel : ∀ q0 : Fin 8, ∃ t : Fin grid16.N, win16_7.index t = ![q0.val, 0])

/-- An index of the output array is in a point's block iff each coordinate is in the block's range on its axis. -/
theorem mem_blk16 (t : Fin cfg16.N) (i : S4096x128.Idx) :
    i ∈ ((cfg16.win 7).blk t).view.set ↔ ∀ a : Fin 2, win16_7.index t a * S512x128.size a ≤ (i a).val
      ∧ (i a).val < win16_7.index t a * S512x128.size a + S512x128.size a := by
  show i ∈ ((View.whole main_v138).slice (win16_7.rect t)).set ↔ _
  rw [View.set_slice_whole, Rect.mem_set_unit]
  exact Iff.rfl

/-- The row blocks cover the output array: row i lies in block i / 512. -/
theorem cover16 (i : S4096x128.Idx) :
    ∃ t : Fin cfg16.N, (cfg16.win 7).flush t = true ∧ i ∈ ((cfg16.win 7).blk t).view.set := by
  have hi0 : (i 0).val < 4096 := (i 0).isLt
  have hi1 : (i 1).val < 128 := (i 1).isLt
  obtain ⟨t, ht⟩ := idx_onto16 ⟨(i 0).val / 512, by omega⟩
  have q0 : win16_7.index t (0 : Fin 2) = (i 0).val / 512 := congrFun ht 0
  have q1 : win16_7.index t (1 : Fin 2) = 0 := congrFun ht 1
  refine ⟨t, flush16_7 t, ?_⟩
  rw [mem_blk16]
  intro a
  match a with
  | ⟨0, _⟩ => show win16_7.index t (0 : Fin 2) * 512 ≤ (i 0).val ∧ (i 0).val < win16_7.index t (0 : Fin 2) * 512 + 512; omega
  | ⟨1, _⟩ => show win16_7.index t (1 : Fin 2) * 128 ≤ (i 1).val ∧ (i 1).val < win16_7.index t (1 : Fin 2) * 128 + 128; omega

/-- The output array after the region, as one function of the arrays the region finds. -/
theorem final16 (c : Dev nD) : (dat16 V c).arrAt 7 cfg16.N
    = fun i => Spec.relu (Spec.union (M := 4096) (A := 128) (B := 128) (N := 128) (Spec.gcn (M := 4096) (K := 8192) (N := 128) (V c (Pipeline.arrRef spec16 0)) (V c (Pipeline.arrRef spec16 1)) (fun q => (V c (Pipeline.arrRef spec16 2)) (ix2 (0 : Fin 1) q))) (V c (Pipeline.arrRef spec16 3)) (V c (Pipeline.arrRef spec16 4)) (V c (Pipeline.arrRef spec16 5)) (fun q => (V c (Pipeline.arrRef spec16 6)) (ix2 (0 : Fin 1) q)) i) :=
  (dat16 V c).arrAt_eq_of_cover 7 _ (fun t _ => flushed16_eq V c t) (cover16)

end Cert.KernelIdeal.RegionValue

end
-- ==== Proof.KRegs_union_3.lean ====
/-
  Regions 17, 22 of the kernel program, read as mathematics: a graph convolution step followed by the union
  projection, rectified where the kernel ends in a maximum against zero.

  Point t loads rows 512·t … 512·t + 511 of the adjacency array and of the second input, and the whole right factor, two
  weights and two bias rows. With h (p, l) the leaky rectifier of ∑ k, adj (512·t + p, k) · y (k, l) + b (l), it stores
  ∑ l, h (p, l) · wa (l, q) + ∑ l, x (512·t + p, l) · wb (l, q) + ub (q) (its maximum with 0 in the rectified regions) to the same rows of the
  output: entry (512·t + p, q) of the union projection of the whole arrays. The row blocks fill the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 17: a graph convolution step (8192×4096 by 4096×128) and the union projection, rectified, in 16 blocks of 512 rows -/

/-- The index maps over the grid: a row-blocked input window moves with the output's, every other input block is its
    whole array, and the output's blocks are the 16 row blocks. -/
theorem idx_facts17 : ∀ t : Fin cfg17.N, win17_0.index t (0 : Fin 2) = win17_7.index t (0 : Fin 2)
    ∧ win17_0.index t (1 : Fin 2) = 0
    ∧ win17_1.index t (0 : Fin 2) = 0
    ∧ win17_1.index t (1 : Fin 2) = 0
    ∧ win17_2.index t (0 : Fin 2) = 0
    ∧ win17_2.index t (1 : Fin 2) = 0
    ∧ win17_3.index t (0 : Fin 2) = 0
    ∧ win17_3.index t (1 : Fin 2) = 0
    ∧ win17_4.index t (0 : Fin 2) = win17_7.index t (0 : Fin 2)
    ∧ win17_4.index t (1 : Fin 2) = 0
    ∧ win17_5.index t (0 : Fin 2) = 0
    ∧ win17_5.index t (1 : Fin 2) = 0
    ∧ win17_6.index t (0 : Fin 2) = 0
    ∧ win17_6.index t (1 : Fin 2) = 0
    ∧ win17_7.index t (1 : Fin 2) = 0
    ∧ win17_7.index t (0 : Fin 2) ≤ 15 :=
  (by decide +kernel : ∀ t : Fin grid17.N, _)

set_option maxHeartbeats 800000 in
/-- What a point writes back is its block of the union projection of the arrays as the region finds them. -/
theorem flushed17_eq (c : Dev nD) (t : Fin cfg17.N) :
    (dat17 V c).flushed 7 t = ((cfg17.win 7).blk t).view.read (Elt Ideal)
      (fun i => Spec.relu (Spec.union (M := 8192) (A := 128) (B := 128) (N := 128) (Spec.gcn (M := 8192) (K := 4096) (N := 128) (V c (Pipeline.arrRef spec17 0)) (V c (Pipeline.arrRef spec17 1)) (fun q => (V c (Pipeline.arrRef spec17 2)) (ix2 (0 : Fin 1) q))) (V c (Pipeline.arrRef spec17 3)) (V c (Pipeline.arrRef spec17 4)) (V c (Pipeline.arrRef spec17 5)) (fun q => (V c (Pipeline.arrRef spec17 6)) (ix2 (0 : Fin 1) q)) i)) := by
  show (cfg17.win 7).cut (grid17.coords t) ((dat17 V c).after 7 t) = _
  rw [after17_7]
  unfold out17_7
  rw [View.canon_unit_zero zeros2]
  simp only [View.ld_unit_zero (S := S512x4096) zeros2, View.ld_unit_zero (S := S4096x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts17 t
  funext j
  obtain ⟨p, q, rfl⟩ : ∃ (p : Fin 512) (q : Fin 128), j = ix2 p q := ⟨j 0, j 1, eq_ix2 (n0 := 512) (n1 := 128) j⟩
  show k17_pay1 (iblk17 V c 0 t) (iblk17 V c 1 t) (iblk17 V c 2 t) (iblk17 V c 3 t) (iblk17 V c 4 t) (iblk17 V c 5 t) (iblk17 V c 6 t) (ix2 p q)
    = (fun i => Spec.relu (Spec.union (M := 8192) (A := 128) (B := 128) (N := 128) (Spec.gcn (M := 8192) (K := 4096) (N := 128) (V c (Pipeline.arrRef spec17 0)) (V c (Pipeline.arrRef spec17 1)) (fun q => (V c (Pipeline.arrRef spec17 2)) (ix2 (0 : Fin 1) q))) (V c (Pipeline.arrRef spec17 3)) (V c (Pipeline.arrRef spec17 4)) (V c (Pipeline.arrRef spec17 5)) (fun q => (V c (Pipeline.arrRef spec17 6)) (ix2 (0 : Fin 1) q)) i)) (((cfg17.win 7).blk t).view.emb (ix2 p q))
  refine union_relu_entry4096 (M := 8192) (iblk17 V c 0 t) (iblk17 V c 1 t) (iblk17 V c 2 t) (iblk17 V c 3 t) (iblk17 V c 4 t) (iblk17 V c 5 t) (iblk17 V c 6 t) (V c (Pipeline.arrRef spec17 0)) (V c (Pipeline.arrRef spec17 1)) (V c (Pipeline.arrRef spec17 2)) (V c (Pipeline.arrRef spec17 3)) (V c (Pipeline.arrRef spec17 4)) (V c (Pipeline.arrRef spec17 5)) (V c (Pipeline.arrRef spec17 6)) (((cfg17.win 7).blk t).view.emb (ix2 p q)) p q ?_ ?_ ?_ ?_ ?_ ?_ ?_
  · intro k
    show V c (Pipeline.arrRef spec17 0) (((cfg17.win 0).blk t).view.emb (ix2 p k)) = _
    refine congrArg _ (funext fun a => Fin.ext ?_)
    match a with
    | ⟨0, _⟩ => show win17_0.index t (0 : Fin 2) * 512 + 1 * p.val = win17_7.index t (0 : Fin 2) * 512 + 1 * p.val; omega
    | ⟨1, _⟩ => show win17_0.index t (1 : Fin 2) * 4096 + 1 * k.val = k.val; omega
  · intro k l
    show V c (Pipeline.arrRef spec17 1) (((cfg17.win 1).blk t).view.emb (ix2 k l)) = _
    refine congrArg _ (funext fun a => Fin.ext ?_)
    match a with
    | ⟨0, _⟩ => show win17_1.index t (0 : Fin 2) * 4096 + 1 * k.val = k.val; omega
    | ⟨1, _⟩ => show win17_1.index t (1 : Fin 2) * 128 + 1 * l.val = l.val; omega
  · intro l
    show V c (Pipeline.arrRef spec17 2) (((cfg17.win 2).blk t).view.emb (ix2 (0 : Fin 1) l)) = _
    refine congrArg _ (funext fun a => Fin.ext ?_)
    match a with
    | ⟨0, _⟩ => show win17_2.index t (0 : Fin 2) * 1 + 1 * 0 = 0; omega
    | ⟨1, _⟩ => show win17_2.index t (1 : Fin 2) * 128 + 1 * l.val = l.val; omega
  · intro l
    show V c (Pipeline.arrRef spec17 3) (((cfg17.win 3).blk t).view.emb (ix2 l q)) = _
    refine congrArg _ (funext fun a => Fin.ext ?_)
    match a with
    | ⟨0, _⟩ => show win17_3.index t (0 : Fin 2) * 128 + 1 * l.val = l.val; omega
    | ⟨1, _⟩ => show win17_3.index t (1 : Fin 2) * 128 + 1 * q.val = win17_7.index t (1 : Fin 2) * 128 + 1 * q.val; omega
  · intro l
    show V c (Pipeline.arrRef spec17 4) (((cfg17.win 4).blk t).view.emb (ix2 p l)) = _
    refine congrArg _ (funext fun a => Fin.ext ?_)
    match a with
    | ⟨0, _⟩ => show win17_4.index t (0 : Fin 2) * 512 + 1 * p.val = win17_7.index t (0 : Fin 2) * 512 + 1 * p.val; omega
    | ⟨1, _⟩ => show win17_4.index t (1 : Fin 2) * 128 + 1 * l.val = l.val; omega
  · intro l
    show V c (Pipeline.arrRef spec17 5) (((cfg17.win 5).blk t).view.emb (ix2 l q)) = _
    refine congrArg _ (funext fun a => Fin.ext ?_)
    match a with
    | ⟨0, _⟩ => show win17_5.index t (0 : Fin 2) * 128 + 1 * l.val = l.val; omega
    | ⟨1, _⟩ => show win17_5.index t (1 : Fin 2) * 128 + 1 * q.val = win17_7.index t (1 : Fin 2) * 128 + 1 * q.val; omega
  · show V c (Pipeline.arrRef spec17 6) (((cfg17.win 6).blk t).view.emb (ix2 (0 : Fin 1) q)) = _
    refine congrArg _ (funext fun a => Fin.ext ?_)
    match a with
    | ⟨0, _⟩ => show win17_6.index t (0 : Fin 2) * 1 + 1 * 0 = 0; omega
    | ⟨1, _⟩ => show win17_6.index t (1 : Fin 2) * 128 + 1 * q.val = win17_7.index t (1 : Fin 2) * 128 + 1 * q.val; omega

/-- Every row block is some point's. -/
theorem idx_onto17 : ∀ q0 : Fin 16, ∃ t : Fin cfg17.N, win17_7.index t = ![q0.val, 0] :=
  (by decide +kernel : ∀ q0 : Fin 16, ∃ t : Fin grid17.N, win17_7.index t = ![q0.val, 0])

/-- An index of the output array is in a point's block iff each coordinate is in the block's range on its axis. -/
theorem mem_blk17 (t : Fin cfg17.N) (i : S8192x128.Idx) :
    i ∈ ((cfg17.win 7).blk t).view.set ↔ ∀ a : Fin 2, win17_7.index t a * S512x128.size a ≤ (i a).val
      ∧ (i a).val < win17_7.index t a * S512x128.size a + S512x128.size a := by
  show i ∈ ((View.whole main_v151).slice (win17_7.rect t)).set ↔ _
  rw [View.set_slice_whole, Rect.mem_set_unit]
  exact Iff.rfl

/-- The row blocks cover the output array: row i lies in block i / 512. -/
theorem cover17 (i : S8192x128.Idx) :
    ∃ t : Fin cfg17.N, (cfg17.win 7).flush t = true ∧ i ∈ ((cfg17.win 7).blk t).view.set := by
  have hi0 : (i 0).val < 8192 := (i 0).isLt
  have hi1 : (i 1).val < 128 := (i 1).isLt
  obtain ⟨t, ht⟩ := idx_onto17 ⟨(i 0).val / 512, by omega⟩
  have q0 : win17_7.index t (0 : Fin 2) = (i 0).val / 512 := congrFun ht 0
  have q1 : win17_7.index t (1 : Fin 2) = 0 := congrFun ht 1
  refine ⟨t, flush17_7 t, ?_⟩
  rw [mem_blk17]
  intro a
  match a with
  | ⟨0, _⟩ => show win17_7.index t (0 : Fin 2) * 512 ≤ (i 0).val ∧ (i 0).val < win17_7.index t (0 : Fin 2) * 512 + 512; omega
  | ⟨1, _⟩ => show win17_7.index t (1 : Fin 2) * 128 ≤ (i 1).val ∧ (i 1).val < win17_7.index t (1 : Fin 2) * 128 + 128; omega

/-- The output array after the region, as one function of the arrays the region finds. -/
theorem final17 (c : Dev nD) : (dat17 V c).arrAt 7 cfg17.N
    = fun i => Spec.relu (Spec.union (M := 8192) (A := 128) (B := 128) (N := 128) (Spec.gcn (M := 8192) (K := 4096) (N := 128) (V c (Pipeline.arrRef spec17 0)) (V c (Pipeline.arrRef spec17 1)) (fun q => (V c (Pipeline.arrRef spec17 2)) (ix2 (0 : Fin 1) q))) (V c (Pipeline.arrRef spec17 3)) (V c (Pipeline.arrRef spec17 4)) (V c (Pipeline.arrRef spec17 5)) (fun q => (V c (Pipeline.arrRef spec17 6)) (ix2 (0 : Fin 1) q)) i) :=
  (dat17 V c).arrAt_eq_of_cover 7 _ (fun t _ => flushed17_eq V c t) (cover17)

/-! ## Region 22: a graph convolution step (4096×8192 by 8192×128) and the union projection, in 8 blocks of 512 rows -/

/-- The index maps over the grid: a row-blocked input window moves with the output's, every other input block is its
    whole array, and the output's blocks are the 8 row blocks. -/
theorem idx_facts22 : ∀ t : Fin cfg22.N, win22_0.index t (0 : Fin 2) = win22_7.index t (0 : Fin 2)
    ∧ win22_0.index t (1 : Fin 2) = 0
    ∧ win22_1.index t (0 : Fin 2) = 0
    ∧ win22_1.index t (1 : Fin 2) = 0
    ∧ win22_2.index t (0 : Fin 2) = 0
    ∧ win22_2.index t (1 : Fin 2) = 0
    ∧ win22_3.index t (0 : Fin 2) = 0
    ∧ win22_3.index t (1 : Fin 2) = 0
    ∧ win22_4.index t (0 : Fin 2) = win22_7.index t (0 : Fin 2)
    ∧ win22_4.index t (1 : Fin 2) = 0
    ∧ win22_5.index t (0 : Fin 2) = 0
    ∧ win22_5.index t (1 : Fin 2) = 0
    ∧ win22_6.index t (0 : Fin 2) = 0
    ∧ win22_6.index t (1 : Fin 2) = 0
    ∧ win22_7.index t (1 : Fin 2) = 0
    ∧ win22_7.index t (0 : Fin 2) ≤ 7 :=
  (by decide +kernel : ∀ t : Fin grid22.N, _)

set_option maxHeartbeats 800000 in
/-- What a point writes back is its block of the union projection of the arrays as the region finds them. -/
theorem flushed22_eq (c : Dev nD) (t : Fin cfg22.N) :
    (dat22 V c).flushed 7 t = ((cfg22.win 7).blk t).view.read (Elt Ideal)
      (Spec.union (M := 4096) (A := 128) (B := 128) (N := 128) (Spec.gcn (M := 4096) (K := 8192) (N := 128) (V c (Pipeline.arrRef spec22 0)) (V c (Pipeline.arrRef spec22 1)) (fun q => (V c (Pipeline.arrRef spec22 2)) (ix2 (0 : Fin 1) q))) (V c (Pipeline.arrRef spec22 3)) (V c (Pipeline.arrRef spec22 4)) (V c (Pipeline.arrRef spec22 5)) (fun q => (V c (Pipeline.arrRef spec22 6)) (ix2 (0 : Fin 1) q))) := by
  show (cfg22.win 7).cut (grid22.coords t) ((dat22 V c).after 7 t) = _
  rw [after22_7]
  unfold out22_7
  rw [View.canon_unit_zero zeros2]
  simp only [View.ld_unit_zero (S := S512x8192) zeros2, View.ld_unit_zero (S := S8192x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts22 t
  funext j
  obtain ⟨p, q, rfl⟩ : ∃ (p : Fin 512) (q : Fin 128), j = ix2 p q := ⟨j 0, j 1, eq_ix2 (n0 := 512) (n1 := 128) j⟩
  show k22_pay1 (iblk22 V c 0 t) (iblk22 V c 1 t) (iblk22 V c 2 t) (iblk22 V c 3 t) (iblk22 V c 4 t) (iblk22 V c 5 t) (iblk22 V c 6 t) (ix2 p q)
    = (Spec.union (M := 4096) (A := 128) (B := 128) (N := 128) (Spec.gcn (M := 4096) (K := 8192) (N := 128) (V c (Pipeline.arrRef spec22 0)) (V c (Pipeline.arrRef spec22 1)) (fun q => (V c (Pipeline.arrRef spec22 2)) (ix2 (0 : Fin 1) q))) (V c (Pipeline.arrRef spec22 3)) (V c (Pipeline.arrRef spec22 4)) (V c (Pipeline.arrRef spec22 5)) (fun q => (V c (Pipeline.arrRef spec22 6)) (ix2 (0 : Fin 1) q))) (((cfg22.win 7).blk t).view.emb (ix2 p q))
  refine union_entry8192 (M := 4096) (iblk22 V c 0 t) (iblk22 V c 1 t) (iblk22 V c 2 t) (iblk22 V c 3 t) (iblk22 V c 4 t) (iblk22 V c 5 t) (iblk22 V c 6 t) (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (((cfg22.win 7).blk t).view.emb (ix2 p q)) p q ?_ ?_ ?_ ?_ ?_ ?_ ?_
  · intro k
    show V c (Pipeline.arrRef spec22 0) (((cfg22.win 0).blk t).view.emb (ix2 p k)) = _
    refine congrArg _ (funext fun a => Fin.ext ?_)
    match a with
    | ⟨0, _⟩ => show win22_0.index t (0 : Fin 2) * 512 + 1 * p.val = win22_7.index t (0 : Fin 2) * 512 + 1 * p.val; omega
    | ⟨1, _⟩ => show win22_0.index t (1 : Fin 2) * 8192 + 1 * k.val = k.val; omega
  · intro k l
    show V c (Pipeline.arrRef spec22 1) (((cfg22.win 1).blk t).view.emb (ix2 k l)) = _
    refine congrArg _ (funext fun a => Fin.ext ?_)
    match a with
    | ⟨0, _⟩ => show win22_1.index t (0 : Fin 2) * 8192 + 1 * k.val = k.val; omega
    | ⟨1, _⟩ => show win22_1.index t (1 : Fin 2) * 128 + 1 * l.val = l.val; omega
  · intro l
    show V c (Pipeline.arrRef spec22 2) (((cfg22.win 2).blk t).view.emb (ix2 (0 : Fin 1) l)) = _
    refine congrArg _ (funext fun a => Fin.ext ?_)
    match a with
    | ⟨0, _⟩ => show win22_2.index t (0 : Fin 2) * 1 + 1 * 0 = 0; omega
    | ⟨1, _⟩ => show win22_2.index t (1 : Fin 2) * 128 + 1 * l.val = l.val; omega
  · intro l
    show V c (Pipeline.arrRef spec22 3) (((cfg22.win 3).blk t).view.emb (ix2 l q)) = _
    refine congrArg _ (funext fun a => Fin.ext ?_)
    match a with
    | ⟨0, _⟩ => show win22_3.index t (0 : Fin 2) * 128 + 1 * l.val = l.val; omega
    | ⟨1, _⟩ => show win22_3.index t (1 : Fin 2) * 128 + 1 * q.val = win22_7.index t (1 : Fin 2) * 128 + 1 * q.val; omega
  · intro l
    show V c (Pipeline.arrRef spec22 4) (((cfg22.win 4).blk t).view.emb (ix2 p l)) = _
    refine congrArg _ (funext fun a => Fin.ext ?_)
    match a with
    | ⟨0, _⟩ => show win22_4.index t (0 : Fin 2) * 512 + 1 * p.val = win22_7.index t (0 : Fin 2) * 512 + 1 * p.val; omega
    | ⟨1, _⟩ => show win22_4.index t (1 : Fin 2) * 128 + 1 * l.val = l.val; omega
  · intro l
    show V c (Pipeline.arrRef spec22 5) (((cfg22.win 5).blk t).view.emb (ix2 l q)) = _
    refine congrArg _ (funext fun a => Fin.ext ?_)
    match a with
    | ⟨0, _⟩ => show win22_5.index t (0 : Fin 2) * 128 + 1 * l.val = l.val; omega
    | ⟨1, _⟩ => show win22_5.index t (1 : Fin 2) * 128 + 1 * q.val = win22_7.index t (1 : Fin 2) * 128 + 1 * q.val; omega
  · show V c (Pipeline.arrRef spec22 6) (((cfg22.win 6).blk t).view.emb (ix2 (0 : Fin 1) q)) = _
    refine congrArg _ (funext fun a => Fin.ext ?_)
    match a with
    | ⟨0, _⟩ => show win22_6.index t (0 : Fin 2) * 1 + 1 * 0 = 0; omega
    | ⟨1, _⟩ => show win22_6.index t (1 : Fin 2) * 128 + 1 * q.val = win22_7.index t (1 : Fin 2) * 128 + 1 * q.val; omega

/-- Every row block is some point's. -/
theorem idx_onto22 : ∀ q0 : Fin 8, ∃ t : Fin cfg22.N, win22_7.index t = ![q0.val, 0] :=
  (by decide +kernel : ∀ q0 : Fin 8, ∃ t : Fin grid22.N, win22_7.index t = ![q0.val, 0])

/-- An index of the output array is in a point's block iff each coordinate is in the block's range on its axis. -/
theorem mem_blk22 (t : Fin cfg22.N) (i : S4096x128.Idx) :
    i ∈ ((cfg22.win 7).blk t).view.set ↔ ∀ a : Fin 2, win22_7.index t a * S512x128.size a ≤ (i a).val
      ∧ (i a).val < win22_7.index t a * S512x128.size a + S512x128.size a := by
  show i ∈ ((View.whole main_v184).slice (win22_7.rect t)).set ↔ _
  rw [View.set_slice_whole, Rect.mem_set_unit]
  exact Iff.rfl

/-- The row blocks cover the output array: row i lies in block i / 512. -/
theorem cover22 (i : S4096x128.Idx) :
    ∃ t : Fin cfg22.N, (cfg22.win 7).flush t = true ∧ i ∈ ((cfg22.win 7).blk t).view.set := by
  have hi0 : (i 0).val < 4096 := (i 0).isLt
  have hi1 : (i 1).val < 128 := (i 1).isLt
  obtain ⟨t, ht⟩ := idx_onto22 ⟨(i 0).val / 512, by omega⟩
  have q0 : win22_7.index t (0 : Fin 2) = (i 0).val / 512 := congrFun ht 0
  have q1 : win22_7.index t (1 : Fin 2) = 0 := congrFun ht 1
  refine ⟨t, flush22_7 t, ?_⟩
  rw [mem_blk22]
  intro a
  match a with
  | ⟨0, _⟩ => show win22_7.index t (0 : Fin 2) * 512 ≤ (i 0).val ∧ (i 0).val < win22_7.index t (0 : Fin 2) * 512 + 512; omega
  | ⟨1, _⟩ => show win22_7.index t (1 : Fin 2) * 128 ≤ (i 1).val ∧ (i 1).val < win22_7.index t (1 : Fin 2) * 128 + 128; omega

/-- The output array after the region, as one function of the arrays the region finds. -/
theorem final22 (c : Dev nD) : (dat22 V c).arrAt 7 cfg22.N
    = Spec.union (M := 4096) (A := 128) (B := 128) (N := 128) (Spec.gcn (M := 4096) (K := 8192) (N := 128) (V c (Pipeline.arrRef spec22 0)) (V c (Pipeline.arrRef spec22 1)) (fun q => (V c (Pipeline.arrRef spec22 2)) (ix2 (0 : Fin 1) q))) (V c (Pipeline.arrRef spec22 3)) (V c (Pipeline.arrRef spec22 4)) (V c (Pipeline.arrRef spec22 5)) (fun q => (V c (Pipeline.arrRef spec22 6)) (ix2 (0 : Fin 1) q)) :=
  (dat22 V c).arrAt_eq_of_cover 7 _ (fun t _ => flushed22_eq V c t) (cover22)

end Cert.KernelIdeal.RegionValue

end
-- ==== Proof.KRegs_union_4.lean ====
/-
  Regions 23 of the kernel program, read as mathematics: a graph convolution step followed by the union
  projection.

  Point t loads rows 512·t … 512·t + 511 of the adjacency array and of the second input, and the whole right factor, two
  weights and two bias rows. With h (p, l) the leaky rectifier of ∑ k, adj (512·t + p, k) · y (k, l) + b (l), it stores
  ∑ l, h (p, l) · wa (l, q) + ∑ l, x (512·t + p, l) · wb (l, q) + ub (q) to the same rows of the
  output: entry (512·t + p, q) of the union projection of the whole arrays. The row blocks fill the output.
-/
import proofs.«177232_g71837622993359_cont_sun_m_41_3_alg».proof.Proof.Gen.KernelIdeal.Frame
import proofs.«177232_g71837622993359_cont_sun_m_41_3_alg».proof.Proof.KBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 23: a graph convolution step (8192×4096 by 4096×128) and the union projection, in 16 blocks of 512 rows -/

/-- The index maps over the grid: a row-blocked input window moves with the output's, every other input block is its
    whole array, and the output's blocks are the 16 row blocks. -/
theorem idx_facts23 : ∀ t : Fin cfg23.N, win23_0.index t (0 : Fin 2) = win23_7.index t (0 : Fin 2)
    ∧ win23_0.index t (1 : Fin 2) = 0
    ∧ win23_1.index t (0 : Fin 2) = 0
    ∧ win23_1.index t (1 : Fin 2) = 0
    ∧ win23_2.index t (0 : Fin 2) = 0
    ∧ win23_2.index t (1 : Fin 2) = 0
    ∧ win23_3.index t (0 : Fin 2) = 0
    ∧ win23_3.index t (1 : Fin 2) = 0
    ∧ win23_4.index t (0 : Fin 2) = win23_7.index t (0 : Fin 2)
    ∧ win23_4.index t (1 : Fin 2) = 0
    ∧ win23_5.index t (0 : Fin 2) = 0
    ∧ win23_5.index t (1 : Fin 2) = 0
    ∧ win23_6.index t (0 : Fin 2) = 0
    ∧ win23_6.index t (1 : Fin 2) = 0
    ∧ win23_7.index t (1 : Fin 2) = 0
    ∧ win23_7.index t (0 : Fin 2) ≤ 15 :=
  (by decide +kernel : ∀ t : Fin grid23.N, _)

set_option maxHeartbeats 800000 in
/-- What a point writes back is its block of the union projection of the arrays as the region finds them. -/
theorem flushed23_eq (c : Dev nD) (t : Fin cfg23.N) :
    (dat23 V c).flushed 7 t = ((cfg23.win 7).blk t).view.read (Elt Ideal)
      (Spec.union (M := 8192) (A := 128) (B := 128) (N := 128) (Spec.gcn (M := 8192) (K := 4096) (N := 128) (V c (Pipeline.arrRef spec23 0)) (V c (Pipeline.arrRef spec23 1)) (fun q => (V c (Pipeline.arrRef spec23 2)) (ix2 (0 : Fin 1) q))) (V c (Pipeline.arrRef spec23 3)) (V c (Pipeline.arrRef spec23 4)) (V c (Pipeline.arrRef spec23 5)) (fun q => (V c (Pipeline.arrRef spec23 6)) (ix2 (0 : Fin 1) q))) := by
  show (cfg23.win 7).cut (grid23.coords t) ((dat23 V c).after 7 t) = _
  rw [after23_7]
  unfold out23_7
  rw [View.canon_unit_zero zeros2]
  simp only [View.ld_unit_zero (S := S512x4096) zeros2, View.ld_unit_zero (S := S4096x128) zeros2, View.ld_unit_zero (S := S1x128) zeros2, View.ld_unit_zero (S := S128x128) zeros2, View.ld_unit_zero (S := S512x128) zeros2]
  obtain ⟨e0, e1, e2, e3, e4, e5, e6, e7, e8, e9, e10, e11, e12, e13, e14, e15⟩ := idx_facts23 t
  funext j
  obtain ⟨p, q, rfl⟩ : ∃ (p : Fin 512) (q : Fin 128), j = ix2 p q := ⟨j 0, j 1, eq_ix2 (n0 := 512) (n1 := 128) j⟩
  show k23_pay1 (iblk23 V c 0 t) (iblk23 V c 1 t) (iblk23 V c 2 t) (iblk23 V c 3 t) (iblk23 V c 4 t) (iblk23 V c 5 t) (iblk23 V c 6 t) (ix2 p q)
    = (Spec.union (M := 8192) (A := 128) (B := 128) (N := 128) (Spec.gcn (M := 8192) (K := 4096) (N := 128) (V c (Pipeline.arrRef spec23 0)) (V c (Pipeline.arrRef spec23 1)) (fun q => (V c (Pipeline.arrRef spec23 2)) (ix2 (0 : Fin 1) q))) (V c (Pipeline.arrRef spec23 3)) (V c (Pipeline.arrRef spec23 4)) (V c (Pipeline.arrRef spec23 5)) (fun q => (V c (Pipeline.arrRef spec23 6)) (ix2 (0 : Fin 1) q))) (((cfg23.win 7).blk t).view.emb (ix2 p q))
  refine union_entry4096 (M := 8192) (iblk23 V c 0 t) (iblk23 V c 1 t) (iblk23 V c 2 t) (iblk23 V c 3 t) (iblk23 V c 4 t) (iblk23 V c 5 t) (iblk23 V c 6 t) (V c (Pipeline.arrRef spec23 0)) (V c (Pipeline.arrRef spec23 1)) (V c (Pipeline.arrRef spec23 2)) (V c (Pipeline.arrRef spec23 3)) (V c (Pipeline.arrRef spec23 4)) (V c (Pipeline.arrRef spec23 5)) (V c (Pipeline.arrRef spec23 6)) (((cfg23.win 7).blk t).view.emb (ix2 p q)) p q ?_ ?_ ?_ ?_ ?_ ?_ ?_
  · intro k
    show V c (Pipeline.arrRef spec23 0) (((cfg23.win 0).blk t).view.emb (ix2 p k)) = _
    refine congrArg _ (funext fun a => Fin.ext ?_)
    match a with
    | ⟨0, _⟩ => show win23_0.index t (0 : Fin 2) * 512 + 1 * p.val = win23_7.index t (0 : Fin 2) * 512 + 1 * p.val; omega
    | ⟨1, _⟩ => show win23_0.index t (1 : Fin 2) * 4096 + 1 * k.val = k.val; omega
  · intro k l
    show V c (Pipeline.arrRef spec23 1) (((cfg23.win 1).blk t).view.emb (ix2 k l)) = _
    refine congrArg _ (funext fun a => Fin.ext ?_)
    match a with
    | ⟨0, _⟩ => show win23_1.index t (0 : Fin 2) * 4096 + 1 * k.val = k.val; omega
    | ⟨1, _⟩ => show win23_1.index t (1 : Fin 2) * 128 + 1 * l.val = l.val; omega
  · intro l
    show V c (Pipeline.arrRef spec23 2) (((cfg23.win 2).blk t).view.emb (ix2 (0 : Fin 1) l)) = _
    refine congrArg _ (funext fun a => Fin.ext ?_)
    match a with
    | ⟨0, _⟩ => show win23_2.index t (0 : Fin 2) * 1 + 1 * 0 = 0; omega
    | ⟨1, _⟩ => show win23_2.index t (1 : Fin 2) * 128 + 1 * l.val = l.val; omega
  · intro l
    show V c (Pipeline.arrRef spec23 3) (((cfg23.win 3).blk t).view.emb (ix2 l q)) = _
    refine congrArg _ (funext fun a => Fin.ext ?_)
    match a with
    | ⟨0, _⟩ => show win23_3.index t (0 : Fin 2) * 128 + 1 * l.val = l.val; omega
    | ⟨1, _⟩ => show win23_3.index t (1 : Fin 2) * 128 + 1 * q.val = win23_7.index t (1 : Fin 2) * 128 + 1 * q.val; omega
  · intro l
    show V c (Pipeline.arrRef spec23 4) (((cfg23.win 4).blk t).view.emb (ix2 p l)) = _
    refine congrArg _ (funext fun a => Fin.ext ?_)
    match a with
    | ⟨0, _⟩ => show win23_4.index t (0 : Fin 2) * 512 + 1 * p.val = win23_7.index t (0 : Fin 2) * 512 + 1 * p.val; omega
    | ⟨1, _⟩ => show win23_4.index t (1 : Fin 2) * 128 + 1 * l.val = l.val; omega
  · intro l
    show V c (Pipeline.arrRef spec23 5) (((cfg23.win 5).blk t).view.emb (ix2 l q)) = _
    refine congrArg _ (funext fun a => Fin.ext ?_)
    match a with
    | ⟨0, _⟩ => show win23_5.index t (0 : Fin 2) * 128 + 1 * l.val = l.val; omega
    | ⟨1, _⟩ => show win23_5.index t (1 : Fin 2) * 128 + 1 * q.val = win23_7.index t (1 : Fin 2) * 128 + 1 * q.val; omega
  · show V c (Pipeline.arrRef spec23 6) (((cfg23.win 6).blk t).view.emb (ix2 (0 : Fin 1) q)) = _
    refine congrArg _ (funext fun a => Fin.ext ?_)
    match a with
    | ⟨0, _⟩ => show win23_6.index t (0 : Fin 2) * 1 + 1 * 0 = 0; omega
    | ⟨1, _⟩ => show win23_6.index t (1 : Fin 2) * 128 + 1 * q.val = win23_7.index t (1 : Fin 2) * 128 + 1 * q.val; omega

/-- Every row block is some point's. -/
theorem idx_onto23 : ∀ q0 : Fin 16, ∃ t : Fin cfg23.N, win23_7.index t = ![q0.val, 0] :=
  (by decide +kernel : ∀ q0 : Fin 16, ∃ t : Fin grid23.N, win23_7.index t = ![q0.val, 0])

/-- An index of the output array is in a point's block iff each coordinate is in the block's range on its axis. -/
theorem mem_blk23 (t : Fin cfg23.N) (i : S8192x128.Idx) :
    i ∈ ((cfg23.win 7).blk t).view.set ↔ ∀ a : Fin 2, win23_7.index t a * S512x128.size a ≤ (i a).val
      ∧ (i a).val < win23_7.index t a * S512x128.size a + S512x128.size a := by
  show i ∈ ((View.whole main_v197).slice (win23_7.rect t)).set ↔ _
  rw [View.set_slice_whole, Rect.mem_set_unit]
  exact Iff.rfl

/-- The row blocks cover the output array: row i lies in block i / 512. -/
theorem cover23 (i : S8192x128.Idx) :
    ∃ t : Fin cfg23.N, (cfg23.win 7).flush t = true ∧ i ∈ ((cfg23.win 7).blk t).view.set := by
  have hi0 : (i 0).val < 8192 := (i 0).isLt
  have hi1 : (i 1).val < 128 := (i 1).isLt
  obtain ⟨t, ht⟩ := idx_onto23 ⟨(i 0).val / 512, by omega⟩
  have q0 : win23_7.index t (0 : Fin 2) = (i 0).val / 512 := congrFun ht 0
  have q1 : win23_7.index t (1 : Fin 2) = 0 := congrFun ht 1
  refine ⟨t, flush23_7 t, ?_⟩
  rw [mem_blk23]
  intro a
  match a with
  | ⟨0, _⟩ => show win23_7.index t (0 : Fin 2) * 512 ≤ (i 0).val ∧ (i 0).val < win23_7.index t (0 : Fin 2) * 512 + 512; omega
  | ⟨1, _⟩ => show win23_7.index t (1 : Fin 2) * 128 ≤ (i 1).val ∧ (i 1).val < win23_7.index t (1 : Fin 2) * 128 + 128; omega

/-- The output array after the region, as one function of the arrays the region finds. -/
theorem final23 (c : Dev nD) : (dat23 V c).arrAt 7 cfg23.N
    = Spec.union (M := 8192) (A := 128) (B := 128) (N := 128) (Spec.gcn (M := 8192) (K := 4096) (N := 128) (V c (Pipeline.arrRef spec23 0)) (V c (Pipeline.arrRef spec23 1)) (fun q => (V c (Pipeline.arrRef spec23 2)) (ix2 (0 : Fin 1) q))) (V c (Pipeline.arrRef spec23 3)) (V c (Pipeline.arrRef spec23 4)) (V c (Pipeline.arrRef spec23 5)) (fun q => (V c (Pipeline.arrRef spec23 6)) (ix2 (0 : Fin 1) q)) :=
  (dat23 V c).arrAt_eq_of_cover 7 _ (fun t _ => flushed23_eq V c t) (cover23)

end Cert.KernelIdeal.RegionValue

end
-- ==== Proof.KChainVal1.lean ====
/-
  The idealized kernel program's buffers at the segment boundaries 0 … 12, as the encoder model's values: each
  region's output array is what its write-backs leave, which is the model's value of the region's input arrays as the
  region finds them; those are read where a host operation or an earlier region produced them and carried, unchanged,
  across every stretch and region in between.
-/
import proofs.«177232_g71837622993359_cont_sun_m_41_3_alg».proof.Proof.KChainBase
import proofs.«177232_g71837622993359_cont_sun_m_41_3_alg».proof.Proof.KReg0
import proofs.«177232_g71837622993359_cont_sun_m_41_3_alg».proof.Proof.KReg2
import proofs.«177232_g71837622993359_cont_sun_m_41_3_alg».proof.Proof.KReg4
import proofs.«177232_g71837622993359_cont_sun_m_41_3_alg».proof.Proof.KRegs_mm_1
import proofs.«177232_g71837622993359_cont_sun_m_41_3_alg».proof.Proof.KRegs_mm_2
import proofs.«177232_g71837622993359_cont_sun_m_41_3_alg».proof.Proof.KRegs_post_1
import proofs.«177232_g71837622993359_cont_sun_m_41_3_alg».proof.Proof.KRegs_post_2
import proofs.«177232_g71837622993359_cont_sun_m_41_3_alg».proof.Proof.KRegs_post_3
import proofs.«177232_g71837622993359_cont_sun_m_41_3_alg».proof.Proof.KRegs_union_1
import proofs.«177232_g71837622993359_cont_sun_m_41_3_alg».proof.Proof.KRegs_union_2
import proofs.«177232_g71837622993359_cont_sun_m_41_3_alg».proof.Proof.KRegs_union_3
import proofs.«177232_g71837622993359_cont_sun_m_41_3_alg».proof.Proof.KRegs_union_4

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Cert.Spec Cert.HostForms Cert.KernelIdeal.RegionValue

variable (m : (ℓ : Loc nD τ sig) → Buf (Elt Ideal) ℓ) (ρ : Dev nD → PrngReg)

theorem at_main_arg2_0 (c : Dev nD) : W0 m ρ c (Proc.devRef .tc main_arg2) = (domT m c).UV := rfl

theorem at_main_v2_1 (c : Dev nD) : W1 m ρ c (Proc.devRef .tc main_v2) = (domT m c).UV := by
  show StableHlo.after hostOps0 (W0 m ρ c) (Proc.devRef .tc main_v2) = _
  after_results
  rw [at_main_arg2_0 m ρ c]
  rfl

theorem at_main_v2_2 (c : Dev nD) : W2 m ρ c (Proc.devRef .tc main_v2) = (domT m c).UV :=
  (W2_of_ne m ρ c main_v2 (by decide)).trans (at_main_v2_1 m ρ c)

theorem at_main_v2_3 (c : Dev nD) : W3 m ρ c (Proc.devRef .tc main_v2) = (domT m c).UV :=
  (keepH1 (W2 m ρ c) main_v2 (by decide)).trans (at_main_v2_2 m ρ c)

theorem at_main_v2_4 (c : Dev nD) : W4 m ρ c (Proc.devRef .tc main_v2) = (domT m c).UV :=
  (W4_of_ne m ρ c main_v2 (by decide)).trans (at_main_v2_3 m ρ c)

theorem at_main_v2_5 (c : Dev nD) : W5 m ρ c (Proc.devRef .tc main_v2) = (domT m c).UV :=
  (keepH2 (W4 m ρ c) main_v2 (by decide)).trans (at_main_v2_4 m ρ c)

theorem at_main_v2_6 (c : Dev nD) : W6 m ρ c (Proc.devRef .tc main_v2) = (domT m c).UV :=
  (W6_of_ne m ρ c main_v2 (by decide)).trans (at_main_v2_5 m ρ c)

theorem at_main_v2_7 (c : Dev nD) : W7 m ρ c (Proc.devRef .tc main_v2) = (domT m c).UV :=
  (keepH3 (W6 m ρ c) main_v2 (by decide)).trans (at_main_v2_6 m ρ c)

theorem at_main_v2_8 (c : Dev nD) : W8 m ρ c (Proc.devRef .tc main_v2) = (domT m c).UV :=
  (W8_of_ne m ρ c main_v2 (by decide)).trans (at_main_v2_7 m ρ c)

theorem at_main_v2_9 (c : Dev nD) : W9 m ρ c (Proc.devRef .tc main_v2) = (domT m c).UV :=
  (keepH4 (W8 m ρ c) main_v2 (by decide)).trans (at_main_v2_8 m ρ c)

theorem at_main_v2_10 (c : Dev nD) : W10 m ρ c (Proc.devRef .tc main_v2) = (domT m c).UV :=
  (W10_of_ne m ρ c main_v2 (by decide)).trans (at_main_v2_9 m ρ c)

theorem at_main_v2_11 (c : Dev nD) : W11 m ρ c (Proc.devRef .tc main_v2) = (domT m c).UV :=
  (keepH5 (W10 m ρ c) main_v2 (by decide)).trans (at_main_v2_10 m ρ c)

theorem at_main_v2_12 (c : Dev nD) : W12 m ρ c (Proc.devRef .tc main_v2) = (domT m c).UV :=
  (W12_of_ne m ρ c main_v2 (by decide)).trans (at_main_v2_11 m ρ c)

theorem at_main_arg3_0 (c : Dev nD) : W0 m ρ c (Proc.devRef .tc main_arg3) = (domT m c).VU := rfl

theorem at_main_v3_1 (c : Dev nD) : W1 m ρ c (Proc.devRef .tc main_v3) = (domT m c).VU := by
  show StableHlo.after hostOps0 (W0 m ρ c) (Proc.devRef .tc main_v3) = _
  after_results
  rw [at_main_arg3_0 m ρ c]
  rfl

theorem at_main_v3_2 (c : Dev nD) : W2 m ρ c (Proc.devRef .tc main_v3) = (domT m c).VU :=
  (W2_of_ne m ρ c main_v3 (by decide)).trans (at_main_v3_1 m ρ c)

theorem at_main_v3_3 (c : Dev nD) : W3 m ρ c (Proc.devRef .tc main_v3) = (domT m c).VU :=
  (keepH1 (W2 m ρ c) main_v3 (by decide)).trans (at_main_v3_2 m ρ c)

theorem at_main_v3_4 (c : Dev nD) : W4 m ρ c (Proc.devRef .tc main_v3) = (domT m c).VU :=
  (W4_of_ne m ρ c main_v3 (by decide)).trans (at_main_v3_3 m ρ c)

theorem at_main_v3_5 (c : Dev nD) : W5 m ρ c (Proc.devRef .tc main_v3) = (domT m c).VU :=
  (keepH2 (W4 m ρ c) main_v3 (by decide)).trans (at_main_v3_4 m ρ c)

theorem at_main_v3_6 (c : Dev nD) : W6 m ρ c (Proc.devRef .tc main_v3) = (domT m c).VU :=
  (W6_of_ne m ρ c main_v3 (by decide)).trans (at_main_v3_5 m ρ c)

theorem at_main_v3_7 (c : Dev nD) : W7 m ρ c (Proc.devRef .tc main_v3) = (domT m c).VU :=
  (keepH3 (W6 m ρ c) main_v3 (by decide)).trans (at_main_v3_6 m ρ c)

theorem at_main_v3_8 (c : Dev nD) : W8 m ρ c (Proc.devRef .tc main_v3) = (domT m c).VU :=
  (W8_of_ne m ρ c main_v3 (by decide)).trans (at_main_v3_7 m ρ c)

theorem at_main_v3_9 (c : Dev nD) : W9 m ρ c (Proc.devRef .tc main_v3) = (domT m c).VU :=
  (keepH4 (W8 m ρ c) main_v3 (by decide)).trans (at_main_v3_8 m ρ c)

theorem at_main_v3_10 (c : Dev nD) : W10 m ρ c (Proc.devRef .tc main_v3) = (domT m c).VU :=
  (W10_of_ne m ρ c main_v3 (by decide)).trans (at_main_v3_9 m ρ c)

theorem at_main_v3_11 (c : Dev nD) : W11 m ρ c (Proc.devRef .tc main_v3) = (domT m c).VU :=
  (keepH5 (W10 m ρ c) main_v3 (by decide)).trans (at_main_v3_10 m ρ c)

theorem at_main_v3_12 (c : Dev nD) : W12 m ρ c (Proc.devRef .tc main_v3) = (domT m c).VU :=
  (W12_of_ne m ρ c main_v3 (by decide)).trans (at_main_v3_11 m ρ c)

theorem at_main_arg6_0 (c : Dev nD) : W0 m ρ c (Proc.devRef .tc main_arg6) = (domT m c).xu := rfl

theorem at_main_arg6_1 (c : Dev nD) : W1 m ρ c (Proc.devRef .tc main_arg6) = (domT m c).xu :=
  (keepH0 (W0 m ρ c) main_arg6 (by decide)).trans (at_main_arg6_0 m ρ c)

theorem at_main_arg6_2 (c : Dev nD) : W2 m ρ c (Proc.devRef .tc main_arg6) = (domT m c).xu :=
  (W2_of_ne m ρ c main_arg6 (by decide)).trans (at_main_arg6_1 m ρ c)

theorem at_main_arg6_3 (c : Dev nD) : W3 m ρ c (Proc.devRef .tc main_arg6) = (domT m c).xu :=
  (keepH1 (W2 m ρ c) main_arg6 (by decide)).trans (at_main_arg6_2 m ρ c)

theorem at_main_arg6_4 (c : Dev nD) : W4 m ρ c (Proc.devRef .tc main_arg6) = (domT m c).xu :=
  (W4_of_ne m ρ c main_arg6 (by decide)).trans (at_main_arg6_3 m ρ c)

theorem at_main_arg6_5 (c : Dev nD) : W5 m ρ c (Proc.devRef .tc main_arg6) = (domT m c).xu :=
  (keepH2 (W4 m ρ c) main_arg6 (by decide)).trans (at_main_arg6_4 m ρ c)

theorem at_main_arg6_6 (c : Dev nD) : W6 m ρ c (Proc.devRef .tc main_arg6) = (domT m c).xu :=
  (W6_of_ne m ρ c main_arg6 (by decide)).trans (at_main_arg6_5 m ρ c)

theorem at_main_arg6_7 (c : Dev nD) : W7 m ρ c (Proc.devRef .tc main_arg6) = (domT m c).xu :=
  (keepH3 (W6 m ρ c) main_arg6 (by decide)).trans (at_main_arg6_6 m ρ c)

theorem at_main_arg6_8 (c : Dev nD) : W8 m ρ c (Proc.devRef .tc main_arg6) = (domT m c).xu :=
  (W8_of_ne m ρ c main_arg6 (by decide)).trans (at_main_arg6_7 m ρ c)

theorem at_main_arg6_9 (c : Dev nD) : W9 m ρ c (Proc.devRef .tc main_arg6) = (domT m c).xu :=
  (keepH4 (W8 m ρ c) main_arg6 (by decide)).trans (at_main_arg6_8 m ρ c)

theorem at_main_arg6_10 (c : Dev nD) : W10 m ρ c (Proc.devRef .tc main_arg6) = (domT m c).xu :=
  (W10_of_ne m ρ c main_arg6 (by decide)).trans (at_main_arg6_9 m ρ c)

theorem at_main_arg6_11 (c : Dev nD) : W11 m ρ c (Proc.devRef .tc main_arg6) = (domT m c).xu :=
  (keepH5 (W10 m ρ c) main_arg6 (by decide)).trans (at_main_arg6_10 m ρ c)

theorem at_main_arg6_12 (c : Dev nD) : W12 m ρ c (Proc.devRef .tc main_arg6) = (domT m c).xu :=
  (W12_of_ne m ρ c main_arg6 (by decide)).trans (at_main_arg6_11 m ρ c)

theorem at_main_arg16_0 (c : Dev nD) : W0 m ρ c (Proc.devRef .tc main_arg16) = (domT m c).dW := rfl

theorem at_main_arg16_1 (c : Dev nD) : W1 m ρ c (Proc.devRef .tc main_arg16) = (domT m c).dW :=
  (keepH0 (W0 m ρ c) main_arg16 (by decide)).trans (at_main_arg16_0 m ρ c)

theorem at_main_arg16_2 (c : Dev nD) : W2 m ρ c (Proc.devRef .tc main_arg16) = (domT m c).dW :=
  (W2_of_ne m ρ c main_arg16 (by decide)).trans (at_main_arg16_1 m ρ c)

theorem at_main_arg16_3 (c : Dev nD) : W3 m ρ c (Proc.devRef .tc main_arg16) = (domT m c).dW :=
  (keepH1 (W2 m ρ c) main_arg16 (by decide)).trans (at_main_arg16_2 m ρ c)

theorem at_main_arg16_4 (c : Dev nD) : W4 m ρ c (Proc.devRef .tc main_arg16) = (domT m c).dW :=
  (W4_of_ne m ρ c main_arg16 (by decide)).trans (at_main_arg16_3 m ρ c)

theorem at_main_arg16_5 (c : Dev nD) : W5 m ρ c (Proc.devRef .tc main_arg16) = (domT m c).dW :=
  (keepH2 (W4 m ρ c) main_arg16 (by decide)).trans (at_main_arg16_4 m ρ c)

theorem at_main_arg16_6 (c : Dev nD) : W6 m ρ c (Proc.devRef .tc main_arg16) = (domT m c).dW :=
  (W6_of_ne m ρ c main_arg16 (by decide)).trans (at_main_arg16_5 m ρ c)

theorem at_main_arg16_7 (c : Dev nD) : W7 m ρ c (Proc.devRef .tc main_arg16) = (domT m c).dW :=
  (keepH3 (W6 m ρ c) main_arg16 (by decide)).trans (at_main_arg16_6 m ρ c)

theorem at_main_arg16_8 (c : Dev nD) : W8 m ρ c (Proc.devRef .tc main_arg16) = (domT m c).dW :=
  (W8_of_ne m ρ c main_arg16 (by decide)).trans (at_main_arg16_7 m ρ c)

theorem at_main_arg16_9 (c : Dev nD) : W9 m ρ c (Proc.devRef .tc main_arg16) = (domT m c).dW :=
  (keepH4 (W8 m ρ c) main_arg16 (by decide)).trans (at_main_arg16_8 m ρ c)

theorem at_main_arg16_10 (c : Dev nD) : W10 m ρ c (Proc.devRef .tc main_arg16) = (domT m c).dW :=
  (W10_of_ne m ρ c main_arg16 (by decide)).trans (at_main_arg16_9 m ρ c)

theorem at_main_arg16_11 (c : Dev nD) : W11 m ρ c (Proc.devRef .tc main_arg16) = (domT m c).dW :=
  (keepH5 (W10 m ρ c) main_arg16 (by decide)).trans (at_main_arg16_10 m ρ c)

theorem at_main_arg16_12 (c : Dev nD) : W12 m ρ c (Proc.devRef .tc main_arg16) = (domT m c).dW :=
  (W12_of_ne m ρ c main_arg16 (by decide)).trans (at_main_arg16_11 m ρ c)

theorem at_main_arg17_0 (c : Dev nD) : W0 m ρ c (Proc.devRef .tc main_arg17) = (domT m c).db := rfl

theorem at_main_arg17_1 (c : Dev nD) : W1 m ρ c (Proc.devRef .tc main_arg17) = (domT m c).db :=
  (keepH0 (W0 m ρ c) main_arg17 (by decide)).trans (at_main_arg17_0 m ρ c)

theorem at_main_arg17_2 (c : Dev nD) : W2 m ρ c (Proc.devRef .tc main_arg17) = (domT m c).db :=
  (W2_of_ne m ρ c main_arg17 (by decide)).trans (at_main_arg17_1 m ρ c)

theorem at_main_arg17_3 (c : Dev nD) : W3 m ρ c (Proc.devRef .tc main_arg17) = (domT m c).db :=
  (keepH1 (W2 m ρ c) main_arg17 (by decide)).trans (at_main_arg17_2 m ρ c)

theorem at_main_arg17_4 (c : Dev nD) : W4 m ρ c (Proc.devRef .tc main_arg17) = (domT m c).db :=
  (W4_of_ne m ρ c main_arg17 (by decide)).trans (at_main_arg17_3 m ρ c)

theorem at_main_arg17_5 (c : Dev nD) : W5 m ρ c (Proc.devRef .tc main_arg17) = (domT m c).db :=
  (keepH2 (W4 m ρ c) main_arg17 (by decide)).trans (at_main_arg17_4 m ρ c)

theorem at_main_arg17_6 (c : Dev nD) : W6 m ρ c (Proc.devRef .tc main_arg17) = (domT m c).db :=
  (W6_of_ne m ρ c main_arg17 (by decide)).trans (at_main_arg17_5 m ρ c)

theorem at_main_arg17_7 (c : Dev nD) : W7 m ρ c (Proc.devRef .tc main_arg17) = (domT m c).db :=
  (keepH3 (W6 m ρ c) main_arg17 (by decide)).trans (at_main_arg17_6 m ρ c)

theorem at_main_arg17_8 (c : Dev nD) : W8 m ρ c (Proc.devRef .tc main_arg17) = (domT m c).db :=
  (W8_of_ne m ρ c main_arg17 (by decide)).trans (at_main_arg17_7 m ρ c)

theorem at_main_arg17_9 (c : Dev nD) : W9 m ρ c (Proc.devRef .tc main_arg17) = (domT m c).db :=
  (keepH4 (W8 m ρ c) main_arg17 (by decide)).trans (at_main_arg17_8 m ρ c)

theorem at_main_arg17_10 (c : Dev nD) : W10 m ρ c (Proc.devRef .tc main_arg17) = (domT m c).db :=
  (W10_of_ne m ρ c main_arg17 (by decide)).trans (at_main_arg17_9 m ρ c)

theorem at_main_arg17_11 (c : Dev nD) : W11 m ρ c (Proc.devRef .tc main_arg17) = (domT m c).db :=
  (keepH5 (W10 m ρ c) main_arg17 (by decide)).trans (at_main_arg17_10 m ρ c)

theorem at_main_arg17_12 (c : Dev nD) : W12 m ρ c (Proc.devRef .tc main_arg17) = (domT m c).db :=
  (W12_of_ne m ρ c main_arg17 (by decide)).trans (at_main_arg17_11 m ρ c)

theorem at_main_arg18_0 (c : Dev nD) : W0 m ρ c (Proc.devRef .tc main_arg18) = (domT m c).uW := rfl

theorem at_main_arg18_1 (c : Dev nD) : W1 m ρ c (Proc.devRef .tc main_arg18) = (domT m c).uW :=
  (keepH0 (W0 m ρ c) main_arg18 (by decide)).trans (at_main_arg18_0 m ρ c)

theorem at_main_arg18_2 (c : Dev nD) : W2 m ρ c (Proc.devRef .tc main_arg18) = (domT m c).uW :=
  (W2_of_ne m ρ c main_arg18 (by decide)).trans (at_main_arg18_1 m ρ c)

theorem at_main_arg18_3 (c : Dev nD) : W3 m ρ c (Proc.devRef .tc main_arg18) = (domT m c).uW :=
  (keepH1 (W2 m ρ c) main_arg18 (by decide)).trans (at_main_arg18_2 m ρ c)

theorem at_main_arg18_4 (c : Dev nD) : W4 m ρ c (Proc.devRef .tc main_arg18) = (domT m c).uW :=
  (W4_of_ne m ρ c main_arg18 (by decide)).trans (at_main_arg18_3 m ρ c)

theorem at_main_arg18_5 (c : Dev nD) : W5 m ρ c (Proc.devRef .tc main_arg18) = (domT m c).uW :=
  (keepH2 (W4 m ρ c) main_arg18 (by decide)).trans (at_main_arg18_4 m ρ c)

theorem at_main_arg18_6 (c : Dev nD) : W6 m ρ c (Proc.devRef .tc main_arg18) = (domT m c).uW :=
  (W6_of_ne m ρ c main_arg18 (by decide)).trans (at_main_arg18_5 m ρ c)

theorem at_main_arg18_7 (c : Dev nD) : W7 m ρ c (Proc.devRef .tc main_arg18) = (domT m c).uW :=
  (keepH3 (W6 m ρ c) main_arg18 (by decide)).trans (at_main_arg18_6 m ρ c)

theorem at_main_arg18_8 (c : Dev nD) : W8 m ρ c (Proc.devRef .tc main_arg18) = (domT m c).uW :=
  (W8_of_ne m ρ c main_arg18 (by decide)).trans (at_main_arg18_7 m ρ c)

theorem at_main_arg18_9 (c : Dev nD) : W9 m ρ c (Proc.devRef .tc main_arg18) = (domT m c).uW :=
  (keepH4 (W8 m ρ c) main_arg18 (by decide)).trans (at_main_arg18_8 m ρ c)

theorem at_main_arg18_10 (c : Dev nD) : W10 m ρ c (Proc.devRef .tc main_arg18) = (domT m c).uW :=
  (W10_of_ne m ρ c main_arg18 (by decide)).trans (at_main_arg18_9 m ρ c)

theorem at_main_arg18_11 (c : Dev nD) : W11 m ρ c (Proc.devRef .tc main_arg18) = (domT m c).uW :=
  (keepH5 (W10 m ρ c) main_arg18 (by decide)).trans (at_main_arg18_10 m ρ c)

theorem at_main_arg18_12 (c : Dev nD) : W12 m ρ c (Proc.devRef .tc main_arg18) = (domT m c).uW :=
  (W12_of_ne m ρ c main_arg18 (by decide)).trans (at_main_arg18_11 m ρ c)

theorem at_main_arg19_0 (c : Dev nD) : W0 m ρ c (Proc.devRef .tc main_arg19) = (domT m c).ub := rfl

theorem at_main_arg19_1 (c : Dev nD) : W1 m ρ c (Proc.devRef .tc main_arg19) = (domT m c).ub :=
  (keepH0 (W0 m ρ c) main_arg19 (by decide)).trans (at_main_arg19_0 m ρ c)

theorem at_main_arg19_2 (c : Dev nD) : W2 m ρ c (Proc.devRef .tc main_arg19) = (domT m c).ub :=
  (W2_of_ne m ρ c main_arg19 (by decide)).trans (at_main_arg19_1 m ρ c)

theorem at_main_arg19_3 (c : Dev nD) : W3 m ρ c (Proc.devRef .tc main_arg19) = (domT m c).ub :=
  (keepH1 (W2 m ρ c) main_arg19 (by decide)).trans (at_main_arg19_2 m ρ c)

theorem at_main_arg19_4 (c : Dev nD) : W4 m ρ c (Proc.devRef .tc main_arg19) = (domT m c).ub :=
  (W4_of_ne m ρ c main_arg19 (by decide)).trans (at_main_arg19_3 m ρ c)

theorem at_main_arg19_5 (c : Dev nD) : W5 m ρ c (Proc.devRef .tc main_arg19) = (domT m c).ub :=
  (keepH2 (W4 m ρ c) main_arg19 (by decide)).trans (at_main_arg19_4 m ρ c)

theorem at_main_arg19_6 (c : Dev nD) : W6 m ρ c (Proc.devRef .tc main_arg19) = (domT m c).ub :=
  (W6_of_ne m ρ c main_arg19 (by decide)).trans (at_main_arg19_5 m ρ c)

theorem at_main_arg19_7 (c : Dev nD) : W7 m ρ c (Proc.devRef .tc main_arg19) = (domT m c).ub :=
  (keepH3 (W6 m ρ c) main_arg19 (by decide)).trans (at_main_arg19_6 m ρ c)

theorem at_main_arg19_8 (c : Dev nD) : W8 m ρ c (Proc.devRef .tc main_arg19) = (domT m c).ub :=
  (W8_of_ne m ρ c main_arg19 (by decide)).trans (at_main_arg19_7 m ρ c)

theorem at_main_arg19_9 (c : Dev nD) : W9 m ρ c (Proc.devRef .tc main_arg19) = (domT m c).ub :=
  (keepH4 (W8 m ρ c) main_arg19 (by decide)).trans (at_main_arg19_8 m ρ c)

theorem at_main_arg19_10 (c : Dev nD) : W10 m ρ c (Proc.devRef .tc main_arg19) = (domT m c).ub :=
  (W10_of_ne m ρ c main_arg19 (by decide)).trans (at_main_arg19_9 m ρ c)

theorem at_main_arg19_11 (c : Dev nD) : W11 m ρ c (Proc.devRef .tc main_arg19) = (domT m c).ub :=
  (keepH5 (W10 m ρ c) main_arg19 (by decide)).trans (at_main_arg19_10 m ρ c)

theorem at_main_arg19_12 (c : Dev nD) : W12 m ρ c (Proc.devRef .tc main_arg19) = (domT m c).ub :=
  (W12_of_ne m ρ c main_arg19 (by decide)).trans (at_main_arg19_11 m ρ c)

theorem at_main_arg20_0 (c : Dev nD) : W0 m ρ c (Proc.devRef .tc main_arg20) = (domT m c).lW := rfl

theorem at_main_arg20_1 (c : Dev nD) : W1 m ρ c (Proc.devRef .tc main_arg20) = (domT m c).lW :=
  (keepH0 (W0 m ρ c) main_arg20 (by decide)).trans (at_main_arg20_0 m ρ c)

theorem at_main_arg20_2 (c : Dev nD) : W2 m ρ c (Proc.devRef .tc main_arg20) = (domT m c).lW :=
  (W2_of_ne m ρ c main_arg20 (by decide)).trans (at_main_arg20_1 m ρ c)

theorem at_main_arg20_3 (c : Dev nD) : W3 m ρ c (Proc.devRef .tc main_arg20) = (domT m c).lW :=
  (keepH1 (W2 m ρ c) main_arg20 (by decide)).trans (at_main_arg20_2 m ρ c)

theorem at_main_arg20_4 (c : Dev nD) : W4 m ρ c (Proc.devRef .tc main_arg20) = (domT m c).lW :=
  (W4_of_ne m ρ c main_arg20 (by decide)).trans (at_main_arg20_3 m ρ c)

theorem at_main_arg20_5 (c : Dev nD) : W5 m ρ c (Proc.devRef .tc main_arg20) = (domT m c).lW :=
  (keepH2 (W4 m ρ c) main_arg20 (by decide)).trans (at_main_arg20_4 m ρ c)

theorem at_main_arg20_6 (c : Dev nD) : W6 m ρ c (Proc.devRef .tc main_arg20) = (domT m c).lW :=
  (W6_of_ne m ρ c main_arg20 (by decide)).trans (at_main_arg20_5 m ρ c)

theorem at_main_arg20_7 (c : Dev nD) : W7 m ρ c (Proc.devRef .tc main_arg20) = (domT m c).lW :=
  (keepH3 (W6 m ρ c) main_arg20 (by decide)).trans (at_main_arg20_6 m ρ c)

theorem at_main_arg20_8 (c : Dev nD) : W8 m ρ c (Proc.devRef .tc main_arg20) = (domT m c).lW :=
  (W8_of_ne m ρ c main_arg20 (by decide)).trans (at_main_arg20_7 m ρ c)

theorem at_main_arg20_9 (c : Dev nD) : W9 m ρ c (Proc.devRef .tc main_arg20) = (domT m c).lW :=
  (keepH4 (W8 m ρ c) main_arg20 (by decide)).trans (at_main_arg20_8 m ρ c)

theorem at_main_arg20_10 (c : Dev nD) : W10 m ρ c (Proc.devRef .tc main_arg20) = (domT m c).lW :=
  (W10_of_ne m ρ c main_arg20 (by decide)).trans (at_main_arg20_9 m ρ c)

theorem at_main_arg20_11 (c : Dev nD) : W11 m ρ c (Proc.devRef .tc main_arg20) = (domT m c).lW :=
  (keepH5 (W10 m ρ c) main_arg20 (by decide)).trans (at_main_arg20_10 m ρ c)

theorem at_main_arg20_12 (c : Dev nD) : W12 m ρ c (Proc.devRef .tc main_arg20) = (domT m c).lW :=
  (W12_of_ne m ρ c main_arg20 (by decide)).trans (at_main_arg20_11 m ρ c)

theorem at_main_arg21_0 (c : Dev nD) : W0 m ρ c (Proc.devRef .tc main_arg21) = (domT m c).lb := rfl

theorem at_main_arg21_1 (c : Dev nD) : W1 m ρ c (Proc.devRef .tc main_arg21) = (domT m c).lb :=
  (keepH0 (W0 m ρ c) main_arg21 (by decide)).trans (at_main_arg21_0 m ρ c)

theorem at_main_arg21_2 (c : Dev nD) : W2 m ρ c (Proc.devRef .tc main_arg21) = (domT m c).lb :=
  (W2_of_ne m ρ c main_arg21 (by decide)).trans (at_main_arg21_1 m ρ c)

theorem at_main_arg21_3 (c : Dev nD) : W3 m ρ c (Proc.devRef .tc main_arg21) = (domT m c).lb :=
  (keepH1 (W2 m ρ c) main_arg21 (by decide)).trans (at_main_arg21_2 m ρ c)

theorem at_main_arg21_4 (c : Dev nD) : W4 m ρ c (Proc.devRef .tc main_arg21) = (domT m c).lb :=
  (W4_of_ne m ρ c main_arg21 (by decide)).trans (at_main_arg21_3 m ρ c)

theorem at_main_arg21_5 (c : Dev nD) : W5 m ρ c (Proc.devRef .tc main_arg21) = (domT m c).lb :=
  (keepH2 (W4 m ρ c) main_arg21 (by decide)).trans (at_main_arg21_4 m ρ c)

theorem at_main_arg21_6 (c : Dev nD) : W6 m ρ c (Proc.devRef .tc main_arg21) = (domT m c).lb :=
  (W6_of_ne m ρ c main_arg21 (by decide)).trans (at_main_arg21_5 m ρ c)

theorem at_main_arg21_7 (c : Dev nD) : W7 m ρ c (Proc.devRef .tc main_arg21) = (domT m c).lb :=
  (keepH3 (W6 m ρ c) main_arg21 (by decide)).trans (at_main_arg21_6 m ρ c)

theorem at_main_arg21_8 (c : Dev nD) : W8 m ρ c (Proc.devRef .tc main_arg21) = (domT m c).lb :=
  (W8_of_ne m ρ c main_arg21 (by decide)).trans (at_main_arg21_7 m ρ c)

theorem at_main_arg21_9 (c : Dev nD) : W9 m ρ c (Proc.devRef .tc main_arg21) = (domT m c).lb :=
  (keepH4 (W8 m ρ c) main_arg21 (by decide)).trans (at_main_arg21_8 m ρ c)

theorem at_main_arg21_10 (c : Dev nD) : W10 m ρ c (Proc.devRef .tc main_arg21) = (domT m c).lb :=
  (W10_of_ne m ρ c main_arg21 (by decide)).trans (at_main_arg21_9 m ρ c)

theorem at_main_arg21_11 (c : Dev nD) : W11 m ρ c (Proc.devRef .tc main_arg21) = (domT m c).lb :=
  (keepH5 (W10 m ρ c) main_arg21 (by decide)).trans (at_main_arg21_10 m ρ c)

theorem at_main_arg21_12 (c : Dev nD) : W12 m ρ c (Proc.devRef .tc main_arg21) = (domT m c).lb :=
  (W12_of_ne m ρ c main_arg21 (by decide)).trans (at_main_arg21_11 m ρ c)

theorem at_main_arg22_0 (c : Dev nD) : W0 m ρ c (Proc.devRef .tc main_arg22) = (domT m c).luW := rfl

theorem at_main_arg22_1 (c : Dev nD) : W1 m ρ c (Proc.devRef .tc main_arg22) = (domT m c).luW :=
  (keepH0 (W0 m ρ c) main_arg22 (by decide)).trans (at_main_arg22_0 m ρ c)

theorem at_main_arg22_2 (c : Dev nD) : W2 m ρ c (Proc.devRef .tc main_arg22) = (domT m c).luW :=
  (W2_of_ne m ρ c main_arg22 (by decide)).trans (at_main_arg22_1 m ρ c)

theorem at_main_arg22_3 (c : Dev nD) : W3 m ρ c (Proc.devRef .tc main_arg22) = (domT m c).luW :=
  (keepH1 (W2 m ρ c) main_arg22 (by decide)).trans (at_main_arg22_2 m ρ c)

theorem at_main_arg22_4 (c : Dev nD) : W4 m ρ c (Proc.devRef .tc main_arg22) = (domT m c).luW :=
  (W4_of_ne m ρ c main_arg22 (by decide)).trans (at_main_arg22_3 m ρ c)

theorem at_main_arg22_5 (c : Dev nD) : W5 m ρ c (Proc.devRef .tc main_arg22) = (domT m c).luW :=
  (keepH2 (W4 m ρ c) main_arg22 (by decide)).trans (at_main_arg22_4 m ρ c)

theorem at_main_arg22_6 (c : Dev nD) : W6 m ρ c (Proc.devRef .tc main_arg22) = (domT m c).luW :=
  (W6_of_ne m ρ c main_arg22 (by decide)).trans (at_main_arg22_5 m ρ c)

theorem at_main_arg22_7 (c : Dev nD) : W7 m ρ c (Proc.devRef .tc main_arg22) = (domT m c).luW :=
  (keepH3 (W6 m ρ c) main_arg22 (by decide)).trans (at_main_arg22_6 m ρ c)

theorem at_main_arg22_8 (c : Dev nD) : W8 m ρ c (Proc.devRef .tc main_arg22) = (domT m c).luW :=
  (W8_of_ne m ρ c main_arg22 (by decide)).trans (at_main_arg22_7 m ρ c)

theorem at_main_arg22_9 (c : Dev nD) : W9 m ρ c (Proc.devRef .tc main_arg22) = (domT m c).luW :=
  (keepH4 (W8 m ρ c) main_arg22 (by decide)).trans (at_main_arg22_8 m ρ c)

theorem at_main_arg22_10 (c : Dev nD) : W10 m ρ c (Proc.devRef .tc main_arg22) = (domT m c).luW :=
  (W10_of_ne m ρ c main_arg22 (by decide)).trans (at_main_arg22_9 m ρ c)

theorem at_main_arg22_11 (c : Dev nD) : W11 m ρ c (Proc.devRef .tc main_arg22) = (domT m c).luW :=
  (keepH5 (W10 m ρ c) main_arg22 (by decide)).trans (at_main_arg22_10 m ρ c)

theorem at_main_arg22_12 (c : Dev nD) : W12 m ρ c (Proc.devRef .tc main_arg22) = (domT m c).luW :=
  (W12_of_ne m ρ c main_arg22 (by decide)).trans (at_main_arg22_11 m ρ c)

theorem at_main_arg23_0 (c : Dev nD) : W0 m ρ c (Proc.devRef .tc main_arg23) = (domT m c).lub := rfl

theorem at_main_arg23_1 (c : Dev nD) : W1 m ρ c (Proc.devRef .tc main_arg23) = (domT m c).lub :=
  (keepH0 (W0 m ρ c) main_arg23 (by decide)).trans (at_main_arg23_0 m ρ c)

theorem at_main_arg23_2 (c : Dev nD) : W2 m ρ c (Proc.devRef .tc main_arg23) = (domT m c).lub :=
  (W2_of_ne m ρ c main_arg23 (by decide)).trans (at_main_arg23_1 m ρ c)

theorem at_main_arg23_3 (c : Dev nD) : W3 m ρ c (Proc.devRef .tc main_arg23) = (domT m c).lub :=
  (keepH1 (W2 m ρ c) main_arg23 (by decide)).trans (at_main_arg23_2 m ρ c)

theorem at_main_arg23_4 (c : Dev nD) : W4 m ρ c (Proc.devRef .tc main_arg23) = (domT m c).lub :=
  (W4_of_ne m ρ c main_arg23 (by decide)).trans (at_main_arg23_3 m ρ c)

theorem at_main_arg23_5 (c : Dev nD) : W5 m ρ c (Proc.devRef .tc main_arg23) = (domT m c).lub :=
  (keepH2 (W4 m ρ c) main_arg23 (by decide)).trans (at_main_arg23_4 m ρ c)

theorem at_main_arg23_6 (c : Dev nD) : W6 m ρ c (Proc.devRef .tc main_arg23) = (domT m c).lub :=
  (W6_of_ne m ρ c main_arg23 (by decide)).trans (at_main_arg23_5 m ρ c)

theorem at_main_arg23_7 (c : Dev nD) : W7 m ρ c (Proc.devRef .tc main_arg23) = (domT m c).lub :=
  (keepH3 (W6 m ρ c) main_arg23 (by decide)).trans (at_main_arg23_6 m ρ c)

theorem at_main_arg23_8 (c : Dev nD) : W8 m ρ c (Proc.devRef .tc main_arg23) = (domT m c).lub :=
  (W8_of_ne m ρ c main_arg23 (by decide)).trans (at_main_arg23_7 m ρ c)

theorem at_main_arg23_9 (c : Dev nD) : W9 m ρ c (Proc.devRef .tc main_arg23) = (domT m c).lub :=
  (keepH4 (W8 m ρ c) main_arg23 (by decide)).trans (at_main_arg23_8 m ρ c)

theorem at_main_arg23_10 (c : Dev nD) : W10 m ρ c (Proc.devRef .tc main_arg23) = (domT m c).lub :=
  (W10_of_ne m ρ c main_arg23 (by decide)).trans (at_main_arg23_9 m ρ c)

theorem at_main_arg23_11 (c : Dev nD) : W11 m ρ c (Proc.devRef .tc main_arg23) = (domT m c).lub :=
  (keepH5 (W10 m ρ c) main_arg23 (by decide)).trans (at_main_arg23_10 m ρ c)

theorem at_main_arg23_12 (c : Dev nD) : W12 m ρ c (Proc.devRef .tc main_arg23) = (domT m c).lub :=
  (W12_of_ne m ρ c main_arg23 (by decide)).trans (at_main_arg23_11 m ρ c)

theorem at_main_arg0_0 (c : Dev nD) : W0 m ρ c (Proc.devRef .tc main_arg0) = (domS m c).UV := rfl

theorem at_main_v0_1 (c : Dev nD) : W1 m ρ c (Proc.devRef .tc main_v0) = (domS m c).UV := by
  show StableHlo.after hostOps0 (W0 m ρ c) (Proc.devRef .tc main_v0) = _
  after_results
  rw [at_main_arg0_0 m ρ c]
  rfl

theorem at_main_v0_2 (c : Dev nD) : W2 m ρ c (Proc.devRef .tc main_v0) = (domS m c).UV :=
  (W2_of_ne m ρ c main_v0 (by decide)).trans (at_main_v0_1 m ρ c)

theorem at_main_v0_3 (c : Dev nD) : W3 m ρ c (Proc.devRef .tc main_v0) = (domS m c).UV :=
  (keepH1 (W2 m ρ c) main_v0 (by decide)).trans (at_main_v0_2 m ρ c)

theorem at_main_v0_4 (c : Dev nD) : W4 m ρ c (Proc.devRef .tc main_v0) = (domS m c).UV :=
  (W4_of_ne m ρ c main_v0 (by decide)).trans (at_main_v0_3 m ρ c)

theorem at_main_v0_5 (c : Dev nD) : W5 m ρ c (Proc.devRef .tc main_v0) = (domS m c).UV :=
  (keepH2 (W4 m ρ c) main_v0 (by decide)).trans (at_main_v0_4 m ρ c)

theorem at_main_v0_6 (c : Dev nD) : W6 m ρ c (Proc.devRef .tc main_v0) = (domS m c).UV :=
  (W6_of_ne m ρ c main_v0 (by decide)).trans (at_main_v0_5 m ρ c)

theorem at_main_v0_7 (c : Dev nD) : W7 m ρ c (Proc.devRef .tc main_v0) = (domS m c).UV :=
  (keepH3 (W6 m ρ c) main_v0 (by decide)).trans (at_main_v0_6 m ρ c)

theorem at_main_v0_8 (c : Dev nD) : W8 m ρ c (Proc.devRef .tc main_v0) = (domS m c).UV :=
  ((W8_arr m ρ c 0).trans (((dat3 (V7 m ρ) c).arrAt_in 0 rfl cfg3.N).trans (A_eq3 (V7 m ρ) c 0))).trans (at_main_v0_7 m ρ c)

theorem at_main_v0_9 (c : Dev nD) : W9 m ρ c (Proc.devRef .tc main_v0) = (domS m c).UV :=
  (keepH4 (W8 m ρ c) main_v0 (by decide)).trans (at_main_v0_8 m ρ c)

theorem in_4_0 (c : Dev nD) : V9 m ρ c (Pipeline.arrRef spec4 0) = (domS m c).UV := at_main_v0_9 m ρ c

theorem at_main_arg1_0 (c : Dev nD) : W0 m ρ c (Proc.devRef .tc main_arg1) = (domS m c).VU := rfl

theorem at_main_v1_1 (c : Dev nD) : W1 m ρ c (Proc.devRef .tc main_v1) = (domS m c).VU := by
  show StableHlo.after hostOps0 (W0 m ρ c) (Proc.devRef .tc main_v1) = _
  after_results
  rw [at_main_arg1_0 m ρ c]
  rfl

theorem at_main_v1_2 (c : Dev nD) : W2 m ρ c (Proc.devRef .tc main_v1) = (domS m c).VU :=
  (W2_of_ne m ρ c main_v1 (by decide)).trans (at_main_v1_1 m ρ c)

theorem at_main_v1_3 (c : Dev nD) : W3 m ρ c (Proc.devRef .tc main_v1) = (domS m c).VU :=
  (keepH1 (W2 m ρ c) main_v1 (by decide)).trans (at_main_v1_2 m ρ c)

theorem at_main_v1_4 (c : Dev nD) : W4 m ρ c (Proc.devRef .tc main_v1) = (domS m c).VU :=
  (W4_of_ne m ρ c main_v1 (by decide)).trans (at_main_v1_3 m ρ c)

theorem at_main_v1_5 (c : Dev nD) : W5 m ρ c (Proc.devRef .tc main_v1) = (domS m c).VU :=
  (keepH2 (W4 m ρ c) main_v1 (by decide)).trans (at_main_v1_4 m ρ c)

theorem in_2_0 (c : Dev nD) : V5 m ρ c (Pipeline.arrRef spec2 0) = (domS m c).VU := at_main_v1_5 m ρ c

theorem at_main_arg4_0 (c : Dev nD) : W0 m ρ c (Proc.devRef .tc main_arg4) = (domS m c).xu := rfl

theorem at_main_v4_1 (c : Dev nD) : W1 m ρ c (Proc.devRef .tc main_v4) = (domS m c).xu := by
  show StableHlo.after hostOps0 (W0 m ρ c) (Proc.devRef .tc main_v4) = _
  after_results
  rw [at_main_arg4_0 m ρ c]
  rfl

theorem in_0_0 (c : Dev nD) : V1 m ρ c (Pipeline.arrRef spec0 0) = (domS m c).xu := at_main_v4_1 m ρ c

theorem at_main_arg8_0 (c : Dev nD) : W0 m ρ c (Proc.devRef .tc main_arg8) = (domS m c).dW := rfl

theorem at_main_v11_1 (c : Dev nD) : W1 m ρ c (Proc.devRef .tc main_v11) = slab (⟨0, by decide⟩ : Fin 4) (domS m c).dW := by
  show StableHlo.after hostOps0 (W0 m ρ c) (Proc.devRef .tc main_v11) = _
  after_results
  rw [at_main_arg8_0 m ρ c]
  exact slice_reshape_eq_slab 0 (by decide) _ _ _

theorem in_0_1 (c : Dev nD) : V1 m ρ c (Pipeline.arrRef spec0 1) = slab (⟨0, by decide⟩ : Fin 4) (domS m c).dW := at_main_v11_1 m ρ c

theorem at_main_v12_2 (c : Dev nD) : W2 m ρ c (Proc.devRef .tc main_v12) = (domS m c).y0 := by
  refine (W2_arr m ρ c 2).trans ?_
  rw [final0 (V1 m ρ) c]
  rw [in_0_0 m ρ c, in_0_1 m ρ c]
  rfl

theorem at_main_v12_3 (c : Dev nD) : W3 m ρ c (Proc.devRef .tc main_v12) = (domS m c).y0 :=
  (keepH1 (W2 m ρ c) main_v12 (by decide)).trans (at_main_v12_2 m ρ c)

theorem at_main_v12_4 (c : Dev nD) : W4 m ρ c (Proc.devRef .tc main_v12) = (domS m c).y0 :=
  (W4_of_ne m ρ c main_v12 (by decide)).trans (at_main_v12_3 m ρ c)

theorem at_main_v12_5 (c : Dev nD) : W5 m ρ c (Proc.devRef .tc main_v12) = (domS m c).y0 :=
  (keepH2 (W4 m ρ c) main_v12 (by decide)).trans (at_main_v12_4 m ρ c)

theorem in_2_1 (c : Dev nD) : V5 m ρ c (Pipeline.arrRef spec2 1) = (domS m c).y0 := at_main_v12_5 m ρ c

theorem at_main_arg9_0 (c : Dev nD) : W0 m ρ c (Proc.devRef .tc main_arg9) = (domS m c).db := rfl

theorem at_main_arg9_1 (c : Dev nD) : W1 m ρ c (Proc.devRef .tc main_arg9) = (domS m c).db :=
  (keepH0 (W0 m ρ c) main_arg9 (by decide)).trans (at_main_arg9_0 m ρ c)

theorem at_main_arg9_2 (c : Dev nD) : W2 m ρ c (Proc.devRef .tc main_arg9) = (domS m c).db :=
  (W2_of_ne m ρ c main_arg9 (by decide)).trans (at_main_arg9_1 m ρ c)

theorem at_main_arg9_3 (c : Dev nD) : W3 m ρ c (Proc.devRef .tc main_arg9) = (domS m c).db :=
  (keepH1 (W2 m ρ c) main_arg9 (by decide)).trans (at_main_arg9_2 m ρ c)

theorem at_main_arg9_4 (c : Dev nD) : W4 m ρ c (Proc.devRef .tc main_arg9) = (domS m c).db :=
  (W4_of_ne m ρ c main_arg9 (by decide)).trans (at_main_arg9_3 m ρ c)

theorem at_main_v20_5 (c : Dev nD) : W5 m ρ c (Proc.devRef .tc main_v20) = rowMat (⟨0, by decide⟩ : Fin 4) (domS m c).db := by
  show StableHlo.after hostOps2 (W4 m ρ c) (Proc.devRef .tc main_v20) = _
  after_results
  rw [at_main_arg9_4 m ρ c]
  exact slice_reshape_rowmat_eq 0 (by decide) _ _ _ _

theorem in_2_2 (c : Dev nD) : V5 m ρ c (Pipeline.arrRef spec2 2) = rowMat (⟨0, by decide⟩ : Fin 4) (domS m c).db := at_main_v20_5 m ρ c

theorem at_main_v6_1 (c : Dev nD) : W1 m ρ c (Proc.devRef .tc main_v6) = (domS m c).dW := by
  show StableHlo.after hostOps0 (W0 m ρ c) (Proc.devRef .tc main_v6) = _
  after_results
  rw [at_main_arg8_0 m ρ c]
  rfl

theorem at_main_v6_2 (c : Dev nD) : W2 m ρ c (Proc.devRef .tc main_v6) = (domS m c).dW :=
  (W2_of_ne m ρ c main_v6 (by decide)).trans (at_main_v6_1 m ρ c)

theorem at_main_v6_3 (c : Dev nD) : W3 m ρ c (Proc.devRef .tc main_v6) = (domS m c).dW :=
  (keepH1 (W2 m ρ c) main_v6 (by decide)).trans (at_main_v6_2 m ρ c)

theorem at_main_v6_4 (c : Dev nD) : W4 m ρ c (Proc.devRef .tc main_v6) = (domS m c).dW :=
  (W4_of_ne m ρ c main_v6 (by decide)).trans (at_main_v6_3 m ρ c)

theorem at_main_v19_5 (c : Dev nD) : W5 m ρ c (Proc.devRef .tc main_v19) = slab (⟨2, by decide⟩ : Fin 4) (domS m c).dW := by
  show StableHlo.after hostOps2 (W4 m ρ c) (Proc.devRef .tc main_v19) = _
  after_results
  rw [at_main_v6_4 m ρ c]
  exact slice_reshape_eq_slab 2 (by decide) _ _ _

theorem in_2_3 (c : Dev nD) : V5 m ρ c (Pipeline.arrRef spec2 3) = slab (⟨2, by decide⟩ : Fin 4) (domS m c).dW := at_main_v19_5 m ρ c

theorem at_main_v21_6 (c : Dev nD) : W6 m ρ c (Proc.devRef .tc main_v21) = (domS m c).p1 := by
  refine (W6_arr m ρ c 4).trans ?_
  rw [final2 (V5 m ρ) c]
  rw [in_2_0 m ρ c, in_2_1 m ρ c, in_2_2 m ρ c, in_2_3 m ρ c]
  rfl

theorem at_main_v21_7 (c : Dev nD) : W7 m ρ c (Proc.devRef .tc main_v21) = (domS m c).p1 :=
  (keepH3 (W6 m ρ c) main_v21 (by decide)).trans (at_main_v21_6 m ρ c)

theorem at_main_v21_8 (c : Dev nD) : W8 m ρ c (Proc.devRef .tc main_v21) = (domS m c).p1 :=
  (W8_of_ne m ρ c main_v21 (by decide)).trans (at_main_v21_7 m ρ c)

theorem at_main_v21_9 (c : Dev nD) : W9 m ρ c (Proc.devRef .tc main_v21) = (domS m c).p1 :=
  (keepH4 (W8 m ρ c) main_v21 (by decide)).trans (at_main_v21_8 m ρ c)

theorem in_4_1 (c : Dev nD) : V9 m ρ c (Pipeline.arrRef spec4 1) = (domS m c).p1 := at_main_v21_9 m ρ c

theorem at_main_arg9_5 (c : Dev nD) : W5 m ρ c (Proc.devRef .tc main_arg9) = (domS m c).db :=
  (keepH2 (W4 m ρ c) main_arg9 (by decide)).trans (at_main_arg9_4 m ρ c)

theorem at_main_arg9_6 (c : Dev nD) : W6 m ρ c (Proc.devRef .tc main_arg9) = (domS m c).db :=
  (W6_of_ne m ρ c main_arg9 (by decide)).trans (at_main_arg9_5 m ρ c)

theorem at_main_arg9_7 (c : Dev nD) : W7 m ρ c (Proc.devRef .tc main_arg9) = (domS m c).db :=
  (keepH3 (W6 m ρ c) main_arg9 (by decide)).trans (at_main_arg9_6 m ρ c)

theorem at_main_arg9_8 (c : Dev nD) : W8 m ρ c (Proc.devRef .tc main_arg9) = (domS m c).db :=
  (W8_of_ne m ρ c main_arg9 (by decide)).trans (at_main_arg9_7 m ρ c)

theorem at_main_v38_9 (c : Dev nD) : W9 m ρ c (Proc.devRef .tc main_v38) = rowMat (⟨2, by decide⟩ : Fin 4) (domS m c).db := by
  show StableHlo.after hostOps4 (W8 m ρ c) (Proc.devRef .tc main_v38) = _
  after_results
  rw [at_main_arg9_8 m ρ c]
  exact slice_reshape_rowmat_eq 2 (by decide) _ _ _ _

theorem in_4_2 (c : Dev nD) : V9 m ρ c (Pipeline.arrRef spec4 2) = rowMat (⟨2, by decide⟩ : Fin 4) (domS m c).db := at_main_v38_9 m ρ c

theorem at_main_arg10_0 (c : Dev nD) : W0 m ρ c (Proc.devRef .tc main_arg10) = (domS m c).uW := rfl

theorem at_main_v7_1 (c : Dev nD) : W1 m ρ c (Proc.devRef .tc main_v7) = (domS m c).uW := by
  show StableHlo.after hostOps0 (W0 m ρ c) (Proc.devRef .tc main_v7) = _
  after_results
  rw [at_main_arg10_0 m ρ c]
  rfl

theorem at_main_v7_2 (c : Dev nD) : W2 m ρ c (Proc.devRef .tc main_v7) = (domS m c).uW :=
  (W2_of_ne m ρ c main_v7 (by decide)).trans (at_main_v7_1 m ρ c)

theorem at_main_v7_3 (c : Dev nD) : W3 m ρ c (Proc.devRef .tc main_v7) = (domS m c).uW :=
  (keepH1 (W2 m ρ c) main_v7 (by decide)).trans (at_main_v7_2 m ρ c)

theorem at_main_v7_4 (c : Dev nD) : W4 m ρ c (Proc.devRef .tc main_v7) = (domS m c).uW :=
  (W4_of_ne m ρ c main_v7 (by decide)).trans (at_main_v7_3 m ρ c)

theorem at_main_v7_5 (c : Dev nD) : W5 m ρ c (Proc.devRef .tc main_v7) = (domS m c).uW :=
  (keepH2 (W4 m ρ c) main_v7 (by decide)).trans (at_main_v7_4 m ρ c)

theorem at_main_v7_6 (c : Dev nD) : W6 m ρ c (Proc.devRef .tc main_v7) = (domS m c).uW :=
  (W6_of_ne m ρ c main_v7 (by decide)).trans (at_main_v7_5 m ρ c)

theorem at_main_v7_7 (c : Dev nD) : W7 m ρ c (Proc.devRef .tc main_v7) = (domS m c).uW :=
  (keepH3 (W6 m ρ c) main_v7 (by decide)).trans (at_main_v7_6 m ρ c)

theorem at_main_v7_8 (c : Dev nD) : W8 m ρ c (Proc.devRef .tc main_v7) = (domS m c).uW :=
  (W8_of_ne m ρ c main_v7 (by decide)).trans (at_main_v7_7 m ρ c)

theorem at_main_v32_9 (c : Dev nD) : W9 m ρ c (Proc.devRef .tc main_v32) = top (slab (⟨0, by decide⟩ : Fin 2) (domS m c).uW) := by
  show StableHlo.after hostOps4 (W8 m ρ c) (Proc.devRef .tc main_v32) = _
  after_results
  rw [at_main_v7_8 m ρ c]
  exact slab_top_eq (a := 128) (b := 128) _ 0 (by decide) _ _ _

theorem in_4_3 (c : Dev nD) : V9 m ρ c (Pipeline.arrRef spec4 3) = top (slab (⟨0, by decide⟩ : Fin 2) (domS m c).uW) := at_main_v32_9 m ρ c

theorem at_main_v4_2 (c : Dev nD) : W2 m ρ c (Proc.devRef .tc main_v4) = (domS m c).xu :=
  ((W2_arr m ρ c 0).trans (((dat0 (V1 m ρ) c).arrAt_in 0 rfl cfg0.N).trans (A_eq0 (V1 m ρ) c 0))).trans (at_main_v4_1 m ρ c)

theorem at_main_v4_3 (c : Dev nD) : W3 m ρ c (Proc.devRef .tc main_v4) = (domS m c).xu :=
  (keepH1 (W2 m ρ c) main_v4 (by decide)).trans (at_main_v4_2 m ρ c)

theorem at_main_v4_4 (c : Dev nD) : W4 m ρ c (Proc.devRef .tc main_v4) = (domS m c).xu :=
  (W4_of_ne m ρ c main_v4 (by decide)).trans (at_main_v4_3 m ρ c)

theorem at_main_v4_5 (c : Dev nD) : W5 m ρ c (Proc.devRef .tc main_v4) = (domS m c).xu :=
  (keepH2 (W4 m ρ c) main_v4 (by decide)).trans (at_main_v4_4 m ρ c)

theorem at_main_v4_6 (c : Dev nD) : W6 m ρ c (Proc.devRef .tc main_v4) = (domS m c).xu :=
  (W6_of_ne m ρ c main_v4 (by decide)).trans (at_main_v4_5 m ρ c)

theorem at_main_v4_7 (c : Dev nD) : W7 m ρ c (Proc.devRef .tc main_v4) = (domS m c).xu :=
  (keepH3 (W6 m ρ c) main_v4 (by decide)).trans (at_main_v4_6 m ρ c)

theorem at_main_v4_8 (c : Dev nD) : W8 m ρ c (Proc.devRef .tc main_v4) = (domS m c).xu :=
  (W8_of_ne m ρ c main_v4 (by decide)).trans (at_main_v4_7 m ρ c)

theorem at_main_v4_9 (c : Dev nD) : W9 m ρ c (Proc.devRef .tc main_v4) = (domS m c).xu :=
  (keepH4 (W8 m ρ c) main_v4 (by decide)).trans (at_main_v4_8 m ρ c)

theorem in_4_4 (c : Dev nD) : V9 m ρ c (Pipeline.arrRef spec4 4) = (domS m c).xu := at_main_v4_9 m ρ c

theorem at_main_v35_9 (c : Dev nD) : W9 m ρ c (Proc.devRef .tc main_v35) = bot (slab (⟨0, by decide⟩ : Fin 2) (domS m c).uW) := by
  show StableHlo.after hostOps4 (W8 m ρ c) (Proc.devRef .tc main_v35) = _
  after_results
  rw [at_main_v7_8 m ρ c]
  exact slab_bot_eq (a := 128) (b := 128) _ 0 (by decide) _ _ _

theorem in_4_5 (c : Dev nD) : V9 m ρ c (Pipeline.arrRef spec4 5) = bot (slab (⟨0, by decide⟩ : Fin 2) (domS m c).uW) := at_main_v35_9 m ρ c

theorem at_main_arg11_0 (c : Dev nD) : W0 m ρ c (Proc.devRef .tc main_arg11) = (domS m c).ub := rfl

theorem at_main_arg11_1 (c : Dev nD) : W1 m ρ c (Proc.devRef .tc main_arg11) = (domS m c).ub :=
  (keepH0 (W0 m ρ c) main_arg11 (by decide)).trans (at_main_arg11_0 m ρ c)

theorem at_main_arg11_2 (c : Dev nD) : W2 m ρ c (Proc.devRef .tc main_arg11) = (domS m c).ub :=
  (W2_of_ne m ρ c main_arg11 (by decide)).trans (at_main_arg11_1 m ρ c)

theorem at_main_arg11_3 (c : Dev nD) : W3 m ρ c (Proc.devRef .tc main_arg11) = (domS m c).ub :=
  (keepH1 (W2 m ρ c) main_arg11 (by decide)).trans (at_main_arg11_2 m ρ c)

theorem at_main_arg11_4 (c : Dev nD) : W4 m ρ c (Proc.devRef .tc main_arg11) = (domS m c).ub :=
  (W4_of_ne m ρ c main_arg11 (by decide)).trans (at_main_arg11_3 m ρ c)

theorem at_main_arg11_5 (c : Dev nD) : W5 m ρ c (Proc.devRef .tc main_arg11) = (domS m c).ub :=
  (keepH2 (W4 m ρ c) main_arg11 (by decide)).trans (at_main_arg11_4 m ρ c)

theorem at_main_arg11_6 (c : Dev nD) : W6 m ρ c (Proc.devRef .tc main_arg11) = (domS m c).ub :=
  (W6_of_ne m ρ c main_arg11 (by decide)).trans (at_main_arg11_5 m ρ c)

theorem at_main_arg11_7 (c : Dev nD) : W7 m ρ c (Proc.devRef .tc main_arg11) = (domS m c).ub :=
  (keepH3 (W6 m ρ c) main_arg11 (by decide)).trans (at_main_arg11_6 m ρ c)

theorem at_main_arg11_8 (c : Dev nD) : W8 m ρ c (Proc.devRef .tc main_arg11) = (domS m c).ub :=
  (W8_of_ne m ρ c main_arg11 (by decide)).trans (at_main_arg11_7 m ρ c)

theorem at_main_v39_9 (c : Dev nD) : W9 m ρ c (Proc.devRef .tc main_v39) = rowMat (⟨0, by decide⟩ : Fin 2) (domS m c).ub := by
  show StableHlo.after hostOps4 (W8 m ρ c) (Proc.devRef .tc main_v39) = _
  after_results
  rw [at_main_arg11_8 m ρ c]
  exact slice_reshape_rowmat_eq 0 (by decide) _ _ _ _

theorem in_4_6 (c : Dev nD) : V9 m ρ c (Pipeline.arrRef spec4 6) = rowMat (⟨0, by decide⟩ : Fin 2) (domS m c).ub := at_main_v39_9 m ρ c

theorem at_main_v40_10 (c : Dev nD) : W10 m ρ c (Proc.devRef .tc main_v40) = (domS m c).u1 := by
  refine (W10_arr m ρ c 7).trans ?_
  rw [final4 (V9 m ρ) c]
  rw [in_4_0 m ρ c, in_4_1 m ρ c, in_4_2 m ρ c, in_4_3 m ρ c, in_4_4 m ρ c, in_4_5 m ρ c, in_4_6 m ρ c]
  rfl

theorem at_main_v40_11 (c : Dev nD) : W11 m ρ c (Proc.devRef .tc main_v40) = (domS m c).u1 :=
  (keepH5 (W10 m ρ c) main_v40 (by decide)).trans (at_main_v40_10 m ρ c)

theorem at_main_v40_12 (c : Dev nD) : W12 m ρ c (Proc.devRef .tc main_v40) = (domS m c).u1 :=
  (W12_of_ne m ρ c main_v40 (by decide)).trans (at_main_v40_11 m ρ c)

theorem at_main_v0_10 (c : Dev nD) : W10 m ρ c (Proc.devRef .tc main_v0) = (domS m c).UV :=
  ((W10_arr m ρ c 0).trans (((dat4 (V9 m ρ) c).arrAt_in 0 rfl cfg4.N).trans (A_eq4 (V9 m ρ) c 0))).trans (at_main_v0_9 m ρ c)

theorem at_main_v0_11 (c : Dev nD) : W11 m ρ c (Proc.devRef .tc main_v0) = (domS m c).UV :=
  (keepH5 (W10 m ρ c) main_v0 (by decide)).trans (at_main_v0_10 m ρ c)

theorem at_main_v0_12 (c : Dev nD) : W12 m ρ c (Proc.devRef .tc main_v0) = (domS m c).UV :=
  (W12_of_ne m ρ c main_v0 (by decide)).trans (at_main_v0_11 m ρ c)

theorem at_main_v1_6 (c : Dev nD) : W6 m ρ c (Proc.devRef .tc main_v1) = (domS m c).VU :=
  ((W6_arr m ρ c 0).trans (((dat2 (V5 m ρ) c).arrAt_in 0 rfl cfg2.N).trans (A_eq2 (V5 m ρ) c 0))).trans (at_main_v1_5 m ρ c)

theorem at_main_v1_7 (c : Dev nD) : W7 m ρ c (Proc.devRef .tc main_v1) = (domS m c).VU :=
  (keepH3 (W6 m ρ c) main_v1 (by decide)).trans (at_main_v1_6 m ρ c)

theorem at_main_v1_8 (c : Dev nD) : W8 m ρ c (Proc.devRef .tc main_v1) = (domS m c).VU :=
  (W8_of_ne m ρ c main_v1 (by decide)).trans (at_main_v1_7 m ρ c)

theorem at_main_v1_9 (c : Dev nD) : W9 m ρ c (Proc.devRef .tc main_v1) = (domS m c).VU :=
  (keepH4 (W8 m ρ c) main_v1 (by decide)).trans (at_main_v1_8 m ρ c)

theorem at_main_v1_10 (c : Dev nD) : W10 m ρ c (Proc.devRef .tc main_v1) = (domS m c).VU :=
  (W10_of_ne m ρ c main_v1 (by decide)).trans (at_main_v1_9 m ρ c)

theorem at_main_v1_11 (c : Dev nD) : W11 m ρ c (Proc.devRef .tc main_v1) = (domS m c).VU :=
  (keepH5 (W10 m ρ c) main_v1 (by decide)).trans (at_main_v1_10 m ρ c)

theorem at_main_v1_12 (c : Dev nD) : W12 m ρ c (Proc.devRef .tc main_v1) = (domS m c).VU :=
  ((W12_arr m ρ c 0).trans (((dat5 (V11 m ρ) c).arrAt_in 0 rfl cfg5.N).trans (A_eq5 (V11 m ρ) c 0))).trans (at_main_v1_11 m ρ c)

theorem at_main_arg12_0 (c : Dev nD) : W0 m ρ c (Proc.devRef .tc main_arg12) = (domS m c).lW := rfl

theorem at_main_v8_1 (c : Dev nD) : W1 m ρ c (Proc.devRef .tc main_v8) = (domS m c).lW := by
  show StableHlo.after hostOps0 (W0 m ρ c) (Proc.devRef .tc main_v8) = _
  after_results
  rw [at_main_arg12_0 m ρ c]
  rfl

theorem at_main_v8_2 (c : Dev nD) : W2 m ρ c (Proc.devRef .tc main_v8) = (domS m c).lW :=
  (W2_of_ne m ρ c main_v8 (by decide)).trans (at_main_v8_1 m ρ c)

theorem at_main_v8_3 (c : Dev nD) : W3 m ρ c (Proc.devRef .tc main_v8) = (domS m c).lW :=
  (keepH1 (W2 m ρ c) main_v8 (by decide)).trans (at_main_v8_2 m ρ c)

theorem at_main_v8_4 (c : Dev nD) : W4 m ρ c (Proc.devRef .tc main_v8) = (domS m c).lW :=
  (W4_of_ne m ρ c main_v8 (by decide)).trans (at_main_v8_3 m ρ c)

theorem at_main_v8_5 (c : Dev nD) : W5 m ρ c (Proc.devRef .tc main_v8) = (domS m c).lW :=
  (keepH2 (W4 m ρ c) main_v8 (by decide)).trans (at_main_v8_4 m ρ c)

theorem at_main_v8_6 (c : Dev nD) : W6 m ρ c (Proc.devRef .tc main_v8) = (domS m c).lW :=
  (W6_of_ne m ρ c main_v8 (by decide)).trans (at_main_v8_5 m ρ c)

theorem at_main_v8_7 (c : Dev nD) : W7 m ρ c (Proc.devRef .tc main_v8) = (domS m c).lW :=
  (keepH3 (W6 m ρ c) main_v8 (by decide)).trans (at_main_v8_6 m ρ c)

theorem at_main_v8_8 (c : Dev nD) : W8 m ρ c (Proc.devRef .tc main_v8) = (domS m c).lW :=
  (W8_of_ne m ρ c main_v8 (by decide)).trans (at_main_v8_7 m ρ c)

theorem at_main_v8_9 (c : Dev nD) : W9 m ρ c (Proc.devRef .tc main_v8) = (domS m c).lW :=
  (keepH4 (W8 m ρ c) main_v8 (by decide)).trans (at_main_v8_8 m ρ c)

theorem at_main_v8_10 (c : Dev nD) : W10 m ρ c (Proc.devRef .tc main_v8) = (domS m c).lW :=
  (W10_of_ne m ρ c main_v8 (by decide)).trans (at_main_v8_9 m ρ c)

theorem at_main_v8_11 (c : Dev nD) : W11 m ρ c (Proc.devRef .tc main_v8) = (domS m c).lW :=
  (keepH5 (W10 m ρ c) main_v8 (by decide)).trans (at_main_v8_10 m ρ c)

theorem at_main_v8_12 (c : Dev nD) : W12 m ρ c (Proc.devRef .tc main_v8) = (domS m c).lW :=
  (W12_of_ne m ρ c main_v8 (by decide)).trans (at_main_v8_11 m ρ c)

theorem at_main_arg13_0 (c : Dev nD) : W0 m ρ c (Proc.devRef .tc main_arg13) = (domS m c).lb := rfl

theorem at_main_arg13_1 (c : Dev nD) : W1 m ρ c (Proc.devRef .tc main_arg13) = (domS m c).lb :=
  (keepH0 (W0 m ρ c) main_arg13 (by decide)).trans (at_main_arg13_0 m ρ c)

theorem at_main_arg13_2 (c : Dev nD) : W2 m ρ c (Proc.devRef .tc main_arg13) = (domS m c).lb :=
  (W2_of_ne m ρ c main_arg13 (by decide)).trans (at_main_arg13_1 m ρ c)

theorem at_main_arg13_3 (c : Dev nD) : W3 m ρ c (Proc.devRef .tc main_arg13) = (domS m c).lb :=
  (keepH1 (W2 m ρ c) main_arg13 (by decide)).trans (at_main_arg13_2 m ρ c)

theorem at_main_arg13_4 (c : Dev nD) : W4 m ρ c (Proc.devRef .tc main_arg13) = (domS m c).lb :=
  (W4_of_ne m ρ c main_arg13 (by decide)).trans (at_main_arg13_3 m ρ c)

theorem at_main_arg13_5 (c : Dev nD) : W5 m ρ c (Proc.devRef .tc main_arg13) = (domS m c).lb :=
  (keepH2 (W4 m ρ c) main_arg13 (by decide)).trans (at_main_arg13_4 m ρ c)

theorem at_main_arg13_6 (c : Dev nD) : W6 m ρ c (Proc.devRef .tc main_arg13) = (domS m c).lb :=
  (W6_of_ne m ρ c main_arg13 (by decide)).trans (at_main_arg13_5 m ρ c)

theorem at_main_arg13_7 (c : Dev nD) : W7 m ρ c (Proc.devRef .tc main_arg13) = (domS m c).lb :=
  (keepH3 (W6 m ρ c) main_arg13 (by decide)).trans (at_main_arg13_6 m ρ c)

theorem at_main_arg13_8 (c : Dev nD) : W8 m ρ c (Proc.devRef .tc main_arg13) = (domS m c).lb :=
  (W8_of_ne m ρ c main_arg13 (by decide)).trans (at_main_arg13_7 m ρ c)

theorem at_main_arg13_9 (c : Dev nD) : W9 m ρ c (Proc.devRef .tc main_arg13) = (domS m c).lb :=
  (keepH4 (W8 m ρ c) main_arg13 (by decide)).trans (at_main_arg13_8 m ρ c)

theorem at_main_arg13_10 (c : Dev nD) : W10 m ρ c (Proc.devRef .tc main_arg13) = (domS m c).lb :=
  (W10_of_ne m ρ c main_arg13 (by decide)).trans (at_main_arg13_9 m ρ c)

theorem at_main_arg13_11 (c : Dev nD) : W11 m ρ c (Proc.devRef .tc main_arg13) = (domS m c).lb :=
  (keepH5 (W10 m ρ c) main_arg13 (by decide)).trans (at_main_arg13_10 m ρ c)

theorem at_main_arg13_12 (c : Dev nD) : W12 m ρ c (Proc.devRef .tc main_arg13) = (domS m c).lb :=
  (W12_of_ne m ρ c main_arg13 (by decide)).trans (at_main_arg13_11 m ρ c)

theorem at_main_arg14_0 (c : Dev nD) : W0 m ρ c (Proc.devRef .tc main_arg14) = (domS m c).luW := rfl

theorem at_main_v9_1 (c : Dev nD) : W1 m ρ c (Proc.devRef .tc main_v9) = (domS m c).luW := by
  show StableHlo.after hostOps0 (W0 m ρ c) (Proc.devRef .tc main_v9) = _
  after_results
  rw [at_main_arg14_0 m ρ c]
  rfl

theorem at_main_v9_2 (c : Dev nD) : W2 m ρ c (Proc.devRef .tc main_v9) = (domS m c).luW :=
  (W2_of_ne m ρ c main_v9 (by decide)).trans (at_main_v9_1 m ρ c)

theorem at_main_v9_3 (c : Dev nD) : W3 m ρ c (Proc.devRef .tc main_v9) = (domS m c).luW :=
  (keepH1 (W2 m ρ c) main_v9 (by decide)).trans (at_main_v9_2 m ρ c)

theorem at_main_v9_4 (c : Dev nD) : W4 m ρ c (Proc.devRef .tc main_v9) = (domS m c).luW :=
  (W4_of_ne m ρ c main_v9 (by decide)).trans (at_main_v9_3 m ρ c)

theorem at_main_v9_5 (c : Dev nD) : W5 m ρ c (Proc.devRef .tc main_v9) = (domS m c).luW :=
  (keepH2 (W4 m ρ c) main_v9 (by decide)).trans (at_main_v9_4 m ρ c)

theorem at_main_v9_6 (c : Dev nD) : W6 m ρ c (Proc.devRef .tc main_v9) = (domS m c).luW :=
  (W6_of_ne m ρ c main_v9 (by decide)).trans (at_main_v9_5 m ρ c)

theorem at_main_v9_7 (c : Dev nD) : W7 m ρ c (Proc.devRef .tc main_v9) = (domS m c).luW :=
  (keepH3 (W6 m ρ c) main_v9 (by decide)).trans (at_main_v9_6 m ρ c)

theorem at_main_v9_8 (c : Dev nD) : W8 m ρ c (Proc.devRef .tc main_v9) = (domS m c).luW :=
  (W8_of_ne m ρ c main_v9 (by decide)).trans (at_main_v9_7 m ρ c)

theorem at_main_v9_9 (c : Dev nD) : W9 m ρ c (Proc.devRef .tc main_v9) = (domS m c).luW :=
  (keepH4 (W8 m ρ c) main_v9 (by decide)).trans (at_main_v9_8 m ρ c)

theorem at_main_v9_10 (c : Dev nD) : W10 m ρ c (Proc.devRef .tc main_v9) = (domS m c).luW :=
  (W10_of_ne m ρ c main_v9 (by decide)).trans (at_main_v9_9 m ρ c)

theorem at_main_v9_11 (c : Dev nD) : W11 m ρ c (Proc.devRef .tc main_v9) = (domS m c).luW :=
  (keepH5 (W10 m ρ c) main_v9 (by decide)).trans (at_main_v9_10 m ρ c)

theorem at_main_v9_12 (c : Dev nD) : W12 m ρ c (Proc.devRef .tc main_v9) = (domS m c).luW :=
  (W12_of_ne m ρ c main_v9 (by decide)).trans (at_main_v9_11 m ρ c)

theorem at_main_arg15_0 (c : Dev nD) : W0 m ρ c (Proc.devRef .tc main_arg15) = (domS m c).lub := rfl

theorem at_main_arg15_1 (c : Dev nD) : W1 m ρ c (Proc.devRef .tc main_arg15) = (domS m c).lub :=
  (keepH0 (W0 m ρ c) main_arg15 (by decide)).trans (at_main_arg15_0 m ρ c)

theorem at_main_arg15_2 (c : Dev nD) : W2 m ρ c (Proc.devRef .tc main_arg15) = (domS m c).lub :=
  (W2_of_ne m ρ c main_arg15 (by decide)).trans (at_main_arg15_1 m ρ c)

theorem at_main_arg15_3 (c : Dev nD) : W3 m ρ c (Proc.devRef .tc main_arg15) = (domS m c).lub :=
  (keepH1 (W2 m ρ c) main_arg15 (by decide)).trans (at_main_arg15_2 m ρ c)

theorem at_main_arg15_4 (c : Dev nD) : W4 m ρ c (Proc.devRef .tc main_arg15) = (domS m c).lub :=
  (W4_of_ne m ρ c main_arg15 (by decide)).trans (at_main_arg15_3 m ρ c)

theorem at_main_arg15_5 (c : Dev nD) : W5 m ρ c (Proc.devRef .tc main_arg15) = (domS m c).lub :=
  (keepH2 (W4 m ρ c) main_arg15 (by decide)).trans (at_main_arg15_4 m ρ c)

theorem at_main_arg15_6 (c : Dev nD) : W6 m ρ c (Proc.devRef .tc main_arg15) = (domS m c).lub :=
  (W6_of_ne m ρ c main_arg15 (by decide)).trans (at_main_arg15_5 m ρ c)

theorem at_main_arg15_7 (c : Dev nD) : W7 m ρ c (Proc.devRef .tc main_arg15) = (domS m c).lub :=
  (keepH3 (W6 m ρ c) main_arg15 (by decide)).trans (at_main_arg15_6 m ρ c)

theorem at_main_arg15_8 (c : Dev nD) : W8 m ρ c (Proc.devRef .tc main_arg15) = (domS m c).lub :=
  (W8_of_ne m ρ c main_arg15 (by decide)).trans (at_main_arg15_7 m ρ c)

theorem at_main_arg15_9 (c : Dev nD) : W9 m ρ c (Proc.devRef .tc main_arg15) = (domS m c).lub :=
  (keepH4 (W8 m ρ c) main_arg15 (by decide)).trans (at_main_arg15_8 m ρ c)

theorem at_main_arg15_10 (c : Dev nD) : W10 m ρ c (Proc.devRef .tc main_arg15) = (domS m c).lub :=
  (W10_of_ne m ρ c main_arg15 (by decide)).trans (at_main_arg15_9 m ρ c)

theorem at_main_arg15_11 (c : Dev nD) : W11 m ρ c (Proc.devRef .tc main_arg15) = (domS m c).lub :=
  (keepH5 (W10 m ρ c) main_arg15 (by decide)).trans (at_main_arg15_10 m ρ c)

theorem at_main_arg15_12 (c : Dev nD) : W12 m ρ c (Proc.devRef .tc main_arg15) = (domS m c).lub :=
  (W12_of_ne m ρ c main_arg15 (by decide)).trans (at_main_arg15_11 m ρ c)

theorem in_5_0 (c : Dev nD) : V11 m ρ c (Pipeline.arrRef spec5 0) = (domS m c).VU := at_main_v1_11 m ρ c

theorem in_3_0 (c : Dev nD) : V7 m ρ c (Pipeline.arrRef spec3 0) = (domS m c).UV := at_main_v0_7 m ρ c

theorem at_main_arg5_0 (c : Dev nD) : W0 m ρ c (Proc.devRef .tc main_arg5) = (domS m c).xv := rfl

theorem at_main_v5_1 (c : Dev nD) : W1 m ρ c (Proc.devRef .tc main_v5) = (domS m c).xv := by
  show StableHlo.after hostOps0 (W0 m ρ c) (Proc.devRef .tc main_v5) = _
  after_results
  rw [at_main_arg5_0 m ρ c]
  rfl

theorem at_main_v5_2 (c : Dev nD) : W2 m ρ c (Proc.devRef .tc main_v5) = (domS m c).xv :=
  (W2_of_ne m ρ c main_v5 (by decide)).trans (at_main_v5_1 m ρ c)

theorem at_main_v5_3 (c : Dev nD) : W3 m ρ c (Proc.devRef .tc main_v5) = (domS m c).xv :=
  (keepH1 (W2 m ρ c) main_v5 (by decide)).trans (at_main_v5_2 m ρ c)

theorem in_1_0 (c : Dev nD) : V3 m ρ c (Pipeline.arrRef spec1 0) = (domS m c).xv := at_main_v5_3 m ρ c

theorem at_main_v14_3 (c : Dev nD) : W3 m ρ c (Proc.devRef .tc main_v14) = slab (⟨1, by decide⟩ : Fin 4) (domS m c).dW := by
  show StableHlo.after hostOps1 (W2 m ρ c) (Proc.devRef .tc main_v14) = _
  after_results
  rw [at_main_v6_2 m ρ c]
  exact slice_reshape_eq_slab 1 (by decide) _ _ _

theorem in_1_1 (c : Dev nD) : V3 m ρ c (Pipeline.arrRef spec1 1) = slab (⟨1, by decide⟩ : Fin 4) (domS m c).dW := at_main_v14_3 m ρ c

theorem at_main_v15_4 (c : Dev nD) : W4 m ρ c (Proc.devRef .tc main_v15) = (domS m c).y1 := by
  refine (W4_arr m ρ c 2).trans ?_
  rw [final1 (V3 m ρ) c]
  rw [in_1_0 m ρ c, in_1_1 m ρ c]
  rfl

theorem at_main_v15_5 (c : Dev nD) : W5 m ρ c (Proc.devRef .tc main_v15) = (domS m c).y1 :=
  (keepH2 (W4 m ρ c) main_v15 (by decide)).trans (at_main_v15_4 m ρ c)

theorem at_main_v15_6 (c : Dev nD) : W6 m ρ c (Proc.devRef .tc main_v15) = (domS m c).y1 :=
  (W6_of_ne m ρ c main_v15 (by decide)).trans (at_main_v15_5 m ρ c)

theorem at_main_v15_7 (c : Dev nD) : W7 m ρ c (Proc.devRef .tc main_v15) = (domS m c).y1 :=
  (keepH3 (W6 m ρ c) main_v15 (by decide)).trans (at_main_v15_6 m ρ c)

theorem in_3_1 (c : Dev nD) : V7 m ρ c (Pipeline.arrRef spec3 1) = (domS m c).y1 := at_main_v15_7 m ρ c

theorem at_main_v26_7 (c : Dev nD) : W7 m ρ c (Proc.devRef .tc main_v26) = rowMat (⟨1, by decide⟩ : Fin 4) (domS m c).db := by
  show StableHlo.after hostOps3 (W6 m ρ c) (Proc.devRef .tc main_v26) = _
  after_results
  rw [at_main_arg9_6 m ρ c]
  exact slice_reshape_rowmat_eq 1 (by decide) _ _ _ _

theorem in_3_2 (c : Dev nD) : V7 m ρ c (Pipeline.arrRef spec3 2) = rowMat (⟨1, by decide⟩ : Fin 4) (domS m c).db := at_main_v26_7 m ρ c

theorem at_main_v6_5 (c : Dev nD) : W5 m ρ c (Proc.devRef .tc main_v6) = (domS m c).dW :=
  (keepH2 (W4 m ρ c) main_v6 (by decide)).trans (at_main_v6_4 m ρ c)

theorem at_main_v6_6 (c : Dev nD) : W6 m ρ c (Proc.devRef .tc main_v6) = (domS m c).dW :=
  (W6_of_ne m ρ c main_v6 (by decide)).trans (at_main_v6_5 m ρ c)

theorem at_main_v25_7 (c : Dev nD) : W7 m ρ c (Proc.devRef .tc main_v25) = slab (⟨3, by decide⟩ : Fin 4) (domS m c).dW := by
  show StableHlo.after hostOps3 (W6 m ρ c) (Proc.devRef .tc main_v25) = _
  after_results
  rw [at_main_v6_6 m ρ c]
  exact slice_reshape_eq_slab 3 (by decide) _ _ _

theorem in_3_3 (c : Dev nD) : V7 m ρ c (Pipeline.arrRef spec3 3) = slab (⟨3, by decide⟩ : Fin 4) (domS m c).dW := at_main_v25_7 m ρ c

theorem at_main_v27_8 (c : Dev nD) : W8 m ρ c (Proc.devRef .tc main_v27) = (domS m c).p2 := by
  refine (W8_arr m ρ c 4).trans ?_
  rw [final3 (V7 m ρ) c]
  rw [in_3_0 m ρ c, in_3_1 m ρ c, in_3_2 m ρ c, in_3_3 m ρ c]
  rfl

theorem at_main_v27_9 (c : Dev nD) : W9 m ρ c (Proc.devRef .tc main_v27) = (domS m c).p2 :=
  (keepH4 (W8 m ρ c) main_v27 (by decide)).trans (at_main_v27_8 m ρ c)

theorem at_main_v27_10 (c : Dev nD) : W10 m ρ c (Proc.devRef .tc main_v27) = (domS m c).p2 :=
  (W10_of_ne m ρ c main_v27 (by decide)).trans (at_main_v27_9 m ρ c)

theorem at_main_v27_11 (c : Dev nD) : W11 m ρ c (Proc.devRef .tc main_v27) = (domS m c).p2 :=
  (keepH5 (W10 m ρ c) main_v27 (by decide)).trans (at_main_v27_10 m ρ c)

theorem in_5_1 (c : Dev nD) : V11 m ρ c (Pipeline.arrRef spec5 1) = (domS m c).p2 := at_main_v27_11 m ρ c

theorem at_main_arg9_9 (c : Dev nD) : W9 m ρ c (Proc.devRef .tc main_arg9) = (domS m c).db :=
  (keepH4 (W8 m ρ c) main_arg9 (by decide)).trans (at_main_arg9_8 m ρ c)

theorem at_main_arg9_10 (c : Dev nD) : W10 m ρ c (Proc.devRef .tc main_arg9) = (domS m c).db :=
  (W10_of_ne m ρ c main_arg9 (by decide)).trans (at_main_arg9_9 m ρ c)

theorem at_main_v51_11 (c : Dev nD) : W11 m ρ c (Proc.devRef .tc main_v51) = rowMat (⟨3, by decide⟩ : Fin 4) (domS m c).db := by
  show StableHlo.after hostOps5 (W10 m ρ c) (Proc.devRef .tc main_v51) = _
  after_results
  rw [at_main_arg9_10 m ρ c]
  exact slice_reshape_rowmat_eq 3 (by decide) _ _ _ _

theorem in_5_2 (c : Dev nD) : V11 m ρ c (Pipeline.arrRef spec5 2) = rowMat (⟨3, by decide⟩ : Fin 4) (domS m c).db := at_main_v51_11 m ρ c

theorem at_main_v7_9 (c : Dev nD) : W9 m ρ c (Proc.devRef .tc main_v7) = (domS m c).uW :=
  (keepH4 (W8 m ρ c) main_v7 (by decide)).trans (at_main_v7_8 m ρ c)

theorem at_main_v7_10 (c : Dev nD) : W10 m ρ c (Proc.devRef .tc main_v7) = (domS m c).uW :=
  (W10_of_ne m ρ c main_v7 (by decide)).trans (at_main_v7_9 m ρ c)

theorem at_main_v45_11 (c : Dev nD) : W11 m ρ c (Proc.devRef .tc main_v45) = top (slab (⟨1, by decide⟩ : Fin 2) (domS m c).uW) := by
  show StableHlo.after hostOps5 (W10 m ρ c) (Proc.devRef .tc main_v45) = _
  after_results
  rw [at_main_v7_10 m ρ c]
  exact slab_top_eq (a := 128) (b := 128) _ 1 (by decide) _ _ _

theorem in_5_3 (c : Dev nD) : V11 m ρ c (Pipeline.arrRef spec5 3) = top (slab (⟨1, by decide⟩ : Fin 2) (domS m c).uW) := at_main_v45_11 m ρ c

theorem at_main_v5_4 (c : Dev nD) : W4 m ρ c (Proc.devRef .tc main_v5) = (domS m c).xv :=
  ((W4_arr m ρ c 0).trans (((dat1 (V3 m ρ) c).arrAt_in 0 rfl cfg1.N).trans (A_eq1 (V3 m ρ) c 0))).trans (at_main_v5_3 m ρ c)

theorem at_main_v5_5 (c : Dev nD) : W5 m ρ c (Proc.devRef .tc main_v5) = (domS m c).xv :=
  (keepH2 (W4 m ρ c) main_v5 (by decide)).trans (at_main_v5_4 m ρ c)

theorem at_main_v5_6 (c : Dev nD) : W6 m ρ c (Proc.devRef .tc main_v5) = (domS m c).xv :=
  (W6_of_ne m ρ c main_v5 (by decide)).trans (at_main_v5_5 m ρ c)

theorem at_main_v5_7 (c : Dev nD) : W7 m ρ c (Proc.devRef .tc main_v5) = (domS m c).xv :=
  (keepH3 (W6 m ρ c) main_v5 (by decide)).trans (at_main_v5_6 m ρ c)

theorem at_main_v5_8 (c : Dev nD) : W8 m ρ c (Proc.devRef .tc main_v5) = (domS m c).xv :=
  (W8_of_ne m ρ c main_v5 (by decide)).trans (at_main_v5_7 m ρ c)

theorem at_main_v5_9 (c : Dev nD) : W9 m ρ c (Proc.devRef .tc main_v5) = (domS m c).xv :=
  (keepH4 (W8 m ρ c) main_v5 (by decide)).trans (at_main_v5_8 m ρ c)

theorem at_main_v5_10 (c : Dev nD) : W10 m ρ c (Proc.devRef .tc main_v5) = (domS m c).xv :=
  (W10_of_ne m ρ c main_v5 (by decide)).trans (at_main_v5_9 m ρ c)

theorem at_main_v5_11 (c : Dev nD) : W11 m ρ c (Proc.devRef .tc main_v5) = (domS m c).xv :=
  (keepH5 (W10 m ρ c) main_v5 (by decide)).trans (at_main_v5_10 m ρ c)

theorem in_5_4 (c : Dev nD) : V11 m ρ c (Pipeline.arrRef spec5 4) = (domS m c).xv := at_main_v5_11 m ρ c

theorem at_main_v48_11 (c : Dev nD) : W11 m ρ c (Proc.devRef .tc main_v48) = bot (slab (⟨1, by decide⟩ : Fin 2) (domS m c).uW) := by
  show StableHlo.after hostOps5 (W10 m ρ c) (Proc.devRef .tc main_v48) = _
  after_results
  rw [at_main_v7_10 m ρ c]
  exact slab_bot_eq (a := 128) (b := 128) _ 1 (by decide) _ _ _

theorem in_5_5 (c : Dev nD) : V11 m ρ c (Pipeline.arrRef spec5 5) = bot (slab (⟨1, by decide⟩ : Fin 2) (domS m c).uW) := at_main_v48_11 m ρ c

theorem at_main_arg11_9 (c : Dev nD) : W9 m ρ c (Proc.devRef .tc main_arg11) = (domS m c).ub :=
  (keepH4 (W8 m ρ c) main_arg11 (by decide)).trans (at_main_arg11_8 m ρ c)

theorem at_main_arg11_10 (c : Dev nD) : W10 m ρ c (Proc.devRef .tc main_arg11) = (domS m c).ub :=
  (W10_of_ne m ρ c main_arg11 (by decide)).trans (at_main_arg11_9 m ρ c)

theorem at_main_v52_11 (c : Dev nD) : W11 m ρ c (Proc.devRef .tc main_v52) = rowMat (⟨1, by decide⟩ : Fin 2) (domS m c).ub := by
  show StableHlo.after hostOps5 (W10 m ρ c) (Proc.devRef .tc main_v52) = _
  after_results
  rw [at_main_arg11_10 m ρ c]
  exact slice_reshape_rowmat_eq 1 (by decide) _ _ _ _

theorem in_5_6 (c : Dev nD) : V11 m ρ c (Pipeline.arrRef spec5 6) = rowMat (⟨1, by decide⟩ : Fin 2) (domS m c).ub := at_main_v52_11 m ρ c

theorem at_main_v53_12 (c : Dev nD) : W12 m ρ c (Proc.devRef .tc main_v53) = (domS m c).v1 := by
  refine (W12_arr m ρ c 7).trans ?_
  rw [final5 (V11 m ρ) c]
  rw [in_5_0 m ρ c, in_5_1 m ρ c, in_5_2 m ρ c, in_5_3 m ρ c, in_5_4 m ρ c, in_5_5 m ρ c, in_5_6 m ρ c]
  rfl

theorem at_main_arg7_0 (c : Dev nD) : W0 m ρ c (Proc.devRef .tc main_arg7) = (domT m c).xv := rfl

theorem at_main_arg7_1 (c : Dev nD) : W1 m ρ c (Proc.devRef .tc main_arg7) = (domT m c).xv :=
  (keepH0 (W0 m ρ c) main_arg7 (by decide)).trans (at_main_arg7_0 m ρ c)

theorem at_main_arg7_2 (c : Dev nD) : W2 m ρ c (Proc.devRef .tc main_arg7) = (domT m c).xv :=
  (W2_of_ne m ρ c main_arg7 (by decide)).trans (at_main_arg7_1 m ρ c)

theorem at_main_arg7_3 (c : Dev nD) : W3 m ρ c (Proc.devRef .tc main_arg7) = (domT m c).xv :=
  (keepH1 (W2 m ρ c) main_arg7 (by decide)).trans (at_main_arg7_2 m ρ c)

theorem at_main_arg7_4 (c : Dev nD) : W4 m ρ c (Proc.devRef .tc main_arg7) = (domT m c).xv :=
  (W4_of_ne m ρ c main_arg7 (by decide)).trans (at_main_arg7_3 m ρ c)

theorem at_main_arg7_5 (c : Dev nD) : W5 m ρ c (Proc.devRef .tc main_arg7) = (domT m c).xv :=
  (keepH2 (W4 m ρ c) main_arg7 (by decide)).trans (at_main_arg7_4 m ρ c)

theorem at_main_arg7_6 (c : Dev nD) : W6 m ρ c (Proc.devRef .tc main_arg7) = (domT m c).xv :=
  (W6_of_ne m ρ c main_arg7 (by decide)).trans (at_main_arg7_5 m ρ c)

theorem at_main_arg7_7 (c : Dev nD) : W7 m ρ c (Proc.devRef .tc main_arg7) = (domT m c).xv :=
  (keepH3 (W6 m ρ c) main_arg7 (by decide)).trans (at_main_arg7_6 m ρ c)

theorem at_main_arg7_8 (c : Dev nD) : W8 m ρ c (Proc.devRef .tc main_arg7) = (domT m c).xv :=
  (W8_of_ne m ρ c main_arg7 (by decide)).trans (at_main_arg7_7 m ρ c)

theorem at_main_arg7_9 (c : Dev nD) : W9 m ρ c (Proc.devRef .tc main_arg7) = (domT m c).xv :=
  (keepH4 (W8 m ρ c) main_arg7 (by decide)).trans (at_main_arg7_8 m ρ c)

theorem at_main_arg7_10 (c : Dev nD) : W10 m ρ c (Proc.devRef .tc main_arg7) = (domT m c).xv :=
  (W10_of_ne m ρ c main_arg7 (by decide)).trans (at_main_arg7_9 m ρ c)

theorem at_main_arg7_11 (c : Dev nD) : W11 m ρ c (Proc.devRef .tc main_arg7) = (domT m c).xv :=
  (keepH5 (W10 m ρ c) main_arg7 (by decide)).trans (at_main_arg7_10 m ρ c)

theorem at_main_arg7_12 (c : Dev nD) : W12 m ρ c (Proc.devRef .tc main_arg7) = (domT m c).xv :=
  (W12_of_ne m ρ c main_arg7 (by decide)).trans (at_main_arg7_11 m ρ c)

end Cert.KernelIdeal.Chain

end
-- ==== Proof.KChainVal2.lean ====
/-
  The idealized kernel program's buffers at the segment boundaries 13 … 24, as the encoder model's values: each
  region's output array is what its write-backs leave, which is the model's value of the region's input arrays as the
  region finds them; those are read where a host operation or an earlier region produced them and carried, unchanged,
  across every stretch and region in between.
-/
import proofs.«177232_g71837622993359_cont_sun_m_41_3_alg».proof.Proof.KChainVal1

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Cert.Spec Cert.HostForms Cert.KernelIdeal.RegionValue

variable (m : (ℓ : Loc nD τ sig) → Buf (Elt Ideal) ℓ) (ρ : Dev nD → PrngReg)

theorem at_main_v2_13 (c : Dev nD) : W13 m ρ c (Proc.devRef .tc main_v2) = (domT m c).UV :=
  (keepH6 (W12 m ρ c) main_v2 (by decide)).trans (at_main_v2_12 m ρ c)

theorem at_main_v2_14 (c : Dev nD) : W14 m ρ c (Proc.devRef .tc main_v2) = (domT m c).UV :=
  (W14_of_ne m ρ c main_v2 (by decide)).trans (at_main_v2_13 m ρ c)

theorem at_main_v2_15 (c : Dev nD) : W15 m ρ c (Proc.devRef .tc main_v2) = (domT m c).UV :=
  (keepH7 (W14 m ρ c) main_v2 (by decide)).trans (at_main_v2_14 m ρ c)

theorem at_main_v2_16 (c : Dev nD) : W16 m ρ c (Proc.devRef .tc main_v2) = (domT m c).UV :=
  (W16_of_ne m ρ c main_v2 (by decide)).trans (at_main_v2_15 m ρ c)

theorem at_main_v2_17 (c : Dev nD) : W17 m ρ c (Proc.devRef .tc main_v2) = (domT m c).UV :=
  (keepH8 (W16 m ρ c) main_v2 (by decide)).trans (at_main_v2_16 m ρ c)

theorem at_main_v2_18 (c : Dev nD) : W18 m ρ c (Proc.devRef .tc main_v2) = (domT m c).UV :=
  (W18_of_ne m ρ c main_v2 (by decide)).trans (at_main_v2_17 m ρ c)

theorem at_main_v2_19 (c : Dev nD) : W19 m ρ c (Proc.devRef .tc main_v2) = (domT m c).UV :=
  (keepH9 (W18 m ρ c) main_v2 (by decide)).trans (at_main_v2_18 m ρ c)

theorem at_main_v2_20 (c : Dev nD) : W20 m ρ c (Proc.devRef .tc main_v2) = (domT m c).UV :=
  (W20_of_ne m ρ c main_v2 (by decide)).trans (at_main_v2_19 m ρ c)

theorem at_main_v2_21 (c : Dev nD) : W21 m ρ c (Proc.devRef .tc main_v2) = (domT m c).UV :=
  (keepH10 (W20 m ρ c) main_v2 (by decide)).trans (at_main_v2_20 m ρ c)

theorem at_main_v2_22 (c : Dev nD) : W22 m ρ c (Proc.devRef .tc main_v2) = (domT m c).UV :=
  (W22_of_ne m ρ c main_v2 (by decide)).trans (at_main_v2_21 m ρ c)

theorem at_main_v2_23 (c : Dev nD) : W23 m ρ c (Proc.devRef .tc main_v2) = (domT m c).UV :=
  (keepH11 (W22 m ρ c) main_v2 (by decide)).trans (at_main_v2_22 m ρ c)

theorem at_main_v2_24 (c : Dev nD) : W24 m ρ c (Proc.devRef .tc main_v2) = (domT m c).UV :=
  (W24_of_ne m ρ c main_v2 (by decide)).trans (at_main_v2_23 m ρ c)

theorem at_main_v3_13 (c : Dev nD) : W13 m ρ c (Proc.devRef .tc main_v3) = (domT m c).VU :=
  (keepH6 (W12 m ρ c) main_v3 (by decide)).trans (at_main_v3_12 m ρ c)

theorem at_main_v3_14 (c : Dev nD) : W14 m ρ c (Proc.devRef .tc main_v3) = (domT m c).VU :=
  (W14_of_ne m ρ c main_v3 (by decide)).trans (at_main_v3_13 m ρ c)

theorem at_main_v3_15 (c : Dev nD) : W15 m ρ c (Proc.devRef .tc main_v3) = (domT m c).VU :=
  (keepH7 (W14 m ρ c) main_v3 (by decide)).trans (at_main_v3_14 m ρ c)

theorem at_main_v3_16 (c : Dev nD) : W16 m ρ c (Proc.devRef .tc main_v3) = (domT m c).VU :=
  (W16_of_ne m ρ c main_v3 (by decide)).trans (at_main_v3_15 m ρ c)

theorem at_main_v3_17 (c : Dev nD) : W17 m ρ c (Proc.devRef .tc main_v3) = (domT m c).VU :=
  (keepH8 (W16 m ρ c) main_v3 (by decide)).trans (at_main_v3_16 m ρ c)

theorem at_main_v3_18 (c : Dev nD) : W18 m ρ c (Proc.devRef .tc main_v3) = (domT m c).VU :=
  (W18_of_ne m ρ c main_v3 (by decide)).trans (at_main_v3_17 m ρ c)

theorem at_main_v3_19 (c : Dev nD) : W19 m ρ c (Proc.devRef .tc main_v3) = (domT m c).VU :=
  (keepH9 (W18 m ρ c) main_v3 (by decide)).trans (at_main_v3_18 m ρ c)

theorem at_main_v3_20 (c : Dev nD) : W20 m ρ c (Proc.devRef .tc main_v3) = (domT m c).VU :=
  (W20_of_ne m ρ c main_v3 (by decide)).trans (at_main_v3_19 m ρ c)

theorem at_main_v3_21 (c : Dev nD) : W21 m ρ c (Proc.devRef .tc main_v3) = (domT m c).VU :=
  (keepH10 (W20 m ρ c) main_v3 (by decide)).trans (at_main_v3_20 m ρ c)

theorem at_main_v3_22 (c : Dev nD) : W22 m ρ c (Proc.devRef .tc main_v3) = (domT m c).VU :=
  (W22_of_ne m ρ c main_v3 (by decide)).trans (at_main_v3_21 m ρ c)

theorem at_main_v3_23 (c : Dev nD) : W23 m ρ c (Proc.devRef .tc main_v3) = (domT m c).VU :=
  (keepH11 (W22 m ρ c) main_v3 (by decide)).trans (at_main_v3_22 m ρ c)

theorem at_main_v3_24 (c : Dev nD) : W24 m ρ c (Proc.devRef .tc main_v3) = (domT m c).VU :=
  (W24_of_ne m ρ c main_v3 (by decide)).trans (at_main_v3_23 m ρ c)

theorem at_main_arg6_13 (c : Dev nD) : W13 m ρ c (Proc.devRef .tc main_arg6) = (domT m c).xu :=
  (keepH6 (W12 m ρ c) main_arg6 (by decide)).trans (at_main_arg6_12 m ρ c)

theorem at_main_arg6_14 (c : Dev nD) : W14 m ρ c (Proc.devRef .tc main_arg6) = (domT m c).xu :=
  (W14_of_ne m ρ c main_arg6 (by decide)).trans (at_main_arg6_13 m ρ c)

theorem at_main_arg6_15 (c : Dev nD) : W15 m ρ c (Proc.devRef .tc main_arg6) = (domT m c).xu :=
  (keepH7 (W14 m ρ c) main_arg6 (by decide)).trans (at_main_arg6_14 m ρ c)

theorem at_main_arg6_16 (c : Dev nD) : W16 m ρ c (Proc.devRef .tc main_arg6) = (domT m c).xu :=
  (W16_of_ne m ρ c main_arg6 (by decide)).trans (at_main_arg6_15 m ρ c)

theorem at_main_arg6_17 (c : Dev nD) : W17 m ρ c (Proc.devRef .tc main_arg6) = (domT m c).xu :=
  (keepH8 (W16 m ρ c) main_arg6 (by decide)).trans (at_main_arg6_16 m ρ c)

theorem at_main_arg6_18 (c : Dev nD) : W18 m ρ c (Proc.devRef .tc main_arg6) = (domT m c).xu :=
  (W18_of_ne m ρ c main_arg6 (by decide)).trans (at_main_arg6_17 m ρ c)

theorem at_main_arg6_19 (c : Dev nD) : W19 m ρ c (Proc.devRef .tc main_arg6) = (domT m c).xu :=
  (keepH9 (W18 m ρ c) main_arg6 (by decide)).trans (at_main_arg6_18 m ρ c)

theorem at_main_arg6_20 (c : Dev nD) : W20 m ρ c (Proc.devRef .tc main_arg6) = (domT m c).xu :=
  (W20_of_ne m ρ c main_arg6 (by decide)).trans (at_main_arg6_19 m ρ c)

theorem at_main_arg6_21 (c : Dev nD) : W21 m ρ c (Proc.devRef .tc main_arg6) = (domT m c).xu :=
  (keepH10 (W20 m ρ c) main_arg6 (by decide)).trans (at_main_arg6_20 m ρ c)

theorem at_main_arg6_22 (c : Dev nD) : W22 m ρ c (Proc.devRef .tc main_arg6) = (domT m c).xu :=
  (W22_of_ne m ρ c main_arg6 (by decide)).trans (at_main_arg6_21 m ρ c)

theorem at_main_arg6_23 (c : Dev nD) : W23 m ρ c (Proc.devRef .tc main_arg6) = (domT m c).xu :=
  (keepH11 (W22 m ρ c) main_arg6 (by decide)).trans (at_main_arg6_22 m ρ c)

theorem at_main_arg6_24 (c : Dev nD) : W24 m ρ c (Proc.devRef .tc main_arg6) = (domT m c).xu :=
  (W24_of_ne m ρ c main_arg6 (by decide)).trans (at_main_arg6_23 m ρ c)

theorem at_main_arg16_13 (c : Dev nD) : W13 m ρ c (Proc.devRef .tc main_arg16) = (domT m c).dW :=
  (keepH6 (W12 m ρ c) main_arg16 (by decide)).trans (at_main_arg16_12 m ρ c)

theorem at_main_arg16_14 (c : Dev nD) : W14 m ρ c (Proc.devRef .tc main_arg16) = (domT m c).dW :=
  (W14_of_ne m ρ c main_arg16 (by decide)).trans (at_main_arg16_13 m ρ c)

theorem at_main_arg16_15 (c : Dev nD) : W15 m ρ c (Proc.devRef .tc main_arg16) = (domT m c).dW :=
  (keepH7 (W14 m ρ c) main_arg16 (by decide)).trans (at_main_arg16_14 m ρ c)

theorem at_main_arg16_16 (c : Dev nD) : W16 m ρ c (Proc.devRef .tc main_arg16) = (domT m c).dW :=
  (W16_of_ne m ρ c main_arg16 (by decide)).trans (at_main_arg16_15 m ρ c)

theorem at_main_arg16_17 (c : Dev nD) : W17 m ρ c (Proc.devRef .tc main_arg16) = (domT m c).dW :=
  (keepH8 (W16 m ρ c) main_arg16 (by decide)).trans (at_main_arg16_16 m ρ c)

theorem at_main_arg16_18 (c : Dev nD) : W18 m ρ c (Proc.devRef .tc main_arg16) = (domT m c).dW :=
  (W18_of_ne m ρ c main_arg16 (by decide)).trans (at_main_arg16_17 m ρ c)

theorem at_main_arg16_19 (c : Dev nD) : W19 m ρ c (Proc.devRef .tc main_arg16) = (domT m c).dW :=
  (keepH9 (W18 m ρ c) main_arg16 (by decide)).trans (at_main_arg16_18 m ρ c)

theorem at_main_arg16_20 (c : Dev nD) : W20 m ρ c (Proc.devRef .tc main_arg16) = (domT m c).dW :=
  (W20_of_ne m ρ c main_arg16 (by decide)).trans (at_main_arg16_19 m ρ c)

theorem at_main_arg16_21 (c : Dev nD) : W21 m ρ c (Proc.devRef .tc main_arg16) = (domT m c).dW :=
  (keepH10 (W20 m ρ c) main_arg16 (by decide)).trans (at_main_arg16_20 m ρ c)

theorem at_main_arg16_22 (c : Dev nD) : W22 m ρ c (Proc.devRef .tc main_arg16) = (domT m c).dW :=
  (W22_of_ne m ρ c main_arg16 (by decide)).trans (at_main_arg16_21 m ρ c)

theorem at_main_arg16_23 (c : Dev nD) : W23 m ρ c (Proc.devRef .tc main_arg16) = (domT m c).dW :=
  (keepH11 (W22 m ρ c) main_arg16 (by decide)).trans (at_main_arg16_22 m ρ c)

theorem at_main_arg16_24 (c : Dev nD) : W24 m ρ c (Proc.devRef .tc main_arg16) = (domT m c).dW :=
  (W24_of_ne m ρ c main_arg16 (by decide)).trans (at_main_arg16_23 m ρ c)

theorem at_main_arg17_13 (c : Dev nD) : W13 m ρ c (Proc.devRef .tc main_arg17) = (domT m c).db :=
  (keepH6 (W12 m ρ c) main_arg17 (by decide)).trans (at_main_arg17_12 m ρ c)

theorem at_main_arg17_14 (c : Dev nD) : W14 m ρ c (Proc.devRef .tc main_arg17) = (domT m c).db :=
  (W14_of_ne m ρ c main_arg17 (by decide)).trans (at_main_arg17_13 m ρ c)

theorem at_main_arg17_15 (c : Dev nD) : W15 m ρ c (Proc.devRef .tc main_arg17) = (domT m c).db :=
  (keepH7 (W14 m ρ c) main_arg17 (by decide)).trans (at_main_arg17_14 m ρ c)

theorem at_main_arg17_16 (c : Dev nD) : W16 m ρ c (Proc.devRef .tc main_arg17) = (domT m c).db :=
  (W16_of_ne m ρ c main_arg17 (by decide)).trans (at_main_arg17_15 m ρ c)

theorem at_main_arg17_17 (c : Dev nD) : W17 m ρ c (Proc.devRef .tc main_arg17) = (domT m c).db :=
  (keepH8 (W16 m ρ c) main_arg17 (by decide)).trans (at_main_arg17_16 m ρ c)

theorem at_main_arg17_18 (c : Dev nD) : W18 m ρ c (Proc.devRef .tc main_arg17) = (domT m c).db :=
  (W18_of_ne m ρ c main_arg17 (by decide)).trans (at_main_arg17_17 m ρ c)

theorem at_main_arg17_19 (c : Dev nD) : W19 m ρ c (Proc.devRef .tc main_arg17) = (domT m c).db :=
  (keepH9 (W18 m ρ c) main_arg17 (by decide)).trans (at_main_arg17_18 m ρ c)

theorem at_main_arg17_20 (c : Dev nD) : W20 m ρ c (Proc.devRef .tc main_arg17) = (domT m c).db :=
  (W20_of_ne m ρ c main_arg17 (by decide)).trans (at_main_arg17_19 m ρ c)

theorem at_main_arg17_21 (c : Dev nD) : W21 m ρ c (Proc.devRef .tc main_arg17) = (domT m c).db :=
  (keepH10 (W20 m ρ c) main_arg17 (by decide)).trans (at_main_arg17_20 m ρ c)

theorem at_main_arg17_22 (c : Dev nD) : W22 m ρ c (Proc.devRef .tc main_arg17) = (domT m c).db :=
  (W22_of_ne m ρ c main_arg17 (by decide)).trans (at_main_arg17_21 m ρ c)

theorem at_main_arg17_23 (c : Dev nD) : W23 m ρ c (Proc.devRef .tc main_arg17) = (domT m c).db :=
  (keepH11 (W22 m ρ c) main_arg17 (by decide)).trans (at_main_arg17_22 m ρ c)

theorem at_main_arg17_24 (c : Dev nD) : W24 m ρ c (Proc.devRef .tc main_arg17) = (domT m c).db :=
  (W24_of_ne m ρ c main_arg17 (by decide)).trans (at_main_arg17_23 m ρ c)

theorem at_main_arg18_13 (c : Dev nD) : W13 m ρ c (Proc.devRef .tc main_arg18) = (domT m c).uW :=
  (keepH6 (W12 m ρ c) main_arg18 (by decide)).trans (at_main_arg18_12 m ρ c)

theorem at_main_arg18_14 (c : Dev nD) : W14 m ρ c (Proc.devRef .tc main_arg18) = (domT m c).uW :=
  (W14_of_ne m ρ c main_arg18 (by decide)).trans (at_main_arg18_13 m ρ c)

theorem at_main_arg18_15 (c : Dev nD) : W15 m ρ c (Proc.devRef .tc main_arg18) = (domT m c).uW :=
  (keepH7 (W14 m ρ c) main_arg18 (by decide)).trans (at_main_arg18_14 m ρ c)

theorem at_main_arg18_16 (c : Dev nD) : W16 m ρ c (Proc.devRef .tc main_arg18) = (domT m c).uW :=
  (W16_of_ne m ρ c main_arg18 (by decide)).trans (at_main_arg18_15 m ρ c)

theorem at_main_arg18_17 (c : Dev nD) : W17 m ρ c (Proc.devRef .tc main_arg18) = (domT m c).uW :=
  (keepH8 (W16 m ρ c) main_arg18 (by decide)).trans (at_main_arg18_16 m ρ c)

theorem at_main_arg18_18 (c : Dev nD) : W18 m ρ c (Proc.devRef .tc main_arg18) = (domT m c).uW :=
  (W18_of_ne m ρ c main_arg18 (by decide)).trans (at_main_arg18_17 m ρ c)

theorem at_main_arg18_19 (c : Dev nD) : W19 m ρ c (Proc.devRef .tc main_arg18) = (domT m c).uW :=
  (keepH9 (W18 m ρ c) main_arg18 (by decide)).trans (at_main_arg18_18 m ρ c)

theorem at_main_arg18_20 (c : Dev nD) : W20 m ρ c (Proc.devRef .tc main_arg18) = (domT m c).uW :=
  (W20_of_ne m ρ c main_arg18 (by decide)).trans (at_main_arg18_19 m ρ c)

theorem at_main_arg18_21 (c : Dev nD) : W21 m ρ c (Proc.devRef .tc main_arg18) = (domT m c).uW :=
  (keepH10 (W20 m ρ c) main_arg18 (by decide)).trans (at_main_arg18_20 m ρ c)

theorem at_main_arg18_22 (c : Dev nD) : W22 m ρ c (Proc.devRef .tc main_arg18) = (domT m c).uW :=
  (W22_of_ne m ρ c main_arg18 (by decide)).trans (at_main_arg18_21 m ρ c)

theorem at_main_arg18_23 (c : Dev nD) : W23 m ρ c (Proc.devRef .tc main_arg18) = (domT m c).uW :=
  (keepH11 (W22 m ρ c) main_arg18 (by decide)).trans (at_main_arg18_22 m ρ c)

theorem at_main_arg18_24 (c : Dev nD) : W24 m ρ c (Proc.devRef .tc main_arg18) = (domT m c).uW :=
  (W24_of_ne m ρ c main_arg18 (by decide)).trans (at_main_arg18_23 m ρ c)

theorem at_main_arg19_13 (c : Dev nD) : W13 m ρ c (Proc.devRef .tc main_arg19) = (domT m c).ub :=
  (keepH6 (W12 m ρ c) main_arg19 (by decide)).trans (at_main_arg19_12 m ρ c)

theorem at_main_arg19_14 (c : Dev nD) : W14 m ρ c (Proc.devRef .tc main_arg19) = (domT m c).ub :=
  (W14_of_ne m ρ c main_arg19 (by decide)).trans (at_main_arg19_13 m ρ c)

theorem at_main_arg19_15 (c : Dev nD) : W15 m ρ c (Proc.devRef .tc main_arg19) = (domT m c).ub :=
  (keepH7 (W14 m ρ c) main_arg19 (by decide)).trans (at_main_arg19_14 m ρ c)

theorem at_main_arg19_16 (c : Dev nD) : W16 m ρ c (Proc.devRef .tc main_arg19) = (domT m c).ub :=
  (W16_of_ne m ρ c main_arg19 (by decide)).trans (at_main_arg19_15 m ρ c)

theorem at_main_arg19_17 (c : Dev nD) : W17 m ρ c (Proc.devRef .tc main_arg19) = (domT m c).ub :=
  (keepH8 (W16 m ρ c) main_arg19 (by decide)).trans (at_main_arg19_16 m ρ c)

theorem at_main_arg19_18 (c : Dev nD) : W18 m ρ c (Proc.devRef .tc main_arg19) = (domT m c).ub :=
  (W18_of_ne m ρ c main_arg19 (by decide)).trans (at_main_arg19_17 m ρ c)

theorem at_main_arg19_19 (c : Dev nD) : W19 m ρ c (Proc.devRef .tc main_arg19) = (domT m c).ub :=
  (keepH9 (W18 m ρ c) main_arg19 (by decide)).trans (at_main_arg19_18 m ρ c)

theorem at_main_arg19_20 (c : Dev nD) : W20 m ρ c (Proc.devRef .tc main_arg19) = (domT m c).ub :=
  (W20_of_ne m ρ c main_arg19 (by decide)).trans (at_main_arg19_19 m ρ c)

theorem at_main_arg19_21 (c : Dev nD) : W21 m ρ c (Proc.devRef .tc main_arg19) = (domT m c).ub :=
  (keepH10 (W20 m ρ c) main_arg19 (by decide)).trans (at_main_arg19_20 m ρ c)

theorem at_main_arg19_22 (c : Dev nD) : W22 m ρ c (Proc.devRef .tc main_arg19) = (domT m c).ub :=
  (W22_of_ne m ρ c main_arg19 (by decide)).trans (at_main_arg19_21 m ρ c)

theorem at_main_arg19_23 (c : Dev nD) : W23 m ρ c (Proc.devRef .tc main_arg19) = (domT m c).ub :=
  (keepH11 (W22 m ρ c) main_arg19 (by decide)).trans (at_main_arg19_22 m ρ c)

theorem at_main_arg19_24 (c : Dev nD) : W24 m ρ c (Proc.devRef .tc main_arg19) = (domT m c).ub :=
  (W24_of_ne m ρ c main_arg19 (by decide)).trans (at_main_arg19_23 m ρ c)

theorem at_main_arg20_13 (c : Dev nD) : W13 m ρ c (Proc.devRef .tc main_arg20) = (domT m c).lW :=
  (keepH6 (W12 m ρ c) main_arg20 (by decide)).trans (at_main_arg20_12 m ρ c)

theorem at_main_arg20_14 (c : Dev nD) : W14 m ρ c (Proc.devRef .tc main_arg20) = (domT m c).lW :=
  (W14_of_ne m ρ c main_arg20 (by decide)).trans (at_main_arg20_13 m ρ c)

theorem at_main_arg20_15 (c : Dev nD) : W15 m ρ c (Proc.devRef .tc main_arg20) = (domT m c).lW :=
  (keepH7 (W14 m ρ c) main_arg20 (by decide)).trans (at_main_arg20_14 m ρ c)

theorem at_main_arg20_16 (c : Dev nD) : W16 m ρ c (Proc.devRef .tc main_arg20) = (domT m c).lW :=
  (W16_of_ne m ρ c main_arg20 (by decide)).trans (at_main_arg20_15 m ρ c)

theorem at_main_arg20_17 (c : Dev nD) : W17 m ρ c (Proc.devRef .tc main_arg20) = (domT m c).lW :=
  (keepH8 (W16 m ρ c) main_arg20 (by decide)).trans (at_main_arg20_16 m ρ c)

theorem at_main_arg20_18 (c : Dev nD) : W18 m ρ c (Proc.devRef .tc main_arg20) = (domT m c).lW :=
  (W18_of_ne m ρ c main_arg20 (by decide)).trans (at_main_arg20_17 m ρ c)

theorem at_main_arg20_19 (c : Dev nD) : W19 m ρ c (Proc.devRef .tc main_arg20) = (domT m c).lW :=
  (keepH9 (W18 m ρ c) main_arg20 (by decide)).trans (at_main_arg20_18 m ρ c)

theorem at_main_arg20_20 (c : Dev nD) : W20 m ρ c (Proc.devRef .tc main_arg20) = (domT m c).lW :=
  (W20_of_ne m ρ c main_arg20 (by decide)).trans (at_main_arg20_19 m ρ c)

theorem at_main_arg20_21 (c : Dev nD) : W21 m ρ c (Proc.devRef .tc main_arg20) = (domT m c).lW :=
  (keepH10 (W20 m ρ c) main_arg20 (by decide)).trans (at_main_arg20_20 m ρ c)

theorem at_main_arg20_22 (c : Dev nD) : W22 m ρ c (Proc.devRef .tc main_arg20) = (domT m c).lW :=
  (W22_of_ne m ρ c main_arg20 (by decide)).trans (at_main_arg20_21 m ρ c)

theorem at_main_arg20_23 (c : Dev nD) : W23 m ρ c (Proc.devRef .tc main_arg20) = (domT m c).lW :=
  (keepH11 (W22 m ρ c) main_arg20 (by decide)).trans (at_main_arg20_22 m ρ c)

theorem at_main_arg20_24 (c : Dev nD) : W24 m ρ c (Proc.devRef .tc main_arg20) = (domT m c).lW :=
  (W24_of_ne m ρ c main_arg20 (by decide)).trans (at_main_arg20_23 m ρ c)

theorem at_main_arg21_13 (c : Dev nD) : W13 m ρ c (Proc.devRef .tc main_arg21) = (domT m c).lb :=
  (keepH6 (W12 m ρ c) main_arg21 (by decide)).trans (at_main_arg21_12 m ρ c)

theorem at_main_arg21_14 (c : Dev nD) : W14 m ρ c (Proc.devRef .tc main_arg21) = (domT m c).lb :=
  (W14_of_ne m ρ c main_arg21 (by decide)).trans (at_main_arg21_13 m ρ c)

theorem at_main_arg21_15 (c : Dev nD) : W15 m ρ c (Proc.devRef .tc main_arg21) = (domT m c).lb :=
  (keepH7 (W14 m ρ c) main_arg21 (by decide)).trans (at_main_arg21_14 m ρ c)

theorem at_main_arg21_16 (c : Dev nD) : W16 m ρ c (Proc.devRef .tc main_arg21) = (domT m c).lb :=
  (W16_of_ne m ρ c main_arg21 (by decide)).trans (at_main_arg21_15 m ρ c)

theorem at_main_arg21_17 (c : Dev nD) : W17 m ρ c (Proc.devRef .tc main_arg21) = (domT m c).lb :=
  (keepH8 (W16 m ρ c) main_arg21 (by decide)).trans (at_main_arg21_16 m ρ c)

theorem at_main_arg21_18 (c : Dev nD) : W18 m ρ c (Proc.devRef .tc main_arg21) = (domT m c).lb :=
  (W18_of_ne m ρ c main_arg21 (by decide)).trans (at_main_arg21_17 m ρ c)

theorem at_main_arg21_19 (c : Dev nD) : W19 m ρ c (Proc.devRef .tc main_arg21) = (domT m c).lb :=
  (keepH9 (W18 m ρ c) main_arg21 (by decide)).trans (at_main_arg21_18 m ρ c)

theorem at_main_arg21_20 (c : Dev nD) : W20 m ρ c (Proc.devRef .tc main_arg21) = (domT m c).lb :=
  (W20_of_ne m ρ c main_arg21 (by decide)).trans (at_main_arg21_19 m ρ c)

theorem at_main_arg21_21 (c : Dev nD) : W21 m ρ c (Proc.devRef .tc main_arg21) = (domT m c).lb :=
  (keepH10 (W20 m ρ c) main_arg21 (by decide)).trans (at_main_arg21_20 m ρ c)

theorem at_main_arg21_22 (c : Dev nD) : W22 m ρ c (Proc.devRef .tc main_arg21) = (domT m c).lb :=
  (W22_of_ne m ρ c main_arg21 (by decide)).trans (at_main_arg21_21 m ρ c)

theorem at_main_arg21_23 (c : Dev nD) : W23 m ρ c (Proc.devRef .tc main_arg21) = (domT m c).lb :=
  (keepH11 (W22 m ρ c) main_arg21 (by decide)).trans (at_main_arg21_22 m ρ c)

theorem at_main_arg21_24 (c : Dev nD) : W24 m ρ c (Proc.devRef .tc main_arg21) = (domT m c).lb :=
  (W24_of_ne m ρ c main_arg21 (by decide)).trans (at_main_arg21_23 m ρ c)

theorem at_main_arg22_13 (c : Dev nD) : W13 m ρ c (Proc.devRef .tc main_arg22) = (domT m c).luW :=
  (keepH6 (W12 m ρ c) main_arg22 (by decide)).trans (at_main_arg22_12 m ρ c)

theorem at_main_arg22_14 (c : Dev nD) : W14 m ρ c (Proc.devRef .tc main_arg22) = (domT m c).luW :=
  (W14_of_ne m ρ c main_arg22 (by decide)).trans (at_main_arg22_13 m ρ c)

theorem at_main_arg22_15 (c : Dev nD) : W15 m ρ c (Proc.devRef .tc main_arg22) = (domT m c).luW :=
  (keepH7 (W14 m ρ c) main_arg22 (by decide)).trans (at_main_arg22_14 m ρ c)

theorem at_main_arg22_16 (c : Dev nD) : W16 m ρ c (Proc.devRef .tc main_arg22) = (domT m c).luW :=
  (W16_of_ne m ρ c main_arg22 (by decide)).trans (at_main_arg22_15 m ρ c)

theorem at_main_arg22_17 (c : Dev nD) : W17 m ρ c (Proc.devRef .tc main_arg22) = (domT m c).luW :=
  (keepH8 (W16 m ρ c) main_arg22 (by decide)).trans (at_main_arg22_16 m ρ c)

theorem at_main_arg22_18 (c : Dev nD) : W18 m ρ c (Proc.devRef .tc main_arg22) = (domT m c).luW :=
  (W18_of_ne m ρ c main_arg22 (by decide)).trans (at_main_arg22_17 m ρ c)

theorem at_main_arg22_19 (c : Dev nD) : W19 m ρ c (Proc.devRef .tc main_arg22) = (domT m c).luW :=
  (keepH9 (W18 m ρ c) main_arg22 (by decide)).trans (at_main_arg22_18 m ρ c)

theorem at_main_arg22_20 (c : Dev nD) : W20 m ρ c (Proc.devRef .tc main_arg22) = (domT m c).luW :=
  (W20_of_ne m ρ c main_arg22 (by decide)).trans (at_main_arg22_19 m ρ c)

theorem at_main_arg22_21 (c : Dev nD) : W21 m ρ c (Proc.devRef .tc main_arg22) = (domT m c).luW :=
  (keepH10 (W20 m ρ c) main_arg22 (by decide)).trans (at_main_arg22_20 m ρ c)

theorem at_main_arg22_22 (c : Dev nD) : W22 m ρ c (Proc.devRef .tc main_arg22) = (domT m c).luW :=
  (W22_of_ne m ρ c main_arg22 (by decide)).trans (at_main_arg22_21 m ρ c)

theorem at_main_arg22_23 (c : Dev nD) : W23 m ρ c (Proc.devRef .tc main_arg22) = (domT m c).luW :=
  (keepH11 (W22 m ρ c) main_arg22 (by decide)).trans (at_main_arg22_22 m ρ c)

theorem at_main_arg22_24 (c : Dev nD) : W24 m ρ c (Proc.devRef .tc main_arg22) = (domT m c).luW :=
  (W24_of_ne m ρ c main_arg22 (by decide)).trans (at_main_arg22_23 m ρ c)

theorem at_main_arg23_13 (c : Dev nD) : W13 m ρ c (Proc.devRef .tc main_arg23) = (domT m c).lub :=
  (keepH6 (W12 m ρ c) main_arg23 (by decide)).trans (at_main_arg23_12 m ρ c)

theorem at_main_arg23_14 (c : Dev nD) : W14 m ρ c (Proc.devRef .tc main_arg23) = (domT m c).lub :=
  (W14_of_ne m ρ c main_arg23 (by decide)).trans (at_main_arg23_13 m ρ c)

theorem at_main_arg23_15 (c : Dev nD) : W15 m ρ c (Proc.devRef .tc main_arg23) = (domT m c).lub :=
  (keepH7 (W14 m ρ c) main_arg23 (by decide)).trans (at_main_arg23_14 m ρ c)

theorem at_main_arg23_16 (c : Dev nD) : W16 m ρ c (Proc.devRef .tc main_arg23) = (domT m c).lub :=
  (W16_of_ne m ρ c main_arg23 (by decide)).trans (at_main_arg23_15 m ρ c)

theorem at_main_arg23_17 (c : Dev nD) : W17 m ρ c (Proc.devRef .tc main_arg23) = (domT m c).lub :=
  (keepH8 (W16 m ρ c) main_arg23 (by decide)).trans (at_main_arg23_16 m ρ c)

theorem at_main_arg23_18 (c : Dev nD) : W18 m ρ c (Proc.devRef .tc main_arg23) = (domT m c).lub :=
  (W18_of_ne m ρ c main_arg23 (by decide)).trans (at_main_arg23_17 m ρ c)

theorem at_main_arg23_19 (c : Dev nD) : W19 m ρ c (Proc.devRef .tc main_arg23) = (domT m c).lub :=
  (keepH9 (W18 m ρ c) main_arg23 (by decide)).trans (at_main_arg23_18 m ρ c)

theorem at_main_arg23_20 (c : Dev nD) : W20 m ρ c (Proc.devRef .tc main_arg23) = (domT m c).lub :=
  (W20_of_ne m ρ c main_arg23 (by decide)).trans (at_main_arg23_19 m ρ c)

theorem at_main_arg23_21 (c : Dev nD) : W21 m ρ c (Proc.devRef .tc main_arg23) = (domT m c).lub :=
  (keepH10 (W20 m ρ c) main_arg23 (by decide)).trans (at_main_arg23_20 m ρ c)

theorem at_main_arg23_22 (c : Dev nD) : W22 m ρ c (Proc.devRef .tc main_arg23) = (domT m c).lub :=
  (W22_of_ne m ρ c main_arg23 (by decide)).trans (at_main_arg23_21 m ρ c)

theorem at_main_arg23_23 (c : Dev nD) : W23 m ρ c (Proc.devRef .tc main_arg23) = (domT m c).lub :=
  (keepH11 (W22 m ρ c) main_arg23 (by decide)).trans (at_main_arg23_22 m ρ c)

theorem at_main_arg23_24 (c : Dev nD) : W24 m ρ c (Proc.devRef .tc main_arg23) = (domT m c).lub :=
  (W24_of_ne m ρ c main_arg23 (by decide)).trans (at_main_arg23_23 m ρ c)

theorem at_main_v40_13 (c : Dev nD) : W13 m ρ c (Proc.devRef .tc main_v40) = (domS m c).u1 :=
  (keepH6 (W12 m ρ c) main_v40 (by decide)).trans (at_main_v40_12 m ρ c)

theorem at_main_v40_14 (c : Dev nD) : W14 m ρ c (Proc.devRef .tc main_v40) = (domS m c).u1 :=
  (W14_of_ne m ρ c main_v40 (by decide)).trans (at_main_v40_13 m ρ c)

theorem at_main_v40_15 (c : Dev nD) : W15 m ρ c (Proc.devRef .tc main_v40) = (domS m c).u1 :=
  (keepH7 (W14 m ρ c) main_v40 (by decide)).trans (at_main_v40_14 m ρ c)

theorem at_main_v40_16 (c : Dev nD) : W16 m ρ c (Proc.devRef .tc main_v40) = (domS m c).u1 :=
  (W16_of_ne m ρ c main_v40 (by decide)).trans (at_main_v40_15 m ρ c)

theorem at_main_v40_17 (c : Dev nD) : W17 m ρ c (Proc.devRef .tc main_v40) = (domS m c).u1 :=
  (keepH8 (W16 m ρ c) main_v40 (by decide)).trans (at_main_v40_16 m ρ c)

theorem at_main_v40_18 (c : Dev nD) : W18 m ρ c (Proc.devRef .tc main_v40) = (domS m c).u1 :=
  (W18_of_ne m ρ c main_v40 (by decide)).trans (at_main_v40_17 m ρ c)

theorem at_main_v40_19 (c : Dev nD) : W19 m ρ c (Proc.devRef .tc main_v40) = (domS m c).u1 :=
  (keepH9 (W18 m ρ c) main_v40 (by decide)).trans (at_main_v40_18 m ρ c)

theorem at_main_v40_20 (c : Dev nD) : W20 m ρ c (Proc.devRef .tc main_v40) = (domS m c).u1 :=
  (W20_of_ne m ρ c main_v40 (by decide)).trans (at_main_v40_19 m ρ c)

theorem at_main_v40_21 (c : Dev nD) : W21 m ρ c (Proc.devRef .tc main_v40) = (domS m c).u1 :=
  (keepH10 (W20 m ρ c) main_v40 (by decide)).trans (at_main_v40_20 m ρ c)

theorem at_main_v40_22 (c : Dev nD) : W22 m ρ c (Proc.devRef .tc main_v40) = (domS m c).u1 :=
  (W22_of_ne m ρ c main_v40 (by decide)).trans (at_main_v40_21 m ρ c)

theorem at_main_v40_23 (c : Dev nD) : W23 m ρ c (Proc.devRef .tc main_v40) = (domS m c).u1 :=
  (keepH11 (W22 m ρ c) main_v40 (by decide)).trans (at_main_v40_22 m ρ c)

theorem at_main_v40_24 (c : Dev nD) : W24 m ρ c (Proc.devRef .tc main_v40) = (domS m c).u1 :=
  (W24_of_ne m ρ c main_v40 (by decide)).trans (at_main_v40_23 m ρ c)

theorem at_main_v0_13 (c : Dev nD) : W13 m ρ c (Proc.devRef .tc main_v0) = (domS m c).UV :=
  (keepH6 (W12 m ρ c) main_v0 (by decide)).trans (at_main_v0_12 m ρ c)

theorem at_main_v0_14 (c : Dev nD) : W14 m ρ c (Proc.devRef .tc main_v0) = (domS m c).UV :=
  (W14_of_ne m ρ c main_v0 (by decide)).trans (at_main_v0_13 m ρ c)

theorem at_main_v0_15 (c : Dev nD) : W15 m ρ c (Proc.devRef .tc main_v0) = (domS m c).UV :=
  (keepH7 (W14 m ρ c) main_v0 (by decide)).trans (at_main_v0_14 m ρ c)

theorem at_main_v0_16 (c : Dev nD) : W16 m ρ c (Proc.devRef .tc main_v0) = (domS m c).UV :=
  (W16_of_ne m ρ c main_v0 (by decide)).trans (at_main_v0_15 m ρ c)

theorem at_main_v0_17 (c : Dev nD) : W17 m ρ c (Proc.devRef .tc main_v0) = (domS m c).UV :=
  (keepH8 (W16 m ρ c) main_v0 (by decide)).trans (at_main_v0_16 m ρ c)

theorem at_main_v0_18 (c : Dev nD) : W18 m ρ c (Proc.devRef .tc main_v0) = (domS m c).UV :=
  (W18_of_ne m ρ c main_v0 (by decide)).trans (at_main_v0_17 m ρ c)

theorem at_main_v0_19 (c : Dev nD) : W19 m ρ c (Proc.devRef .tc main_v0) = (domS m c).UV :=
  (keepH9 (W18 m ρ c) main_v0 (by decide)).trans (at_main_v0_18 m ρ c)

theorem at_main_v0_20 (c : Dev nD) : W20 m ρ c (Proc.devRef .tc main_v0) = (domS m c).UV :=
  ((W20_arr m ρ c 0).trans (((dat9 (V19 m ρ) c).arrAt_in 0 rfl cfg9.N).trans (A_eq9 (V19 m ρ) c 0))).trans (at_main_v0_19 m ρ c)

theorem at_main_v0_21 (c : Dev nD) : W21 m ρ c (Proc.devRef .tc main_v0) = (domS m c).UV :=
  (keepH10 (W20 m ρ c) main_v0 (by decide)).trans (at_main_v0_20 m ρ c)

theorem in_10_0 (c : Dev nD) : V21 m ρ c (Pipeline.arrRef spec10 0) = (domS m c).UV := at_main_v0_21 m ρ c

theorem at_main_v1_13 (c : Dev nD) : W13 m ρ c (Proc.devRef .tc main_v1) = (domS m c).VU :=
  (keepH6 (W12 m ρ c) main_v1 (by decide)).trans (at_main_v1_12 m ρ c)

theorem at_main_v1_14 (c : Dev nD) : W14 m ρ c (Proc.devRef .tc main_v1) = (domS m c).VU :=
  (W14_of_ne m ρ c main_v1 (by decide)).trans (at_main_v1_13 m ρ c)

theorem at_main_v1_15 (c : Dev nD) : W15 m ρ c (Proc.devRef .tc main_v1) = (domS m c).VU :=
  (keepH7 (W14 m ρ c) main_v1 (by decide)).trans (at_main_v1_14 m ρ c)

theorem at_main_v1_16 (c : Dev nD) : W16 m ρ c (Proc.devRef .tc main_v1) = (domS m c).VU :=
  (W16_of_ne m ρ c main_v1 (by decide)).trans (at_main_v1_15 m ρ c)

theorem at_main_v1_17 (c : Dev nD) : W17 m ρ c (Proc.devRef .tc main_v1) = (domS m c).VU :=
  (keepH8 (W16 m ρ c) main_v1 (by decide)).trans (at_main_v1_16 m ρ c)

theorem in_8_0 (c : Dev nD) : V17 m ρ c (Pipeline.arrRef spec8 0) = (domS m c).VU := at_main_v1_17 m ρ c

theorem at_main_v54_13 (c : Dev nD) : W13 m ρ c (Proc.devRef .tc main_v54) = (domS m c).u1 := by
  show StableHlo.after hostOps6 (W12 m ρ c) (Proc.devRef .tc main_v54) = _
  after_results
  rw [at_main_v40_12 m ρ c]
  rfl

theorem in_6_0 (c : Dev nD) : V13 m ρ c (Pipeline.arrRef spec6 0) = (domS m c).u1 := at_main_v54_13 m ρ c

theorem at_main_v57_13 (c : Dev nD) : W13 m ρ c (Proc.devRef .tc main_v57) = slab (⟨0, by decide⟩ : Fin 6) (domS m c).lW := by
  show StableHlo.after hostOps6 (W12 m ρ c) (Proc.devRef .tc main_v57) = _
  after_results
  rw [at_main_v8_12 m ρ c]
  exact slice_reshape_eq_slab 0 (by decide) _ _ _

theorem in_6_1 (c : Dev nD) : V13 m ρ c (Pipeline.arrRef spec6 1) = slab (⟨0, by decide⟩ : Fin 6) (domS m c).lW := at_main_v57_13 m ρ c

theorem at_main_v58_14 (c : Dev nD) : W14 m ρ c (Proc.devRef .tc main_v58) = (domS m c).y2 := by
  refine (W14_arr m ρ c 2).trans ?_
  rw [final6 (V13 m ρ) c]
  rw [in_6_0 m ρ c, in_6_1 m ρ c]
  rfl

theorem at_main_v58_15 (c : Dev nD) : W15 m ρ c (Proc.devRef .tc main_v58) = (domS m c).y2 :=
  (keepH7 (W14 m ρ c) main_v58 (by decide)).trans (at_main_v58_14 m ρ c)

theorem at_main_v58_16 (c : Dev nD) : W16 m ρ c (Proc.devRef .tc main_v58) = (domS m c).y2 :=
  (W16_of_ne m ρ c main_v58 (by decide)).trans (at_main_v58_15 m ρ c)

theorem at_main_v58_17 (c : Dev nD) : W17 m ρ c (Proc.devRef .tc main_v58) = (domS m c).y2 :=
  (keepH8 (W16 m ρ c) main_v58 (by decide)).trans (at_main_v58_16 m ρ c)

theorem in_8_1 (c : Dev nD) : V17 m ρ c (Pipeline.arrRef spec8 1) = (domS m c).y2 := at_main_v58_17 m ρ c

theorem at_main_arg13_13 (c : Dev nD) : W13 m ρ c (Proc.devRef .tc main_arg13) = (domS m c).lb :=
  (keepH6 (W12 m ρ c) main_arg13 (by decide)).trans (at_main_arg13_12 m ρ c)

theorem at_main_arg13_14 (c : Dev nD) : W14 m ρ c (Proc.devRef .tc main_arg13) = (domS m c).lb :=
  (W14_of_ne m ρ c main_arg13 (by decide)).trans (at_main_arg13_13 m ρ c)

theorem at_main_arg13_15 (c : Dev nD) : W15 m ρ c (Proc.devRef .tc main_arg13) = (domS m c).lb :=
  (keepH7 (W14 m ρ c) main_arg13 (by decide)).trans (at_main_arg13_14 m ρ c)

theorem at_main_arg13_16 (c : Dev nD) : W16 m ρ c (Proc.devRef .tc main_arg13) = (domS m c).lb :=
  (W16_of_ne m ρ c main_arg13 (by decide)).trans (at_main_arg13_15 m ρ c)

theorem at_main_v66_17 (c : Dev nD) : W17 m ρ c (Proc.devRef .tc main_v66) = rowMat (⟨0, by decide⟩ : Fin 6) (domS m c).lb := by
  show StableHlo.after hostOps8 (W16 m ρ c) (Proc.devRef .tc main_v66) = _
  after_results
  rw [at_main_arg13_16 m ρ c]
  exact slice_reshape_rowmat_eq 0 (by decide) _ _ _ _

theorem in_8_2 (c : Dev nD) : V17 m ρ c (Pipeline.arrRef spec8 2) = rowMat (⟨0, by decide⟩ : Fin 6) (domS m c).lb := at_main_v66_17 m ρ c

theorem at_main_v8_13 (c : Dev nD) : W13 m ρ c (Proc.devRef .tc main_v8) = (domS m c).lW :=
  (keepH6 (W12 m ρ c) main_v8 (by decide)).trans (at_main_v8_12 m ρ c)

theorem at_main_v8_14 (c : Dev nD) : W14 m ρ c (Proc.devRef .tc main_v8) = (domS m c).lW :=
  (W14_of_ne m ρ c main_v8 (by decide)).trans (at_main_v8_13 m ρ c)

theorem at_main_v8_15 (c : Dev nD) : W15 m ρ c (Proc.devRef .tc main_v8) = (domS m c).lW :=
  (keepH7 (W14 m ρ c) main_v8 (by decide)).trans (at_main_v8_14 m ρ c)

theorem at_main_v8_16 (c : Dev nD) : W16 m ρ c (Proc.devRef .tc main_v8) = (domS m c).lW :=
  (W16_of_ne m ρ c main_v8 (by decide)).trans (at_main_v8_15 m ρ c)

theorem at_main_v65_17 (c : Dev nD) : W17 m ρ c (Proc.devRef .tc main_v65) = slab (⟨2, by decide⟩ : Fin 6) (domS m c).lW := by
  show StableHlo.after hostOps8 (W16 m ρ c) (Proc.devRef .tc main_v65) = _
  after_results
  rw [at_main_v8_16 m ρ c]
  exact slice_reshape_eq_slab 2 (by decide) _ _ _

theorem in_8_3 (c : Dev nD) : V17 m ρ c (Pipeline.arrRef spec8 3) = slab (⟨2, by decide⟩ : Fin 6) (domS m c).lW := at_main_v65_17 m ρ c

theorem at_main_v67_18 (c : Dev nD) : W18 m ρ c (Proc.devRef .tc main_v67) = (domS m c).q1 := by
  refine (W18_arr m ρ c 4).trans ?_
  rw [final8 (V17 m ρ) c]
  rw [in_8_0 m ρ c, in_8_1 m ρ c, in_8_2 m ρ c, in_8_3 m ρ c]
  rfl

theorem at_main_v67_19 (c : Dev nD) : W19 m ρ c (Proc.devRef .tc main_v67) = (domS m c).q1 :=
  (keepH9 (W18 m ρ c) main_v67 (by decide)).trans (at_main_v67_18 m ρ c)

theorem at_main_v67_20 (c : Dev nD) : W20 m ρ c (Proc.devRef .tc main_v67) = (domS m c).q1 :=
  (W20_of_ne m ρ c main_v67 (by decide)).trans (at_main_v67_19 m ρ c)

theorem at_main_v67_21 (c : Dev nD) : W21 m ρ c (Proc.devRef .tc main_v67) = (domS m c).q1 :=
  (keepH10 (W20 m ρ c) main_v67 (by decide)).trans (at_main_v67_20 m ρ c)

theorem in_10_1 (c : Dev nD) : V21 m ρ c (Pipeline.arrRef spec10 1) = (domS m c).q1 := at_main_v67_21 m ρ c

theorem at_main_arg13_17 (c : Dev nD) : W17 m ρ c (Proc.devRef .tc main_arg13) = (domS m c).lb :=
  (keepH8 (W16 m ρ c) main_arg13 (by decide)).trans (at_main_arg13_16 m ρ c)

theorem at_main_arg13_18 (c : Dev nD) : W18 m ρ c (Proc.devRef .tc main_arg13) = (domS m c).lb :=
  (W18_of_ne m ρ c main_arg13 (by decide)).trans (at_main_arg13_17 m ρ c)

theorem at_main_arg13_19 (c : Dev nD) : W19 m ρ c (Proc.devRef .tc main_arg13) = (domS m c).lb :=
  (keepH9 (W18 m ρ c) main_arg13 (by decide)).trans (at_main_arg13_18 m ρ c)

theorem at_main_arg13_20 (c : Dev nD) : W20 m ρ c (Proc.devRef .tc main_arg13) = (domS m c).lb :=
  (W20_of_ne m ρ c main_arg13 (by decide)).trans (at_main_arg13_19 m ρ c)

theorem at_main_v84_21 (c : Dev nD) : W21 m ρ c (Proc.devRef .tc main_v84) = rowMat (⟨2, by decide⟩ : Fin 6) (domS m c).lb := by
  show StableHlo.after hostOps10 (W20 m ρ c) (Proc.devRef .tc main_v84) = _
  after_results
  rw [at_main_arg13_20 m ρ c]
  exact slice_reshape_rowmat_eq 2 (by decide) _ _ _ _

theorem in_10_2 (c : Dev nD) : V21 m ρ c (Pipeline.arrRef spec10 2) = rowMat (⟨2, by decide⟩ : Fin 6) (domS m c).lb := at_main_v84_21 m ρ c

theorem at_main_v9_13 (c : Dev nD) : W13 m ρ c (Proc.devRef .tc main_v9) = (domS m c).luW :=
  (keepH6 (W12 m ρ c) main_v9 (by decide)).trans (at_main_v9_12 m ρ c)

theorem at_main_v9_14 (c : Dev nD) : W14 m ρ c (Proc.devRef .tc main_v9) = (domS m c).luW :=
  (W14_of_ne m ρ c main_v9 (by decide)).trans (at_main_v9_13 m ρ c)

theorem at_main_v9_15 (c : Dev nD) : W15 m ρ c (Proc.devRef .tc main_v9) = (domS m c).luW :=
  (keepH7 (W14 m ρ c) main_v9 (by decide)).trans (at_main_v9_14 m ρ c)

theorem at_main_v9_16 (c : Dev nD) : W16 m ρ c (Proc.devRef .tc main_v9) = (domS m c).luW :=
  (W16_of_ne m ρ c main_v9 (by decide)).trans (at_main_v9_15 m ρ c)

theorem at_main_v9_17 (c : Dev nD) : W17 m ρ c (Proc.devRef .tc main_v9) = (domS m c).luW :=
  (keepH8 (W16 m ρ c) main_v9 (by decide)).trans (at_main_v9_16 m ρ c)

theorem at_main_v9_18 (c : Dev nD) : W18 m ρ c (Proc.devRef .tc main_v9) = (domS m c).luW :=
  (W18_of_ne m ρ c main_v9 (by decide)).trans (at_main_v9_17 m ρ c)

theorem at_main_v9_19 (c : Dev nD) : W19 m ρ c (Proc.devRef .tc main_v9) = (domS m c).luW :=
  (keepH9 (W18 m ρ c) main_v9 (by decide)).trans (at_main_v9_18 m ρ c)

theorem at_main_v9_20 (c : Dev nD) : W20 m ρ c (Proc.devRef .tc main_v9) = (domS m c).luW :=
  (W20_of_ne m ρ c main_v9 (by decide)).trans (at_main_v9_19 m ρ c)

theorem at_main_v78_21 (c : Dev nD) : W21 m ρ c (Proc.devRef .tc main_v78) = top (slab (⟨0, by decide⟩ : Fin 4) (domS m c).luW) := by
  show StableHlo.after hostOps10 (W20 m ρ c) (Proc.devRef .tc main_v78) = _
  after_results
  rw [at_main_v9_20 m ρ c]
  exact slab_top_eq (a := 128) (b := 128) _ 0 (by decide) _ _ _

theorem in_10_3 (c : Dev nD) : V21 m ρ c (Pipeline.arrRef spec10 3) = top (slab (⟨0, by decide⟩ : Fin 4) (domS m c).luW) := at_main_v78_21 m ρ c

theorem at_main_v54_14 (c : Dev nD) : W14 m ρ c (Proc.devRef .tc main_v54) = (domS m c).u1 :=
  ((W14_arr m ρ c 0).trans (((dat6 (V13 m ρ) c).arrAt_in 0 rfl cfg6.N).trans (A_eq6 (V13 m ρ) c 0))).trans (at_main_v54_13 m ρ c)

theorem at_main_v54_15 (c : Dev nD) : W15 m ρ c (Proc.devRef .tc main_v54) = (domS m c).u1 :=
  (keepH7 (W14 m ρ c) main_v54 (by decide)).trans (at_main_v54_14 m ρ c)

theorem at_main_v54_16 (c : Dev nD) : W16 m ρ c (Proc.devRef .tc main_v54) = (domS m c).u1 :=
  (W16_of_ne m ρ c main_v54 (by decide)).trans (at_main_v54_15 m ρ c)

theorem at_main_v54_17 (c : Dev nD) : W17 m ρ c (Proc.devRef .tc main_v54) = (domS m c).u1 :=
  (keepH8 (W16 m ρ c) main_v54 (by decide)).trans (at_main_v54_16 m ρ c)

theorem at_main_v54_18 (c : Dev nD) : W18 m ρ c (Proc.devRef .tc main_v54) = (domS m c).u1 :=
  (W18_of_ne m ρ c main_v54 (by decide)).trans (at_main_v54_17 m ρ c)

theorem at_main_v54_19 (c : Dev nD) : W19 m ρ c (Proc.devRef .tc main_v54) = (domS m c).u1 :=
  (keepH9 (W18 m ρ c) main_v54 (by decide)).trans (at_main_v54_18 m ρ c)

theorem at_main_v54_20 (c : Dev nD) : W20 m ρ c (Proc.devRef .tc main_v54) = (domS m c).u1 :=
  (W20_of_ne m ρ c main_v54 (by decide)).trans (at_main_v54_19 m ρ c)

theorem at_main_v54_21 (c : Dev nD) : W21 m ρ c (Proc.devRef .tc main_v54) = (domS m c).u1 :=
  (keepH10 (W20 m ρ c) main_v54 (by decide)).trans (at_main_v54_20 m ρ c)

theorem in_10_4 (c : Dev nD) : V21 m ρ c (Pipeline.arrRef spec10 4) = (domS m c).u1 := at_main_v54_21 m ρ c

theorem at_main_v81_21 (c : Dev nD) : W21 m ρ c (Proc.devRef .tc main_v81) = bot (slab (⟨0, by decide⟩ : Fin 4) (domS m c).luW) := by
  show StableHlo.after hostOps10 (W20 m ρ c) (Proc.devRef .tc main_v81) = _
  after_results
  rw [at_main_v9_20 m ρ c]
  exact slab_bot_eq (a := 128) (b := 128) _ 0 (by decide) _ _ _

theorem in_10_5 (c : Dev nD) : V21 m ρ c (Pipeline.arrRef spec10 5) = bot (slab (⟨0, by decide⟩ : Fin 4) (domS m c).luW) := at_main_v81_21 m ρ c

theorem at_main_arg15_13 (c : Dev nD) : W13 m ρ c (Proc.devRef .tc main_arg15) = (domS m c).lub :=
  (keepH6 (W12 m ρ c) main_arg15 (by decide)).trans (at_main_arg15_12 m ρ c)

theorem at_main_arg15_14 (c : Dev nD) : W14 m ρ c (Proc.devRef .tc main_arg15) = (domS m c).lub :=
  (W14_of_ne m ρ c main_arg15 (by decide)).trans (at_main_arg15_13 m ρ c)

theorem at_main_arg15_15 (c : Dev nD) : W15 m ρ c (Proc.devRef .tc main_arg15) = (domS m c).lub :=
  (keepH7 (W14 m ρ c) main_arg15 (by decide)).trans (at_main_arg15_14 m ρ c)

theorem at_main_arg15_16 (c : Dev nD) : W16 m ρ c (Proc.devRef .tc main_arg15) = (domS m c).lub :=
  (W16_of_ne m ρ c main_arg15 (by decide)).trans (at_main_arg15_15 m ρ c)

theorem at_main_arg15_17 (c : Dev nD) : W17 m ρ c (Proc.devRef .tc main_arg15) = (domS m c).lub :=
  (keepH8 (W16 m ρ c) main_arg15 (by decide)).trans (at_main_arg15_16 m ρ c)

theorem at_main_arg15_18 (c : Dev nD) : W18 m ρ c (Proc.devRef .tc main_arg15) = (domS m c).lub :=
  (W18_of_ne m ρ c main_arg15 (by decide)).trans (at_main_arg15_17 m ρ c)

theorem at_main_arg15_19 (c : Dev nD) : W19 m ρ c (Proc.devRef .tc main_arg15) = (domS m c).lub :=
  (keepH9 (W18 m ρ c) main_arg15 (by decide)).trans (at_main_arg15_18 m ρ c)

theorem at_main_arg15_20 (c : Dev nD) : W20 m ρ c (Proc.devRef .tc main_arg15) = (domS m c).lub :=
  (W20_of_ne m ρ c main_arg15 (by decide)).trans (at_main_arg15_19 m ρ c)

theorem at_main_v85_21 (c : Dev nD) : W21 m ρ c (Proc.devRef .tc main_v85) = rowMat (⟨0, by decide⟩ : Fin 4) (domS m c).lub := by
  show StableHlo.after hostOps10 (W20 m ρ c) (Proc.devRef .tc main_v85) = _
  after_results
  rw [at_main_arg15_20 m ρ c]
  exact slice_reshape_rowmat_eq 0 (by decide) _ _ _ _

theorem in_10_6 (c : Dev nD) : V21 m ρ c (Pipeline.arrRef spec10 6) = rowMat (⟨0, by decide⟩ : Fin 4) (domS m c).lub := at_main_v85_21 m ρ c

theorem at_main_v86_22 (c : Dev nD) : W22 m ρ c (Proc.devRef .tc main_v86) = (domS m c).u2 := by
  refine (W22_arr m ρ c 7).trans ?_
  rw [final10 (V21 m ρ) c]
  rw [in_10_0 m ρ c, in_10_1 m ρ c, in_10_2 m ρ c, in_10_3 m ρ c, in_10_4 m ρ c, in_10_5 m ρ c, in_10_6 m ρ c]
  rfl

theorem at_main_v86_23 (c : Dev nD) : W23 m ρ c (Proc.devRef .tc main_v86) = (domS m c).u2 :=
  (keepH11 (W22 m ρ c) main_v86 (by decide)).trans (at_main_v86_22 m ρ c)

theorem at_main_v86_24 (c : Dev nD) : W24 m ρ c (Proc.devRef .tc main_v86) = (domS m c).u2 :=
  (W24_of_ne m ρ c main_v86 (by decide)).trans (at_main_v86_23 m ρ c)

theorem at_main_v53_13 (c : Dev nD) : W13 m ρ c (Proc.devRef .tc main_v53) = (domS m c).v1 :=
  (keepH6 (W12 m ρ c) main_v53 (by decide)).trans (at_main_v53_12 m ρ c)

theorem at_main_v53_14 (c : Dev nD) : W14 m ρ c (Proc.devRef .tc main_v53) = (domS m c).v1 :=
  (W14_of_ne m ρ c main_v53 (by decide)).trans (at_main_v53_13 m ρ c)

theorem at_main_v53_15 (c : Dev nD) : W15 m ρ c (Proc.devRef .tc main_v53) = (domS m c).v1 :=
  (keepH7 (W14 m ρ c) main_v53 (by decide)).trans (at_main_v53_14 m ρ c)

theorem at_main_v53_16 (c : Dev nD) : W16 m ρ c (Proc.devRef .tc main_v53) = (domS m c).v1 :=
  (W16_of_ne m ρ c main_v53 (by decide)).trans (at_main_v53_15 m ρ c)

theorem at_main_v53_17 (c : Dev nD) : W17 m ρ c (Proc.devRef .tc main_v53) = (domS m c).v1 :=
  (keepH8 (W16 m ρ c) main_v53 (by decide)).trans (at_main_v53_16 m ρ c)

theorem at_main_v53_18 (c : Dev nD) : W18 m ρ c (Proc.devRef .tc main_v53) = (domS m c).v1 :=
  (W18_of_ne m ρ c main_v53 (by decide)).trans (at_main_v53_17 m ρ c)

theorem at_main_v53_19 (c : Dev nD) : W19 m ρ c (Proc.devRef .tc main_v53) = (domS m c).v1 :=
  (keepH9 (W18 m ρ c) main_v53 (by decide)).trans (at_main_v53_18 m ρ c)

theorem at_main_v53_20 (c : Dev nD) : W20 m ρ c (Proc.devRef .tc main_v53) = (domS m c).v1 :=
  (W20_of_ne m ρ c main_v53 (by decide)).trans (at_main_v53_19 m ρ c)

theorem at_main_v53_21 (c : Dev nD) : W21 m ρ c (Proc.devRef .tc main_v53) = (domS m c).v1 :=
  (keepH10 (W20 m ρ c) main_v53 (by decide)).trans (at_main_v53_20 m ρ c)

theorem at_main_v53_22 (c : Dev nD) : W22 m ρ c (Proc.devRef .tc main_v53) = (domS m c).v1 :=
  (W22_of_ne m ρ c main_v53 (by decide)).trans (at_main_v53_21 m ρ c)

theorem at_main_v53_23 (c : Dev nD) : W23 m ρ c (Proc.devRef .tc main_v53) = (domS m c).v1 :=
  (keepH11 (W22 m ρ c) main_v53 (by decide)).trans (at_main_v53_22 m ρ c)

theorem at_main_v53_24 (c : Dev nD) : W24 m ρ c (Proc.devRef .tc main_v53) = (domS m c).v1 :=
  (W24_of_ne m ρ c main_v53 (by decide)).trans (at_main_v53_23 m ρ c)

theorem at_main_v1_18 (c : Dev nD) : W18 m ρ c (Proc.devRef .tc main_v1) = (domS m c).VU :=
  ((W18_arr m ρ c 0).trans (((dat8 (V17 m ρ) c).arrAt_in 0 rfl cfg8.N).trans (A_eq8 (V17 m ρ) c 0))).trans (at_main_v1_17 m ρ c)

theorem at_main_v1_19 (c : Dev nD) : W19 m ρ c (Proc.devRef .tc main_v1) = (domS m c).VU :=
  (keepH9 (W18 m ρ c) main_v1 (by decide)).trans (at_main_v1_18 m ρ c)

theorem at_main_v1_20 (c : Dev nD) : W20 m ρ c (Proc.devRef .tc main_v1) = (domS m c).VU :=
  (W20_of_ne m ρ c main_v1 (by decide)).trans (at_main_v1_19 m ρ c)

theorem at_main_v1_21 (c : Dev nD) : W21 m ρ c (Proc.devRef .tc main_v1) = (domS m c).VU :=
  (keepH10 (W20 m ρ c) main_v1 (by decide)).trans (at_main_v1_20 m ρ c)

theorem at_main_v1_22 (c : Dev nD) : W22 m ρ c (Proc.devRef .tc main_v1) = (domS m c).VU :=
  (W22_of_ne m ρ c main_v1 (by decide)).trans (at_main_v1_21 m ρ c)

theorem at_main_v1_23 (c : Dev nD) : W23 m ρ c (Proc.devRef .tc main_v1) = (domS m c).VU :=
  (keepH11 (W22 m ρ c) main_v1 (by decide)).trans (at_main_v1_22 m ρ c)

theorem in_11_0 (c : Dev nD) : V23 m ρ c (Pipeline.arrRef spec11 0) = (domS m c).VU := at_main_v1_23 m ρ c

theorem in_9_0 (c : Dev nD) : V19 m ρ c (Pipeline.arrRef spec9 0) = (domS m c).UV := at_main_v0_19 m ρ c

theorem at_main_v55_13 (c : Dev nD) : W13 m ρ c (Proc.devRef .tc main_v55) = (domS m c).v1 := by
  show StableHlo.after hostOps6 (W12 m ρ c) (Proc.devRef .tc main_v55) = _
  after_results
  rw [at_main_v53_12 m ρ c]
  rfl

theorem at_main_v55_14 (c : Dev nD) : W14 m ρ c (Proc.devRef .tc main_v55) = (domS m c).v1 :=
  (W14_of_ne m ρ c main_v55 (by decide)).trans (at_main_v55_13 m ρ c)

theorem at_main_v55_15 (c : Dev nD) : W15 m ρ c (Proc.devRef .tc main_v55) = (domS m c).v1 :=
  (keepH7 (W14 m ρ c) main_v55 (by decide)).trans (at_main_v55_14 m ρ c)

theorem in_7_0 (c : Dev nD) : V15 m ρ c (Pipeline.arrRef spec7 0) = (domS m c).v1 := at_main_v55_15 m ρ c

theorem at_main_v60_15 (c : Dev nD) : W15 m ρ c (Proc.devRef .tc main_v60) = slab (⟨1, by decide⟩ : Fin 6) (domS m c).lW := by
  show StableHlo.after hostOps7 (W14 m ρ c) (Proc.devRef .tc main_v60) = _
  after_results
  rw [at_main_v8_14 m ρ c]
  exact slice_reshape_eq_slab 1 (by decide) _ _ _

theorem in_7_1 (c : Dev nD) : V15 m ρ c (Pipeline.arrRef spec7 1) = slab (⟨1, by decide⟩ : Fin 6) (domS m c).lW := at_main_v60_15 m ρ c

theorem at_main_v61_16 (c : Dev nD) : W16 m ρ c (Proc.devRef .tc main_v61) = (domS m c).y3 := by
  refine (W16_arr m ρ c 2).trans ?_
  rw [final7 (V15 m ρ) c]
  rw [in_7_0 m ρ c, in_7_1 m ρ c]
  rfl

theorem at_main_v61_17 (c : Dev nD) : W17 m ρ c (Proc.devRef .tc main_v61) = (domS m c).y3 :=
  (keepH8 (W16 m ρ c) main_v61 (by decide)).trans (at_main_v61_16 m ρ c)

theorem at_main_v61_18 (c : Dev nD) : W18 m ρ c (Proc.devRef .tc main_v61) = (domS m c).y3 :=
  (W18_of_ne m ρ c main_v61 (by decide)).trans (at_main_v61_17 m ρ c)

theorem at_main_v61_19 (c : Dev nD) : W19 m ρ c (Proc.devRef .tc main_v61) = (domS m c).y3 :=
  (keepH9 (W18 m ρ c) main_v61 (by decide)).trans (at_main_v61_18 m ρ c)

theorem in_9_1 (c : Dev nD) : V19 m ρ c (Pipeline.arrRef spec9 1) = (domS m c).y3 := at_main_v61_19 m ρ c

theorem at_main_v72_19 (c : Dev nD) : W19 m ρ c (Proc.devRef .tc main_v72) = rowMat (⟨1, by decide⟩ : Fin 6) (domS m c).lb := by
  show StableHlo.after hostOps9 (W18 m ρ c) (Proc.devRef .tc main_v72) = _
  after_results
  rw [at_main_arg13_18 m ρ c]
  exact slice_reshape_rowmat_eq 1 (by decide) _ _ _ _

theorem in_9_2 (c : Dev nD) : V19 m ρ c (Pipeline.arrRef spec9 2) = rowMat (⟨1, by decide⟩ : Fin 6) (domS m c).lb := at_main_v72_19 m ρ c

theorem at_main_v8_17 (c : Dev nD) : W17 m ρ c (Proc.devRef .tc main_v8) = (domS m c).lW :=
  (keepH8 (W16 m ρ c) main_v8 (by decide)).trans (at_main_v8_16 m ρ c)

theorem at_main_v8_18 (c : Dev nD) : W18 m ρ c (Proc.devRef .tc main_v8) = (domS m c).lW :=
  (W18_of_ne m ρ c main_v8 (by decide)).trans (at_main_v8_17 m ρ c)

theorem at_main_v71_19 (c : Dev nD) : W19 m ρ c (Proc.devRef .tc main_v71) = slab (⟨4, by decide⟩ : Fin 6) (domS m c).lW := by
  show StableHlo.after hostOps9 (W18 m ρ c) (Proc.devRef .tc main_v71) = _
  after_results
  rw [at_main_v8_18 m ρ c]
  exact slice_reshape_eq_slab 4 (by decide) _ _ _

theorem in_9_3 (c : Dev nD) : V19 m ρ c (Pipeline.arrRef spec9 3) = slab (⟨4, by decide⟩ : Fin 6) (domS m c).lW := at_main_v71_19 m ρ c

theorem at_main_v73_20 (c : Dev nD) : W20 m ρ c (Proc.devRef .tc main_v73) = (domS m c).q2 := by
  refine (W20_arr m ρ c 4).trans ?_
  rw [final9 (V19 m ρ) c]
  rw [in_9_0 m ρ c, in_9_1 m ρ c, in_9_2 m ρ c, in_9_3 m ρ c]
  rfl

theorem at_main_v73_21 (c : Dev nD) : W21 m ρ c (Proc.devRef .tc main_v73) = (domS m c).q2 :=
  (keepH10 (W20 m ρ c) main_v73 (by decide)).trans (at_main_v73_20 m ρ c)

theorem at_main_v73_22 (c : Dev nD) : W22 m ρ c (Proc.devRef .tc main_v73) = (domS m c).q2 :=
  (W22_of_ne m ρ c main_v73 (by decide)).trans (at_main_v73_21 m ρ c)

theorem at_main_v73_23 (c : Dev nD) : W23 m ρ c (Proc.devRef .tc main_v73) = (domS m c).q2 :=
  (keepH11 (W22 m ρ c) main_v73 (by decide)).trans (at_main_v73_22 m ρ c)

theorem in_11_1 (c : Dev nD) : V23 m ρ c (Pipeline.arrRef spec11 1) = (domS m c).q2 := at_main_v73_23 m ρ c

theorem at_main_arg13_21 (c : Dev nD) : W21 m ρ c (Proc.devRef .tc main_arg13) = (domS m c).lb :=
  (keepH10 (W20 m ρ c) main_arg13 (by decide)).trans (at_main_arg13_20 m ρ c)

theorem at_main_arg13_22 (c : Dev nD) : W22 m ρ c (Proc.devRef .tc main_arg13) = (domS m c).lb :=
  (W22_of_ne m ρ c main_arg13 (by decide)).trans (at_main_arg13_21 m ρ c)

theorem at_main_v97_23 (c : Dev nD) : W23 m ρ c (Proc.devRef .tc main_v97) = rowMat (⟨4, by decide⟩ : Fin 6) (domS m c).lb := by
  show StableHlo.after hostOps11 (W22 m ρ c) (Proc.devRef .tc main_v97) = _
  after_results
  rw [at_main_arg13_22 m ρ c]
  exact slice_reshape_rowmat_eq 4 (by decide) _ _ _ _

theorem in_11_2 (c : Dev nD) : V23 m ρ c (Pipeline.arrRef spec11 2) = rowMat (⟨4, by decide⟩ : Fin 6) (domS m c).lb := at_main_v97_23 m ρ c

theorem at_main_v9_21 (c : Dev nD) : W21 m ρ c (Proc.devRef .tc main_v9) = (domS m c).luW :=
  (keepH10 (W20 m ρ c) main_v9 (by decide)).trans (at_main_v9_20 m ρ c)

theorem at_main_v9_22 (c : Dev nD) : W22 m ρ c (Proc.devRef .tc main_v9) = (domS m c).luW :=
  (W22_of_ne m ρ c main_v9 (by decide)).trans (at_main_v9_21 m ρ c)

theorem at_main_v91_23 (c : Dev nD) : W23 m ρ c (Proc.devRef .tc main_v91) = top (slab (⟨2, by decide⟩ : Fin 4) (domS m c).luW) := by
  show StableHlo.after hostOps11 (W22 m ρ c) (Proc.devRef .tc main_v91) = _
  after_results
  rw [at_main_v9_22 m ρ c]
  exact slab_top_eq (a := 128) (b := 128) _ 2 (by decide) _ _ _

theorem in_11_3 (c : Dev nD) : V23 m ρ c (Pipeline.arrRef spec11 3) = top (slab (⟨2, by decide⟩ : Fin 4) (domS m c).luW) := at_main_v91_23 m ρ c

theorem at_main_v55_16 (c : Dev nD) : W16 m ρ c (Proc.devRef .tc main_v55) = (domS m c).v1 :=
  ((W16_arr m ρ c 0).trans (((dat7 (V15 m ρ) c).arrAt_in 0 rfl cfg7.N).trans (A_eq7 (V15 m ρ) c 0))).trans (at_main_v55_15 m ρ c)

theorem at_main_v55_17 (c : Dev nD) : W17 m ρ c (Proc.devRef .tc main_v55) = (domS m c).v1 :=
  (keepH8 (W16 m ρ c) main_v55 (by decide)).trans (at_main_v55_16 m ρ c)

theorem at_main_v55_18 (c : Dev nD) : W18 m ρ c (Proc.devRef .tc main_v55) = (domS m c).v1 :=
  (W18_of_ne m ρ c main_v55 (by decide)).trans (at_main_v55_17 m ρ c)

theorem at_main_v55_19 (c : Dev nD) : W19 m ρ c (Proc.devRef .tc main_v55) = (domS m c).v1 :=
  (keepH9 (W18 m ρ c) main_v55 (by decide)).trans (at_main_v55_18 m ρ c)

theorem at_main_v55_20 (c : Dev nD) : W20 m ρ c (Proc.devRef .tc main_v55) = (domS m c).v1 :=
  (W20_of_ne m ρ c main_v55 (by decide)).trans (at_main_v55_19 m ρ c)

theorem at_main_v55_21 (c : Dev nD) : W21 m ρ c (Proc.devRef .tc main_v55) = (domS m c).v1 :=
  (keepH10 (W20 m ρ c) main_v55 (by decide)).trans (at_main_v55_20 m ρ c)

theorem at_main_v55_22 (c : Dev nD) : W22 m ρ c (Proc.devRef .tc main_v55) = (domS m c).v1 :=
  (W22_of_ne m ρ c main_v55 (by decide)).trans (at_main_v55_21 m ρ c)

theorem at_main_v55_23 (c : Dev nD) : W23 m ρ c (Proc.devRef .tc main_v55) = (domS m c).v1 :=
  (keepH11 (W22 m ρ c) main_v55 (by decide)).trans (at_main_v55_22 m ρ c)

theorem in_11_4 (c : Dev nD) : V23 m ρ c (Pipeline.arrRef spec11 4) = (domS m c).v1 := at_main_v55_23 m ρ c

theorem at_main_v94_23 (c : Dev nD) : W23 m ρ c (Proc.devRef .tc main_v94) = bot (slab (⟨2, by decide⟩ : Fin 4) (domS m c).luW) := by
  show StableHlo.after hostOps11 (W22 m ρ c) (Proc.devRef .tc main_v94) = _
  after_results
  rw [at_main_v9_22 m ρ c]
  exact slab_bot_eq (a := 128) (b := 128) _ 2 (by decide) _ _ _

theorem in_11_5 (c : Dev nD) : V23 m ρ c (Pipeline.arrRef spec11 5) = bot (slab (⟨2, by decide⟩ : Fin 4) (domS m c).luW) := at_main_v94_23 m ρ c

theorem at_main_arg15_21 (c : Dev nD) : W21 m ρ c (Proc.devRef .tc main_arg15) = (domS m c).lub :=
  (keepH10 (W20 m ρ c) main_arg15 (by decide)).trans (at_main_arg15_20 m ρ c)

theorem at_main_arg15_22 (c : Dev nD) : W22 m ρ c (Proc.devRef .tc main_arg15) = (domS m c).lub :=
  (W22_of_ne m ρ c main_arg15 (by decide)).trans (at_main_arg15_21 m ρ c)

theorem at_main_v98_23 (c : Dev nD) : W23 m ρ c (Proc.devRef .tc main_v98) = rowMat (⟨2, by decide⟩ : Fin 4) (domS m c).lub := by
  show StableHlo.after hostOps11 (W22 m ρ c) (Proc.devRef .tc main_v98) = _
  after_results
  rw [at_main_arg15_22 m ρ c]
  exact slice_reshape_rowmat_eq 2 (by decide) _ _ _ _

theorem in_11_6 (c : Dev nD) : V23 m ρ c (Pipeline.arrRef spec11 6) = rowMat (⟨2, by decide⟩ : Fin 4) (domS m c).lub := at_main_v98_23 m ρ c

theorem at_main_v99_24 (c : Dev nD) : W24 m ρ c (Proc.devRef .tc main_v99) = (domS m c).v2 := by
  refine (W24_arr m ρ c 7).trans ?_
  rw [final11 (V23 m ρ) c]
  rw [in_11_0 m ρ c, in_11_1 m ρ c, in_11_2 m ρ c, in_11_3 m ρ c, in_11_4 m ρ c, in_11_5 m ρ c, in_11_6 m ρ c]
  rfl

theorem at_main_arg7_13 (c : Dev nD) : W13 m ρ c (Proc.devRef .tc main_arg7) = (domT m c).xv :=
  (keepH6 (W12 m ρ c) main_arg7 (by decide)).trans (at_main_arg7_12 m ρ c)

theorem at_main_arg7_14 (c : Dev nD) : W14 m ρ c (Proc.devRef .tc main_arg7) = (domT m c).xv :=
  (W14_of_ne m ρ c main_arg7 (by decide)).trans (at_main_arg7_13 m ρ c)

theorem at_main_arg7_15 (c : Dev nD) : W15 m ρ c (Proc.devRef .tc main_arg7) = (domT m c).xv :=
  (keepH7 (W14 m ρ c) main_arg7 (by decide)).trans (at_main_arg7_14 m ρ c)

theorem at_main_arg7_16 (c : Dev nD) : W16 m ρ c (Proc.devRef .tc main_arg7) = (domT m c).xv :=
  (W16_of_ne m ρ c main_arg7 (by decide)).trans (at_main_arg7_15 m ρ c)

theorem at_main_arg7_17 (c : Dev nD) : W17 m ρ c (Proc.devRef .tc main_arg7) = (domT m c).xv :=
  (keepH8 (W16 m ρ c) main_arg7 (by decide)).trans (at_main_arg7_16 m ρ c)

theorem at_main_arg7_18 (c : Dev nD) : W18 m ρ c (Proc.devRef .tc main_arg7) = (domT m c).xv :=
  (W18_of_ne m ρ c main_arg7 (by decide)).trans (at_main_arg7_17 m ρ c)

theorem at_main_arg7_19 (c : Dev nD) : W19 m ρ c (Proc.devRef .tc main_arg7) = (domT m c).xv :=
  (keepH9 (W18 m ρ c) main_arg7 (by decide)).trans (at_main_arg7_18 m ρ c)

theorem at_main_arg7_20 (c : Dev nD) : W20 m ρ c (Proc.devRef .tc main_arg7) = (domT m c).xv :=
  (W20_of_ne m ρ c main_arg7 (by decide)).trans (at_main_arg7_19 m ρ c)

theorem at_main_arg7_21 (c : Dev nD) : W21 m ρ c (Proc.devRef .tc main_arg7) = (domT m c).xv :=
  (keepH10 (W20 m ρ c) main_arg7 (by decide)).trans (at_main_arg7_20 m ρ c)

theorem at_main_arg7_22 (c : Dev nD) : W22 m ρ c (Proc.devRef .tc main_arg7) = (domT m c).xv :=
  (W22_of_ne m ρ c main_arg7 (by decide)).trans (at_main_arg7_21 m ρ c)

theorem at_main_arg7_23 (c : Dev nD) : W23 m ρ c (Proc.devRef .tc main_arg7) = (domT m c).xv :=
  (keepH11 (W22 m ρ c) main_arg7 (by decide)).trans (at_main_arg7_22 m ρ c)

theorem at_main_arg7_24 (c : Dev nD) : W24 m ρ c (Proc.devRef .tc main_arg7) = (domT m c).xv :=
  (W24_of_ne m ρ c main_arg7 (by decide)).trans (at_main_arg7_23 m ρ c)

end Cert.KernelIdeal.Chain

end
-- ==== Proof.KChainVal3.lean ====
/-
  The idealized kernel program's buffers at the segment boundaries 25 … 36, as the encoder model's values: each
  region's output array is what its write-backs leave, which is the model's value of the region's input arrays as the
  region finds them; those are read where a host operation or an earlier region produced them and carried, unchanged,
  across every stretch and region in between.
-/
import proofs.«177232_g71837622993359_cont_sun_m_41_3_alg».proof.Proof.KChainVal2

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Cert.Spec Cert.HostForms Cert.KernelIdeal.RegionValue

variable (m : (ℓ : Loc nD τ sig) → Buf (Elt Ideal) ℓ) (ρ : Dev nD → PrngReg)

theorem at_main_v2_25 (c : Dev nD) : W25 m ρ c (Proc.devRef .tc main_v2) = (domT m c).UV :=
  (keepH12 (W24 m ρ c) main_v2 (by decide)).trans (at_main_v2_24 m ρ c)

theorem at_main_v2_26 (c : Dev nD) : W26 m ρ c (Proc.devRef .tc main_v2) = (domT m c).UV :=
  (W26_of_ne m ρ c main_v2 (by decide)).trans (at_main_v2_25 m ρ c)

theorem at_main_v2_27 (c : Dev nD) : W27 m ρ c (Proc.devRef .tc main_v2) = (domT m c).UV :=
  (keepH13 (W26 m ρ c) main_v2 (by decide)).trans (at_main_v2_26 m ρ c)

theorem at_main_v2_28 (c : Dev nD) : W28 m ρ c (Proc.devRef .tc main_v2) = (domT m c).UV :=
  (W28_of_ne m ρ c main_v2 (by decide)).trans (at_main_v2_27 m ρ c)

theorem at_main_v2_29 (c : Dev nD) : W29 m ρ c (Proc.devRef .tc main_v2) = (domT m c).UV :=
  (keepH14 (W28 m ρ c) main_v2 (by decide)).trans (at_main_v2_28 m ρ c)

theorem at_main_v2_30 (c : Dev nD) : W30 m ρ c (Proc.devRef .tc main_v2) = (domT m c).UV :=
  (W30_of_ne m ρ c main_v2 (by decide)).trans (at_main_v2_29 m ρ c)

theorem at_main_v2_31 (c : Dev nD) : W31 m ρ c (Proc.devRef .tc main_v2) = (domT m c).UV :=
  (keepH15 (W30 m ρ c) main_v2 (by decide)).trans (at_main_v2_30 m ρ c)

theorem at_main_v2_32 (c : Dev nD) : W32 m ρ c (Proc.devRef .tc main_v2) = (domT m c).UV :=
  ((W32_arr m ρ c 0).trans (((dat15 (V31 m ρ) c).arrAt_in 0 rfl cfg15.N).trans (A_eq15 (V31 m ρ) c 0))).trans (at_main_v2_31 m ρ c)

theorem at_main_v2_33 (c : Dev nD) : W33 m ρ c (Proc.devRef .tc main_v2) = (domT m c).UV :=
  (keepH16 (W32 m ρ c) main_v2 (by decide)).trans (at_main_v2_32 m ρ c)

theorem in_16_0 (c : Dev nD) : V33 m ρ c (Pipeline.arrRef spec16 0) = (domT m c).UV := at_main_v2_33 m ρ c

theorem at_main_v3_25 (c : Dev nD) : W25 m ρ c (Proc.devRef .tc main_v3) = (domT m c).VU :=
  (keepH12 (W24 m ρ c) main_v3 (by decide)).trans (at_main_v3_24 m ρ c)

theorem at_main_v3_26 (c : Dev nD) : W26 m ρ c (Proc.devRef .tc main_v3) = (domT m c).VU :=
  (W26_of_ne m ρ c main_v3 (by decide)).trans (at_main_v3_25 m ρ c)

theorem at_main_v3_27 (c : Dev nD) : W27 m ρ c (Proc.devRef .tc main_v3) = (domT m c).VU :=
  (keepH13 (W26 m ρ c) main_v3 (by decide)).trans (at_main_v3_26 m ρ c)

theorem at_main_v3_28 (c : Dev nD) : W28 m ρ c (Proc.devRef .tc main_v3) = (domT m c).VU :=
  (W28_of_ne m ρ c main_v3 (by decide)).trans (at_main_v3_27 m ρ c)

theorem at_main_v3_29 (c : Dev nD) : W29 m ρ c (Proc.devRef .tc main_v3) = (domT m c).VU :=
  (keepH14 (W28 m ρ c) main_v3 (by decide)).trans (at_main_v3_28 m ρ c)

theorem in_14_0 (c : Dev nD) : V29 m ρ c (Pipeline.arrRef spec14 0) = (domT m c).VU := at_main_v3_29 m ρ c

theorem at_main_v102_25 (c : Dev nD) : W25 m ρ c (Proc.devRef .tc main_v102) = (domT m c).xu := by
  show StableHlo.after hostOps12 (W24 m ρ c) (Proc.devRef .tc main_v102) = _
  after_results
  rw [at_main_arg6_24 m ρ c]
  rfl

theorem in_12_0 (c : Dev nD) : V25 m ρ c (Pipeline.arrRef spec12 0) = (domT m c).xu := at_main_v102_25 m ρ c

theorem at_main_v109_25 (c : Dev nD) : W25 m ρ c (Proc.devRef .tc main_v109) = slab (⟨0, by decide⟩ : Fin 4) (domT m c).dW := by
  show StableHlo.after hostOps12 (W24 m ρ c) (Proc.devRef .tc main_v109) = _
  after_results
  rw [at_main_arg16_24 m ρ c]
  exact slice_reshape_eq_slab 0 (by decide) _ _ _

theorem in_12_1 (c : Dev nD) : V25 m ρ c (Pipeline.arrRef spec12 1) = slab (⟨0, by decide⟩ : Fin 4) (domT m c).dW := at_main_v109_25 m ρ c

theorem at_main_v110_26 (c : Dev nD) : W26 m ρ c (Proc.devRef .tc main_v110) = (domT m c).y0 := by
  refine (W26_arr m ρ c 2).trans ?_
  rw [final12 (V25 m ρ) c]
  rw [in_12_0 m ρ c, in_12_1 m ρ c]
  rfl

theorem at_main_v110_27 (c : Dev nD) : W27 m ρ c (Proc.devRef .tc main_v110) = (domT m c).y0 :=
  (keepH13 (W26 m ρ c) main_v110 (by decide)).trans (at_main_v110_26 m ρ c)

theorem at_main_v110_28 (c : Dev nD) : W28 m ρ c (Proc.devRef .tc main_v110) = (domT m c).y0 :=
  (W28_of_ne m ρ c main_v110 (by decide)).trans (at_main_v110_27 m ρ c)

theorem at_main_v110_29 (c : Dev nD) : W29 m ρ c (Proc.devRef .tc main_v110) = (domT m c).y0 :=
  (keepH14 (W28 m ρ c) main_v110 (by decide)).trans (at_main_v110_28 m ρ c)

theorem in_14_1 (c : Dev nD) : V29 m ρ c (Pipeline.arrRef spec14 1) = (domT m c).y0 := at_main_v110_29 m ρ c

theorem at_main_arg17_25 (c : Dev nD) : W25 m ρ c (Proc.devRef .tc main_arg17) = (domT m c).db :=
  (keepH12 (W24 m ρ c) main_arg17 (by decide)).trans (at_main_arg17_24 m ρ c)

theorem at_main_arg17_26 (c : Dev nD) : W26 m ρ c (Proc.devRef .tc main_arg17) = (domT m c).db :=
  (W26_of_ne m ρ c main_arg17 (by decide)).trans (at_main_arg17_25 m ρ c)

theorem at_main_arg17_27 (c : Dev nD) : W27 m ρ c (Proc.devRef .tc main_arg17) = (domT m c).db :=
  (keepH13 (W26 m ρ c) main_arg17 (by decide)).trans (at_main_arg17_26 m ρ c)

theorem at_main_arg17_28 (c : Dev nD) : W28 m ρ c (Proc.devRef .tc main_arg17) = (domT m c).db :=
  (W28_of_ne m ρ c main_arg17 (by decide)).trans (at_main_arg17_27 m ρ c)

theorem at_main_v118_29 (c : Dev nD) : W29 m ρ c (Proc.devRef .tc main_v118) = rowMat (⟨0, by decide⟩ : Fin 4) (domT m c).db := by
  show StableHlo.after hostOps14 (W28 m ρ c) (Proc.devRef .tc main_v118) = _
  after_results
  rw [at_main_arg17_28 m ρ c]
  exact slice_reshape_rowmat_eq 0 (by decide) _ _ _ _

theorem in_14_2 (c : Dev nD) : V29 m ρ c (Pipeline.arrRef spec14 2) = rowMat (⟨0, by decide⟩ : Fin 4) (domT m c).db := at_main_v118_29 m ρ c

theorem at_main_v104_25 (c : Dev nD) : W25 m ρ c (Proc.devRef .tc main_v104) = (domT m c).dW := by
  show StableHlo.after hostOps12 (W24 m ρ c) (Proc.devRef .tc main_v104) = _
  after_results
  rw [at_main_arg16_24 m ρ c]
  rfl

theorem at_main_v104_26 (c : Dev nD) : W26 m ρ c (Proc.devRef .tc main_v104) = (domT m c).dW :=
  (W26_of_ne m ρ c main_v104 (by decide)).trans (at_main_v104_25 m ρ c)

theorem at_main_v104_27 (c : Dev nD) : W27 m ρ c (Proc.devRef .tc main_v104) = (domT m c).dW :=
  (keepH13 (W26 m ρ c) main_v104 (by decide)).trans (at_main_v104_26 m ρ c)

theorem at_main_v104_28 (c : Dev nD) : W28 m ρ c (Proc.devRef .tc main_v104) = (domT m c).dW :=
  (W28_of_ne m ρ c main_v104 (by decide)).trans (at_main_v104_27 m ρ c)

theorem at_main_v117_29 (c : Dev nD) : W29 m ρ c (Proc.devRef .tc main_v117) = slab (⟨2, by decide⟩ : Fin 4) (domT m c).dW := by
  show StableHlo.after hostOps14 (W28 m ρ c) (Proc.devRef .tc main_v117) = _
  after_results
  rw [at_main_v104_28 m ρ c]
  exact slice_reshape_eq_slab 2 (by decide) _ _ _

theorem in_14_3 (c : Dev nD) : V29 m ρ c (Pipeline.arrRef spec14 3) = slab (⟨2, by decide⟩ : Fin 4) (domT m c).dW := at_main_v117_29 m ρ c

theorem at_main_v119_30 (c : Dev nD) : W30 m ρ c (Proc.devRef .tc main_v119) = (domT m c).p1 := by
  refine (W30_arr m ρ c 4).trans ?_
  rw [final14 (V29 m ρ) c]
  rw [in_14_0 m ρ c, in_14_1 m ρ c, in_14_2 m ρ c, in_14_3 m ρ c]
  rfl

theorem at_main_v119_31 (c : Dev nD) : W31 m ρ c (Proc.devRef .tc main_v119) = (domT m c).p1 :=
  (keepH15 (W30 m ρ c) main_v119 (by decide)).trans (at_main_v119_30 m ρ c)

theorem at_main_v119_32 (c : Dev nD) : W32 m ρ c (Proc.devRef .tc main_v119) = (domT m c).p1 :=
  (W32_of_ne m ρ c main_v119 (by decide)).trans (at_main_v119_31 m ρ c)

theorem at_main_v119_33 (c : Dev nD) : W33 m ρ c (Proc.devRef .tc main_v119) = (domT m c).p1 :=
  (keepH16 (W32 m ρ c) main_v119 (by decide)).trans (at_main_v119_32 m ρ c)

theorem in_16_1 (c : Dev nD) : V33 m ρ c (Pipeline.arrRef spec16 1) = (domT m c).p1 := at_main_v119_33 m ρ c

theorem at_main_arg17_29 (c : Dev nD) : W29 m ρ c (Proc.devRef .tc main_arg17) = (domT m c).db :=
  (keepH14 (W28 m ρ c) main_arg17 (by decide)).trans (at_main_arg17_28 m ρ c)

theorem at_main_arg17_30 (c : Dev nD) : W30 m ρ c (Proc.devRef .tc main_arg17) = (domT m c).db :=
  (W30_of_ne m ρ c main_arg17 (by decide)).trans (at_main_arg17_29 m ρ c)

theorem at_main_arg17_31 (c : Dev nD) : W31 m ρ c (Proc.devRef .tc main_arg17) = (domT m c).db :=
  (keepH15 (W30 m ρ c) main_arg17 (by decide)).trans (at_main_arg17_30 m ρ c)

theorem at_main_arg17_32 (c : Dev nD) : W32 m ρ c (Proc.devRef .tc main_arg17) = (domT m c).db :=
  (W32_of_ne m ρ c main_arg17 (by decide)).trans (at_main_arg17_31 m ρ c)

theorem at_main_v136_33 (c : Dev nD) : W33 m ρ c (Proc.devRef .tc main_v136) = rowMat (⟨2, by decide⟩ : Fin 4) (domT m c).db := by
  show StableHlo.after hostOps16 (W32 m ρ c) (Proc.devRef .tc main_v136) = _
  after_results
  rw [at_main_arg17_32 m ρ c]
  exact slice_reshape_rowmat_eq 2 (by decide) _ _ _ _

theorem in_16_2 (c : Dev nD) : V33 m ρ c (Pipeline.arrRef spec16 2) = rowMat (⟨2, by decide⟩ : Fin 4) (domT m c).db := at_main_v136_33 m ρ c

theorem at_main_v105_25 (c : Dev nD) : W25 m ρ c (Proc.devRef .tc main_v105) = (domT m c).uW := by
  show StableHlo.after hostOps12 (W24 m ρ c) (Proc.devRef .tc main_v105) = _
  after_results
  rw [at_main_arg18_24 m ρ c]
  rfl

theorem at_main_v105_26 (c : Dev nD) : W26 m ρ c (Proc.devRef .tc main_v105) = (domT m c).uW :=
  (W26_of_ne m ρ c main_v105 (by decide)).trans (at_main_v105_25 m ρ c)

theorem at_main_v105_27 (c : Dev nD) : W27 m ρ c (Proc.devRef .tc main_v105) = (domT m c).uW :=
  (keepH13 (W26 m ρ c) main_v105 (by decide)).trans (at_main_v105_26 m ρ c)

theorem at_main_v105_28 (c : Dev nD) : W28 m ρ c (Proc.devRef .tc main_v105) = (domT m c).uW :=
  (W28_of_ne m ρ c main_v105 (by decide)).trans (at_main_v105_27 m ρ c)

theorem at_main_v105_29 (c : Dev nD) : W29 m ρ c (Proc.devRef .tc main_v105) = (domT m c).uW :=
  (keepH14 (W28 m ρ c) main_v105 (by decide)).trans (at_main_v105_28 m ρ c)

theorem at_main_v105_30 (c : Dev nD) : W30 m ρ c (Proc.devRef .tc main_v105) = (domT m c).uW :=
  (W30_of_ne m ρ c main_v105 (by decide)).trans (at_main_v105_29 m ρ c)

theorem at_main_v105_31 (c : Dev nD) : W31 m ρ c (Proc.devRef .tc main_v105) = (domT m c).uW :=
  (keepH15 (W30 m ρ c) main_v105 (by decide)).trans (at_main_v105_30 m ρ c)

theorem at_main_v105_32 (c : Dev nD) : W32 m ρ c (Proc.devRef .tc main_v105) = (domT m c).uW :=
  (W32_of_ne m ρ c main_v105 (by decide)).trans (at_main_v105_31 m ρ c)

theorem at_main_v130_33 (c : Dev nD) : W33 m ρ c (Proc.devRef .tc main_v130) = top (slab (⟨0, by decide⟩ : Fin 2) (domT m c).uW) := by
  show StableHlo.after hostOps16 (W32 m ρ c) (Proc.devRef .tc main_v130) = _
  after_results
  rw [at_main_v105_32 m ρ c]
  exact slab_top_eq (a := 128) (b := 128) _ 0 (by decide) _ _ _

theorem in_16_3 (c : Dev nD) : V33 m ρ c (Pipeline.arrRef spec16 3) = top (slab (⟨0, by decide⟩ : Fin 2) (domT m c).uW) := at_main_v130_33 m ρ c

theorem at_main_v102_26 (c : Dev nD) : W26 m ρ c (Proc.devRef .tc main_v102) = (domT m c).xu :=
  ((W26_arr m ρ c 0).trans (((dat12 (V25 m ρ) c).arrAt_in 0 rfl cfg12.N).trans (A_eq12 (V25 m ρ) c 0))).trans (at_main_v102_25 m ρ c)

theorem at_main_v102_27 (c : Dev nD) : W27 m ρ c (Proc.devRef .tc main_v102) = (domT m c).xu :=
  (keepH13 (W26 m ρ c) main_v102 (by decide)).trans (at_main_v102_26 m ρ c)

theorem at_main_v102_28 (c : Dev nD) : W28 m ρ c (Proc.devRef .tc main_v102) = (domT m c).xu :=
  (W28_of_ne m ρ c main_v102 (by decide)).trans (at_main_v102_27 m ρ c)

theorem at_main_v102_29 (c : Dev nD) : W29 m ρ c (Proc.devRef .tc main_v102) = (domT m c).xu :=
  (keepH14 (W28 m ρ c) main_v102 (by decide)).trans (at_main_v102_28 m ρ c)

theorem at_main_v102_30 (c : Dev nD) : W30 m ρ c (Proc.devRef .tc main_v102) = (domT m c).xu :=
  (W30_of_ne m ρ c main_v102 (by decide)).trans (at_main_v102_29 m ρ c)

theorem at_main_v102_31 (c : Dev nD) : W31 m ρ c (Proc.devRef .tc main_v102) = (domT m c).xu :=
  (keepH15 (W30 m ρ c) main_v102 (by decide)).trans (at_main_v102_30 m ρ c)

theorem at_main_v102_32 (c : Dev nD) : W32 m ρ c (Proc.devRef .tc main_v102) = (domT m c).xu :=
  (W32_of_ne m ρ c main_v102 (by decide)).trans (at_main_v102_31 m ρ c)

theorem at_main_v102_33 (c : Dev nD) : W33 m ρ c (Proc.devRef .tc main_v102) = (domT m c).xu :=
  (keepH16 (W32 m ρ c) main_v102 (by decide)).trans (at_main_v102_32 m ρ c)

theorem in_16_4 (c : Dev nD) : V33 m ρ c (Pipeline.arrRef spec16 4) = (domT m c).xu := at_main_v102_33 m ρ c

theorem at_main_v133_33 (c : Dev nD) : W33 m ρ c (Proc.devRef .tc main_v133) = bot (slab (⟨0, by decide⟩ : Fin 2) (domT m c).uW) := by
  show StableHlo.after hostOps16 (W32 m ρ c) (Proc.devRef .tc main_v133) = _
  after_results
  rw [at_main_v105_32 m ρ c]
  exact slab_bot_eq (a := 128) (b := 128) _ 0 (by decide) _ _ _

theorem in_16_5 (c : Dev nD) : V33 m ρ c (Pipeline.arrRef spec16 5) = bot (slab (⟨0, by decide⟩ : Fin 2) (domT m c).uW) := at_main_v133_33 m ρ c

theorem at_main_arg19_25 (c : Dev nD) : W25 m ρ c (Proc.devRef .tc main_arg19) = (domT m c).ub :=
  (keepH12 (W24 m ρ c) main_arg19 (by decide)).trans (at_main_arg19_24 m ρ c)

theorem at_main_arg19_26 (c : Dev nD) : W26 m ρ c (Proc.devRef .tc main_arg19) = (domT m c).ub :=
  (W26_of_ne m ρ c main_arg19 (by decide)).trans (at_main_arg19_25 m ρ c)

theorem at_main_arg19_27 (c : Dev nD) : W27 m ρ c (Proc.devRef .tc main_arg19) = (domT m c).ub :=
  (keepH13 (W26 m ρ c) main_arg19 (by decide)).trans (at_main_arg19_26 m ρ c)

theorem at_main_arg19_28 (c : Dev nD) : W28 m ρ c (Proc.devRef .tc main_arg19) = (domT m c).ub :=
  (W28_of_ne m ρ c main_arg19 (by decide)).trans (at_main_arg19_27 m ρ c)

theorem at_main_arg19_29 (c : Dev nD) : W29 m ρ c (Proc.devRef .tc main_arg19) = (domT m c).ub :=
  (keepH14 (W28 m ρ c) main_arg19 (by decide)).trans (at_main_arg19_28 m ρ c)

theorem at_main_arg19_30 (c : Dev nD) : W30 m ρ c (Proc.devRef .tc main_arg19) = (domT m c).ub :=
  (W30_of_ne m ρ c main_arg19 (by decide)).trans (at_main_arg19_29 m ρ c)

theorem at_main_arg19_31 (c : Dev nD) : W31 m ρ c (Proc.devRef .tc main_arg19) = (domT m c).ub :=
  (keepH15 (W30 m ρ c) main_arg19 (by decide)).trans (at_main_arg19_30 m ρ c)

theorem at_main_arg19_32 (c : Dev nD) : W32 m ρ c (Proc.devRef .tc main_arg19) = (domT m c).ub :=
  (W32_of_ne m ρ c main_arg19 (by decide)).trans (at_main_arg19_31 m ρ c)

theorem at_main_v137_33 (c : Dev nD) : W33 m ρ c (Proc.devRef .tc main_v137) = rowMat (⟨0, by decide⟩ : Fin 2) (domT m c).ub := by
  show StableHlo.after hostOps16 (W32 m ρ c) (Proc.devRef .tc main_v137) = _
  after_results
  rw [at_main_arg19_32 m ρ c]
  exact slice_reshape_rowmat_eq 0 (by decide) _ _ _ _

theorem in_16_6 (c : Dev nD) : V33 m ρ c (Pipeline.arrRef spec16 6) = rowMat (⟨0, by decide⟩ : Fin 2) (domT m c).ub := at_main_v137_33 m ρ c

theorem at_main_v138_34 (c : Dev nD) : W34 m ρ c (Proc.devRef .tc main_v138) = (domT m c).u1 := by
  refine (W34_arr m ρ c 7).trans ?_
  rw [final16 (V33 m ρ) c]
  rw [in_16_0 m ρ c, in_16_1 m ρ c, in_16_2 m ρ c, in_16_3 m ρ c, in_16_4 m ρ c, in_16_5 m ρ c, in_16_6 m ρ c]
  rfl

theorem at_main_v138_35 (c : Dev nD) : W35 m ρ c (Proc.devRef .tc main_v138) = (domT m c).u1 :=
  (keepH17 (W34 m ρ c) main_v138 (by decide)).trans (at_main_v138_34 m ρ c)

theorem at_main_v138_36 (c : Dev nD) : W36 m ρ c (Proc.devRef .tc main_v138) = (domT m c).u1 :=
  (W36_of_ne m ρ c main_v138 (by decide)).trans (at_main_v138_35 m ρ c)

theorem at_main_v2_34 (c : Dev nD) : W34 m ρ c (Proc.devRef .tc main_v2) = (domT m c).UV :=
  ((W34_arr m ρ c 0).trans (((dat16 (V33 m ρ) c).arrAt_in 0 rfl cfg16.N).trans (A_eq16 (V33 m ρ) c 0))).trans (at_main_v2_33 m ρ c)

theorem at_main_v2_35 (c : Dev nD) : W35 m ρ c (Proc.devRef .tc main_v2) = (domT m c).UV :=
  (keepH17 (W34 m ρ c) main_v2 (by decide)).trans (at_main_v2_34 m ρ c)

theorem at_main_v2_36 (c : Dev nD) : W36 m ρ c (Proc.devRef .tc main_v2) = (domT m c).UV :=
  (W36_of_ne m ρ c main_v2 (by decide)).trans (at_main_v2_35 m ρ c)

theorem at_main_v3_30 (c : Dev nD) : W30 m ρ c (Proc.devRef .tc main_v3) = (domT m c).VU :=
  ((W30_arr m ρ c 0).trans (((dat14 (V29 m ρ) c).arrAt_in 0 rfl cfg14.N).trans (A_eq14 (V29 m ρ) c 0))).trans (at_main_v3_29 m ρ c)

theorem at_main_v3_31 (c : Dev nD) : W31 m ρ c (Proc.devRef .tc main_v3) = (domT m c).VU :=
  (keepH15 (W30 m ρ c) main_v3 (by decide)).trans (at_main_v3_30 m ρ c)

theorem at_main_v3_32 (c : Dev nD) : W32 m ρ c (Proc.devRef .tc main_v3) = (domT m c).VU :=
  (W32_of_ne m ρ c main_v3 (by decide)).trans (at_main_v3_31 m ρ c)

theorem at_main_v3_33 (c : Dev nD) : W33 m ρ c (Proc.devRef .tc main_v3) = (domT m c).VU :=
  (keepH16 (W32 m ρ c) main_v3 (by decide)).trans (at_main_v3_32 m ρ c)

theorem at_main_v3_34 (c : Dev nD) : W34 m ρ c (Proc.devRef .tc main_v3) = (domT m c).VU :=
  (W34_of_ne m ρ c main_v3 (by decide)).trans (at_main_v3_33 m ρ c)

theorem at_main_v3_35 (c : Dev nD) : W35 m ρ c (Proc.devRef .tc main_v3) = (domT m c).VU :=
  (keepH17 (W34 m ρ c) main_v3 (by decide)).trans (at_main_v3_34 m ρ c)

theorem at_main_v3_36 (c : Dev nD) : W36 m ρ c (Proc.devRef .tc main_v3) = (domT m c).VU :=
  ((W36_arr m ρ c 0).trans (((dat17 (V35 m ρ) c).arrAt_in 0 rfl cfg17.N).trans (A_eq17 (V35 m ρ) c 0))).trans (at_main_v3_35 m ρ c)

theorem at_main_v106_25 (c : Dev nD) : W25 m ρ c (Proc.devRef .tc main_v106) = (domT m c).lW := by
  show StableHlo.after hostOps12 (W24 m ρ c) (Proc.devRef .tc main_v106) = _
  after_results
  rw [at_main_arg20_24 m ρ c]
  rfl

theorem at_main_v106_26 (c : Dev nD) : W26 m ρ c (Proc.devRef .tc main_v106) = (domT m c).lW :=
  (W26_of_ne m ρ c main_v106 (by decide)).trans (at_main_v106_25 m ρ c)

theorem at_main_v106_27 (c : Dev nD) : W27 m ρ c (Proc.devRef .tc main_v106) = (domT m c).lW :=
  (keepH13 (W26 m ρ c) main_v106 (by decide)).trans (at_main_v106_26 m ρ c)

theorem at_main_v106_28 (c : Dev nD) : W28 m ρ c (Proc.devRef .tc main_v106) = (domT m c).lW :=
  (W28_of_ne m ρ c main_v106 (by decide)).trans (at_main_v106_27 m ρ c)

theorem at_main_v106_29 (c : Dev nD) : W29 m ρ c (Proc.devRef .tc main_v106) = (domT m c).lW :=
  (keepH14 (W28 m ρ c) main_v106 (by decide)).trans (at_main_v106_28 m ρ c)

theorem at_main_v106_30 (c : Dev nD) : W30 m ρ c (Proc.devRef .tc main_v106) = (domT m c).lW :=
  (W30_of_ne m ρ c main_v106 (by decide)).trans (at_main_v106_29 m ρ c)

theorem at_main_v106_31 (c : Dev nD) : W31 m ρ c (Proc.devRef .tc main_v106) = (domT m c).lW :=
  (keepH15 (W30 m ρ c) main_v106 (by decide)).trans (at_main_v106_30 m ρ c)

theorem at_main_v106_32 (c : Dev nD) : W32 m ρ c (Proc.devRef .tc main_v106) = (domT m c).lW :=
  (W32_of_ne m ρ c main_v106 (by decide)).trans (at_main_v106_31 m ρ c)

theorem at_main_v106_33 (c : Dev nD) : W33 m ρ c (Proc.devRef .tc main_v106) = (domT m c).lW :=
  (keepH16 (W32 m ρ c) main_v106 (by decide)).trans (at_main_v106_32 m ρ c)

theorem at_main_v106_34 (c : Dev nD) : W34 m ρ c (Proc.devRef .tc main_v106) = (domT m c).lW :=
  (W34_of_ne m ρ c main_v106 (by decide)).trans (at_main_v106_33 m ρ c)

theorem at_main_v106_35 (c : Dev nD) : W35 m ρ c (Proc.devRef .tc main_v106) = (domT m c).lW :=
  (keepH17 (W34 m ρ c) main_v106 (by decide)).trans (at_main_v106_34 m ρ c)

theorem at_main_v106_36 (c : Dev nD) : W36 m ρ c (Proc.devRef .tc main_v106) = (domT m c).lW :=
  (W36_of_ne m ρ c main_v106 (by decide)).trans (at_main_v106_35 m ρ c)

theorem at_main_arg21_25 (c : Dev nD) : W25 m ρ c (Proc.devRef .tc main_arg21) = (domT m c).lb :=
  (keepH12 (W24 m ρ c) main_arg21 (by decide)).trans (at_main_arg21_24 m ρ c)

theorem at_main_arg21_26 (c : Dev nD) : W26 m ρ c (Proc.devRef .tc main_arg21) = (domT m c).lb :=
  (W26_of_ne m ρ c main_arg21 (by decide)).trans (at_main_arg21_25 m ρ c)

theorem at_main_arg21_27 (c : Dev nD) : W27 m ρ c (Proc.devRef .tc main_arg21) = (domT m c).lb :=
  (keepH13 (W26 m ρ c) main_arg21 (by decide)).trans (at_main_arg21_26 m ρ c)

theorem at_main_arg21_28 (c : Dev nD) : W28 m ρ c (Proc.devRef .tc main_arg21) = (domT m c).lb :=
  (W28_of_ne m ρ c main_arg21 (by decide)).trans (at_main_arg21_27 m ρ c)

theorem at_main_arg21_29 (c : Dev nD) : W29 m ρ c (Proc.devRef .tc main_arg21) = (domT m c).lb :=
  (keepH14 (W28 m ρ c) main_arg21 (by decide)).trans (at_main_arg21_28 m ρ c)

theorem at_main_arg21_30 (c : Dev nD) : W30 m ρ c (Proc.devRef .tc main_arg21) = (domT m c).lb :=
  (W30_of_ne m ρ c main_arg21 (by decide)).trans (at_main_arg21_29 m ρ c)

theorem at_main_arg21_31 (c : Dev nD) : W31 m ρ c (Proc.devRef .tc main_arg21) = (domT m c).lb :=
  (keepH15 (W30 m ρ c) main_arg21 (by decide)).trans (at_main_arg21_30 m ρ c)

theorem at_main_arg21_32 (c : Dev nD) : W32 m ρ c (Proc.devRef .tc main_arg21) = (domT m c).lb :=
  (W32_of_ne m ρ c main_arg21 (by decide)).trans (at_main_arg21_31 m ρ c)

theorem at_main_arg21_33 (c : Dev nD) : W33 m ρ c (Proc.devRef .tc main_arg21) = (domT m c).lb :=
  (keepH16 (W32 m ρ c) main_arg21 (by decide)).trans (at_main_arg21_32 m ρ c)

theorem at_main_arg21_34 (c : Dev nD) : W34 m ρ c (Proc.devRef .tc main_arg21) = (domT m c).lb :=
  (W34_of_ne m ρ c main_arg21 (by decide)).trans (at_main_arg21_33 m ρ c)

theorem at_main_arg21_35 (c : Dev nD) : W35 m ρ c (Proc.devRef .tc main_arg21) = (domT m c).lb :=
  (keepH17 (W34 m ρ c) main_arg21 (by decide)).trans (at_main_arg21_34 m ρ c)

theorem at_main_arg21_36 (c : Dev nD) : W36 m ρ c (Proc.devRef .tc main_arg21) = (domT m c).lb :=
  (W36_of_ne m ρ c main_arg21 (by decide)).trans (at_main_arg21_35 m ρ c)

theorem at_main_v107_25 (c : Dev nD) : W25 m ρ c (Proc.devRef .tc main_v107) = (domT m c).luW := by
  show StableHlo.after hostOps12 (W24 m ρ c) (Proc.devRef .tc main_v107) = _
  after_results
  rw [at_main_arg22_24 m ρ c]
  rfl

theorem at_main_v107_26 (c : Dev nD) : W26 m ρ c (Proc.devRef .tc main_v107) = (domT m c).luW :=
  (W26_of_ne m ρ c main_v107 (by decide)).trans (at_main_v107_25 m ρ c)

theorem at_main_v107_27 (c : Dev nD) : W27 m ρ c (Proc.devRef .tc main_v107) = (domT m c).luW :=
  (keepH13 (W26 m ρ c) main_v107 (by decide)).trans (at_main_v107_26 m ρ c)

theorem at_main_v107_28 (c : Dev nD) : W28 m ρ c (Proc.devRef .tc main_v107) = (domT m c).luW :=
  (W28_of_ne m ρ c main_v107 (by decide)).trans (at_main_v107_27 m ρ c)

theorem at_main_v107_29 (c : Dev nD) : W29 m ρ c (Proc.devRef .tc main_v107) = (domT m c).luW :=
  (keepH14 (W28 m ρ c) main_v107 (by decide)).trans (at_main_v107_28 m ρ c)

theorem at_main_v107_30 (c : Dev nD) : W30 m ρ c (Proc.devRef .tc main_v107) = (domT m c).luW :=
  (W30_of_ne m ρ c main_v107 (by decide)).trans (at_main_v107_29 m ρ c)

theorem at_main_v107_31 (c : Dev nD) : W31 m ρ c (Proc.devRef .tc main_v107) = (domT m c).luW :=
  (keepH15 (W30 m ρ c) main_v107 (by decide)).trans (at_main_v107_30 m ρ c)

theorem at_main_v107_32 (c : Dev nD) : W32 m ρ c (Proc.devRef .tc main_v107) = (domT m c).luW :=
  (W32_of_ne m ρ c main_v107 (by decide)).trans (at_main_v107_31 m ρ c)

theorem at_main_v107_33 (c : Dev nD) : W33 m ρ c (Proc.devRef .tc main_v107) = (domT m c).luW :=
  (keepH16 (W32 m ρ c) main_v107 (by decide)).trans (at_main_v107_32 m ρ c)

theorem at_main_v107_34 (c : Dev nD) : W34 m ρ c (Proc.devRef .tc main_v107) = (domT m c).luW :=
  (W34_of_ne m ρ c main_v107 (by decide)).trans (at_main_v107_33 m ρ c)

theorem at_main_v107_35 (c : Dev nD) : W35 m ρ c (Proc.devRef .tc main_v107) = (domT m c).luW :=
  (keepH17 (W34 m ρ c) main_v107 (by decide)).trans (at_main_v107_34 m ρ c)

theorem at_main_v107_36 (c : Dev nD) : W36 m ρ c (Proc.devRef .tc main_v107) = (domT m c).luW :=
  (W36_of_ne m ρ c main_v107 (by decide)).trans (at_main_v107_35 m ρ c)

theorem at_main_arg23_25 (c : Dev nD) : W25 m ρ c (Proc.devRef .tc main_arg23) = (domT m c).lub :=
  (keepH12 (W24 m ρ c) main_arg23 (by decide)).trans (at_main_arg23_24 m ρ c)

theorem at_main_arg23_26 (c : Dev nD) : W26 m ρ c (Proc.devRef .tc main_arg23) = (domT m c).lub :=
  (W26_of_ne m ρ c main_arg23 (by decide)).trans (at_main_arg23_25 m ρ c)

theorem at_main_arg23_27 (c : Dev nD) : W27 m ρ c (Proc.devRef .tc main_arg23) = (domT m c).lub :=
  (keepH13 (W26 m ρ c) main_arg23 (by decide)).trans (at_main_arg23_26 m ρ c)

theorem at_main_arg23_28 (c : Dev nD) : W28 m ρ c (Proc.devRef .tc main_arg23) = (domT m c).lub :=
  (W28_of_ne m ρ c main_arg23 (by decide)).trans (at_main_arg23_27 m ρ c)

theorem at_main_arg23_29 (c : Dev nD) : W29 m ρ c (Proc.devRef .tc main_arg23) = (domT m c).lub :=
  (keepH14 (W28 m ρ c) main_arg23 (by decide)).trans (at_main_arg23_28 m ρ c)

theorem at_main_arg23_30 (c : Dev nD) : W30 m ρ c (Proc.devRef .tc main_arg23) = (domT m c).lub :=
  (W30_of_ne m ρ c main_arg23 (by decide)).trans (at_main_arg23_29 m ρ c)

theorem at_main_arg23_31 (c : Dev nD) : W31 m ρ c (Proc.devRef .tc main_arg23) = (domT m c).lub :=
  (keepH15 (W30 m ρ c) main_arg23 (by decide)).trans (at_main_arg23_30 m ρ c)

theorem at_main_arg23_32 (c : Dev nD) : W32 m ρ c (Proc.devRef .tc main_arg23) = (domT m c).lub :=
  (W32_of_ne m ρ c main_arg23 (by decide)).trans (at_main_arg23_31 m ρ c)

theorem at_main_arg23_33 (c : Dev nD) : W33 m ρ c (Proc.devRef .tc main_arg23) = (domT m c).lub :=
  (keepH16 (W32 m ρ c) main_arg23 (by decide)).trans (at_main_arg23_32 m ρ c)

theorem at_main_arg23_34 (c : Dev nD) : W34 m ρ c (Proc.devRef .tc main_arg23) = (domT m c).lub :=
  (W34_of_ne m ρ c main_arg23 (by decide)).trans (at_main_arg23_33 m ρ c)

theorem at_main_arg23_35 (c : Dev nD) : W35 m ρ c (Proc.devRef .tc main_arg23) = (domT m c).lub :=
  (keepH17 (W34 m ρ c) main_arg23 (by decide)).trans (at_main_arg23_34 m ρ c)

theorem at_main_arg23_36 (c : Dev nD) : W36 m ρ c (Proc.devRef .tc main_arg23) = (domT m c).lub :=
  (W36_of_ne m ρ c main_arg23 (by decide)).trans (at_main_arg23_35 m ρ c)

theorem at_main_v100_25 (c : Dev nD) : W25 m ρ c (Proc.devRef .tc main_v100) = concatenate S4096x256 1 [⟨S4096x128, (domS m c).u1⟩, ⟨S4096x128, (domS m c).u2⟩] concatenates_S4096x128_S4096x128_S4096x256_d1 := by
  show StableHlo.after hostOps12 (W24 m ρ c) (Proc.devRef .tc main_v100) = _
  after_results
  rw [at_main_v40_24 m ρ c, at_main_v86_24 m ρ c]

theorem at_main_v100_26 (c : Dev nD) : W26 m ρ c (Proc.devRef .tc main_v100) = concatenate S4096x256 1 [⟨S4096x128, (domS m c).u1⟩, ⟨S4096x128, (domS m c).u2⟩] concatenates_S4096x128_S4096x128_S4096x256_d1 :=
  (W26_of_ne m ρ c main_v100 (by decide)).trans (at_main_v100_25 m ρ c)

theorem at_main_v100_27 (c : Dev nD) : W27 m ρ c (Proc.devRef .tc main_v100) = concatenate S4096x256 1 [⟨S4096x128, (domS m c).u1⟩, ⟨S4096x128, (domS m c).u2⟩] concatenates_S4096x128_S4096x128_S4096x256_d1 :=
  (keepH13 (W26 m ρ c) main_v100 (by decide)).trans (at_main_v100_26 m ρ c)

theorem at_main_v100_28 (c : Dev nD) : W28 m ρ c (Proc.devRef .tc main_v100) = concatenate S4096x256 1 [⟨S4096x128, (domS m c).u1⟩, ⟨S4096x128, (domS m c).u2⟩] concatenates_S4096x128_S4096x128_S4096x256_d1 :=
  (W28_of_ne m ρ c main_v100 (by decide)).trans (at_main_v100_27 m ρ c)

theorem at_main_v100_29 (c : Dev nD) : W29 m ρ c (Proc.devRef .tc main_v100) = concatenate S4096x256 1 [⟨S4096x128, (domS m c).u1⟩, ⟨S4096x128, (domS m c).u2⟩] concatenates_S4096x128_S4096x128_S4096x256_d1 :=
  (keepH14 (W28 m ρ c) main_v100 (by decide)).trans (at_main_v100_28 m ρ c)

theorem at_main_v100_30 (c : Dev nD) : W30 m ρ c (Proc.devRef .tc main_v100) = concatenate S4096x256 1 [⟨S4096x128, (domS m c).u1⟩, ⟨S4096x128, (domS m c).u2⟩] concatenates_S4096x128_S4096x128_S4096x256_d1 :=
  (W30_of_ne m ρ c main_v100 (by decide)).trans (at_main_v100_29 m ρ c)

theorem at_main_v100_31 (c : Dev nD) : W31 m ρ c (Proc.devRef .tc main_v100) = concatenate S4096x256 1 [⟨S4096x128, (domS m c).u1⟩, ⟨S4096x128, (domS m c).u2⟩] concatenates_S4096x128_S4096x128_S4096x256_d1 :=
  (keepH15 (W30 m ρ c) main_v100 (by decide)).trans (at_main_v100_30 m ρ c)

theorem at_main_v100_32 (c : Dev nD) : W32 m ρ c (Proc.devRef .tc main_v100) = concatenate S4096x256 1 [⟨S4096x128, (domS m c).u1⟩, ⟨S4096x128, (domS m c).u2⟩] concatenates_S4096x128_S4096x128_S4096x256_d1 :=
  (W32_of_ne m ρ c main_v100 (by decide)).trans (at_main_v100_31 m ρ c)

theorem at_main_v100_33 (c : Dev nD) : W33 m ρ c (Proc.devRef .tc main_v100) = concatenate S4096x256 1 [⟨S4096x128, (domS m c).u1⟩, ⟨S4096x128, (domS m c).u2⟩] concatenates_S4096x128_S4096x128_S4096x256_d1 :=
  (keepH16 (W32 m ρ c) main_v100 (by decide)).trans (at_main_v100_32 m ρ c)

theorem at_main_v100_34 (c : Dev nD) : W34 m ρ c (Proc.devRef .tc main_v100) = concatenate S4096x256 1 [⟨S4096x128, (domS m c).u1⟩, ⟨S4096x128, (domS m c).u2⟩] concatenates_S4096x128_S4096x128_S4096x256_d1 :=
  (W34_of_ne m ρ c main_v100 (by decide)).trans (at_main_v100_33 m ρ c)

theorem at_main_v100_35 (c : Dev nD) : W35 m ρ c (Proc.devRef .tc main_v100) = concatenate S4096x256 1 [⟨S4096x128, (domS m c).u1⟩, ⟨S4096x128, (domS m c).u2⟩] concatenates_S4096x128_S4096x128_S4096x256_d1 :=
  (keepH17 (W34 m ρ c) main_v100 (by decide)).trans (at_main_v100_34 m ρ c)

theorem at_main_v100_36 (c : Dev nD) : W36 m ρ c (Proc.devRef .tc main_v100) = concatenate S4096x256 1 [⟨S4096x128, (domS m c).u1⟩, ⟨S4096x128, (domS m c).u2⟩] concatenates_S4096x128_S4096x128_S4096x256_d1 :=
  (W36_of_ne m ρ c main_v100 (by decide)).trans (at_main_v100_35 m ρ c)

theorem at_main_v101_25 (c : Dev nD) : W25 m ρ c (Proc.devRef .tc main_v101) = concatenate S8192x256 1 [⟨S8192x128, (domS m c).v1⟩, ⟨S8192x128, (domS m c).v2⟩] concatenates_S8192x128_S8192x128_S8192x256_d1 := by
  show StableHlo.after hostOps12 (W24 m ρ c) (Proc.devRef .tc main_v101) = _
  after_results
  rw [at_main_v53_24 m ρ c, at_main_v99_24 m ρ c]

theorem at_main_v101_26 (c : Dev nD) : W26 m ρ c (Proc.devRef .tc main_v101) = concatenate S8192x256 1 [⟨S8192x128, (domS m c).v1⟩, ⟨S8192x128, (domS m c).v2⟩] concatenates_S8192x128_S8192x128_S8192x256_d1 :=
  (W26_of_ne m ρ c main_v101 (by decide)).trans (at_main_v101_25 m ρ c)

theorem at_main_v101_27 (c : Dev nD) : W27 m ρ c (Proc.devRef .tc main_v101) = concatenate S8192x256 1 [⟨S8192x128, (domS m c).v1⟩, ⟨S8192x128, (domS m c).v2⟩] concatenates_S8192x128_S8192x128_S8192x256_d1 :=
  (keepH13 (W26 m ρ c) main_v101 (by decide)).trans (at_main_v101_26 m ρ c)

theorem at_main_v101_28 (c : Dev nD) : W28 m ρ c (Proc.devRef .tc main_v101) = concatenate S8192x256 1 [⟨S8192x128, (domS m c).v1⟩, ⟨S8192x128, (domS m c).v2⟩] concatenates_S8192x128_S8192x128_S8192x256_d1 :=
  (W28_of_ne m ρ c main_v101 (by decide)).trans (at_main_v101_27 m ρ c)

theorem at_main_v101_29 (c : Dev nD) : W29 m ρ c (Proc.devRef .tc main_v101) = concatenate S8192x256 1 [⟨S8192x128, (domS m c).v1⟩, ⟨S8192x128, (domS m c).v2⟩] concatenates_S8192x128_S8192x128_S8192x256_d1 :=
  (keepH14 (W28 m ρ c) main_v101 (by decide)).trans (at_main_v101_28 m ρ c)

theorem at_main_v101_30 (c : Dev nD) : W30 m ρ c (Proc.devRef .tc main_v101) = concatenate S8192x256 1 [⟨S8192x128, (domS m c).v1⟩, ⟨S8192x128, (domS m c).v2⟩] concatenates_S8192x128_S8192x128_S8192x256_d1 :=
  (W30_of_ne m ρ c main_v101 (by decide)).trans (at_main_v101_29 m ρ c)

theorem at_main_v101_31 (c : Dev nD) : W31 m ρ c (Proc.devRef .tc main_v101) = concatenate S8192x256 1 [⟨S8192x128, (domS m c).v1⟩, ⟨S8192x128, (domS m c).v2⟩] concatenates_S8192x128_S8192x128_S8192x256_d1 :=
  (keepH15 (W30 m ρ c) main_v101 (by decide)).trans (at_main_v101_30 m ρ c)

theorem at_main_v101_32 (c : Dev nD) : W32 m ρ c (Proc.devRef .tc main_v101) = concatenate S8192x256 1 [⟨S8192x128, (domS m c).v1⟩, ⟨S8192x128, (domS m c).v2⟩] concatenates_S8192x128_S8192x128_S8192x256_d1 :=
  (W32_of_ne m ρ c main_v101 (by decide)).trans (at_main_v101_31 m ρ c)

theorem at_main_v101_33 (c : Dev nD) : W33 m ρ c (Proc.devRef .tc main_v101) = concatenate S8192x256 1 [⟨S8192x128, (domS m c).v1⟩, ⟨S8192x128, (domS m c).v2⟩] concatenates_S8192x128_S8192x128_S8192x256_d1 :=
  (keepH16 (W32 m ρ c) main_v101 (by decide)).trans (at_main_v101_32 m ρ c)

theorem at_main_v101_34 (c : Dev nD) : W34 m ρ c (Proc.devRef .tc main_v101) = concatenate S8192x256 1 [⟨S8192x128, (domS m c).v1⟩, ⟨S8192x128, (domS m c).v2⟩] concatenates_S8192x128_S8192x128_S8192x256_d1 :=
  (W34_of_ne m ρ c main_v101 (by decide)).trans (at_main_v101_33 m ρ c)

theorem at_main_v101_35 (c : Dev nD) : W35 m ρ c (Proc.devRef .tc main_v101) = concatenate S8192x256 1 [⟨S8192x128, (domS m c).v1⟩, ⟨S8192x128, (domS m c).v2⟩] concatenates_S8192x128_S8192x128_S8192x256_d1 :=
  (keepH17 (W34 m ρ c) main_v101 (by decide)).trans (at_main_v101_34 m ρ c)

theorem at_main_v101_36 (c : Dev nD) : W36 m ρ c (Proc.devRef .tc main_v101) = concatenate S8192x256 1 [⟨S8192x128, (domS m c).v1⟩, ⟨S8192x128, (domS m c).v2⟩] concatenates_S8192x128_S8192x128_S8192x256_d1 :=
  (W36_of_ne m ρ c main_v101 (by decide)).trans (at_main_v101_35 m ρ c)

theorem in_17_0 (c : Dev nD) : V35 m ρ c (Pipeline.arrRef spec17 0) = (domT m c).VU := at_main_v3_35 m ρ c

theorem in_15_0 (c : Dev nD) : V31 m ρ c (Pipeline.arrRef spec15 0) = (domT m c).UV := at_main_v2_31 m ρ c

theorem at_main_v103_25 (c : Dev nD) : W25 m ρ c (Proc.devRef .tc main_v103) = (domT m c).xv := by
  show StableHlo.after hostOps12 (W24 m ρ c) (Proc.devRef .tc main_v103) = _
  after_results
  rw [at_main_arg7_24 m ρ c]
  rfl

theorem at_main_v103_26 (c : Dev nD) : W26 m ρ c (Proc.devRef .tc main_v103) = (domT m c).xv :=
  (W26_of_ne m ρ c main_v103 (by decide)).trans (at_main_v103_25 m ρ c)

theorem at_main_v103_27 (c : Dev nD) : W27 m ρ c (Proc.devRef .tc main_v103) = (domT m c).xv :=
  (keepH13 (W26 m ρ c) main_v103 (by decide)).trans (at_main_v103_26 m ρ c)

theorem in_13_0 (c : Dev nD) : V27 m ρ c (Pipeline.arrRef spec13 0) = (domT m c).xv := at_main_v103_27 m ρ c

theorem at_main_v112_27 (c : Dev nD) : W27 m ρ c (Proc.devRef .tc main_v112) = slab (⟨1, by decide⟩ : Fin 4) (domT m c).dW := by
  show StableHlo.after hostOps13 (W26 m ρ c) (Proc.devRef .tc main_v112) = _
  after_results
  rw [at_main_v104_26 m ρ c]
  exact slice_reshape_eq_slab 1 (by decide) _ _ _

theorem in_13_1 (c : Dev nD) : V27 m ρ c (Pipeline.arrRef spec13 1) = slab (⟨1, by decide⟩ : Fin 4) (domT m c).dW := at_main_v112_27 m ρ c

theorem at_main_v113_28 (c : Dev nD) : W28 m ρ c (Proc.devRef .tc main_v113) = (domT m c).y1 := by
  refine (W28_arr m ρ c 2).trans ?_
  rw [final13 (V27 m ρ) c]
  rw [in_13_0 m ρ c, in_13_1 m ρ c]
  rfl

theorem at_main_v113_29 (c : Dev nD) : W29 m ρ c (Proc.devRef .tc main_v113) = (domT m c).y1 :=
  (keepH14 (W28 m ρ c) main_v113 (by decide)).trans (at_main_v113_28 m ρ c)

theorem at_main_v113_30 (c : Dev nD) : W30 m ρ c (Proc.devRef .tc main_v113) = (domT m c).y1 :=
  (W30_of_ne m ρ c main_v113 (by decide)).trans (at_main_v113_29 m ρ c)

theorem at_main_v113_31 (c : Dev nD) : W31 m ρ c (Proc.devRef .tc main_v113) = (domT m c).y1 :=
  (keepH15 (W30 m ρ c) main_v113 (by decide)).trans (at_main_v113_30 m ρ c)

theorem in_15_1 (c : Dev nD) : V31 m ρ c (Pipeline.arrRef spec15 1) = (domT m c).y1 := at_main_v113_31 m ρ c

theorem at_main_v124_31 (c : Dev nD) : W31 m ρ c (Proc.devRef .tc main_v124) = rowMat (⟨1, by decide⟩ : Fin 4) (domT m c).db := by
  show StableHlo.after hostOps15 (W30 m ρ c) (Proc.devRef .tc main_v124) = _
  after_results
  rw [at_main_arg17_30 m ρ c]
  exact slice_reshape_rowmat_eq 1 (by decide) _ _ _ _

theorem in_15_2 (c : Dev nD) : V31 m ρ c (Pipeline.arrRef spec15 2) = rowMat (⟨1, by decide⟩ : Fin 4) (domT m c).db := at_main_v124_31 m ρ c

theorem at_main_v104_29 (c : Dev nD) : W29 m ρ c (Proc.devRef .tc main_v104) = (domT m c).dW :=
  (keepH14 (W28 m ρ c) main_v104 (by decide)).trans (at_main_v104_28 m ρ c)

theorem at_main_v104_30 (c : Dev nD) : W30 m ρ c (Proc.devRef .tc main_v104) = (domT m c).dW :=
  (W30_of_ne m ρ c main_v104 (by decide)).trans (at_main_v104_29 m ρ c)

theorem at_main_v123_31 (c : Dev nD) : W31 m ρ c (Proc.devRef .tc main_v123) = slab (⟨3, by decide⟩ : Fin 4) (domT m c).dW := by
  show StableHlo.after hostOps15 (W30 m ρ c) (Proc.devRef .tc main_v123) = _
  after_results
  rw [at_main_v104_30 m ρ c]
  exact slice_reshape_eq_slab 3 (by decide) _ _ _

theorem in_15_3 (c : Dev nD) : V31 m ρ c (Pipeline.arrRef spec15 3) = slab (⟨3, by decide⟩ : Fin 4) (domT m c).dW := at_main_v123_31 m ρ c

theorem at_main_v125_32 (c : Dev nD) : W32 m ρ c (Proc.devRef .tc main_v125) = (domT m c).p2 := by
  refine (W32_arr m ρ c 4).trans ?_
  rw [final15 (V31 m ρ) c]
  rw [in_15_0 m ρ c, in_15_1 m ρ c, in_15_2 m ρ c, in_15_3 m ρ c]
  rfl

theorem at_main_v125_33 (c : Dev nD) : W33 m ρ c (Proc.devRef .tc main_v125) = (domT m c).p2 :=
  (keepH16 (W32 m ρ c) main_v125 (by decide)).trans (at_main_v125_32 m ρ c)

theorem at_main_v125_34 (c : Dev nD) : W34 m ρ c (Proc.devRef .tc main_v125) = (domT m c).p2 :=
  (W34_of_ne m ρ c main_v125 (by decide)).trans (at_main_v125_33 m ρ c)

theorem at_main_v125_35 (c : Dev nD) : W35 m ρ c (Proc.devRef .tc main_v125) = (domT m c).p2 :=
  (keepH17 (W34 m ρ c) main_v125 (by decide)).trans (at_main_v125_34 m ρ c)

theorem in_17_1 (c : Dev nD) : V35 m ρ c (Pipeline.arrRef spec17 1) = (domT m c).p2 := at_main_v125_35 m ρ c

theorem at_main_arg17_33 (c : Dev nD) : W33 m ρ c (Proc.devRef .tc main_arg17) = (domT m c).db :=
  (keepH16 (W32 m ρ c) main_arg17 (by decide)).trans (at_main_arg17_32 m ρ c)

theorem at_main_arg17_34 (c : Dev nD) : W34 m ρ c (Proc.devRef .tc main_arg17) = (domT m c).db :=
  (W34_of_ne m ρ c main_arg17 (by decide)).trans (at_main_arg17_33 m ρ c)

theorem at_main_v149_35 (c : Dev nD) : W35 m ρ c (Proc.devRef .tc main_v149) = rowMat (⟨3, by decide⟩ : Fin 4) (domT m c).db := by
  show StableHlo.after hostOps17 (W34 m ρ c) (Proc.devRef .tc main_v149) = _
  after_results
  rw [at_main_arg17_34 m ρ c]
  exact slice_reshape_rowmat_eq 3 (by decide) _ _ _ _

theorem in_17_2 (c : Dev nD) : V35 m ρ c (Pipeline.arrRef spec17 2) = rowMat (⟨3, by decide⟩ : Fin 4) (domT m c).db := at_main_v149_35 m ρ c

theorem at_main_v105_33 (c : Dev nD) : W33 m ρ c (Proc.devRef .tc main_v105) = (domT m c).uW :=
  (keepH16 (W32 m ρ c) main_v105 (by decide)).trans (at_main_v105_32 m ρ c)

theorem at_main_v105_34 (c : Dev nD) : W34 m ρ c (Proc.devRef .tc main_v105) = (domT m c).uW :=
  (W34_of_ne m ρ c main_v105 (by decide)).trans (at_main_v105_33 m ρ c)

theorem at_main_v143_35 (c : Dev nD) : W35 m ρ c (Proc.devRef .tc main_v143) = top (slab (⟨1, by decide⟩ : Fin 2) (domT m c).uW) := by
  show StableHlo.after hostOps17 (W34 m ρ c) (Proc.devRef .tc main_v143) = _
  after_results
  rw [at_main_v105_34 m ρ c]
  exact slab_top_eq (a := 128) (b := 128) _ 1 (by decide) _ _ _

theorem in_17_3 (c : Dev nD) : V35 m ρ c (Pipeline.arrRef spec17 3) = top (slab (⟨1, by decide⟩ : Fin 2) (domT m c).uW) := at_main_v143_35 m ρ c

theorem at_main_v103_28 (c : Dev nD) : W28 m ρ c (Proc.devRef .tc main_v103) = (domT m c).xv :=
  ((W28_arr m ρ c 0).trans (((dat13 (V27 m ρ) c).arrAt_in 0 rfl cfg13.N).trans (A_eq13 (V27 m ρ) c 0))).trans (at_main_v103_27 m ρ c)

theorem at_main_v103_29 (c : Dev nD) : W29 m ρ c (Proc.devRef .tc main_v103) = (domT m c).xv :=
  (keepH14 (W28 m ρ c) main_v103 (by decide)).trans (at_main_v103_28 m ρ c)

theorem at_main_v103_30 (c : Dev nD) : W30 m ρ c (Proc.devRef .tc main_v103) = (domT m c).xv :=
  (W30_of_ne m ρ c main_v103 (by decide)).trans (at_main_v103_29 m ρ c)

theorem at_main_v103_31 (c : Dev nD) : W31 m ρ c (Proc.devRef .tc main_v103) = (domT m c).xv :=
  (keepH15 (W30 m ρ c) main_v103 (by decide)).trans (at_main_v103_30 m ρ c)

theorem at_main_v103_32 (c : Dev nD) : W32 m ρ c (Proc.devRef .tc main_v103) = (domT m c).xv :=
  (W32_of_ne m ρ c main_v103 (by decide)).trans (at_main_v103_31 m ρ c)

theorem at_main_v103_33 (c : Dev nD) : W33 m ρ c (Proc.devRef .tc main_v103) = (domT m c).xv :=
  (keepH16 (W32 m ρ c) main_v103 (by decide)).trans (at_main_v103_32 m ρ c)

theorem at_main_v103_34 (c : Dev nD) : W34 m ρ c (Proc.devRef .tc main_v103) = (domT m c).xv :=
  (W34_of_ne m ρ c main_v103 (by decide)).trans (at_main_v103_33 m ρ c)

theorem at_main_v103_35 (c : Dev nD) : W35 m ρ c (Proc.devRef .tc main_v103) = (domT m c).xv :=
  (keepH17 (W34 m ρ c) main_v103 (by decide)).trans (at_main_v103_34 m ρ c)

theorem in_17_4 (c : Dev nD) : V35 m ρ c (Pipeline.arrRef spec17 4) = (domT m c).xv := at_main_v103_35 m ρ c

theorem at_main_v146_35 (c : Dev nD) : W35 m ρ c (Proc.devRef .tc main_v146) = bot (slab (⟨1, by decide⟩ : Fin 2) (domT m c).uW) := by
  show StableHlo.after hostOps17 (W34 m ρ c) (Proc.devRef .tc main_v146) = _
  after_results
  rw [at_main_v105_34 m ρ c]
  exact slab_bot_eq (a := 128) (b := 128) _ 1 (by decide) _ _ _

theorem in_17_5 (c : Dev nD) : V35 m ρ c (Pipeline.arrRef spec17 5) = bot (slab (⟨1, by decide⟩ : Fin 2) (domT m c).uW) := at_main_v146_35 m ρ c

theorem at_main_arg19_33 (c : Dev nD) : W33 m ρ c (Proc.devRef .tc main_arg19) = (domT m c).ub :=
  (keepH16 (W32 m ρ c) main_arg19 (by decide)).trans (at_main_arg19_32 m ρ c)

theorem at_main_arg19_34 (c : Dev nD) : W34 m ρ c (Proc.devRef .tc main_arg19) = (domT m c).ub :=
  (W34_of_ne m ρ c main_arg19 (by decide)).trans (at_main_arg19_33 m ρ c)

theorem at_main_v150_35 (c : Dev nD) : W35 m ρ c (Proc.devRef .tc main_v150) = rowMat (⟨1, by decide⟩ : Fin 2) (domT m c).ub := by
  show StableHlo.after hostOps17 (W34 m ρ c) (Proc.devRef .tc main_v150) = _
  after_results
  rw [at_main_arg19_34 m ρ c]
  exact slice_reshape_rowmat_eq 1 (by decide) _ _ _ _

theorem in_17_6 (c : Dev nD) : V35 m ρ c (Pipeline.arrRef spec17 6) = rowMat (⟨1, by decide⟩ : Fin 2) (domT m c).ub := at_main_v150_35 m ρ c

theorem at_main_v151_36 (c : Dev nD) : W36 m ρ c (Proc.devRef .tc main_v151) = (domT m c).v1 := by
  refine (W36_arr m ρ c 7).trans ?_
  rw [final17 (V35 m ρ) c]
  rw [in_17_0 m ρ c, in_17_1 m ρ c, in_17_2 m ρ c, in_17_3 m ρ c, in_17_4 m ρ c, in_17_5 m ρ c, in_17_6 m ρ c]
  rfl

end Cert.KernelIdeal.Chain

end
-- ==== Proof.KChainVal4.lean ====
/-
  The idealized kernel program's buffers at the segment boundaries 37 … 49, as the encoder model's values: each
  region's output array is what its write-backs leave, which is the model's value of the region's input arrays as the
  region finds them; those are read where a host operation or an earlier region produced them and carried, unchanged,
  across every stretch and region in between.
-/
import proofs.«177232_g71837622993359_cont_sun_m_41_3_alg».proof.Proof.KChainVal3

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Cert.Spec Cert.HostForms Cert.KernelIdeal.RegionValue

variable (m : (ℓ : Loc nD τ sig) → Buf (Elt Ideal) ℓ) (ρ : Dev nD → PrngReg)

theorem at_main_v138_37 (c : Dev nD) : W37 m ρ c (Proc.devRef .tc main_v138) = (domT m c).u1 :=
  (keepH18 (W36 m ρ c) main_v138 (by decide)).trans (at_main_v138_36 m ρ c)

theorem at_main_v138_38 (c : Dev nD) : W38 m ρ c (Proc.devRef .tc main_v138) = (domT m c).u1 :=
  (W38_of_ne m ρ c main_v138 (by decide)).trans (at_main_v138_37 m ρ c)

theorem at_main_v138_39 (c : Dev nD) : W39 m ρ c (Proc.devRef .tc main_v138) = (domT m c).u1 :=
  (keepH19 (W38 m ρ c) main_v138 (by decide)).trans (at_main_v138_38 m ρ c)

theorem at_main_v138_40 (c : Dev nD) : W40 m ρ c (Proc.devRef .tc main_v138) = (domT m c).u1 :=
  (W40_of_ne m ρ c main_v138 (by decide)).trans (at_main_v138_39 m ρ c)

theorem at_main_v138_41 (c : Dev nD) : W41 m ρ c (Proc.devRef .tc main_v138) = (domT m c).u1 :=
  (keepH20 (W40 m ρ c) main_v138 (by decide)).trans (at_main_v138_40 m ρ c)

theorem at_main_v138_42 (c : Dev nD) : W42 m ρ c (Proc.devRef .tc main_v138) = (domT m c).u1 :=
  (W42_of_ne m ρ c main_v138 (by decide)).trans (at_main_v138_41 m ρ c)

theorem at_main_v138_43 (c : Dev nD) : W43 m ρ c (Proc.devRef .tc main_v138) = (domT m c).u1 :=
  (keepH21 (W42 m ρ c) main_v138 (by decide)).trans (at_main_v138_42 m ρ c)

theorem at_main_v138_44 (c : Dev nD) : W44 m ρ c (Proc.devRef .tc main_v138) = (domT m c).u1 :=
  (W44_of_ne m ρ c main_v138 (by decide)).trans (at_main_v138_43 m ρ c)

theorem at_main_v138_45 (c : Dev nD) : W45 m ρ c (Proc.devRef .tc main_v138) = (domT m c).u1 :=
  (keepH22 (W44 m ρ c) main_v138 (by decide)).trans (at_main_v138_44 m ρ c)

theorem at_main_v138_46 (c : Dev nD) : W46 m ρ c (Proc.devRef .tc main_v138) = (domT m c).u1 :=
  (W46_of_ne m ρ c main_v138 (by decide)).trans (at_main_v138_45 m ρ c)

theorem at_main_v138_47 (c : Dev nD) : W47 m ρ c (Proc.devRef .tc main_v138) = (domT m c).u1 :=
  (keepH23 (W46 m ρ c) main_v138 (by decide)).trans (at_main_v138_46 m ρ c)

theorem at_main_v138_48 (c : Dev nD) : W48 m ρ c (Proc.devRef .tc main_v138) = (domT m c).u1 :=
  (W48_of_ne m ρ c main_v138 (by decide)).trans (at_main_v138_47 m ρ c)

theorem at_main_v2_37 (c : Dev nD) : W37 m ρ c (Proc.devRef .tc main_v2) = (domT m c).UV :=
  (keepH18 (W36 m ρ c) main_v2 (by decide)).trans (at_main_v2_36 m ρ c)

theorem at_main_v2_38 (c : Dev nD) : W38 m ρ c (Proc.devRef .tc main_v2) = (domT m c).UV :=
  (W38_of_ne m ρ c main_v2 (by decide)).trans (at_main_v2_37 m ρ c)

theorem at_main_v2_39 (c : Dev nD) : W39 m ρ c (Proc.devRef .tc main_v2) = (domT m c).UV :=
  (keepH19 (W38 m ρ c) main_v2 (by decide)).trans (at_main_v2_38 m ρ c)

theorem at_main_v2_40 (c : Dev nD) : W40 m ρ c (Proc.devRef .tc main_v2) = (domT m c).UV :=
  (W40_of_ne m ρ c main_v2 (by decide)).trans (at_main_v2_39 m ρ c)

theorem at_main_v2_41 (c : Dev nD) : W41 m ρ c (Proc.devRef .tc main_v2) = (domT m c).UV :=
  (keepH20 (W40 m ρ c) main_v2 (by decide)).trans (at_main_v2_40 m ρ c)

theorem at_main_v2_42 (c : Dev nD) : W42 m ρ c (Proc.devRef .tc main_v2) = (domT m c).UV :=
  (W42_of_ne m ρ c main_v2 (by decide)).trans (at_main_v2_41 m ρ c)

theorem at_main_v2_43 (c : Dev nD) : W43 m ρ c (Proc.devRef .tc main_v2) = (domT m c).UV :=
  (keepH21 (W42 m ρ c) main_v2 (by decide)).trans (at_main_v2_42 m ρ c)

theorem at_main_v2_44 (c : Dev nD) : W44 m ρ c (Proc.devRef .tc main_v2) = (domT m c).UV :=
  ((W44_arr m ρ c 0).trans (((dat21 (V43 m ρ) c).arrAt_in 0 rfl cfg21.N).trans (A_eq21 (V43 m ρ) c 0))).trans (at_main_v2_43 m ρ c)

theorem at_main_v2_45 (c : Dev nD) : W45 m ρ c (Proc.devRef .tc main_v2) = (domT m c).UV :=
  (keepH22 (W44 m ρ c) main_v2 (by decide)).trans (at_main_v2_44 m ρ c)

theorem in_22_0 (c : Dev nD) : V45 m ρ c (Pipeline.arrRef spec22 0) = (domT m c).UV := at_main_v2_45 m ρ c

theorem at_main_v3_37 (c : Dev nD) : W37 m ρ c (Proc.devRef .tc main_v3) = (domT m c).VU :=
  (keepH18 (W36 m ρ c) main_v3 (by decide)).trans (at_main_v3_36 m ρ c)

theorem at_main_v3_38 (c : Dev nD) : W38 m ρ c (Proc.devRef .tc main_v3) = (domT m c).VU :=
  (W38_of_ne m ρ c main_v3 (by decide)).trans (at_main_v3_37 m ρ c)

theorem at_main_v3_39 (c : Dev nD) : W39 m ρ c (Proc.devRef .tc main_v3) = (domT m c).VU :=
  (keepH19 (W38 m ρ c) main_v3 (by decide)).trans (at_main_v3_38 m ρ c)

theorem at_main_v3_40 (c : Dev nD) : W40 m ρ c (Proc.devRef .tc main_v3) = (domT m c).VU :=
  (W40_of_ne m ρ c main_v3 (by decide)).trans (at_main_v3_39 m ρ c)

theorem at_main_v3_41 (c : Dev nD) : W41 m ρ c (Proc.devRef .tc main_v3) = (domT m c).VU :=
  (keepH20 (W40 m ρ c) main_v3 (by decide)).trans (at_main_v3_40 m ρ c)

theorem in_20_0 (c : Dev nD) : V41 m ρ c (Pipeline.arrRef spec20 0) = (domT m c).VU := at_main_v3_41 m ρ c

theorem at_main_v152_37 (c : Dev nD) : W37 m ρ c (Proc.devRef .tc main_v152) = (domT m c).u1 := by
  show StableHlo.after hostOps18 (W36 m ρ c) (Proc.devRef .tc main_v152) = _
  after_results
  rw [at_main_v138_36 m ρ c]
  rfl

theorem in_18_0 (c : Dev nD) : V37 m ρ c (Pipeline.arrRef spec18 0) = (domT m c).u1 := at_main_v152_37 m ρ c

theorem at_main_v155_37 (c : Dev nD) : W37 m ρ c (Proc.devRef .tc main_v155) = slab (⟨0, by decide⟩ : Fin 6) (domT m c).lW := by
  show StableHlo.after hostOps18 (W36 m ρ c) (Proc.devRef .tc main_v155) = _
  after_results
  rw [at_main_v106_36 m ρ c]
  exact slice_reshape_eq_slab 0 (by decide) _ _ _

theorem in_18_1 (c : Dev nD) : V37 m ρ c (Pipeline.arrRef spec18 1) = slab (⟨0, by decide⟩ : Fin 6) (domT m c).lW := at_main_v155_37 m ρ c

theorem at_main_v156_38 (c : Dev nD) : W38 m ρ c (Proc.devRef .tc main_v156) = (domT m c).y2 := by
  refine (W38_arr m ρ c 2).trans ?_
  rw [final18 (V37 m ρ) c]
  rw [in_18_0 m ρ c, in_18_1 m ρ c]
  rfl

theorem at_main_v156_39 (c : Dev nD) : W39 m ρ c (Proc.devRef .tc main_v156) = (domT m c).y2 :=
  (keepH19 (W38 m ρ c) main_v156 (by decide)).trans (at_main_v156_38 m ρ c)

theorem at_main_v156_40 (c : Dev nD) : W40 m ρ c (Proc.devRef .tc main_v156) = (domT m c).y2 :=
  (W40_of_ne m ρ c main_v156 (by decide)).trans (at_main_v156_39 m ρ c)

theorem at_main_v156_41 (c : Dev nD) : W41 m ρ c (Proc.devRef .tc main_v156) = (domT m c).y2 :=
  (keepH20 (W40 m ρ c) main_v156 (by decide)).trans (at_main_v156_40 m ρ c)

theorem in_20_1 (c : Dev nD) : V41 m ρ c (Pipeline.arrRef spec20 1) = (domT m c).y2 := at_main_v156_41 m ρ c

theorem at_main_arg21_37 (c : Dev nD) : W37 m ρ c (Proc.devRef .tc main_arg21) = (domT m c).lb :=
  (keepH18 (W36 m ρ c) main_arg21 (by decide)).trans (at_main_arg21_36 m ρ c)

theorem at_main_arg21_38 (c : Dev nD) : W38 m ρ c (Proc.devRef .tc main_arg21) = (domT m c).lb :=
  (W38_of_ne m ρ c main_arg21 (by decide)).trans (at_main_arg21_37 m ρ c)

theorem at_main_arg21_39 (c : Dev nD) : W39 m ρ c (Proc.devRef .tc main_arg21) = (domT m c).lb :=
  (keepH19 (W38 m ρ c) main_arg21 (by decide)).trans (at_main_arg21_38 m ρ c)

theorem at_main_arg21_40 (c : Dev nD) : W40 m ρ c (Proc.devRef .tc main_arg21) = (domT m c).lb :=
  (W40_of_ne m ρ c main_arg21 (by decide)).trans (at_main_arg21_39 m ρ c)

theorem at_main_v164_41 (c : Dev nD) : W41 m ρ c (Proc.devRef .tc main_v164) = rowMat (⟨0, by decide⟩ : Fin 6) (domT m c).lb := by
  show StableHlo.after hostOps20 (W40 m ρ c) (Proc.devRef .tc main_v164) = _
  after_results
  rw [at_main_arg21_40 m ρ c]
  exact slice_reshape_rowmat_eq 0 (by decide) _ _ _ _

theorem in_20_2 (c : Dev nD) : V41 m ρ c (Pipeline.arrRef spec20 2) = rowMat (⟨0, by decide⟩ : Fin 6) (domT m c).lb := at_main_v164_41 m ρ c

theorem at_main_v106_37 (c : Dev nD) : W37 m ρ c (Proc.devRef .tc main_v106) = (domT m c).lW :=
  (keepH18 (W36 m ρ c) main_v106 (by decide)).trans (at_main_v106_36 m ρ c)

theorem at_main_v106_38 (c : Dev nD) : W38 m ρ c (Proc.devRef .tc main_v106) = (domT m c).lW :=
  (W38_of_ne m ρ c main_v106 (by decide)).trans (at_main_v106_37 m ρ c)

theorem at_main_v106_39 (c : Dev nD) : W39 m ρ c (Proc.devRef .tc main_v106) = (domT m c).lW :=
  (keepH19 (W38 m ρ c) main_v106 (by decide)).trans (at_main_v106_38 m ρ c)

theorem at_main_v106_40 (c : Dev nD) : W40 m ρ c (Proc.devRef .tc main_v106) = (domT m c).lW :=
  (W40_of_ne m ρ c main_v106 (by decide)).trans (at_main_v106_39 m ρ c)

theorem at_main_v163_41 (c : Dev nD) : W41 m ρ c (Proc.devRef .tc main_v163) = slab (⟨2, by decide⟩ : Fin 6) (domT m c).lW := by
  show StableHlo.after hostOps20 (W40 m ρ c) (Proc.devRef .tc main_v163) = _
  after_results
  rw [at_main_v106_40 m ρ c]
  exact slice_reshape_eq_slab 2 (by decide) _ _ _

theorem in_20_3 (c : Dev nD) : V41 m ρ c (Pipeline.arrRef spec20 3) = slab (⟨2, by decide⟩ : Fin 6) (domT m c).lW := at_main_v163_41 m ρ c

theorem at_main_v165_42 (c : Dev nD) : W42 m ρ c (Proc.devRef .tc main_v165) = (domT m c).q1 := by
  refine (W42_arr m ρ c 4).trans ?_
  rw [final20 (V41 m ρ) c]
  rw [in_20_0 m ρ c, in_20_1 m ρ c, in_20_2 m ρ c, in_20_3 m ρ c]
  rfl

theorem at_main_v165_43 (c : Dev nD) : W43 m ρ c (Proc.devRef .tc main_v165) = (domT m c).q1 :=
  (keepH21 (W42 m ρ c) main_v165 (by decide)).trans (at_main_v165_42 m ρ c)

theorem at_main_v165_44 (c : Dev nD) : W44 m ρ c (Proc.devRef .tc main_v165) = (domT m c).q1 :=
  (W44_of_ne m ρ c main_v165 (by decide)).trans (at_main_v165_43 m ρ c)

theorem at_main_v165_45 (c : Dev nD) : W45 m ρ c (Proc.devRef .tc main_v165) = (domT m c).q1 :=
  (keepH22 (W44 m ρ c) main_v165 (by decide)).trans (at_main_v165_44 m ρ c)

theorem in_22_1 (c : Dev nD) : V45 m ρ c (Pipeline.arrRef spec22 1) = (domT m c).q1 := at_main_v165_45 m ρ c

theorem at_main_arg21_41 (c : Dev nD) : W41 m ρ c (Proc.devRef .tc main_arg21) = (domT m c).lb :=
  (keepH20 (W40 m ρ c) main_arg21 (by decide)).trans (at_main_arg21_40 m ρ c)

theorem at_main_arg21_42 (c : Dev nD) : W42 m ρ c (Proc.devRef .tc main_arg21) = (domT m c).lb :=
  (W42_of_ne m ρ c main_arg21 (by decide)).trans (at_main_arg21_41 m ρ c)

theorem at_main_arg21_43 (c : Dev nD) : W43 m ρ c (Proc.devRef .tc main_arg21) = (domT m c).lb :=
  (keepH21 (W42 m ρ c) main_arg21 (by decide)).trans (at_main_arg21_42 m ρ c)

theorem at_main_arg21_44 (c : Dev nD) : W44 m ρ c (Proc.devRef .tc main_arg21) = (domT m c).lb :=
  (W44_of_ne m ρ c main_arg21 (by decide)).trans (at_main_arg21_43 m ρ c)

theorem at_main_v182_45 (c : Dev nD) : W45 m ρ c (Proc.devRef .tc main_v182) = rowMat (⟨2, by decide⟩ : Fin 6) (domT m c).lb := by
  show StableHlo.after hostOps22 (W44 m ρ c) (Proc.devRef .tc main_v182) = _
  after_results
  rw [at_main_arg21_44 m ρ c]
  exact slice_reshape_rowmat_eq 2 (by decide) _ _ _ _

theorem in_22_2 (c : Dev nD) : V45 m ρ c (Pipeline.arrRef spec22 2) = rowMat (⟨2, by decide⟩ : Fin 6) (domT m c).lb := at_main_v182_45 m ρ c

theorem at_main_v107_37 (c : Dev nD) : W37 m ρ c (Proc.devRef .tc main_v107) = (domT m c).luW :=
  (keepH18 (W36 m ρ c) main_v107 (by decide)).trans (at_main_v107_36 m ρ c)

theorem at_main_v107_38 (c : Dev nD) : W38 m ρ c (Proc.devRef .tc main_v107) = (domT m c).luW :=
  (W38_of_ne m ρ c main_v107 (by decide)).trans (at_main_v107_37 m ρ c)

theorem at_main_v107_39 (c : Dev nD) : W39 m ρ c (Proc.devRef .tc main_v107) = (domT m c).luW :=
  (keepH19 (W38 m ρ c) main_v107 (by decide)).trans (at_main_v107_38 m ρ c)

theorem at_main_v107_40 (c : Dev nD) : W40 m ρ c (Proc.devRef .tc main_v107) = (domT m c).luW :=
  (W40_of_ne m ρ c main_v107 (by decide)).trans (at_main_v107_39 m ρ c)

theorem at_main_v107_41 (c : Dev nD) : W41 m ρ c (Proc.devRef .tc main_v107) = (domT m c).luW :=
  (keepH20 (W40 m ρ c) main_v107 (by decide)).trans (at_main_v107_40 m ρ c)

theorem at_main_v107_42 (c : Dev nD) : W42 m ρ c (Proc.devRef .tc main_v107) = (domT m c).luW :=
  (W42_of_ne m ρ c main_v107 (by decide)).trans (at_main_v107_41 m ρ c)

theorem at_main_v107_43 (c : Dev nD) : W43 m ρ c (Proc.devRef .tc main_v107) = (domT m c).luW :=
  (keepH21 (W42 m ρ c) main_v107 (by decide)).trans (at_main_v107_42 m ρ c)

theorem at_main_v107_44 (c : Dev nD) : W44 m ρ c (Proc.devRef .tc main_v107) = (domT m c).luW :=
  (W44_of_ne m ρ c main_v107 (by decide)).trans (at_main_v107_43 m ρ c)

theorem at_main_v176_45 (c : Dev nD) : W45 m ρ c (Proc.devRef .tc main_v176) = top (slab (⟨0, by decide⟩ : Fin 4) (domT m c).luW) := by
  show StableHlo.after hostOps22 (W44 m ρ c) (Proc.devRef .tc main_v176) = _
  after_results
  rw [at_main_v107_44 m ρ c]
  exact slab_top_eq (a := 128) (b := 128) _ 0 (by decide) _ _ _

theorem in_22_3 (c : Dev nD) : V45 m ρ c (Pipeline.arrRef spec22 3) = top (slab (⟨0, by decide⟩ : Fin 4) (domT m c).luW) := at_main_v176_45 m ρ c

theorem at_main_v152_38 (c : Dev nD) : W38 m ρ c (Proc.devRef .tc main_v152) = (domT m c).u1 :=
  ((W38_arr m ρ c 0).trans (((dat18 (V37 m ρ) c).arrAt_in 0 rfl cfg18.N).trans (A_eq18 (V37 m ρ) c 0))).trans (at_main_v152_37 m ρ c)

theorem at_main_v152_39 (c : Dev nD) : W39 m ρ c (Proc.devRef .tc main_v152) = (domT m c).u1 :=
  (keepH19 (W38 m ρ c) main_v152 (by decide)).trans (at_main_v152_38 m ρ c)

theorem at_main_v152_40 (c : Dev nD) : W40 m ρ c (Proc.devRef .tc main_v152) = (domT m c).u1 :=
  (W40_of_ne m ρ c main_v152 (by decide)).trans (at_main_v152_39 m ρ c)

theorem at_main_v152_41 (c : Dev nD) : W41 m ρ c (Proc.devRef .tc main_v152) = (domT m c).u1 :=
  (keepH20 (W40 m ρ c) main_v152 (by decide)).trans (at_main_v152_40 m ρ c)

theorem at_main_v152_42 (c : Dev nD) : W42 m ρ c (Proc.devRef .tc main_v152) = (domT m c).u1 :=
  (W42_of_ne m ρ c main_v152 (by decide)).trans (at_main_v152_41 m ρ c)

theorem at_main_v152_43 (c : Dev nD) : W43 m ρ c (Proc.devRef .tc main_v152) = (domT m c).u1 :=
  (keepH21 (W42 m ρ c) main_v152 (by decide)).trans (at_main_v152_42 m ρ c)

theorem at_main_v152_44 (c : Dev nD) : W44 m ρ c (Proc.devRef .tc main_v152) = (domT m c).u1 :=
  (W44_of_ne m ρ c main_v152 (by decide)).trans (at_main_v152_43 m ρ c)

theorem at_main_v152_45 (c : Dev nD) : W45 m ρ c (Proc.devRef .tc main_v152) = (domT m c).u1 :=
  (keepH22 (W44 m ρ c) main_v152 (by decide)).trans (at_main_v152_44 m ρ c)

theorem in_22_4 (c : Dev nD) : V45 m ρ c (Pipeline.arrRef spec22 4) = (domT m c).u1 := at_main_v152_45 m ρ c

theorem at_main_v179_45 (c : Dev nD) : W45 m ρ c (Proc.devRef .tc main_v179) = bot (slab (⟨0, by decide⟩ : Fin 4) (domT m c).luW) := by
  show StableHlo.after hostOps22 (W44 m ρ c) (Proc.devRef .tc main_v179) = _
  after_results
  rw [at_main_v107_44 m ρ c]
  exact slab_bot_eq (a := 128) (b := 128) _ 0 (by decide) _ _ _

theorem in_22_5 (c : Dev nD) : V45 m ρ c (Pipeline.arrRef spec22 5) = bot (slab (⟨0, by decide⟩ : Fin 4) (domT m c).luW) := at_main_v179_45 m ρ c

theorem at_main_arg23_37 (c : Dev nD) : W37 m ρ c (Proc.devRef .tc main_arg23) = (domT m c).lub :=
  (keepH18 (W36 m ρ c) main_arg23 (by decide)).trans (at_main_arg23_36 m ρ c)

theorem at_main_arg23_38 (c : Dev nD) : W38 m ρ c (Proc.devRef .tc main_arg23) = (domT m c).lub :=
  (W38_of_ne m ρ c main_arg23 (by decide)).trans (at_main_arg23_37 m ρ c)

theorem at_main_arg23_39 (c : Dev nD) : W39 m ρ c (Proc.devRef .tc main_arg23) = (domT m c).lub :=
  (keepH19 (W38 m ρ c) main_arg23 (by decide)).trans (at_main_arg23_38 m ρ c)

theorem at_main_arg23_40 (c : Dev nD) : W40 m ρ c (Proc.devRef .tc main_arg23) = (domT m c).lub :=
  (W40_of_ne m ρ c main_arg23 (by decide)).trans (at_main_arg23_39 m ρ c)

theorem at_main_arg23_41 (c : Dev nD) : W41 m ρ c (Proc.devRef .tc main_arg23) = (domT m c).lub :=
  (keepH20 (W40 m ρ c) main_arg23 (by decide)).trans (at_main_arg23_40 m ρ c)

theorem at_main_arg23_42 (c : Dev nD) : W42 m ρ c (Proc.devRef .tc main_arg23) = (domT m c).lub :=
  (W42_of_ne m ρ c main_arg23 (by decide)).trans (at_main_arg23_41 m ρ c)

theorem at_main_arg23_43 (c : Dev nD) : W43 m ρ c (Proc.devRef .tc main_arg23) = (domT m c).lub :=
  (keepH21 (W42 m ρ c) main_arg23 (by decide)).trans (at_main_arg23_42 m ρ c)

theorem at_main_arg23_44 (c : Dev nD) : W44 m ρ c (Proc.devRef .tc main_arg23) = (domT m c).lub :=
  (W44_of_ne m ρ c main_arg23 (by decide)).trans (at_main_arg23_43 m ρ c)

theorem at_main_v183_45 (c : Dev nD) : W45 m ρ c (Proc.devRef .tc main_v183) = rowMat (⟨0, by decide⟩ : Fin 4) (domT m c).lub := by
  show StableHlo.after hostOps22 (W44 m ρ c) (Proc.devRef .tc main_v183) = _
  after_results
  rw [at_main_arg23_44 m ρ c]
  exact slice_reshape_rowmat_eq 0 (by decide) _ _ _ _

theorem in_22_6 (c : Dev nD) : V45 m ρ c (Pipeline.arrRef spec22 6) = rowMat (⟨0, by decide⟩ : Fin 4) (domT m c).lub := at_main_v183_45 m ρ c

theorem at_main_v184_46 (c : Dev nD) : W46 m ρ c (Proc.devRef .tc main_v184) = (domT m c).u2 := by
  refine (W46_arr m ρ c 7).trans ?_
  rw [final22 (V45 m ρ) c]
  rw [in_22_0 m ρ c, in_22_1 m ρ c, in_22_2 m ρ c, in_22_3 m ρ c, in_22_4 m ρ c, in_22_5 m ρ c, in_22_6 m ρ c]
  rfl

theorem at_main_v184_47 (c : Dev nD) : W47 m ρ c (Proc.devRef .tc main_v184) = (domT m c).u2 :=
  (keepH23 (W46 m ρ c) main_v184 (by decide)).trans (at_main_v184_46 m ρ c)

theorem at_main_v184_48 (c : Dev nD) : W48 m ρ c (Proc.devRef .tc main_v184) = (domT m c).u2 :=
  (W48_of_ne m ρ c main_v184 (by decide)).trans (at_main_v184_47 m ρ c)

theorem at_main_v100_37 (c : Dev nD) : W37 m ρ c (Proc.devRef .tc main_v100) = concatenate S4096x256 1 [⟨S4096x128, (domS m c).u1⟩, ⟨S4096x128, (domS m c).u2⟩] concatenates_S4096x128_S4096x128_S4096x256_d1 :=
  (keepH18 (W36 m ρ c) main_v100 (by decide)).trans (at_main_v100_36 m ρ c)

theorem at_main_v100_38 (c : Dev nD) : W38 m ρ c (Proc.devRef .tc main_v100) = concatenate S4096x256 1 [⟨S4096x128, (domS m c).u1⟩, ⟨S4096x128, (domS m c).u2⟩] concatenates_S4096x128_S4096x128_S4096x256_d1 :=
  (W38_of_ne m ρ c main_v100 (by decide)).trans (at_main_v100_37 m ρ c)

theorem at_main_v100_39 (c : Dev nD) : W39 m ρ c (Proc.devRef .tc main_v100) = concatenate S4096x256 1 [⟨S4096x128, (domS m c).u1⟩, ⟨S4096x128, (domS m c).u2⟩] concatenates_S4096x128_S4096x128_S4096x256_d1 :=
  (keepH19 (W38 m ρ c) main_v100 (by decide)).trans (at_main_v100_38 m ρ c)

theorem at_main_v100_40 (c : Dev nD) : W40 m ρ c (Proc.devRef .tc main_v100) = concatenate S4096x256 1 [⟨S4096x128, (domS m c).u1⟩, ⟨S4096x128, (domS m c).u2⟩] concatenates_S4096x128_S4096x128_S4096x256_d1 :=
  (W40_of_ne m ρ c main_v100 (by decide)).trans (at_main_v100_39 m ρ c)

theorem at_main_v100_41 (c : Dev nD) : W41 m ρ c (Proc.devRef .tc main_v100) = concatenate S4096x256 1 [⟨S4096x128, (domS m c).u1⟩, ⟨S4096x128, (domS m c).u2⟩] concatenates_S4096x128_S4096x128_S4096x256_d1 :=
  (keepH20 (W40 m ρ c) main_v100 (by decide)).trans (at_main_v100_40 m ρ c)

theorem at_main_v100_42 (c : Dev nD) : W42 m ρ c (Proc.devRef .tc main_v100) = concatenate S4096x256 1 [⟨S4096x128, (domS m c).u1⟩, ⟨S4096x128, (domS m c).u2⟩] concatenates_S4096x128_S4096x128_S4096x256_d1 :=
  (W42_of_ne m ρ c main_v100 (by decide)).trans (at_main_v100_41 m ρ c)

theorem at_main_v100_43 (c : Dev nD) : W43 m ρ c (Proc.devRef .tc main_v100) = concatenate S4096x256 1 [⟨S4096x128, (domS m c).u1⟩, ⟨S4096x128, (domS m c).u2⟩] concatenates_S4096x128_S4096x128_S4096x256_d1 :=
  (keepH21 (W42 m ρ c) main_v100 (by decide)).trans (at_main_v100_42 m ρ c)

theorem at_main_v100_44 (c : Dev nD) : W44 m ρ c (Proc.devRef .tc main_v100) = concatenate S4096x256 1 [⟨S4096x128, (domS m c).u1⟩, ⟨S4096x128, (domS m c).u2⟩] concatenates_S4096x128_S4096x128_S4096x256_d1 :=
  (W44_of_ne m ρ c main_v100 (by decide)).trans (at_main_v100_43 m ρ c)

theorem at_main_v100_45 (c : Dev nD) : W45 m ρ c (Proc.devRef .tc main_v100) = concatenate S4096x256 1 [⟨S4096x128, (domS m c).u1⟩, ⟨S4096x128, (domS m c).u2⟩] concatenates_S4096x128_S4096x128_S4096x256_d1 :=
  (keepH22 (W44 m ρ c) main_v100 (by decide)).trans (at_main_v100_44 m ρ c)

theorem at_main_v100_46 (c : Dev nD) : W46 m ρ c (Proc.devRef .tc main_v100) = concatenate S4096x256 1 [⟨S4096x128, (domS m c).u1⟩, ⟨S4096x128, (domS m c).u2⟩] concatenates_S4096x128_S4096x128_S4096x256_d1 :=
  (W46_of_ne m ρ c main_v100 (by decide)).trans (at_main_v100_45 m ρ c)

theorem at_main_v100_47 (c : Dev nD) : W47 m ρ c (Proc.devRef .tc main_v100) = concatenate S4096x256 1 [⟨S4096x128, (domS m c).u1⟩, ⟨S4096x128, (domS m c).u2⟩] concatenates_S4096x128_S4096x128_S4096x256_d1 :=
  (keepH23 (W46 m ρ c) main_v100 (by decide)).trans (at_main_v100_46 m ρ c)

theorem at_main_v100_48 (c : Dev nD) : W48 m ρ c (Proc.devRef .tc main_v100) = concatenate S4096x256 1 [⟨S4096x128, (domS m c).u1⟩, ⟨S4096x128, (domS m c).u2⟩] concatenates_S4096x128_S4096x128_S4096x256_d1 :=
  (W48_of_ne m ρ c main_v100 (by decide)).trans (at_main_v100_47 m ρ c)

theorem at_main_v202_49 (c : Dev nD) : W49 m ρ c (Proc.devRef .tc main_v202) = concatenate S4096x256 0 [⟨S2048x256, extractStridedSlice S2048x256 ![0, 0] (concatenate S4096x256 1 [⟨S4096x128, (domT m c).u1⟩, ⟨S4096x128, (domT m c).u2⟩] concatenates_S4096x128_S4096x128_S4096x256_d1) slices_S4096x256_S2048x256_0_0⟩, ⟨S2048x256, extractStridedSlice S2048x256 ![2048, 0] (concatenate S4096x256 1 [⟨S4096x128, (domS m c).u1⟩, ⟨S4096x128, (domS m c).u2⟩] concatenates_S4096x128_S4096x128_S4096x256_d1) slices_S4096x256_S2048x256_2048_0⟩] concatenates_S2048x256_S2048x256_S4096x256_d0 := by
  show StableHlo.after hostOps24 (W48 m ρ c) (Proc.devRef .tc main_v202) = _
  after_results
  rw [at_main_v138_48 m ρ c, at_main_v184_48 m ρ c, at_main_v100_48 m ρ c]

theorem at_main_v101_37 (c : Dev nD) : W37 m ρ c (Proc.devRef .tc main_v101) = concatenate S8192x256 1 [⟨S8192x128, (domS m c).v1⟩, ⟨S8192x128, (domS m c).v2⟩] concatenates_S8192x128_S8192x128_S8192x256_d1 :=
  (keepH18 (W36 m ρ c) main_v101 (by decide)).trans (at_main_v101_36 m ρ c)

theorem at_main_v101_38 (c : Dev nD) : W38 m ρ c (Proc.devRef .tc main_v101) = concatenate S8192x256 1 [⟨S8192x128, (domS m c).v1⟩, ⟨S8192x128, (domS m c).v2⟩] concatenates_S8192x128_S8192x128_S8192x256_d1 :=
  (W38_of_ne m ρ c main_v101 (by decide)).trans (at_main_v101_37 m ρ c)

theorem at_main_v101_39 (c : Dev nD) : W39 m ρ c (Proc.devRef .tc main_v101) = concatenate S8192x256 1 [⟨S8192x128, (domS m c).v1⟩, ⟨S8192x128, (domS m c).v2⟩] concatenates_S8192x128_S8192x128_S8192x256_d1 :=
  (keepH19 (W38 m ρ c) main_v101 (by decide)).trans (at_main_v101_38 m ρ c)

theorem at_main_v101_40 (c : Dev nD) : W40 m ρ c (Proc.devRef .tc main_v101) = concatenate S8192x256 1 [⟨S8192x128, (domS m c).v1⟩, ⟨S8192x128, (domS m c).v2⟩] concatenates_S8192x128_S8192x128_S8192x256_d1 :=
  (W40_of_ne m ρ c main_v101 (by decide)).trans (at_main_v101_39 m ρ c)

theorem at_main_v101_41 (c : Dev nD) : W41 m ρ c (Proc.devRef .tc main_v101) = concatenate S8192x256 1 [⟨S8192x128, (domS m c).v1⟩, ⟨S8192x128, (domS m c).v2⟩] concatenates_S8192x128_S8192x128_S8192x256_d1 :=
  (keepH20 (W40 m ρ c) main_v101 (by decide)).trans (at_main_v101_40 m ρ c)

theorem at_main_v101_42 (c : Dev nD) : W42 m ρ c (Proc.devRef .tc main_v101) = concatenate S8192x256 1 [⟨S8192x128, (domS m c).v1⟩, ⟨S8192x128, (domS m c).v2⟩] concatenates_S8192x128_S8192x128_S8192x256_d1 :=
  (W42_of_ne m ρ c main_v101 (by decide)).trans (at_main_v101_41 m ρ c)

theorem at_main_v101_43 (c : Dev nD) : W43 m ρ c (Proc.devRef .tc main_v101) = concatenate S8192x256 1 [⟨S8192x128, (domS m c).v1⟩, ⟨S8192x128, (domS m c).v2⟩] concatenates_S8192x128_S8192x128_S8192x256_d1 :=
  (keepH21 (W42 m ρ c) main_v101 (by decide)).trans (at_main_v101_42 m ρ c)

theorem at_main_v101_44 (c : Dev nD) : W44 m ρ c (Proc.devRef .tc main_v101) = concatenate S8192x256 1 [⟨S8192x128, (domS m c).v1⟩, ⟨S8192x128, (domS m c).v2⟩] concatenates_S8192x128_S8192x128_S8192x256_d1 :=
  (W44_of_ne m ρ c main_v101 (by decide)).trans (at_main_v101_43 m ρ c)

theorem at_main_v101_45 (c : Dev nD) : W45 m ρ c (Proc.devRef .tc main_v101) = concatenate S8192x256 1 [⟨S8192x128, (domS m c).v1⟩, ⟨S8192x128, (domS m c).v2⟩] concatenates_S8192x128_S8192x128_S8192x256_d1 :=
  (keepH22 (W44 m ρ c) main_v101 (by decide)).trans (at_main_v101_44 m ρ c)

theorem at_main_v101_46 (c : Dev nD) : W46 m ρ c (Proc.devRef .tc main_v101) = concatenate S8192x256 1 [⟨S8192x128, (domS m c).v1⟩, ⟨S8192x128, (domS m c).v2⟩] concatenates_S8192x128_S8192x128_S8192x256_d1 :=
  (W46_of_ne m ρ c main_v101 (by decide)).trans (at_main_v101_45 m ρ c)

theorem at_main_v101_47 (c : Dev nD) : W47 m ρ c (Proc.devRef .tc main_v101) = concatenate S8192x256 1 [⟨S8192x128, (domS m c).v1⟩, ⟨S8192x128, (domS m c).v2⟩] concatenates_S8192x128_S8192x128_S8192x256_d1 :=
  (keepH23 (W46 m ρ c) main_v101 (by decide)).trans (at_main_v101_46 m ρ c)

theorem at_main_v101_48 (c : Dev nD) : W48 m ρ c (Proc.devRef .tc main_v101) = concatenate S8192x256 1 [⟨S8192x128, (domS m c).v1⟩, ⟨S8192x128, (domS m c).v2⟩] concatenates_S8192x128_S8192x128_S8192x256_d1 :=
  (W48_of_ne m ρ c main_v101 (by decide)).trans (at_main_v101_47 m ρ c)

theorem at_main_v101_49 (c : Dev nD) : W49 m ρ c (Proc.devRef .tc main_v101) = concatenate S8192x256 1 [⟨S8192x128, (domS m c).v1⟩, ⟨S8192x128, (domS m c).v2⟩] concatenates_S8192x128_S8192x128_S8192x256_d1 :=
  (keepH24 (W48 m ρ c) main_v101 (by decide)).trans (at_main_v101_48 m ρ c)

theorem at_main_v205_49 (c : Dev nD) : W49 m ρ c (Proc.devRef .tc main_v205) = concatenate S4096x256 0 [⟨S2048x256, extractStridedSlice S2048x256 ![0, 0] (concatenate S4096x256 1 [⟨S4096x128, (domS m c).u1⟩, ⟨S4096x128, (domS m c).u2⟩] concatenates_S4096x128_S4096x128_S4096x256_d1) slices_S4096x256_S2048x256_0_0⟩, ⟨S2048x256, extractStridedSlice S2048x256 ![2048, 0] (concatenate S4096x256 1 [⟨S4096x128, (domT m c).u1⟩, ⟨S4096x128, (domT m c).u2⟩] concatenates_S4096x128_S4096x128_S4096x256_d1) slices_S4096x256_S2048x256_2048_0⟩] concatenates_S2048x256_S2048x256_S4096x256_d0 := by
  show StableHlo.after hostOps24 (W48 m ρ c) (Proc.devRef .tc main_v205) = _
  after_results
  rw [at_main_v100_48 m ρ c, at_main_v138_48 m ρ c, at_main_v184_48 m ρ c]

theorem at_main_v151_37 (c : Dev nD) : W37 m ρ c (Proc.devRef .tc main_v151) = (domT m c).v1 :=
  (keepH18 (W36 m ρ c) main_v151 (by decide)).trans (at_main_v151_36 m ρ c)

theorem at_main_v151_38 (c : Dev nD) : W38 m ρ c (Proc.devRef .tc main_v151) = (domT m c).v1 :=
  (W38_of_ne m ρ c main_v151 (by decide)).trans (at_main_v151_37 m ρ c)

theorem at_main_v151_39 (c : Dev nD) : W39 m ρ c (Proc.devRef .tc main_v151) = (domT m c).v1 :=
  (keepH19 (W38 m ρ c) main_v151 (by decide)).trans (at_main_v151_38 m ρ c)

theorem at_main_v151_40 (c : Dev nD) : W40 m ρ c (Proc.devRef .tc main_v151) = (domT m c).v1 :=
  (W40_of_ne m ρ c main_v151 (by decide)).trans (at_main_v151_39 m ρ c)

theorem at_main_v151_41 (c : Dev nD) : W41 m ρ c (Proc.devRef .tc main_v151) = (domT m c).v1 :=
  (keepH20 (W40 m ρ c) main_v151 (by decide)).trans (at_main_v151_40 m ρ c)

theorem at_main_v151_42 (c : Dev nD) : W42 m ρ c (Proc.devRef .tc main_v151) = (domT m c).v1 :=
  (W42_of_ne m ρ c main_v151 (by decide)).trans (at_main_v151_41 m ρ c)

theorem at_main_v151_43 (c : Dev nD) : W43 m ρ c (Proc.devRef .tc main_v151) = (domT m c).v1 :=
  (keepH21 (W42 m ρ c) main_v151 (by decide)).trans (at_main_v151_42 m ρ c)

theorem at_main_v151_44 (c : Dev nD) : W44 m ρ c (Proc.devRef .tc main_v151) = (domT m c).v1 :=
  (W44_of_ne m ρ c main_v151 (by decide)).trans (at_main_v151_43 m ρ c)

theorem at_main_v151_45 (c : Dev nD) : W45 m ρ c (Proc.devRef .tc main_v151) = (domT m c).v1 :=
  (keepH22 (W44 m ρ c) main_v151 (by decide)).trans (at_main_v151_44 m ρ c)

theorem at_main_v151_46 (c : Dev nD) : W46 m ρ c (Proc.devRef .tc main_v151) = (domT m c).v1 :=
  (W46_of_ne m ρ c main_v151 (by decide)).trans (at_main_v151_45 m ρ c)

theorem at_main_v151_47 (c : Dev nD) : W47 m ρ c (Proc.devRef .tc main_v151) = (domT m c).v1 :=
  (keepH23 (W46 m ρ c) main_v151 (by decide)).trans (at_main_v151_46 m ρ c)

theorem at_main_v151_48 (c : Dev nD) : W48 m ρ c (Proc.devRef .tc main_v151) = (domT m c).v1 :=
  (W48_of_ne m ρ c main_v151 (by decide)).trans (at_main_v151_47 m ρ c)

theorem at_main_v3_42 (c : Dev nD) : W42 m ρ c (Proc.devRef .tc main_v3) = (domT m c).VU :=
  ((W42_arr m ρ c 0).trans (((dat20 (V41 m ρ) c).arrAt_in 0 rfl cfg20.N).trans (A_eq20 (V41 m ρ) c 0))).trans (at_main_v3_41 m ρ c)

theorem at_main_v3_43 (c : Dev nD) : W43 m ρ c (Proc.devRef .tc main_v3) = (domT m c).VU :=
  (keepH21 (W42 m ρ c) main_v3 (by decide)).trans (at_main_v3_42 m ρ c)

theorem at_main_v3_44 (c : Dev nD) : W44 m ρ c (Proc.devRef .tc main_v3) = (domT m c).VU :=
  (W44_of_ne m ρ c main_v3 (by decide)).trans (at_main_v3_43 m ρ c)

theorem at_main_v3_45 (c : Dev nD) : W45 m ρ c (Proc.devRef .tc main_v3) = (domT m c).VU :=
  (keepH22 (W44 m ρ c) main_v3 (by decide)).trans (at_main_v3_44 m ρ c)

theorem at_main_v3_46 (c : Dev nD) : W46 m ρ c (Proc.devRef .tc main_v3) = (domT m c).VU :=
  (W46_of_ne m ρ c main_v3 (by decide)).trans (at_main_v3_45 m ρ c)

theorem at_main_v3_47 (c : Dev nD) : W47 m ρ c (Proc.devRef .tc main_v3) = (domT m c).VU :=
  (keepH23 (W46 m ρ c) main_v3 (by decide)).trans (at_main_v3_46 m ρ c)

theorem in_23_0 (c : Dev nD) : V47 m ρ c (Pipeline.arrRef spec23 0) = (domT m c).VU := at_main_v3_47 m ρ c

theorem in_21_0 (c : Dev nD) : V43 m ρ c (Pipeline.arrRef spec21 0) = (domT m c).UV := at_main_v2_43 m ρ c

theorem at_main_v153_37 (c : Dev nD) : W37 m ρ c (Proc.devRef .tc main_v153) = (domT m c).v1 := by
  show StableHlo.after hostOps18 (W36 m ρ c) (Proc.devRef .tc main_v153) = _
  after_results
  rw [at_main_v151_36 m ρ c]
  rfl

theorem at_main_v153_38 (c : Dev nD) : W38 m ρ c (Proc.devRef .tc main_v153) = (domT m c).v1 :=
  (W38_of_ne m ρ c main_v153 (by decide)).trans (at_main_v153_37 m ρ c)

theorem at_main_v153_39 (c : Dev nD) : W39 m ρ c (Proc.devRef .tc main_v153) = (domT m c).v1 :=
  (keepH19 (W38 m ρ c) main_v153 (by decide)).trans (at_main_v153_38 m ρ c)

theorem in_19_0 (c : Dev nD) : V39 m ρ c (Pipeline.arrRef spec19 0) = (domT m c).v1 := at_main_v153_39 m ρ c

theorem at_main_v158_39 (c : Dev nD) : W39 m ρ c (Proc.devRef .tc main_v158) = slab (⟨1, by decide⟩ : Fin 6) (domT m c).lW := by
  show StableHlo.after hostOps19 (W38 m ρ c) (Proc.devRef .tc main_v158) = _
  after_results
  rw [at_main_v106_38 m ρ c]
  exact slice_reshape_eq_slab 1 (by decide) _ _ _

theorem in_19_1 (c : Dev nD) : V39 m ρ c (Pipeline.arrRef spec19 1) = slab (⟨1, by decide⟩ : Fin 6) (domT m c).lW := at_main_v158_39 m ρ c

theorem at_main_v159_40 (c : Dev nD) : W40 m ρ c (Proc.devRef .tc main_v159) = (domT m c).y3 := by
  refine (W40_arr m ρ c 2).trans ?_
  rw [final19 (V39 m ρ) c]
  rw [in_19_0 m ρ c, in_19_1 m ρ c]
  rfl

theorem at_main_v159_41 (c : Dev nD) : W41 m ρ c (Proc.devRef .tc main_v159) = (domT m c).y3 :=
  (keepH20 (W40 m ρ c) main_v159 (by decide)).trans (at_main_v159_40 m ρ c)

theorem at_main_v159_42 (c : Dev nD) : W42 m ρ c (Proc.devRef .tc main_v159) = (domT m c).y3 :=
  (W42_of_ne m ρ c main_v159 (by decide)).trans (at_main_v159_41 m ρ c)

theorem at_main_v159_43 (c : Dev nD) : W43 m ρ c (Proc.devRef .tc main_v159) = (domT m c).y3 :=
  (keepH21 (W42 m ρ c) main_v159 (by decide)).trans (at_main_v159_42 m ρ c)

theorem in_21_1 (c : Dev nD) : V43 m ρ c (Pipeline.arrRef spec21 1) = (domT m c).y3 := at_main_v159_43 m ρ c

theorem at_main_v170_43 (c : Dev nD) : W43 m ρ c (Proc.devRef .tc main_v170) = rowMat (⟨1, by decide⟩ : Fin 6) (domT m c).lb := by
  show StableHlo.after hostOps21 (W42 m ρ c) (Proc.devRef .tc main_v170) = _
  after_results
  rw [at_main_arg21_42 m ρ c]
  exact slice_reshape_rowmat_eq 1 (by decide) _ _ _ _

theorem in_21_2 (c : Dev nD) : V43 m ρ c (Pipeline.arrRef spec21 2) = rowMat (⟨1, by decide⟩ : Fin 6) (domT m c).lb := at_main_v170_43 m ρ c

theorem at_main_v106_41 (c : Dev nD) : W41 m ρ c (Proc.devRef .tc main_v106) = (domT m c).lW :=
  (keepH20 (W40 m ρ c) main_v106 (by decide)).trans (at_main_v106_40 m ρ c)

theorem at_main_v106_42 (c : Dev nD) : W42 m ρ c (Proc.devRef .tc main_v106) = (domT m c).lW :=
  (W42_of_ne m ρ c main_v106 (by decide)).trans (at_main_v106_41 m ρ c)

theorem at_main_v169_43 (c : Dev nD) : W43 m ρ c (Proc.devRef .tc main_v169) = slab (⟨4, by decide⟩ : Fin 6) (domT m c).lW := by
  show StableHlo.after hostOps21 (W42 m ρ c) (Proc.devRef .tc main_v169) = _
  after_results
  rw [at_main_v106_42 m ρ c]
  exact slice_reshape_eq_slab 4 (by decide) _ _ _

theorem in_21_3 (c : Dev nD) : V43 m ρ c (Pipeline.arrRef spec21 3) = slab (⟨4, by decide⟩ : Fin 6) (domT m c).lW := at_main_v169_43 m ρ c

theorem at_main_v171_44 (c : Dev nD) : W44 m ρ c (Proc.devRef .tc main_v171) = (domT m c).q2 := by
  refine (W44_arr m ρ c 4).trans ?_
  rw [final21 (V43 m ρ) c]
  rw [in_21_0 m ρ c, in_21_1 m ρ c, in_21_2 m ρ c, in_21_3 m ρ c]
  rfl

theorem at_main_v171_45 (c : Dev nD) : W45 m ρ c (Proc.devRef .tc main_v171) = (domT m c).q2 :=
  (keepH22 (W44 m ρ c) main_v171 (by decide)).trans (at_main_v171_44 m ρ c)

theorem at_main_v171_46 (c : Dev nD) : W46 m ρ c (Proc.devRef .tc main_v171) = (domT m c).q2 :=
  (W46_of_ne m ρ c main_v171 (by decide)).trans (at_main_v171_45 m ρ c)

theorem at_main_v171_47 (c : Dev nD) : W47 m ρ c (Proc.devRef .tc main_v171) = (domT m c).q2 :=
  (keepH23 (W46 m ρ c) main_v171 (by decide)).trans (at_main_v171_46 m ρ c)

theorem in_23_1 (c : Dev nD) : V47 m ρ c (Pipeline.arrRef spec23 1) = (domT m c).q2 := at_main_v171_47 m ρ c

theorem at_main_arg21_45 (c : Dev nD) : W45 m ρ c (Proc.devRef .tc main_arg21) = (domT m c).lb :=
  (keepH22 (W44 m ρ c) main_arg21 (by decide)).trans (at_main_arg21_44 m ρ c)

theorem at_main_arg21_46 (c : Dev nD) : W46 m ρ c (Proc.devRef .tc main_arg21) = (domT m c).lb :=
  (W46_of_ne m ρ c main_arg21 (by decide)).trans (at_main_arg21_45 m ρ c)

theorem at_main_v195_47 (c : Dev nD) : W47 m ρ c (Proc.devRef .tc main_v195) = rowMat (⟨4, by decide⟩ : Fin 6) (domT m c).lb := by
  show StableHlo.after hostOps23 (W46 m ρ c) (Proc.devRef .tc main_v195) = _
  after_results
  rw [at_main_arg21_46 m ρ c]
  exact slice_reshape_rowmat_eq 4 (by decide) _ _ _ _

theorem in_23_2 (c : Dev nD) : V47 m ρ c (Pipeline.arrRef spec23 2) = rowMat (⟨4, by decide⟩ : Fin 6) (domT m c).lb := at_main_v195_47 m ρ c

theorem at_main_v107_45 (c : Dev nD) : W45 m ρ c (Proc.devRef .tc main_v107) = (domT m c).luW :=
  (keepH22 (W44 m ρ c) main_v107 (by decide)).trans (at_main_v107_44 m ρ c)

theorem at_main_v107_46 (c : Dev nD) : W46 m ρ c (Proc.devRef .tc main_v107) = (domT m c).luW :=
  (W46_of_ne m ρ c main_v107 (by decide)).trans (at_main_v107_45 m ρ c)

theorem at_main_v189_47 (c : Dev nD) : W47 m ρ c (Proc.devRef .tc main_v189) = top (slab (⟨2, by decide⟩ : Fin 4) (domT m c).luW) := by
  show StableHlo.after hostOps23 (W46 m ρ c) (Proc.devRef .tc main_v189) = _
  after_results
  rw [at_main_v107_46 m ρ c]
  exact slab_top_eq (a := 128) (b := 128) _ 2 (by decide) _ _ _

theorem in_23_3 (c : Dev nD) : V47 m ρ c (Pipeline.arrRef spec23 3) = top (slab (⟨2, by decide⟩ : Fin 4) (domT m c).luW) := at_main_v189_47 m ρ c

theorem at_main_v153_40 (c : Dev nD) : W40 m ρ c (Proc.devRef .tc main_v153) = (domT m c).v1 :=
  ((W40_arr m ρ c 0).trans (((dat19 (V39 m ρ) c).arrAt_in 0 rfl cfg19.N).trans (A_eq19 (V39 m ρ) c 0))).trans (at_main_v153_39 m ρ c)

theorem at_main_v153_41 (c : Dev nD) : W41 m ρ c (Proc.devRef .tc main_v153) = (domT m c).v1 :=
  (keepH20 (W40 m ρ c) main_v153 (by decide)).trans (at_main_v153_40 m ρ c)

theorem at_main_v153_42 (c : Dev nD) : W42 m ρ c (Proc.devRef .tc main_v153) = (domT m c).v1 :=
  (W42_of_ne m ρ c main_v153 (by decide)).trans (at_main_v153_41 m ρ c)

theorem at_main_v153_43 (c : Dev nD) : W43 m ρ c (Proc.devRef .tc main_v153) = (domT m c).v1 :=
  (keepH21 (W42 m ρ c) main_v153 (by decide)).trans (at_main_v153_42 m ρ c)

theorem at_main_v153_44 (c : Dev nD) : W44 m ρ c (Proc.devRef .tc main_v153) = (domT m c).v1 :=
  (W44_of_ne m ρ c main_v153 (by decide)).trans (at_main_v153_43 m ρ c)

theorem at_main_v153_45 (c : Dev nD) : W45 m ρ c (Proc.devRef .tc main_v153) = (domT m c).v1 :=
  (keepH22 (W44 m ρ c) main_v153 (by decide)).trans (at_main_v153_44 m ρ c)

theorem at_main_v153_46 (c : Dev nD) : W46 m ρ c (Proc.devRef .tc main_v153) = (domT m c).v1 :=
  (W46_of_ne m ρ c main_v153 (by decide)).trans (at_main_v153_45 m ρ c)

theorem at_main_v153_47 (c : Dev nD) : W47 m ρ c (Proc.devRef .tc main_v153) = (domT m c).v1 :=
  (keepH23 (W46 m ρ c) main_v153 (by decide)).trans (at_main_v153_46 m ρ c)

theorem in_23_4 (c : Dev nD) : V47 m ρ c (Pipeline.arrRef spec23 4) = (domT m c).v1 := at_main_v153_47 m ρ c

theorem at_main_v192_47 (c : Dev nD) : W47 m ρ c (Proc.devRef .tc main_v192) = bot (slab (⟨2, by decide⟩ : Fin 4) (domT m c).luW) := by
  show StableHlo.after hostOps23 (W46 m ρ c) (Proc.devRef .tc main_v192) = _
  after_results
  rw [at_main_v107_46 m ρ c]
  exact slab_bot_eq (a := 128) (b := 128) _ 2 (by decide) _ _ _

theorem in_23_5 (c : Dev nD) : V47 m ρ c (Pipeline.arrRef spec23 5) = bot (slab (⟨2, by decide⟩ : Fin 4) (domT m c).luW) := at_main_v192_47 m ρ c

theorem at_main_arg23_45 (c : Dev nD) : W45 m ρ c (Proc.devRef .tc main_arg23) = (domT m c).lub :=
  (keepH22 (W44 m ρ c) main_arg23 (by decide)).trans (at_main_arg23_44 m ρ c)

theorem at_main_arg23_46 (c : Dev nD) : W46 m ρ c (Proc.devRef .tc main_arg23) = (domT m c).lub :=
  (W46_of_ne m ρ c main_arg23 (by decide)).trans (at_main_arg23_45 m ρ c)

theorem at_main_v196_47 (c : Dev nD) : W47 m ρ c (Proc.devRef .tc main_v196) = rowMat (⟨2, by decide⟩ : Fin 4) (domT m c).lub := by
  show StableHlo.after hostOps23 (W46 m ρ c) (Proc.devRef .tc main_v196) = _
  after_results
  rw [at_main_arg23_46 m ρ c]
  exact slice_reshape_rowmat_eq 2 (by decide) _ _ _ _

theorem in_23_6 (c : Dev nD) : V47 m ρ c (Pipeline.arrRef spec23 6) = rowMat (⟨2, by decide⟩ : Fin 4) (domT m c).lub := at_main_v196_47 m ρ c

theorem at_main_v197_48 (c : Dev nD) : W48 m ρ c (Proc.devRef .tc main_v197) = (domT m c).v2 := by
  refine (W48_arr m ρ c 7).trans ?_
  rw [final23 (V47 m ρ) c]
  rw [in_23_0 m ρ c, in_23_1 m ρ c, in_23_2 m ρ c, in_23_3 m ρ c, in_23_4 m ρ c, in_23_5 m ρ c, in_23_6 m ρ c]
  rfl

theorem at_main_v199_49 (c : Dev nD) : W49 m ρ c (Proc.devRef .tc main_v199) = concatenate S8192x256 1 [⟨S8192x128, (domT m c).v1⟩, ⟨S8192x128, (domT m c).v2⟩] concatenates_S8192x128_S8192x128_S8192x256_d1 := by
  show StableHlo.after hostOps24 (W48 m ρ c) (Proc.devRef .tc main_v199) = _
  after_results
  rw [at_main_v151_48 m ρ c, at_main_v197_48 m ρ c]

end Cert.KernelIdeal.Chain

end
-- ==== Proof.RChainBase.lean ====
/-
  The idealized reference's 546 host operations cut into 39 stages at the encoder model's values: the four row lookups,
  then per domain the graph convolution steps (16 operations each), the union projections (9 each) and the two
  rectifiers, and the closing concatenations. Each stage writes only the buffers of its own list, so a buffer outside a
  stage's list keeps its contents through it, and the contents after the first j stages are the j-th stage's fold over
  the contents after the first j − 1.
-/
import proofs.«177232_g71837622993359_cont_sun_m_41_3_alg».proof.Proof.Gen.ReferenceIdeal
import Idealize.ShloMosaic.Lib.StableHlo.Run

set_option maxRecDepth 16384

noncomputable section

namespace Cert.ReferenceIdeal.Chain

open Cert.ReferenceIdeal Cert.ReferenceIdeal.Gen Idealize.ShloMosaic Idealize.ShloMosaic.TcCoe
open Idealize.SL.Sem Idealize.ShloMosaic.StableHlo

variable {F : FTy → Type} [FloatOps F]

/-- The contents after two lines run one after the other: the second's fold over the first's. -/
theorem after_append_lines : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append_lines l₁ l₂]

/-- Stage 0: operations 1 … 24 of @main. -/
abbrev seg0 : List (HloOp τ sig (Elt F)) :=
  [ StableHlo.nullary main_v0 (iotaInDim S4096 32 0),
    StableHlo.TRef.nullary main_call0.c (constantI S_ 32 0#32),
    StableHlo.TRef.unary main_call0.c main_call0.v0 (broadcastInDim S4096 ![] bcast_S_S4096),
    StableHlo.TRef.binary (.of main_v0) main_call0.v0 main_call0.v1 (cmpi .slt),
    StableHlo.TRef.nullary main_call0.c_0 (constantI S_ 32 4096#32),
    StableHlo.TRef.unary main_call0.c_0 main_call0.v2 (broadcastInDim S4096 ![] bcast_S_S4096),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S4096x1 ![0] bcast_S4096_S4096x1_0),
    StableHlo.TRef.nullary main_call0.c_1 (constantI S1 32 4095#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg4) main_call0.v5 main_call0.v13 (fun x i => Host.gather gather_S4096x128_S4096x1_S4096x128_1_0_n_n_0_1_1128 x i),
    StableHlo.TRef.unary main_call0.v12 main_call0.v14 (broadcastInDim S4096x128 ![0] bcast_S4096_S4096x128_0),
    StableHlo.TRef.nullary main_call0.cst (constant S_ .f32 0x7FC00000#32),
    StableHlo.TRef.unary main_call0.cst main_call0.v15 (broadcastInDim S4096x128 ![] bcast_S_S4096x128),
    StableHlo.TRef.ternary main_call0.v14 main_call0.v13 main_call0.v15 main_call0.v16 select ]
abbrev seg0_W : List (Ref sig .tc) :=
  [ main_v0, main_call0.c.ref, main_call0.v0.ref, main_call0.v1.ref, main_call0.c_0.ref, main_call0.v2.ref, main_call0.v3.ref, main_call0.call0.v0.ref,
    main_call0.v5.ref, main_call0.c_1.ref, main_call0.c_2.ref, main_call0.v6.ref, main_call0.v7.ref, main_call0.v8.ref, main_call0.v9.ref, main_call0.v10.ref,
    main_call0.v11.ref, main_call0.c_3.ref, main_call0.v12.ref, main_call0.v13.ref, main_call0.v14.ref, main_call0.cst.ref, main_call0.v15.ref, main_call0.v16.ref ]
theorem seg0_writes : (seg0 : List (HloOp τ sig (Elt F))).Forall fun op => op.writes ⊆ (seg0_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS0 (V : Valuation τ sig (Elt F)) (r : Ref sig .tc) (h : r ∉ seg0_W) :
    after seg0 V (Proc.devRef .tc r) = V (Proc.devRef .tc r) := after_of_writes_sub seg0 V seg0_writes h

/-- Stage 1: operations 25 … 48 of @main. -/
abbrev seg1 : List (HloOp τ sig (Elt F)) :=
  [ StableHlo.nullary main_v2 (iotaInDim S8192 32 0),
    StableHlo.TRef.nullary main_call1.c (constantI S_ 32 0#32),
    StableHlo.TRef.unary main_call1.c main_call1.v0 (broadcastInDim S8192 ![] bcast_S_S8192),
    StableHlo.TRef.binary (.of main_v2) main_call1.v0 main_call1.v1 (cmpi .slt),
    StableHlo.TRef.nullary main_call1.c_0 (constantI S_ 32 8192#32),
    StableHlo.TRef.unary main_call1.c_0 main_call1.v2 (broadcastInDim S8192 ![] bcast_S_S8192),
    StableHlo.TRef.binary (.of main_v2) main_call1.v2 main_call1.v3 addi,
    StableHlo.TRef.ternary main_call1.v1 main_call1.v3 (.of main_v2) main_call1.call0.v0 select,
    StableHlo.TRef.unary main_call1.call0.v0 main_call1.v5 (broadcastInDim S8192x1 ![0] bcast_S8192_S8192x1_0),
    StableHlo.TRef.nullary main_call1.c_1 (constantI S1 32 8191#32),
    StableHlo.TRef.nullary main_call1.c_2 (constantI S_ 32 0#32),
    StableHlo.TRef.unary main_call1.c_2 main_call1.v6 (broadcastInDim S8192x1 ![] bcast_S_S8192x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S8192x1 ![0, 1] bcast_S1x1_S8192x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8192x1_S8192_d1 h_S_),
    StableHlo.TRef.binary (.of main_arg5) main_call1.v5 main_call1.v13 (fun x i => Host.gather gather_S8192x128_S8192x1_S8192x128_1_0_n_n_0_1_1128 x i),
    StableHlo.TRef.unary main_call1.v12 main_call1.v14 (broadcastInDim S8192x128 ![0] bcast_S8192_S8192x128_0),
    StableHlo.TRef.nullary main_call1.cst (constant S_ .f32 0x7FC00000#32),
    StableHlo.TRef.unary main_call1.cst main_call1.v15 (broadcastInDim S8192x128 ![] bcast_S_S8192x128),
    StableHlo.TRef.ternary main_call1.v14 main_call1.v13 main_call1.v15 main_call1.v16 select ]
abbrev seg1_W : List (Ref sig .tc) :=
  [ main_v2, main_call1.c.ref, main_call1.v0.ref, main_call1.v1.ref, main_call1.c_0.ref, main_call1.v2.ref, main_call1.v3.ref, main_call1.call0.v0.ref,
    main_call1.v5.ref, main_call1.c_1.ref, main_call1.c_2.ref, main_call1.v6.ref, main_call1.v7.ref, main_call1.v8.ref, main_call1.v9.ref, main_call1.v10.ref,
    main_call1.v11.ref, main_call1.c_3.ref, main_call1.v12.ref, main_call1.v13.ref, main_call1.v14.ref, main_call1.cst.ref, main_call1.v15.ref, main_call1.v16.ref ]
theorem seg1_writes : (seg1 : List (HloOp τ sig (Elt F))).Forall fun op => op.writes ⊆ (seg1_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS1 (V : Valuation τ sig (Elt F)) (r : Ref sig .tc) (h : r ∉ seg1_W) :
    after seg1 V (Proc.devRef .tc r) = V (Proc.devRef .tc r) := after_of_writes_sub seg1 V seg1_writes h

/-- Stage 2: operations 49 … 72 of @main. -/
abbrev seg2 : List (HloOp τ sig (Elt F)) :=
  [ StableHlo.nullary main_v4 (iotaInDim S4096 32 0),
    StableHlo.TRef.nullary main_call2.c (constantI S_ 32 0#32),
    StableHlo.TRef.unary main_call2.c main_call2.v0 (broadcastInDim S4096 ![] bcast_S_S4096),
    StableHlo.TRef.binary (.of main_v4) main_call2.v0 main_call2.v1 (cmpi .slt),
    StableHlo.TRef.nullary main_call2.c_0 (constantI S_ 32 4096#32),
    StableHlo.TRef.unary main_call2.c_0 main_call2.v2 (broadcastInDim S4096 ![] bcast_S_S4096),
    StableHlo.TRef.binary (.of main_v4) main_call2.v2 main_call2.v3 addi,
    StableHlo.TRef.ternary main_call2.v1 main_call2.v3 (.of main_v4) main_call2.call0.v0 select,
    StableHlo.TRef.unary main_call2.call0.v0 main_call2.v5 (broadcastInDim S4096x1 ![0] bcast_S4096_S4096x1_0),
    StableHlo.TRef.nullary main_call2.c_1 (constantI S1 32 4095#32),
    StableHlo.TRef.nullary main_call2.c_2 (constantI S_ 32 0#32),
    StableHlo.TRef.unary main_call2.c_2 main_call2.v6 (broadcastInDim S4096x1 ![] bcast_S_S4096x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S4096x1 ![0, 1] bcast_S1x1_S4096x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x1_S4096_d1 h_S_),
    StableHlo.TRef.binary (.of main_arg6) main_call2.v5 main_call2.v13 (fun x i => Host.gather gather_S4096x128_S4096x1_S4096x128_1_0_n_n_0_1_1128 x i),
    StableHlo.TRef.unary main_call2.v12 main_call2.v14 (broadcastInDim S4096x128 ![0] bcast_S4096_S4096x128_0),
    StableHlo.TRef.nullary main_call2.cst (constant S_ .f32 0x7FC00000#32),
    StableHlo.TRef.unary main_call2.cst main_call2.v15 (broadcastInDim S4096x128 ![] bcast_S_S4096x128),
    StableHlo.TRef.ternary main_call2.v14 main_call2.v13 main_call2.v15 main_call2.v16 select ]
abbrev seg2_W : List (Ref sig .tc) :=
  [ main_v4, main_call2.c.ref, main_call2.v0.ref, main_call2.v1.ref, main_call2.c_0.ref, main_call2.v2.ref, main_call2.v3.ref, main_call2.call0.v0.ref,
    main_call2.v5.ref, main_call2.c_1.ref, main_call2.c_2.ref, main_call2.v6.ref, main_call2.v7.ref, main_call2.v8.ref, main_call2.v9.ref, main_call2.v10.ref,
    main_call2.v11.ref, main_call2.c_3.ref, main_call2.v12.ref, main_call2.v13.ref, main_call2.v14.ref, main_call2.cst.ref, main_call2.v15.ref, main_call2.v16.ref ]
theorem seg2_writes : (seg2 : List (HloOp τ sig (Elt F))).Forall fun op => op.writes ⊆ (seg2_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS2 (V : Valuation τ sig (Elt F)) (r : Ref sig .tc) (h : r ∉ seg2_W) :
    after seg2 V (Proc.devRef .tc r) = V (Proc.devRef .tc r) := after_of_writes_sub seg2 V seg2_writes h

/-- Stage 3: operations 73 … 96 of @main. -/
abbrev seg3 : List (HloOp τ sig (Elt F)) :=
  [ StableHlo.nullary main_v6 (iotaInDim S8192 32 0),
    StableHlo.TRef.nullary main_call3.c (constantI S_ 32 0#32),
    StableHlo.TRef.unary main_call3.c main_call3.v0 (broadcastInDim S8192 ![] bcast_S_S8192),
    StableHlo.TRef.binary (.of main_v6) main_call3.v0 main_call3.v1 (cmpi .slt),
    StableHlo.TRef.nullary main_call3.c_0 (constantI S_ 32 8192#32),
    StableHlo.TRef.unary main_call3.c_0 main_call3.v2 (broadcastInDim S8192 ![] bcast_S_S8192),
    StableHlo.TRef.binary (.of main_v6) main_call3.v2 main_call3.v3 addi,
    StableHlo.TRef.ternary main_call3.v1 main_call3.v3 (.of main_v6) main_call3.call0.v0 select,
    StableHlo.TRef.unary main_call3.call0.v0 main_call3.v5 (broadcastInDim S8192x1 ![0] bcast_S8192_S8192x1_0),
    StableHlo.TRef.nullary main_call3.c_1 (constantI S1 32 8191#32),
    StableHlo.TRef.nullary main_call3.c_2 (constantI S_ 32 0#32),
    StableHlo.TRef.unary main_call3.c_2 main_call3.v6 (broadcastInDim S8192x1 ![] bcast_S_S8192x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S8192x1 ![0, 1] bcast_S1x1_S8192x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S8192x1_S8192_d1 h_S_),
    StableHlo.TRef.binary (.of main_arg7) main_call3.v5 main_call3.v13 (fun x i => Host.gather gather_S8192x128_S8192x1_S8192x128_1_0_n_n_0_1_1128 x i),
    StableHlo.TRef.unary main_call3.v12 main_call3.v14 (broadcastInDim S8192x128 ![0] bcast_S8192_S8192x128_0),
    StableHlo.TRef.nullary main_call3.cst (constant S_ .f32 0x7FC00000#32),
    StableHlo.TRef.unary main_call3.cst main_call3.v15 (broadcastInDim S8192x128 ![] bcast_S_S8192x128),
    StableHlo.TRef.ternary main_call3.v14 main_call3.v13 main_call3.v15 main_call3.v16 select ]
abbrev seg3_W : List (Ref sig .tc) :=
  [ main_v6, main_call3.c.ref, main_call3.v0.ref, main_call3.v1.ref, main_call3.c_0.ref, main_call3.v2.ref, main_call3.v3.ref, main_call3.call0.v0.ref,
    main_call3.v5.ref, main_call3.c_1.ref, main_call3.c_2.ref, main_call3.v6.ref, main_call3.v7.ref, main_call3.v8.ref, main_call3.v9.ref, main_call3.v10.ref,
    main_call3.v11.ref, main_call3.c_3.ref, main_call3.v12.ref, main_call3.v13.ref, main_call3.v14.ref, main_call3.cst.ref, main_call3.v15.ref, main_call3.v16.ref ]
theorem seg3_writes : (seg3 : List (HloOp τ sig (Elt F))).Forall fun op => op.writes ⊆ (seg3_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS3 (V : Valuation τ sig (Elt F)) (r : Ref sig .tc) (h : r ∉ seg3_W) :
    after seg3 V (Proc.devRef .tc r) = V (Proc.devRef .tc r) := after_of_writes_sub seg3 V seg3_writes h

/-- Stage 4: operations 97 … 112 of @main. -/
abbrev seg4 : List (HloOp τ sig (Elt F)) :=
  [ StableHlo.unary main_arg8 main_v8 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v8 main_v9 rfl shapeCasts_S1x128x128_S128x128,
    StableHlo.unary main_arg9 main_v10 ((extractStridedSlice S1x128 ![0, 0] · slices_S4x128_S1x128_0_0) : (⟨S4x128, .f32⟩ : BufTy).Contents (Elt F) → (⟨S1x128, .f32⟩ : BufTy).Contents (Elt F)),
    StableHlo.reshape main_v10 main_v11 rfl shapeCasts_S1x128_S128,
    StableHlo.binary main_v1 main_v9 main_v12 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v12 main_v13 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v11 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S8192x128 ![0, 1] bcast_S1x128_S8192x128_0_1 : (⟨S1x128, .f32⟩ : BufTy).Contents (Elt F) → (⟨S8192x128, .f32⟩ : BufTy).Contents (Elt F)),
    StableHlo.binary main_v13 main_v15 main_v16 (addf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.unary main_cst main_v17 (broadcastInDim S8192x128 ![] bcast_S_S8192x128 : (⟨S_, .f32⟩ : BufTy).Contents (Elt F) → (⟨S8192x128, .f32⟩ : BufTy).Contents (Elt F)),
    StableHlo.binary main_v16 main_v17 main_v18 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_0 (constant S_ .f32 0x3DCCCCCD#32),
    StableHlo.unary main_cst_0 main_v19 (broadcastInDim S8192x128 ![] bcast_S_S8192x128 : (⟨S_, .f32⟩ : BufTy).Contents (Elt F) → (⟨S8192x128, .f32⟩ : BufTy).Contents (Elt F)),
    StableHlo.binary main_v19 main_v16 main_v20 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v18) (.of main_v16) (.of main_v20) main_call4.v0 select ]
abbrev seg4_W : List (Ref sig .tc) :=
  [ main_v8, main_v9, main_v10, main_v11, main_v12, main_v13, main_v14, main_v15,
    main_v16, main_cst, main_v17, main_v18, main_cst_0, main_v19, main_v20, main_call4.v0.ref ]
theorem seg4_writes : (seg4 : List (HloOp τ sig (Elt F))).Forall fun op => op.writes ⊆ (seg4_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS4 (V : Valuation τ sig (Elt F)) (r : Ref sig .tc) (h : r ∉ seg4_W) :
    after seg4 V (Proc.devRef .tc r) = V (Proc.devRef .tc r) := after_of_writes_sub seg4 V seg4_writes h

/-- Stage 5: operations 113 … 128 of @main. -/
abbrev seg5 : List (HloOp τ sig (Elt F)) :=
  [ StableHlo.unary main_arg8 main_v22 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v22 main_v23 rfl shapeCasts_S1x128x128_S128x128,
    StableHlo.unary main_arg9 main_v24 ((extractStridedSlice S1x128 ![1, 0] · slices_S4x128_S1x128_1_0) : (⟨S4x128, .f32⟩ : BufTy).Contents (Elt F) → (⟨S1x128, .f32⟩ : BufTy).Contents (Elt F)),
    StableHlo.reshape main_v24 main_v25 rfl shapeCasts_S1x128_S128,
    StableHlo.binary main_v3 main_v23 main_v26 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v26 main_v27 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v25 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S4096x128 ![0, 1] bcast_S1x128_S4096x128_0_1 : (⟨S1x128, .f32⟩ : BufTy).Contents (Elt F) → (⟨S4096x128, .f32⟩ : BufTy).Contents (Elt F)),
    StableHlo.binary main_v27 main_v29 main_v30 (addf : (⟨S4096x128, .f32⟩ : BufTy).Contents (Elt F) → (⟨S4096x128, .f32⟩ : BufTy).Contents (Elt F) → (⟨S4096x128, .f32⟩ : BufTy).Contents (Elt F)),
    StableHlo.nullary main_cst_1 (constant S_ .f32 0x00000000#32),
    StableHlo.unary main_cst_1 main_v31 (broadcastInDim S4096x128 ![] bcast_S_S4096x128 : (⟨S_, .f32⟩ : BufTy).Contents (Elt F) → (⟨S4096x128, .f32⟩ : BufTy).Contents (Elt F)),
    StableHlo.binary main_v30 main_v31 main_v32 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_2 (constant S_ .f32 0x3DCCCCCD#32),
    StableHlo.unary main_cst_2 main_v33 (broadcastInDim S4096x128 ![] bcast_S_S4096x128 : (⟨S_, .f32⟩ : BufTy).Contents (Elt F) → (⟨S4096x128, .f32⟩ : BufTy).Contents (Elt F)),
    StableHlo.binary main_v33 main_v30 main_v34 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v32) (.of main_v30) (.of main_v34) main_call5.v0 select ]
abbrev seg5_W : List (Ref sig .tc) :=
  [ main_v22, main_v23, main_v24, main_v25, main_v26, main_v27, main_v28, main_v29,
    main_v30, main_cst_1, main_v31, main_v32, main_cst_2, main_v33, main_v34, main_call5.v0.ref ]
theorem seg5_writes : (seg5 : List (HloOp τ sig (Elt F))).Forall fun op => op.writes ⊆ (seg5_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS5 (V : Valuation τ sig (Elt F)) (r : Ref sig .tc) (h : r ∉ seg5_W) :
    after seg5 V (Proc.devRef .tc r) = V (Proc.devRef .tc r) := after_of_writes_sub seg5 V seg5_writes h

/-- Stage 6: operations 129 … 144 of @main. -/
abbrev seg6 : List (HloOp τ sig (Elt F)) :=
  [ StableHlo.unary main_arg8 main_v36 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v36 main_v37 rfl shapeCasts_S1x128x128_S128x128,
    StableHlo.unary main_arg9 main_v38 ((extractStridedSlice S1x128 ![2, 0] · slices_S4x128_S1x128_2_0) : (⟨S4x128, .f32⟩ : BufTy).Contents (Elt F) → (⟨S1x128, .f32⟩ : BufTy).Contents (Elt F)),
    StableHlo.reshape main_v38 main_v39 rfl shapeCasts_S1x128_S128,
    StableHlo.binary main_v21 main_v37 main_v40 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v40 main_v41 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v39 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S4096x128 ![0, 1] bcast_S1x128_S4096x128_0_1 : (⟨S1x128, .f32⟩ : BufTy).Contents (Elt F) → (⟨S4096x128, .f32⟩ : BufTy).Contents (Elt F)),
    StableHlo.binary main_v41 main_v43 main_v44 (addf : (⟨S4096x128, .f32⟩ : BufTy).Contents (Elt F) → (⟨S4096x128, .f32⟩ : BufTy).Contents (Elt F) → (⟨S4096x128, .f32⟩ : BufTy).Contents (Elt F)),
    StableHlo.nullary main_cst_3 (constant S_ .f32 0x00000000#32),
    StableHlo.unary main_cst_3 main_v45 (broadcastInDim S4096x128 ![] bcast_S_S4096x128 : (⟨S_, .f32⟩ : BufTy).Contents (Elt F) → (⟨S4096x128, .f32⟩ : BufTy).Contents (Elt F)),
    StableHlo.binary main_v44 main_v45 main_v46 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_4 (constant S_ .f32 0x3DCCCCCD#32),
    StableHlo.unary main_cst_4 main_v47 (broadcastInDim S4096x128 ![] bcast_S_S4096x128 : (⟨S_, .f32⟩ : BufTy).Contents (Elt F) → (⟨S4096x128, .f32⟩ : BufTy).Contents (Elt F)),
    StableHlo.binary main_v47 main_v44 main_v48 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v46) (.of main_v44) (.of main_v48) main_call6.v0 select ]
abbrev seg6_W : List (Ref sig .tc) :=
  [ main_v36, main_v37, main_v38, main_v39, main_v40, main_v41, main_v42, main_v43,
    main_v44, main_cst_3, main_v45, main_v46, main_cst_4, main_v47, main_v48, main_call6.v0.ref ]
theorem seg6_writes : (seg6 : List (HloOp τ sig (Elt F))).Forall fun op => op.writes ⊆ (seg6_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS6 (V : Valuation τ sig (Elt F)) (r : Ref sig .tc) (h : r ∉ seg6_W) :
    after seg6 V (Proc.devRef .tc r) = V (Proc.devRef .tc r) := after_of_writes_sub seg6 V seg6_writes h

/-- Stage 7: operations 145 … 160 of @main. -/
abbrev seg7 : List (HloOp τ sig (Elt F)) :=
  [ StableHlo.unary main_arg8 main_v50 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v50 main_v51 rfl shapeCasts_S1x128x128_S128x128,
    StableHlo.unary main_arg9 main_v52 ((extractStridedSlice S1x128 ![3, 0] · slices_S4x128_S1x128_3_0) : (⟨S4x128, .f32⟩ : BufTy).Contents (Elt F) → (⟨S1x128, .f32⟩ : BufTy).Contents (Elt F)),
    StableHlo.reshape main_v52 main_v53 rfl shapeCasts_S1x128_S128,
    StableHlo.binary main_v35 main_v51 main_v54 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v54 main_v55 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v53 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S8192x128 ![0, 1] bcast_S1x128_S8192x128_0_1 : (⟨S1x128, .f32⟩ : BufTy).Contents (Elt F) → (⟨S8192x128, .f32⟩ : BufTy).Contents (Elt F)),
    StableHlo.binary main_v55 main_v57 main_v58 (addf : (⟨S8192x128, .f32⟩ : BufTy).Contents (Elt F) → (⟨S8192x128, .f32⟩ : BufTy).Contents (Elt F) → (⟨S8192x128, .f32⟩ : BufTy).Contents (Elt F)),
    StableHlo.nullary main_cst_5 (constant S_ .f32 0x00000000#32),
    StableHlo.unary main_cst_5 main_v59 (broadcastInDim S8192x128 ![] bcast_S_S8192x128 : (⟨S_, .f32⟩ : BufTy).Contents (Elt F) → (⟨S8192x128, .f32⟩ : BufTy).Contents (Elt F)),
    StableHlo.binary main_v58 main_v59 main_v60 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_6 (constant S_ .f32 0x3DCCCCCD#32),
    StableHlo.unary main_cst_6 main_v61 (broadcastInDim S8192x128 ![] bcast_S_S8192x128 : (⟨S_, .f32⟩ : BufTy).Contents (Elt F) → (⟨S8192x128, .f32⟩ : BufTy).Contents (Elt F)),
    StableHlo.binary main_v61 main_v58 main_v62 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v60) (.of main_v58) (.of main_v62) main_call7.v0 select ]
abbrev seg7_W : List (Ref sig .tc) :=
  [ main_v50, main_v51, main_v52, main_v53, main_v54, main_v55, main_v56, main_v57,
    main_v58, main_cst_5, main_v59, main_v60, main_cst_6, main_v61, main_v62, main_call7.v0.ref ]
theorem seg7_writes : (seg7 : List (HloOp τ sig (Elt F))).Forall fun op => op.writes ⊆ (seg7_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS7 (V : Valuation τ sig (Elt F)) (r : Ref sig .tc) (h : r ∉ seg7_W) :
    after seg7 V (Proc.devRef .tc r) = V (Proc.devRef .tc r) := after_of_writes_sub seg7 V seg7_writes h

/-- Stage 8: operations 161 … 169 of @main. -/
abbrev seg8 : List (HloOp τ sig (Elt F)) :=
  [ StableHlo.binary main_v49 main_v1 main_v64 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg10 main_v65 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v65 main_v66 rfl shapeCasts_S1x256x128_S256x128,
    StableHlo.binary main_v64 main_v66 main_v67 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg11 main_v68 ((extractStridedSlice S1x128 ![0, 0] · slices_S2x128_S1x128_0_0) : (⟨S2x128, .f32⟩ : BufTy).Contents (Elt F) → (⟨S1x128, .f32⟩ : BufTy).Contents (Elt F)),
    StableHlo.reshape main_v68 main_v69 rfl shapeCasts_S1x128_S128,
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S4096x128 ![0, 1] bcast_S1x128_S4096x128_0_1 : (⟨S1x128, .f32⟩ : BufTy).Contents (Elt F) → (⟨S4096x128, .f32⟩ : BufTy).Contents (Elt F)),
    StableHlo.binary main_v67 main_v71 main_v72 (addf : (⟨S4096x128, .f32⟩ : BufTy).Contents (Elt F) → (⟨S4096x128, .f32⟩ : BufTy).Contents (Elt F) → (⟨S4096x128, .f32⟩ : BufTy).Contents (Elt F)) ]
abbrev seg8_W : List (Ref sig .tc) :=
  [ main_v64, main_v65, main_v66, main_v67, main_v68, main_v69, main_v70, main_v71,
    main_v72 ]
theorem seg8_writes : (seg8 : List (HloOp τ sig (Elt F))).Forall fun op => op.writes ⊆ (seg8_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS8 (V : Valuation τ sig (Elt F)) (r : Ref sig .tc) (h : r ∉ seg8_W) :
    after seg8 V (Proc.devRef .tc r) = V (Proc.devRef .tc r) := after_of_writes_sub seg8 V seg8_writes h

/-- Stage 9: operations 170 … 181 of @main. -/
abbrev seg9 : List (HloOp τ sig (Elt F)) :=
  [ StableHlo.binary main_v63 main_v3 main_v73 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg10 main_v74 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v74 main_v75 rfl shapeCasts_S1x256x128_S256x128,
    StableHlo.binary main_v73 main_v75 main_v76 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg11 main_v77 ((extractStridedSlice S1x128 ![1, 0] · slices_S2x128_S1x128_1_0) : (⟨S2x128, .f32⟩ : BufTy).Contents (Elt F) → (⟨S1x128, .f32⟩ : BufTy).Contents (Elt F)),
    StableHlo.reshape main_v77 main_v78 rfl shapeCasts_S1x128_S128,
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S8192x128 ![0, 1] bcast_S1x128_S8192x128_0_1 : (⟨S1x128, .f32⟩ : BufTy).Contents (Elt F) → (⟨S8192x128, .f32⟩ : BufTy).Contents (Elt F)),
    StableHlo.binary main_v76 main_v80 main_v81 (addf : (⟨S8192x128, .f32⟩ : BufTy).Contents (Elt F) → (⟨S8192x128, .f32⟩ : BufTy).Contents (Elt F) → (⟨S8192x128, .f32⟩ : BufTy).Contents (Elt F)),
    StableHlo.TRef.nullary main_call8.cst (constant S_ .f32 0x00000000#32),
    StableHlo.TRef.unary main_call8.cst main_call8.v0 (broadcastInDim S4096x128 ![] bcast_S_S4096x128),
    StableHlo.TRef.binary (.of main_v72) main_call8.v0 main_call8.v1 maximumf ]
abbrev seg9_W : List (Ref sig .tc) :=
  [ main_v73, main_v74, main_v75, main_v76, main_v77, main_v78, main_v79, main_v80,
    main_v81, main_call8.cst.ref, main_call8.v0.ref, main_call8.v1.ref ]
theorem seg9_writes : (seg9 : List (HloOp τ sig (Elt F))).Forall fun op => op.writes ⊆ (seg9_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS9 (V : Valuation τ sig (Elt F)) (r : Ref sig .tc) (h : r ∉ seg9_W) :
    after seg9 V (Proc.devRef .tc r) = V (Proc.devRef .tc r) := after_of_writes_sub seg9 V seg9_writes h

/-- Stage 10: operations 182 … 184 of @main. -/
abbrev seg10 : List (HloOp τ sig (Elt F)) :=
  [ StableHlo.TRef.nullary main_call9.cst (constant S_ .f32 0x00000000#32),
    StableHlo.TRef.unary main_call9.cst main_call9.v0 (broadcastInDim S8192x128 ![] bcast_S_S8192x128),
    StableHlo.TRef.binary (.of main_v81) main_call9.v0 main_call9.v1 maximumf ]
abbrev seg10_W : List (Ref sig .tc) :=
  [ main_call9.cst.ref, main_call9.v0.ref, main_call9.v1.ref ]
theorem seg10_writes : (seg10 : List (HloOp τ sig (Elt F))).Forall fun op => op.writes ⊆ (seg10_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS10 (V : Valuation τ sig (Elt F)) (r : Ref sig .tc) (h : r ∉ seg10_W) :
    after seg10 V (Proc.devRef .tc r) = V (Proc.devRef .tc r) := after_of_writes_sub seg10 V seg10_writes h

/-- Stage 11: operations 185 … 200 of @main. -/
abbrev seg11 : List (HloOp τ sig (Elt F)) :=
  [ StableHlo.unary main_arg12 main_v84 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v84 main_v85 rfl shapeCasts_S1x128x128_S128x128,
    StableHlo.unary main_arg13 main_v86 ((extractStridedSlice S1x128 ![0, 0] · slices_S6x128_S1x128_0_0) : (⟨S6x128, .f32⟩ : BufTy).Contents (Elt F) → (⟨S1x128, .f32⟩ : BufTy).Contents (Elt F)),
    StableHlo.reshape main_v86 main_v87 rfl shapeCasts_S1x128_S128,
    StableHlo.binary main_v82 main_v85 main_v88 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v88 main_v89 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v87 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S8192x128 ![0, 1] bcast_S1x128_S8192x128_0_1 : (⟨S1x128, .f32⟩ : BufTy).Contents (Elt F) → (⟨S8192x128, .f32⟩ : BufTy).Contents (Elt F)),
    StableHlo.binary main_v89 main_v91 main_v92 (addf : (⟨S8192x128, .f32⟩ : BufTy).Contents (Elt F) → (⟨S8192x128, .f32⟩ : BufTy).Contents (Elt F) → (⟨S8192x128, .f32⟩ : BufTy).Contents (Elt F)),
    StableHlo.nullary main_cst_7 (constant S_ .f32 0x00000000#32),
    StableHlo.unary main_cst_7 main_v93 (broadcastInDim S8192x128 ![] bcast_S_S8192x128 : (⟨S_, .f32⟩ : BufTy).Contents (Elt F) → (⟨S8192x128, .f32⟩ : BufTy).Contents (Elt F)),
    StableHlo.binary main_v92 main_v93 main_v94 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_8 (constant S_ .f32 0x3DCCCCCD#32),
    StableHlo.unary main_cst_8 main_v95 (broadcastInDim S8192x128 ![] bcast_S_S8192x128 : (⟨S_, .f32⟩ : BufTy).Contents (Elt F) → (⟨S8192x128, .f32⟩ : BufTy).Contents (Elt F)),
    StableHlo.binary main_v95 main_v92 main_v96 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v94) (.of main_v92) (.of main_v96) main_call10.v0 select ]
abbrev seg11_W : List (Ref sig .tc) :=
  [ main_v84, main_v85, main_v86, main_v87, main_v88, main_v89, main_v90, main_v91,
    main_v92, main_cst_7, main_v93, main_v94, main_cst_8, main_v95, main_v96, main_call10.v0.ref ]
theorem seg11_writes : (seg11 : List (HloOp τ sig (Elt F))).Forall fun op => op.writes ⊆ (seg11_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS11 (V : Valuation τ sig (Elt F)) (r : Ref sig .tc) (h : r ∉ seg11_W) :
    after seg11 V (Proc.devRef .tc r) = V (Proc.devRef .tc r) := after_of_writes_sub seg11 V seg11_writes h

/-- Stage 12: operations 201 … 216 of @main. -/
abbrev seg12 : List (HloOp τ sig (Elt F)) :=
  [ StableHlo.unary main_arg12 main_v98 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v98 main_v99 rfl shapeCasts_S1x128x128_S128x128,
    StableHlo.unary main_arg13 main_v100 ((extractStridedSlice S1x128 ![1, 0] · slices_S6x128_S1x128_1_0) : (⟨S6x128, .f32⟩ : BufTy).Contents (Elt F) → (⟨S1x128, .f32⟩ : BufTy).Contents (Elt F)),
    StableHlo.reshape main_v100 main_v101 rfl shapeCasts_S1x128_S128,
    StableHlo.binary main_v83 main_v99 main_v102 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v102 main_v103 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v101 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S4096x128 ![0, 1] bcast_S1x128_S4096x128_0_1 : (⟨S1x128, .f32⟩ : BufTy).Contents (Elt F) → (⟨S4096x128, .f32⟩ : BufTy).Contents (Elt F)),
    StableHlo.binary main_v103 main_v105 main_v106 (addf : (⟨S4096x128, .f32⟩ : BufTy).Contents (Elt F) → (⟨S4096x128, .f32⟩ : BufTy).Contents (Elt F) → (⟨S4096x128, .f32⟩ : BufTy).Contents (Elt F)),
    StableHlo.nullary main_cst_9 (constant S_ .f32 0x00000000#32),
    StableHlo.unary main_cst_9 main_v107 (broadcastInDim S4096x128 ![] bcast_S_S4096x128 : (⟨S_, .f32⟩ : BufTy).Contents (Elt F) → (⟨S4096x128, .f32⟩ : BufTy).Contents (Elt F)),
    StableHlo.binary main_v106 main_v107 main_v108 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_10 (constant S_ .f32 0x3DCCCCCD#32),
    StableHlo.unary main_cst_10 main_v109 (broadcastInDim S4096x128 ![] bcast_S_S4096x128 : (⟨S_, .f32⟩ : BufTy).Contents (Elt F) → (⟨S4096x128, .f32⟩ : BufTy).Contents (Elt F)),
    StableHlo.binary main_v109 main_v106 main_v110 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v108) (.of main_v106) (.of main_v110) main_call11.v0 select ]
abbrev seg12_W : List (Ref sig .tc) :=
  [ main_v98, main_v99, main_v100, main_v101, main_v102, main_v103, main_v104, main_v105,
    main_v106, main_cst_9, main_v107, main_v108, main_cst_10, main_v109, main_v110, main_call11.v0.ref ]
theorem seg12_writes : (seg12 : List (HloOp τ sig (Elt F))).Forall fun op => op.writes ⊆ (seg12_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS12 (V : Valuation τ sig (Elt F)) (r : Ref sig .tc) (h : r ∉ seg12_W) :
    after seg12 V (Proc.devRef .tc r) = V (Proc.devRef .tc r) := after_of_writes_sub seg12 V seg12_writes h

/-- Stage 13: operations 217 … 232 of @main. -/
abbrev seg13 : List (HloOp τ sig (Elt F)) :=
  [ StableHlo.unary main_arg12 main_v112 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v112 main_v113 rfl shapeCasts_S1x128x128_S128x128,
    StableHlo.unary main_arg13 main_v114 ((extractStridedSlice S1x128 ![2, 0] · slices_S6x128_S1x128_2_0) : (⟨S6x128, .f32⟩ : BufTy).Contents (Elt F) → (⟨S1x128, .f32⟩ : BufTy).Contents (Elt F)),
    StableHlo.reshape main_v114 main_v115 rfl shapeCasts_S1x128_S128,
    StableHlo.binary main_v97 main_v113 main_v116 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v116 main_v117 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v115 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S4096x128 ![0, 1] bcast_S1x128_S4096x128_0_1 : (⟨S1x128, .f32⟩ : BufTy).Contents (Elt F) → (⟨S4096x128, .f32⟩ : BufTy).Contents (Elt F)),
    StableHlo.binary main_v117 main_v119 main_v120 (addf : (⟨S4096x128, .f32⟩ : BufTy).Contents (Elt F) → (⟨S4096x128, .f32⟩ : BufTy).Contents (Elt F) → (⟨S4096x128, .f32⟩ : BufTy).Contents (Elt F)),
    StableHlo.nullary main_cst_11 (constant S_ .f32 0x00000000#32),
    StableHlo.unary main_cst_11 main_v121 (broadcastInDim S4096x128 ![] bcast_S_S4096x128 : (⟨S_, .f32⟩ : BufTy).Contents (Elt F) → (⟨S4096x128, .f32⟩ : BufTy).Contents (Elt F)),
    StableHlo.binary main_v120 main_v121 main_v122 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_12 (constant S_ .f32 0x3DCCCCCD#32),
    StableHlo.unary main_cst_12 main_v123 (broadcastInDim S4096x128 ![] bcast_S_S4096x128 : (⟨S_, .f32⟩ : BufTy).Contents (Elt F) → (⟨S4096x128, .f32⟩ : BufTy).Contents (Elt F)),
    StableHlo.binary main_v123 main_v120 main_v124 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v122) (.of main_v120) (.of main_v124) main_call12.v0 select ]
abbrev seg13_W : List (Ref sig .tc) :=
  [ main_v112, main_v113, main_v114, main_v115, main_v116, main_v117, main_v118, main_v119,
    main_v120, main_cst_11, main_v121, main_v122, main_cst_12, main_v123, main_v124, main_call12.v0.ref ]
theorem seg13_writes : (seg13 : List (HloOp τ sig (Elt F))).Forall fun op => op.writes ⊆ (seg13_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS13 (V : Valuation τ sig (Elt F)) (r : Ref sig .tc) (h : r ∉ seg13_W) :
    after seg13 V (Proc.devRef .tc r) = V (Proc.devRef .tc r) := after_of_writes_sub seg13 V seg13_writes h

/-- Stage 14: operations 233 … 241 of @main. -/
abbrev seg14 : List (HloOp τ sig (Elt F)) :=
  [ StableHlo.binary main_v125 main_v82 main_v126 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg14 main_v127 ((extractStridedSlice S1x256x128 ![0, 0, 0] · slices_S4x256x128_S1x256x128_0_0_0) : (⟨S4x256x128, .f32⟩ : BufTy).Contents (Elt F) → (⟨S1x256x128, .f32⟩ : BufTy).Contents (Elt F)),
    StableHlo.reshape main_v127 main_v128 rfl shapeCasts_S1x256x128_S256x128,
    StableHlo.binary main_v126 main_v128 main_v129 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg15 main_v130 ((extractStridedSlice S1x128 ![0, 0] · slices_S4x128_S1x128_0_0) : (⟨S4x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S4096x128 ![0, 1] bcast_S1x128_S4096x128_0_1 : (⟨S1x128, .f32⟩ : BufTy).Contents (Elt F) → (⟨S4096x128, .f32⟩ : BufTy).Contents (Elt F)),
    StableHlo.binary main_v129 main_v133 main_v134 (addf : (⟨S4096x128, .f32⟩ : BufTy).Contents (Elt F) → (⟨S4096x128, .f32⟩ : BufTy).Contents (Elt F) → (⟨S4096x128, .f32⟩ : BufTy).Contents (Elt F)) ]
abbrev seg14_W : List (Ref sig .tc) :=
  [ main_v126, main_v127, main_v128, main_v129, main_v130, main_v131, main_v132, main_v133,
    main_v134 ]
theorem seg14_writes : (seg14 : List (HloOp τ sig (Elt F))).Forall fun op => op.writes ⊆ (seg14_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS14 (V : Valuation τ sig (Elt F)) (r : Ref sig .tc) (h : r ∉ seg14_W) :
    after seg14 V (Proc.devRef .tc r) = V (Proc.devRef .tc r) := after_of_writes_sub seg14 V seg14_writes h

/-- Stage 15: operations 242 … 257 of @main. -/
abbrev seg15 : List (HloOp τ sig (Elt F)) :=
  [ StableHlo.unary main_arg12 main_v135 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v135 main_v136 rfl shapeCasts_S1x128x128_S128x128,
    StableHlo.unary main_arg13 main_v137 ((extractStridedSlice S1x128 ![3, 0] · slices_S6x128_S1x128_3_0) : (⟨S6x128, .f32⟩ : BufTy).Contents (Elt F) → (⟨S1x128, .f32⟩ : BufTy).Contents (Elt F)),
    StableHlo.reshape main_v137 main_v138 rfl shapeCasts_S1x128_S128,
    StableHlo.binary main_v97 main_v136 main_v139 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg0 main_v139 main_v140 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v138 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S4096x128 ![0, 1] bcast_S1x128_S4096x128_0_1 : (⟨S1x128, .f32⟩ : BufTy).Contents (Elt F) → (⟨S4096x128, .f32⟩ : BufTy).Contents (Elt F)),
    StableHlo.binary main_v140 main_v142 main_v143 (addf : (⟨S4096x128, .f32⟩ : BufTy).Contents (Elt F) → (⟨S4096x128, .f32⟩ : BufTy).Contents (Elt F) → (⟨S4096x128, .f32⟩ : BufTy).Contents (Elt F)),
    StableHlo.nullary main_cst_13 (constant S_ .f32 0x00000000#32),
    StableHlo.unary main_cst_13 main_v144 (broadcastInDim S4096x128 ![] bcast_S_S4096x128 : (⟨S_, .f32⟩ : BufTy).Contents (Elt F) → (⟨S4096x128, .f32⟩ : BufTy).Contents (Elt F)),
    StableHlo.binary main_v143 main_v144 main_v145 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_14 (constant S_ .f32 0x3DCCCCCD#32),
    StableHlo.unary main_cst_14 main_v146 (broadcastInDim S4096x128 ![] bcast_S_S4096x128 : (⟨S_, .f32⟩ : BufTy).Contents (Elt F) → (⟨S4096x128, .f32⟩ : BufTy).Contents (Elt F)),
    StableHlo.binary main_v146 main_v143 main_v147 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v145) (.of main_v143) (.of main_v147) main_call13.v0 select ]
abbrev seg15_W : List (Ref sig .tc) :=
  [ main_v135, main_v136, main_v137, main_v138, main_v139, main_v140, main_v141, main_v142,
    main_v143, main_cst_13, main_v144, main_v145, main_cst_14, main_v146, main_v147, main_call13.v0.ref ]
theorem seg15_writes : (seg15 : List (HloOp τ sig (Elt F))).Forall fun op => op.writes ⊆ (seg15_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS15 (V : Valuation τ sig (Elt F)) (r : Ref sig .tc) (h : r ∉ seg15_W) :
    after seg15 V (Proc.devRef .tc r) = V (Proc.devRef .tc r) := after_of_writes_sub seg15 V seg15_writes h

/-- Stage 16: operations 258 … 266 of @main. -/
abbrev seg16 : List (HloOp τ sig (Elt F)) :=
  [ StableHlo.binary main_v148 main_v82 main_v149 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg14 main_v150 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v150 main_v151 rfl shapeCasts_S1x256x128_S256x128,
    StableHlo.binary main_v149 main_v151 main_v152 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg15 main_v153 ((extractStridedSlice S1x128 ![1, 0] · slices_S4x128_S1x128_1_0) : (⟨S4x128, .f32⟩ : BufTy).Contents (Elt F) → (⟨S1x128, .f32⟩ : BufTy).Contents (Elt F)),
    StableHlo.reshape main_v153 main_v154 rfl shapeCasts_S1x128_S128,
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S4096x128 ![0, 1] bcast_S1x128_S4096x128_0_1 : (⟨S1x128, .f32⟩ : BufTy).Contents (Elt F) → (⟨S4096x128, .f32⟩ : BufTy).Contents (Elt F)),
    StableHlo.binary main_v152 main_v156 main_v157 (addf : (⟨S4096x128, .f32⟩ : BufTy).Contents (Elt F) → (⟨S4096x128, .f32⟩ : BufTy).Contents (Elt F) → (⟨S4096x128, .f32⟩ : BufTy).Contents (Elt F)) ]
abbrev seg16_W : List (Ref sig .tc) :=
  [ main_v149, main_v150, main_v151, main_v152, main_v153, main_v154, main_v155, main_v156,
    main_v157 ]
theorem seg16_writes : (seg16 : List (HloOp τ sig (Elt F))).Forall fun op => op.writes ⊆ (seg16_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS16 (V : Valuation τ sig (Elt F)) (r : Ref sig .tc) (h : r ∉ seg16_W) :
    after seg16 V (Proc.devRef .tc r) = V (Proc.devRef .tc r) := after_of_writes_sub seg16 V seg16_writes h

/-- Stage 17: operations 267 … 282 of @main. -/
abbrev seg17 : List (HloOp τ sig (Elt F)) :=
  [ StableHlo.unary main_arg12 main_v158 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v158 main_v159 rfl shapeCasts_S1x128x128_S128x128,
    StableHlo.unary main_arg13 main_v160 ((extractStridedSlice S1x128 ![4, 0] · slices_S6x128_S1x128_4_0) : (⟨S6x128, .f32⟩ : BufTy).Contents (Elt F) → (⟨S1x128, .f32⟩ : BufTy).Contents (Elt F)),
    StableHlo.reshape main_v160 main_v161 rfl shapeCasts_S1x128_S128,
    StableHlo.binary main_v111 main_v159 main_v162 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v162 main_v163 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v161 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S8192x128 ![0, 1] bcast_S1x128_S8192x128_0_1 : (⟨S1x128, .f32⟩ : BufTy).Contents (Elt F) → (⟨S8192x128, .f32⟩ : BufTy).Contents (Elt F)),
    StableHlo.binary main_v163 main_v165 main_v166 (addf : (⟨S8192x128, .f32⟩ : BufTy).Contents (Elt F) → (⟨S8192x128, .f32⟩ : BufTy).Contents (Elt F) → (⟨S8192x128, .f32⟩ : BufTy).Contents (Elt F)),
    StableHlo.nullary main_cst_15 (constant S_ .f32 0x00000000#32),
    StableHlo.unary main_cst_15 main_v167 (broadcastInDim S8192x128 ![] bcast_S_S8192x128 : (⟨S_, .f32⟩ : BufTy).Contents (Elt F) → (⟨S8192x128, .f32⟩ : BufTy).Contents (Elt F)),
    StableHlo.binary main_v166 main_v167 main_v168 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_16 (constant S_ .f32 0x3DCCCCCD#32),
    StableHlo.unary main_cst_16 main_v169 (broadcastInDim S8192x128 ![] bcast_S_S8192x128 : (⟨S_, .f32⟩ : BufTy).Contents (Elt F) → (⟨S8192x128, .f32⟩ : BufTy).Contents (Elt F)),
    StableHlo.binary main_v169 main_v166 main_v170 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v168) (.of main_v166) (.of main_v170) main_call14.v0 select ]
abbrev seg17_W : List (Ref sig .tc) :=
  [ main_v158, main_v159, main_v160, main_v161, main_v162, main_v163, main_v164, main_v165,
    main_v166, main_cst_15, main_v167, main_v168, main_cst_16, main_v169, main_v170, main_call14.v0.ref ]
theorem seg17_writes : (seg17 : List (HloOp τ sig (Elt F))).Forall fun op => op.writes ⊆ (seg17_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS17 (V : Valuation τ sig (Elt F)) (r : Ref sig .tc) (h : r ∉ seg17_W) :
    after seg17 V (Proc.devRef .tc r) = V (Proc.devRef .tc r) := after_of_writes_sub seg17 V seg17_writes h

/-- Stage 18: operations 283 … 291 of @main. -/
abbrev seg18 : List (HloOp τ sig (Elt F)) :=
  [ StableHlo.binary main_v171 main_v83 main_v172 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg14 main_v173 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v173 main_v174 rfl shapeCasts_S1x256x128_S256x128,
    StableHlo.binary main_v172 main_v174 main_v175 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg15 main_v176 ((extractStridedSlice S1x128 ![2, 0] · slices_S4x128_S1x128_2_0) : (⟨S4x128, .f32⟩ : BufTy).Contents (Elt F) → (⟨S1x128, .f32⟩ : BufTy).Contents (Elt F)),
    StableHlo.reshape main_v176 main_v177 rfl shapeCasts_S1x128_S128,
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S8192x128 ![0, 1] bcast_S1x128_S8192x128_0_1 : (⟨S1x128, .f32⟩ : BufTy).Contents (Elt F) → (⟨S8192x128, .f32⟩ : BufTy).Contents (Elt F)),
    StableHlo.binary main_v175 main_v179 main_v180 (addf : (⟨S8192x128, .f32⟩ : BufTy).Contents (Elt F) → (⟨S8192x128, .f32⟩ : BufTy).Contents (Elt F) → (⟨S8192x128, .f32⟩ : BufTy).Contents (Elt F)) ]
abbrev seg18_W : List (Ref sig .tc) :=
  [ main_v172, main_v173, main_v174, main_v175, main_v176, main_v177, main_v178, main_v179,
    main_v180 ]
theorem seg18_writes : (seg18 : List (HloOp τ sig (Elt F))).Forall fun op => op.writes ⊆ (seg18_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS18 (V : Valuation τ sig (Elt F)) (r : Ref sig .tc) (h : r ∉ seg18_W) :
    after seg18 V (Proc.devRef .tc r) = V (Proc.devRef .tc r) := after_of_writes_sub seg18 V seg18_writes h

/-- Stage 19: operations 292 … 307 of @main. -/
abbrev seg19 : List (HloOp τ sig (Elt F)) :=
  [ StableHlo.unary main_arg12 main_v181 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v181 main_v182 rfl shapeCasts_S1x128x128_S128x128,
    StableHlo.unary main_arg13 main_v183 ((extractStridedSlice S1x128 ![5, 0] · slices_S6x128_S1x128_5_0) : (⟨S6x128, .f32⟩ : BufTy).Contents (Elt F) → (⟨S1x128, .f32⟩ : BufTy).Contents (Elt F)),
    StableHlo.reshape main_v183 main_v184 rfl shapeCasts_S1x128_S128,
    StableHlo.binary main_v111 main_v182 main_v185 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg1 main_v185 main_v186 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v184 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S8192x128 ![0, 1] bcast_S1x128_S8192x128_0_1 : (⟨S1x128, .f32⟩ : BufTy).Contents (Elt F) → (⟨S8192x128, .f32⟩ : BufTy).Contents (Elt F)),
    StableHlo.binary main_v186 main_v188 main_v189 (addf : (⟨S8192x128, .f32⟩ : BufTy).Contents (Elt F) → (⟨S8192x128, .f32⟩ : BufTy).Contents (Elt F) → (⟨S8192x128, .f32⟩ : BufTy).Contents (Elt F)),
    StableHlo.nullary main_cst_17 (constant S_ .f32 0x00000000#32),
    StableHlo.unary main_cst_17 main_v190 (broadcastInDim S8192x128 ![] bcast_S_S8192x128 : (⟨S_, .f32⟩ : BufTy).Contents (Elt F) → (⟨S8192x128, .f32⟩ : BufTy).Contents (Elt F)),
    StableHlo.binary main_v189 main_v190 main_v191 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_18 (constant S_ .f32 0x3DCCCCCD#32),
    StableHlo.unary main_cst_18 main_v192 (broadcastInDim S8192x128 ![] bcast_S_S8192x128 : (⟨S_, .f32⟩ : BufTy).Contents (Elt F) → (⟨S8192x128, .f32⟩ : BufTy).Contents (Elt F)),
    StableHlo.binary main_v192 main_v189 main_v193 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v191) (.of main_v189) (.of main_v193) main_call15.v0 select ]
abbrev seg19_W : List (Ref sig .tc) :=
  [ main_v181, main_v182, main_v183, main_v184, main_v185, main_v186, main_v187, main_v188,
    main_v189, main_cst_17, main_v190, main_v191, main_cst_18, main_v192, main_v193, main_call15.v0.ref ]
theorem seg19_writes : (seg19 : List (HloOp τ sig (Elt F))).Forall fun op => op.writes ⊆ (seg19_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS19 (V : Valuation τ sig (Elt F)) (r : Ref sig .tc) (h : r ∉ seg19_W) :
    after seg19 V (Proc.devRef .tc r) = V (Proc.devRef .tc r) := after_of_writes_sub seg19 V seg19_writes h

/-- Stage 20: operations 308 … 316 of @main. -/
abbrev seg20 : List (HloOp τ sig (Elt F)) :=
  [ StableHlo.binary main_v194 main_v83 main_v195 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg14 main_v196 ((extractStridedSlice S1x256x128 ![3, 0, 0] · slices_S4x256x128_S1x256x128_3_0_0) : (⟨S4x256x128, .f32⟩ : BufTy).Contents (Elt F) → (⟨S1x256x128, .f32⟩ : BufTy).Contents (Elt F)),
    StableHlo.reshape main_v196 main_v197 rfl shapeCasts_S1x256x128_S256x128,
    StableHlo.binary main_v195 main_v197 main_v198 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg15 main_v199 ((extractStridedSlice S1x128 ![3, 0] · slices_S4x128_S1x128_3_0) : (⟨S4x128, .f32⟩ : BufTy).Contents (Elt F) → (⟨S1x128, .f32⟩ : BufTy).Contents (Elt F)),
    StableHlo.reshape main_v199 main_v200 rfl shapeCasts_S1x128_S128,
    StableHlo.unary main_v200 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S8192x128 ![0, 1] bcast_S1x128_S8192x128_0_1 : (⟨S1x128, .f32⟩ : BufTy).Contents (Elt F) → (⟨S8192x128, .f32⟩ : BufTy).Contents (Elt F)),
    StableHlo.binary main_v198 main_v202 main_v203 (addf : (⟨S8192x128, .f32⟩ : BufTy).Contents (Elt F) → (⟨S8192x128, .f32⟩ : BufTy).Contents (Elt F) → (⟨S8192x128, .f32⟩ : BufTy).Contents (Elt F)) ]
abbrev seg20_W : List (Ref sig .tc) :=
  [ main_v195, main_v196, main_v197, main_v198, main_v199, main_v200, main_v201, main_v202,
    main_v203 ]
theorem seg20_writes : (seg20 : List (HloOp τ sig (Elt F))).Forall fun op => op.writes ⊆ (seg20_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS20 (V : Valuation τ sig (Elt F)) (r : Ref sig .tc) (h : r ∉ seg20_W) :
    after seg20 V (Proc.devRef .tc r) = V (Proc.devRef .tc r) := after_of_writes_sub seg20 V seg20_writes h

/-- Stage 21: operations 317 … 334 of @main. -/
abbrev seg21 : List (HloOp τ sig (Elt F)) :=
  [ StableHlo.binary main_v82 main_v134 main_v204 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.binary main_v83 main_v180 main_v205 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg16 main_v206 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v206 main_v207 rfl shapeCasts_S1x128x128_S128x128,
    StableHlo.unary main_arg17 main_v208 ((extractStridedSlice S1x128 ![0, 0] · slices_S4x128_S1x128_0_0) : (⟨S4x128, .f32⟩ : BufTy).Contents (Elt F) → (⟨S1x128, .f32⟩ : BufTy).Contents (Elt F)),
    StableHlo.reshape main_v208 main_v209 rfl shapeCasts_S1x128_S128,
    StableHlo.binary main_v5 main_v207 main_v210 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v210 main_v211 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v209 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S8192x128 ![0, 1] bcast_S1x128_S8192x128_0_1 : (⟨S1x128, .f32⟩ : BufTy).Contents (Elt F) → (⟨S8192x128, .f32⟩ : BufTy).Contents (Elt F)),
    StableHlo.binary main_v211 main_v213 main_v214 (addf : (⟨S8192x128, .f32⟩ : BufTy).Contents (Elt F) → (⟨S8192x128, .f32⟩ : BufTy).Contents (Elt F) → (⟨S8192x128, .f32⟩ : BufTy).Contents (Elt F)),
    StableHlo.nullary main_cst_19 (constant S_ .f32 0x00000000#32),
    StableHlo.unary main_cst_19 main_v215 (broadcastInDim S8192x128 ![] bcast_S_S8192x128 : (⟨S_, .f32⟩ : BufTy).Contents (Elt F) → (⟨S8192x128, .f32⟩ : BufTy).Contents (Elt F)),
    StableHlo.binary main_v214 main_v215 main_v216 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_20 (constant S_ .f32 0x3DCCCCCD#32),
    StableHlo.unary main_cst_20 main_v217 (broadcastInDim S8192x128 ![] bcast_S_S8192x128 : (⟨S_, .f32⟩ : BufTy).Contents (Elt F) → (⟨S8192x128, .f32⟩ : BufTy).Contents (Elt F)),
    StableHlo.binary main_v217 main_v214 main_v218 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v216) (.of main_v214) (.of main_v218) main_call16.v0 select ]
abbrev seg21_W : List (Ref sig .tc) :=
  [ main_v204, main_v205, main_v206, main_v207, main_v208, main_v209, main_v210, main_v211,
    main_v212, main_v213, main_v214, main_cst_19, main_v215, main_v216, main_cst_20, main_v217,
    main_v218, main_call16.v0.ref ]
theorem seg21_writes : (seg21 : List (HloOp τ sig (Elt F))).Forall fun op => op.writes ⊆ (seg21_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS21 (V : Valuation τ sig (Elt F)) (r : Ref sig .tc) (h : r ∉ seg21_W) :
    after seg21 V (Proc.devRef .tc r) = V (Proc.devRef .tc r) := after_of_writes_sub seg21 V seg21_writes h

/-- Stage 22: operations 335 … 350 of @main. -/
abbrev seg22 : List (HloOp τ sig (Elt F)) :=
  [ StableHlo.unary main_arg16 main_v220 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v220 main_v221 rfl shapeCasts_S1x128x128_S128x128,
    StableHlo.unary main_arg17 main_v222 ((extractStridedSlice S1x128 ![1, 0] · slices_S4x128_S1x128_1_0) : (⟨S4x128, .f32⟩ : BufTy).Contents (Elt F) → (⟨S1x128, .f32⟩ : BufTy).Contents (Elt F)),
    StableHlo.reshape main_v222 main_v223 rfl shapeCasts_S1x128_S128,
    StableHlo.binary main_v7 main_v221 main_v224 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v224 main_v225 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v223 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S4096x128 ![0, 1] bcast_S1x128_S4096x128_0_1 : (⟨S1x128, .f32⟩ : BufTy).Contents (Elt F) → (⟨S4096x128, .f32⟩ : BufTy).Contents (Elt F)),
    StableHlo.binary main_v225 main_v227 main_v228 (addf : (⟨S4096x128, .f32⟩ : BufTy).Contents (Elt F) → (⟨S4096x128, .f32⟩ : BufTy).Contents (Elt F) → (⟨S4096x128, .f32⟩ : BufTy).Contents (Elt F)),
    StableHlo.nullary main_cst_21 (constant S_ .f32 0x00000000#32),
    StableHlo.unary main_cst_21 main_v229 (broadcastInDim S4096x128 ![] bcast_S_S4096x128 : (⟨S_, .f32⟩ : BufTy).Contents (Elt F) → (⟨S4096x128, .f32⟩ : BufTy).Contents (Elt F)),
    StableHlo.binary main_v228 main_v229 main_v230 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_22 (constant S_ .f32 0x3DCCCCCD#32),
    StableHlo.unary main_cst_22 main_v231 (broadcastInDim S4096x128 ![] bcast_S_S4096x128 : (⟨S_, .f32⟩ : BufTy).Contents (Elt F) → (⟨S4096x128, .f32⟩ : BufTy).Contents (Elt F)),
    StableHlo.binary main_v231 main_v228 main_v232 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v230) (.of main_v228) (.of main_v232) main_call17.v0 select ]
abbrev seg22_W : List (Ref sig .tc) :=
  [ main_v220, main_v221, main_v222, main_v223, main_v224, main_v225, main_v226, main_v227,
    main_v228, main_cst_21, main_v229, main_v230, main_cst_22, main_v231, main_v232, main_call17.v0.ref ]
theorem seg22_writes : (seg22 : List (HloOp τ sig (Elt F))).Forall fun op => op.writes ⊆ (seg22_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS22 (V : Valuation τ sig (Elt F)) (r : Ref sig .tc) (h : r ∉ seg22_W) :
    after seg22 V (Proc.devRef .tc r) = V (Proc.devRef .tc r) := after_of_writes_sub seg22 V seg22_writes h

/-- Stage 23: operations 351 … 366 of @main. -/
abbrev seg23 : List (HloOp τ sig (Elt F)) :=
  [ StableHlo.unary main_arg16 main_v234 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v234 main_v235 rfl shapeCasts_S1x128x128_S128x128,
    StableHlo.unary main_arg17 main_v236 ((extractStridedSlice S1x128 ![2, 0] · slices_S4x128_S1x128_2_0) : (⟨S4x128, .f32⟩ : BufTy).Contents (Elt F) → (⟨S1x128, .f32⟩ : BufTy).Contents (Elt F)),
    StableHlo.reshape main_v236 main_v237 rfl shapeCasts_S1x128_S128,
    StableHlo.binary main_v219 main_v235 main_v238 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v238 main_v239 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v237 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S4096x128 ![0, 1] bcast_S1x128_S4096x128_0_1 : (⟨S1x128, .f32⟩ : BufTy).Contents (Elt F) → (⟨S4096x128, .f32⟩ : BufTy).Contents (Elt F)),
    StableHlo.binary main_v239 main_v241 main_v242 (addf : (⟨S4096x128, .f32⟩ : BufTy).Contents (Elt F) → (⟨S4096x128, .f32⟩ : BufTy).Contents (Elt F) → (⟨S4096x128, .f32⟩ : BufTy).Contents (Elt F)),
    StableHlo.nullary main_cst_23 (constant S_ .f32 0x00000000#32),
    StableHlo.unary main_cst_23 main_v243 (broadcastInDim S4096x128 ![] bcast_S_S4096x128 : (⟨S_, .f32⟩ : BufTy).Contents (Elt F) → (⟨S4096x128, .f32⟩ : BufTy).Contents (Elt F)),
    StableHlo.binary main_v242 main_v243 main_v244 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_24 (constant S_ .f32 0x3DCCCCCD#32),
    StableHlo.unary main_cst_24 main_v245 (broadcastInDim S4096x128 ![] bcast_S_S4096x128 : (⟨S_, .f32⟩ : BufTy).Contents (Elt F) → (⟨S4096x128, .f32⟩ : BufTy).Contents (Elt F)),
    StableHlo.binary main_v245 main_v242 main_v246 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v244) (.of main_v242) (.of main_v246) main_call18.v0 select ]
abbrev seg23_W : List (Ref sig .tc) :=
  [ main_v234, main_v235, main_v236, main_v237, main_v238, main_v239, main_v240, main_v241,
    main_v242, main_cst_23, main_v243, main_v244, main_cst_24, main_v245, main_v246, main_call18.v0.ref ]
theorem seg23_writes : (seg23 : List (HloOp τ sig (Elt F))).Forall fun op => op.writes ⊆ (seg23_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS23 (V : Valuation τ sig (Elt F)) (r : Ref sig .tc) (h : r ∉ seg23_W) :
    after seg23 V (Proc.devRef .tc r) = V (Proc.devRef .tc r) := after_of_writes_sub seg23 V seg23_writes h

/-- Stage 24: operations 367 … 382 of @main. -/
abbrev seg24 : List (HloOp τ sig (Elt F)) :=
  [ StableHlo.unary main_arg16 main_v248 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v248 main_v249 rfl shapeCasts_S1x128x128_S128x128,
    StableHlo.unary main_arg17 main_v250 ((extractStridedSlice S1x128 ![3, 0] · slices_S4x128_S1x128_3_0) : (⟨S4x128, .f32⟩ : BufTy).Contents (Elt F) → (⟨S1x128, .f32⟩ : BufTy).Contents (Elt F)),
    StableHlo.reshape main_v250 main_v251 rfl shapeCasts_S1x128_S128,
    StableHlo.binary main_v233 main_v249 main_v252 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v252 main_v253 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v251 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S8192x128 ![0, 1] bcast_S1x128_S8192x128_0_1 : (⟨S1x128, .f32⟩ : BufTy).Contents (Elt F) → (⟨S8192x128, .f32⟩ : BufTy).Contents (Elt F)),
    StableHlo.binary main_v253 main_v255 main_v256 (addf : (⟨S8192x128, .f32⟩ : BufTy).Contents (Elt F) → (⟨S8192x128, .f32⟩ : BufTy).Contents (Elt F) → (⟨S8192x128, .f32⟩ : BufTy).Contents (Elt F)),
    StableHlo.nullary main_cst_25 (constant S_ .f32 0x00000000#32),
    StableHlo.unary main_cst_25 main_v257 (broadcastInDim S8192x128 ![] bcast_S_S8192x128 : (⟨S_, .f32⟩ : BufTy).Contents (Elt F) → (⟨S8192x128, .f32⟩ : BufTy).Contents (Elt F)),
    StableHlo.binary main_v256 main_v257 main_v258 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_26 (constant S_ .f32 0x3DCCCCCD#32),
    StableHlo.unary main_cst_26 main_v259 (broadcastInDim S8192x128 ![] bcast_S_S8192x128 : (⟨S_, .f32⟩ : BufTy).Contents (Elt F) → (⟨S8192x128, .f32⟩ : BufTy).Contents (Elt F)),
    StableHlo.binary main_v259 main_v256 main_v260 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v258) (.of main_v256) (.of main_v260) main_call19.v0 select ]
abbrev seg24_W : List (Ref sig .tc) :=
  [ main_v248, main_v249, main_v250, main_v251, main_v252, main_v253, main_v254, main_v255,
    main_v256, main_cst_25, main_v257, main_v258, main_cst_26, main_v259, main_v260, main_call19.v0.ref ]
theorem seg24_writes : (seg24 : List (HloOp τ sig (Elt F))).Forall fun op => op.writes ⊆ (seg24_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS24 (V : Valuation τ sig (Elt F)) (r : Ref sig .tc) (h : r ∉ seg24_W) :
    after seg24 V (Proc.devRef .tc r) = V (Proc.devRef .tc r) := after_of_writes_sub seg24 V seg24_writes h

/-- Stage 25: operations 383 … 391 of @main. -/
abbrev seg25 : List (HloOp τ sig (Elt F)) :=
  [ StableHlo.binary main_v247 main_v5 main_v262 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg18 main_v263 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v263 main_v264 rfl shapeCasts_S1x256x128_S256x128,
    StableHlo.binary main_v262 main_v264 main_v265 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg19 main_v266 ((extractStridedSlice S1x128 ![0, 0] · slices_S2x128_S1x128_0_0) : (⟨S2x128, .f32⟩ : BufTy).Contents (Elt F) → (⟨S1x128, .f32⟩ : BufTy).Contents (Elt F)),
    StableHlo.reshape main_v266 main_v267 rfl shapeCasts_S1x128_S128,
    StableHlo.unary main_v267 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S4096x128 ![0, 1] bcast_S1x128_S4096x128_0_1 : (⟨S1x128, .f32⟩ : BufTy).Contents (Elt F) → (⟨S4096x128, .f32⟩ : BufTy).Contents (Elt F)),
    StableHlo.binary main_v265 main_v269 main_v270 (addf : (⟨S4096x128, .f32⟩ : BufTy).Contents (Elt F) → (⟨S4096x128, .f32⟩ : BufTy).Contents (Elt F) → (⟨S4096x128, .f32⟩ : BufTy).Contents (Elt F)) ]
abbrev seg25_W : List (Ref sig .tc) :=
  [ main_v262, main_v263, main_v264, main_v265, main_v266, main_v267, main_v268, main_v269,
    main_v270 ]
theorem seg25_writes : (seg25 : List (HloOp τ sig (Elt F))).Forall fun op => op.writes ⊆ (seg25_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS25 (V : Valuation τ sig (Elt F)) (r : Ref sig .tc) (h : r ∉ seg25_W) :
    after seg25 V (Proc.devRef .tc r) = V (Proc.devRef .tc r) := after_of_writes_sub seg25 V seg25_writes h

/-- Stage 26: operations 392 … 403 of @main. -/
abbrev seg26 : List (HloOp τ sig (Elt F)) :=
  [ StableHlo.binary main_v261 main_v7 main_v271 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg18 main_v272 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v272 main_v273 rfl shapeCasts_S1x256x128_S256x128,
    StableHlo.binary main_v271 main_v273 main_v274 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg19 main_v275 ((extractStridedSlice S1x128 ![1, 0] · slices_S2x128_S1x128_1_0) : (⟨S2x128, .f32⟩ : BufTy).Contents (Elt F) → (⟨S1x128, .f32⟩ : BufTy).Contents (Elt F)),
    StableHlo.reshape main_v275 main_v276 rfl shapeCasts_S1x128_S128,
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S8192x128 ![0, 1] bcast_S1x128_S8192x128_0_1 : (⟨S1x128, .f32⟩ : BufTy).Contents (Elt F) → (⟨S8192x128, .f32⟩ : BufTy).Contents (Elt F)),
    StableHlo.binary main_v274 main_v278 main_v279 (addf : (⟨S8192x128, .f32⟩ : BufTy).Contents (Elt F) → (⟨S8192x128, .f32⟩ : BufTy).Contents (Elt F) → (⟨S8192x128, .f32⟩ : BufTy).Contents (Elt F)),
    StableHlo.TRef.nullary main_call20.cst (constant S_ .f32 0x00000000#32),
    StableHlo.TRef.unary main_call20.cst main_call20.v0 (broadcastInDim S4096x128 ![] bcast_S_S4096x128),
    StableHlo.TRef.binary (.of main_v270) main_call20.v0 main_call20.v1 maximumf ]
abbrev seg26_W : List (Ref sig .tc) :=
  [ main_v271, main_v272, main_v273, main_v274, main_v275, main_v276, main_v277, main_v278,
    main_v279, main_call20.cst.ref, main_call20.v0.ref, main_call20.v1.ref ]
theorem seg26_writes : (seg26 : List (HloOp τ sig (Elt F))).Forall fun op => op.writes ⊆ (seg26_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS26 (V : Valuation τ sig (Elt F)) (r : Ref sig .tc) (h : r ∉ seg26_W) :
    after seg26 V (Proc.devRef .tc r) = V (Proc.devRef .tc r) := after_of_writes_sub seg26 V seg26_writes h

/-- Stage 27: operations 404 … 406 of @main. -/
abbrev seg27 : List (HloOp τ sig (Elt F)) :=
  [ StableHlo.TRef.nullary main_call21.cst (constant S_ .f32 0x00000000#32),
    StableHlo.TRef.unary main_call21.cst main_call21.v0 (broadcastInDim S8192x128 ![] bcast_S_S8192x128),
    StableHlo.TRef.binary (.of main_v279) main_call21.v0 main_call21.v1 maximumf ]
abbrev seg27_W : List (Ref sig .tc) :=
  [ main_call21.cst.ref, main_call21.v0.ref, main_call21.v1.ref ]
theorem seg27_writes : (seg27 : List (HloOp τ sig (Elt F))).Forall fun op => op.writes ⊆ (seg27_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS27 (V : Valuation τ sig (Elt F)) (r : Ref sig .tc) (h : r ∉ seg27_W) :
    after seg27 V (Proc.devRef .tc r) = V (Proc.devRef .tc r) := after_of_writes_sub seg27 V seg27_writes h

/-- Stage 28: operations 407 … 422 of @main. -/
abbrev seg28 : List (HloOp τ sig (Elt F)) :=
  [ StableHlo.unary main_arg20 main_v282 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v282 main_v283 rfl shapeCasts_S1x128x128_S128x128,
    StableHlo.unary main_arg21 main_v284 ((extractStridedSlice S1x128 ![0, 0] · slices_S6x128_S1x128_0_0) : (⟨S6x128, .f32⟩ : BufTy).Contents (Elt F) → (⟨S1x128, .f32⟩ : BufTy).Contents (Elt F)),
    StableHlo.reshape main_v284 main_v285 rfl shapeCasts_S1x128_S128,
    StableHlo.binary main_v280 main_v283 main_v286 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v286 main_v287 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v285 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S8192x128 ![0, 1] bcast_S1x128_S8192x128_0_1 : (⟨S1x128, .f32⟩ : BufTy).Contents (Elt F) → (⟨S8192x128, .f32⟩ : BufTy).Contents (Elt F)),
    StableHlo.binary main_v287 main_v289 main_v290 (addf : (⟨S8192x128, .f32⟩ : BufTy).Contents (Elt F) → (⟨S8192x128, .f32⟩ : BufTy).Contents (Elt F) → (⟨S8192x128, .f32⟩ : BufTy).Contents (Elt F)),
    StableHlo.nullary main_cst_27 (constant S_ .f32 0x00000000#32),
    StableHlo.unary main_cst_27 main_v291 (broadcastInDim S8192x128 ![] bcast_S_S8192x128 : (⟨S_, .f32⟩ : BufTy).Contents (Elt F) → (⟨S8192x128, .f32⟩ : BufTy).Contents (Elt F)),
    StableHlo.binary main_v290 main_v291 main_v292 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_28 (constant S_ .f32 0x3DCCCCCD#32),
    StableHlo.unary main_cst_28 main_v293 (broadcastInDim S8192x128 ![] bcast_S_S8192x128 : (⟨S_, .f32⟩ : BufTy).Contents (Elt F) → (⟨S8192x128, .f32⟩ : BufTy).Contents (Elt F)),
    StableHlo.binary main_v293 main_v290 main_v294 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v292) (.of main_v290) (.of main_v294) main_call22.v0 select ]
abbrev seg28_W : List (Ref sig .tc) :=
  [ main_v282, main_v283, main_v284, main_v285, main_v286, main_v287, main_v288, main_v289,
    main_v290, main_cst_27, main_v291, main_v292, main_cst_28, main_v293, main_v294, main_call22.v0.ref ]
theorem seg28_writes : (seg28 : List (HloOp τ sig (Elt F))).Forall fun op => op.writes ⊆ (seg28_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS28 (V : Valuation τ sig (Elt F)) (r : Ref sig .tc) (h : r ∉ seg28_W) :
    after seg28 V (Proc.devRef .tc r) = V (Proc.devRef .tc r) := after_of_writes_sub seg28 V seg28_writes h

/-- Stage 29: operations 423 … 438 of @main. -/
abbrev seg29 : List (HloOp τ sig (Elt F)) :=
  [ StableHlo.unary main_arg20 main_v296 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v296 main_v297 rfl shapeCasts_S1x128x128_S128x128,
    StableHlo.unary main_arg21 main_v298 ((extractStridedSlice S1x128 ![1, 0] · slices_S6x128_S1x128_1_0) : (⟨S6x128, .f32⟩ : BufTy).Contents (Elt F) → (⟨S1x128, .f32⟩ : BufTy).Contents (Elt F)),
    StableHlo.reshape main_v298 main_v299 rfl shapeCasts_S1x128_S128,
    StableHlo.binary main_v281 main_v297 main_v300 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v300 main_v301 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v299 main_v302 (broadcastInDim S1x128 ![1] bcast_S128_S1x128_1 : (⟨S128, .f32⟩ : BufTy).Contents (Elt F) → (⟨S1x128, .f32⟩ : BufTy).Contents (Elt F)),
    StableHlo.unary main_v302 main_v303 (broadcastInDim S4096x128 ![0, 1] bcast_S1x128_S4096x128_0_1 : (⟨S1x128, .f32⟩ : BufTy).Contents (Elt F) → (⟨S4096x128, .f32⟩ : BufTy).Contents (Elt F)),
    StableHlo.binary main_v301 main_v303 main_v304 (addf : (⟨S4096x128, .f32⟩ : BufTy).Contents (Elt F) → (⟨S4096x128, .f32⟩ : BufTy).Contents (Elt F) → (⟨S4096x128, .f32⟩ : BufTy).Contents (Elt F)),
    StableHlo.nullary main_cst_29 (constant S_ .f32 0x00000000#32),
    StableHlo.unary main_cst_29 main_v305 (broadcastInDim S4096x128 ![] bcast_S_S4096x128 : (⟨S_, .f32⟩ : BufTy).Contents (Elt F) → (⟨S4096x128, .f32⟩ : BufTy).Contents (Elt F)),
    StableHlo.binary main_v304 main_v305 main_v306 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_30 (constant S_ .f32 0x3DCCCCCD#32),
    StableHlo.unary main_cst_30 main_v307 (broadcastInDim S4096x128 ![] bcast_S_S4096x128 : (⟨S_, .f32⟩ : BufTy).Contents (Elt F) → (⟨S4096x128, .f32⟩ : BufTy).Contents (Elt F)),
    StableHlo.binary main_v307 main_v304 main_v308 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v306) (.of main_v304) (.of main_v308) main_call23.v0 select ]
abbrev seg29_W : List (Ref sig .tc) :=
  [ main_v296, main_v297, main_v298, main_v299, main_v300, main_v301, main_v302, main_v303,
    main_v304, main_cst_29, main_v305, main_v306, main_cst_30, main_v307, main_v308, main_call23.v0.ref ]
theorem seg29_writes : (seg29 : List (HloOp τ sig (Elt F))).Forall fun op => op.writes ⊆ (seg29_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS29 (V : Valuation τ sig (Elt F)) (r : Ref sig .tc) (h : r ∉ seg29_W) :
    after seg29 V (Proc.devRef .tc r) = V (Proc.devRef .tc r) := after_of_writes_sub seg29 V seg29_writes h

/-- Stage 30: operations 439 … 454 of @main. -/
abbrev seg30 : List (HloOp τ sig (Elt F)) :=
  [ StableHlo.unary main_arg20 main_v310 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v310 main_v311 rfl shapeCasts_S1x128x128_S128x128,
    StableHlo.unary main_arg21 main_v312 ((extractStridedSlice S1x128 ![2, 0] · slices_S6x128_S1x128_2_0) : (⟨S6x128, .f32⟩ : BufTy).Contents (Elt F) → (⟨S1x128, .f32⟩ : BufTy).Contents (Elt F)),
    StableHlo.reshape main_v312 main_v313 rfl shapeCasts_S1x128_S128,
    StableHlo.binary main_v295 main_v311 main_v314 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v314 main_v315 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v313 main_v316 (broadcastInDim S1x128 ![1] bcast_S128_S1x128_1 : (⟨S128, .f32⟩ : BufTy).Contents (Elt F) → (⟨S1x128, .f32⟩ : BufTy).Contents (Elt F)),
    StableHlo.unary main_v316 main_v317 (broadcastInDim S4096x128 ![0, 1] bcast_S1x128_S4096x128_0_1 : (⟨S1x128, .f32⟩ : BufTy).Contents (Elt F) → (⟨S4096x128, .f32⟩ : BufTy).Contents (Elt F)),
    StableHlo.binary main_v315 main_v317 main_v318 (addf : (⟨S4096x128, .f32⟩ : BufTy).Contents (Elt F) → (⟨S4096x128, .f32⟩ : BufTy).Contents (Elt F) → (⟨S4096x128, .f32⟩ : BufTy).Contents (Elt F)),
    StableHlo.nullary main_cst_31 (constant S_ .f32 0x00000000#32),
    StableHlo.unary main_cst_31 main_v319 (broadcastInDim S4096x128 ![] bcast_S_S4096x128 : (⟨S_, .f32⟩ : BufTy).Contents (Elt F) → (⟨S4096x128, .f32⟩ : BufTy).Contents (Elt F)),
    StableHlo.binary main_v318 main_v319 main_v320 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_32 (constant S_ .f32 0x3DCCCCCD#32),
    StableHlo.unary main_cst_32 main_v321 (broadcastInDim S4096x128 ![] bcast_S_S4096x128 : (⟨S_, .f32⟩ : BufTy).Contents (Elt F) → (⟨S4096x128, .f32⟩ : BufTy).Contents (Elt F)),
    StableHlo.binary main_v321 main_v318 main_v322 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v320) (.of main_v318) (.of main_v322) main_call24.v0 select ]
abbrev seg30_W : List (Ref sig .tc) :=
  [ main_v310, main_v311, main_v312, main_v313, main_v314, main_v315, main_v316, main_v317,
    main_v318, main_cst_31, main_v319, main_v320, main_cst_32, main_v321, main_v322, main_call24.v0.ref ]
theorem seg30_writes : (seg30 : List (HloOp τ sig (Elt F))).Forall fun op => op.writes ⊆ (seg30_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS30 (V : Valuation τ sig (Elt F)) (r : Ref sig .tc) (h : r ∉ seg30_W) :
    after seg30 V (Proc.devRef .tc r) = V (Proc.devRef .tc r) := after_of_writes_sub seg30 V seg30_writes h

/-- Stage 31: operations 455 … 463 of @main. -/
abbrev seg31 : List (HloOp τ sig (Elt F)) :=
  [ StableHlo.binary main_v323 main_v280 main_v324 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg22 main_v325 ((extractStridedSlice S1x256x128 ![0, 0, 0] · slices_S4x256x128_S1x256x128_0_0_0) : (⟨S4x256x128, .f32⟩ : BufTy).Contents (Elt F) → (⟨S1x256x128, .f32⟩ : BufTy).Contents (Elt F)),
    StableHlo.reshape main_v325 main_v326 rfl shapeCasts_S1x256x128_S256x128,
    StableHlo.binary main_v324 main_v326 main_v327 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg23 main_v328 ((extractStridedSlice S1x128 ![0, 0] · slices_S4x128_S1x128_0_0) : (⟨S4x128, .f32⟩ : BufTy).Contents (Elt F) → (⟨S1x128, .f32⟩ : BufTy).Contents (Elt F)),
    StableHlo.reshape main_v328 main_v329 rfl shapeCasts_S1x128_S128,
    StableHlo.unary main_v329 main_v330 (broadcastInDim S1x128 ![1] bcast_S128_S1x128_1 : (⟨S128, .f32⟩ : BufTy).Contents (Elt F) → (⟨S1x128, .f32⟩ : BufTy).Contents (Elt F)),
    StableHlo.unary main_v330 main_v331 (broadcastInDim S4096x128 ![0, 1] bcast_S1x128_S4096x128_0_1 : (⟨S1x128, .f32⟩ : BufTy).Contents (Elt F) → (⟨S4096x128, .f32⟩ : BufTy).Contents (Elt F)),
    StableHlo.binary main_v327 main_v331 main_v332 (addf : (⟨S4096x128, .f32⟩ : BufTy).Contents (Elt F) → (⟨S4096x128, .f32⟩ : BufTy).Contents (Elt F) → (⟨S4096x128, .f32⟩ : BufTy).Contents (Elt F)) ]
abbrev seg31_W : List (Ref sig .tc) :=
  [ main_v324, main_v325, main_v326, main_v327, main_v328, main_v329, main_v330, main_v331,
    main_v332 ]
theorem seg31_writes : (seg31 : List (HloOp τ sig (Elt F))).Forall fun op => op.writes ⊆ (seg31_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS31 (V : Valuation τ sig (Elt F)) (r : Ref sig .tc) (h : r ∉ seg31_W) :
    after seg31 V (Proc.devRef .tc r) = V (Proc.devRef .tc r) := after_of_writes_sub seg31 V seg31_writes h

/-- Stage 32: operations 464 … 479 of @main. -/
abbrev seg32 : List (HloOp τ sig (Elt F)) :=
  [ StableHlo.unary main_arg20 main_v333 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v333 main_v334 rfl shapeCasts_S1x128x128_S128x128,
    StableHlo.unary main_arg21 main_v335 ((extractStridedSlice S1x128 ![3, 0] · slices_S6x128_S1x128_3_0) : (⟨S6x128, .f32⟩ : BufTy).Contents (Elt F) → (⟨S1x128, .f32⟩ : BufTy).Contents (Elt F)),
    StableHlo.reshape main_v335 main_v336 rfl shapeCasts_S1x128_S128,
    StableHlo.binary main_v295 main_v334 main_v337 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.binary main_arg2 main_v337 main_v338 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    StableHlo.unary main_v336 main_v339 (broadcastInDim S1x128 ![1] bcast_S128_S1x128_1 : (⟨S128, .f32⟩ : BufTy).Contents (Elt F) → (⟨S1x128, .f32⟩ : BufTy).Contents (Elt F)),
    StableHlo.unary main_v339 main_v340 (broadcastInDim S4096x128 ![0, 1] bcast_S1x128_S4096x128_0_1 : (⟨S1x128, .f32⟩ : BufTy).Contents (Elt F) → (⟨S4096x128, .f32⟩ : BufTy).Contents (Elt F)),
    StableHlo.binary main_v338 main_v340 main_v341 (addf : (⟨S4096x128, .f32⟩ : BufTy).Contents (Elt F) → (⟨S4096x128, .f32⟩ : BufTy).Contents (Elt F) → (⟨S4096x128, .f32⟩ : BufTy).Contents (Elt F)),
    StableHlo.nullary main_cst_33 (constant S_ .f32 0x00000000#32),
    StableHlo.unary main_cst_33 main_v342 (broadcastInDim S4096x128 ![] bcast_S_S4096x128 : (⟨S_, .f32⟩ : BufTy).Contents (Elt F) → (⟨S4096x128, .f32⟩ : BufTy).Contents (Elt F)),
    StableHlo.binary main_v341 main_v342 main_v343 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_34 (constant S_ .f32 0x3DCCCCCD#32),
    StableHlo.unary main_cst_34 main_v344 (broadcastInDim S4096x128 ![] bcast_S_S4096x128 : (⟨S_, .f32⟩ : BufTy).Contents (Elt F) → (⟨S4096x128, .f32⟩ : BufTy).Contents (Elt F)),
    StableHlo.binary main_v344 main_v341 main_v345 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v343) (.of main_v341) (.of main_v345) main_call25.v0 select ]
abbrev seg32_W : List (Ref sig .tc) :=
  [ main_v333, main_v334, main_v335, main_v336, main_v337, main_v338, main_v339, main_v340,
    main_v341, main_cst_33, main_v342, main_v343, main_cst_34, main_v344, main_v345, main_call25.v0.ref ]
theorem seg32_writes : (seg32 : List (HloOp τ sig (Elt F))).Forall fun op => op.writes ⊆ (seg32_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS32 (V : Valuation τ sig (Elt F)) (r : Ref sig .tc) (h : r ∉ seg32_W) :
    after seg32 V (Proc.devRef .tc r) = V (Proc.devRef .tc r) := after_of_writes_sub seg32 V seg32_writes h

/-- Stage 33: operations 480 … 488 of @main. -/
abbrev seg33 : List (HloOp τ sig (Elt F)) :=
  [ StableHlo.binary main_v346 main_v280 main_v347 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.unary main_arg22 main_v348 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v348 main_v349 rfl shapeCasts_S1x256x128_S256x128,
    StableHlo.binary main_v347 main_v349 main_v350 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg23 main_v351 ((extractStridedSlice S1x128 ![1, 0] · slices_S4x128_S1x128_1_0) : (⟨S4x128, .f32⟩ : BufTy).Contents (Elt F) → (⟨S1x128, .f32⟩ : BufTy).Contents (Elt F)),
    StableHlo.reshape main_v351 main_v352 rfl shapeCasts_S1x128_S128,
    StableHlo.unary main_v352 main_v353 (broadcastInDim S1x128 ![1] bcast_S128_S1x128_1 : (⟨S128, .f32⟩ : BufTy).Contents (Elt F) → (⟨S1x128, .f32⟩ : BufTy).Contents (Elt F)),
    StableHlo.unary main_v353 main_v354 (broadcastInDim S4096x128 ![0, 1] bcast_S1x128_S4096x128_0_1 : (⟨S1x128, .f32⟩ : BufTy).Contents (Elt F) → (⟨S4096x128, .f32⟩ : BufTy).Contents (Elt F)),
    StableHlo.binary main_v350 main_v354 main_v355 (addf : (⟨S4096x128, .f32⟩ : BufTy).Contents (Elt F) → (⟨S4096x128, .f32⟩ : BufTy).Contents (Elt F) → (⟨S4096x128, .f32⟩ : BufTy).Contents (Elt F)) ]
abbrev seg33_W : List (Ref sig .tc) :=
  [ main_v347, main_v348, main_v349, main_v350, main_v351, main_v352, main_v353, main_v354,
    main_v355 ]
theorem seg33_writes : (seg33 : List (HloOp τ sig (Elt F))).Forall fun op => op.writes ⊆ (seg33_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS33 (V : Valuation τ sig (Elt F)) (r : Ref sig .tc) (h : r ∉ seg33_W) :
    after seg33 V (Proc.devRef .tc r) = V (Proc.devRef .tc r) := after_of_writes_sub seg33 V seg33_writes h

/-- Stage 34: operations 489 … 504 of @main. -/
abbrev seg34 : List (HloOp τ sig (Elt F)) :=
  [ StableHlo.unary main_arg20 main_v356 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v356 main_v357 rfl shapeCasts_S1x128x128_S128x128,
    StableHlo.unary main_arg21 main_v358 ((extractStridedSlice S1x128 ![4, 0] · slices_S6x128_S1x128_4_0) : (⟨S6x128, .f32⟩ : BufTy).Contents (Elt F) → (⟨S1x128, .f32⟩ : BufTy).Contents (Elt F)),
    StableHlo.reshape main_v358 main_v359 rfl shapeCasts_S1x128_S128,
    StableHlo.binary main_v309 main_v357 main_v360 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v360 main_v361 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v359 main_v362 (broadcastInDim S1x128 ![1] bcast_S128_S1x128_1 : (⟨S128, .f32⟩ : BufTy).Contents (Elt F) → (⟨S1x128, .f32⟩ : BufTy).Contents (Elt F)),
    StableHlo.unary main_v362 main_v363 (broadcastInDim S8192x128 ![0, 1] bcast_S1x128_S8192x128_0_1 : (⟨S1x128, .f32⟩ : BufTy).Contents (Elt F) → (⟨S8192x128, .f32⟩ : BufTy).Contents (Elt F)),
    StableHlo.binary main_v361 main_v363 main_v364 (addf : (⟨S8192x128, .f32⟩ : BufTy).Contents (Elt F) → (⟨S8192x128, .f32⟩ : BufTy).Contents (Elt F) → (⟨S8192x128, .f32⟩ : BufTy).Contents (Elt F)),
    StableHlo.nullary main_cst_35 (constant S_ .f32 0x00000000#32),
    StableHlo.unary main_cst_35 main_v365 (broadcastInDim S8192x128 ![] bcast_S_S8192x128 : (⟨S_, .f32⟩ : BufTy).Contents (Elt F) → (⟨S8192x128, .f32⟩ : BufTy).Contents (Elt F)),
    StableHlo.binary main_v364 main_v365 main_v366 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_36 (constant S_ .f32 0x3DCCCCCD#32),
    StableHlo.unary main_cst_36 main_v367 (broadcastInDim S8192x128 ![] bcast_S_S8192x128 : (⟨S_, .f32⟩ : BufTy).Contents (Elt F) → (⟨S8192x128, .f32⟩ : BufTy).Contents (Elt F)),
    StableHlo.binary main_v367 main_v364 main_v368 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v366) (.of main_v364) (.of main_v368) main_call26.v0 select ]
abbrev seg34_W : List (Ref sig .tc) :=
  [ main_v356, main_v357, main_v358, main_v359, main_v360, main_v361, main_v362, main_v363,
    main_v364, main_cst_35, main_v365, main_v366, main_cst_36, main_v367, main_v368, main_call26.v0.ref ]
theorem seg34_writes : (seg34 : List (HloOp τ sig (Elt F))).Forall fun op => op.writes ⊆ (seg34_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS34 (V : Valuation τ sig (Elt F)) (r : Ref sig .tc) (h : r ∉ seg34_W) :
    after seg34 V (Proc.devRef .tc r) = V (Proc.devRef .tc r) := after_of_writes_sub seg34 V seg34_writes h

/-- Stage 35: operations 505 … 513 of @main. -/
abbrev seg35 : List (HloOp τ sig (Elt F)) :=
  [ StableHlo.binary main_v369 main_v281 main_v370 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg22 main_v371 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v371 main_v372 rfl shapeCasts_S1x256x128_S256x128,
    StableHlo.binary main_v370 main_v372 main_v373 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg23 main_v374 ((extractStridedSlice S1x128 ![2, 0] · slices_S4x128_S1x128_2_0) : (⟨S4x128, .f32⟩ : BufTy).Contents (Elt F) → (⟨S1x128, .f32⟩ : BufTy).Contents (Elt F)),
    StableHlo.reshape main_v374 main_v375 rfl shapeCasts_S1x128_S128,
    StableHlo.unary main_v375 main_v376 (broadcastInDim S1x128 ![1] bcast_S128_S1x128_1 : (⟨S128, .f32⟩ : BufTy).Contents (Elt F) → (⟨S1x128, .f32⟩ : BufTy).Contents (Elt F)),
    StableHlo.unary main_v376 main_v377 (broadcastInDim S8192x128 ![0, 1] bcast_S1x128_S8192x128_0_1 : (⟨S1x128, .f32⟩ : BufTy).Contents (Elt F) → (⟨S8192x128, .f32⟩ : BufTy).Contents (Elt F)),
    StableHlo.binary main_v373 main_v377 main_v378 (addf : (⟨S8192x128, .f32⟩ : BufTy).Contents (Elt F) → (⟨S8192x128, .f32⟩ : BufTy).Contents (Elt F) → (⟨S8192x128, .f32⟩ : BufTy).Contents (Elt F)) ]
abbrev seg35_W : List (Ref sig .tc) :=
  [ main_v370, main_v371, main_v372, main_v373, main_v374, main_v375, main_v376, main_v377,
    main_v378 ]
theorem seg35_writes : (seg35 : List (HloOp τ sig (Elt F))).Forall fun op => op.writes ⊆ (seg35_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS35 (V : Valuation τ sig (Elt F)) (r : Ref sig .tc) (h : r ∉ seg35_W) :
    after seg35 V (Proc.devRef .tc r) = V (Proc.devRef .tc r) := after_of_writes_sub seg35 V seg35_writes h

/-- Stage 36: operations 514 … 529 of @main. -/
abbrev seg36 : List (HloOp τ sig (Elt F)) :=
  [ StableHlo.unary main_arg20 main_v379 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v379 main_v380 rfl shapeCasts_S1x128x128_S128x128,
    StableHlo.unary main_arg21 main_v381 ((extractStridedSlice S1x128 ![5, 0] · slices_S6x128_S1x128_5_0) : (⟨S6x128, .f32⟩ : BufTy).Contents (Elt F) → (⟨S1x128, .f32⟩ : BufTy).Contents (Elt F)),
    StableHlo.reshape main_v381 main_v382 rfl shapeCasts_S1x128_S128,
    StableHlo.binary main_v309 main_v380 main_v383 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.binary main_arg3 main_v383 main_v384 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    StableHlo.unary main_v382 main_v385 (broadcastInDim S1x128 ![1] bcast_S128_S1x128_1 : (⟨S128, .f32⟩ : BufTy).Contents (Elt F) → (⟨S1x128, .f32⟩ : BufTy).Contents (Elt F)),
    StableHlo.unary main_v385 main_v386 (broadcastInDim S8192x128 ![0, 1] bcast_S1x128_S8192x128_0_1 : (⟨S1x128, .f32⟩ : BufTy).Contents (Elt F) → (⟨S8192x128, .f32⟩ : BufTy).Contents (Elt F)),
    StableHlo.binary main_v384 main_v386 main_v387 (addf : (⟨S8192x128, .f32⟩ : BufTy).Contents (Elt F) → (⟨S8192x128, .f32⟩ : BufTy).Contents (Elt F) → (⟨S8192x128, .f32⟩ : BufTy).Contents (Elt F)),
    StableHlo.nullary main_cst_37 (constant S_ .f32 0x00000000#32),
    StableHlo.unary main_cst_37 main_v388 (broadcastInDim S8192x128 ![] bcast_S_S8192x128 : (⟨S_, .f32⟩ : BufTy).Contents (Elt F) → (⟨S8192x128, .f32⟩ : BufTy).Contents (Elt F)),
    StableHlo.binary main_v387 main_v388 main_v389 (cmpf .ogt : (⟨S8192x128, .f32⟩ : BufTy).Contents (Elt F) → (⟨S8192x128, .f32⟩ : BufTy).Contents (Elt F) → (⟨S8192x128, .i1⟩ : BufTy).Contents (Elt F)),
    StableHlo.nullary main_cst_38 (constant S_ .f32 0x3DCCCCCD#32),
    StableHlo.unary main_cst_38 main_v390 (broadcastInDim S8192x128 ![] bcast_S_S8192x128 : (⟨S_, .f32⟩ : BufTy).Contents (Elt F) → (⟨S8192x128, .f32⟩ : BufTy).Contents (Elt F)),
    StableHlo.binary main_v390 main_v387 main_v391 (mulf : (⟨S8192x128, .f32⟩ : BufTy).Contents (Elt F) → (⟨S8192x128, .f32⟩ : BufTy).Contents (Elt F) → (⟨S8192x128, .f32⟩ : BufTy).Contents (Elt F)),
    StableHlo.TRef.ternary (.of main_v389) (.of main_v387) (.of main_v391) main_call27.v0 select ]
abbrev seg36_W : List (Ref sig .tc) :=
  [ main_v379, main_v380, main_v381, main_v382, main_v383, main_v384, main_v385, main_v386,
    main_v387, main_cst_37, main_v388, main_v389, main_cst_38, main_v390, main_v391, main_call27.v0.ref ]
theorem seg36_writes : (seg36 : List (HloOp τ sig (Elt F))).Forall fun op => op.writes ⊆ (seg36_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS36 (V : Valuation τ sig (Elt F)) (r : Ref sig .tc) (h : r ∉ seg36_W) :
    after seg36 V (Proc.devRef .tc r) = V (Proc.devRef .tc r) := after_of_writes_sub seg36 V seg36_writes h

/-- Stage 37: operations 530 … 538 of @main. -/
abbrev seg37 : List (HloOp τ sig (Elt F)) :=
  [ StableHlo.binary main_v392 main_v281 main_v393 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_arg22 main_v394 ((extractStridedSlice S1x256x128 ![3, 0, 0] · slices_S4x256x128_S1x256x128_3_0_0) : (⟨S4x256x128, .f32⟩ : BufTy).Contents (Elt F) → (⟨S1x256x128, .f32⟩ : BufTy).Contents (Elt F)),
    StableHlo.reshape main_v394 main_v395 rfl shapeCasts_S1x256x128_S256x128,
    StableHlo.binary main_v393 main_v395 main_v396 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg23 main_v397 ((extractStridedSlice S1x128 ![3, 0] · slices_S4x128_S1x128_3_0) : (⟨S4x128, .f32⟩ : BufTy).Contents (Elt F) → (⟨S1x128, .f32⟩ : BufTy).Contents (Elt F)),
    StableHlo.reshape main_v397 main_v398 rfl shapeCasts_S1x128_S128,
    StableHlo.unary main_v398 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S8192x128 ![0, 1] bcast_S1x128_S8192x128_0_1 : (⟨S1x128, .f32⟩ : BufTy).Contents (Elt F) → (⟨S8192x128, .f32⟩ : BufTy).Contents (Elt F)),
    StableHlo.binary main_v396 main_v400 main_v401 (addf : (⟨S8192x128, .f32⟩ : BufTy).Contents (Elt F) → (⟨S8192x128, .f32⟩ : BufTy).Contents (Elt F) → (⟨S8192x128, .f32⟩ : BufTy).Contents (Elt F)) ]
abbrev seg37_W : List (Ref sig .tc) :=
  [ main_v393, main_v394, main_v395, main_v396, main_v397, main_v398, main_v399, main_v400,
    main_v401 ]
theorem seg37_writes : (seg37 : List (HloOp τ sig (Elt F))).Forall fun op => op.writes ⊆ (seg37_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS37 (V : Valuation τ sig (Elt F)) (r : Ref sig .tc) (h : r ∉ seg37_W) :
    after seg37 V (Proc.devRef .tc r) = V (Proc.devRef .tc r) := after_of_writes_sub seg37 V seg37_writes h

/-- Stage 38: operations 539 … 546 of @main. -/
abbrev seg38 : List (HloOp τ sig (Elt F)) :=
  [ StableHlo.binary main_v280 main_v332 main_v402 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.binary main_v281 main_v378 main_v403 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.unary main_v402 main_v404 ((extractStridedSlice S2048x256 ![0, 0] · slices_S4096x256_S2048x256_0_0) : (⟨S4096x256, .f32⟩ : BufTy).Contents (Elt F) → (⟨S2048x256, .f32⟩ : BufTy).Contents (Elt F)),
    StableHlo.unary main_v204 main_v405 ((extractStridedSlice S2048x256 ![2048, 0] · slices_S4096x256_S2048x256_2048_0) : (⟨S4096x256, .f32⟩ : BufTy).Contents (Elt F) → (⟨S2048x256, .f32⟩ : BufTy).Contents (Elt F)),
    StableHlo.binary main_v404 main_v405 main_v406 ((fun a b => concatenate S4096x256 0 [⟨S2048x256, a⟩, ⟨S2048x256, b⟩] concatenates_S2048x256_S2048x256_S4096x256_d0) : (⟨S2048x256, .f32⟩ : BufTy).Contents (Elt F) → (⟨S2048x256, .f32⟩ : BufTy).Contents (Elt F) → (⟨S4096x256, .f32⟩ : BufTy).Contents (Elt F)),
    StableHlo.unary main_v204 main_v407 ((extractStridedSlice S2048x256 ![0, 0] · slices_S4096x256_S2048x256_0_0) : (⟨S4096x256, .f32⟩ : BufTy).Contents (Elt F) → (⟨S2048x256, .f32⟩ : BufTy).Contents (Elt F)),
    StableHlo.unary main_v402 main_v408 ((extractStridedSlice S2048x256 ![2048, 0] · slices_S4096x256_S2048x256_2048_0) : (⟨S4096x256, .f32⟩ : BufTy).Contents (Elt F) → (⟨S2048x256, .f32⟩ : BufTy).Contents (Elt F)),
    StableHlo.binary main_v407 main_v408 main_v409 ((fun a b => concatenate S4096x256 0 [⟨S2048x256, a⟩, ⟨S2048x256, b⟩] concatenates_S2048x256_S2048x256_S4096x256_d0) : (⟨S2048x256, .f32⟩ : BufTy).Contents (Elt F) → (⟨S2048x256, .f32⟩ : BufTy).Contents (Elt F) → (⟨S4096x256, .f32⟩ : BufTy).Contents (Elt F)) ]
abbrev seg38_W : List (Ref sig .tc) :=
  [ main_v402, main_v403, main_v404, main_v405, main_v406, main_v407, main_v408, main_v409 ]
theorem seg38_writes : (seg38 : List (HloOp τ sig (Elt F))).Forall fun op => op.writes ⊆ (seg38_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keepS38 (V : Valuation τ sig (Elt F)) (r : Ref sig .tc) (h : r ∉ seg38_W) :
    after seg38 V (Proc.devRef .tc r) = V (Proc.devRef .tc r) := after_of_writes_sub seg38 V seg38_writes h

/-- The buffer contents after stages 0 … 0. -/
def Q0 (V : Valuation τ sig (Elt F)) : Valuation τ sig (Elt F) := after seg0 (V)
/-- The buffer contents after stages 0 … 1. -/
def Q1 (V : Valuation τ sig (Elt F)) : Valuation τ sig (Elt F) := after seg1 (Q0 V)
/-- The buffer contents after stages 0 … 2. -/
def Q2 (V : Valuation τ sig (Elt F)) : Valuation τ sig (Elt F) := after seg2 (Q1 V)
/-- The buffer contents after stages 0 … 3. -/
def Q3 (V : Valuation τ sig (Elt F)) : Valuation τ sig (Elt F) := after seg3 (Q2 V)
/-- The buffer contents after stages 0 … 4. -/
def Q4 (V : Valuation τ sig (Elt F)) : Valuation τ sig (Elt F) := after seg4 (Q3 V)
/-- The buffer contents after stages 0 … 5. -/
def Q5 (V : Valuation τ sig (Elt F)) : Valuation τ sig (Elt F) := after seg5 (Q4 V)
/-- The buffer contents after stages 0 … 6. -/
def Q6 (V : Valuation τ sig (Elt F)) : Valuation τ sig (Elt F) := after seg6 (Q5 V)
/-- The buffer contents after stages 0 … 7. -/
def Q7 (V : Valuation τ sig (Elt F)) : Valuation τ sig (Elt F) := after seg7 (Q6 V)
/-- The buffer contents after stages 0 … 8. -/
def Q8 (V : Valuation τ sig (Elt F)) : Valuation τ sig (Elt F) := after seg8 (Q7 V)
/-- The buffer contents after stages 0 … 9. -/
def Q9 (V : Valuation τ sig (Elt F)) : Valuation τ sig (Elt F) := after seg9 (Q8 V)
/-- The buffer contents after stages 0 … 10. -/
def Q10 (V : Valuation τ sig (Elt F)) : Valuation τ sig (Elt F) := after seg10 (Q9 V)
/-- The buffer contents after stages 0 … 11. -/
def Q11 (V : Valuation τ sig (Elt F)) : Valuation τ sig (Elt F) := after seg11 (Q10 V)
/-- The buffer contents after stages 0 … 12. -/
def Q12 (V : Valuation τ sig (Elt F)) : Valuation τ sig (Elt F) := after seg12 (Q11 V)
/-- The buffer contents after stages 0 … 13. -/
def Q13 (V : Valuation τ sig (Elt F)) : Valuation τ sig (Elt F) := after seg13 (Q12 V)
/-- The buffer contents after stages 0 … 14. -/
def Q14 (V : Valuation τ sig (Elt F)) : Valuation τ sig (Elt F) := after seg14 (Q13 V)
/-- The buffer contents after stages 0 … 15. -/
def Q15 (V : Valuation τ sig (Elt F)) : Valuation τ sig (Elt F) := after seg15 (Q14 V)
/-- The buffer contents after stages 0 … 16. -/
def Q16 (V : Valuation τ sig (Elt F)) : Valuation τ sig (Elt F) := after seg16 (Q15 V)
/-- The buffer contents after stages 0 … 17. -/
def Q17 (V : Valuation τ sig (Elt F)) : Valuation τ sig (Elt F) := after seg17 (Q16 V)
/-- The buffer contents after stages 0 … 18. -/
def Q18 (V : Valuation τ sig (Elt F)) : Valuation τ sig (Elt F) := after seg18 (Q17 V)
/-- The buffer contents after stages 0 … 19. -/
def Q19 (V : Valuation τ sig (Elt F)) : Valuation τ sig (Elt F) := after seg19 (Q18 V)
/-- The buffer contents after stages 0 … 20. -/
def Q20 (V : Valuation τ sig (Elt F)) : Valuation τ sig (Elt F) := after seg20 (Q19 V)
/-- The buffer contents after stages 0 … 21. -/
def Q21 (V : Valuation τ sig (Elt F)) : Valuation τ sig (Elt F) := after seg21 (Q20 V)
/-- The buffer contents after stages 0 … 22. -/
def Q22 (V : Valuation τ sig (Elt F)) : Valuation τ sig (Elt F) := after seg22 (Q21 V)
/-- The buffer contents after stages 0 … 23. -/
def Q23 (V : Valuation τ sig (Elt F)) : Valuation τ sig (Elt F) := after seg23 (Q22 V)
/-- The buffer contents after stages 0 … 24. -/
def Q24 (V : Valuation τ sig (Elt F)) : Valuation τ sig (Elt F) := after seg24 (Q23 V)
/-- The buffer contents after stages 0 … 25. -/
def Q25 (V : Valuation τ sig (Elt F)) : Valuation τ sig (Elt F) := after seg25 (Q24 V)
/-- The buffer contents after stages 0 … 26. -/
def Q26 (V : Valuation τ sig (Elt F)) : Valuation τ sig (Elt F) := after seg26 (Q25 V)
/-- The buffer contents after stages 0 … 27. -/
def Q27 (V : Valuation τ sig (Elt F)) : Valuation τ sig (Elt F) := after seg27 (Q26 V)
/-- The buffer contents after stages 0 … 28. -/
def Q28 (V : Valuation τ sig (Elt F)) : Valuation τ sig (Elt F) := after seg28 (Q27 V)
/-- The buffer contents after stages 0 … 29. -/
def Q29 (V : Valuation τ sig (Elt F)) : Valuation τ sig (Elt F) := after seg29 (Q28 V)
/-- The buffer contents after stages 0 … 30. -/
def Q30 (V : Valuation τ sig (Elt F)) : Valuation τ sig (Elt F) := after seg30 (Q29 V)
/-- The buffer contents after stages 0 … 31. -/
def Q31 (V : Valuation τ sig (Elt F)) : Valuation τ sig (Elt F) := after seg31 (Q30 V)
/-- The buffer contents after stages 0 … 32. -/
def Q32 (V : Valuation τ sig (Elt F)) : Valuation τ sig (Elt F) := after seg32 (Q31 V)
/-- The buffer contents after stages 0 … 33. -/
def Q33 (V : Valuation τ sig (Elt F)) : Valuation τ sig (Elt F) := after seg33 (Q32 V)
/-- The buffer contents after stages 0 … 34. -/
def Q34 (V : Valuation τ sig (Elt F)) : Valuation τ sig (Elt F) := after seg34 (Q33 V)
/-- The buffer contents after stages 0 … 35. -/
def Q35 (V : Valuation τ sig (Elt F)) : Valuation τ sig (Elt F) := after seg35 (Q34 V)
/-- The buffer contents after stages 0 … 36. -/
def Q36 (V : Valuation τ sig (Elt F)) : Valuation τ sig (Elt F) := after seg36 (Q35 V)
/-- The buffer contents after stages 0 … 37. -/
def Q37 (V : Valuation τ sig (Elt F)) : Valuation τ sig (Elt F) := after seg37 (Q36 V)
/-- The buffer contents after stages 0 … 38. -/
def Q38 (V : Valuation τ sig (Elt F)) : Valuation τ sig (Elt F) := after seg38 (Q37 V)

end Cert.ReferenceIdeal.Chain

end
-- ==== Proof.LibRowGatherScatter.lean ====
/-
  Reading, at an index, the two indexed operations a segment sum is built from: the row gather `x[col]` (an operand
  `[N, C]` or `[N]` read at a column `[E, 1]` of start indices) and the accumulating row scatter
  `segment_sum(msgs, row)` (updates `[E, C]` added into an operand `[N, C]` at a column `[E, 1]` of row indices).
  The gather clamps its start index into `[0, N − 1]`; the scatter reads it signed and drops a row that is out of range.
  Every statement is for arbitrary dimension numbers whose lists are the ones those two operations carry.
-/
import Idealize.ShloMosaic.Lib.ValueIdx
import Idealize.ShloMosaic.PureOps.Ideal.Laws

noncomputable section

open scoped BigOperators

namespace Idealize.ShloMosaic.RowGatherScatter

open Idealize.ShloMosaic Idealize.ShloMosaic.ValueIdx

/-! ## The row gather at an index -/

section Gather
variable {α : Type}

/-- THE ROW GATHER READ AT `(e, c)`: gathering whole rows of an `[N, C]` operand at a column `[E, 1]` of start
    indices gives, at row `e` and column `c`, the operand's element in column `c` of the row named by start index
    `e`, that index read as a signed integer and clamped into `[0, N − 1]`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, not batching, named by the start index map
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[1], [0], [], [], [0], 1, ![1, C], wf⟩ :
        GatherDims ⟨2, ![N, C]⟩ ⟨2, ![E, 1]⟩ ⟨2, ![E, C]⟩) (ix2 e c) ⟨p, hp⟩ = ix2 e 0 := by
      intro p hp
      obtain rfl : p = 0 := by omega
      funext b; refine Fin.ext ?_
      match b with
      | ⟨0, _⟩ => rfl
      | ⟨1, _⟩ => rfl
    rw [hsi]
    rfl
  | ⟨1, _⟩ =>
    -- the column axis: an offset axis, its start 0, its offset the result's column
    show GatherDims.start _ (ix2 e c) idx 1 + GatherDims.batchCoord _ (ix2 e c) 1 + GatherDims.offCoord _ (ix2 e c) 1 = c.val
    rw [GatherDims.batchCoord_eq_zero _ _ _ List.not_mem_nil]
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (show (1 : Fin 2) ∉ [(0 : Fin 2)] by decide)]
    rw [hs]
    simp only [Nat.add_zero, Nat.zero_add]
    rfl

/-- THE VECTOR GATHER READ AT `e`: gathering elements of an `[N]` operand at a column `[E, 1]` of start indices gives,
    at `e`, the operand's element at start index `e`, read as a signed integer and clamped into `[0, N − 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[], [0], [], [], [0], 1, ![1], wf⟩ :
        GatherDims ⟨1, ![N]⟩ ⟨2, ![E, 1]⟩ ⟨1, ![E]⟩) (ix1 e) ⟨p, hp⟩ = ix2 e 0 := by
      intro p hp
      obtain rfl : p = 0 := by omega
      funext b; refine Fin.ext ?_
      match b with
      | ⟨0, _⟩ => rfl
      | ⟨1, _⟩ => rfl
    rw [hsi]
    rfl

end Gather

/-! ## The accumulating row scatter at an index -/

section Scatter

/-- The row scatter's dimension numbers — updates `[E, C]` whose column axis is the window, the operand's row axis
    inserted and named by the one scatter index component — with their conditions an arbitrary proof. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update's scatter index, read signed. -/
theorem rows_start0 (idx : IVec ⟨2, ![E, 1]⟩ w) (e : Fin E) (c : Fin C) :
    (rowsDims N E C wf).start (ix2 e c) idx 0 = (idx (ix2 e 0)).toInt := by
  unfold ScatterDims.start
  rw [dif_pos (List.mem_singleton.mpr rfl)]
  have hsi : ∀ (p : Nat) (hp : p < 1), (rowsDims N E C wf).siIdx (ix2 e c) ⟨p, hp⟩ = ix2 e 0 := by
    intro p hp
    obtain rfl : p = 0 := by omega
    funext b; refine Fin.ext ?_
    match b with
    | ⟨0, _⟩ => rfl
    | ⟨1, _⟩ => rfl
  rw [hsi]

/-- On the column axis the window starts at 0. -/
theorem rows_start1 (idx : IVec ⟨2, ![E, 1]⟩ w) (e : Fin E) (c : Fin C) :
    (rowsDims N E C wf).start (ix2 e c) idx 1 = 0 := by
  unfold ScatterDims.start; rw [dif_neg (show (1 : Fin 2) ∉ [(0 : Fin 2)] by decide)]

/-- The row axis is inserted: no window coordinate. -/
theorem rows_window0 (e : Fin E) (c : Fin C) : (rowsDims N E C wf).window (ix2 e c) 0 = 0 := by
  unfold ScatterDims.window
  have h0 : (0 : Fin 2) ∉ (List.finRange 2).filter (· ∉ [(0 : Fin 2)]) := by decide
  exact dif_neg h0

/-- The column axis's window coordinate is the update's column. -/
theorem rows_window1 (e : Fin E) (c : Fin C) : (rowsDims N E C wf).window (ix2 e c) 1 = c.val := rfl

/-- WHERE AN UPDATE LANDS, for those dimension numbers: update `(e, c)` lands on operand element `(n, c')` exactly when
    the columns agree and the update's scatter index, read signed, is `n`. -/
theorem rows_resultIdx (idx : IVec ⟨2, ![E, 1]⟩ w) (e : Fin E) (c c' : Fin C) (n : Fin N) :
    (rowsDims N E C wf).resultIdx? (ix2 e c) idx = some (ix2 n c') ↔
      (c = c' ∧ (idx (ix2 e 0)).toInt = (n.val : ℤ)) := by
  unfold ScatterDims.resultIdx?
  constructor
  · intro h
    split at h
    · rename_i hall
      have hf := Option.some.inj h
      have h0 : ((rowsDims N E C wf).start (ix2 e c) idx 0 + ((rowsDims N E C wf).window (ix2 e c) 0 : ℕ)).toNat = n.val :=
        congrArg Fin.val (congrFun hf 0)
      have h1 : ((rowsDims N E C wf).start (ix2 e c) idx 1 + ((rowsDims N E C wf).window (ix2 e c) 1 : ℕ)).toNat = c'.val :=
        congrArg Fin.val (congrFun hf 1)
      have hr0 := (hall 0).1
      rw [rows_start0, rows_window0] at h0 hr0
      rw [rows_start1, rows_window1] at h1
      exact ⟨Fin.ext (by omega), by omega⟩
    · cases h
  · rintro ⟨rfl, hq⟩
    have hall : ∀ a, 0 ≤ (rowsDims N E C wf).start (ix2 e c) idx a + ((rowsDims N E C wf).window (ix2 e c) a : ℕ) ∧
        (rowsDims N E C wf).start (ix2 e c) idx a + ((rowsDims N E C wf).window (ix2 e c) a : ℕ) <
          ((⟨2, ![N, C]⟩ : Shape).size a : ℕ) := by
      intro a
      match a with
      | ⟨0, _⟩ =>
        show 0 ≤ (rowsDims N E C wf).start (ix2 e c) idx 0 + ((rowsDims N E C wf).window (ix2 e c) 0 : ℕ) ∧
          (rowsDims N E C wf).start (ix2 e c) idx 0 + ((rowsDims N E C wf).window (ix2 e c) 0 : ℕ) < (N : ℤ)
        rw [rows_start0, rows_window0, hq]
        have := n.isLt
        constructor <;> omega
      | ⟨1, _⟩ =>
        show 0 ≤ (rowsDims N E C wf).start (ix2 e c) idx 1 + ((rowsDims N E C wf).window (ix2 e c) 1 : ℕ) ∧
          (rowsDims N E C wf).start (ix2 e c) idx 1 + ((rowsDims N E C wf).window (ix2 e c) 1 : ℕ) < (C : ℤ)
        rw [rows_start1, rows_window1]
        have := c.isLt
        constructor <;> omega
    rw [dif_pos hall]
    congr 1
    funext a
    refine Fin.ext ?_
    match a with
    | ⟨0, _⟩ =>
      show ((rowsDims N E C wf).start (ix2 e c) idx 0 + ((rowsDims N E C wf).window (ix2 e c) 0 : ℕ)).toNat = n.val
      rw [rows_start0, rows_window0, hq]
      omega
    | ⟨1, _⟩ =>
      show ((rowsDims N E C wf).start (ix2 e c) idx 1 + ((rowsDims N E C wf).window (ix2 e c) 1 : ℕ)).toNat = c.val
      rw [rows_start1, rows_window1]
      omega

omit wf in
/-- WHERE AN UPDATE LANDS in the accumulating row scatter: update `(e, c)` lands on operand element `(n, c')` exactly
    when the columns agree and the update's scatter index, read as a signed integer and NOT clamped, is `n`; an update
    whose index is negative or at least `N` lands nowhere. -/
theorem scatter_rows_resultIdx (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c c' : Fin C) (n : Fin N) :
    d.resultIdx? (ix2 e c) idx = some (ix2 n c') ↔ (c = c' ∧ (idx (ix2 e 0)).toInt = (n.val : ℤ)) := by
  obtain ⟨uw, iw, sd, iv, wf'⟩ := d
  simp only at h1 h2 h3 h4
  subst h1 h2 h3 h4
  exact rows_resultIdx wf' idx e c c' n

omit wf in
/-- THE ACCUMULATING ROW SCATTER READ AT `(n, c)`, over the extended reals: the operand's element plus the sum of
    column `c` of the update rows whose scatter index, read signed, is `n` — the segment sum of the updates over the
    rows sent to `n`. Rows with an out-of-range index contribute to no element. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) =
      x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun a _ => ?_
  have key : ∀ b : Fin C, (if d.resultIdx? (ix2 a b) idx = some (ix2 n c) then upd (ix2 a b) else 0) =
      if b = c then (if (idx (ix2 a 0)).toInt = (n.val : ℤ) then upd (ix2 a c) else 0) else 0 := by
    intro b
    by_cases hb : b = c
    · subst hb
      by_cases hq : (idx (ix2 a 0)).toInt = (n.val : ℤ)
      · rw [if_pos ((scatter_rows_resultIdx d h1 h2 h3 h4 idx a b b n).mpr ⟨rfl, hq⟩), if_pos rfl, if_pos hq]
      · rw [if_neg (fun h => hq ((scatter_rows_resultIdx d h1 h2 h3 h4 idx a b b n).mp h).2), if_pos rfl, if_neg hq]
    · rw [if_neg (fun h => hb ((scatter_rows_resultIdx d h1 h2 h3 h4 idx a b c n).mp h).1), if_neg hb]
  rw [Finset.sum_congr rfl (fun b _ => key b), Finset.sum_ite_eq' Finset.univ c, if_pos (Finset.mem_univ c)]

end Scatter

end Idealize.ShloMosaic.RowGatherScatter

end
-- ==== Proof.LibTakeArange.lean ====
/-
  Taking the rows of an array at the row numbers themselves gives the array back.

  \`take(x, arange(N), axis = 0)\` of an \`[N, C]\` array is lowered to a row gather at a column \`[N, 1]\` of start
  indices, guarded by a mask: the start index of row \`p\` is the word of \`p\` (a negative word would first be
  wrapped by adding \`N\`), the mask says row by row whether that index lies in \`[0, N − 1]\`, and where the mask is
  off the result is a fill value. For \`0 < N < 2³¹\` the word of \`p < N\` is nonnegative as a signed word, so
  nothing is wrapped; it lies in \`[0, N − 1]\`, so the mask is on everywhere and the fill is never read; and the
  gather, which clamps the start index into \`[0, N − 1]\`, reads row \`p\` itself. The result is the operand.
  Every statement is for an arbitrary element type, arbitrary extents and arbitrary dimension numbers whose
  lists are the ones a row gather carries.
-/
import Idealize.ShloMosaic.Lib.ValueIdx
import Idealize.ShloMosaic.Lib.ReduceAll
import proofs.«177232_g71837622993359_cont_sun_m_41_3_alg».proof.Proof.LibRowGatherScatter

namespace Cert.TakeArange

open Idealize.ShloMosaic Idealize.ShloMosaic.ValueIdx Idealize.ShloMosaic.RowGatherScatter

/-! ## Words -/

/-- The 32-bit word of a natural number below \`2³¹\`, read signed, is that number. -/
theorem toInt_ofNat_of_lt {p : Nat} (hp : p < 2 ^ 31) : (BitVec.ofNat 32 p).toInt = (p : ℤ) := by
  rw [BitVec.toInt_eq_toNat_of_lt (by rw [BitVec.toNat_ofNat]; omega), BitVec.toNat_ofNat]
  omega

/-- A left fold by \`and\` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    refine foldl_andi_one f l _ ?_ (fun n hn => hl n (List.mem_cons_of_mem _ hn))
    show IntOp.andi init (f a) = 1#1
    rw [h, hl a (List.mem_cons.2 (Or.inl rfl))]
    decide

/-! ## The two broadcasts along the row axis -/

/-- A vector \`[N]\` broadcast to a column \`[N, 1]\` along axis 0 reads, at row \`p\`, the vector's element \`p\`. -/
theorem bcast_col_apply {α : Type} {N : Nat}
    (hb : (⟨1, ![N]⟩ : Shape).BroadcastsInDim ⟨2, ![N, 1]⟩ ![0])
    (v : (⟨1, ![N]⟩ : Shape).Idx → α) (p : Fin N) (q : Fin 1) :
    broadcastInDim ⟨2, ![N, 1]⟩ ![0] hb v (ix2 p q) = v (ix1 p) := by
  unfold broadcastInDim
  refine congrArg v (funext fun a => ?_)
  match a with
  | ⟨0, h0⟩ =>
    refine Fin.ext ?_
    by_cases h1 : (⟨1, ![N]⟩ : Shape).size ⟨0, h0⟩ = 1
    · rw [dif_pos h1]
      have hN1 : N = 1 := h1
      have := p.isLt
      show 0 = p.val
      omega
    · rw [dif_neg h1]
      rfl

/-- A broadcast of an array that is 1 everywhere is 1 everywhere. -/
theorem bcast_eq_one {s t : Shape} (dims : Fin s.rank → Fin t.rank) (hb : s.BroadcastsInDim t dims)
    (m : IVec s 1) (hm : ∀ k, m k = 1#1) (j : t.Idx) : broadcastInDim t dims hb m j = 1#1 := by
  unfold broadcastInDim
  exact hm _

/-! ## The start indices -/

/-- THE START INDICES: the iota along the rows, with \`N\` added where its word is negative, broadcast to a column,
    reads at row \`p\` the word of \`p\` — for \`N < 2³¹\` no row number is negative as a signed word, so the wrapped
    branch is never taken (and its addend plays no part). -/
theorem wrapped_iota_apply {N : Nat} (hN31 : N < 2 ^ 31)
    (io Z NN : IVec ⟨1, ![N]⟩ 32) (hio : ∀ i, io i = BitVec.ofNat 32 (i 0).val) (hZ : ∀ i, Z i = 0#32)
    (hb : (⟨1, ![N]⟩ : Shape).BroadcastsInDim ⟨2, ![N, 1]⟩ ![0]) (p : Fin N) :
    broadcastInDim ⟨2, ![N, 1]⟩ ![0] hb (select (cmpi .slt io Z) (addi io NN) io) (ix2 p 0)
      = BitVec.ofNat 32 p.val := by
  have hio' : io (ix1 p) = BitVec.ofNat 32 p.val := hio (ix1 p)
  have hc : IntOp.cmpi .slt (io (ix1 p)) (Z (ix1 p)) = 0#1 := by
    refine eq_zero_of_ne_one fun h => ?_
    have hlt := IntOp.cmpi_slt.1 h
    rw [hio', hZ, toInt_ofNat_of_lt (by have := p.isLt; omega),
      show (0#32 : BitVec 32).toInt = 0 from by decide] at hlt
    omega
  refine (bcast_col_apply hb _ p 0).trans ?_
  show Scalar.select (IntOp.cmpi .slt (io (ix1 p)) (Z (ix1 p))) _ (io (ix1 p)) = _
  rw [hc, select_zero, hio']

/-! ## The guarded gather -/

/-- TAKING THE ROWS AT THE ROW NUMBERS, the start indices any column that reads the word of \`p\` at row \`p\`:
    the mask — per row, the \`and\` over the one column of "the index is at least 0 and at most \`N − 1\`", from 1,
    broadcast along the columns — is on everywhere, and the row gather reads row \`p\` at row \`p\`; so the
    guarded gather is the operand, whatever the fill. -/
theorem take_arange_eq {α : Type} {N C : Nat} (hN : 0 < N) (hN31 : N < 2 ^ 31)
    (d : GatherDims ⟨2, ![N, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec ⟨2, ![N, 1]⟩ 32) (hidx : ∀ p : Fin N, idx (ix2 p 0) = BitVec.ofNat 32 p.val)
    (Z1 MX : IVec ⟨2, ![N, 1]⟩ 32) (hZ1 : ∀ i, Z1 i = 0#32) (hMX : ∀ i, MX i = BitVec.ofNat 32 (N - 1))
    (T : IVec ⟨0, ![]⟩ 1) (hT : ∀ i, T i = 1#1)
    (hred : (⟨2, ![N, 1]⟩ : Shape).ReducesTo [1] ⟨1, ![N]⟩) (hu : 0 < (⟨0, ![]⟩ : Shape).numel)
    (hbM : (⟨1, ![N]⟩ : Shape).BroadcastsInDim ⟨2, ![N, C]⟩ ![0])
    (x fill : (⟨2, ![N, C]⟩ : Shape).Idx → α) :
    select
        (broadcastInDim ⟨2, ![N, C]⟩ ![0] hbM
          (Host.reduce IntOp.andi (andi (cmpi .sge idx Z1) (cmpi .sle idx MX)) T hred hu))
        (Host.gather d x idx) fill
      = x := by
  -- every row's start index, read signed, is the row number
  have hrow : ∀ p : Fin N, (idx (ix2 p 0)).toInt = (p.val : ℤ) := fun p => by
    rw [hidx p]; exact toInt_ofNat_of_lt (by have := p.isLt; omega)
  -- so both comparisons hold at every element of the column
  have hm : ∀ i, andi (cmpi .sge idx Z1) (cmpi .sle idx MX) i = 1#1 := by
    intro i
    obtain ⟨p, q, rfl⟩ : ∃ (p : Fin N) (q : Fin 1), i = ix2 p q := ⟨i 0, i 1, eq_ix2 i⟩
    obtain rfl : q = 0 := Subsingleton.elim q 0
    show IntOp.andi (IntOp.cmpi .sge (idx (ix2 p 0)) (Z1 (ix2 p 0)))
      (IntOp.cmpi .sle (idx (ix2 p 0)) (MX (ix2 p 0))) = 1#1
    rw [IntOp.andi_eq_one, IntOp.cmpi_sge, IntOp.cmpi_sle, hZ1, hMX, hrow,
      show (0#32 : BitVec 32).toInt = 0 from by decide, toInt_ofNat_of_lt (p := N - 1) (by omega)]
    have := p.isLt
    constructor <;> omega
  -- the and-reduction of the column is 1 at every row
  have hall : ∀ j, Host.reduce IntOp.andi (andi (cmpi .sge idx Z1) (cmpi .sle idx MX)) T hred hu j = 1#1 := by
    intro j
    rw [Host.reduce_eq_foldl]
    exact foldl_andi_one _ _ _ (hT _) (fun n _ => hm n)
  funext j
  obtain ⟨p, q, rfl⟩ : ∃ (p : Fin N) (q : Fin C), j = ix2 p q := ⟨j 0, j 1, eq_ix2 j⟩
  rw [select_apply, bcast_eq_one _ hbM _ hall, select_one]
  refine (gather_rows_apply hN d h1 h2 h3 h4 h5 h6 h7 x idx p q).trans ?_
  refine congrArg (fun r => x (ix2 r q)) (Fin.ext ?_)
  show min (idx (ix2 p 0)).toInt.toNat (N - 1) = p.val
  rw [hrow p]
  have := p.isLt
  omega

/-- TAKING THE ROWS AT THE ROW NUMBERS, the start indices the wrapped iota: \`take_arange_eq\` at the column
    \`wrapped_iota_apply\` reads. -/
theorem take_arange_wrapped_eq {α : Type} {N C : Nat} (hN : 0 < N) (hN31 : N < 2 ^ 31)
    (d : GatherDims ⟨2, ![N, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (io Z NN : IVec ⟨1, ![N]⟩ 32) (hio : ∀ i, io i = BitVec.ofNat 32 (i 0).val) (hZ : ∀ i, Z i = 0#32)
    (hbI : (⟨1, ![N]⟩ : Shape).BroadcastsInDim ⟨2, ![N, 1]⟩ ![0])
    (Z1 MX : IVec ⟨2, ![N, 1]⟩ 32) (hZ1 : ∀ i, Z1 i = 0#32) (hMX : ∀ i, MX i = BitVec.ofNat 32 (N - 1))
    (T : IVec ⟨0, ![]⟩ 1) (hT : ∀ i, T i = 1#1)
    (hred : (⟨2, ![N, 1]⟩ : Shape).ReducesTo [1] ⟨1, ![N]⟩) (hu : 0 < (⟨0, ![]⟩ : Shape).numel)
    (hbM : (⟨1, ![N]⟩ : Shape).BroadcastsInDim ⟨2, ![N, C]⟩ ![0])
    (x fill : (⟨2, ![N, C]⟩ : Shape).Idx → α) :
    select
        (broadcastInDim ⟨2, ![N, C]⟩ ![0] hbM
          (Host.reduce IntOp.andi
            (andi
              (cmpi .sge (broadcastInDim ⟨2, ![N, 1]⟩ ![0] hbI (select (cmpi .slt io Z) (addi io NN) io)) Z1)
              (cmpi .sle (broadcastInDim ⟨2, ![N, 1]⟩ ![0] hbI (select (cmpi .slt io Z) (addi io NN) io)) MX))
            T hred hu))
        (Host.gather d x (broadcastInDim ⟨2, ![N, 1]⟩ ![0] hbI (select (cmpi .slt io Z) (addi io NN) io))) fill
      = x :=
  take_arange_eq hN hN31 d h1 h2 h3 h4 h5 h6 h7 _ (wrapped_iota_apply hN31 io Z NN hio hZ hbI)
    Z1 MX hZ1 hMX T hT hred hu hbM x fill

end Cert.TakeArange
-- ==== Proof.RChainVal.lean ====
/-
  The idealized reference's buffers as the encoder model's values. A row lookup at the indices 0, 1, …, N − 1 is the
  table itself; a graph convolution stage is the leaky-rectified `adj · (x · w) + b`; a union stage multiplies the
  side-by-side pair [z | x] by a stacked weight, which is `z · top + x · bottom`; a rectifier stage is the maximum
  against zero. Each stage's output is read where the stage produces it and kept through the later stages.
-/
import proofs.«177232_g71837622993359_cont_sun_m_41_3_alg».proof.Proof.RChainBase
import proofs.«177232_g71837622993359_cont_sun_m_41_3_alg».proof.Proof.Spec
import proofs.«177232_g71837622993359_cont_sun_m_41_3_alg».proof.Proof.HostForms
import proofs.«177232_g71837622993359_cont_sun_m_41_3_alg».proof.Proof.LibTakeArange

set_option maxRecDepth 16384

noncomputable section

namespace Cert.ReferenceIdeal.Chain

open Cert.ReferenceIdeal Cert.ReferenceIdeal.Gen Idealize.ShloMosaic Idealize.ShloMosaic.TcCoe Idealize.ShloMosaic.ValueIdx
open Idealize.SL.Sem Idealize.ShloMosaic.StableHlo Cert.Spec Cert.HostForms

/-- The source domain's twelve arrays in the contents `V`. -/
def domS (V : Valuation τ sig (Elt Ideal)) : Dom 4096 8192 where
  UV := V (Proc.devRef .tc main_arg0)
  VU := V (Proc.devRef .tc main_arg1)
  xu := V (Proc.devRef .tc main_arg4)
  xv := V (Proc.devRef .tc main_arg5)
  dW := V (Proc.devRef .tc main_arg8)
  db := V (Proc.devRef .tc main_arg9)
  uW := V (Proc.devRef .tc main_arg10)
  ub := V (Proc.devRef .tc main_arg11)
  lW := V (Proc.devRef .tc main_arg12)
  lb := V (Proc.devRef .tc main_arg13)
  luW := V (Proc.devRef .tc main_arg14)
  lub := V (Proc.devRef .tc main_arg15)

/-- The target domain's twelve arrays in the contents `V`. -/
def domT (V : Valuation τ sig (Elt Ideal)) : Dom 4096 8192 where
  UV := V (Proc.devRef .tc main_arg2)
  VU := V (Proc.devRef .tc main_arg3)
  xu := V (Proc.devRef .tc main_arg6)
  xv := V (Proc.devRef .tc main_arg7)
  dW := V (Proc.devRef .tc main_arg16)
  db := V (Proc.devRef .tc main_arg17)
  uW := V (Proc.devRef .tc main_arg18)
  ub := V (Proc.devRef .tc main_arg19)
  lW := V (Proc.devRef .tc main_arg20)
  lb := V (Proc.devRef .tc main_arg21)
  luW := V (Proc.devRef .tc main_arg22)
  lub := V (Proc.devRef .tc main_arg23)

theorem atR_main_arg2_init (V : Valuation τ sig (Elt Ideal)) : V (Proc.devRef .tc main_arg2) = (domT V).UV := rfl

theorem atR_main_arg2_0 (V : Valuation τ sig (Elt Ideal)) : Q0 V (Proc.devRef .tc main_arg2) = (domT V).UV :=
  (keepS0 (V) main_arg2 (by decide)).trans (atR_main_arg2_init V)

theorem atR_main_arg2_1 (V : Valuation τ sig (Elt Ideal)) : Q1 V (Proc.devRef .tc main_arg2) = (domT V).UV :=
  (keepS1 (Q0 V) main_arg2 (by decide)).trans (atR_main_arg2_0 V)

theorem atR_main_arg2_2 (V : Valuation τ sig (Elt Ideal)) : Q2 V (Proc.devRef .tc main_arg2) = (domT V).UV :=
  (keepS2 (Q1 V) main_arg2 (by decide)).trans (atR_main_arg2_1 V)

theorem atR_main_arg2_3 (V : Valuation τ sig (Elt Ideal)) : Q3 V (Proc.devRef .tc main_arg2) = (domT V).UV :=
  (keepS3 (Q2 V) main_arg2 (by decide)).trans (atR_main_arg2_2 V)

theorem atR_main_arg2_4 (V : Valuation τ sig (Elt Ideal)) : Q4 V (Proc.devRef .tc main_arg2) = (domT V).UV :=
  (keepS4 (Q3 V) main_arg2 (by decide)).trans (atR_main_arg2_3 V)

theorem atR_main_arg2_5 (V : Valuation τ sig (Elt Ideal)) : Q5 V (Proc.devRef .tc main_arg2) = (domT V).UV :=
  (keepS5 (Q4 V) main_arg2 (by decide)).trans (atR_main_arg2_4 V)

theorem atR_main_arg2_6 (V : Valuation τ sig (Elt Ideal)) : Q6 V (Proc.devRef .tc main_arg2) = (domT V).UV :=
  (keepS6 (Q5 V) main_arg2 (by decide)).trans (atR_main_arg2_5 V)

theorem atR_main_arg2_7 (V : Valuation τ sig (Elt Ideal)) : Q7 V (Proc.devRef .tc main_arg2) = (domT V).UV :=
  (keepS7 (Q6 V) main_arg2 (by decide)).trans (atR_main_arg2_6 V)

theorem atR_main_arg2_8 (V : Valuation τ sig (Elt Ideal)) : Q8 V (Proc.devRef .tc main_arg2) = (domT V).UV :=
  (keepS8 (Q7 V) main_arg2 (by decide)).trans (atR_main_arg2_7 V)

theorem atR_main_arg2_9 (V : Valuation τ sig (Elt Ideal)) : Q9 V (Proc.devRef .tc main_arg2) = (domT V).UV :=
  (keepS9 (Q8 V) main_arg2 (by decide)).trans (atR_main_arg2_8 V)

theorem atR_main_arg2_10 (V : Valuation τ sig (Elt Ideal)) : Q10 V (Proc.devRef .tc main_arg2) = (domT V).UV :=
  (keepS10 (Q9 V) main_arg2 (by decide)).trans (atR_main_arg2_9 V)

theorem atR_main_arg2_11 (V : Valuation τ sig (Elt Ideal)) : Q11 V (Proc.devRef .tc main_arg2) = (domT V).UV :=
  (keepS11 (Q10 V) main_arg2 (by decide)).trans (atR_main_arg2_10 V)

theorem atR_main_arg2_12 (V : Valuation τ sig (Elt Ideal)) : Q12 V (Proc.devRef .tc main_arg2) = (domT V).UV :=
  (keepS12 (Q11 V) main_arg2 (by decide)).trans (atR_main_arg2_11 V)

theorem atR_main_arg2_13 (V : Valuation τ sig (Elt Ideal)) : Q13 V (Proc.devRef .tc main_arg2) = (domT V).UV :=
  (keepS13 (Q12 V) main_arg2 (by decide)).trans (atR_main_arg2_12 V)

theorem atR_main_arg2_14 (V : Valuation τ sig (Elt Ideal)) : Q14 V (Proc.devRef .tc main_arg2) = (domT V).UV :=
  (keepS14 (Q13 V) main_arg2 (by decide)).trans (atR_main_arg2_13 V)

theorem atR_main_arg2_15 (V : Valuation τ sig (Elt Ideal)) : Q15 V (Proc.devRef .tc main_arg2) = (domT V).UV :=
  (keepS15 (Q14 V) main_arg2 (by decide)).trans (atR_main_arg2_14 V)

theorem atR_main_arg2_16 (V : Valuation τ sig (Elt Ideal)) : Q16 V (Proc.devRef .tc main_arg2) = (domT V).UV :=
  (keepS16 (Q15 V) main_arg2 (by decide)).trans (atR_main_arg2_15 V)

theorem atR_main_arg2_17 (V : Valuation τ sig (Elt Ideal)) : Q17 V (Proc.devRef .tc main_arg2) = (domT V).UV :=
  (keepS17 (Q16 V) main_arg2 (by decide)).trans (atR_main_arg2_16 V)

theorem atR_main_arg2_18 (V : Valuation τ sig (Elt Ideal)) : Q18 V (Proc.devRef .tc main_arg2) = (domT V).UV :=
  (keepS18 (Q17 V) main_arg2 (by decide)).trans (atR_main_arg2_17 V)

theorem atR_main_arg2_19 (V : Valuation τ sig (Elt Ideal)) : Q19 V (Proc.devRef .tc main_arg2) = (domT V).UV :=
  (keepS19 (Q18 V) main_arg2 (by decide)).trans (atR_main_arg2_18 V)

theorem atR_main_arg2_20 (V : Valuation τ sig (Elt Ideal)) : Q20 V (Proc.devRef .tc main_arg2) = (domT V).UV :=
  (keepS20 (Q19 V) main_arg2 (by decide)).trans (atR_main_arg2_19 V)

theorem atR_main_arg2_21 (V : Valuation τ sig (Elt Ideal)) : Q21 V (Proc.devRef .tc main_arg2) = (domT V).UV :=
  (keepS21 (Q20 V) main_arg2 (by decide)).trans (atR_main_arg2_20 V)

theorem atR_main_arg2_22 (V : Valuation τ sig (Elt Ideal)) : Q22 V (Proc.devRef .tc main_arg2) = (domT V).UV :=
  (keepS22 (Q21 V) main_arg2 (by decide)).trans (atR_main_arg2_21 V)

theorem atR_main_arg3_init (V : Valuation τ sig (Elt Ideal)) : V (Proc.devRef .tc main_arg3) = (domT V).VU := rfl

theorem atR_main_arg3_0 (V : Valuation τ sig (Elt Ideal)) : Q0 V (Proc.devRef .tc main_arg3) = (domT V).VU :=
  (keepS0 (V) main_arg3 (by decide)).trans (atR_main_arg3_init V)

theorem atR_main_arg3_1 (V : Valuation τ sig (Elt Ideal)) : Q1 V (Proc.devRef .tc main_arg3) = (domT V).VU :=
  (keepS1 (Q0 V) main_arg3 (by decide)).trans (atR_main_arg3_0 V)

theorem atR_main_arg3_2 (V : Valuation τ sig (Elt Ideal)) : Q2 V (Proc.devRef .tc main_arg3) = (domT V).VU :=
  (keepS2 (Q1 V) main_arg3 (by decide)).trans (atR_main_arg3_1 V)

theorem atR_main_arg3_3 (V : Valuation τ sig (Elt Ideal)) : Q3 V (Proc.devRef .tc main_arg3) = (domT V).VU :=
  (keepS3 (Q2 V) main_arg3 (by decide)).trans (atR_main_arg3_2 V)

theorem atR_main_arg3_4 (V : Valuation τ sig (Elt Ideal)) : Q4 V (Proc.devRef .tc main_arg3) = (domT V).VU :=
  (keepS4 (Q3 V) main_arg3 (by decide)).trans (atR_main_arg3_3 V)

theorem atR_main_arg3_5 (V : Valuation τ sig (Elt Ideal)) : Q5 V (Proc.devRef .tc main_arg3) = (domT V).VU :=
  (keepS5 (Q4 V) main_arg3 (by decide)).trans (atR_main_arg3_4 V)

theorem atR_main_arg3_6 (V : Valuation τ sig (Elt Ideal)) : Q6 V (Proc.devRef .tc main_arg3) = (domT V).VU :=
  (keepS6 (Q5 V) main_arg3 (by decide)).trans (atR_main_arg3_5 V)

theorem atR_main_arg3_7 (V : Valuation τ sig (Elt Ideal)) : Q7 V (Proc.devRef .tc main_arg3) = (domT V).VU :=
  (keepS7 (Q6 V) main_arg3 (by decide)).trans (atR_main_arg3_6 V)

theorem atR_main_arg3_8 (V : Valuation τ sig (Elt Ideal)) : Q8 V (Proc.devRef .tc main_arg3) = (domT V).VU :=
  (keepS8 (Q7 V) main_arg3 (by decide)).trans (atR_main_arg3_7 V)

theorem atR_main_arg3_9 (V : Valuation τ sig (Elt Ideal)) : Q9 V (Proc.devRef .tc main_arg3) = (domT V).VU :=
  (keepS9 (Q8 V) main_arg3 (by decide)).trans (atR_main_arg3_8 V)

theorem atR_main_arg3_10 (V : Valuation τ sig (Elt Ideal)) : Q10 V (Proc.devRef .tc main_arg3) = (domT V).VU :=
  (keepS10 (Q9 V) main_arg3 (by decide)).trans (atR_main_arg3_9 V)

theorem atR_main_arg3_11 (V : Valuation τ sig (Elt Ideal)) : Q11 V (Proc.devRef .tc main_arg3) = (domT V).VU :=
  (keepS11 (Q10 V) main_arg3 (by decide)).trans (atR_main_arg3_10 V)

theorem atR_main_arg3_12 (V : Valuation τ sig (Elt Ideal)) : Q12 V (Proc.devRef .tc main_arg3) = (domT V).VU :=
  (keepS12 (Q11 V) main_arg3 (by decide)).trans (atR_main_arg3_11 V)

theorem atR_main_arg3_13 (V : Valuation τ sig (Elt Ideal)) : Q13 V (Proc.devRef .tc main_arg3) = (domT V).VU :=
  (keepS13 (Q12 V) main_arg3 (by decide)).trans (atR_main_arg3_12 V)

theorem atR_main_arg3_14 (V : Valuation τ sig (Elt Ideal)) : Q14 V (Proc.devRef .tc main_arg3) = (domT V).VU :=
  (keepS14 (Q13 V) main_arg3 (by decide)).trans (atR_main_arg3_13 V)

theorem atR_main_arg3_15 (V : Valuation τ sig (Elt Ideal)) : Q15 V (Proc.devRef .tc main_arg3) = (domT V).VU :=
  (keepS15 (Q14 V) main_arg3 (by decide)).trans (atR_main_arg3_14 V)

theorem atR_main_arg3_16 (V : Valuation τ sig (Elt Ideal)) : Q16 V (Proc.devRef .tc main_arg3) = (domT V).VU :=
  (keepS16 (Q15 V) main_arg3 (by decide)).trans (atR_main_arg3_15 V)

theorem atR_main_arg3_17 (V : Valuation τ sig (Elt Ideal)) : Q17 V (Proc.devRef .tc main_arg3) = (domT V).VU :=
  (keepS17 (Q16 V) main_arg3 (by decide)).trans (atR_main_arg3_16 V)

theorem atR_main_arg3_18 (V : Valuation τ sig (Elt Ideal)) : Q18 V (Proc.devRef .tc main_arg3) = (domT V).VU :=
  (keepS18 (Q17 V) main_arg3 (by decide)).trans (atR_main_arg3_17 V)

theorem atR_main_arg3_19 (V : Valuation τ sig (Elt Ideal)) : Q19 V (Proc.devRef .tc main_arg3) = (domT V).VU :=
  (keepS19 (Q18 V) main_arg3 (by decide)).trans (atR_main_arg3_18 V)

theorem atR_main_arg3_20 (V : Valuation τ sig (Elt Ideal)) : Q20 V (Proc.devRef .tc main_arg3) = (domT V).VU :=
  (keepS20 (Q19 V) main_arg3 (by decide)).trans (atR_main_arg3_19 V)

theorem atR_main_arg6_init (V : Valuation τ sig (Elt Ideal)) : V (Proc.devRef .tc main_arg6) = (domT V).xu := rfl

theorem atR_main_arg6_0 (V : Valuation τ sig (Elt Ideal)) : Q0 V (Proc.devRef .tc main_arg6) = (domT V).xu :=
  (keepS0 (V) main_arg6 (by decide)).trans (atR_main_arg6_init V)

theorem atR_main_arg6_1 (V : Valuation τ sig (Elt Ideal)) : Q1 V (Proc.devRef .tc main_arg6) = (domT V).xu :=
  (keepS1 (Q0 V) main_arg6 (by decide)).trans (atR_main_arg6_0 V)

theorem atR_main_v5_2 (V : Valuation τ sig (Elt Ideal)) : Q2 V (Proc.devRef .tc main_v5) = (domT V).xu := by
  show after seg2 (Q1 V) (Proc.devRef .tc main_v5) = _
  after_results_simp
  rw [atR_main_arg6_1 V]
  exact Cert.TakeArange.take_arange_wrapped_eq (N := 4096) (C := 128) (by norm_num) (by norm_num)
    gather_S4096x128_S4096x1_S4096x128_1_0_n_n_0_1_1128 rfl rfl rfl rfl rfl rfl rfl
    (iotaInDim S4096 32 0) (broadcastInDim S4096 ![] bcast_S_S4096 (constantI S_ 32 0#32)) (broadcastInDim S4096 ![] bcast_S_S4096 (constantI S_ 32 4096#32))
    (fun _ => rfl) (fun _ => rfl) bcast_S4096_S4096x1_0
    (broadcastInDim S4096x1 ![] bcast_S_S4096x1 (constantI S_ 32 0#32))
    (broadcastInDim S4096x1 ![0, 1] bcast_S1x1_S4096x1_0_1 (broadcastInDim S1x1 ![1] bcast_S1_S1x1_1 (constantI S1 32 4095#32)))
    (fun _ => rfl) (fun _ => rfl) (constantI S_ 1 1#1) (fun _ => rfl)
    reducesTo_S4096x1_S4096_d1 h_S_ bcast_S4096_S4096x128_0 _ _

theorem atR_main_v5_3 (V : Valuation τ sig (Elt Ideal)) : Q3 V (Proc.devRef .tc main_v5) = (domT V).xu :=
  (keepS3 (Q2 V) main_v5 (by decide)).trans (atR_main_v5_2 V)

theorem atR_main_v5_4 (V : Valuation τ sig (Elt Ideal)) : Q4 V (Proc.devRef .tc main_v5) = (domT V).xu :=
  (keepS4 (Q3 V) main_v5 (by decide)).trans (atR_main_v5_3 V)

theorem atR_main_v5_5 (V : Valuation τ sig (Elt Ideal)) : Q5 V (Proc.devRef .tc main_v5) = (domT V).xu :=
  (keepS5 (Q4 V) main_v5 (by decide)).trans (atR_main_v5_4 V)

theorem atR_main_v5_6 (V : Valuation τ sig (Elt Ideal)) : Q6 V (Proc.devRef .tc main_v5) = (domT V).xu :=
  (keepS6 (Q5 V) main_v5 (by decide)).trans (atR_main_v5_5 V)

theorem atR_main_v5_7 (V : Valuation τ sig (Elt Ideal)) : Q7 V (Proc.devRef .tc main_v5) = (domT V).xu :=
  (keepS7 (Q6 V) main_v5 (by decide)).trans (atR_main_v5_6 V)

theorem atR_main_v5_8 (V : Valuation τ sig (Elt Ideal)) : Q8 V (Proc.devRef .tc main_v5) = (domT V).xu :=
  (keepS8 (Q7 V) main_v5 (by decide)).trans (atR_main_v5_7 V)

theorem atR_main_v5_9 (V : Valuation τ sig (Elt Ideal)) : Q9 V (Proc.devRef .tc main_v5) = (domT V).xu :=
  (keepS9 (Q8 V) main_v5 (by decide)).trans (atR_main_v5_8 V)

theorem atR_main_v5_10 (V : Valuation τ sig (Elt Ideal)) : Q10 V (Proc.devRef .tc main_v5) = (domT V).xu :=
  (keepS10 (Q9 V) main_v5 (by decide)).trans (atR_main_v5_9 V)

theorem atR_main_v5_11 (V : Valuation τ sig (Elt Ideal)) : Q11 V (Proc.devRef .tc main_v5) = (domT V).xu :=
  (keepS11 (Q10 V) main_v5 (by decide)).trans (atR_main_v5_10 V)

theorem atR_main_v5_12 (V : Valuation τ sig (Elt Ideal)) : Q12 V (Proc.devRef .tc main_v5) = (domT V).xu :=
  (keepS12 (Q11 V) main_v5 (by decide)).trans (atR_main_v5_11 V)

theorem atR_main_v5_13 (V : Valuation τ sig (Elt Ideal)) : Q13 V (Proc.devRef .tc main_v5) = (domT V).xu :=
  (keepS13 (Q12 V) main_v5 (by decide)).trans (atR_main_v5_12 V)

theorem atR_main_v5_14 (V : Valuation τ sig (Elt Ideal)) : Q14 V (Proc.devRef .tc main_v5) = (domT V).xu :=
  (keepS14 (Q13 V) main_v5 (by decide)).trans (atR_main_v5_13 V)

theorem atR_main_v5_15 (V : Valuation τ sig (Elt Ideal)) : Q15 V (Proc.devRef .tc main_v5) = (domT V).xu :=
  (keepS15 (Q14 V) main_v5 (by decide)).trans (atR_main_v5_14 V)

theorem atR_main_v5_16 (V : Valuation τ sig (Elt Ideal)) : Q16 V (Proc.devRef .tc main_v5) = (domT V).xu :=
  (keepS16 (Q15 V) main_v5 (by decide)).trans (atR_main_v5_15 V)

theorem atR_main_v5_17 (V : Valuation τ sig (Elt Ideal)) : Q17 V (Proc.devRef .tc main_v5) = (domT V).xu :=
  (keepS17 (Q16 V) main_v5 (by decide)).trans (atR_main_v5_16 V)

theorem atR_main_v5_18 (V : Valuation τ sig (Elt Ideal)) : Q18 V (Proc.devRef .tc main_v5) = (domT V).xu :=
  (keepS18 (Q17 V) main_v5 (by decide)).trans (atR_main_v5_17 V)

theorem atR_main_v5_19 (V : Valuation τ sig (Elt Ideal)) : Q19 V (Proc.devRef .tc main_v5) = (domT V).xu :=
  (keepS19 (Q18 V) main_v5 (by decide)).trans (atR_main_v5_18 V)

theorem atR_main_v5_20 (V : Valuation τ sig (Elt Ideal)) : Q20 V (Proc.devRef .tc main_v5) = (domT V).xu :=
  (keepS20 (Q19 V) main_v5 (by decide)).trans (atR_main_v5_19 V)

theorem atR_main_arg16_init (V : Valuation τ sig (Elt Ideal)) : V (Proc.devRef .tc main_arg16) = (domT V).dW := rfl

theorem atR_main_arg16_0 (V : Valuation τ sig (Elt Ideal)) : Q0 V (Proc.devRef .tc main_arg16) = (domT V).dW :=
  (keepS0 (V) main_arg16 (by decide)).trans (atR_main_arg16_init V)

theorem atR_main_arg16_1 (V : Valuation τ sig (Elt Ideal)) : Q1 V (Proc.devRef .tc main_arg16) = (domT V).dW :=
  (keepS1 (Q0 V) main_arg16 (by decide)).trans (atR_main_arg16_0 V)

theorem atR_main_arg16_2 (V : Valuation τ sig (Elt Ideal)) : Q2 V (Proc.devRef .tc main_arg16) = (domT V).dW :=
  (keepS2 (Q1 V) main_arg16 (by decide)).trans (atR_main_arg16_1 V)

theorem atR_main_arg16_3 (V : Valuation τ sig (Elt Ideal)) : Q3 V (Proc.devRef .tc main_arg16) = (domT V).dW :=
  (keepS3 (Q2 V) main_arg16 (by decide)).trans (atR_main_arg16_2 V)

theorem atR_main_arg16_4 (V : Valuation τ sig (Elt Ideal)) : Q4 V (Proc.devRef .tc main_arg16) = (domT V).dW :=
  (keepS4 (Q3 V) main_arg16 (by decide)).trans (atR_main_arg16_3 V)

theorem atR_main_arg16_5 (V : Valuation τ sig (Elt Ideal)) : Q5 V (Proc.devRef .tc main_arg16) = (domT V).dW :=
  (keepS5 (Q4 V) main_arg16 (by decide)).trans (atR_main_arg16_4 V)

theorem atR_main_arg16_6 (V : Valuation τ sig (Elt Ideal)) : Q6 V (Proc.devRef .tc main_arg16) = (domT V).dW :=
  (keepS6 (Q5 V) main_arg16 (by decide)).trans (atR_main_arg16_5 V)

theorem atR_main_arg16_7 (V : Valuation τ sig (Elt Ideal)) : Q7 V (Proc.devRef .tc main_arg16) = (domT V).dW :=
  (keepS7 (Q6 V) main_arg16 (by decide)).trans (atR_main_arg16_6 V)

theorem atR_main_arg16_8 (V : Valuation τ sig (Elt Ideal)) : Q8 V (Proc.devRef .tc main_arg16) = (domT V).dW :=
  (keepS8 (Q7 V) main_arg16 (by decide)).trans (atR_main_arg16_7 V)

theorem atR_main_arg16_9 (V : Valuation τ sig (Elt Ideal)) : Q9 V (Proc.devRef .tc main_arg16) = (domT V).dW :=
  (keepS9 (Q8 V) main_arg16 (by decide)).trans (atR_main_arg16_8 V)

theorem atR_main_arg16_10 (V : Valuation τ sig (Elt Ideal)) : Q10 V (Proc.devRef .tc main_arg16) = (domT V).dW :=
  (keepS10 (Q9 V) main_arg16 (by decide)).trans (atR_main_arg16_9 V)

theorem atR_main_arg16_11 (V : Valuation τ sig (Elt Ideal)) : Q11 V (Proc.devRef .tc main_arg16) = (domT V).dW :=
  (keepS11 (Q10 V) main_arg16 (by decide)).trans (atR_main_arg16_10 V)

theorem atR_main_arg16_12 (V : Valuation τ sig (Elt Ideal)) : Q12 V (Proc.devRef .tc main_arg16) = (domT V).dW :=
  (keepS12 (Q11 V) main_arg16 (by decide)).trans (atR_main_arg16_11 V)

theorem atR_main_arg16_13 (V : Valuation τ sig (Elt Ideal)) : Q13 V (Proc.devRef .tc main_arg16) = (domT V).dW :=
  (keepS13 (Q12 V) main_arg16 (by decide)).trans (atR_main_arg16_12 V)

theorem atR_main_arg16_14 (V : Valuation τ sig (Elt Ideal)) : Q14 V (Proc.devRef .tc main_arg16) = (domT V).dW :=
  (keepS14 (Q13 V) main_arg16 (by decide)).trans (atR_main_arg16_13 V)

theorem atR_main_arg16_15 (V : Valuation τ sig (Elt Ideal)) : Q15 V (Proc.devRef .tc main_arg16) = (domT V).dW :=
  (keepS15 (Q14 V) main_arg16 (by decide)).trans (atR_main_arg16_14 V)

theorem atR_main_arg16_16 (V : Valuation τ sig (Elt Ideal)) : Q16 V (Proc.devRef .tc main_arg16) = (domT V).dW :=
  (keepS16 (Q15 V) main_arg16 (by decide)).trans (atR_main_arg16_15 V)

theorem atR_main_arg16_17 (V : Valuation τ sig (Elt Ideal)) : Q17 V (Proc.devRef .tc main_arg16) = (domT V).dW :=
  (keepS17 (Q16 V) main_arg16 (by decide)).trans (atR_main_arg16_16 V)

theorem atR_main_arg16_18 (V : Valuation τ sig (Elt Ideal)) : Q18 V (Proc.devRef .tc main_arg16) = (domT V).dW :=
  (keepS18 (Q17 V) main_arg16 (by decide)).trans (atR_main_arg16_17 V)

theorem atR_main_arg16_19 (V : Valuation τ sig (Elt Ideal)) : Q19 V (Proc.devRef .tc main_arg16) = (domT V).dW :=
  (keepS19 (Q18 V) main_arg16 (by decide)).trans (atR_main_arg16_18 V)

theorem atR_main_arg16_20 (V : Valuation τ sig (Elt Ideal)) : Q20 V (Proc.devRef .tc main_arg16) = (domT V).dW :=
  (keepS20 (Q19 V) main_arg16 (by decide)).trans (atR_main_arg16_19 V)

theorem atR_main_arg17_init (V : Valuation τ sig (Elt Ideal)) : V (Proc.devRef .tc main_arg17) = (domT V).db := rfl

theorem atR_main_arg17_0 (V : Valuation τ sig (Elt Ideal)) : Q0 V (Proc.devRef .tc main_arg17) = (domT V).db :=
  (keepS0 (V) main_arg17 (by decide)).trans (atR_main_arg17_init V)

theorem atR_main_arg17_1 (V : Valuation τ sig (Elt Ideal)) : Q1 V (Proc.devRef .tc main_arg17) = (domT V).db :=
  (keepS1 (Q0 V) main_arg17 (by decide)).trans (atR_main_arg17_0 V)

theorem atR_main_arg17_2 (V : Valuation τ sig (Elt Ideal)) : Q2 V (Proc.devRef .tc main_arg17) = (domT V).db :=
  (keepS2 (Q1 V) main_arg17 (by decide)).trans (atR_main_arg17_1 V)

theorem atR_main_arg17_3 (V : Valuation τ sig (Elt Ideal)) : Q3 V (Proc.devRef .tc main_arg17) = (domT V).db :=
  (keepS3 (Q2 V) main_arg17 (by decide)).trans (atR_main_arg17_2 V)

theorem atR_main_arg17_4 (V : Valuation τ sig (Elt Ideal)) : Q4 V (Proc.devRef .tc main_arg17) = (domT V).db :=
  (keepS4 (Q3 V) main_arg17 (by decide)).trans (atR_main_arg17_3 V)

theorem atR_main_arg17_5 (V : Valuation τ sig (Elt Ideal)) : Q5 V (Proc.devRef .tc main_arg17) = (domT V).db :=
  (keepS5 (Q4 V) main_arg17 (by decide)).trans (atR_main_arg17_4 V)

theorem atR_main_arg17_6 (V : Valuation τ sig (Elt Ideal)) : Q6 V (Proc.devRef .tc main_arg17) = (domT V).db :=
  (keepS6 (Q5 V) main_arg17 (by decide)).trans (atR_main_arg17_5 V)

theorem atR_main_arg17_7 (V : Valuation τ sig (Elt Ideal)) : Q7 V (Proc.devRef .tc main_arg17) = (domT V).db :=
  (keepS7 (Q6 V) main_arg17 (by decide)).trans (atR_main_arg17_6 V)

theorem atR_main_arg17_8 (V : Valuation τ sig (Elt Ideal)) : Q8 V (Proc.devRef .tc main_arg17) = (domT V).db :=
  (keepS8 (Q7 V) main_arg17 (by decide)).trans (atR_main_arg17_7 V)

theorem atR_main_arg17_9 (V : Valuation τ sig (Elt Ideal)) : Q9 V (Proc.devRef .tc main_arg17) = (domT V).db :=
  (keepS9 (Q8 V) main_arg17 (by decide)).trans (atR_main_arg17_8 V)

theorem atR_main_arg17_10 (V : Valuation τ sig (Elt Ideal)) : Q10 V (Proc.devRef .tc main_arg17) = (domT V).db :=
  (keepS10 (Q9 V) main_arg17 (by decide)).trans (atR_main_arg17_9 V)

theorem atR_main_arg17_11 (V : Valuation τ sig (Elt Ideal)) : Q11 V (Proc.devRef .tc main_arg17) = (domT V).db :=
  (keepS11 (Q10 V) main_arg17 (by decide)).trans (atR_main_arg17_10 V)

theorem atR_main_arg17_12 (V : Valuation τ sig (Elt Ideal)) : Q12 V (Proc.devRef .tc main_arg17) = (domT V).db :=
  (keepS12 (Q11 V) main_arg17 (by decide)).trans (atR_main_arg17_11 V)

theorem atR_main_arg17_13 (V : Valuation τ sig (Elt Ideal)) : Q13 V (Proc.devRef .tc main_arg17) = (domT V).db :=
  (keepS13 (Q12 V) main_arg17 (by decide)).trans (atR_main_arg17_12 V)

theorem atR_main_arg17_14 (V : Valuation τ sig (Elt Ideal)) : Q14 V (Proc.devRef .tc main_arg17) = (domT V).db :=
  (keepS14 (Q13 V) main_arg17 (by decide)).trans (atR_main_arg17_13 V)

theorem atR_main_arg17_15 (V : Valuation τ sig (Elt Ideal)) : Q15 V (Proc.devRef .tc main_arg17) = (domT V).db :=
  (keepS15 (Q14 V) main_arg17 (by decide)).trans (atR_main_arg17_14 V)

theorem atR_main_arg17_16 (V : Valuation τ sig (Elt Ideal)) : Q16 V (Proc.devRef .tc main_arg17) = (domT V).db :=
  (keepS16 (Q15 V) main_arg17 (by decide)).trans (atR_main_arg17_15 V)

theorem atR_main_arg17_17 (V : Valuation τ sig (Elt Ideal)) : Q17 V (Proc.devRef .tc main_arg17) = (domT V).db :=
  (keepS17 (Q16 V) main_arg17 (by decide)).trans (atR_main_arg17_16 V)

theorem atR_main_arg17_18 (V : Valuation τ sig (Elt Ideal)) : Q18 V (Proc.devRef .tc main_arg17) = (domT V).db :=
  (keepS18 (Q17 V) main_arg17 (by decide)).trans (atR_main_arg17_17 V)

theorem atR_main_arg17_19 (V : Valuation τ sig (Elt Ideal)) : Q19 V (Proc.devRef .tc main_arg17) = (domT V).db :=
  (keepS19 (Q18 V) main_arg17 (by decide)).trans (atR_main_arg17_18 V)

theorem atR_main_arg17_20 (V : Valuation τ sig (Elt Ideal)) : Q20 V (Proc.devRef .tc main_arg17) = (domT V).db :=
  (keepS20 (Q19 V) main_arg17 (by decide)).trans (atR_main_arg17_19 V)

theorem atR_main_v219_21 (V : Valuation τ sig (Elt Ideal)) : Q21 V (Proc.devRef .tc main_v219) = gcn ((domT V).VU) (domT V).y0 (rowOf (⟨0, by decide⟩ : Fin 4) (domT V).db) := by
  show after seg21 (Q20 V) (Proc.devRef .tc main_v219) = _
  after_results_simp
  rw [atR_main_arg3_20 V, atR_main_v5_20 V, atR_main_arg16_20 V, atR_main_arg17_20 V]
  exact gcn_stage dot_S4096x128_S128x128_S4096x128_1_0_0_1_n_n rfl dot_S8192x4096_S4096x128_S8192x128_1_0_0_1_n_n rfl _ _ _ 0 (by decide) _ _ _ 0 (by decide) _ _ _ _ _ _ (fun _ => rfl) (fun _ => rfl)

theorem atR_main_v219_22 (V : Valuation τ sig (Elt Ideal)) : Q22 V (Proc.devRef .tc main_v219) = gcn ((domT V).VU) (domT V).y0 (rowOf (⟨0, by decide⟩ : Fin 4) (domT V).db) :=
  (keepS22 (Q21 V) main_v219 (by decide)).trans (atR_main_v219_21 V)

theorem atR_main_arg16_21 (V : Valuation τ sig (Elt Ideal)) : Q21 V (Proc.devRef .tc main_arg16) = (domT V).dW :=
  (keepS21 (Q20 V) main_arg16 (by decide)).trans (atR_main_arg16_20 V)

theorem atR_main_arg16_22 (V : Valuation τ sig (Elt Ideal)) : Q22 V (Proc.devRef .tc main_arg16) = (domT V).dW :=
  (keepS22 (Q21 V) main_arg16 (by decide)).trans (atR_main_arg16_21 V)

theorem atR_main_arg17_21 (V : Valuation τ sig (Elt Ideal)) : Q21 V (Proc.devRef .tc main_arg17) = (domT V).db :=
  (keepS21 (Q20 V) main_arg17 (by decide)).trans (atR_main_arg17_20 V)

theorem atR_main_arg17_22 (V : Valuation τ sig (Elt Ideal)) : Q22 V (Proc.devRef .tc main_arg17) = (domT V).db :=
  (keepS22 (Q21 V) main_arg17 (by decide)).trans (atR_main_arg17_21 V)

theorem atR_main_v247_23 (V : Valuation τ sig (Elt Ideal)) : Q23 V (Proc.devRef .tc main_v247) = gcn ((domT V).UV) (domT V).p1 (rowOf (⟨2, by decide⟩ : Fin 4) (domT V).db) := by
  show after seg23 (Q22 V) (Proc.devRef .tc main_v247) = _
  after_results_simp
  rw [atR_main_arg2_22 V, atR_main_v219_22 V, atR_main_arg16_22 V, atR_main_arg17_22 V]
  exact gcn_stage dot_S8192x128_S128x128_S8192x128_1_0_0_1_n_n rfl dot_S4096x8192_S8192x128_S4096x128_1_0_0_1_n_n rfl _ _ _ 2 (by decide) _ _ _ 2 (by decide) _ _ _ _ _ _ (fun _ => rfl) (fun _ => rfl)

theorem atR_main_v247_24 (V : Valuation τ sig (Elt Ideal)) : Q24 V (Proc.devRef .tc main_v247) = gcn ((domT V).UV) (domT V).p1 (rowOf (⟨2, by decide⟩ : Fin 4) (domT V).db) :=
  (keepS24 (Q23 V) main_v247 (by decide)).trans (atR_main_v247_23 V)

theorem atR_main_v5_21 (V : Valuation τ sig (Elt Ideal)) : Q21 V (Proc.devRef .tc main_v5) = (domT V).xu :=
  (keepS21 (Q20 V) main_v5 (by decide)).trans (atR_main_v5_20 V)

theorem atR_main_v5_22 (V : Valuation τ sig (Elt Ideal)) : Q22 V (Proc.devRef .tc main_v5) = (domT V).xu :=
  (keepS22 (Q21 V) main_v5 (by decide)).trans (atR_main_v5_21 V)

theorem atR_main_v5_23 (V : Valuation τ sig (Elt Ideal)) : Q23 V (Proc.devRef .tc main_v5) = (domT V).xu :=
  (keepS23 (Q22 V) main_v5 (by decide)).trans (atR_main_v5_22 V)

theorem atR_main_v5_24 (V : Valuation τ sig (Elt Ideal)) : Q24 V (Proc.devRef .tc main_v5) = (domT V).xu :=
  (keepS24 (Q23 V) main_v5 (by decide)).trans (atR_main_v5_23 V)

theorem atR_main_arg18_init (V : Valuation τ sig (Elt Ideal)) : V (Proc.devRef .tc main_arg18) = (domT V).uW := rfl

theorem atR_main_arg18_0 (V : Valuation τ sig (Elt Ideal)) : Q0 V (Proc.devRef .tc main_arg18) = (domT V).uW :=
  (keepS0 (V) main_arg18 (by decide)).trans (atR_main_arg18_init V)

theorem atR_main_arg18_1 (V : Valuation τ sig (Elt Ideal)) : Q1 V (Proc.devRef .tc main_arg18) = (domT V).uW :=
  (keepS1 (Q0 V) main_arg18 (by decide)).trans (atR_main_arg18_0 V)

theorem atR_main_arg18_2 (V : Valuation τ sig (Elt Ideal)) : Q2 V (Proc.devRef .tc main_arg18) = (domT V).uW :=
  (keepS2 (Q1 V) main_arg18 (by decide)).trans (atR_main_arg18_1 V)

theorem atR_main_arg18_3 (V : Valuation τ sig (Elt Ideal)) : Q3 V (Proc.devRef .tc main_arg18) = (domT V).uW :=
  (keepS3 (Q2 V) main_arg18 (by decide)).trans (atR_main_arg18_2 V)

theorem atR_main_arg18_4 (V : Valuation τ sig (Elt Ideal)) : Q4 V (Proc.devRef .tc main_arg18) = (domT V).uW :=
  (keepS4 (Q3 V) main_arg18 (by decide)).trans (atR_main_arg18_3 V)

theorem atR_main_arg18_5 (V : Valuation τ sig (Elt Ideal)) : Q5 V (Proc.devRef .tc main_arg18) = (domT V).uW :=
  (keepS5 (Q4 V) main_arg18 (by decide)).trans (atR_main_arg18_4 V)

theorem atR_main_arg18_6 (V : Valuation τ sig (Elt Ideal)) : Q6 V (Proc.devRef .tc main_arg18) = (domT V).uW :=
  (keepS6 (Q5 V) main_arg18 (by decide)).trans (atR_main_arg18_5 V)

theorem atR_main_arg18_7 (V : Valuation τ sig (Elt Ideal)) : Q7 V (Proc.devRef .tc main_arg18) = (domT V).uW :=
  (keepS7 (Q6 V) main_arg18 (by decide)).trans (atR_main_arg18_6 V)

theorem atR_main_arg18_8 (V : Valuation τ sig (Elt Ideal)) : Q8 V (Proc.devRef .tc main_arg18) = (domT V).uW :=
  (keepS8 (Q7 V) main_arg18 (by decide)).trans (atR_main_arg18_7 V)

theorem atR_main_arg18_9 (V : Valuation τ sig (Elt Ideal)) : Q9 V (Proc.devRef .tc main_arg18) = (domT V).uW :=
  (keepS9 (Q8 V) main_arg18 (by decide)).trans (atR_main_arg18_8 V)

theorem atR_main_arg18_10 (V : Valuation τ sig (Elt Ideal)) : Q10 V (Proc.devRef .tc main_arg18) = (domT V).uW :=
  (keepS10 (Q9 V) main_arg18 (by decide)).trans (atR_main_arg18_9 V)

theorem atR_main_arg18_11 (V : Valuation τ sig (Elt Ideal)) : Q11 V (Proc.devRef .tc main_arg18) = (domT V).uW :=
  (keepS11 (Q10 V) main_arg18 (by decide)).trans (atR_main_arg18_10 V)

theorem atR_main_arg18_12 (V : Valuation τ sig (Elt Ideal)) : Q12 V (Proc.devRef .tc main_arg18) = (domT V).uW :=
  (keepS12 (Q11 V) main_arg18 (by decide)).trans (atR_main_arg18_11 V)

theorem atR_main_arg18_13 (V : Valuation τ sig (Elt Ideal)) : Q13 V (Proc.devRef .tc main_arg18) = (domT V).uW :=
  (keepS13 (Q12 V) main_arg18 (by decide)).trans (atR_main_arg18_12 V)

theorem atR_main_arg18_14 (V : Valuation τ sig (Elt Ideal)) : Q14 V (Proc.devRef .tc main_arg18) = (domT V).uW :=
  (keepS14 (Q13 V) main_arg18 (by decide)).trans (atR_main_arg18_13 V)

theorem atR_main_arg18_15 (V : Valuation τ sig (Elt Ideal)) : Q15 V (Proc.devRef .tc main_arg18) = (domT V).uW :=
  (keepS15 (Q14 V) main_arg18 (by decide)).trans (atR_main_arg18_14 V)

theorem atR_main_arg18_16 (V : Valuation τ sig (Elt Ideal)) : Q16 V (Proc.devRef .tc main_arg18) = (domT V).uW :=
  (keepS16 (Q15 V) main_arg18 (by decide)).trans (atR_main_arg18_15 V)

theorem atR_main_arg18_17 (V : Valuation τ sig (Elt Ideal)) : Q17 V (Proc.devRef .tc main_arg18) = (domT V).uW :=
  (keepS17 (Q16 V) main_arg18 (by decide)).trans (atR_main_arg18_16 V)

theorem atR_main_arg18_18 (V : Valuation τ sig (Elt Ideal)) : Q18 V (Proc.devRef .tc main_arg18) = (domT V).uW :=
  (keepS18 (Q17 V) main_arg18 (by decide)).trans (atR_main_arg18_17 V)

theorem atR_main_arg18_19 (V : Valuation τ sig (Elt Ideal)) : Q19 V (Proc.devRef .tc main_arg18) = (domT V).uW :=
  (keepS19 (Q18 V) main_arg18 (by decide)).trans (atR_main_arg18_18 V)

theorem atR_main_arg18_20 (V : Valuation τ sig (Elt Ideal)) : Q20 V (Proc.devRef .tc main_arg18) = (domT V).uW :=
  (keepS20 (Q19 V) main_arg18 (by decide)).trans (atR_main_arg18_19 V)

theorem atR_main_arg18_21 (V : Valuation τ sig (Elt Ideal)) : Q21 V (Proc.devRef .tc main_arg18) = (domT V).uW :=
  (keepS21 (Q20 V) main_arg18 (by decide)).trans (atR_main_arg18_20 V)

theorem atR_main_arg18_22 (V : Valuation τ sig (Elt Ideal)) : Q22 V (Proc.devRef .tc main_arg18) = (domT V).uW :=
  (keepS22 (Q21 V) main_arg18 (by decide)).trans (atR_main_arg18_21 V)

theorem atR_main_arg18_23 (V : Valuation τ sig (Elt Ideal)) : Q23 V (Proc.devRef .tc main_arg18) = (domT V).uW :=
  (keepS23 (Q22 V) main_arg18 (by decide)).trans (atR_main_arg18_22 V)

theorem atR_main_arg18_24 (V : Valuation τ sig (Elt Ideal)) : Q24 V (Proc.devRef .tc main_arg18) = (domT V).uW :=
  (keepS24 (Q23 V) main_arg18 (by decide)).trans (atR_main_arg18_23 V)

theorem atR_main_arg19_init (V : Valuation τ sig (Elt Ideal)) : V (Proc.devRef .tc main_arg19) = (domT V).ub := rfl

theorem atR_main_arg19_0 (V : Valuation τ sig (Elt Ideal)) : Q0 V (Proc.devRef .tc main_arg19) = (domT V).ub :=
  (keepS0 (V) main_arg19 (by decide)).trans (atR_main_arg19_init V)

theorem atR_main_arg19_1 (V : Valuation τ sig (Elt Ideal)) : Q1 V (Proc.devRef .tc main_arg19) = (domT V).ub :=
  (keepS1 (Q0 V) main_arg19 (by decide)).trans (atR_main_arg19_0 V)

theorem atR_main_arg19_2 (V : Valuation τ sig (Elt Ideal)) : Q2 V (Proc.devRef .tc main_arg19) = (domT V).ub :=
  (keepS2 (Q1 V) main_arg19 (by decide)).trans (atR_main_arg19_1 V)

theorem atR_main_arg19_3 (V : Valuation τ sig (Elt Ideal)) : Q3 V (Proc.devRef .tc main_arg19) = (domT V).ub :=
  (keepS3 (Q2 V) main_arg19 (by decide)).trans (atR_main_arg19_2 V)

theorem atR_main_arg19_4 (V : Valuation τ sig (Elt Ideal)) : Q4 V (Proc.devRef .tc main_arg19) = (domT V).ub :=
  (keepS4 (Q3 V) main_arg19 (by decide)).trans (atR_main_arg19_3 V)

theorem atR_main_arg19_5 (V : Valuation τ sig (Elt Ideal)) : Q5 V (Proc.devRef .tc main_arg19) = (domT V).ub :=
  (keepS5 (Q4 V) main_arg19 (by decide)).trans (atR_main_arg19_4 V)

theorem atR_main_arg19_6 (V : Valuation τ sig (Elt Ideal)) : Q6 V (Proc.devRef .tc main_arg19) = (domT V).ub :=
  (keepS6 (Q5 V) main_arg19 (by decide)).trans (atR_main_arg19_5 V)

theorem atR_main_arg19_7 (V : Valuation τ sig (Elt Ideal)) : Q7 V (Proc.devRef .tc main_arg19) = (domT V).ub :=
  (keepS7 (Q6 V) main_arg19 (by decide)).trans (atR_main_arg19_6 V)

theorem atR_main_arg19_8 (V : Valuation τ sig (Elt Ideal)) : Q8 V (Proc.devRef .tc main_arg19) = (domT V).ub :=
  (keepS8 (Q7 V) main_arg19 (by decide)).trans (atR_main_arg19_7 V)

theorem atR_main_arg19_9 (V : Valuation τ sig (Elt Ideal)) : Q9 V (Proc.devRef .tc main_arg19) = (domT V).ub :=
  (keepS9 (Q8 V) main_arg19 (by decide)).trans (atR_main_arg19_8 V)

theorem atR_main_arg19_10 (V : Valuation τ sig (Elt Ideal)) : Q10 V (Proc.devRef .tc main_arg19) = (domT V).ub :=
  (keepS10 (Q9 V) main_arg19 (by decide)).trans (atR_main_arg19_9 V)

theorem atR_main_arg19_11 (V : Valuation τ sig (Elt Ideal)) : Q11 V (Proc.devRef .tc main_arg19) = (domT V).ub :=
  (keepS11 (Q10 V) main_arg19 (by decide)).trans (atR_main_arg19_10 V)

theorem atR_main_arg19_12 (V : Valuation τ sig (Elt Ideal)) : Q12 V (Proc.devRef .tc main_arg19) = (domT V).ub :=
  (keepS12 (Q11 V) main_arg19 (by decide)).trans (atR_main_arg19_11 V)

theorem atR_main_arg19_13 (V : Valuation τ sig (Elt Ideal)) : Q13 V (Proc.devRef .tc main_arg19) = (domT V).ub :=
  (keepS13 (Q12 V) main_arg19 (by decide)).trans (atR_main_arg19_12 V)

theorem atR_main_arg19_14 (V : Valuation τ sig (Elt Ideal)) : Q14 V (Proc.devRef .tc main_arg19) = (domT V).ub :=
  (keepS14 (Q13 V) main_arg19 (by decide)).trans (atR_main_arg19_13 V)

theorem atR_main_arg19_15 (V : Valuation τ sig (Elt Ideal)) : Q15 V (Proc.devRef .tc main_arg19) = (domT V).ub :=
  (keepS15 (Q14 V) main_arg19 (by decide)).trans (atR_main_arg19_14 V)

theorem atR_main_arg19_16 (V : Valuation τ sig (Elt Ideal)) : Q16 V (Proc.devRef .tc main_arg19) = (domT V).ub :=
  (keepS16 (Q15 V) main_arg19 (by decide)).trans (atR_main_arg19_15 V)

theorem atR_main_arg19_17 (V : Valuation τ sig (Elt Ideal)) : Q17 V (Proc.devRef .tc main_arg19) = (domT V).ub :=
  (keepS17 (Q16 V) main_arg19 (by decide)).trans (atR_main_arg19_16 V)

theorem atR_main_arg19_18 (V : Valuation τ sig (Elt Ideal)) : Q18 V (Proc.devRef .tc main_arg19) = (domT V).ub :=
  (keepS18 (Q17 V) main_arg19 (by decide)).trans (atR_main_arg19_17 V)

theorem atR_main_arg19_19 (V : Valuation τ sig (Elt Ideal)) : Q19 V (Proc.devRef .tc main_arg19) = (domT V).ub :=
  (keepS19 (Q18 V) main_arg19 (by decide)).trans (atR_main_arg19_18 V)

theorem atR_main_arg19_20 (V : Valuation τ sig (Elt Ideal)) : Q20 V (Proc.devRef .tc main_arg19) = (domT V).ub :=
  (keepS20 (Q19 V) main_arg19 (by decide)).trans (atR_main_arg19_19 V)

theorem atR_main_arg19_21 (V : Valuation τ sig (Elt Ideal)) : Q21 V (Proc.devRef .tc main_arg19) = (domT V).ub :=
  (keepS21 (Q20 V) main_arg19 (by decide)).trans (atR_main_arg19_20 V)

theorem atR_main_arg19_22 (V : Valuation τ sig (Elt Ideal)) : Q22 V (Proc.devRef .tc main_arg19) = (domT V).ub :=
  (keepS22 (Q21 V) main_arg19 (by decide)).trans (atR_main_arg19_21 V)

theorem atR_main_arg19_23 (V : Valuation τ sig (Elt Ideal)) : Q23 V (Proc.devRef .tc main_arg19) = (domT V).ub :=
  (keepS23 (Q22 V) main_arg19 (by decide)).trans (atR_main_arg19_22 V)

theorem atR_main_arg19_24 (V : Valuation τ sig (Elt Ideal)) : Q24 V (Proc.devRef .tc main_arg19) = (domT V).ub :=
  (keepS24 (Q23 V) main_arg19 (by decide)).trans (atR_main_arg19_23 V)

theorem atR_main_v270_25 (V : Valuation τ sig (Elt Ideal)) : Q25 V (Proc.devRef .tc main_v270) = union (gcn ((domT V).UV) (domT V).p1 (rowOf (⟨2, by decide⟩ : Fin 4) (domT V).db)) (top (slab (⟨0, by decide⟩ : Fin 2) (domT V).uW)) ((domT V).xu) (bot (slab (⟨0, by decide⟩ : Fin 2) (domT V).uW)) (rowOf (⟨0, by decide⟩ : Fin 2) (domT V).ub) := by
  show after seg25 (Q24 V) (Proc.devRef .tc main_v270) = _
  after_results_simp
  rw [atR_main_v247_24 V, atR_main_v5_24 V, atR_main_arg18_24 V, atR_main_arg19_24 V]
  exact union_stage (M := 4096) (A := 128) (B := 128) (N := 128) (n := 2) (nW := 2) dot_S4096x256_S256x128_S4096x128_1_0_0_1_n_n rfl _ _ _ _ 0 (by decide) _ _ _ 0 (by decide) _ _ _ _

theorem atR_main_v280_26 (V : Valuation τ sig (Elt Ideal)) : Q26 V (Proc.devRef .tc main_v280) = (domT V).u1 := by
  show after seg26 (Q25 V) (Proc.devRef .tc main_v280) = _
  after_results_simp
  rw [atR_main_v270_25 V]
  exact relu_host _ _ (fun _ => rfl)

theorem atR_main_v280_27 (V : Valuation τ sig (Elt Ideal)) : Q27 V (Proc.devRef .tc main_v280) = (domT V).u1 :=
  (keepS27 (Q26 V) main_v280 (by decide)).trans (atR_main_v280_26 V)

theorem atR_main_v280_28 (V : Valuation τ sig (Elt Ideal)) : Q28 V (Proc.devRef .tc main_v280) = (domT V).u1 :=
  (keepS28 (Q27 V) main_v280 (by decide)).trans (atR_main_v280_27 V)

theorem atR_main_v280_29 (V : Valuation τ sig (Elt Ideal)) : Q29 V (Proc.devRef .tc main_v280) = (domT V).u1 :=
  (keepS29 (Q28 V) main_v280 (by decide)).trans (atR_main_v280_28 V)

theorem atR_main_v280_30 (V : Valuation τ sig (Elt Ideal)) : Q30 V (Proc.devRef .tc main_v280) = (domT V).u1 :=
  (keepS30 (Q29 V) main_v280 (by decide)).trans (atR_main_v280_29 V)

theorem atR_main_v280_31 (V : Valuation τ sig (Elt Ideal)) : Q31 V (Proc.devRef .tc main_v280) = (domT V).u1 :=
  (keepS31 (Q30 V) main_v280 (by decide)).trans (atR_main_v280_30 V)

theorem atR_main_v280_32 (V : Valuation τ sig (Elt Ideal)) : Q32 V (Proc.devRef .tc main_v280) = (domT V).u1 :=
  (keepS32 (Q31 V) main_v280 (by decide)).trans (atR_main_v280_31 V)

theorem atR_main_v280_33 (V : Valuation τ sig (Elt Ideal)) : Q33 V (Proc.devRef .tc main_v280) = (domT V).u1 :=
  (keepS33 (Q32 V) main_v280 (by decide)).trans (atR_main_v280_32 V)

theorem atR_main_v280_34 (V : Valuation τ sig (Elt Ideal)) : Q34 V (Proc.devRef .tc main_v280) = (domT V).u1 :=
  (keepS34 (Q33 V) main_v280 (by decide)).trans (atR_main_v280_33 V)

theorem atR_main_v280_35 (V : Valuation τ sig (Elt Ideal)) : Q35 V (Proc.devRef .tc main_v280) = (domT V).u1 :=
  (keepS35 (Q34 V) main_v280 (by decide)).trans (atR_main_v280_34 V)

theorem atR_main_v280_36 (V : Valuation τ sig (Elt Ideal)) : Q36 V (Proc.devRef .tc main_v280) = (domT V).u1 :=
  (keepS36 (Q35 V) main_v280 (by decide)).trans (atR_main_v280_35 V)

theorem atR_main_v280_37 (V : Valuation τ sig (Elt Ideal)) : Q37 V (Proc.devRef .tc main_v280) = (domT V).u1 :=
  (keepS37 (Q36 V) main_v280 (by decide)).trans (atR_main_v280_36 V)

theorem atR_main_arg2_23 (V : Valuation τ sig (Elt Ideal)) : Q23 V (Proc.devRef .tc main_arg2) = (domT V).UV :=
  (keepS23 (Q22 V) main_arg2 (by decide)).trans (atR_main_arg2_22 V)

theorem atR_main_arg2_24 (V : Valuation τ sig (Elt Ideal)) : Q24 V (Proc.devRef .tc main_arg2) = (domT V).UV :=
  (keepS24 (Q23 V) main_arg2 (by decide)).trans (atR_main_arg2_23 V)

theorem atR_main_arg2_25 (V : Valuation τ sig (Elt Ideal)) : Q25 V (Proc.devRef .tc main_arg2) = (domT V).UV :=
  (keepS25 (Q24 V) main_arg2 (by decide)).trans (atR_main_arg2_24 V)

theorem atR_main_arg2_26 (V : Valuation τ sig (Elt Ideal)) : Q26 V (Proc.devRef .tc main_arg2) = (domT V).UV :=
  (keepS26 (Q25 V) main_arg2 (by decide)).trans (atR_main_arg2_25 V)

theorem atR_main_arg2_27 (V : Valuation τ sig (Elt Ideal)) : Q27 V (Proc.devRef .tc main_arg2) = (domT V).UV :=
  (keepS27 (Q26 V) main_arg2 (by decide)).trans (atR_main_arg2_26 V)

theorem atR_main_arg2_28 (V : Valuation τ sig (Elt Ideal)) : Q28 V (Proc.devRef .tc main_arg2) = (domT V).UV :=
  (keepS28 (Q27 V) main_arg2 (by decide)).trans (atR_main_arg2_27 V)

theorem atR_main_arg2_29 (V : Valuation τ sig (Elt Ideal)) : Q29 V (Proc.devRef .tc main_arg2) = (domT V).UV :=
  (keepS29 (Q28 V) main_arg2 (by decide)).trans (atR_main_arg2_28 V)

theorem atR_main_arg3_21 (V : Valuation τ sig (Elt Ideal)) : Q21 V (Proc.devRef .tc main_arg3) = (domT V).VU :=
  (keepS21 (Q20 V) main_arg3 (by decide)).trans (atR_main_arg3_20 V)

theorem atR_main_arg3_22 (V : Valuation τ sig (Elt Ideal)) : Q22 V (Proc.devRef .tc main_arg3) = (domT V).VU :=
  (keepS22 (Q21 V) main_arg3 (by decide)).trans (atR_main_arg3_21 V)

theorem atR_main_arg3_23 (V : Valuation τ sig (Elt Ideal)) : Q23 V (Proc.devRef .tc main_arg3) = (domT V).VU :=
  (keepS23 (Q22 V) main_arg3 (by decide)).trans (atR_main_arg3_22 V)

theorem atR_main_arg3_24 (V : Valuation τ sig (Elt Ideal)) : Q24 V (Proc.devRef .tc main_arg3) = (domT V).VU :=
  (keepS24 (Q23 V) main_arg3 (by decide)).trans (atR_main_arg3_23 V)

theorem atR_main_arg3_25 (V : Valuation τ sig (Elt Ideal)) : Q25 V (Proc.devRef .tc main_arg3) = (domT V).VU :=
  (keepS25 (Q24 V) main_arg3 (by decide)).trans (atR_main_arg3_24 V)

theorem atR_main_arg3_26 (V : Valuation τ sig (Elt Ideal)) : Q26 V (Proc.devRef .tc main_arg3) = (domT V).VU :=
  (keepS26 (Q25 V) main_arg3 (by decide)).trans (atR_main_arg3_25 V)

theorem atR_main_arg3_27 (V : Valuation τ sig (Elt Ideal)) : Q27 V (Proc.devRef .tc main_arg3) = (domT V).VU :=
  (keepS27 (Q26 V) main_arg3 (by decide)).trans (atR_main_arg3_26 V)

theorem atR_main_arg20_init (V : Valuation τ sig (Elt Ideal)) : V (Proc.devRef .tc main_arg20) = (domT V).lW := rfl

theorem atR_main_arg20_0 (V : Valuation τ sig (Elt Ideal)) : Q0 V (Proc.devRef .tc main_arg20) = (domT V).lW :=
  (keepS0 (V) main_arg20 (by decide)).trans (atR_main_arg20_init V)

theorem atR_main_arg20_1 (V : Valuation τ sig (Elt Ideal)) : Q1 V (Proc.devRef .tc main_arg20) = (domT V).lW :=
  (keepS1 (Q0 V) main_arg20 (by decide)).trans (atR_main_arg20_0 V)

theorem atR_main_arg20_2 (V : Valuation τ sig (Elt Ideal)) : Q2 V (Proc.devRef .tc main_arg20) = (domT V).lW :=
  (keepS2 (Q1 V) main_arg20 (by decide)).trans (atR_main_arg20_1 V)

theorem atR_main_arg20_3 (V : Valuation τ sig (Elt Ideal)) : Q3 V (Proc.devRef .tc main_arg20) = (domT V).lW :=
  (keepS3 (Q2 V) main_arg20 (by decide)).trans (atR_main_arg20_2 V)

theorem atR_main_arg20_4 (V : Valuation τ sig (Elt Ideal)) : Q4 V (Proc.devRef .tc main_arg20) = (domT V).lW :=
  (keepS4 (Q3 V) main_arg20 (by decide)).trans (atR_main_arg20_3 V)

theorem atR_main_arg20_5 (V : Valuation τ sig (Elt Ideal)) : Q5 V (Proc.devRef .tc main_arg20) = (domT V).lW :=
  (keepS5 (Q4 V) main_arg20 (by decide)).trans (atR_main_arg20_4 V)

theorem atR_main_arg20_6 (V : Valuation τ sig (Elt Ideal)) : Q6 V (Proc.devRef .tc main_arg20) = (domT V).lW :=
  (keepS6 (Q5 V) main_arg20 (by decide)).trans (atR_main_arg20_5 V)

theorem atR_main_arg20_7 (V : Valuation τ sig (Elt Ideal)) : Q7 V (Proc.devRef .tc main_arg20) = (domT V).lW :=
  (keepS7 (Q6 V) main_arg20 (by decide)).trans (atR_main_arg20_6 V)

theorem atR_main_arg20_8 (V : Valuation τ sig (Elt Ideal)) : Q8 V (Proc.devRef .tc main_arg20) = (domT V).lW :=
  (keepS8 (Q7 V) main_arg20 (by decide)).trans (atR_main_arg20_7 V)

theorem atR_main_arg20_9 (V : Valuation τ sig (Elt Ideal)) : Q9 V (Proc.devRef .tc main_arg20) = (domT V).lW :=
  (keepS9 (Q8 V) main_arg20 (by decide)).trans (atR_main_arg20_8 V)

theorem atR_main_arg20_10 (V : Valuation τ sig (Elt Ideal)) : Q10 V (Proc.devRef .tc main_arg20) = (domT V).lW :=
  (keepS10 (Q9 V) main_arg20 (by decide)).trans (atR_main_arg20_9 V)

theorem atR_main_arg20_11 (V : Valuation τ sig (Elt Ideal)) : Q11 V (Proc.devRef .tc main_arg20) = (domT V).lW :=
  (keepS11 (Q10 V) main_arg20 (by decide)).trans (atR_main_arg20_10 V)

theorem atR_main_arg20_12 (V : Valuation τ sig (Elt Ideal)) : Q12 V (Proc.devRef .tc main_arg20) = (domT V).lW :=
  (keepS12 (Q11 V) main_arg20 (by decide)).trans (atR_main_arg20_11 V)

theorem atR_main_arg20_13 (V : Valuation τ sig (Elt Ideal)) : Q13 V (Proc.devRef .tc main_arg20) = (domT V).lW :=
  (keepS13 (Q12 V) main_arg20 (by decide)).trans (atR_main_arg20_12 V)

theorem atR_main_arg20_14 (V : Valuation τ sig (Elt Ideal)) : Q14 V (Proc.devRef .tc main_arg20) = (domT V).lW :=
  (keepS14 (Q13 V) main_arg20 (by decide)).trans (atR_main_arg20_13 V)

theorem atR_main_arg20_15 (V : Valuation τ sig (Elt Ideal)) : Q15 V (Proc.devRef .tc main_arg20) = (domT V).lW :=
  (keepS15 (Q14 V) main_arg20 (by decide)).trans (atR_main_arg20_14 V)

theorem atR_main_arg20_16 (V : Valuation τ sig (Elt Ideal)) : Q16 V (Proc.devRef .tc main_arg20) = (domT V).lW :=
  (keepS16 (Q15 V) main_arg20 (by decide)).trans (atR_main_arg20_15 V)

theorem atR_main_arg20_17 (V : Valuation τ sig (Elt Ideal)) : Q17 V (Proc.devRef .tc main_arg20) = (domT V).lW :=
  (keepS17 (Q16 V) main_arg20 (by decide)).trans (atR_main_arg20_16 V)

theorem atR_main_arg20_18 (V : Valuation τ sig (Elt Ideal)) : Q18 V (Proc.devRef .tc main_arg20) = (domT V).lW :=
  (keepS18 (Q17 V) main_arg20 (by decide)).trans (atR_main_arg20_17 V)

theorem atR_main_arg20_19 (V : Valuation τ sig (Elt Ideal)) : Q19 V (Proc.devRef .tc main_arg20) = (domT V).lW :=
  (keepS19 (Q18 V) main_arg20 (by decide)).trans (atR_main_arg20_18 V)

theorem atR_main_arg20_20 (V : Valuation τ sig (Elt Ideal)) : Q20 V (Proc.devRef .tc main_arg20) = (domT V).lW :=
  (keepS20 (Q19 V) main_arg20 (by decide)).trans (atR_main_arg20_19 V)

theorem atR_main_arg20_21 (V : Valuation τ sig (Elt Ideal)) : Q21 V (Proc.devRef .tc main_arg20) = (domT V).lW :=
  (keepS21 (Q20 V) main_arg20 (by decide)).trans (atR_main_arg20_20 V)

theorem atR_main_arg20_22 (V : Valuation τ sig (Elt Ideal)) : Q22 V (Proc.devRef .tc main_arg20) = (domT V).lW :=
  (keepS22 (Q21 V) main_arg20 (by decide)).trans (atR_main_arg20_21 V)

theorem atR_main_arg20_23 (V : Valuation τ sig (Elt Ideal)) : Q23 V (Proc.devRef .tc main_arg20) = (domT V).lW :=
  (keepS23 (Q22 V) main_arg20 (by decide)).trans (atR_main_arg20_22 V)

theorem atR_main_arg20_24 (V : Valuation τ sig (Elt Ideal)) : Q24 V (Proc.devRef .tc main_arg20) = (domT V).lW :=
  (keepS24 (Q23 V) main_arg20 (by decide)).trans (atR_main_arg20_23 V)

theorem atR_main_arg20_25 (V : Valuation τ sig (Elt Ideal)) : Q25 V (Proc.devRef .tc main_arg20) = (domT V).lW :=
  (keepS25 (Q24 V) main_arg20 (by decide)).trans (atR_main_arg20_24 V)

theorem atR_main_arg20_26 (V : Valuation τ sig (Elt Ideal)) : Q26 V (Proc.devRef .tc main_arg20) = (domT V).lW :=
  (keepS26 (Q25 V) main_arg20 (by decide)).trans (atR_main_arg20_25 V)

theorem atR_main_arg20_27 (V : Valuation τ sig (Elt Ideal)) : Q27 V (Proc.devRef .tc main_arg20) = (domT V).lW :=
  (keepS27 (Q26 V) main_arg20 (by decide)).trans (atR_main_arg20_26 V)

theorem atR_main_arg21_init (V : Valuation τ sig (Elt Ideal)) : V (Proc.devRef .tc main_arg21) = (domT V).lb := rfl

theorem atR_main_arg21_0 (V : Valuation τ sig (Elt Ideal)) : Q0 V (Proc.devRef .tc main_arg21) = (domT V).lb :=
  (keepS0 (V) main_arg21 (by decide)).trans (atR_main_arg21_init V)

theorem atR_main_arg21_1 (V : Valuation τ sig (Elt Ideal)) : Q1 V (Proc.devRef .tc main_arg21) = (domT V).lb :=
  (keepS1 (Q0 V) main_arg21 (by decide)).trans (atR_main_arg21_0 V)

theorem atR_main_arg21_2 (V : Valuation τ sig (Elt Ideal)) : Q2 V (Proc.devRef .tc main_arg21) = (domT V).lb :=
  (keepS2 (Q1 V) main_arg21 (by decide)).trans (atR_main_arg21_1 V)

theorem atR_main_arg21_3 (V : Valuation τ sig (Elt Ideal)) : Q3 V (Proc.devRef .tc main_arg21) = (domT V).lb :=
  (keepS3 (Q2 V) main_arg21 (by decide)).trans (atR_main_arg21_2 V)

theorem atR_main_arg21_4 (V : Valuation τ sig (Elt Ideal)) : Q4 V (Proc.devRef .tc main_arg21) = (domT V).lb :=
  (keepS4 (Q3 V) main_arg21 (by decide)).trans (atR_main_arg21_3 V)

theorem atR_main_arg21_5 (V : Valuation τ sig (Elt Ideal)) : Q5 V (Proc.devRef .tc main_arg21) = (domT V).lb :=
  (keepS5 (Q4 V) main_arg21 (by decide)).trans (atR_main_arg21_4 V)

theorem atR_main_arg21_6 (V : Valuation τ sig (Elt Ideal)) : Q6 V (Proc.devRef .tc main_arg21) = (domT V).lb :=
  (keepS6 (Q5 V) main_arg21 (by decide)).trans (atR_main_arg21_5 V)

theorem atR_main_arg21_7 (V : Valuation τ sig (Elt Ideal)) : Q7 V (Proc.devRef .tc main_arg21) = (domT V).lb :=
  (keepS7 (Q6 V) main_arg21 (by decide)).trans (atR_main_arg21_6 V)

theorem atR_main_arg21_8 (V : Valuation τ sig (Elt Ideal)) : Q8 V (Proc.devRef .tc main_arg21) = (domT V).lb :=
  (keepS8 (Q7 V) main_arg21 (by decide)).trans (atR_main_arg21_7 V)

theorem atR_main_arg21_9 (V : Valuation τ sig (Elt Ideal)) : Q9 V (Proc.devRef .tc main_arg21) = (domT V).lb :=
  (keepS9 (Q8 V) main_arg21 (by decide)).trans (atR_main_arg21_8 V)

theorem atR_main_arg21_10 (V : Valuation τ sig (Elt Ideal)) : Q10 V (Proc.devRef .tc main_arg21) = (domT V).lb :=
  (keepS10 (Q9 V) main_arg21 (by decide)).trans (atR_main_arg21_9 V)

theorem atR_main_arg21_11 (V : Valuation τ sig (Elt Ideal)) : Q11 V (Proc.devRef .tc main_arg21) = (domT V).lb :=
  (keepS11 (Q10 V) main_arg21 (by decide)).trans (atR_main_arg21_10 V)

theorem atR_main_arg21_12 (V : Valuation τ sig (Elt Ideal)) : Q12 V (Proc.devRef .tc main_arg21) = (domT V).lb :=
  (keepS12 (Q11 V) main_arg21 (by decide)).trans (atR_main_arg21_11 V)

theorem atR_main_arg21_13 (V : Valuation τ sig (Elt Ideal)) : Q13 V (Proc.devRef .tc main_arg21) = (domT V).lb :=
  (keepS13 (Q12 V) main_arg21 (by decide)).trans (atR_main_arg21_12 V)

theorem atR_main_arg21_14 (V : Valuation τ sig (Elt Ideal)) : Q14 V (Proc.devRef .tc main_arg21) = (domT V).lb :=
  (keepS14 (Q13 V) main_arg21 (by decide)).trans (atR_main_arg21_13 V)

theorem atR_main_arg21_15 (V : Valuation τ sig (Elt Ideal)) : Q15 V (Proc.devRef .tc main_arg21) = (domT V).lb :=
  (keepS15 (Q14 V) main_arg21 (by decide)).trans (atR_main_arg21_14 V)

theorem atR_main_arg21_16 (V : Valuation τ sig (Elt Ideal)) : Q16 V (Proc.devRef .tc main_arg21) = (domT V).lb :=
  (keepS16 (Q15 V) main_arg21 (by decide)).trans (atR_main_arg21_15 V)

theorem atR_main_arg21_17 (V : Valuation τ sig (Elt Ideal)) : Q17 V (Proc.devRef .tc main_arg21) = (domT V).lb :=
  (keepS17 (Q16 V) main_arg21 (by decide)).trans (atR_main_arg21_16 V)

theorem atR_main_arg21_18 (V : Valuation τ sig (Elt Ideal)) : Q18 V (Proc.devRef .tc main_arg21) = (domT V).lb :=
  (keepS18 (Q17 V) main_arg21 (by decide)).trans (atR_main_arg21_17 V)

theorem atR_main_arg21_19 (V : Valuation τ sig (Elt Ideal)) : Q19 V (Proc.devRef .tc main_arg21) = (domT V).lb :=
  (keepS19 (Q18 V) main_arg21 (by decide)).trans (atR_main_arg21_18 V)

theorem atR_main_arg21_20 (V : Valuation τ sig (Elt Ideal)) : Q20 V (Proc.devRef .tc main_arg21) = (domT V).lb :=
  (keepS20 (Q19 V) main_arg21 (by decide)).trans (atR_main_arg21_19 V)

theorem atR_main_arg21_21 (V : Valuation τ sig (Elt Ideal)) : Q21 V (Proc.devRef .tc main_arg21) = (domT V).lb :=
  (keepS21 (Q20 V) main_arg21 (by decide)).trans (atR_main_arg21_20 V)

theorem atR_main_arg21_22 (V : Valuation τ sig (Elt Ideal)) : Q22 V (Proc.devRef .tc main_arg21) = (domT V).lb :=
  (keepS22 (Q21 V) main_arg21 (by decide)).trans (atR_main_arg21_21 V)

theorem atR_main_arg21_23 (V : Valuation τ sig (Elt Ideal)) : Q23 V (Proc.devRef .tc main_arg21) = (domT V).lb :=
  (keepS23 (Q22 V) main_arg21 (by decide)).trans (atR_main_arg21_22 V)

theorem atR_main_arg21_24 (V : Valuation τ sig (Elt Ideal)) : Q24 V (Proc.devRef .tc main_arg21) = (domT V).lb :=
  (keepS24 (Q23 V) main_arg21 (by decide)).trans (atR_main_arg21_23 V)

theorem atR_main_arg21_25 (V : Valuation τ sig (Elt Ideal)) : Q25 V (Proc.devRef .tc main_arg21) = (domT V).lb :=
  (keepS25 (Q24 V) main_arg21 (by decide)).trans (atR_main_arg21_24 V)

theorem atR_main_arg21_26 (V : Valuation τ sig (Elt Ideal)) : Q26 V (Proc.devRef .tc main_arg21) = (domT V).lb :=
  (keepS26 (Q25 V) main_arg21 (by decide)).trans (atR_main_arg21_25 V)

theorem atR_main_arg21_27 (V : Valuation τ sig (Elt Ideal)) : Q27 V (Proc.devRef .tc main_arg21) = (domT V).lb :=
  (keepS27 (Q26 V) main_arg21 (by decide)).trans (atR_main_arg21_26 V)

theorem atR_main_v295_28 (V : Valuation τ sig (Elt Ideal)) : Q28 V (Proc.devRef .tc main_v295) = gcn ((domT V).VU) (domT V).y2 (rowOf (⟨0, by decide⟩ : Fin 6) (domT V).lb) := by
  show after seg28 (Q27 V) (Proc.devRef .tc main_v295) = _
  after_results_simp
  rw [atR_main_arg3_27 V, atR_main_v280_27 V, atR_main_arg20_27 V, atR_main_arg21_27 V]
  exact gcn_stage dot_S4096x128_S128x128_S4096x128_1_0_0_1_n_n rfl dot_S8192x4096_S4096x128_S8192x128_1_0_0_1_n_n rfl _ _ _ 0 (by decide) _ _ _ 0 (by decide) _ _ _ _ _ _ (fun _ => rfl) (fun _ => rfl)

theorem atR_main_v295_29 (V : Valuation τ sig (Elt Ideal)) : Q29 V (Proc.devRef .tc main_v295) = gcn ((domT V).VU) (domT V).y2 (rowOf (⟨0, by decide⟩ : Fin 6) (domT V).lb) :=
  (keepS29 (Q28 V) main_v295 (by decide)).trans (atR_main_v295_28 V)

theorem atR_main_arg20_28 (V : Valuation τ sig (Elt Ideal)) : Q28 V (Proc.devRef .tc main_arg20) = (domT V).lW :=
  (keepS28 (Q27 V) main_arg20 (by decide)).trans (atR_main_arg20_27 V)

theorem atR_main_arg20_29 (V : Valuation τ sig (Elt Ideal)) : Q29 V (Proc.devRef .tc main_arg20) = (domT V).lW :=
  (keepS29 (Q28 V) main_arg20 (by decide)).trans (atR_main_arg20_28 V)

theorem atR_main_arg21_28 (V : Valuation τ sig (Elt Ideal)) : Q28 V (Proc.devRef .tc main_arg21) = (domT V).lb :=
  (keepS28 (Q27 V) main_arg21 (by decide)).trans (atR_main_arg21_27 V)

theorem atR_main_arg21_29 (V : Valuation τ sig (Elt Ideal)) : Q29 V (Proc.devRef .tc main_arg21) = (domT V).lb :=
  (keepS29 (Q28 V) main_arg21 (by decide)).trans (atR_main_arg21_28 V)

theorem atR_main_v323_30 (V : Valuation τ sig (Elt Ideal)) : Q30 V (Proc.devRef .tc main_v323) = gcn ((domT V).UV) (domT V).q1 (rowOf (⟨2, by decide⟩ : Fin 6) (domT V).lb) := by
  show after seg30 (Q29 V) (Proc.devRef .tc main_v323) = _
  after_results_simp
  rw [atR_main_arg2_29 V, atR_main_v295_29 V, atR_main_arg20_29 V, atR_main_arg21_29 V]
  exact gcn_stage dot_S8192x128_S128x128_S8192x128_1_0_0_1_n_n rfl dot_S4096x8192_S8192x128_S4096x128_1_0_0_1_n_n rfl _ _ _ 2 (by decide) _ _ _ 2 (by decide) _ _ _ _ _ _ (fun _ => rfl) (fun _ => rfl)

theorem atR_main_arg22_init (V : Valuation τ sig (Elt Ideal)) : V (Proc.devRef .tc main_arg22) = (domT V).luW := rfl

theorem atR_main_arg22_0 (V : Valuation τ sig (Elt Ideal)) : Q0 V (Proc.devRef .tc main_arg22) = (domT V).luW :=
  (keepS0 (V) main_arg22 (by decide)).trans (atR_main_arg22_init V)

theorem atR_main_arg22_1 (V : Valuation τ sig (Elt Ideal)) : Q1 V (Proc.devRef .tc main_arg22) = (domT V).luW :=
  (keepS1 (Q0 V) main_arg22 (by decide)).trans (atR_main_arg22_0 V)

theorem atR_main_arg22_2 (V : Valuation τ sig (Elt Ideal)) : Q2 V (Proc.devRef .tc main_arg22) = (domT V).luW :=
  (keepS2 (Q1 V) main_arg22 (by decide)).trans (atR_main_arg22_1 V)

theorem atR_main_arg22_3 (V : Valuation τ sig (Elt Ideal)) : Q3 V (Proc.devRef .tc main_arg22) = (domT V).luW :=
  (keepS3 (Q2 V) main_arg22 (by decide)).trans (atR_main_arg22_2 V)

theorem atR_main_arg22_4 (V : Valuation τ sig (Elt Ideal)) : Q4 V (Proc.devRef .tc main_arg22) = (domT V).luW :=
  (keepS4 (Q3 V) main_arg22 (by decide)).trans (atR_main_arg22_3 V)

theorem atR_main_arg22_5 (V : Valuation τ sig (Elt Ideal)) : Q5 V (Proc.devRef .tc main_arg22) = (domT V).luW :=
  (keepS5 (Q4 V) main_arg22 (by decide)).trans (atR_main_arg22_4 V)

theorem atR_main_arg22_6 (V : Valuation τ sig (Elt Ideal)) : Q6 V (Proc.devRef .tc main_arg22) = (domT V).luW :=
  (keepS6 (Q5 V) main_arg22 (by decide)).trans (atR_main_arg22_5 V)

theorem atR_main_arg22_7 (V : Valuation τ sig (Elt Ideal)) : Q7 V (Proc.devRef .tc main_arg22) = (domT V).luW :=
  (keepS7 (Q6 V) main_arg22 (by decide)).trans (atR_main_arg22_6 V)

theorem atR_main_arg22_8 (V : Valuation τ sig (Elt Ideal)) : Q8 V (Proc.devRef .tc main_arg22) = (domT V).luW :=
  (keepS8 (Q7 V) main_arg22 (by decide)).trans (atR_main_arg22_7 V)

theorem atR_main_arg22_9 (V : Valuation τ sig (Elt Ideal)) : Q9 V (Proc.devRef .tc main_arg22) = (domT V).luW :=
  (keepS9 (Q8 V) main_arg22 (by decide)).trans (atR_main_arg22_8 V)

theorem atR_main_arg22_10 (V : Valuation τ sig (Elt Ideal)) : Q10 V (Proc.devRef .tc main_arg22) = (domT V).luW :=
  (keepS10 (Q9 V) main_arg22 (by decide)).trans (atR_main_arg22_9 V)

theorem atR_main_arg22_11 (V : Valuation τ sig (Elt Ideal)) : Q11 V (Proc.devRef .tc main_arg22) = (domT V).luW :=
  (keepS11 (Q10 V) main_arg22 (by decide)).trans (atR_main_arg22_10 V)

theorem atR_main_arg22_12 (V : Valuation τ sig (Elt Ideal)) : Q12 V (Proc.devRef .tc main_arg22) = (domT V).luW :=
  (keepS12 (Q11 V) main_arg22 (by decide)).trans (atR_main_arg22_11 V)

theorem atR_main_arg22_13 (V : Valuation τ sig (Elt Ideal)) : Q13 V (Proc.devRef .tc main_arg22) = (domT V).luW :=
  (keepS13 (Q12 V) main_arg22 (by decide)).trans (atR_main_arg22_12 V)

theorem atR_main_arg22_14 (V : Valuation τ sig (Elt Ideal)) : Q14 V (Proc.devRef .tc main_arg22) = (domT V).luW :=
  (keepS14 (Q13 V) main_arg22 (by decide)).trans (atR_main_arg22_13 V)

theorem atR_main_arg22_15 (V : Valuation τ sig (Elt Ideal)) : Q15 V (Proc.devRef .tc main_arg22) = (domT V).luW :=
  (keepS15 (Q14 V) main_arg22 (by decide)).trans (atR_main_arg22_14 V)

theorem atR_main_arg22_16 (V : Valuation τ sig (Elt Ideal)) : Q16 V (Proc.devRef .tc main_arg22) = (domT V).luW :=
  (keepS16 (Q15 V) main_arg22 (by decide)).trans (atR_main_arg22_15 V)

theorem atR_main_arg22_17 (V : Valuation τ sig (Elt Ideal)) : Q17 V (Proc.devRef .tc main_arg22) = (domT V).luW :=
  (keepS17 (Q16 V) main_arg22 (by decide)).trans (atR_main_arg22_16 V)

theorem atR_main_arg22_18 (V : Valuation τ sig (Elt Ideal)) : Q18 V (Proc.devRef .tc main_arg22) = (domT V).luW :=
  (keepS18 (Q17 V) main_arg22 (by decide)).trans (atR_main_arg22_17 V)

theorem atR_main_arg22_19 (V : Valuation τ sig (Elt Ideal)) : Q19 V (Proc.devRef .tc main_arg22) = (domT V).luW :=
  (keepS19 (Q18 V) main_arg22 (by decide)).trans (atR_main_arg22_18 V)

theorem atR_main_arg22_20 (V : Valuation τ sig (Elt Ideal)) : Q20 V (Proc.devRef .tc main_arg22) = (domT V).luW :=
  (keepS20 (Q19 V) main_arg22 (by decide)).trans (atR_main_arg22_19 V)

theorem atR_main_arg22_21 (V : Valuation τ sig (Elt Ideal)) : Q21 V (Proc.devRef .tc main_arg22) = (domT V).luW :=
  (keepS21 (Q20 V) main_arg22 (by decide)).trans (atR_main_arg22_20 V)

theorem atR_main_arg22_22 (V : Valuation τ sig (Elt Ideal)) : Q22 V (Proc.devRef .tc main_arg22) = (domT V).luW :=
  (keepS22 (Q21 V) main_arg22 (by decide)).trans (atR_main_arg22_21 V)

theorem atR_main_arg22_23 (V : Valuation τ sig (Elt Ideal)) : Q23 V (Proc.devRef .tc main_arg22) = (domT V).luW :=
  (keepS23 (Q22 V) main_arg22 (by decide)).trans (atR_main_arg22_22 V)

theorem atR_main_arg22_24 (V : Valuation τ sig (Elt Ideal)) : Q24 V (Proc.devRef .tc main_arg22) = (domT V).luW :=
  (keepS24 (Q23 V) main_arg22 (by decide)).trans (atR_main_arg22_23 V)

theorem atR_main_arg22_25 (V : Valuation τ sig (Elt Ideal)) : Q25 V (Proc.devRef .tc main_arg22) = (domT V).luW :=
  (keepS25 (Q24 V) main_arg22 (by decide)).trans (atR_main_arg22_24 V)

theorem atR_main_arg22_26 (V : Valuation τ sig (Elt Ideal)) : Q26 V (Proc.devRef .tc main_arg22) = (domT V).luW :=
  (keepS26 (Q25 V) main_arg22 (by decide)).trans (atR_main_arg22_25 V)

theorem atR_main_arg22_27 (V : Valuation τ sig (Elt Ideal)) : Q27 V (Proc.devRef .tc main_arg22) = (domT V).luW :=
  (keepS27 (Q26 V) main_arg22 (by decide)).trans (atR_main_arg22_26 V)

theorem atR_main_arg22_28 (V : Valuation τ sig (Elt Ideal)) : Q28 V (Proc.devRef .tc main_arg22) = (domT V).luW :=
  (keepS28 (Q27 V) main_arg22 (by decide)).trans (atR_main_arg22_27 V)

theorem atR_main_arg22_29 (V : Valuation τ sig (Elt Ideal)) : Q29 V (Proc.devRef .tc main_arg22) = (domT V).luW :=
  (keepS29 (Q28 V) main_arg22 (by decide)).trans (atR_main_arg22_28 V)

theorem atR_main_arg22_30 (V : Valuation τ sig (Elt Ideal)) : Q30 V (Proc.devRef .tc main_arg22) = (domT V).luW :=
  (keepS30 (Q29 V) main_arg22 (by decide)).trans (atR_main_arg22_29 V)

theorem atR_main_arg23_init (V : Valuation τ sig (Elt Ideal)) : V (Proc.devRef .tc main_arg23) = (domT V).lub := rfl

theorem atR_main_arg23_0 (V : Valuation τ sig (Elt Ideal)) : Q0 V (Proc.devRef .tc main_arg23) = (domT V).lub :=
  (keepS0 (V) main_arg23 (by decide)).trans (atR_main_arg23_init V)

theorem atR_main_arg23_1 (V : Valuation τ sig (Elt Ideal)) : Q1 V (Proc.devRef .tc main_arg23) = (domT V).lub :=
  (keepS1 (Q0 V) main_arg23 (by decide)).trans (atR_main_arg23_0 V)

theorem atR_main_arg23_2 (V : Valuation τ sig (Elt Ideal)) : Q2 V (Proc.devRef .tc main_arg23) = (domT V).lub :=
  (keepS2 (Q1 V) main_arg23 (by decide)).trans (atR_main_arg23_1 V)

theorem atR_main_arg23_3 (V : Valuation τ sig (Elt Ideal)) : Q3 V (Proc.devRef .tc main_arg23) = (domT V).lub :=
  (keepS3 (Q2 V) main_arg23 (by decide)).trans (atR_main_arg23_2 V)

theorem atR_main_arg23_4 (V : Valuation τ sig (Elt Ideal)) : Q4 V (Proc.devRef .tc main_arg23) = (domT V).lub :=
  (keepS4 (Q3 V) main_arg23 (by decide)).trans (atR_main_arg23_3 V)

theorem atR_main_arg23_5 (V : Valuation τ sig (Elt Ideal)) : Q5 V (Proc.devRef .tc main_arg23) = (domT V).lub :=
  (keepS5 (Q4 V) main_arg23 (by decide)).trans (atR_main_arg23_4 V)

theorem atR_main_arg23_6 (V : Valuation τ sig (Elt Ideal)) : Q6 V (Proc.devRef .tc main_arg23) = (domT V).lub :=
  (keepS6 (Q5 V) main_arg23 (by decide)).trans (atR_main_arg23_5 V)

theorem atR_main_arg23_7 (V : Valuation τ sig (Elt Ideal)) : Q7 V (Proc.devRef .tc main_arg23) = (domT V).lub :=
  (keepS7 (Q6 V) main_arg23 (by decide)).trans (atR_main_arg23_6 V)

theorem atR_main_arg23_8 (V : Valuation τ sig (Elt Ideal)) : Q8 V (Proc.devRef .tc main_arg23) = (domT V).lub :=
  (keepS8 (Q7 V) main_arg23 (by decide)).trans (atR_main_arg23_7 V)

theorem atR_main_arg23_9 (V : Valuation τ sig (Elt Ideal)) : Q9 V (Proc.devRef .tc main_arg23) = (domT V).lub :=
  (keepS9 (Q8 V) main_arg23 (by decide)).trans (atR_main_arg23_8 V)

theorem atR_main_arg23_10 (V : Valuation τ sig (Elt Ideal)) : Q10 V (Proc.devRef .tc main_arg23) = (domT V).lub :=
  (keepS10 (Q9 V) main_arg23 (by decide)).trans (atR_main_arg23_9 V)

theorem atR_main_arg23_11 (V : Valuation τ sig (Elt Ideal)) : Q11 V (Proc.devRef .tc main_arg23) = (domT V).lub :=
  (keepS11 (Q10 V) main_arg23 (by decide)).trans (atR_main_arg23_10 V)

theorem atR_main_arg23_12 (V : Valuation τ sig (Elt Ideal)) : Q12 V (Proc.devRef .tc main_arg23) = (domT V).lub :=
  (keepS12 (Q11 V) main_arg23 (by decide)).trans (atR_main_arg23_11 V)

theorem atR_main_arg23_13 (V : Valuation τ sig (Elt Ideal)) : Q13 V (Proc.devRef .tc main_arg23) = (domT V).lub :=
  (keepS13 (Q12 V) main_arg23 (by decide)).trans (atR_main_arg23_12 V)

theorem atR_main_arg23_14 (V : Valuation τ sig (Elt Ideal)) : Q14 V (Proc.devRef .tc main_arg23) = (domT V).lub :=
  (keepS14 (Q13 V) main_arg23 (by decide)).trans (atR_main_arg23_13 V)

theorem atR_main_arg23_15 (V : Valuation τ sig (Elt Ideal)) : Q15 V (Proc.devRef .tc main_arg23) = (domT V).lub :=
  (keepS15 (Q14 V) main_arg23 (by decide)).trans (atR_main_arg23_14 V)

theorem atR_main_arg23_16 (V : Valuation τ sig (Elt Ideal)) : Q16 V (Proc.devRef .tc main_arg23) = (domT V).lub :=
  (keepS16 (Q15 V) main_arg23 (by decide)).trans (atR_main_arg23_15 V)

theorem atR_main_arg23_17 (V : Valuation τ sig (Elt Ideal)) : Q17 V (Proc.devRef .tc main_arg23) = (domT V).lub :=
  (keepS17 (Q16 V) main_arg23 (by decide)).trans (atR_main_arg23_16 V)

theorem atR_main_arg23_18 (V : Valuation τ sig (Elt Ideal)) : Q18 V (Proc.devRef .tc main_arg23) = (domT V).lub :=
  (keepS18 (Q17 V) main_arg23 (by decide)).trans (atR_main_arg23_17 V)

theorem atR_main_arg23_19 (V : Valuation τ sig (Elt Ideal)) : Q19 V (Proc.devRef .tc main_arg23) = (domT V).lub :=
  (keepS19 (Q18 V) main_arg23 (by decide)).trans (atR_main_arg23_18 V)

theorem atR_main_arg23_20 (V : Valuation τ sig (Elt Ideal)) : Q20 V (Proc.devRef .tc main_arg23) = (domT V).lub :=
  (keepS20 (Q19 V) main_arg23 (by decide)).trans (atR_main_arg23_19 V)

theorem atR_main_arg23_21 (V : Valuation τ sig (Elt Ideal)) : Q21 V (Proc.devRef .tc main_arg23) = (domT V).lub :=
  (keepS21 (Q20 V) main_arg23 (by decide)).trans (atR_main_arg23_20 V)

theorem atR_main_arg23_22 (V : Valuation τ sig (Elt Ideal)) : Q22 V (Proc.devRef .tc main_arg23) = (domT V).lub :=
  (keepS22 (Q21 V) main_arg23 (by decide)).trans (atR_main_arg23_21 V)

theorem atR_main_arg23_23 (V : Valuation τ sig (Elt Ideal)) : Q23 V (Proc.devRef .tc main_arg23) = (domT V).lub :=
  (keepS23 (Q22 V) main_arg23 (by decide)).trans (atR_main_arg23_22 V)

theorem atR_main_arg23_24 (V : Valuation τ sig (Elt Ideal)) : Q24 V (Proc.devRef .tc main_arg23) = (domT V).lub :=
  (keepS24 (Q23 V) main_arg23 (by decide)).trans (atR_main_arg23_23 V)

theorem atR_main_arg23_25 (V : Valuation τ sig (Elt Ideal)) : Q25 V (Proc.devRef .tc main_arg23) = (domT V).lub :=
  (keepS25 (Q24 V) main_arg23 (by decide)).trans (atR_main_arg23_24 V)

theorem atR_main_arg23_26 (V : Valuation τ sig (Elt Ideal)) : Q26 V (Proc.devRef .tc main_arg23) = (domT V).lub :=
  (keepS26 (Q25 V) main_arg23 (by decide)).trans (atR_main_arg23_25 V)

theorem atR_main_arg23_27 (V : Valuation τ sig (Elt Ideal)) : Q27 V (Proc.devRef .tc main_arg23) = (domT V).lub :=
  (keepS27 (Q26 V) main_arg23 (by decide)).trans (atR_main_arg23_26 V)

theorem atR_main_arg23_28 (V : Valuation τ sig (Elt Ideal)) : Q28 V (Proc.devRef .tc main_arg23) = (domT V).lub :=
  (keepS28 (Q27 V) main_arg23 (by decide)).trans (atR_main_arg23_27 V)

theorem atR_main_arg23_29 (V : Valuation τ sig (Elt Ideal)) : Q29 V (Proc.devRef .tc main_arg23) = (domT V).lub :=
  (keepS29 (Q28 V) main_arg23 (by decide)).trans (atR_main_arg23_28 V)

theorem atR_main_arg23_30 (V : Valuation τ sig (Elt Ideal)) : Q30 V (Proc.devRef .tc main_arg23) = (domT V).lub :=
  (keepS30 (Q29 V) main_arg23 (by decide)).trans (atR_main_arg23_29 V)

theorem atR_main_v332_31 (V : Valuation τ sig (Elt Ideal)) : Q31 V (Proc.devRef .tc main_v332) = (domT V).u2 := by
  show after seg31 (Q30 V) (Proc.devRef .tc main_v332) = _
  after_results_simp
  rw [atR_main_v323_30 V, atR_main_v280_30 V, atR_main_arg22_30 V, atR_main_arg23_30 V]
  exact union_stage (M := 4096) (A := 128) (B := 128) (N := 128) (n := 4) (nW := 4) dot_S4096x256_S256x128_S4096x128_1_0_0_1_n_n rfl _ _ _ _ 0 (by decide) _ _ _ 0 (by decide) _ _ _ _

theorem atR_main_v332_32 (V : Valuation τ sig (Elt Ideal)) : Q32 V (Proc.devRef .tc main_v332) = (domT V).u2 :=
  (keepS32 (Q31 V) main_v332 (by decide)).trans (atR_main_v332_31 V)

theorem atR_main_v332_33 (V : Valuation τ sig (Elt Ideal)) : Q33 V (Proc.devRef .tc main_v332) = (domT V).u2 :=
  (keepS33 (Q32 V) main_v332 (by decide)).trans (atR_main_v332_32 V)

theorem atR_main_v332_34 (V : Valuation τ sig (Elt Ideal)) : Q34 V (Proc.devRef .tc main_v332) = (domT V).u2 :=
  (keepS34 (Q33 V) main_v332 (by decide)).trans (atR_main_v332_33 V)

theorem atR_main_v332_35 (V : Valuation τ sig (Elt Ideal)) : Q35 V (Proc.devRef .tc main_v332) = (domT V).u2 :=
  (keepS35 (Q34 V) main_v332 (by decide)).trans (atR_main_v332_34 V)

theorem atR_main_v332_36 (V : Valuation τ sig (Elt Ideal)) : Q36 V (Proc.devRef .tc main_v332) = (domT V).u2 :=
  (keepS36 (Q35 V) main_v332 (by decide)).trans (atR_main_v332_35 V)

theorem atR_main_v332_37 (V : Valuation τ sig (Elt Ideal)) : Q37 V (Proc.devRef .tc main_v332) = (domT V).u2 :=
  (keepS37 (Q36 V) main_v332 (by decide)).trans (atR_main_v332_36 V)

theorem atR_main_arg0_init (V : Valuation τ sig (Elt Ideal)) : V (Proc.devRef .tc main_arg0) = (domS V).UV := rfl

theorem atR_main_arg0_0 (V : Valuation τ sig (Elt Ideal)) : Q0 V (Proc.devRef .tc main_arg0) = (domS V).UV :=
  (keepS0 (V) main_arg0 (by decide)).trans (atR_main_arg0_init V)

theorem atR_main_arg0_1 (V : Valuation τ sig (Elt Ideal)) : Q1 V (Proc.devRef .tc main_arg0) = (domS V).UV :=
  (keepS1 (Q0 V) main_arg0 (by decide)).trans (atR_main_arg0_0 V)

theorem atR_main_arg0_2 (V : Valuation τ sig (Elt Ideal)) : Q2 V (Proc.devRef .tc main_arg0) = (domS V).UV :=
  (keepS2 (Q1 V) main_arg0 (by decide)).trans (atR_main_arg0_1 V)

theorem atR_main_arg0_3 (V : Valuation τ sig (Elt Ideal)) : Q3 V (Proc.devRef .tc main_arg0) = (domS V).UV :=
  (keepS3 (Q2 V) main_arg0 (by decide)).trans (atR_main_arg0_2 V)

theorem atR_main_arg0_4 (V : Valuation τ sig (Elt Ideal)) : Q4 V (Proc.devRef .tc main_arg0) = (domS V).UV :=
  (keepS4 (Q3 V) main_arg0 (by decide)).trans (atR_main_arg0_3 V)

theorem atR_main_arg0_5 (V : Valuation τ sig (Elt Ideal)) : Q5 V (Proc.devRef .tc main_arg0) = (domS V).UV :=
  (keepS5 (Q4 V) main_arg0 (by decide)).trans (atR_main_arg0_4 V)

theorem atR_main_arg1_init (V : Valuation τ sig (Elt Ideal)) : V (Proc.devRef .tc main_arg1) = (domS V).VU := rfl

theorem atR_main_arg1_0 (V : Valuation τ sig (Elt Ideal)) : Q0 V (Proc.devRef .tc main_arg1) = (domS V).VU :=
  (keepS0 (V) main_arg1 (by decide)).trans (atR_main_arg1_init V)

theorem atR_main_arg1_1 (V : Valuation τ sig (Elt Ideal)) : Q1 V (Proc.devRef .tc main_arg1) = (domS V).VU :=
  (keepS1 (Q0 V) main_arg1 (by decide)).trans (atR_main_arg1_0 V)

theorem atR_main_arg1_2 (V : Valuation τ sig (Elt Ideal)) : Q2 V (Proc.devRef .tc main_arg1) = (domS V).VU :=
  (keepS2 (Q1 V) main_arg1 (by decide)).trans (atR_main_arg1_1 V)

theorem atR_main_arg1_3 (V : Valuation τ sig (Elt Ideal)) : Q3 V (Proc.devRef .tc main_arg1) = (domS V).VU :=
  (keepS3 (Q2 V) main_arg1 (by decide)).trans (atR_main_arg1_2 V)

theorem atR_main_arg4_init (V : Valuation τ sig (Elt Ideal)) : V (Proc.devRef .tc main_arg4) = (domS V).xu := rfl

theorem atR_main_v1_0 (V : Valuation τ sig (Elt Ideal)) : Q0 V (Proc.devRef .tc main_v1) = (domS V).xu := by
  show after seg0 (V) (Proc.devRef .tc main_v1) = _
  after_results_simp
  rw [atR_main_arg4_init V]
  exact Cert.TakeArange.take_arange_wrapped_eq (N := 4096) (C := 128) (by norm_num) (by norm_num)
    gather_S4096x128_S4096x1_S4096x128_1_0_n_n_0_1_1128 rfl rfl rfl rfl rfl rfl rfl
    (iotaInDim S4096 32 0) (broadcastInDim S4096 ![] bcast_S_S4096 (constantI S_ 32 0#32)) (broadcastInDim S4096 ![] bcast_S_S4096 (constantI S_ 32 4096#32))
    (fun _ => rfl) (fun _ => rfl) bcast_S4096_S4096x1_0
    (broadcastInDim S4096x1 ![] bcast_S_S4096x1 (constantI S_ 32 0#32))
    (broadcastInDim S4096x1 ![0, 1] bcast_S1x1_S4096x1_0_1 (broadcastInDim S1x1 ![1] bcast_S1_S1x1_1 (constantI S1 32 4095#32)))
    (fun _ => rfl) (fun _ => rfl) (constantI S_ 1 1#1) (fun _ => rfl)
    reducesTo_S4096x1_S4096_d1 h_S_ bcast_S4096_S4096x128_0 _ _

theorem atR_main_v1_1 (V : Valuation τ sig (Elt Ideal)) : Q1 V (Proc.devRef .tc main_v1) = (domS V).xu :=
  (keepS1 (Q0 V) main_v1 (by decide)).trans (atR_main_v1_0 V)

theorem atR_main_v1_2 (V : Valuation τ sig (Elt Ideal)) : Q2 V (Proc.devRef .tc main_v1) = (domS V).xu :=
  (keepS2 (Q1 V) main_v1 (by decide)).trans (atR_main_v1_1 V)

theorem atR_main_v1_3 (V : Valuation τ sig (Elt Ideal)) : Q3 V (Proc.devRef .tc main_v1) = (domS V).xu :=
  (keepS3 (Q2 V) main_v1 (by decide)).trans (atR_main_v1_2 V)

theorem atR_main_arg8_init (V : Valuation τ sig (Elt Ideal)) : V (Proc.devRef .tc main_arg8) = (domS V).dW := rfl

theorem atR_main_arg8_0 (V : Valuation τ sig (Elt Ideal)) : Q0 V (Proc.devRef .tc main_arg8) = (domS V).dW :=
  (keepS0 (V) main_arg8 (by decide)).trans (atR_main_arg8_init V)

theorem atR_main_arg8_1 (V : Valuation τ sig (Elt Ideal)) : Q1 V (Proc.devRef .tc main_arg8) = (domS V).dW :=
  (keepS1 (Q0 V) main_arg8 (by decide)).trans (atR_main_arg8_0 V)

theorem atR_main_arg8_2 (V : Valuation τ sig (Elt Ideal)) : Q2 V (Proc.devRef .tc main_arg8) = (domS V).dW :=
  (keepS2 (Q1 V) main_arg8 (by decide)).trans (atR_main_arg8_1 V)

theorem atR_main_arg8_3 (V : Valuation τ sig (Elt Ideal)) : Q3 V (Proc.devRef .tc main_arg8) = (domS V).dW :=
  (keepS3 (Q2 V) main_arg8 (by decide)).trans (atR_main_arg8_2 V)

theorem atR_main_arg9_init (V : Valuation τ sig (Elt Ideal)) : V (Proc.devRef .tc main_arg9) = (domS V).db := rfl

theorem atR_main_arg9_0 (V : Valuation τ sig (Elt Ideal)) : Q0 V (Proc.devRef .tc main_arg9) = (domS V).db :=
  (keepS0 (V) main_arg9 (by decide)).trans (atR_main_arg9_init V)

theorem atR_main_arg9_1 (V : Valuation τ sig (Elt Ideal)) : Q1 V (Proc.devRef .tc main_arg9) = (domS V).db :=
  (keepS1 (Q0 V) main_arg9 (by decide)).trans (atR_main_arg9_0 V)

theorem atR_main_arg9_2 (V : Valuation τ sig (Elt Ideal)) : Q2 V (Proc.devRef .tc main_arg9) = (domS V).db :=
  (keepS2 (Q1 V) main_arg9 (by decide)).trans (atR_main_arg9_1 V)

theorem atR_main_arg9_3 (V : Valuation τ sig (Elt Ideal)) : Q3 V (Proc.devRef .tc main_arg9) = (domS V).db :=
  (keepS3 (Q2 V) main_arg9 (by decide)).trans (atR_main_arg9_2 V)

theorem atR_main_v21_4 (V : Valuation τ sig (Elt Ideal)) : Q4 V (Proc.devRef .tc main_v21) = gcn ((domS V).VU) (domS V).y0 (rowOf (⟨0, by decide⟩ : Fin 4) (domS V).db) := by
  show after seg4 (Q3 V) (Proc.devRef .tc main_v21) = _
  after_results_simp
  rw [atR_main_arg1_3 V, atR_main_v1_3 V, atR_main_arg8_3 V, atR_main_arg9_3 V]
  exact gcn_stage dot_S4096x128_S128x128_S4096x128_1_0_0_1_n_n rfl dot_S8192x4096_S4096x128_S8192x128_1_0_0_1_n_n rfl _ _ _ 0 (by decide) _ _ _ 0 (by decide) _ _ _ _ _ _ (fun _ => rfl) (fun _ => rfl)

theorem atR_main_v21_5 (V : Valuation τ sig (Elt Ideal)) : Q5 V (Proc.devRef .tc main_v21) = gcn ((domS V).VU) (domS V).y0 (rowOf (⟨0, by decide⟩ : Fin 4) (domS V).db) :=
  (keepS5 (Q4 V) main_v21 (by decide)).trans (atR_main_v21_4 V)

theorem atR_main_arg8_4 (V : Valuation τ sig (Elt Ideal)) : Q4 V (Proc.devRef .tc main_arg8) = (domS V).dW :=
  (keepS4 (Q3 V) main_arg8 (by decide)).trans (atR_main_arg8_3 V)

theorem atR_main_arg8_5 (V : Valuation τ sig (Elt Ideal)) : Q5 V (Proc.devRef .tc main_arg8) = (domS V).dW :=
  (keepS5 (Q4 V) main_arg8 (by decide)).trans (atR_main_arg8_4 V)

theorem atR_main_arg9_4 (V : Valuation τ sig (Elt Ideal)) : Q4 V (Proc.devRef .tc main_arg9) = (domS V).db :=
  (keepS4 (Q3 V) main_arg9 (by decide)).trans (atR_main_arg9_3 V)

theorem atR_main_arg9_5 (V : Valuation τ sig (Elt Ideal)) : Q5 V (Proc.devRef .tc main_arg9) = (domS V).db :=
  (keepS5 (Q4 V) main_arg9 (by decide)).trans (atR_main_arg9_4 V)

theorem atR_main_v49_6 (V : Valuation τ sig (Elt Ideal)) : Q6 V (Proc.devRef .tc main_v49) = gcn ((domS V).UV) (domS V).p1 (rowOf (⟨2, by decide⟩ : Fin 4) (domS V).db) := by
  show after seg6 (Q5 V) (Proc.devRef .tc main_v49) = _
  after_results_simp
  rw [atR_main_arg0_5 V, atR_main_v21_5 V, atR_main_arg8_5 V, atR_main_arg9_5 V]
  exact gcn_stage dot_S8192x128_S128x128_S8192x128_1_0_0_1_n_n rfl dot_S4096x8192_S8192x128_S4096x128_1_0_0_1_n_n rfl _ _ _ 2 (by decide) _ _ _ 2 (by decide) _ _ _ _ _ _ (fun _ => rfl) (fun _ => rfl)

theorem atR_main_v49_7 (V : Valuation τ sig (Elt Ideal)) : Q7 V (Proc.devRef .tc main_v49) = gcn ((domS V).UV) (domS V).p1 (rowOf (⟨2, by decide⟩ : Fin 4) (domS V).db) :=
  (keepS7 (Q6 V) main_v49 (by decide)).trans (atR_main_v49_6 V)

theorem atR_main_v1_4 (V : Valuation τ sig (Elt Ideal)) : Q4 V (Proc.devRef .tc main_v1) = (domS V).xu :=
  (keepS4 (Q3 V) main_v1 (by decide)).trans (atR_main_v1_3 V)

theorem atR_main_v1_5 (V : Valuation τ sig (Elt Ideal)) : Q5 V (Proc.devRef .tc main_v1) = (domS V).xu :=
  (keepS5 (Q4 V) main_v1 (by decide)).trans (atR_main_v1_4 V)

theorem atR_main_v1_6 (V : Valuation τ sig (Elt Ideal)) : Q6 V (Proc.devRef .tc main_v1) = (domS V).xu :=
  (keepS6 (Q5 V) main_v1 (by decide)).trans (atR_main_v1_5 V)

theorem atR_main_v1_7 (V : Valuation τ sig (Elt Ideal)) : Q7 V (Proc.devRef .tc main_v1) = (domS V).xu :=
  (keepS7 (Q6 V) main_v1 (by decide)).trans (atR_main_v1_6 V)

theorem atR_main_arg10_init (V : Valuation τ sig (Elt Ideal)) : V (Proc.devRef .tc main_arg10) = (domS V).uW := rfl

theorem atR_main_arg10_0 (V : Valuation τ sig (Elt Ideal)) : Q0 V (Proc.devRef .tc main_arg10) = (domS V).uW :=
  (keepS0 (V) main_arg10 (by decide)).trans (atR_main_arg10_init V)

theorem atR_main_arg10_1 (V : Valuation τ sig (Elt Ideal)) : Q1 V (Proc.devRef .tc main_arg10) = (domS V).uW :=
  (keepS1 (Q0 V) main_arg10 (by decide)).trans (atR_main_arg10_0 V)

theorem atR_main_arg10_2 (V : Valuation τ sig (Elt Ideal)) : Q2 V (Proc.devRef .tc main_arg10) = (domS V).uW :=
  (keepS2 (Q1 V) main_arg10 (by decide)).trans (atR_main_arg10_1 V)

theorem atR_main_arg10_3 (V : Valuation τ sig (Elt Ideal)) : Q3 V (Proc.devRef .tc main_arg10) = (domS V).uW :=
  (keepS3 (Q2 V) main_arg10 (by decide)).trans (atR_main_arg10_2 V)

theorem atR_main_arg10_4 (V : Valuation τ sig (Elt Ideal)) : Q4 V (Proc.devRef .tc main_arg10) = (domS V).uW :=
  (keepS4 (Q3 V) main_arg10 (by decide)).trans (atR_main_arg10_3 V)

theorem atR_main_arg10_5 (V : Valuation τ sig (Elt Ideal)) : Q5 V (Proc.devRef .tc main_arg10) = (domS V).uW :=
  (keepS5 (Q4 V) main_arg10 (by decide)).trans (atR_main_arg10_4 V)

theorem atR_main_arg10_6 (V : Valuation τ sig (Elt Ideal)) : Q6 V (Proc.devRef .tc main_arg10) = (domS V).uW :=
  (keepS6 (Q5 V) main_arg10 (by decide)).trans (atR_main_arg10_5 V)

theorem atR_main_arg10_7 (V : Valuation τ sig (Elt Ideal)) : Q7 V (Proc.devRef .tc main_arg10) = (domS V).uW :=
  (keepS7 (Q6 V) main_arg10 (by decide)).trans (atR_main_arg10_6 V)

theorem atR_main_arg11_init (V : Valuation τ sig (Elt Ideal)) : V (Proc.devRef .tc main_arg11) = (domS V).ub := rfl

theorem atR_main_arg11_0 (V : Valuation τ sig (Elt Ideal)) : Q0 V (Proc.devRef .tc main_arg11) = (domS V).ub :=
  (keepS0 (V) main_arg11 (by decide)).trans (atR_main_arg11_init V)

theorem atR_main_arg11_1 (V : Valuation τ sig (Elt Ideal)) : Q1 V (Proc.devRef .tc main_arg11) = (domS V).ub :=
  (keepS1 (Q0 V) main_arg11 (by decide)).trans (atR_main_arg11_0 V)

theorem atR_main_arg11_2 (V : Valuation τ sig (Elt Ideal)) : Q2 V (Proc.devRef .tc main_arg11) = (domS V).ub :=
  (keepS2 (Q1 V) main_arg11 (by decide)).trans (atR_main_arg11_1 V)

theorem atR_main_arg11_3 (V : Valuation τ sig (Elt Ideal)) : Q3 V (Proc.devRef .tc main_arg11) = (domS V).ub :=
  (keepS3 (Q2 V) main_arg11 (by decide)).trans (atR_main_arg11_2 V)

theorem atR_main_arg11_4 (V : Valuation τ sig (Elt Ideal)) : Q4 V (Proc.devRef .tc main_arg11) = (domS V).ub :=
  (keepS4 (Q3 V) main_arg11 (by decide)).trans (atR_main_arg11_3 V)

theorem atR_main_arg11_5 (V : Valuation τ sig (Elt Ideal)) : Q5 V (Proc.devRef .tc main_arg11) = (domS V).ub :=
  (keepS5 (Q4 V) main_arg11 (by decide)).trans (atR_main_arg11_4 V)

theorem atR_main_arg11_6 (V : Valuation τ sig (Elt Ideal)) : Q6 V (Proc.devRef .tc main_arg11) = (domS V).ub :=
  (keepS6 (Q5 V) main_arg11 (by decide)).trans (atR_main_arg11_5 V)

theorem atR_main_arg11_7 (V : Valuation τ sig (Elt Ideal)) : Q7 V (Proc.devRef .tc main_arg11) = (domS V).ub :=
  (keepS7 (Q6 V) main_arg11 (by decide)).trans (atR_main_arg11_6 V)

theorem atR_main_v72_8 (V : Valuation τ sig (Elt Ideal)) : Q8 V (Proc.devRef .tc main_v72) = union (gcn ((domS V).UV) (domS V).p1 (rowOf (⟨2, by decide⟩ : Fin 4) (domS V).db)) (top (slab (⟨0, by decide⟩ : Fin 2) (domS V).uW)) ((domS V).xu) (bot (slab (⟨0, by decide⟩ : Fin 2) (domS V).uW)) (rowOf (⟨0, by decide⟩ : Fin 2) (domS V).ub) := by
  show after seg8 (Q7 V) (Proc.devRef .tc main_v72) = _
  after_results_simp
  rw [atR_main_v49_7 V, atR_main_v1_7 V, atR_main_arg10_7 V, atR_main_arg11_7 V]
  exact union_stage (M := 4096) (A := 128) (B := 128) (N := 128) (n := 2) (nW := 2) dot_S4096x256_S256x128_S4096x128_1_0_0_1_n_n rfl _ _ _ _ 0 (by decide) _ _ _ 0 (by decide) _ _ _ _

theorem atR_main_v82_9 (V : Valuation τ sig (Elt Ideal)) : Q9 V (Proc.devRef .tc main_v82) = (domS V).u1 := by
  show after seg9 (Q8 V) (Proc.devRef .tc main_v82) = _
  after_results_simp
  rw [atR_main_v72_8 V]
  exact relu_host _ _ (fun _ => rfl)

theorem atR_main_v82_10 (V : Valuation τ sig (Elt Ideal)) : Q10 V (Proc.devRef .tc main_v82) = (domS V).u1 :=
  (keepS10 (Q9 V) main_v82 (by decide)).trans (atR_main_v82_9 V)

theorem atR_main_v82_11 (V : Valuation τ sig (Elt Ideal)) : Q11 V (Proc.devRef .tc main_v82) = (domS V).u1 :=
  (keepS11 (Q10 V) main_v82 (by decide)).trans (atR_main_v82_10 V)

theorem atR_main_v82_12 (V : Valuation τ sig (Elt Ideal)) : Q12 V (Proc.devRef .tc main_v82) = (domS V).u1 :=
  (keepS12 (Q11 V) main_v82 (by decide)).trans (atR_main_v82_11 V)

theorem atR_main_v82_13 (V : Valuation τ sig (Elt Ideal)) : Q13 V (Proc.devRef .tc main_v82) = (domS V).u1 :=
  (keepS13 (Q12 V) main_v82 (by decide)).trans (atR_main_v82_12 V)

theorem atR_main_v82_14 (V : Valuation τ sig (Elt Ideal)) : Q14 V (Proc.devRef .tc main_v82) = (domS V).u1 :=
  (keepS14 (Q13 V) main_v82 (by decide)).trans (atR_main_v82_13 V)

theorem atR_main_v82_15 (V : Valuation τ sig (Elt Ideal)) : Q15 V (Proc.devRef .tc main_v82) = (domS V).u1 :=
  (keepS15 (Q14 V) main_v82 (by decide)).trans (atR_main_v82_14 V)

theorem atR_main_v82_16 (V : Valuation τ sig (Elt Ideal)) : Q16 V (Proc.devRef .tc main_v82) = (domS V).u1 :=
  (keepS16 (Q15 V) main_v82 (by decide)).trans (atR_main_v82_15 V)

theorem atR_main_v82_17 (V : Valuation τ sig (Elt Ideal)) : Q17 V (Proc.devRef .tc main_v82) = (domS V).u1 :=
  (keepS17 (Q16 V) main_v82 (by decide)).trans (atR_main_v82_16 V)

theorem atR_main_v82_18 (V : Valuation τ sig (Elt Ideal)) : Q18 V (Proc.devRef .tc main_v82) = (domS V).u1 :=
  (keepS18 (Q17 V) main_v82 (by decide)).trans (atR_main_v82_17 V)

theorem atR_main_v82_19 (V : Valuation τ sig (Elt Ideal)) : Q19 V (Proc.devRef .tc main_v82) = (domS V).u1 :=
  (keepS19 (Q18 V) main_v82 (by decide)).trans (atR_main_v82_18 V)

theorem atR_main_v82_20 (V : Valuation τ sig (Elt Ideal)) : Q20 V (Proc.devRef .tc main_v82) = (domS V).u1 :=
  (keepS20 (Q19 V) main_v82 (by decide)).trans (atR_main_v82_19 V)

theorem atR_main_arg0_6 (V : Valuation τ sig (Elt Ideal)) : Q6 V (Proc.devRef .tc main_arg0) = (domS V).UV :=
  (keepS6 (Q5 V) main_arg0 (by decide)).trans (atR_main_arg0_5 V)

theorem atR_main_arg0_7 (V : Valuation τ sig (Elt Ideal)) : Q7 V (Proc.devRef .tc main_arg0) = (domS V).UV :=
  (keepS7 (Q6 V) main_arg0 (by decide)).trans (atR_main_arg0_6 V)

theorem atR_main_arg0_8 (V : Valuation τ sig (Elt Ideal)) : Q8 V (Proc.devRef .tc main_arg0) = (domS V).UV :=
  (keepS8 (Q7 V) main_arg0 (by decide)).trans (atR_main_arg0_7 V)

theorem atR_main_arg0_9 (V : Valuation τ sig (Elt Ideal)) : Q9 V (Proc.devRef .tc main_arg0) = (domS V).UV :=
  (keepS9 (Q8 V) main_arg0 (by decide)).trans (atR_main_arg0_8 V)

theorem atR_main_arg0_10 (V : Valuation τ sig (Elt Ideal)) : Q10 V (Proc.devRef .tc main_arg0) = (domS V).UV :=
  (keepS10 (Q9 V) main_arg0 (by decide)).trans (atR_main_arg0_9 V)

theorem atR_main_arg0_11 (V : Valuation τ sig (Elt Ideal)) : Q11 V (Proc.devRef .tc main_arg0) = (domS V).UV :=
  (keepS11 (Q10 V) main_arg0 (by decide)).trans (atR_main_arg0_10 V)

theorem atR_main_arg0_12 (V : Valuation τ sig (Elt Ideal)) : Q12 V (Proc.devRef .tc main_arg0) = (domS V).UV :=
  (keepS12 (Q11 V) main_arg0 (by decide)).trans (atR_main_arg0_11 V)

theorem atR_main_arg1_4 (V : Valuation τ sig (Elt Ideal)) : Q4 V (Proc.devRef .tc main_arg1) = (domS V).VU :=
  (keepS4 (Q3 V) main_arg1 (by decide)).trans (atR_main_arg1_3 V)

theorem atR_main_arg1_5 (V : Valuation τ sig (Elt Ideal)) : Q5 V (Proc.devRef .tc main_arg1) = (domS V).VU :=
  (keepS5 (Q4 V) main_arg1 (by decide)).trans (atR_main_arg1_4 V)

theorem atR_main_arg1_6 (V : Valuation τ sig (Elt Ideal)) : Q6 V (Proc.devRef .tc main_arg1) = (domS V).VU :=
  (keepS6 (Q5 V) main_arg1 (by decide)).trans (atR_main_arg1_5 V)

theorem atR_main_arg1_7 (V : Valuation τ sig (Elt Ideal)) : Q7 V (Proc.devRef .tc main_arg1) = (domS V).VU :=
  (keepS7 (Q6 V) main_arg1 (by decide)).trans (atR_main_arg1_6 V)

theorem atR_main_arg1_8 (V : Valuation τ sig (Elt Ideal)) : Q8 V (Proc.devRef .tc main_arg1) = (domS V).VU :=
  (keepS8 (Q7 V) main_arg1 (by decide)).trans (atR_main_arg1_7 V)

theorem atR_main_arg1_9 (V : Valuation τ sig (Elt Ideal)) : Q9 V (Proc.devRef .tc main_arg1) = (domS V).VU :=
  (keepS9 (Q8 V) main_arg1 (by decide)).trans (atR_main_arg1_8 V)

theorem atR_main_arg1_10 (V : Valuation τ sig (Elt Ideal)) : Q10 V (Proc.devRef .tc main_arg1) = (domS V).VU :=
  (keepS10 (Q9 V) main_arg1 (by decide)).trans (atR_main_arg1_9 V)

theorem atR_main_arg12_init (V : Valuation τ sig (Elt Ideal)) : V (Proc.devRef .tc main_arg12) = (domS V).lW := rfl

theorem atR_main_arg12_0 (V : Valuation τ sig (Elt Ideal)) : Q0 V (Proc.devRef .tc main_arg12) = (domS V).lW :=
  (keepS0 (V) main_arg12 (by decide)).trans (atR_main_arg12_init V)

theorem atR_main_arg12_1 (V : Valuation τ sig (Elt Ideal)) : Q1 V (Proc.devRef .tc main_arg12) = (domS V).lW :=
  (keepS1 (Q0 V) main_arg12 (by decide)).trans (atR_main_arg12_0 V)

theorem atR_main_arg12_2 (V : Valuation τ sig (Elt Ideal)) : Q2 V (Proc.devRef .tc main_arg12) = (domS V).lW :=
  (keepS2 (Q1 V) main_arg12 (by decide)).trans (atR_main_arg12_1 V)

theorem atR_main_arg12_3 (V : Valuation τ sig (Elt Ideal)) : Q3 V (Proc.devRef .tc main_arg12) = (domS V).lW :=
  (keepS3 (Q2 V) main_arg12 (by decide)).trans (atR_main_arg12_2 V)

theorem atR_main_arg12_4 (V : Valuation τ sig (Elt Ideal)) : Q4 V (Proc.devRef .tc main_arg12) = (domS V).lW :=
  (keepS4 (Q3 V) main_arg12 (by decide)).trans (atR_main_arg12_3 V)

theorem atR_main_arg12_5 (V : Valuation τ sig (Elt Ideal)) : Q5 V (Proc.devRef .tc main_arg12) = (domS V).lW :=
  (keepS5 (Q4 V) main_arg12 (by decide)).trans (atR_main_arg12_4 V)

theorem atR_main_arg12_6 (V : Valuation τ sig (Elt Ideal)) : Q6 V (Proc.devRef .tc main_arg12) = (domS V).lW :=
  (keepS6 (Q5 V) main_arg12 (by decide)).trans (atR_main_arg12_5 V)

theorem atR_main_arg12_7 (V : Valuation τ sig (Elt Ideal)) : Q7 V (Proc.devRef .tc main_arg12) = (domS V).lW :=
  (keepS7 (Q6 V) main_arg12 (by decide)).trans (atR_main_arg12_6 V)

theorem atR_main_arg12_8 (V : Valuation τ sig (Elt Ideal)) : Q8 V (Proc.devRef .tc main_arg12) = (domS V).lW :=
  (keepS8 (Q7 V) main_arg12 (by decide)).trans (atR_main_arg12_7 V)

theorem atR_main_arg12_9 (V : Valuation τ sig (Elt Ideal)) : Q9 V (Proc.devRef .tc main_arg12) = (domS V).lW :=
  (keepS9 (Q8 V) main_arg12 (by decide)).trans (atR_main_arg12_8 V)

theorem atR_main_arg12_10 (V : Valuation τ sig (Elt Ideal)) : Q10 V (Proc.devRef .tc main_arg12) = (domS V).lW :=
  (keepS10 (Q9 V) main_arg12 (by decide)).trans (atR_main_arg12_9 V)

theorem atR_main_arg13_init (V : Valuation τ sig (Elt Ideal)) : V (Proc.devRef .tc main_arg13) = (domS V).lb := rfl

theorem atR_main_arg13_0 (V : Valuation τ sig (Elt Ideal)) : Q0 V (Proc.devRef .tc main_arg13) = (domS V).lb :=
  (keepS0 (V) main_arg13 (by decide)).trans (atR_main_arg13_init V)

theorem atR_main_arg13_1 (V : Valuation τ sig (Elt Ideal)) : Q1 V (Proc.devRef .tc main_arg13) = (domS V).lb :=
  (keepS1 (Q0 V) main_arg13 (by decide)).trans (atR_main_arg13_0 V)

theorem atR_main_arg13_2 (V : Valuation τ sig (Elt Ideal)) : Q2 V (Proc.devRef .tc main_arg13) = (domS V).lb :=
  (keepS2 (Q1 V) main_arg13 (by decide)).trans (atR_main_arg13_1 V)

theorem atR_main_arg13_3 (V : Valuation τ sig (Elt Ideal)) : Q3 V (Proc.devRef .tc main_arg13) = (domS V).lb :=
  (keepS3 (Q2 V) main_arg13 (by decide)).trans (atR_main_arg13_2 V)

theorem atR_main_arg13_4 (V : Valuation τ sig (Elt Ideal)) : Q4 V (Proc.devRef .tc main_arg13) = (domS V).lb :=
  (keepS4 (Q3 V) main_arg13 (by decide)).trans (atR_main_arg13_3 V)

theorem atR_main_arg13_5 (V : Valuation τ sig (Elt Ideal)) : Q5 V (Proc.devRef .tc main_arg13) = (domS V).lb :=
  (keepS5 (Q4 V) main_arg13 (by decide)).trans (atR_main_arg13_4 V)

theorem atR_main_arg13_6 (V : Valuation τ sig (Elt Ideal)) : Q6 V (Proc.devRef .tc main_arg13) = (domS V).lb :=
  (keepS6 (Q5 V) main_arg13 (by decide)).trans (atR_main_arg13_5 V)

theorem atR_main_arg13_7 (V : Valuation τ sig (Elt Ideal)) : Q7 V (Proc.devRef .tc main_arg13) = (domS V).lb :=
  (keepS7 (Q6 V) main_arg13 (by decide)).trans (atR_main_arg13_6 V)

theorem atR_main_arg13_8 (V : Valuation τ sig (Elt Ideal)) : Q8 V (Proc.devRef .tc main_arg13) = (domS V).lb :=
  (keepS8 (Q7 V) main_arg13 (by decide)).trans (atR_main_arg13_7 V)

theorem atR_main_arg13_9 (V : Valuation τ sig (Elt Ideal)) : Q9 V (Proc.devRef .tc main_arg13) = (domS V).lb :=
  (keepS9 (Q8 V) main_arg13 (by decide)).trans (atR_main_arg13_8 V)

theorem atR_main_arg13_10 (V : Valuation τ sig (Elt Ideal)) : Q10 V (Proc.devRef .tc main_arg13) = (domS V).lb :=
  (keepS10 (Q9 V) main_arg13 (by decide)).trans (atR_main_arg13_9 V)

theorem atR_main_v97_11 (V : Valuation τ sig (Elt Ideal)) : Q11 V (Proc.devRef .tc main_v97) = gcn ((domS V).VU) (domS V).y2 (rowOf (⟨0, by decide⟩ : Fin 6) (domS V).lb) := by
  show after seg11 (Q10 V) (Proc.devRef .tc main_v97) = _
  after_results_simp
  rw [atR_main_arg1_10 V, atR_main_v82_10 V, atR_main_arg12_10 V, atR_main_arg13_10 V]
  exact gcn_stage dot_S4096x128_S128x128_S4096x128_1_0_0_1_n_n rfl dot_S8192x4096_S4096x128_S8192x128_1_0_0_1_n_n rfl _ _ _ 0 (by decide) _ _ _ 0 (by decide) _ _ _ _ _ _ (fun _ => rfl) (fun _ => rfl)

theorem atR_main_v97_12 (V : Valuation τ sig (Elt Ideal)) : Q12 V (Proc.devRef .tc main_v97) = gcn ((domS V).VU) (domS V).y2 (rowOf (⟨0, by decide⟩ : Fin 6) (domS V).lb) :=
  (keepS12 (Q11 V) main_v97 (by decide)).trans (atR_main_v97_11 V)

theorem atR_main_arg12_11 (V : Valuation τ sig (Elt Ideal)) : Q11 V (Proc.devRef .tc main_arg12) = (domS V).lW :=
  (keepS11 (Q10 V) main_arg12 (by decide)).trans (atR_main_arg12_10 V)

theorem atR_main_arg12_12 (V : Valuation τ sig (Elt Ideal)) : Q12 V (Proc.devRef .tc main_arg12) = (domS V).lW :=
  (keepS12 (Q11 V) main_arg12 (by decide)).trans (atR_main_arg12_11 V)

theorem atR_main_arg13_11 (V : Valuation τ sig (Elt Ideal)) : Q11 V (Proc.devRef .tc main_arg13) = (domS V).lb :=
  (keepS11 (Q10 V) main_arg13 (by decide)).trans (atR_main_arg13_10 V)

theorem atR_main_arg13_12 (V : Valuation τ sig (Elt Ideal)) : Q12 V (Proc.devRef .tc main_arg13) = (domS V).lb :=
  (keepS12 (Q11 V) main_arg13 (by decide)).trans (atR_main_arg13_11 V)

theorem atR_main_v125_13 (V : Valuation τ sig (Elt Ideal)) : Q13 V (Proc.devRef .tc main_v125) = gcn ((domS V).UV) (domS V).q1 (rowOf (⟨2, by decide⟩ : Fin 6) (domS V).lb) := by
  show after seg13 (Q12 V) (Proc.devRef .tc main_v125) = _
  after_results_simp
  rw [atR_main_arg0_12 V, atR_main_v97_12 V, atR_main_arg12_12 V, atR_main_arg13_12 V]
  exact gcn_stage dot_S8192x128_S128x128_S8192x128_1_0_0_1_n_n rfl dot_S4096x8192_S8192x128_S4096x128_1_0_0_1_n_n rfl _ _ _ 2 (by decide) _ _ _ 2 (by decide) _ _ _ _ _ _ (fun _ => rfl) (fun _ => rfl)

theorem atR_main_arg14_init (V : Valuation τ sig (Elt Ideal)) : V (Proc.devRef .tc main_arg14) = (domS V).luW := rfl

theorem atR_main_arg14_0 (V : Valuation τ sig (Elt Ideal)) : Q0 V (Proc.devRef .tc main_arg14) = (domS V).luW :=
  (keepS0 (V) main_arg14 (by decide)).trans (atR_main_arg14_init V)

theorem atR_main_arg14_1 (V : Valuation τ sig (Elt Ideal)) : Q1 V (Proc.devRef .tc main_arg14) = (domS V).luW :=
  (keepS1 (Q0 V) main_arg14 (by decide)).trans (atR_main_arg14_0 V)

theorem atR_main_arg14_2 (V : Valuation τ sig (Elt Ideal)) : Q2 V (Proc.devRef .tc main_arg14) = (domS V).luW :=
  (keepS2 (Q1 V) main_arg14 (by decide)).trans (atR_main_arg14_1 V)

theorem atR_main_arg14_3 (V : Valuation τ sig (Elt Ideal)) : Q3 V (Proc.devRef .tc main_arg14) = (domS V).luW :=
  (keepS3 (Q2 V) main_arg14 (by decide)).trans (atR_main_arg14_2 V)

theorem atR_main_arg14_4 (V : Valuation τ sig (Elt Ideal)) : Q4 V (Proc.devRef .tc main_arg14) = (domS V).luW :=
  (keepS4 (Q3 V) main_arg14 (by decide)).trans (atR_main_arg14_3 V)

theorem atR_main_arg14_5 (V : Valuation τ sig (Elt Ideal)) : Q5 V (Proc.devRef .tc main_arg14) = (domS V).luW :=
  (keepS5 (Q4 V) main_arg14 (by decide)).trans (atR_main_arg14_4 V)

theorem atR_main_arg14_6 (V : Valuation τ sig (Elt Ideal)) : Q6 V (Proc.devRef .tc main_arg14) = (domS V).luW :=
  (keepS6 (Q5 V) main_arg14 (by decide)).trans (atR_main_arg14_5 V)

theorem atR_main_arg14_7 (V : Valuation τ sig (Elt Ideal)) : Q7 V (Proc.devRef .tc main_arg14) = (domS V).luW :=
  (keepS7 (Q6 V) main_arg14 (by decide)).trans (atR_main_arg14_6 V)

theorem atR_main_arg14_8 (V : Valuation τ sig (Elt Ideal)) : Q8 V (Proc.devRef .tc main_arg14) = (domS V).luW :=
  (keepS8 (Q7 V) main_arg14 (by decide)).trans (atR_main_arg14_7 V)

theorem atR_main_arg14_9 (V : Valuation τ sig (Elt Ideal)) : Q9 V (Proc.devRef .tc main_arg14) = (domS V).luW :=
  (keepS9 (Q8 V) main_arg14 (by decide)).trans (atR_main_arg14_8 V)

theorem atR_main_arg14_10 (V : Valuation τ sig (Elt Ideal)) : Q10 V (Proc.devRef .tc main_arg14) = (domS V).luW :=
  (keepS10 (Q9 V) main_arg14 (by decide)).trans (atR_main_arg14_9 V)

theorem atR_main_arg14_11 (V : Valuation τ sig (Elt Ideal)) : Q11 V (Proc.devRef .tc main_arg14) = (domS V).luW :=
  (keepS11 (Q10 V) main_arg14 (by decide)).trans (atR_main_arg14_10 V)

theorem atR_main_arg14_12 (V : Valuation τ sig (Elt Ideal)) : Q12 V (Proc.devRef .tc main_arg14) = (domS V).luW :=
  (keepS12 (Q11 V) main_arg14 (by decide)).trans (atR_main_arg14_11 V)

theorem atR_main_arg14_13 (V : Valuation τ sig (Elt Ideal)) : Q13 V (Proc.devRef .tc main_arg14) = (domS V).luW :=
  (keepS13 (Q12 V) main_arg14 (by decide)).trans (atR_main_arg14_12 V)

theorem atR_main_arg15_init (V : Valuation τ sig (Elt Ideal)) : V (Proc.devRef .tc main_arg15) = (domS V).lub := rfl

theorem atR_main_arg15_0 (V : Valuation τ sig (Elt Ideal)) : Q0 V (Proc.devRef .tc main_arg15) = (domS V).lub :=
  (keepS0 (V) main_arg15 (by decide)).trans (atR_main_arg15_init V)

theorem atR_main_arg15_1 (V : Valuation τ sig (Elt Ideal)) : Q1 V (Proc.devRef .tc main_arg15) = (domS V).lub :=
  (keepS1 (Q0 V) main_arg15 (by decide)).trans (atR_main_arg15_0 V)

theorem atR_main_arg15_2 (V : Valuation τ sig (Elt Ideal)) : Q2 V (Proc.devRef .tc main_arg15) = (domS V).lub :=
  (keepS2 (Q1 V) main_arg15 (by decide)).trans (atR_main_arg15_1 V)

theorem atR_main_arg15_3 (V : Valuation τ sig (Elt Ideal)) : Q3 V (Proc.devRef .tc main_arg15) = (domS V).lub :=
  (keepS3 (Q2 V) main_arg15 (by decide)).trans (atR_main_arg15_2 V)

theorem atR_main_arg15_4 (V : Valuation τ sig (Elt Ideal)) : Q4 V (Proc.devRef .tc main_arg15) = (domS V).lub :=
  (keepS4 (Q3 V) main_arg15 (by decide)).trans (atR_main_arg15_3 V)

theorem atR_main_arg15_5 (V : Valuation τ sig (Elt Ideal)) : Q5 V (Proc.devRef .tc main_arg15) = (domS V).lub :=
  (keepS5 (Q4 V) main_arg15 (by decide)).trans (atR_main_arg15_4 V)

theorem atR_main_arg15_6 (V : Valuation τ sig (Elt Ideal)) : Q6 V (Proc.devRef .tc main_arg15) = (domS V).lub :=
  (keepS6 (Q5 V) main_arg15 (by decide)).trans (atR_main_arg15_5 V)

theorem atR_main_arg15_7 (V : Valuation τ sig (Elt Ideal)) : Q7 V (Proc.devRef .tc main_arg15) = (domS V).lub :=
  (keepS7 (Q6 V) main_arg15 (by decide)).trans (atR_main_arg15_6 V)

theorem atR_main_arg15_8 (V : Valuation τ sig (Elt Ideal)) : Q8 V (Proc.devRef .tc main_arg15) = (domS V).lub :=
  (keepS8 (Q7 V) main_arg15 (by decide)).trans (atR_main_arg15_7 V)

theorem atR_main_arg15_9 (V : Valuation τ sig (Elt Ideal)) : Q9 V (Proc.devRef .tc main_arg15) = (domS V).lub :=
  (keepS9 (Q8 V) main_arg15 (by decide)).trans (atR_main_arg15_8 V)

theorem atR_main_arg15_10 (V : Valuation τ sig (Elt Ideal)) : Q10 V (Proc.devRef .tc main_arg15) = (domS V).lub :=
  (keepS10 (Q9 V) main_arg15 (by decide)).trans (atR_main_arg15_9 V)

theorem atR_main_arg15_11 (V : Valuation τ sig (Elt Ideal)) : Q11 V (Proc.devRef .tc main_arg15) = (domS V).lub :=
  (keepS11 (Q10 V) main_arg15 (by decide)).trans (atR_main_arg15_10 V)

theorem atR_main_arg15_12 (V : Valuation τ sig (Elt Ideal)) : Q12 V (Proc.devRef .tc main_arg15) = (domS V).lub :=
  (keepS12 (Q11 V) main_arg15 (by decide)).trans (atR_main_arg15_11 V)

theorem atR_main_arg15_13 (V : Valuation τ sig (Elt Ideal)) : Q13 V (Proc.devRef .tc main_arg15) = (domS V).lub :=
  (keepS13 (Q12 V) main_arg15 (by decide)).trans (atR_main_arg15_12 V)

theorem atR_main_v134_14 (V : Valuation τ sig (Elt Ideal)) : Q14 V (Proc.devRef .tc main_v134) = (domS V).u2 := by
  show after seg14 (Q13 V) (Proc.devRef .tc main_v134) = _
  after_results_simp
  rw [atR_main_v125_13 V, atR_main_v82_13 V, atR_main_arg14_13 V, atR_main_arg15_13 V]
  exact union_stage (M := 4096) (A := 128) (B := 128) (N := 128) (n := 4) (nW := 4) dot_S4096x256_S256x128_S4096x128_1_0_0_1_n_n rfl _ _ _ _ 0 (by decide) _ _ _ 0 (by decide) _ _ _ _

theorem atR_main_v134_15 (V : Valuation τ sig (Elt Ideal)) : Q15 V (Proc.devRef .tc main_v134) = (domS V).u2 :=
  (keepS15 (Q14 V) main_v134 (by decide)).trans (atR_main_v134_14 V)

theorem atR_main_v134_16 (V : Valuation τ sig (Elt Ideal)) : Q16 V (Proc.devRef .tc main_v134) = (domS V).u2 :=
  (keepS16 (Q15 V) main_v134 (by decide)).trans (atR_main_v134_15 V)

theorem atR_main_v134_17 (V : Valuation τ sig (Elt Ideal)) : Q17 V (Proc.devRef .tc main_v134) = (domS V).u2 :=
  (keepS17 (Q16 V) main_v134 (by decide)).trans (atR_main_v134_16 V)

theorem atR_main_v134_18 (V : Valuation τ sig (Elt Ideal)) : Q18 V (Proc.devRef .tc main_v134) = (domS V).u2 :=
  (keepS18 (Q17 V) main_v134 (by decide)).trans (atR_main_v134_17 V)

theorem atR_main_v134_19 (V : Valuation τ sig (Elt Ideal)) : Q19 V (Proc.devRef .tc main_v134) = (domS V).u2 :=
  (keepS19 (Q18 V) main_v134 (by decide)).trans (atR_main_v134_18 V)

theorem atR_main_v134_20 (V : Valuation τ sig (Elt Ideal)) : Q20 V (Proc.devRef .tc main_v134) = (domS V).u2 :=
  (keepS20 (Q19 V) main_v134 (by decide)).trans (atR_main_v134_19 V)

theorem atR_main_v204_21 (V : Valuation τ sig (Elt Ideal)) : Q21 V (Proc.devRef .tc main_v204) = concatenate S4096x256 1 [⟨S4096x128, (domS V).u1⟩, ⟨S4096x128, (domS V).u2⟩] concatenates_S4096x128_S4096x128_S4096x256_d1 := by
  show after seg21 (Q20 V) (Proc.devRef .tc main_v204) = _
  after_results
  rw [atR_main_v82_20 V, atR_main_v134_20 V]

theorem atR_main_v204_22 (V : Valuation τ sig (Elt Ideal)) : Q22 V (Proc.devRef .tc main_v204) = concatenate S4096x256 1 [⟨S4096x128, (domS V).u1⟩, ⟨S4096x128, (domS V).u2⟩] concatenates_S4096x128_S4096x128_S4096x256_d1 :=
  (keepS22 (Q21 V) main_v204 (by decide)).trans (atR_main_v204_21 V)

theorem atR_main_v204_23 (V : Valuation τ sig (Elt Ideal)) : Q23 V (Proc.devRef .tc main_v204) = concatenate S4096x256 1 [⟨S4096x128, (domS V).u1⟩, ⟨S4096x128, (domS V).u2⟩] concatenates_S4096x128_S4096x128_S4096x256_d1 :=
  (keepS23 (Q22 V) main_v204 (by decide)).trans (atR_main_v204_22 V)

theorem atR_main_v204_24 (V : Valuation τ sig (Elt Ideal)) : Q24 V (Proc.devRef .tc main_v204) = concatenate S4096x256 1 [⟨S4096x128, (domS V).u1⟩, ⟨S4096x128, (domS V).u2⟩] concatenates_S4096x128_S4096x128_S4096x256_d1 :=
  (keepS24 (Q23 V) main_v204 (by decide)).trans (atR_main_v204_23 V)

theorem atR_main_v204_25 (V : Valuation τ sig (Elt Ideal)) : Q25 V (Proc.devRef .tc main_v204) = concatenate S4096x256 1 [⟨S4096x128, (domS V).u1⟩, ⟨S4096x128, (domS V).u2⟩] concatenates_S4096x128_S4096x128_S4096x256_d1 :=
  (keepS25 (Q24 V) main_v204 (by decide)).trans (atR_main_v204_24 V)

theorem atR_main_v204_26 (V : Valuation τ sig (Elt Ideal)) : Q26 V (Proc.devRef .tc main_v204) = concatenate S4096x256 1 [⟨S4096x128, (domS V).u1⟩, ⟨S4096x128, (domS V).u2⟩] concatenates_S4096x128_S4096x128_S4096x256_d1 :=
  (keepS26 (Q25 V) main_v204 (by decide)).trans (atR_main_v204_25 V)

theorem atR_main_v204_27 (V : Valuation τ sig (Elt Ideal)) : Q27 V (Proc.devRef .tc main_v204) = concatenate S4096x256 1 [⟨S4096x128, (domS V).u1⟩, ⟨S4096x128, (domS V).u2⟩] concatenates_S4096x128_S4096x128_S4096x256_d1 :=
  (keepS27 (Q26 V) main_v204 (by decide)).trans (atR_main_v204_26 V)

theorem atR_main_v204_28 (V : Valuation τ sig (Elt Ideal)) : Q28 V (Proc.devRef .tc main_v204) = concatenate S4096x256 1 [⟨S4096x128, (domS V).u1⟩, ⟨S4096x128, (domS V).u2⟩] concatenates_S4096x128_S4096x128_S4096x256_d1 :=
  (keepS28 (Q27 V) main_v204 (by decide)).trans (atR_main_v204_27 V)

theorem atR_main_v204_29 (V : Valuation τ sig (Elt Ideal)) : Q29 V (Proc.devRef .tc main_v204) = concatenate S4096x256 1 [⟨S4096x128, (domS V).u1⟩, ⟨S4096x128, (domS V).u2⟩] concatenates_S4096x128_S4096x128_S4096x256_d1 :=
  (keepS29 (Q28 V) main_v204 (by decide)).trans (atR_main_v204_28 V)

theorem atR_main_v204_30 (V : Valuation τ sig (Elt Ideal)) : Q30 V (Proc.devRef .tc main_v204) = concatenate S4096x256 1 [⟨S4096x128, (domS V).u1⟩, ⟨S4096x128, (domS V).u2⟩] concatenates_S4096x128_S4096x128_S4096x256_d1 :=
  (keepS30 (Q29 V) main_v204 (by decide)).trans (atR_main_v204_29 V)

theorem atR_main_v204_31 (V : Valuation τ sig (Elt Ideal)) : Q31 V (Proc.devRef .tc main_v204) = concatenate S4096x256 1 [⟨S4096x128, (domS V).u1⟩, ⟨S4096x128, (domS V).u2⟩] concatenates_S4096x128_S4096x128_S4096x256_d1 :=
  (keepS31 (Q30 V) main_v204 (by decide)).trans (atR_main_v204_30 V)

theorem atR_main_v204_32 (V : Valuation τ sig (Elt Ideal)) : Q32 V (Proc.devRef .tc main_v204) = concatenate S4096x256 1 [⟨S4096x128, (domS V).u1⟩, ⟨S4096x128, (domS V).u2⟩] concatenates_S4096x128_S4096x128_S4096x256_d1 :=
  (keepS32 (Q31 V) main_v204 (by decide)).trans (atR_main_v204_31 V)

theorem atR_main_v204_33 (V : Valuation τ sig (Elt Ideal)) : Q33 V (Proc.devRef .tc main_v204) = concatenate S4096x256 1 [⟨S4096x128, (domS V).u1⟩, ⟨S4096x128, (domS V).u2⟩] concatenates_S4096x128_S4096x128_S4096x256_d1 :=
  (keepS33 (Q32 V) main_v204 (by decide)).trans (atR_main_v204_32 V)

theorem atR_main_v204_34 (V : Valuation τ sig (Elt Ideal)) : Q34 V (Proc.devRef .tc main_v204) = concatenate S4096x256 1 [⟨S4096x128, (domS V).u1⟩, ⟨S4096x128, (domS V).u2⟩] concatenates_S4096x128_S4096x128_S4096x256_d1 :=
  (keepS34 (Q33 V) main_v204 (by decide)).trans (atR_main_v204_33 V)

theorem atR_main_v204_35 (V : Valuation τ sig (Elt Ideal)) : Q35 V (Proc.devRef .tc main_v204) = concatenate S4096x256 1 [⟨S4096x128, (domS V).u1⟩, ⟨S4096x128, (domS V).u2⟩] concatenates_S4096x128_S4096x128_S4096x256_d1 :=
  (keepS35 (Q34 V) main_v204 (by decide)).trans (atR_main_v204_34 V)

theorem atR_main_v204_36 (V : Valuation τ sig (Elt Ideal)) : Q36 V (Proc.devRef .tc main_v204) = concatenate S4096x256 1 [⟨S4096x128, (domS V).u1⟩, ⟨S4096x128, (domS V).u2⟩] concatenates_S4096x128_S4096x128_S4096x256_d1 :=
  (keepS36 (Q35 V) main_v204 (by decide)).trans (atR_main_v204_35 V)

theorem atR_main_v204_37 (V : Valuation τ sig (Elt Ideal)) : Q37 V (Proc.devRef .tc main_v204) = concatenate S4096x256 1 [⟨S4096x128, (domS V).u1⟩, ⟨S4096x128, (domS V).u2⟩] concatenates_S4096x128_S4096x128_S4096x256_d1 :=
  (keepS37 (Q36 V) main_v204 (by decide)).trans (atR_main_v204_36 V)

theorem atR_main_v406_38 (V : Valuation τ sig (Elt Ideal)) : Q38 V (Proc.devRef .tc main_v406) = concatenate S4096x256 0 [⟨S2048x256, extractStridedSlice S2048x256 ![0, 0] (concatenate S4096x256 1 [⟨S4096x128, (domT V).u1⟩, ⟨S4096x128, (domT V).u2⟩] concatenates_S4096x128_S4096x128_S4096x256_d1) slices_S4096x256_S2048x256_0_0⟩, ⟨S2048x256, extractStridedSlice S2048x256 ![2048, 0] (concatenate S4096x256 1 [⟨S4096x128, (domS V).u1⟩, ⟨S4096x128, (domS V).u2⟩] concatenates_S4096x128_S4096x128_S4096x256_d1) slices_S4096x256_S2048x256_2048_0⟩] concatenates_S2048x256_S2048x256_S4096x256_d0 := by
  show after seg38 (Q37 V) (Proc.devRef .tc main_v406) = _
  after_results
  rw [atR_main_v280_37 V, atR_main_v332_37 V, atR_main_v204_37 V]

theorem atR_main_arg5_init (V : Valuation τ sig (Elt Ideal)) : V (Proc.devRef .tc main_arg5) = (domS V).xv := rfl

theorem atR_main_arg5_0 (V : Valuation τ sig (Elt Ideal)) : Q0 V (Proc.devRef .tc main_arg5) = (domS V).xv :=
  (keepS0 (V) main_arg5 (by decide)).trans (atR_main_arg5_init V)

theorem atR_main_v3_1 (V : Valuation τ sig (Elt Ideal)) : Q1 V (Proc.devRef .tc main_v3) = (domS V).xv := by
  show after seg1 (Q0 V) (Proc.devRef .tc main_v3) = _
  after_results_simp
  rw [atR_main_arg5_0 V]
  exact Cert.TakeArange.take_arange_wrapped_eq (N := 8192) (C := 128) (by norm_num) (by norm_num)
    gather_S8192x128_S8192x1_S8192x128_1_0_n_n_0_1_1128 rfl rfl rfl rfl rfl rfl rfl
    (iotaInDim S8192 32 0) (broadcastInDim S8192 ![] bcast_S_S8192 (constantI S_ 32 0#32)) (broadcastInDim S8192 ![] bcast_S_S8192 (constantI S_ 32 8192#32))
    (fun _ => rfl) (fun _ => rfl) bcast_S8192_S8192x1_0
    (broadcastInDim S8192x1 ![] bcast_S_S8192x1 (constantI S_ 32 0#32))
    (broadcastInDim S8192x1 ![0, 1] bcast_S1x1_S8192x1_0_1 (broadcastInDim S1x1 ![1] bcast_S1_S1x1_1 (constantI S1 32 8191#32)))
    (fun _ => rfl) (fun _ => rfl) (constantI S_ 1 1#1) (fun _ => rfl)
    reducesTo_S8192x1_S8192_d1 h_S_ bcast_S8192_S8192x128_0 _ _

theorem atR_main_v3_2 (V : Valuation τ sig (Elt Ideal)) : Q2 V (Proc.devRef .tc main_v3) = (domS V).xv :=
  (keepS2 (Q1 V) main_v3 (by decide)).trans (atR_main_v3_1 V)

theorem atR_main_v3_3 (V : Valuation τ sig (Elt Ideal)) : Q3 V (Proc.devRef .tc main_v3) = (domS V).xv :=
  (keepS3 (Q2 V) main_v3 (by decide)).trans (atR_main_v3_2 V)

theorem atR_main_v3_4 (V : Valuation τ sig (Elt Ideal)) : Q4 V (Proc.devRef .tc main_v3) = (domS V).xv :=
  (keepS4 (Q3 V) main_v3 (by decide)).trans (atR_main_v3_3 V)

theorem atR_main_v35_5 (V : Valuation τ sig (Elt Ideal)) : Q5 V (Proc.devRef .tc main_v35) = gcn ((domS V).UV) (domS V).y1 (rowOf (⟨1, by decide⟩ : Fin 4) (domS V).db) := by
  show after seg5 (Q4 V) (Proc.devRef .tc main_v35) = _
  after_results_simp
  rw [atR_main_arg0_4 V, atR_main_v3_4 V, atR_main_arg8_4 V, atR_main_arg9_4 V]
  exact gcn_stage dot_S8192x128_S128x128_S8192x128_1_0_0_1_n_n rfl dot_S4096x8192_S8192x128_S4096x128_1_0_0_1_n_n rfl _ _ _ 1 (by decide) _ _ _ 1 (by decide) _ _ _ _ _ _ (fun _ => rfl) (fun _ => rfl)

theorem atR_main_v35_6 (V : Valuation τ sig (Elt Ideal)) : Q6 V (Proc.devRef .tc main_v35) = gcn ((domS V).UV) (domS V).y1 (rowOf (⟨1, by decide⟩ : Fin 4) (domS V).db) :=
  (keepS6 (Q5 V) main_v35 (by decide)).trans (atR_main_v35_5 V)

theorem atR_main_arg8_6 (V : Valuation τ sig (Elt Ideal)) : Q6 V (Proc.devRef .tc main_arg8) = (domS V).dW :=
  (keepS6 (Q5 V) main_arg8 (by decide)).trans (atR_main_arg8_5 V)

theorem atR_main_arg9_6 (V : Valuation τ sig (Elt Ideal)) : Q6 V (Proc.devRef .tc main_arg9) = (domS V).db :=
  (keepS6 (Q5 V) main_arg9 (by decide)).trans (atR_main_arg9_5 V)

theorem atR_main_v63_7 (V : Valuation τ sig (Elt Ideal)) : Q7 V (Proc.devRef .tc main_v63) = gcn ((domS V).VU) (domS V).p2 (rowOf (⟨3, by decide⟩ : Fin 4) (domS V).db) := by
  show after seg7 (Q6 V) (Proc.devRef .tc main_v63) = _
  after_results_simp
  rw [atR_main_arg1_6 V, atR_main_v35_6 V, atR_main_arg8_6 V, atR_main_arg9_6 V]
  exact gcn_stage dot_S4096x128_S128x128_S4096x128_1_0_0_1_n_n rfl dot_S8192x4096_S4096x128_S8192x128_1_0_0_1_n_n rfl _ _ _ 3 (by decide) _ _ _ 3 (by decide) _ _ _ _ _ _ (fun _ => rfl) (fun _ => rfl)

theorem atR_main_v63_8 (V : Valuation τ sig (Elt Ideal)) : Q8 V (Proc.devRef .tc main_v63) = gcn ((domS V).VU) (domS V).p2 (rowOf (⟨3, by decide⟩ : Fin 4) (domS V).db) :=
  (keepS8 (Q7 V) main_v63 (by decide)).trans (atR_main_v63_7 V)

theorem atR_main_v3_5 (V : Valuation τ sig (Elt Ideal)) : Q5 V (Proc.devRef .tc main_v3) = (domS V).xv :=
  (keepS5 (Q4 V) main_v3 (by decide)).trans (atR_main_v3_4 V)

theorem atR_main_v3_6 (V : Valuation τ sig (Elt Ideal)) : Q6 V (Proc.devRef .tc main_v3) = (domS V).xv :=
  (keepS6 (Q5 V) main_v3 (by decide)).trans (atR_main_v3_5 V)

theorem atR_main_v3_7 (V : Valuation τ sig (Elt Ideal)) : Q7 V (Proc.devRef .tc main_v3) = (domS V).xv :=
  (keepS7 (Q6 V) main_v3 (by decide)).trans (atR_main_v3_6 V)

theorem atR_main_v3_8 (V : Valuation τ sig (Elt Ideal)) : Q8 V (Proc.devRef .tc main_v3) = (domS V).xv :=
  (keepS8 (Q7 V) main_v3 (by decide)).trans (atR_main_v3_7 V)

theorem atR_main_arg10_8 (V : Valuation τ sig (Elt Ideal)) : Q8 V (Proc.devRef .tc main_arg10) = (domS V).uW :=
  (keepS8 (Q7 V) main_arg10 (by decide)).trans (atR_main_arg10_7 V)

theorem atR_main_arg11_8 (V : Valuation τ sig (Elt Ideal)) : Q8 V (Proc.devRef .tc main_arg11) = (domS V).ub :=
  (keepS8 (Q7 V) main_arg11 (by decide)).trans (atR_main_arg11_7 V)

theorem atR_main_v81_9 (V : Valuation τ sig (Elt Ideal)) : Q9 V (Proc.devRef .tc main_v81) = union (gcn ((domS V).VU) (domS V).p2 (rowOf (⟨3, by decide⟩ : Fin 4) (domS V).db)) (top (slab (⟨1, by decide⟩ : Fin 2) (domS V).uW)) ((domS V).xv) (bot (slab (⟨1, by decide⟩ : Fin 2) (domS V).uW)) (rowOf (⟨1, by decide⟩ : Fin 2) (domS V).ub) := by
  show after seg9 (Q8 V) (Proc.devRef .tc main_v81) = _
  after_results_simp
  rw [atR_main_v63_8 V, atR_main_v3_8 V, atR_main_arg10_8 V, atR_main_arg11_8 V]
  exact union_stage (M := 8192) (A := 128) (B := 128) (N := 128) (n := 2) (nW := 2) dot_S8192x256_S256x128_S8192x128_1_0_0_1_n_n rfl _ _ _ _ 1 (by decide) _ _ _ 1 (by decide) _ _ _ _

theorem atR_main_v83_10 (V : Valuation τ sig (Elt Ideal)) : Q10 V (Proc.devRef .tc main_v83) = (domS V).v1 := by
  show after seg10 (Q9 V) (Proc.devRef .tc main_v83) = _
  after_results_simp
  rw [atR_main_v81_9 V]
  exact relu_host _ _ (fun _ => rfl)

theorem atR_main_v83_11 (V : Valuation τ sig (Elt Ideal)) : Q11 V (Proc.devRef .tc main_v83) = (domS V).v1 :=
  (keepS11 (Q10 V) main_v83 (by decide)).trans (atR_main_v83_10 V)

theorem atR_main_v83_12 (V : Valuation τ sig (Elt Ideal)) : Q12 V (Proc.devRef .tc main_v83) = (domS V).v1 :=
  (keepS12 (Q11 V) main_v83 (by decide)).trans (atR_main_v83_11 V)

theorem atR_main_v83_13 (V : Valuation τ sig (Elt Ideal)) : Q13 V (Proc.devRef .tc main_v83) = (domS V).v1 :=
  (keepS13 (Q12 V) main_v83 (by decide)).trans (atR_main_v83_12 V)

theorem atR_main_v83_14 (V : Valuation τ sig (Elt Ideal)) : Q14 V (Proc.devRef .tc main_v83) = (domS V).v1 :=
  (keepS14 (Q13 V) main_v83 (by decide)).trans (atR_main_v83_13 V)

theorem atR_main_v83_15 (V : Valuation τ sig (Elt Ideal)) : Q15 V (Proc.devRef .tc main_v83) = (domS V).v1 :=
  (keepS15 (Q14 V) main_v83 (by decide)).trans (atR_main_v83_14 V)

theorem atR_main_v83_16 (V : Valuation τ sig (Elt Ideal)) : Q16 V (Proc.devRef .tc main_v83) = (domS V).v1 :=
  (keepS16 (Q15 V) main_v83 (by decide)).trans (atR_main_v83_15 V)

theorem atR_main_v83_17 (V : Valuation τ sig (Elt Ideal)) : Q17 V (Proc.devRef .tc main_v83) = (domS V).v1 :=
  (keepS17 (Q16 V) main_v83 (by decide)).trans (atR_main_v83_16 V)

theorem atR_main_v83_18 (V : Valuation τ sig (Elt Ideal)) : Q18 V (Proc.devRef .tc main_v83) = (domS V).v1 :=
  (keepS18 (Q17 V) main_v83 (by decide)).trans (atR_main_v83_17 V)

theorem atR_main_v83_19 (V : Valuation τ sig (Elt Ideal)) : Q19 V (Proc.devRef .tc main_v83) = (domS V).v1 :=
  (keepS19 (Q18 V) main_v83 (by decide)).trans (atR_main_v83_18 V)

theorem atR_main_v83_20 (V : Valuation τ sig (Elt Ideal)) : Q20 V (Proc.devRef .tc main_v83) = (domS V).v1 :=
  (keepS20 (Q19 V) main_v83 (by decide)).trans (atR_main_v83_19 V)

theorem atR_main_arg1_11 (V : Valuation τ sig (Elt Ideal)) : Q11 V (Proc.devRef .tc main_arg1) = (domS V).VU :=
  (keepS11 (Q10 V) main_arg1 (by decide)).trans (atR_main_arg1_10 V)

theorem atR_main_arg1_12 (V : Valuation τ sig (Elt Ideal)) : Q12 V (Proc.devRef .tc main_arg1) = (domS V).VU :=
  (keepS12 (Q11 V) main_arg1 (by decide)).trans (atR_main_arg1_11 V)

theorem atR_main_arg1_13 (V : Valuation τ sig (Elt Ideal)) : Q13 V (Proc.devRef .tc main_arg1) = (domS V).VU :=
  (keepS13 (Q12 V) main_arg1 (by decide)).trans (atR_main_arg1_12 V)

theorem atR_main_arg1_14 (V : Valuation τ sig (Elt Ideal)) : Q14 V (Proc.devRef .tc main_arg1) = (domS V).VU :=
  (keepS14 (Q13 V) main_arg1 (by decide)).trans (atR_main_arg1_13 V)

theorem atR_main_arg1_15 (V : Valuation τ sig (Elt Ideal)) : Q15 V (Proc.devRef .tc main_arg1) = (domS V).VU :=
  (keepS15 (Q14 V) main_arg1 (by decide)).trans (atR_main_arg1_14 V)

theorem atR_main_arg1_16 (V : Valuation τ sig (Elt Ideal)) : Q16 V (Proc.devRef .tc main_arg1) = (domS V).VU :=
  (keepS16 (Q15 V) main_arg1 (by decide)).trans (atR_main_arg1_15 V)

theorem atR_main_v111_12 (V : Valuation τ sig (Elt Ideal)) : Q12 V (Proc.devRef .tc main_v111) = gcn ((domS V).UV) (domS V).y3 (rowOf (⟨1, by decide⟩ : Fin 6) (domS V).lb) := by
  show after seg12 (Q11 V) (Proc.devRef .tc main_v111) = _
  after_results_simp
  rw [atR_main_arg0_11 V, atR_main_v83_11 V, atR_main_arg12_11 V, atR_main_arg13_11 V]
  exact gcn_stage dot_S8192x128_S128x128_S8192x128_1_0_0_1_n_n rfl dot_S4096x8192_S8192x128_S4096x128_1_0_0_1_n_n rfl _ _ _ 1 (by decide) _ _ _ 1 (by decide) _ _ _ _ _ _ (fun _ => rfl) (fun _ => rfl)

theorem atR_main_v111_13 (V : Valuation τ sig (Elt Ideal)) : Q13 V (Proc.devRef .tc main_v111) = gcn ((domS V).UV) (domS V).y3 (rowOf (⟨1, by decide⟩ : Fin 6) (domS V).lb) :=
  (keepS13 (Q12 V) main_v111 (by decide)).trans (atR_main_v111_12 V)

theorem atR_main_v111_14 (V : Valuation τ sig (Elt Ideal)) : Q14 V (Proc.devRef .tc main_v111) = gcn ((domS V).UV) (domS V).y3 (rowOf (⟨1, by decide⟩ : Fin 6) (domS V).lb) :=
  (keepS14 (Q13 V) main_v111 (by decide)).trans (atR_main_v111_13 V)

theorem atR_main_v111_15 (V : Valuation τ sig (Elt Ideal)) : Q15 V (Proc.devRef .tc main_v111) = gcn ((domS V).UV) (domS V).y3 (rowOf (⟨1, by decide⟩ : Fin 6) (domS V).lb) :=
  (keepS15 (Q14 V) main_v111 (by decide)).trans (atR_main_v111_14 V)

theorem atR_main_v111_16 (V : Valuation τ sig (Elt Ideal)) : Q16 V (Proc.devRef .tc main_v111) = gcn ((domS V).UV) (domS V).y3 (rowOf (⟨1, by decide⟩ : Fin 6) (domS V).lb) :=
  (keepS16 (Q15 V) main_v111 (by decide)).trans (atR_main_v111_15 V)

theorem atR_main_arg12_13 (V : Valuation τ sig (Elt Ideal)) : Q13 V (Proc.devRef .tc main_arg12) = (domS V).lW :=
  (keepS13 (Q12 V) main_arg12 (by decide)).trans (atR_main_arg12_12 V)

theorem atR_main_arg12_14 (V : Valuation τ sig (Elt Ideal)) : Q14 V (Proc.devRef .tc main_arg12) = (domS V).lW :=
  (keepS14 (Q13 V) main_arg12 (by decide)).trans (atR_main_arg12_13 V)

theorem atR_main_arg12_15 (V : Valuation τ sig (Elt Ideal)) : Q15 V (Proc.devRef .tc main_arg12) = (domS V).lW :=
  (keepS15 (Q14 V) main_arg12 (by decide)).trans (atR_main_arg12_14 V)

theorem atR_main_arg12_16 (V : Valuation τ sig (Elt Ideal)) : Q16 V (Proc.devRef .tc main_arg12) = (domS V).lW :=
  (keepS16 (Q15 V) main_arg12 (by decide)).trans (atR_main_arg12_15 V)

theorem atR_main_arg13_13 (V : Valuation τ sig (Elt Ideal)) : Q13 V (Proc.devRef .tc main_arg13) = (domS V).lb :=
  (keepS13 (Q12 V) main_arg13 (by decide)).trans (atR_main_arg13_12 V)

theorem atR_main_arg13_14 (V : Valuation τ sig (Elt Ideal)) : Q14 V (Proc.devRef .tc main_arg13) = (domS V).lb :=
  (keepS14 (Q13 V) main_arg13 (by decide)).trans (atR_main_arg13_13 V)

theorem atR_main_arg13_15 (V : Valuation τ sig (Elt Ideal)) : Q15 V (Proc.devRef .tc main_arg13) = (domS V).lb :=
  (keepS15 (Q14 V) main_arg13 (by decide)).trans (atR_main_arg13_14 V)

theorem atR_main_arg13_16 (V : Valuation τ sig (Elt Ideal)) : Q16 V (Proc.devRef .tc main_arg13) = (domS V).lb :=
  (keepS16 (Q15 V) main_arg13 (by decide)).trans (atR_main_arg13_15 V)

theorem atR_main_v171_17 (V : Valuation τ sig (Elt Ideal)) : Q17 V (Proc.devRef .tc main_v171) = gcn ((domS V).VU) (domS V).q2 (rowOf (⟨4, by decide⟩ : Fin 6) (domS V).lb) := by
  show after seg17 (Q16 V) (Proc.devRef .tc main_v171) = _
  after_results_simp
  rw [atR_main_arg1_16 V, atR_main_v111_16 V, atR_main_arg12_16 V, atR_main_arg13_16 V]
  exact gcn_stage dot_S4096x128_S128x128_S4096x128_1_0_0_1_n_n rfl dot_S8192x4096_S4096x128_S8192x128_1_0_0_1_n_n rfl _ _ _ 4 (by decide) _ _ _ 4 (by decide) _ _ _ _ _ _ (fun _ => rfl) (fun _ => rfl)

theorem atR_main_arg14_14 (V : Valuation τ sig (Elt Ideal)) : Q14 V (Proc.devRef .tc main_arg14) = (domS V).luW :=
  (keepS14 (Q13 V) main_arg14 (by decide)).trans (atR_main_arg14_13 V)

theorem atR_main_arg14_15 (V : Valuation τ sig (Elt Ideal)) : Q15 V (Proc.devRef .tc main_arg14) = (domS V).luW :=
  (keepS15 (Q14 V) main_arg14 (by decide)).trans (atR_main_arg14_14 V)

theorem atR_main_arg14_16 (V : Valuation τ sig (Elt Ideal)) : Q16 V (Proc.devRef .tc main_arg14) = (domS V).luW :=
  (keepS16 (Q15 V) main_arg14 (by decide)).trans (atR_main_arg14_15 V)

theorem atR_main_arg14_17 (V : Valuation τ sig (Elt Ideal)) : Q17 V (Proc.devRef .tc main_arg14) = (domS V).luW :=
  (keepS17 (Q16 V) main_arg14 (by decide)).trans (atR_main_arg14_16 V)

theorem atR_main_arg15_14 (V : Valuation τ sig (Elt Ideal)) : Q14 V (Proc.devRef .tc main_arg15) = (domS V).lub :=
  (keepS14 (Q13 V) main_arg15 (by decide)).trans (atR_main_arg15_13 V)

theorem atR_main_arg15_15 (V : Valuation τ sig (Elt Ideal)) : Q15 V (Proc.devRef .tc main_arg15) = (domS V).lub :=
  (keepS15 (Q14 V) main_arg15 (by decide)).trans (atR_main_arg15_14 V)

theorem atR_main_arg15_16 (V : Valuation τ sig (Elt Ideal)) : Q16 V (Proc.devRef .tc main_arg15) = (domS V).lub :=
  (keepS16 (Q15 V) main_arg15 (by decide)).trans (atR_main_arg15_15 V)

theorem atR_main_arg15_17 (V : Valuation τ sig (Elt Ideal)) : Q17 V (Proc.devRef .tc main_arg15) = (domS V).lub :=
  (keepS17 (Q16 V) main_arg15 (by decide)).trans (atR_main_arg15_16 V)

theorem atR_main_v180_18 (V : Valuation τ sig (Elt Ideal)) : Q18 V (Proc.devRef .tc main_v180) = (domS V).v2 := by
  show after seg18 (Q17 V) (Proc.devRef .tc main_v180) = _
  after_results_simp
  rw [atR_main_v171_17 V, atR_main_v83_17 V, atR_main_arg14_17 V, atR_main_arg15_17 V]
  exact union_stage (M := 8192) (A := 128) (B := 128) (N := 128) (n := 4) (nW := 4) dot_S8192x256_S256x128_S8192x128_1_0_0_1_n_n rfl _ _ _ _ 2 (by decide) _ _ _ 2 (by decide) _ _ _ _

theorem atR_main_v180_19 (V : Valuation τ sig (Elt Ideal)) : Q19 V (Proc.devRef .tc main_v180) = (domS V).v2 :=
  (keepS19 (Q18 V) main_v180 (by decide)).trans (atR_main_v180_18 V)

theorem atR_main_v180_20 (V : Valuation τ sig (Elt Ideal)) : Q20 V (Proc.devRef .tc main_v180) = (domS V).v2 :=
  (keepS20 (Q19 V) main_v180 (by decide)).trans (atR_main_v180_19 V)

theorem atR_main_v205_21 (V : Valuation τ sig (Elt Ideal)) : Q21 V (Proc.devRef .tc main_v205) = concatenate S8192x256 1 [⟨S8192x128, (domS V).v1⟩, ⟨S8192x128, (domS V).v2⟩] concatenates_S8192x128_S8192x128_S8192x256_d1 := by
  show after seg21 (Q20 V) (Proc.devRef .tc main_v205) = _
  after_results
  rw [atR_main_v83_20 V, atR_main_v180_20 V]

theorem atR_main_v205_22 (V : Valuation τ sig (Elt Ideal)) : Q22 V (Proc.devRef .tc main_v205) = concatenate S8192x256 1 [⟨S8192x128, (domS V).v1⟩, ⟨S8192x128, (domS V).v2⟩] concatenates_S8192x128_S8192x128_S8192x256_d1 :=
  (keepS22 (Q21 V) main_v205 (by decide)).trans (atR_main_v205_21 V)

theorem atR_main_v205_23 (V : Valuation τ sig (Elt Ideal)) : Q23 V (Proc.devRef .tc main_v205) = concatenate S8192x256 1 [⟨S8192x128, (domS V).v1⟩, ⟨S8192x128, (domS V).v2⟩] concatenates_S8192x128_S8192x128_S8192x256_d1 :=
  (keepS23 (Q22 V) main_v205 (by decide)).trans (atR_main_v205_22 V)

theorem atR_main_v205_24 (V : Valuation τ sig (Elt Ideal)) : Q24 V (Proc.devRef .tc main_v205) = concatenate S8192x256 1 [⟨S8192x128, (domS V).v1⟩, ⟨S8192x128, (domS V).v2⟩] concatenates_S8192x128_S8192x128_S8192x256_d1 :=
  (keepS24 (Q23 V) main_v205 (by decide)).trans (atR_main_v205_23 V)

theorem atR_main_v205_25 (V : Valuation τ sig (Elt Ideal)) : Q25 V (Proc.devRef .tc main_v205) = concatenate S8192x256 1 [⟨S8192x128, (domS V).v1⟩, ⟨S8192x128, (domS V).v2⟩] concatenates_S8192x128_S8192x128_S8192x256_d1 :=
  (keepS25 (Q24 V) main_v205 (by decide)).trans (atR_main_v205_24 V)

theorem atR_main_v205_26 (V : Valuation τ sig (Elt Ideal)) : Q26 V (Proc.devRef .tc main_v205) = concatenate S8192x256 1 [⟨S8192x128, (domS V).v1⟩, ⟨S8192x128, (domS V).v2⟩] concatenates_S8192x128_S8192x128_S8192x256_d1 :=
  (keepS26 (Q25 V) main_v205 (by decide)).trans (atR_main_v205_25 V)

theorem atR_main_v205_27 (V : Valuation τ sig (Elt Ideal)) : Q27 V (Proc.devRef .tc main_v205) = concatenate S8192x256 1 [⟨S8192x128, (domS V).v1⟩, ⟨S8192x128, (domS V).v2⟩] concatenates_S8192x128_S8192x128_S8192x256_d1 :=
  (keepS27 (Q26 V) main_v205 (by decide)).trans (atR_main_v205_26 V)

theorem atR_main_v205_28 (V : Valuation τ sig (Elt Ideal)) : Q28 V (Proc.devRef .tc main_v205) = concatenate S8192x256 1 [⟨S8192x128, (domS V).v1⟩, ⟨S8192x128, (domS V).v2⟩] concatenates_S8192x128_S8192x128_S8192x256_d1 :=
  (keepS28 (Q27 V) main_v205 (by decide)).trans (atR_main_v205_27 V)

theorem atR_main_v205_29 (V : Valuation τ sig (Elt Ideal)) : Q29 V (Proc.devRef .tc main_v205) = concatenate S8192x256 1 [⟨S8192x128, (domS V).v1⟩, ⟨S8192x128, (domS V).v2⟩] concatenates_S8192x128_S8192x128_S8192x256_d1 :=
  (keepS29 (Q28 V) main_v205 (by decide)).trans (atR_main_v205_28 V)

theorem atR_main_v205_30 (V : Valuation τ sig (Elt Ideal)) : Q30 V (Proc.devRef .tc main_v205) = concatenate S8192x256 1 [⟨S8192x128, (domS V).v1⟩, ⟨S8192x128, (domS V).v2⟩] concatenates_S8192x128_S8192x128_S8192x256_d1 :=
  (keepS30 (Q29 V) main_v205 (by decide)).trans (atR_main_v205_29 V)

theorem atR_main_v205_31 (V : Valuation τ sig (Elt Ideal)) : Q31 V (Proc.devRef .tc main_v205) = concatenate S8192x256 1 [⟨S8192x128, (domS V).v1⟩, ⟨S8192x128, (domS V).v2⟩] concatenates_S8192x128_S8192x128_S8192x256_d1 :=
  (keepS31 (Q30 V) main_v205 (by decide)).trans (atR_main_v205_30 V)

theorem atR_main_v205_32 (V : Valuation τ sig (Elt Ideal)) : Q32 V (Proc.devRef .tc main_v205) = concatenate S8192x256 1 [⟨S8192x128, (domS V).v1⟩, ⟨S8192x128, (domS V).v2⟩] concatenates_S8192x128_S8192x128_S8192x256_d1 :=
  (keepS32 (Q31 V) main_v205 (by decide)).trans (atR_main_v205_31 V)

theorem atR_main_v205_33 (V : Valuation τ sig (Elt Ideal)) : Q33 V (Proc.devRef .tc main_v205) = concatenate S8192x256 1 [⟨S8192x128, (domS V).v1⟩, ⟨S8192x128, (domS V).v2⟩] concatenates_S8192x128_S8192x128_S8192x256_d1 :=
  (keepS33 (Q32 V) main_v205 (by decide)).trans (atR_main_v205_32 V)

theorem atR_main_v205_34 (V : Valuation τ sig (Elt Ideal)) : Q34 V (Proc.devRef .tc main_v205) = concatenate S8192x256 1 [⟨S8192x128, (domS V).v1⟩, ⟨S8192x128, (domS V).v2⟩] concatenates_S8192x128_S8192x128_S8192x256_d1 :=
  (keepS34 (Q33 V) main_v205 (by decide)).trans (atR_main_v205_33 V)

theorem atR_main_v205_35 (V : Valuation τ sig (Elt Ideal)) : Q35 V (Proc.devRef .tc main_v205) = concatenate S8192x256 1 [⟨S8192x128, (domS V).v1⟩, ⟨S8192x128, (domS V).v2⟩] concatenates_S8192x128_S8192x128_S8192x256_d1 :=
  (keepS35 (Q34 V) main_v205 (by decide)).trans (atR_main_v205_34 V)

theorem atR_main_v205_36 (V : Valuation τ sig (Elt Ideal)) : Q36 V (Proc.devRef .tc main_v205) = concatenate S8192x256 1 [⟨S8192x128, (domS V).v1⟩, ⟨S8192x128, (domS V).v2⟩] concatenates_S8192x128_S8192x128_S8192x256_d1 :=
  (keepS36 (Q35 V) main_v205 (by decide)).trans (atR_main_v205_35 V)

theorem atR_main_v205_37 (V : Valuation τ sig (Elt Ideal)) : Q37 V (Proc.devRef .tc main_v205) = concatenate S8192x256 1 [⟨S8192x128, (domS V).v1⟩, ⟨S8192x128, (domS V).v2⟩] concatenates_S8192x128_S8192x128_S8192x256_d1 :=
  (keepS37 (Q36 V) main_v205 (by decide)).trans (atR_main_v205_36 V)

theorem atR_main_v205_38 (V : Valuation τ sig (Elt Ideal)) : Q38 V (Proc.devRef .tc main_v205) = concatenate S8192x256 1 [⟨S8192x128, (domS V).v1⟩, ⟨S8192x128, (domS V).v2⟩] concatenates_S8192x128_S8192x128_S8192x256_d1 :=
  (keepS38 (Q37 V) main_v205 (by decide)).trans (atR_main_v205_37 V)

theorem atR_main_v409_38 (V : Valuation τ sig (Elt Ideal)) : Q38 V (Proc.devRef .tc main_v409) = concatenate S4096x256 0 [⟨S2048x256, extractStridedSlice S2048x256 ![0, 0] (concatenate S4096x256 1 [⟨S4096x128, (domS V).u1⟩, ⟨S4096x128, (domS V).u2⟩] concatenates_S4096x128_S4096x128_S4096x256_d1) slices_S4096x256_S2048x256_0_0⟩, ⟨S2048x256, extractStridedSlice S2048x256 ![2048, 0] (concatenate S4096x256 1 [⟨S4096x128, (domT V).u1⟩, ⟨S4096x128, (domT V).u2⟩] concatenates_S4096x128_S4096x128_S4096x256_d1) slices_S4096x256_S2048x256_2048_0⟩] concatenates_S2048x256_S2048x256_S4096x256_d0 := by
  show after seg38 (Q37 V) (Proc.devRef .tc main_v409) = _
  after_results
  rw [atR_main_v204_37 V, atR_main_v280_37 V, atR_main_v332_37 V]

theorem atR_main_arg7_init (V : Valuation τ sig (Elt Ideal)) : V (Proc.devRef .tc main_arg7) = (domT V).xv := rfl

theorem atR_main_arg7_0 (V : Valuation τ sig (Elt Ideal)) : Q0 V (Proc.devRef .tc main_arg7) = (domT V).xv :=
  (keepS0 (V) main_arg7 (by decide)).trans (atR_main_arg7_init V)

theorem atR_main_arg7_1 (V : Valuation τ sig (Elt Ideal)) : Q1 V (Proc.devRef .tc main_arg7) = (domT V).xv :=
  (keepS1 (Q0 V) main_arg7 (by decide)).trans (atR_main_arg7_0 V)

theorem atR_main_arg7_2 (V : Valuation τ sig (Elt Ideal)) : Q2 V (Proc.devRef .tc main_arg7) = (domT V).xv :=
  (keepS2 (Q1 V) main_arg7 (by decide)).trans (atR_main_arg7_1 V)

theorem atR_main_v7_3 (V : Valuation τ sig (Elt Ideal)) : Q3 V (Proc.devRef .tc main_v7) = (domT V).xv := by
  show after seg3 (Q2 V) (Proc.devRef .tc main_v7) = _
  after_results_simp
  rw [atR_main_arg7_2 V]
  exact Cert.TakeArange.take_arange_wrapped_eq (N := 8192) (C := 128) (by norm_num) (by norm_num)
    gather_S8192x128_S8192x1_S8192x128_1_0_n_n_0_1_1128 rfl rfl rfl rfl rfl rfl rfl
    (iotaInDim S8192 32 0) (broadcastInDim S8192 ![] bcast_S_S8192 (constantI S_ 32 0#32)) (broadcastInDim S8192 ![] bcast_S_S8192 (constantI S_ 32 8192#32))
    (fun _ => rfl) (fun _ => rfl) bcast_S8192_S8192x1_0
    (broadcastInDim S8192x1 ![] bcast_S_S8192x1 (constantI S_ 32 0#32))
    (broadcastInDim S8192x1 ![0, 1] bcast_S1x1_S8192x1_0_1 (broadcastInDim S1x1 ![1] bcast_S1_S1x1_1 (constantI S1 32 8191#32)))
    (fun _ => rfl) (fun _ => rfl) (constantI S_ 1 1#1) (fun _ => rfl)
    reducesTo_S8192x1_S8192_d1 h_S_ bcast_S8192_S8192x128_0 _ _

theorem atR_main_v7_4 (V : Valuation τ sig (Elt Ideal)) : Q4 V (Proc.devRef .tc main_v7) = (domT V).xv :=
  (keepS4 (Q3 V) main_v7 (by decide)).trans (atR_main_v7_3 V)

theorem atR_main_v7_5 (V : Valuation τ sig (Elt Ideal)) : Q5 V (Proc.devRef .tc main_v7) = (domT V).xv :=
  (keepS5 (Q4 V) main_v7 (by decide)).trans (atR_main_v7_4 V)

theorem atR_main_v7_6 (V : Valuation τ sig (Elt Ideal)) : Q6 V (Proc.devRef .tc main_v7) = (domT V).xv :=
  (keepS6 (Q5 V) main_v7 (by decide)).trans (atR_main_v7_5 V)

theorem atR_main_v7_7 (V : Valuation τ sig (Elt Ideal)) : Q7 V (Proc.devRef .tc main_v7) = (domT V).xv :=
  (keepS7 (Q6 V) main_v7 (by decide)).trans (atR_main_v7_6 V)

theorem atR_main_v7_8 (V : Valuation τ sig (Elt Ideal)) : Q8 V (Proc.devRef .tc main_v7) = (domT V).xv :=
  (keepS8 (Q7 V) main_v7 (by decide)).trans (atR_main_v7_7 V)

theorem atR_main_v7_9 (V : Valuation τ sig (Elt Ideal)) : Q9 V (Proc.devRef .tc main_v7) = (domT V).xv :=
  (keepS9 (Q8 V) main_v7 (by decide)).trans (atR_main_v7_8 V)

theorem atR_main_v7_10 (V : Valuation τ sig (Elt Ideal)) : Q10 V (Proc.devRef .tc main_v7) = (domT V).xv :=
  (keepS10 (Q9 V) main_v7 (by decide)).trans (atR_main_v7_9 V)

theorem atR_main_v7_11 (V : Valuation τ sig (Elt Ideal)) : Q11 V (Proc.devRef .tc main_v7) = (domT V).xv :=
  (keepS11 (Q10 V) main_v7 (by decide)).trans (atR_main_v7_10 V)

theorem atR_main_v7_12 (V : Valuation τ sig (Elt Ideal)) : Q12 V (Proc.devRef .tc main_v7) = (domT V).xv :=
  (keepS12 (Q11 V) main_v7 (by decide)).trans (atR_main_v7_11 V)

theorem atR_main_v7_13 (V : Valuation τ sig (Elt Ideal)) : Q13 V (Proc.devRef .tc main_v7) = (domT V).xv :=
  (keepS13 (Q12 V) main_v7 (by decide)).trans (atR_main_v7_12 V)

theorem atR_main_v7_14 (V : Valuation τ sig (Elt Ideal)) : Q14 V (Proc.devRef .tc main_v7) = (domT V).xv :=
  (keepS14 (Q13 V) main_v7 (by decide)).trans (atR_main_v7_13 V)

theorem atR_main_v7_15 (V : Valuation τ sig (Elt Ideal)) : Q15 V (Proc.devRef .tc main_v7) = (domT V).xv :=
  (keepS15 (Q14 V) main_v7 (by decide)).trans (atR_main_v7_14 V)

theorem atR_main_v7_16 (V : Valuation τ sig (Elt Ideal)) : Q16 V (Proc.devRef .tc main_v7) = (domT V).xv :=
  (keepS16 (Q15 V) main_v7 (by decide)).trans (atR_main_v7_15 V)

theorem atR_main_v7_17 (V : Valuation τ sig (Elt Ideal)) : Q17 V (Proc.devRef .tc main_v7) = (domT V).xv :=
  (keepS17 (Q16 V) main_v7 (by decide)).trans (atR_main_v7_16 V)

theorem atR_main_v7_18 (V : Valuation τ sig (Elt Ideal)) : Q18 V (Proc.devRef .tc main_v7) = (domT V).xv :=
  (keepS18 (Q17 V) main_v7 (by decide)).trans (atR_main_v7_17 V)

theorem atR_main_v7_19 (V : Valuation τ sig (Elt Ideal)) : Q19 V (Proc.devRef .tc main_v7) = (domT V).xv :=
  (keepS19 (Q18 V) main_v7 (by decide)).trans (atR_main_v7_18 V)

theorem atR_main_v7_20 (V : Valuation τ sig (Elt Ideal)) : Q20 V (Proc.devRef .tc main_v7) = (domT V).xv :=
  (keepS20 (Q19 V) main_v7 (by decide)).trans (atR_main_v7_19 V)

theorem atR_main_v7_21 (V : Valuation τ sig (Elt Ideal)) : Q21 V (Proc.devRef .tc main_v7) = (domT V).xv :=
  (keepS21 (Q20 V) main_v7 (by decide)).trans (atR_main_v7_20 V)

theorem atR_main_v233_22 (V : Valuation τ sig (Elt Ideal)) : Q22 V (Proc.devRef .tc main_v233) = gcn ((domT V).UV) (domT V).y1 (rowOf (⟨1, by decide⟩ : Fin 4) (domT V).db) := by
  show after seg22 (Q21 V) (Proc.devRef .tc main_v233) = _
  after_results_simp
  rw [atR_main_arg2_21 V, atR_main_v7_21 V, atR_main_arg16_21 V, atR_main_arg17_21 V]
  exact gcn_stage dot_S8192x128_S128x128_S8192x128_1_0_0_1_n_n rfl dot_S4096x8192_S8192x128_S4096x128_1_0_0_1_n_n rfl _ _ _ 1 (by decide) _ _ _ 1 (by decide) _ _ _ _ _ _ (fun _ => rfl) (fun _ => rfl)

theorem atR_main_v233_23 (V : Valuation τ sig (Elt Ideal)) : Q23 V (Proc.devRef .tc main_v233) = gcn ((domT V).UV) (domT V).y1 (rowOf (⟨1, by decide⟩ : Fin 4) (domT V).db) :=
  (keepS23 (Q22 V) main_v233 (by decide)).trans (atR_main_v233_22 V)

theorem atR_main_arg16_23 (V : Valuation τ sig (Elt Ideal)) : Q23 V (Proc.devRef .tc main_arg16) = (domT V).dW :=
  (keepS23 (Q22 V) main_arg16 (by decide)).trans (atR_main_arg16_22 V)

theorem atR_main_arg17_23 (V : Valuation τ sig (Elt Ideal)) : Q23 V (Proc.devRef .tc main_arg17) = (domT V).db :=
  (keepS23 (Q22 V) main_arg17 (by decide)).trans (atR_main_arg17_22 V)

theorem atR_main_v261_24 (V : Valuation τ sig (Elt Ideal)) : Q24 V (Proc.devRef .tc main_v261) = gcn ((domT V).VU) (domT V).p2 (rowOf (⟨3, by decide⟩ : Fin 4) (domT V).db) := by
  show after seg24 (Q23 V) (Proc.devRef .tc main_v261) = _
  after_results_simp
  rw [atR_main_arg3_23 V, atR_main_v233_23 V, atR_main_arg16_23 V, atR_main_arg17_23 V]
  exact gcn_stage dot_S4096x128_S128x128_S4096x128_1_0_0_1_n_n rfl dot_S8192x4096_S4096x128_S8192x128_1_0_0_1_n_n rfl _ _ _ 3 (by decide) _ _ _ 3 (by decide) _ _ _ _ _ _ (fun _ => rfl) (fun _ => rfl)

theorem atR_main_v261_25 (V : Valuation τ sig (Elt Ideal)) : Q25 V (Proc.devRef .tc main_v261) = gcn ((domT V).VU) (domT V).p2 (rowOf (⟨3, by decide⟩ : Fin 4) (domT V).db) :=
  (keepS25 (Q24 V) main_v261 (by decide)).trans (atR_main_v261_24 V)

theorem atR_main_v7_22 (V : Valuation τ sig (Elt Ideal)) : Q22 V (Proc.devRef .tc main_v7) = (domT V).xv :=
  (keepS22 (Q21 V) main_v7 (by decide)).trans (atR_main_v7_21 V)

theorem atR_main_v7_23 (V : Valuation τ sig (Elt Ideal)) : Q23 V (Proc.devRef .tc main_v7) = (domT V).xv :=
  (keepS23 (Q22 V) main_v7 (by decide)).trans (atR_main_v7_22 V)

theorem atR_main_v7_24 (V : Valuation τ sig (Elt Ideal)) : Q24 V (Proc.devRef .tc main_v7) = (domT V).xv :=
  (keepS24 (Q23 V) main_v7 (by decide)).trans (atR_main_v7_23 V)

theorem atR_main_v7_25 (V : Valuation τ sig (Elt Ideal)) : Q25 V (Proc.devRef .tc main_v7) = (domT V).xv :=
  (keepS25 (Q24 V) main_v7 (by decide)).trans (atR_main_v7_24 V)

theorem atR_main_arg18_25 (V : Valuation τ sig (Elt Ideal)) : Q25 V (Proc.devRef .tc main_arg18) = (domT V).uW :=
  (keepS25 (Q24 V) main_arg18 (by decide)).trans (atR_main_arg18_24 V)

theorem atR_main_arg19_25 (V : Valuation τ sig (Elt Ideal)) : Q25 V (Proc.devRef .tc main_arg19) = (domT V).ub :=
  (keepS25 (Q24 V) main_arg19 (by decide)).trans (atR_main_arg19_24 V)

theorem atR_main_v279_26 (V : Valuation τ sig (Elt Ideal)) : Q26 V (Proc.devRef .tc main_v279) = union (gcn ((domT V).VU) (domT V).p2 (rowOf (⟨3, by decide⟩ : Fin 4) (domT V).db)) (top (slab (⟨1, by decide⟩ : Fin 2) (domT V).uW)) ((domT V).xv) (bot (slab (⟨1, by decide⟩ : Fin 2) (domT V).uW)) (rowOf (⟨1, by decide⟩ : Fin 2) (domT V).ub) := by
  show after seg26 (Q25 V) (Proc.devRef .tc main_v279) = _
  after_results_simp
  rw [atR_main_v261_25 V, atR_main_v7_25 V, atR_main_arg18_25 V, atR_main_arg19_25 V]
  exact union_stage (M := 8192) (A := 128) (B := 128) (N := 128) (n := 2) (nW := 2) dot_S8192x256_S256x128_S8192x128_1_0_0_1_n_n rfl _ _ _ _ 1 (by decide) _ _ _ 1 (by decide) _ _ _ _

theorem atR_main_v281_27 (V : Valuation τ sig (Elt Ideal)) : Q27 V (Proc.devRef .tc main_v281) = (domT V).v1 := by
  show after seg27 (Q26 V) (Proc.devRef .tc main_v281) = _
  after_results_simp
  rw [atR_main_v279_26 V]
  exact relu_host _ _ (fun _ => rfl)

theorem atR_main_v281_28 (V : Valuation τ sig (Elt Ideal)) : Q28 V (Proc.devRef .tc main_v281) = (domT V).v1 :=
  (keepS28 (Q27 V) main_v281 (by decide)).trans (atR_main_v281_27 V)

theorem atR_main_v281_29 (V : Valuation τ sig (Elt Ideal)) : Q29 V (Proc.devRef .tc main_v281) = (domT V).v1 :=
  (keepS29 (Q28 V) main_v281 (by decide)).trans (atR_main_v281_28 V)

theorem atR_main_v281_30 (V : Valuation τ sig (Elt Ideal)) : Q30 V (Proc.devRef .tc main_v281) = (domT V).v1 :=
  (keepS30 (Q29 V) main_v281 (by decide)).trans (atR_main_v281_29 V)

theorem atR_main_v281_31 (V : Valuation τ sig (Elt Ideal)) : Q31 V (Proc.devRef .tc main_v281) = (domT V).v1 :=
  (keepS31 (Q30 V) main_v281 (by decide)).trans (atR_main_v281_30 V)

theorem atR_main_v281_32 (V : Valuation τ sig (Elt Ideal)) : Q32 V (Proc.devRef .tc main_v281) = (domT V).v1 :=
  (keepS32 (Q31 V) main_v281 (by decide)).trans (atR_main_v281_31 V)

theorem atR_main_v281_33 (V : Valuation τ sig (Elt Ideal)) : Q33 V (Proc.devRef .tc main_v281) = (domT V).v1 :=
  (keepS33 (Q32 V) main_v281 (by decide)).trans (atR_main_v281_32 V)

theorem atR_main_v281_34 (V : Valuation τ sig (Elt Ideal)) : Q34 V (Proc.devRef .tc main_v281) = (domT V).v1 :=
  (keepS34 (Q33 V) main_v281 (by decide)).trans (atR_main_v281_33 V)

theorem atR_main_v281_35 (V : Valuation τ sig (Elt Ideal)) : Q35 V (Proc.devRef .tc main_v281) = (domT V).v1 :=
  (keepS35 (Q34 V) main_v281 (by decide)).trans (atR_main_v281_34 V)

theorem atR_main_v281_36 (V : Valuation τ sig (Elt Ideal)) : Q36 V (Proc.devRef .tc main_v281) = (domT V).v1 :=
  (keepS36 (Q35 V) main_v281 (by decide)).trans (atR_main_v281_35 V)

theorem atR_main_v281_37 (V : Valuation τ sig (Elt Ideal)) : Q37 V (Proc.devRef .tc main_v281) = (domT V).v1 :=
  (keepS37 (Q36 V) main_v281 (by decide)).trans (atR_main_v281_36 V)

theorem atR_main_arg3_28 (V : Valuation τ sig (Elt Ideal)) : Q28 V (Proc.devRef .tc main_arg3) = (domT V).VU :=
  (keepS28 (Q27 V) main_arg3 (by decide)).trans (atR_main_arg3_27 V)

theorem atR_main_arg3_29 (V : Valuation τ sig (Elt Ideal)) : Q29 V (Proc.devRef .tc main_arg3) = (domT V).VU :=
  (keepS29 (Q28 V) main_arg3 (by decide)).trans (atR_main_arg3_28 V)

theorem atR_main_arg3_30 (V : Valuation τ sig (Elt Ideal)) : Q30 V (Proc.devRef .tc main_arg3) = (domT V).VU :=
  (keepS30 (Q29 V) main_arg3 (by decide)).trans (atR_main_arg3_29 V)

theorem atR_main_arg3_31 (V : Valuation τ sig (Elt Ideal)) : Q31 V (Proc.devRef .tc main_arg3) = (domT V).VU :=
  (keepS31 (Q30 V) main_arg3 (by decide)).trans (atR_main_arg3_30 V)

theorem atR_main_arg3_32 (V : Valuation τ sig (Elt Ideal)) : Q32 V (Proc.devRef .tc main_arg3) = (domT V).VU :=
  (keepS32 (Q31 V) main_arg3 (by decide)).trans (atR_main_arg3_31 V)

theorem atR_main_arg3_33 (V : Valuation τ sig (Elt Ideal)) : Q33 V (Proc.devRef .tc main_arg3) = (domT V).VU :=
  (keepS33 (Q32 V) main_arg3 (by decide)).trans (atR_main_arg3_32 V)

theorem atR_main_v309_29 (V : Valuation τ sig (Elt Ideal)) : Q29 V (Proc.devRef .tc main_v309) = gcn ((domT V).UV) (domT V).y3 (rowOf (⟨1, by decide⟩ : Fin 6) (domT V).lb) := by
  show after seg29 (Q28 V) (Proc.devRef .tc main_v309) = _
  after_results_simp
  rw [atR_main_arg2_28 V, atR_main_v281_28 V, atR_main_arg20_28 V, atR_main_arg21_28 V]
  exact gcn_stage dot_S8192x128_S128x128_S8192x128_1_0_0_1_n_n rfl dot_S4096x8192_S8192x128_S4096x128_1_0_0_1_n_n rfl _ _ _ 1 (by decide) _ _ _ 1 (by decide) _ _ _ _ _ _ (fun _ => rfl) (fun _ => rfl)

theorem atR_main_v309_30 (V : Valuation τ sig (Elt Ideal)) : Q30 V (Proc.devRef .tc main_v309) = gcn ((domT V).UV) (domT V).y3 (rowOf (⟨1, by decide⟩ : Fin 6) (domT V).lb) :=
  (keepS30 (Q29 V) main_v309 (by decide)).trans (atR_main_v309_29 V)

theorem atR_main_v309_31 (V : Valuation τ sig (Elt Ideal)) : Q31 V (Proc.devRef .tc main_v309) = gcn ((domT V).UV) (domT V).y3 (rowOf (⟨1, by decide⟩ : Fin 6) (domT V).lb) :=
  (keepS31 (Q30 V) main_v309 (by decide)).trans (atR_main_v309_30 V)

theorem atR_main_v309_32 (V : Valuation τ sig (Elt Ideal)) : Q32 V (Proc.devRef .tc main_v309) = gcn ((domT V).UV) (domT V).y3 (rowOf (⟨1, by decide⟩ : Fin 6) (domT V).lb) :=
  (keepS32 (Q31 V) main_v309 (by decide)).trans (atR_main_v309_31 V)

theorem atR_main_v309_33 (V : Valuation τ sig (Elt Ideal)) : Q33 V (Proc.devRef .tc main_v309) = gcn ((domT V).UV) (domT V).y3 (rowOf (⟨1, by decide⟩ : Fin 6) (domT V).lb) :=
  (keepS33 (Q32 V) main_v309 (by decide)).trans (atR_main_v309_32 V)

theorem atR_main_arg20_30 (V : Valuation τ sig (Elt Ideal)) : Q30 V (Proc.devRef .tc main_arg20) = (domT V).lW :=
  (keepS30 (Q29 V) main_arg20 (by decide)).trans (atR_main_arg20_29 V)

theorem atR_main_arg20_31 (V : Valuation τ sig (Elt Ideal)) : Q31 V (Proc.devRef .tc main_arg20) = (domT V).lW :=
  (keepS31 (Q30 V) main_arg20 (by decide)).trans (atR_main_arg20_30 V)

theorem atR_main_arg20_32 (V : Valuation τ sig (Elt Ideal)) : Q32 V (Proc.devRef .tc main_arg20) = (domT V).lW :=
  (keepS32 (Q31 V) main_arg20 (by decide)).trans (atR_main_arg20_31 V)

theorem atR_main_arg20_33 (V : Valuation τ sig (Elt Ideal)) : Q33 V (Proc.devRef .tc main_arg20) = (domT V).lW :=
  (keepS33 (Q32 V) main_arg20 (by decide)).trans (atR_main_arg20_32 V)

theorem atR_main_arg21_30 (V : Valuation τ sig (Elt Ideal)) : Q30 V (Proc.devRef .tc main_arg21) = (domT V).lb :=
  (keepS30 (Q29 V) main_arg21 (by decide)).trans (atR_main_arg21_29 V)

theorem atR_main_arg21_31 (V : Valuation τ sig (Elt Ideal)) : Q31 V (Proc.devRef .tc main_arg21) = (domT V).lb :=
  (keepS31 (Q30 V) main_arg21 (by decide)).trans (atR_main_arg21_30 V)

theorem atR_main_arg21_32 (V : Valuation τ sig (Elt Ideal)) : Q32 V (Proc.devRef .tc main_arg21) = (domT V).lb :=
  (keepS32 (Q31 V) main_arg21 (by decide)).trans (atR_main_arg21_31 V)

theorem atR_main_arg21_33 (V : Valuation τ sig (Elt Ideal)) : Q33 V (Proc.devRef .tc main_arg21) = (domT V).lb :=
  (keepS33 (Q32 V) main_arg21 (by decide)).trans (atR_main_arg21_32 V)

theorem atR_main_v369_34 (V : Valuation τ sig (Elt Ideal)) : Q34 V (Proc.devRef .tc main_v369) = gcn ((domT V).VU) (domT V).q2 (rowOf (⟨4, by decide⟩ : Fin 6) (domT V).lb) := by
  show after seg34 (Q33 V) (Proc.devRef .tc main_v369) = _
  after_results_simp
  rw [atR_main_arg3_33 V, atR_main_v309_33 V, atR_main_arg20_33 V, atR_main_arg21_33 V]
  exact gcn_stage dot_S4096x128_S128x128_S4096x128_1_0_0_1_n_n rfl dot_S8192x4096_S4096x128_S8192x128_1_0_0_1_n_n rfl _ _ _ 4 (by decide) _ _ _ 4 (by decide) _ _ _ _ _ _ (fun _ => rfl) (fun _ => rfl)

theorem atR_main_arg22_31 (V : Valuation τ sig (Elt Ideal)) : Q31 V (Proc.devRef .tc main_arg22) = (domT V).luW :=
  (keepS31 (Q30 V) main_arg22 (by decide)).trans (atR_main_arg22_30 V)

theorem atR_main_arg22_32 (V : Valuation τ sig (Elt Ideal)) : Q32 V (Proc.devRef .tc main_arg22) = (domT V).luW :=
  (keepS32 (Q31 V) main_arg22 (by decide)).trans (atR_main_arg22_31 V)

theorem atR_main_arg22_33 (V : Valuation τ sig (Elt Ideal)) : Q33 V (Proc.devRef .tc main_arg22) = (domT V).luW :=
  (keepS33 (Q32 V) main_arg22 (by decide)).trans (atR_main_arg22_32 V)

theorem atR_main_arg22_34 (V : Valuation τ sig (Elt Ideal)) : Q34 V (Proc.devRef .tc main_arg22) = (domT V).luW :=
  (keepS34 (Q33 V) main_arg22 (by decide)).trans (atR_main_arg22_33 V)

theorem atR_main_arg23_31 (V : Valuation τ sig (Elt Ideal)) : Q31 V (Proc.devRef .tc main_arg23) = (domT V).lub :=
  (keepS31 (Q30 V) main_arg23 (by decide)).trans (atR_main_arg23_30 V)

theorem atR_main_arg23_32 (V : Valuation τ sig (Elt Ideal)) : Q32 V (Proc.devRef .tc main_arg23) = (domT V).lub :=
  (keepS32 (Q31 V) main_arg23 (by decide)).trans (atR_main_arg23_31 V)

theorem atR_main_arg23_33 (V : Valuation τ sig (Elt Ideal)) : Q33 V (Proc.devRef .tc main_arg23) = (domT V).lub :=
  (keepS33 (Q32 V) main_arg23 (by decide)).trans (atR_main_arg23_32 V)

theorem atR_main_arg23_34 (V : Valuation τ sig (Elt Ideal)) : Q34 V (Proc.devRef .tc main_arg23) = (domT V).lub :=
  (keepS34 (Q33 V) main_arg23 (by decide)).trans (atR_main_arg23_33 V)

theorem atR_main_v378_35 (V : Valuation τ sig (Elt Ideal)) : Q35 V (Proc.devRef .tc main_v378) = (domT V).v2 := by
  show after seg35 (Q34 V) (Proc.devRef .tc main_v378) = _
  after_results_simp
  rw [atR_main_v369_34 V, atR_main_v281_34 V, atR_main_arg22_34 V, atR_main_arg23_34 V]
  exact union_stage (M := 8192) (A := 128) (B := 128) (N := 128) (n := 4) (nW := 4) dot_S8192x256_S256x128_S8192x128_1_0_0_1_n_n rfl _ _ _ _ 2 (by decide) _ _ _ 2 (by decide) _ _ _ _

theorem atR_main_v378_36 (V : Valuation τ sig (Elt Ideal)) : Q36 V (Proc.devRef .tc main_v378) = (domT V).v2 :=
  (keepS36 (Q35 V) main_v378 (by decide)).trans (atR_main_v378_35 V)

theorem atR_main_v378_37 (V : Valuation τ sig (Elt Ideal)) : Q37 V (Proc.devRef .tc main_v378) = (domT V).v2 :=
  (keepS37 (Q36 V) main_v378 (by decide)).trans (atR_main_v378_36 V)

theorem atR_main_v403_38 (V : Valuation τ sig (Elt Ideal)) : Q38 V (Proc.devRef .tc main_v403) = concatenate S8192x256 1 [⟨S8192x128, (domT V).v1⟩, ⟨S8192x128, (domT V).v2⟩] concatenates_S8192x128_S8192x128_S8192x256_d1 := by
  show after seg38 (Q37 V) (Proc.devRef .tc main_v403) = _
  after_results
  rw [atR_main_v281_37 V, atR_main_v378_37 V]

end Cert.ReferenceIdeal.Chain

end
-- ==== Proof.Bridge.lean ====
/-
  The two idealized programs end with the same four result arrays.

  Both programs' results are the same closing concatenations and row slices of the eight arrays u1, u2, v1, v2 of the two
  domains; on each side those arrays are the encoder model's values of the domain's twelve argument arrays; and the two
  launch memories agree on the arguments. So the results agree, array by array.
-/
import proofs.«177232_g71837622993359_cont_sun_m_41_3_alg».proof.Proof.KChainVal4
import proofs.«177232_g71837622993359_cont_sun_m_41_3_alg».proof.Proof.RChainVal
import proofs.«177232_g71837622993359_cont_sun_m_41_3_alg».proof.Proof.RefRun

set_option maxRecDepth 16384

noncomputable section

namespace Cert.Proof.Bridge

open Idealize.ShloMosaic Idealize.ShloMosaic.TcCoe Idealize.SL.Sem Idealize.ShloMosaic.StableHlo

/-- When the two launch memories agree on the source domain's twelve argument arrays, the two programs see the same domain. -/
theorem domS_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Chain.domS (launchContents m' c) = Cert.KernelIdeal.Chain.domS m c := by
  unfold Cert.ReferenceIdeal.Chain.domS Cert.KernelIdeal.Chain.domS
  congr 1

/-- When the two launch memories agree on the target domain's twelve argument arrays, the two programs see the same domain. -/
theorem domT_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Chain.domT (launchContents m' c) = Cert.KernelIdeal.Chain.domT m c := by
  unfold Cert.ReferenceIdeal.Chain.domT Cert.KernelIdeal.Chain.domT
  congr 1

/-- @main's operation list is the 39 stages joined. -/
theorem ops_split : (Cert.ReferenceIdeal.RunValue.ops (F := Ideal)) =
    Cert.ReferenceIdeal.Chain.seg0 ++ (Cert.ReferenceIdeal.Chain.seg1 ++ (Cert.ReferenceIdeal.Chain.seg2 ++ (Cert.ReferenceIdeal.Chain.seg3 ++ (Cert.ReferenceIdeal.Chain.seg4 ++ (Cert.ReferenceIdeal.Chain.seg5 ++ (Cert.ReferenceIdeal.Chain.seg6 ++ (Cert.ReferenceIdeal.Chain.seg7 ++ (Cert.ReferenceIdeal.Chain.seg8 ++ (Cert.ReferenceIdeal.Chain.seg9 ++ (Cert.ReferenceIdeal.Chain.seg10 ++ (Cert.ReferenceIdeal.Chain.seg11 ++ (Cert.ReferenceIdeal.Chain.seg12 ++ (Cert.ReferenceIdeal.Chain.seg13 ++ (Cert.ReferenceIdeal.Chain.seg14 ++ (Cert.ReferenceIdeal.Chain.seg15 ++ (Cert.ReferenceIdeal.Chain.seg16 ++ (Cert.ReferenceIdeal.Chain.seg17 ++ (Cert.ReferenceIdeal.Chain.seg18 ++ (Cert.ReferenceIdeal.Chain.seg19 ++ (Cert.ReferenceIdeal.Chain.seg20 ++ (Cert.ReferenceIdeal.Chain.seg21 ++ (Cert.ReferenceIdeal.Chain.seg22 ++ (Cert.ReferenceIdeal.Chain.seg23 ++ (Cert.ReferenceIdeal.Chain.seg24 ++ (Cert.ReferenceIdeal.Chain.seg25 ++ (Cert.ReferenceIdeal.Chain.seg26 ++ (Cert.ReferenceIdeal.Chain.seg27 ++ (Cert.ReferenceIdeal.Chain.seg28 ++ (Cert.ReferenceIdeal.Chain.seg29 ++ (Cert.ReferenceIdeal.Chain.seg30 ++ (Cert.ReferenceIdeal.Chain.seg31 ++ (Cert.ReferenceIdeal.Chain.seg32 ++ (Cert.ReferenceIdeal.Chain.seg33 ++ (Cert.ReferenceIdeal.Chain.seg34 ++ (Cert.ReferenceIdeal.Chain.seg35 ++ (Cert.ReferenceIdeal.Chain.seg36 ++ (Cert.ReferenceIdeal.Chain.seg37 ++ (Cert.ReferenceIdeal.Chain.seg38)))))))))))))))))))))))))))))))))))))) := rfl

/-- The contents after @main are the contents after the last stage. -/
theorem after_ops (V : Valuation Cert.ReferenceIdeal.τ Cert.ReferenceIdeal.sig (Elt Ideal)) :
    after (Cert.ReferenceIdeal.RunValue.ops (F := Ideal)) V = Cert.ReferenceIdeal.Chain.Q38 V := by
  rw [ops_split]
  simp only [Cert.ReferenceIdeal.Chain.after_append_lines]
  rfl

/-- Result 0: the reference's array is the kernel program's. -/
theorem result0 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hS : Cert.ReferenceIdeal.Chain.domS (launchContents m' c) = Cert.KernelIdeal.Chain.domS m c)
    (hT : Cert.ReferenceIdeal.Chain.domT (launchContents m' c) = Cert.KernelIdeal.Chain.domT m c) :
    after (Cert.ReferenceIdeal.RunValue.ops (F := Ideal)) (launchContents m' c) (Proc.devRef .tc Cert.ReferenceIdeal.main_v406)
      = Cert.KernelIdeal.Gen.W49 m ρ c (Proc.devRef .tc Cert.KernelIdeal.main_v202) := by
  rw [after_ops, Cert.ReferenceIdeal.Chain.atR_main_v406_38, Cert.KernelIdeal.Chain.at_main_v202_49, hS, hT]

/-- Result 1: the reference's array is the kernel program's. -/
theorem result1 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hS : Cert.ReferenceIdeal.Chain.domS (launchContents m' c) = Cert.KernelIdeal.Chain.domS m c)
    (hT : Cert.ReferenceIdeal.Chain.domT (launchContents m' c) = Cert.KernelIdeal.Chain.domT m c) :
    after (Cert.ReferenceIdeal.RunValue.ops (F := Ideal)) (launchContents m' c) (Proc.devRef .tc Cert.ReferenceIdeal.main_v205)
      = Cert.KernelIdeal.Gen.W49 m ρ c (Proc.devRef .tc Cert.KernelIdeal.main_v101) := by
  rw [after_ops, Cert.ReferenceIdeal.Chain.atR_main_v205_38, Cert.KernelIdeal.Chain.at_main_v101_49, hS]

/-- Result 2: the reference's array is the kernel program's. -/
theorem result2 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hS : Cert.ReferenceIdeal.Chain.domS (launchContents m' c) = Cert.KernelIdeal.Chain.domS m c)
    (hT : Cert.ReferenceIdeal.Chain.domT (launchContents m' c) = Cert.KernelIdeal.Chain.domT m c) :
    after (Cert.ReferenceIdeal.RunValue.ops (F := Ideal)) (launchContents m' c) (Proc.devRef .tc Cert.ReferenceIdeal.main_v409)
      = Cert.KernelIdeal.Gen.W49 m ρ c (Proc.devRef .tc Cert.KernelIdeal.main_v205) := by
  rw [after_ops, Cert.ReferenceIdeal.Chain.atR_main_v409_38, Cert.KernelIdeal.Chain.at_main_v205_49, hS, hT]

/-- Result 3: the reference's array is the kernel program's. -/
theorem result3 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hS : Cert.ReferenceIdeal.Chain.domS (launchContents m' c) = Cert.KernelIdeal.Chain.domS m c)
    (hT : Cert.ReferenceIdeal.Chain.domT (launchContents m' c) = Cert.KernelIdeal.Chain.domT m c) :
    after (Cert.ReferenceIdeal.RunValue.ops (F := Ideal)) (launchContents m' c) (Proc.devRef .tc Cert.ReferenceIdeal.main_v403)
      = Cert.KernelIdeal.Gen.W49 m ρ c (Proc.devRef .tc Cert.KernelIdeal.main_v199) := by
  rw [after_ops, Cert.ReferenceIdeal.Chain.atR_main_v403_38, Cert.KernelIdeal.Chain.at_main_v199_49, hT]

end Cert.Proof.Bridge

end
-- ==== Proof.lean ====
/-
  The certificate: a two-domain variational bipartite graph encoder, fused into 24 TensorCore kernels, against its
  plain reference.

  Per domain the encoder is twelve values: two feature transforms x · W, two propagation steps leaky(adj · y + b) fused
  with the next transform, two union projections of a propagated block beside the embeddings (rectified in the first
  layer), and the same six again from the first layer's outputs. The kernel program computes each in one streaming pass
  over an adjacency, with the inputs narrowed to a shorter float format (the identity on extended reals) and the union
  weight split into its two halves so that [z | x] · [wa ; wb] is formed as z · wa + x · wb — the one algebraic law the
  two programs differ by, a regrouping of a finite sum that holds for every extended real. The reference looks the
  embedding rows up at the indices 0 … N − 1, which is the table itself. The ideal pass rewrote nothing, so the
  preservation claim is trivial; the three frames are the programs' runs with the results forgotten.
-/
import proofs.«177232_g71837622993359_cont_sun_m_41_3_alg».proof.Defs
import proofs.«177232_g71837622993359_cont_sun_m_41_3_alg».proof.Proof.Gen.Kernel
import proofs.«177232_g71837622993359_cont_sun_m_41_3_alg».proof.Proof.Gen.Kernel.Frame
import proofs.«177232_g71837622993359_cont_sun_m_41_3_alg».proof.Proof.Gen.KernelIdeal
import proofs.«177232_g71837622993359_cont_sun_m_41_3_alg».proof.Proof.Gen.KernelIdeal.Frame
import proofs.«177232_g71837622993359_cont_sun_m_41_3_alg».proof.Proof.Gen.ReferenceIdeal
import proofs.«177232_g71837622993359_cont_sun_m_41_3_alg».proof.Proof.Gen.Pre_finite_inputs
import proofs.«177232_g71837622993359_cont_sun_m_41_3_alg».proof.Proof.KernelRun
import proofs.«177232_g71837622993359_cont_sun_m_41_3_alg».proof.Proof.RefRun
import proofs.«177232_g71837622993359_cont_sun_m_41_3_alg».proof.Proof.Bridge
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference's run with its four results forgotten. -/
theorem frame_ri : Cert.frame_ReferenceIdeal := fun m ρ _ =>
  (θ_run Cert.ReferenceIdeal.defs _ _).mono (fun _ h c => (h c).2.2.2.2) (Cert.ReferenceIdeal.RunValue.run_results (F := Ideal) m ρ)

theorem preserves : Cert.preserves_Kernel_KernelIdeal := trivial

/-- The two idealized programs, run from memories that agree on the arguments, end with equal results: the kernel
    program's run names its results, the reference's run names its own, and the two are one array each. -/
theorem algebraic : Cert.algebraic_KernelIdeal_ReferenceIdeal := by
  intro m ρ m' ρ' _ hagree
  refine ⟨fun c => Cert.KernelIdeal.Gen.W49 m ρ c (Proc.devRef .tc Cert.KernelIdeal.main_v202),
    fun c => Cert.KernelIdeal.Gen.W49 m ρ c (Proc.devRef .tc Cert.KernelIdeal.main_v101),
    fun c => Cert.KernelIdeal.Gen.W49 m ρ c (Proc.devRef .tc Cert.KernelIdeal.main_v205),
    fun c => Cert.KernelIdeal.Gen.W49 m ρ c (Proc.devRef .tc Cert.KernelIdeal.main_v199),
    Cert.KernelIdeal.RunValue.run_results (F := Ideal) m ρ, ?_⟩
  refine (θ_run Cert.ReferenceIdeal.defs _ _).mono (fun _ h c => ?_) (Cert.ReferenceIdeal.RunValue.run_results (F := Ideal) m' ρ')
  obtain ⟨h0, h1, h2, h3, h4, h5, h6, h7, h8, h9, h10, h11, h12, h13, h14, h15, h16, h17, h18, h19, h20, h21, h22, h23⟩ := hagree c
  have hS := Bridge.domS_agree m m' c h0 h1 h4 h5 h8 h9 h10 h11 h12 h13 h14 h15
  have hT := Bridge.domT_agree m m' c h2 h3 h6 h7 h16 h17 h18 h19 h20 h21 h22 h23
  obtain ⟨r0, r1, r2, r3, rargs⟩ := h c
  exact ⟨r0.trans (Bridge.result0 m ρ m' c hS hT), r1.trans (Bridge.result1 m ρ m' c hS hT),
    r2.trans (Bridge.result2 m ρ m' c hS hT), r3.trans (Bridge.result3 m ρ m' c hS hT), rargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
